-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x320000 : S_.BroadcastsInDim S2x320000 (![] : Fin 0 → Fin S2x320000.rank)
  reducesTo_S2x320000_S_d0_1 : S2x320000.ReducesTo [0, 1] S_

variable [Facts]

def fn_part1 {F : FTy → Type} [FloatOps F] (main_arg1 : IVec S2x320000 32) (main_v13 : IVec S_ 1) (main_v15 : IVec S2x320000 1) (main_c_5 : IVec S_ 32) : IVec S_ 1 :=
  let main_v16 : IVec S2x320000 32 := broadcastInDim S2x320000 ![] bcast_S_S2x320000 main_c_5
  let main_v17 : IVec S2x320000 1 := cmpi .sle main_arg1 main_v16
  let main_v18 : IVec S2x320000 1 := andi main_v15 main_v17
  let main_c_6 : IVec S_ 1 := constantI S_ 1 1#1
  let main_v19 : IVec S_ 1 := (fun x v => Host.reduce IntOp.andi x v reducesTo_S2x320000_S_d0_1 h_S_) main_v18 main_c_6
  let main_v20 : IVec S_ 1 := andi main_v13 main_v19
  main_v20

def fn {F : FTy → Type} [FloatOps F] (main_arg0 : FVec F S10000x128 .f32) (main_arg1 : IVec S2x320000 32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S2x320000 32 := broadcastInDim S2x320000 ![] bcast_S_S2x320000 main_c_4
  let main_v15 : IVec S2x320000 1 := cmpi .sge main_arg1 main_v14
  let main_c_5 : IVec S_ 32 := constantI S_ 32 9999#32
  fn_part1 (F := F) main_arg1 main_v13 main_v15 main_c_5
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S7680 : Shape := ⟨1, ![7680]⟩
abbrev S327680 : Shape := ⟨1, ![327680]⟩
abbrev S240x128 : Shape := ⟨2, ![240, 128]⟩
abbrev S10240x128 : Shape := ⟨2, ![10240, 128]⟩
abbrev S10256 : Shape := ⟨1, ![10256]⟩
abbrev S1x128 : Shape := ⟨2, ![1, 128]⟩
abbrev S32x10256 : Shape := ⟨2, ![32, 10256]⟩
abbrev S1024 : Shape := ⟨1, ![1024]⟩
abbrev S16 : Shape := ⟨1, ![16]⟩
abbrev S1x10256 : Shape := ⟨2, ![1, 10256]⟩
abbrev S32x10240 : Shape := ⟨2, ![32, 10240]⟩
abbrev S32x10240x1 : Shape := ⟨3, ![32, 10240, 1]⟩
abbrev S128x10240 : Shape := ⟨2, ![128, 10240]⟩
abbrev S10240x1 : Shape := ⟨2, ![10240, 1]⟩
abbrev S1280x128 : Shape := ⟨2, ![1280, 128]⟩
abbrev S32x1280x1 : Shape := ⟨3, ![32, 1280, 1]⟩
abbrev S128x1280 : Shape := ⟨2, ![128, 1280]⟩
abbrev S1280x1 : Shape := ⟨2, ![1280, 1]⟩
abbrev S10240 : Shape := ⟨1, ![10240]⟩
abbrev S1x10240 : Shape := ⟨2, ![1, 10240]⟩

abbrev nBuf : Table → Nat
  | .hbm => 30
  | .local .tc .vmem => 20
  | .local .scVector .vmem => 15
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S1x320000, .i32⟩
  | .hbm, ⟨5, _⟩ => ⟨S320000, .i32⟩
  | .hbm, ⟨6, _⟩ => ⟨S1x320000, .i32⟩
  | .hbm, ⟨7, _⟩ => ⟨S320000, .i32⟩
  | .hbm, ⟨8, _⟩ => ⟨S_, .i32⟩
  | .hbm, ⟨9, _⟩ => ⟨S7680, .i32⟩
  | .hbm, ⟨10, _⟩ => ⟨S327680, .i32⟩
  | .hbm, ⟨11, _⟩ => ⟨S_, .i32⟩
  | .hbm, ⟨12, _⟩ => ⟨S7680, .i32⟩
  | .hbm, ⟨13, _⟩ => ⟨S327680, .i32⟩
  | .hbm, ⟨14, _⟩ => ⟨S_, .f32⟩
  | .hbm, ⟨15, _⟩ => ⟨S240x128, .f32⟩
  | .hbm, ⟨16, _⟩ => ⟨S10240x128, .f32⟩
  | .hbm, ⟨17, _⟩ => ⟨S_, .f32⟩
  | .hbm, ⟨18, _⟩ => ⟨S10256, .f32⟩
  | .hbm, ⟨19, _⟩ => ⟨S128x128, .f32⟩
  | .hbm, ⟨20, _⟩ => ⟨S1x128, .f32⟩
  | .hbm, ⟨21, _⟩ => ⟨S32x10256, .f32⟩
  | .hbm, ⟨22, _⟩ => ⟨S32x10240, .f32⟩
  | .hbm, ⟨23, _⟩ => ⟨S32x10240x1, .f32⟩
  | .hbm, ⟨24, _⟩ => ⟨S10240x128, .f32⟩
  | .hbm, ⟨25, _⟩ => ⟨S128x10240, .f32⟩
  | .hbm, ⟨26, _⟩ => ⟨S10240x1, .f32⟩
  | .hbm, ⟨27, _⟩ => ⟨S128x10240, .f32⟩
  | .hbm, ⟨28, _⟩ => ⟨S10240x128, .f32⟩
  | .hbm, ⟨29, _⟩ => ⟨S10000x128, .f32⟩
  | .local .tc .vmem, ⟨0, _⟩ => ⟨S1280x128, .f32⟩
  | .local .tc .vmem, ⟨1, _⟩ => ⟨S1280x128, .f32⟩
  | .local .tc .vmem, ⟨2, _⟩ => ⟨S128x128, .f32⟩
  | .local .tc .vmem, ⟨3, _⟩ => ⟨S32x1280x1, .f32⟩
  | .local .tc .vmem, ⟨4, _⟩ => ⟨S32x1280x1, .f32⟩
  | .local .tc .vmem, ⟨5, _⟩ => ⟨S1280x128, .f32⟩
  | .local .tc .vmem, ⟨6, _⟩ => ⟨S1280x128, .f32⟩
  | .local .tc .vmem, ⟨7, _⟩ => ⟨S128x1280, .f32⟩
  | .local .tc .vmem, ⟨8, _⟩ => ⟨S128x1280, .f32⟩
  | .local .tc .vmem, ⟨9, _⟩ => ⟨S1280x1, .f32⟩
  | .local .tc .vmem, ⟨10, _⟩ => ⟨S1280x1, .f32⟩
  | .local .tc .vmem, ⟨11, _⟩ => ⟨S128x1280, .f32⟩
  | .local .tc .vmem, ⟨12, _⟩ => ⟨S128x1280, .f32⟩
  | .local .tc .vmem, ⟨13, _⟩ => ⟨S1280x128, .f32⟩
  | .local .tc .vmem, ⟨14, _⟩ => ⟨S1280x128, .f32⟩
  | .local .tc .vmem, ⟨15, _⟩ => ⟨S1280x1, .f32⟩
  | .local .tc .vmem, ⟨16, _⟩ => ⟨S1280x1, .f32⟩
  | .local .tc .vmem, ⟨17, _⟩ => ⟨S1x128, .f32⟩
  | .local .tc .vmem, ⟨18, _⟩ => ⟨S1280x128, .f32⟩
  | .local .tc .vmem, ⟨19, _⟩ => ⟨S1280x128, .f32⟩
  | .local .scVector .vmem, ⟨0, _⟩ => ⟨S1024, .i32⟩
  | .local .scVector .vmem, ⟨1, _⟩ => ⟨S1024, .i32⟩
  | .local .scVector .vmem, ⟨2, _⟩ => ⟨S10256, .f32⟩
  | .local .scVector .vmem, ⟨3, _⟩ => ⟨S1024, .i32⟩
  | .local .scVector .vmem, ⟨4, _⟩ => ⟨S1024, .i32⟩
  | .local .scVector .vmem, ⟨5, _⟩ => ⟨S1024, .i32⟩
  | .local .scVector .vmem, ⟨6, _⟩ => ⟨S1024, .i32⟩
  | .local .scVector .vmem, ⟨7, _⟩ => ⟨S10240, .f32⟩
  | .local .scVector .vmem, ⟨8, _⟩ => ⟨S10240, .f32⟩
  | .local .scVector .vmem, ⟨9, _⟩ => ⟨S10240, .f32⟩
  | .local .scVector .vmem, ⟨10, _⟩ => ⟨S10240, .f32⟩
  | .local .scVector .vmem, ⟨11, _⟩ => ⟨S10256, .f32⟩
  | .local .scVector .vmem, ⟨12, _⟩ => ⟨S10256, .f32⟩
  | .local .scVector .vmem, ⟨13, _⟩ => ⟨S10256, .f32⟩
  | .local .scVector .vmem, ⟨14, _⟩ => ⟨S10256, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 40 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTables nBuf rfl bufTy 4 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v5_scv : Ref sig .scVector := ⟨.hbm, 10, rfl⟩
abbrev main_v7_scv : Ref sig .scVector := ⟨.hbm, 13, rfl⟩
abbrev main_v10_scv : Ref sig .scVector := ⟨.hbm, 18, rfl⟩
abbrev main_v13_scv : Ref sig .scVector := ⟨.hbm, 21, rfl⟩
abbrev main_v16_1_scv : Ref sig .scVector := ⟨.hbm, 25, rfl⟩
abbrev main_v17_scv : Ref sig .scVector := ⟨.hbm, 27, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc3_stg0_0 : Ref sig .tc := ⟨.vmem, 11, rfl⟩
abbrev cc3_stg0_1 : Ref sig .tc := ⟨.vmem, 12, rfl⟩
abbrev cc3_stg1_0 : Ref sig .tc := ⟨.vmem, 13, rfl⟩
abbrev cc3_stg1_1 : Ref sig .tc := ⟨.vmem, 14, rfl⟩
abbrev cc3_stg2_0 : Ref sig .tc := ⟨.vmem, 15, rfl⟩
abbrev cc3_stg2_1 : Ref sig .tc := ⟨.vmem, 16, rfl⟩
abbrev cc3_stg3_0 : Ref sig .tc := ⟨.vmem, 17, rfl⟩
abbrev cc3_stg4_0 : Ref sig .tc := ⟨.vmem, 18, rfl⟩
abbrev cc3_stg4_1 : Ref sig .tc := ⟨.vmem, 19, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc2_scratch3 : Ref sig .scVector := ⟨.vmem, 6, rfl⟩
abbrev cc2_scratch4 : Ref sig .scVector := ⟨.vmem, 7, rfl⟩
abbrev cc2_scratch5 : Ref sig .scVector := ⟨.vmem, 8, rfl⟩
abbrev cc2_scratch6 : Ref sig .scVector := ⟨.vmem, 9, rfl⟩
abbrev cc2_scratch7 : Ref sig .scVector := ⟨.vmem, 10, rfl⟩
abbrev cc2_scratch8 : Ref sig .scVector := ⟨.vmem, 11, rfl⟩
abbrev cc2_scratch9 : Ref sig .scVector := ⟨.vmem, 12, rfl⟩
abbrev cc2_scratch10 : Ref sig .scVector := ⟨.vmem, 13, rfl⟩
abbrev cc2_scratch11 : Ref sig .scVector := ⟨.vmem, 14, rfl⟩
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem4_0 : DmaSem sig := 38
abbrev cc3_sem4_1 : DmaSem sig := 39
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c10_i32 : BitVec 32 := 10#32
  let v3 : BitVec 32 := Scalar.addi c0_i32_0 c10_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v4 : BitVec 32 := Scalar.muli v1 c10240_i32
  let c0_i32_0 : BitVec 32 := 0#32
  let c1_i32 : BitVec 32 := 1#32
  let arg9 : BitVec 32 := Scf.iv c0_i32_0 c1_i32 k0_t1
  let c1024_i32 : BitVec 32 := 1024#32
  let v5 : BitVec 32 := Scalar.muli arg9 c1024_i32
  let v6 : BitVec 32 := Scalar.addi v4 v5
  ![v6.toNat]

def k0_chk1 (v11 : IVec S16 32) : Prop :=
  (∀ a x, ((![v11] : Fin 1 → IVec S16 32) a x).toNat < S10256.size a)
instance k0_chk1.dec : ∀ (v11 : IVec S16 32), Decidable (k0_chk1 v11) := fun v11 => decidable_of_iff' _ (Iff.of_eq (k0_chk1.eq_1 v11))
theorem k0_idx1_inb : ∀ (v11 : IVec S16 32) (k0_hw1 : k0_chk1 v11), ∀ a x, ((![v11] : Fin 1 → IVec S16 32) a x).toNat < S10256.size a := fun v11 k0_hw1 => k0_hw1

def k0_chk2 (v16 : IVec S16 32) : Prop :=
  (∀ a x, ((![v16] : Fin 1 → IVec S16 32) a x).toNat < S10256.size a)
instance k0_chk2.dec : ∀ (v16 : IVec S16 32), Decidable (k0_chk2 v16) := fun v16 => decidable_of_iff' _ (Iff.of_eq (k0_chk2.eq_1 v16))
theorem k0_idx2_inb : ∀ (v16 : IVec S16 32) (k0_hw2 : k0_chk2 v16), ∀ a x, ((![v16] : Fin 1 → IVec S16 32) a x).toNat < S10256.size a := fun v16 k0_hw2 => k0_hw2

def k0_chk3 (v21 : IVec S16 32) : Prop :=
  (∀ a x, ((![v21] : Fin 1 → IVec S16 32) a x).toNat < S10256.size a)
instance k0_chk3.dec : ∀ (v21 : IVec S16 32), Decidable (k0_chk3 v21) := fun v21 => decidable_of_iff' _ (Iff.of_eq (k0_chk3.eq_1 v21))
theorem k0_idx3_inb : ∀ (v21 : IVec S16 32) (k0_hw3 : k0_chk3 v21), ∀ a x, ((![v21] : Fin 1 → IVec S16 32) a x).toNat < S10256.size a := fun v21 k0_hw3 => k0_hw3

def k0_chk4 (v26 : IVec S16 32) : Prop :=
  (∀ a x, ((![v26] : Fin 1 → IVec S16 32) a x).toNat < S10256.size a)
instance k0_chk4.dec : ∀ (v26 : IVec S16 32), Decidable (k0_chk4 v26) := fun v26 => decidable_of_iff' _ (Iff.of_eq (k0_chk4.eq_1 v26))
theorem k0_idx4_inb : ∀ (v26 : IVec S16 32) (k0_hw4 : k0_chk4 v26), ∀ a x, ((![v26] : Fin 1 → IVec S16 32) a x).toNat < S10256.size a := fun v26 k0_hw4 => k0_hw4

def k0_chk5 (v31 : IVec S16 32) : Prop :=
  (∀ a x, ((![v31] : Fin 1 → IVec S16 32) a x).toNat < S10256.size a)
instance k0_chk5.dec : ∀ (v31 : IVec S16 32), Decidable (k0_chk5 v31) := fun v31 => decidable_of_iff' _ (Iff.of_eq (k0_chk5.eq_1 v31))
theorem k0_idx5_inb : ∀ (v31 : IVec S16 32) (k0_hw5 : k0_chk5 v31), ∀ a x, ((![v31] : Fin 1 → IVec S16 32) a x).toNat < S10256.size a := fun v31 k0_hw5 => k0_hw5

def k0_chk6 (v36 : IVec S16 32) : Prop :=
  (∀ a x, ((![v36] : Fin 1 → IVec S16 32) a x).toNat < S10256.size a)
instance k0_chk6.dec : ∀ (v36 : IVec S16 32), Decidable (k0_chk6 v36) := fun v36 => decidable_of_iff' _ (Iff.of_eq (k0_chk6.eq_1 v36))
theorem k0_idx6_inb : ∀ (v36 : IVec S16 32) (k0_hw6 : k0_chk6 v36), ∀ a x, ((![v36] : Fin 1 → IVec S16 32) a x).toNat < S10256.size a := fun v36 k0_hw6 => k0_hw6

def k0_chk7 (v41 : IVec S16 32) : Prop :=
  (∀ a x, ((![v41] : Fin 1 → IVec S16 32) a x).toNat < S10256.size a)
instance k0_chk7.dec : ∀ (v41 : IVec S16 32), Decidable (k0_chk7 v41) := fun v41 => decidable_of_iff' _ (Iff.of_eq (k0_chk7.eq_1 v41))
theorem k0_idx7_inb : ∀ (v41 : IVec S16 32) (k0_hw7 : k0_chk7 v41), ∀ a x, ((![v41] : Fin 1 → IVec S16 32) a x).toNat < S10256.size a := fun v41 k0_hw7 => k0_hw7

def k0_chk8 (v46 : IVec S16 32) : Prop :=
  (∀ a x, ((![v46] : Fin 1 → IVec S16 32) a x).toNat < S10256.size a)
instance k0_chk8.dec : ∀ (v46 : IVec S16 32), Decidable (k0_chk8 v46) := fun v46 => decidable_of_iff' _ (Iff.of_eq (k0_chk8.eq_1 v46))
theorem k0_idx8_inb : ∀ (v46 : IVec S16 32) (k0_hw8 : k0_chk8 v46), ∀ a x, ((![v46] : Fin 1 → IVec S16 32) a x).toNat < S10256.size a := fun v46 k0_hw8 => k0_hw8

def k0_chk9 (v51 : IVec S16 32) : Prop :=
  (∀ a x, ((![v51] : Fin 1 → IVec S16 32) a x).toNat < S10256.size a)
instance k0_chk9.dec : ∀ (v51 : IVec S16 32), Decidable (k0_chk9 v51) := fun v51 => decidable_of_iff' _ (Iff.of_eq (k0_chk9.eq_1 v51))
theorem k0_idx9_inb : ∀ (v51 : IVec S16 32) (k0_hw9 : k0_chk9 v51), ∀ a x, ((![v51] : Fin 1 → IVec S16 32) a x).toNat < S10256.size a := fun v51 k0_hw9 => k0_hw9

def k0_chk10 (v56 : IVec S16 32) : Prop :=
  (∀ a x, ((![v56] : Fin 1 → IVec S16 32) a x).toNat < S10256.size a)
instance k0_chk10.dec : ∀ (v56 : IVec S16 32), Decidable (k0_chk10 v56) := fun v56 => decidable_of_iff' _ (Iff.of_eq (k0_chk10.eq_1 v56))
theorem k0_idx10_inb : ∀ (v56 : IVec S16 32) (k0_hw10 : k0_chk10 v56), ∀ a x, ((![v56] : Fin 1 → IVec S16 32) a x).toNat < S10256.size a := fun v56 k0_hw10 => k0_hw10

def k0_chk11 (v61 : IVec S16 32) : Prop :=
  (∀ a x, ((![v61] : Fin 1 → IVec S16 32) a x).toNat < S10256.size a)
instance k0_chk11.dec : ∀ (v61 : IVec S16 32), Decidable (k0_chk11 v61) := fun v61 => decidable_of_iff' _ (Iff.of_eq (k0_chk11.eq_1 v61))
theorem k0_idx11_inb : ∀ (v61 : IVec S16 32) (k0_hw11 : k0_chk11 v61), ∀ a x, ((![v61] : Fin 1 → IVec S16 32) a x).toNat < S10256.size a := fun v61 k0_hw11 => k0_hw11

def k0_chk12 (v66 : IVec S16 32) : Prop :=
  (∀ a x, ((![v66] : Fin 1 → IVec S16 32) a x).toNat < S10256.size a)
instance k0_chk12.dec : ∀ (v66 : IVec S16 32), Decidable (k0_chk12 v66) := fun v66 => decidable_of_iff' _ (Iff.of_eq (k0_chk12.eq_1 v66))
theorem k0_idx12_inb : ∀ (v66 : IVec S16 32) (k0_hw12 : k0_chk12 v66), ∀ a x, ((![v66] : Fin 1 → IVec S16 32) a x).toNat < S10256.size a := fun v66 k0_hw12 => k0_hw12

def k0_chk13 (v71 : IVec S16 32) : Prop :=
  (∀ a x, ((![v71] : Fin 1 → IVec S16 32) a x).toNat < S10256.size a)
instance k0_chk13.dec : ∀ (v71 : IVec S16 32), Decidable (k0_chk13 v71) := fun v71 => decidable_of_iff' _ (Iff.of_eq (k0_chk13.eq_1 v71))
theorem k0_idx13_inb : ∀ (v71 : IVec S16 32) (k0_hw13 : k0_chk13 v71), ∀ a x, ((![v71] : Fin 1 → IVec S16 32) a x).toNat < S10256.size a := fun v71 k0_hw13 => k0_hw13

def k0_chk14 (v76 : IVec S16 32) : Prop :=
  (∀ a x, ((![v76] : Fin 1 → IVec S16 32) a x).toNat < S10256.size a)
instance k0_chk14.dec : ∀ (v76 : IVec S16 32), Decidable (k0_chk14 v76) := fun v76 => decidable_of_iff' _ (Iff.of_eq (k0_chk14.eq_1 v76))
theorem k0_idx14_inb : ∀ (v76 : IVec S16 32) (k0_hw14 : k0_chk14 v76), ∀ a x, ((![v76] : Fin 1 → IVec S16 32) a x).toNat < S10256.size a := fun v76 k0_hw14 => k0_hw14

def k0_chk15 (v81 : IVec S16 32) : Prop :=
  (∀ a x, ((![v81] : Fin 1 → IVec S16 32) a x).toNat < S10256.size a)
instance k0_chk15.dec : ∀ (v81 : IVec S16 32), Decidable (k0_chk15 v81) := fun v81 => decidable_of_iff' _ (Iff.of_eq (k0_chk15.eq_1 v81))
theorem k0_idx15_inb : ∀ (v81 : IVec S16 32) (k0_hw15 : k0_chk15 v81), ∀ a x, ((![v81] : Fin 1 → IVec S16 32) a x).toNat < S10256.size a := fun v81 k0_hw15 => k0_hw15

def k0_chk16 (v86 : IVec S16 32) : Prop :=
  (∀ a x, ((![v86] : Fin 1 → IVec S16 32) a x).toNat < S10256.size a)
instance k0_chk16.dec : ∀ (v86 : IVec S16 32), Decidable (k0_chk16 v86) := fun v86 => decidable_of_iff' _ (Iff.of_eq (k0_chk16.eq_1 v86))
theorem k0_idx16_inb : ∀ (v86 : IVec S16 32) (k0_hw16 : k0_chk16 v86), ∀ a x, ((![v86] : Fin 1 → IVec S16 32) a x).toNat < S10256.size a := fun v86 k0_hw16 => k0_hw16

def k0_chk17 (v91 : IVec S16 32) : Prop :=
  (∀ a x, ((![v91] : Fin 1 → IVec S16 32) a x).toNat < S10256.size a)
instance k0_chk17.dec : ∀ (v91 : IVec S16 32), Decidable (k0_chk17 v91) := fun v91 => decidable_of_iff' _ (Iff.of_eq (k0_chk17.eq_1 v91))
theorem k0_idx17_inb : ∀ (v91 : IVec S16 32) (k0_hw17 : k0_chk17 v91), ∀ a x, ((![v91] : Fin 1 → IVec S16 32) a x).toNat < S10256.size a := fun v91 k0_hw17 => k0_hw17

def k0_chk18 (v96 : IVec S16 32) : Prop :=
  (∀ a x, ((![v96] : Fin 1 → IVec S16 32) a x).toNat < S10256.size a)
instance k0_chk18.dec : ∀ (v96 : IVec S16 32), Decidable (k0_chk18 v96) := fun v96 => decidable_of_iff' _ (Iff.of_eq (k0_chk18.eq_1 v96))
theorem k0_idx18_inb : ∀ (v96 : IVec S16 32) (k0_hw18 : k0_chk18 v96), ∀ a x, ((![v96] : Fin 1 → IVec S16 32) a x).toNat < S10256.size a := fun v96 k0_hw18 => k0_hw18

def k0_chk19 (v101 : IVec S16 32) : Prop :=
  (∀ a x, ((![v101] : Fin 1 → IVec S16 32) a x).toNat < S10256.size a)
instance k0_chk19.dec : ∀ (v101 : IVec S16 32), Decidable (k0_chk19 v101) := fun v101 => decidable_of_iff' _ (Iff.of_eq (k0_chk19.eq_1 v101))
theorem k0_idx19_inb : ∀ (v101 : IVec S16 32) (k0_hw19 : k0_chk19 v101), ∀ a x, ((![v101] : Fin 1 → IVec S16 32) a x).toNat < S10256.size a := fun v101 k0_hw19 => k0_hw19

def k0_chk20 (v106 : IVec S16 32) : Prop :=
  (∀ a x, ((![v106] : Fin 1 → IVec S16 32) a x).toNat < S10256.size a)
instance k0_chk20.dec : ∀ (v106 : IVec S16 32), Decidable (k0_chk20 v106) := fun v106 => decidable_of_iff' _ (Iff.of_eq (k0_chk20.eq_1 v106))
theorem k0_idx20_inb : ∀ (v106 : IVec S16 32) (k0_hw20 : k0_chk20 v106), ∀ a x, ((![v106] : Fin 1 → IVec S16 32) a x).toNat < S10256.size a := fun v106 k0_hw20 => k0_hw20

def k0_chk21 (v111 : IVec S16 32) : Prop :=
  (∀ a x, ((![v111] : Fin 1 → IVec S16 32) a x).toNat < S10256.size a)
instance k0_chk21.dec : ∀ (v111 : IVec S16 32), Decidable (k0_chk21 v111) := fun v111 => decidable_of_iff' _ (Iff.of_eq (k0_chk21.eq_1 v111))
theorem k0_idx21_inb : ∀ (v111 : IVec S16 32) (k0_hw21 : k0_chk21 v111), ∀ a x, ((![v111] : Fin 1 → IVec S16 32) a x).toNat < S10256.size a := fun v111 k0_hw21 => k0_hw21

def k0_chk22 (v116 : IVec S16 32) : Prop :=
  (∀ a x, ((![v116] : Fin 1 → IVec S16 32) a x).toNat < S10256.size a)
instance k0_chk22.dec : ∀ (v116 : IVec S16 32), Decidable (k0_chk22 v116) := fun v116 => decidable_of_iff' _ (Iff.of_eq (k0_chk22.eq_1 v116))
theorem k0_idx22_inb : ∀ (v116 : IVec S16 32) (k0_hw22 : k0_chk22 v116), ∀ a x, ((![v116] : Fin 1 → IVec S16 32) a x).toNat < S10256.size a := fun v116 k0_hw22 => k0_hw22

def k0_chk23 (v121 : IVec S16 32) : Prop :=
  (∀ a x, ((![v121] : Fin 1 → IVec S16 32) a x).toNat < S10256.size a)
instance k0_chk23.dec : ∀ (v121 : IVec S16 32), Decidable (k0_chk23 v121) := fun v121 => decidable_of_iff' _ (Iff.of_eq (k0_chk23.eq_1 v121))
theorem k0_idx23_inb : ∀ (v121 : IVec S16 32) (k0_hw23 : k0_chk23 v121), ∀ a x, ((![v121] : Fin 1 → IVec S16 32) a x).toNat < S10256.size a := fun v121 k0_hw23 => k0_hw23

def k0_chk24 (v126 : IVec S16 32) : Prop :=
  (∀ a x, ((![v126] : Fin 1 → IVec S16 32) a x).toNat < S10256.size a)
instance k0_chk24.dec : ∀ (v126 : IVec S16 32), Decidable (k0_chk24 v126) := fun v126 => decidable_of_iff' _ (Iff.of_eq (k0_chk24.eq_1 v126))
theorem k0_idx24_inb : ∀ (v126 : IVec S16 32) (k0_hw24 : k0_chk24 v126), ∀ a x, ((![v126] : Fin 1 → IVec S16 32) a x).toNat < S10256.size a := fun v126 k0_hw24 => k0_hw24

def k0_chk25 (v131 : IVec S16 32) : Prop :=
  (∀ a x, ((![v131] : Fin 1 → IVec S16 32) a x).toNat < S10256.size a)
instance k0_chk25.dec : ∀ (v131 : IVec S16 32), Decidable (k0_chk25 v131) := fun v131 => decidable_of_iff' _ (Iff.of_eq (k0_chk25.eq_1 v131))
theorem k0_idx25_inb : ∀ (v131 : IVec S16 32) (k0_hw25 : k0_chk25 v131), ∀ a x, ((![v131] : Fin 1 → IVec S16 32) a x).toNat < S10256.size a := fun v131 k0_hw25 => k0_hw25

def k0_chk26 (v136 : IVec S16 32) : Prop :=
  (∀ a x, ((![v136] : Fin 1 → IVec S16 32) a x).toNat < S10256.size a)
instance k0_chk26.dec : ∀ (v136 : IVec S16 32), Decidable (k0_chk26 v136) := fun v136 => decidable_of_iff' _ (Iff.of_eq (k0_chk26.eq_1 v136))
theorem k0_idx26_inb : ∀ (v136 : IVec S16 32) (k0_hw26 : k0_chk26 v136), ∀ a x, ((![v136] : Fin 1 → IVec S16 32) a x).toNat < S10256.size a := fun v136 k0_hw26 => k0_hw26

def k0_chk27 (v141 : IVec S16 32) : Prop :=
  (∀ a x, ((![v141] : Fin 1 → IVec S16 32) a x).toNat < S10256.size a)
instance k0_chk27.dec : ∀ (v141 : IVec S16 32), Decidable (k0_chk27 v141) := fun v141 => decidable_of_iff' _ (Iff.of_eq (k0_chk27.eq_1 v141))
theorem k0_idx27_inb : ∀ (v141 : IVec S16 32) (k0_hw27 : k0_chk27 v141), ∀ a x, ((![v141] : Fin 1 → IVec S16 32) a x).toNat < S10256.size a := fun v141 k0_hw27 => k0_hw27

def k0_chk28 (v146 : IVec S16 32) : Prop :=
  (∀ a x, ((![v146] : Fin 1 → IVec S16 32) a x).toNat < S10256.size a)
instance k0_chk28.dec : ∀ (v146 : IVec S16 32), Decidable (k0_chk28 v146) := fun v146 => decidable_of_iff' _ (Iff.of_eq (k0_chk28.eq_1 v146))
theorem k0_idx28_inb : ∀ (v146 : IVec S16 32) (k0_hw28 : k0_chk28 v146), ∀ a x, ((![v146] : Fin 1 → IVec S16 32) a x).toNat < S10256.size a := fun v146 k0_hw28 => k0_hw28

def k0_chk29 (v151 : IVec S16 32) : Prop :=
  (∀ a x, ((![v151] : Fin 1 → IVec S16 32) a x).toNat < S10256.size a)
instance k0_chk29.dec : ∀ (v151 : IVec S16 32), Decidable (k0_chk29 v151) := fun v151 => decidable_of_iff' _ (Iff.of_eq (k0_chk29.eq_1 v151))
theorem k0_idx29_inb : ∀ (v151 : IVec S16 32) (k0_hw29 : k0_chk29 v151), ∀ a x, ((![v151] : Fin 1 → IVec S16 32) a x).toNat < S10256.size a := fun v151 k0_hw29 => k0_hw29

def k0_chk30 (v156 : IVec S16 32) : Prop :=
  (∀ a x, ((![v156] : Fin 1 → IVec S16 32) a x).toNat < S10256.size a)
instance k0_chk30.dec : ∀ (v156 : IVec S16 32), Decidable (k0_chk30 v156) := fun v156 => decidable_of_iff' _ (Iff.of_eq (k0_chk30.eq_1 v156))
theorem k0_idx30_inb : ∀ (v156 : IVec S16 32) (k0_hw30 : k0_chk30 v156), ∀ a x, ((![v156] : Fin 1 → IVec S16 32) a x).toNat < S10256.size a := fun v156 k0_hw30 => k0_hw30

def k0_chk31 (v161 : IVec S16 32) : Prop :=
  (∀ a x, ((![v161] : Fin 1 → IVec S16 32) a x).toNat < S10256.size a)
instance k0_chk31.dec : ∀ (v161 : IVec S16 32), Decidable (k0_chk31 v161) := fun v161 => decidable_of_iff' _ (Iff.of_eq (k0_chk31.eq_1 v161))
theorem k0_idx31_inb : ∀ (v161 : IVec S16 32) (k0_hw31 : k0_chk31 v161), ∀ a x, ((![v161] : Fin 1 → IVec S16 32) a x).toNat < S10256.size a := fun v161 k0_hw31 => k0_hw31

def k0_chk32 (v166 : IVec S16 32) : Prop :=
  (∀ a x, ((![v166] : Fin 1 → IVec S16 32) a x).toNat < S10256.size a)
instance k0_chk32.dec : ∀ (v166 : IVec S16 32), Decidable (k0_chk32 v166) := fun v166 => decidable_of_iff' _ (Iff.of_eq (k0_chk32.eq_1 v166))
theorem k0_idx32_inb : ∀ (v166 : IVec S16 32) (k0_hw32 : k0_chk32 v166), ∀ a x, ((![v166] : Fin 1 → IVec S16 32) a x).toNat < S10256.size a := fun v166 k0_hw32 => k0_hw32

def k0_chk33 (v171 : IVec S16 32) : Prop :=
  (∀ a x, ((![v171] : Fin 1 → IVec S16 32) a x).toNat < S10256.size a)
instance k0_chk33.dec : ∀ (v171 : IVec S16 32), Decidable (k0_chk33 v171) := fun v171 => decidable_of_iff' _ (Iff.of_eq (k0_chk33.eq_1 v171))
theorem k0_idx33_inb : ∀ (v171 : IVec S16 32) (k0_hw33 : k0_chk33 v171), ∀ a x, ((![v171] : Fin 1 → IVec S16 32) a x).toNat < S10256.size a := fun v171 k0_hw33 => k0_hw33

def k0_chk34 (v176 : IVec S16 32) : Prop :=
  (∀ a x, ((![v176] : Fin 1 → IVec S16 32) a x).toNat < S10256.size a)
instance k0_chk34.dec : ∀ (v176 : IVec S16 32), Decidable (k0_chk34 v176) := fun v176 => decidable_of_iff' _ (Iff.of_eq (k0_chk34.eq_1 v176))
theorem k0_idx34_inb : ∀ (v176 : IVec S16 32) (k0_hw34 : k0_chk34 v176), ∀ a x, ((![v176] : Fin 1 → IVec S16 32) a x).toNat < S10256.size a := fun v176 k0_hw34 => k0_hw34

def k0_chk35 (v181 : IVec S16 32) : Prop :=
  (∀ a x, ((![v181] : Fin 1 → IVec S16 32) a x).toNat < S10256.size a)
instance k0_chk35.dec : ∀ (v181 : IVec S16 32), Decidable (k0_chk35 v181) := fun v181 => decidable_of_iff' _ (Iff.of_eq (k0_chk35.eq_1 v181))
theorem k0_idx35_inb : ∀ (v181 : IVec S16 32) (k0_hw35 : k0_chk35 v181), ∀ a x, ((![v181] : Fin 1 → IVec S16 32) a x).toNat < S10256.size a := fun v181 k0_hw35 => k0_hw35

def k0_chk36 (v186 : IVec S16 32) : Prop :=
  (∀ a x, ((![v186] : Fin 1 → IVec S16 32) a x).toNat < S10256.size a)
instance k0_chk36.dec : ∀ (v186 : IVec S16 32), Decidable (k0_chk36 v186) := fun v186 => decidable_of_iff' _ (Iff.of_eq (k0_chk36.eq_1 v186))
theorem k0_idx36_inb : ∀ (v186 : IVec S16 32) (k0_hw36 : k0_chk36 v186), ∀ a x, ((![v186] : Fin 1 → IVec S16 32) a x).toNat < S10256.size a := fun v186 k0_hw36 => k0_hw36

def k0_chk37 (v191 : IVec S16 32) : Prop :=
  (∀ a x, ((![v191] : Fin 1 → IVec S16 32) a x).toNat < S10256.size a)
instance k0_chk37.dec : ∀ (v191 : IVec S16 32), Decidable (k0_chk37 v191) := fun v191 => decidable_of_iff' _ (Iff.of_eq (k0_chk37.eq_1 v191))
theorem k0_idx37_inb : ∀ (v191 : IVec S16 32) (k0_hw37 : k0_chk37 v191), ∀ a x, ((![v191] : Fin 1 → IVec S16 32) a x).toNat < S10256.size a := fun v191 k0_hw37 => k0_hw37

def k0_chk38 (v196 : IVec S16 32) : Prop :=
  (∀ a x, ((![v196] : Fin 1 → IVec S16 32) a x).toNat < S10256.size a)
instance k0_chk38.dec : ∀ (v196 : IVec S16 32), Decidable (k0_chk38 v196) := fun v196 => decidable_of_iff' _ (Iff.of_eq (k0_chk38.eq_1 v196))
theorem k0_idx38_inb : ∀ (v196 : IVec S16 32) (k0_hw38 : k0_chk38 v196), ∀ a x, ((![v196] : Fin 1 → IVec S16 32) a x).toNat < S10256.size a := fun v196 k0_hw38 => k0_hw38

def k0_chk39 (v201 : IVec S16 32) : Prop :=
  (∀ a x, ((![v201] : Fin 1 → IVec S16 32) a x).toNat < S10256.size a)
instance k0_chk39.dec : ∀ (v201 : IVec S16 32), Decidable (k0_chk39 v201) := fun v201 => decidable_of_iff' _ (Iff.of_eq (k0_chk39.eq_1 v201))
theorem k0_idx39_inb : ∀ (v201 : IVec S16 32) (k0_hw39 : k0_chk39 v201), ∀ a x, ((![v201] : Fin 1 → IVec S16 32) a x).toNat < S10256.size a := fun v201 k0_hw39 => k0_hw39

def k0_chk40 (v206 : IVec S16 32) : Prop :=
  (∀ a x, ((![v206] : Fin 1 → IVec S16 32) a x).toNat < S10256.size a)
instance k0_chk40.dec : ∀ (v206 : IVec S16 32), Decidable (k0_chk40 v206) := fun v206 => decidable_of_iff' _ (Iff.of_eq (k0_chk40.eq_1 v206))
theorem k0_idx40_inb : ∀ (v206 : IVec S16 32) (k0_hw40 : k0_chk40 v206), ∀ a x, ((![v206] : Fin 1 → IVec S16 32) a x).toNat < S10256.size a := fun v206 k0_hw40 => k0_hw40

def k0_chk41 (v211 : IVec S16 32) : Prop :=
  (∀ a x, ((![v211] : Fin 1 → IVec S16 32) a x).toNat < S10256.size a)
instance k0_chk41.dec : ∀ (v211 : IVec S16 32), Decidable (k0_chk41 v211) := fun v211 => decidable_of_iff' _ (Iff.of_eq (k0_chk41.eq_1 v211))
theorem k0_idx41_inb : ∀ (v211 : IVec S16 32) (k0_hw41 : k0_chk41 v211), ∀ a x, ((![v211] : Fin 1 → IVec S16 32) a x).toNat < S10256.size a := fun v211 k0_hw41 => k0_hw41

def k0_chk42 (v216 : IVec S16 32) : Prop :=
  (∀ a x, ((![v216] : Fin 1 → IVec S16 32) a x).toNat < S10256.size a)
instance k0_chk42.dec : ∀ (v216 : IVec S16 32), Decidable (k0_chk42 v216) := fun v216 => decidable_of_iff' _ (Iff.of_eq (k0_chk42.eq_1 v216))
theorem k0_idx42_inb : ∀ (v216 : IVec S16 32) (k0_hw42 : k0_chk42 v216), ∀ a x, ((![v216] : Fin 1 → IVec S16 32) a x).toNat < S10256.size a := fun v216 k0_hw42 => k0_hw42

def k0_chk43 (v221 : IVec S16 32) : Prop :=
  (∀ a x, ((![v221] : Fin 1 → IVec S16 32) a x).toNat < S10256.size a)
instance k0_chk43.dec : ∀ (v221 : IVec S16 32), Decidable (k0_chk43 v221) := fun v221 => decidable_of_iff' _ (Iff.of_eq (k0_chk43.eq_1 v221))
theorem k0_idx43_inb : ∀ (v221 : IVec S16 32) (k0_hw43 : k0_chk43 v221), ∀ a x, ((![v221] : Fin 1 → IVec S16 32) a x).toNat < S10256.size a := fun v221 k0_hw43 => k0_hw43

def k0_chk44 (v226 : IVec S16 32) : Prop :=
  (∀ a x, ((![v226] : Fin 1 → IVec S16 32) a x).toNat < S10256.size a)
instance k0_chk44.dec : ∀ (v226 : IVec S16 32), Decidable (k0_chk44 v226) := fun v226 => decidable_of_iff' _ (Iff.of_eq (k0_chk44.eq_1 v226))
theorem k0_idx44_inb : ∀ (v226 : IVec S16 32) (k0_hw44 : k0_chk44 v226), ∀ a x, ((![v226] : Fin 1 → IVec S16 32) a x).toNat < S10256.size a := fun v226 k0_hw44 => k0_hw44

def k0_chk45 (v231 : IVec S16 32) : Prop :=
  (∀ a x, ((![v231] : Fin 1 → IVec S16 32) a x).toNat < S10256.size a)
instance k0_chk45.dec : ∀ (v231 : IVec S16 32), Decidable (k0_chk45 v231) := fun v231 => decidable_of_iff' _ (Iff.of_eq (k0_chk45.eq_1 v231))
theorem k0_idx45_inb : ∀ (v231 : IVec S16 32) (k0_hw45 : k0_chk45 v231), ∀ a x, ((![v231] : Fin 1 → IVec S16 32) a x).toNat < S10256.size a := fun v231 k0_hw45 => k0_hw45

def k0_chk46 (v236 : IVec S16 32) : Prop :=
  (∀ a x, ((![v236] : Fin 1 → IVec S16 32) a x).toNat < S10256.size a)
instance k0_chk46.dec : ∀ (v236 : IVec S16 32), Decidable (k0_chk46 v236) := fun v236 => decidable_of_iff' _ (Iff.of_eq (k0_chk46.eq_1 v236))
theorem k0_idx46_inb : ∀ (v236 : IVec S16 32) (k0_hw46 : k0_chk46 v236), ∀ a x, ((![v236] : Fin 1 → IVec S16 32) a x).toNat < S10256.size a := fun v236 k0_hw46 => k0_hw46

def k0_chk47 (v241 : IVec S16 32) : Prop :=
  (∀ a x, ((![v241] : Fin 1 → IVec S16 32) a x).toNat < S10256.size a)
instance k0_chk47.dec : ∀ (v241 : IVec S16 32), Decidable (k0_chk47 v241) := fun v241 => decidable_of_iff' _ (Iff.of_eq (k0_chk47.eq_1 v241))
theorem k0_idx47_inb : ∀ (v241 : IVec S16 32) (k0_hw47 : k0_chk47 v241), ∀ a x, ((![v241] : Fin 1 → IVec S16 32) a x).toNat < S10256.size a := fun v241 k0_hw47 => k0_hw47

def k0_chk48 (v246 : IVec S16 32) : Prop :=
  (∀ a x, ((![v246] : Fin 1 → IVec S16 32) a x).toNat < S10256.size a)
instance k0_chk48.dec : ∀ (v246 : IVec S16 32), Decidable (k0_chk48 v246) := fun v246 => decidable_of_iff' _ (Iff.of_eq (k0_chk48.eq_1 v246))
theorem k0_idx48_inb : ∀ (v246 : IVec S16 32) (k0_hw48 : k0_chk48 v246), ∀ a x, ((![v246] : Fin 1 → IVec S16 32) a x).toNat < S10256.size a := fun v246 k0_hw48 => k0_hw48

def k0_chk49 (v251 : IVec S16 32) : Prop :=
  (∀ a x, ((![v251] : Fin 1 → IVec S16 32) a x).toNat < S10256.size a)
instance k0_chk49.dec : ∀ (v251 : IVec S16 32), Decidable (k0_chk49 v251) := fun v251 => decidable_of_iff' _ (Iff.of_eq (k0_chk49.eq_1 v251))
theorem k0_idx49_inb : ∀ (v251 : IVec S16 32) (k0_hw49 : k0_chk49 v251), ∀ a x, ((![v251] : Fin 1 → IVec S16 32) a x).toNat < S10256.size a := fun v251 k0_hw49 => k0_hw49

def k0_chk50 (v256 : IVec S16 32) : Prop :=
  (∀ a x, ((![v256] : Fin 1 → IVec S16 32) a x).toNat < S10256.size a)
instance k0_chk50.dec : ∀ (v256 : IVec S16 32), Decidable (k0_chk50 v256) := fun v256 => decidable_of_iff' _ (Iff.of_eq (k0_chk50.eq_1 v256))
theorem k0_idx50_inb : ∀ (v256 : IVec S16 32) (k0_hw50 : k0_chk50 v256), ∀ a x, ((![v256] : Fin 1 → IVec S16 32) a x).toNat < S10256.size a := fun v256 k0_hw50 => k0_hw50

def k0_chk51 (v261 : IVec S16 32) : Prop :=
  (∀ a x, ((![v261] : Fin 1 → IVec S16 32) a x).toNat < S10256.size a)
instance k0_chk51.dec : ∀ (v261 : IVec S16 32), Decidable (k0_chk51 v261) := fun v261 => decidable_of_iff' _ (Iff.of_eq (k0_chk51.eq_1 v261))
theorem k0_idx51_inb : ∀ (v261 : IVec S16 32) (k0_hw51 : k0_chk51 v261), ∀ a x, ((![v261] : Fin 1 → IVec S16 32) a x).toNat < S10256.size a := fun v261 k0_hw51 => k0_hw51

def k0_chk52 (v266 : IVec S16 32) : Prop :=
  (∀ a x, ((![v266] : Fin 1 → IVec S16 32) a x).toNat < S10256.size a)
instance k0_chk52.dec : ∀ (v266 : IVec S16 32), Decidable (k0_chk52 v266) := fun v266 => decidable_of_iff' _ (Iff.of_eq (k0_chk52.eq_1 v266))
theorem k0_idx52_inb : ∀ (v266 : IVec S16 32) (k0_hw52 : k0_chk52 v266), ∀ a x, ((![v266] : Fin 1 → IVec S16 32) a x).toNat < S10256.size a := fun v266 k0_hw52 => k0_hw52

def k0_chk53 (v271 : IVec S16 32) : Prop :=
  (∀ a x, ((![v271] : Fin 1 → IVec S16 32) a x).toNat < S10256.size a)
instance k0_chk53.dec : ∀ (v271 : IVec S16 32), Decidable (k0_chk53 v271) := fun v271 => decidable_of_iff' _ (Iff.of_eq (k0_chk53.eq_1 v271))
theorem k0_idx53_inb : ∀ (v271 : IVec S16 32) (k0_hw53 : k0_chk53 v271), ∀ a x, ((![v271] : Fin 1 → IVec S16 32) a x).toNat < S10256.size a := fun v271 k0_hw53 => k0_hw53

def k0_chk54 (v276 : IVec S16 32) : Prop :=
  (∀ a x, ((![v276] : Fin 1 → IVec S16 32) a x).toNat < S10256.size a)
instance k0_chk54.dec : ∀ (v276 : IVec S16 32), Decidable (k0_chk54 v276) := fun v276 => decidable_of_iff' _ (Iff.of_eq (k0_chk54.eq_1 v276))
theorem k0_idx54_inb : ∀ (v276 : IVec S16 32) (k0_hw54 : k0_chk54 v276), ∀ a x, ((![v276] : Fin 1 → IVec S16 32) a x).toNat < S10256.size a := fun v276 k0_hw54 => k0_hw54

def k0_chk55 (v281 : IVec S16 32) : Prop :=
  (∀ a x, ((![v281] : Fin 1 → IVec S16 32) a x).toNat < S10256.size a)
instance k0_chk55.dec : ∀ (v281 : IVec S16 32), Decidable (k0_chk55 v281) := fun v281 => decidable_of_iff' _ (Iff.of_eq (k0_chk55.eq_1 v281))
theorem k0_idx55_inb : ∀ (v281 : IVec S16 32) (k0_hw55 : k0_chk55 v281), ∀ a x, ((![v281] : Fin 1 → IVec S16 32) a x).toNat < S10256.size a := fun v281 k0_hw55 => k0_hw55

def k0_chk56 (v286 : IVec S16 32) : Prop :=
  (∀ a x, ((![v286] : Fin 1 → IVec S16 32) a x).toNat < S10256.size a)
instance k0_chk56.dec : ∀ (v286 : IVec S16 32), Decidable (k0_chk56 v286) := fun v286 => decidable_of_iff' _ (Iff.of_eq (k0_chk56.eq_1 v286))
theorem k0_idx56_inb : ∀ (v286 : IVec S16 32) (k0_hw56 : k0_chk56 v286), ∀ a x, ((![v286] : Fin 1 → IVec S16 32) a x).toNat < S10256.size a := fun v286 k0_hw56 => k0_hw56

def k0_chk57 (v291 : IVec S16 32) : Prop :=
  (∀ a x, ((![v291] : Fin 1 → IVec S16 32) a x).toNat < S10256.size a)
instance k0_chk57.dec : ∀ (v291 : IVec S16 32), Decidable (k0_chk57 v291) := fun v291 => decidable_of_iff' _ (Iff.of_eq (k0_chk57.eq_1 v291))
theorem k0_idx57_inb : ∀ (v291 : IVec S16 32) (k0_hw57 : k0_chk57 v291), ∀ a x, ((![v291] : Fin 1 → IVec S16 32) a x).toNat < S10256.size a := fun v291 k0_hw57 => k0_hw57

def k0_chk58 (v296 : IVec S16 32) : Prop :=
  (∀ a x, ((![v296] : Fin 1 → IVec S16 32) a x).toNat < S10256.size a)
instance k0_chk58.dec : ∀ (v296 : IVec S16 32), Decidable (k0_chk58 v296) := fun v296 => decidable_of_iff' _ (Iff.of_eq (k0_chk58.eq_1 v296))
theorem k0_idx58_inb : ∀ (v296 : IVec S16 32) (k0_hw58 : k0_chk58 v296), ∀ a x, ((![v296] : Fin 1 → IVec S16 32) a x).toNat < S10256.size a := fun v296 k0_hw58 => k0_hw58

def k0_chk59 (v301 : IVec S16 32) : Prop :=
  (∀ a x, ((![v301] : Fin 1 → IVec S16 32) a x).toNat < S10256.size a)
instance k0_chk59.dec : ∀ (v301 : IVec S16 32), Decidable (k0_chk59 v301) := fun v301 => decidable_of_iff' _ (Iff.of_eq (k0_chk59.eq_1 v301))
theorem k0_idx59_inb : ∀ (v301 : IVec S16 32) (k0_hw59 : k0_chk59 v301), ∀ a x, ((![v301] : Fin 1 → IVec S16 32) a x).toNat < S10256.size a := fun v301 k0_hw59 => k0_hw59

def k0_chk60 (v306 : IVec S16 32) : Prop :=
  (∀ a x, ((![v306] : Fin 1 → IVec S16 32) a x).toNat < S10256.size a)
instance k0_chk60.dec : ∀ (v306 : IVec S16 32), Decidable (k0_chk60 v306) := fun v306 => decidable_of_iff' _ (Iff.of_eq (k0_chk60.eq_1 v306))
theorem k0_idx60_inb : ∀ (v306 : IVec S16 32) (k0_hw60 : k0_chk60 v306), ∀ a x, ((![v306] : Fin 1 → IVec S16 32) a x).toNat < S10256.size a := fun v306 k0_hw60 => k0_hw60

def k0_chk61 (v311 : IVec S16 32) : Prop :=
  (∀ a x, ((![v311] : Fin 1 → IVec S16 32) a x).toNat < S10256.size a)
instance k0_chk61.dec : ∀ (v311 : IVec S16 32), Decidable (k0_chk61 v311) := fun v311 => decidable_of_iff' _ (Iff.of_eq (k0_chk61.eq_1 v311))
theorem k0_idx61_inb : ∀ (v311 : IVec S16 32) (k0_hw61 : k0_chk61 v311), ∀ a x, ((![v311] : Fin 1 → IVec S16 32) a x).toNat < S10256.size a := fun v311 k0_hw61 => k0_hw61

def k0_chk62 (v316 : IVec S16 32) : Prop :=
  (∀ a x, ((![v316] : Fin 1 → IVec S16 32) a x).toNat < S10256.size a)
instance k0_chk62.dec : ∀ (v316 : IVec S16 32), Decidable (k0_chk62 v316) := fun v316 => decidable_of_iff' _ (Iff.of_eq (k0_chk62.eq_1 v316))
theorem k0_idx62_inb : ∀ (v316 : IVec S16 32) (k0_hw62 : k0_chk62 v316), ∀ a x, ((![v316] : Fin 1 → IVec S16 32) a x).toNat < S10256.size a := fun v316 k0_hw62 => k0_hw62

def k0_chk63 (v321 : IVec S16 32) : Prop :=
  (∀ a x, ((![v321] : Fin 1 → IVec S16 32) a x).toNat < S10256.size a)
instance k0_chk63.dec : ∀ (v321 : IVec S16 32), Decidable (k0_chk63 v321) := fun v321 => decidable_of_iff' _ (Iff.of_eq (k0_chk63.eq_1 v321))
theorem k0_idx63_inb : ∀ (v321 : IVec S16 32) (k0_hw63 : k0_chk63 v321), ∀ a x, ((![v321] : Fin 1 → IVec S16 32) a x).toNat < S10256.size a := fun v321 k0_hw63 => k0_hw63

def k0_chk64 (v326 : IVec S16 32) : Prop :=
  (∀ a x, ((![v326] : Fin 1 → IVec S16 32) a x).toNat < S10256.size a)
instance k0_chk64.dec : ∀ (v326 : IVec S16 32), Decidable (k0_chk64 v326) := fun v326 => decidable_of_iff' _ (Iff.of_eq (k0_chk64.eq_1 v326))
theorem k0_idx64_inb : ∀ (v326 : IVec S16 32) (k0_hw64 : k0_chk64 v326), ∀ a x, ((![v326] : Fin 1 → IVec S16 32) a x).toNat < S10256.size a := fun v326 k0_hw64 => k0_hw64
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r3 : BitVec 32 := 0#32
  ![v1.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1280x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x1280x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1280x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1280 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1280x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 16], ![false, false]⟩

def k2_off1 (i : grid2.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c0_i32_38_r0 : BitVec 32 := 0#32
  ![v3.toNat, 0]
@[reducible] def k2_t1_loop : Scf.Loop 32 :=
  let c0_i32_12 : BitVec 32 := 0#32
  let c159_i32 : BitVec 32 := 159#32
  let v18 : BitVec 32 := Scalar.addi c0_i32_12 c159_i32
  let c1_i32_13 : BitVec 32 := 1#32
  ⟨c0_i32_12, v18, c1_i32_13⟩
def k2_off2 (k2_t1 : Fin k2_t1_loop.trips) : Fin 1 → Nat :=
  let c0_i32_12 : BitVec 32 := 0#32
  let c1_i32_13 : BitVec 32 := 1#32
  let arg23 : BitVec 32 := Scf.iv c0_i32_12 c1_i32_13 k2_t1
  let c2_i32_38 : BitVec 32 := 2#32
  let v37 : BitVec 32 := Scalar.muli arg23 c2_i32_38
  let c1024_i32_39 : BitVec 32 := 1024#32
  let v38 : BitVec 32 := Scalar.muli v37 c1024_i32_39
  ![v38.toNat]
@[reducible] def k2_t2_loop : Scf.Loop 32 :=
  let c0_i32_42 : BitVec 32 := 0#32
  let c64_i32_43 : BitVec 32 := 64#32
  let v44 : BitVec 32 := Scalar.addi c0_i32_42 c64_i32_43
  let c1_i32_44 : BitVec 32 := 1#32
  ⟨c0_i32_42, v44, c1_i32_44⟩
def k2_off3 (k2_t2 : Fin k2_t2_loop.trips) : Fin 1 → Nat :=
  let c0_i32_42 : BitVec 32 := 0#32
  let c1_i32_44 : BitVec 32 := 1#32
  let arg24 : BitVec 32 := Scf.iv c0_i32_42 c1_i32_44 k2_t2
  let c16_i32 : BitVec 32 := 16#32
  let v67 : BitVec 32 := Scalar.muli arg24 c16_i32
  let v68 : Index := Scalar.indexCast v67
  ![v68.toNat]

def k2_chk1 (v69 : IVec S16 32) : Prop :=
  (∀ a x, ((![v69] : Fin 1 → IVec S16 32) a x).toNat < S10240.size a) ∧
  (∀ a x, ((![v69] : Fin 1 → IVec S16 32) a x).toNat < S10240.size a) ∧
  (∀ a x, ((![v69] : Fin 1 → IVec S16 32) a x).toNat < S10240.size a) ∧
  (∀ a x, ((![v69] : Fin 1 → IVec S16 32) a x).toNat < S10240.size a)
instance k2_chk1.dec : ∀ (v69 : IVec S16 32), Decidable (k2_chk1 v69) := fun v69 => decidable_of_iff' _ (Iff.of_eq (k2_chk1.eq_1 v69))
theorem k2_idx1_inb : ∀ (v69 : IVec S16 32) (k2_hw1 : k2_chk1 v69), ∀ a x, ((![v69] : Fin 1 → IVec S16 32) a x).toNat < S10240.size a := fun v69 k2_hw1 => k2_hw1.1
theorem k2_idx3_inb : ∀ (v69 : IVec S16 32) (k2_hw1 : k2_chk1 v69), ∀ a x, ((![v69] : Fin 1 → IVec S16 32) a x).toNat < S10240.size a := fun v69 k2_hw1 => k2_hw1.2.1
theorem k2_idx5_inb : ∀ (v69 : IVec S16 32) (k2_hw1 : k2_chk1 v69), ∀ a x, ((![v69] : Fin 1 → IVec S16 32) a x).toNat < S10240.size a := fun v69 k2_hw1 => k2_hw1.2.2.1
theorem k2_idx7_inb : ∀ (v69 : IVec S16 32) (k2_hw1 : k2_chk1 v69), ∀ a x, ((![v69] : Fin 1 → IVec S16 32) a x).toNat < S10240.size a := fun v69 k2_hw1 => k2_hw1.2.2.2

def k2_chk2 (v75 : IVec S16 32) : Prop :=
  (∀ a x, ((![v75] : Fin 1 → IVec S16 32) a x).toNat < S10256.size a) ∧
  (∀ a x, ((![v75] : Fin 1 → IVec S16 32) a x).toNat < S10256.size a) ∧
  (∀ a x, ((![v75] : Fin 1 → IVec S16 32) a x).toNat < S10256.size a) ∧
  (∀ a x, ((![v75] : Fin 1 → IVec S16 32) a x).toNat < S10256.size a)
instance k2_chk2.dec : ∀ (v75 : IVec S16 32), Decidable (k2_chk2 v75) := fun v75 => decidable_of_iff' _ (Iff.of_eq (k2_chk2.eq_1 v75))
theorem k2_idx2_inb : ∀ (v75 : IVec S16 32) (k2_hw2 : k2_chk2 v75), ∀ a x, ((![v75] : Fin 1 → IVec S16 32) a x).toNat < S10256.size a := fun v75 k2_hw2 => k2_hw2.1
theorem k2_idx4_inb : ∀ (v75 : IVec S16 32) (k2_hw2 : k2_chk2 v75), ∀ a x, ((![v75] : Fin 1 → IVec S16 32) a x).toNat < S10256.size a := fun v75 k2_hw2 => k2_hw2.2.1
theorem k2_idx6_inb : ∀ (v75 : IVec S16 32) (k2_hw2 : k2_chk2 v75), ∀ a x, ((![v75] : Fin 1 → IVec S16 32) a x).toNat < S10256.size a := fun v75 k2_hw2 => k2_hw2.2.2.1
theorem k2_idx8_inb : ∀ (v75 : IVec S16 32) (k2_hw2 : k2_chk2 v75), ∀ a x, ((![v75] : Fin 1 → IVec S16 32) a x).toNat < S10256.size a := fun v75 k2_hw2 => k2_hw2.2.2.2
def k2_off4 (k2_t1 : Fin k2_t1_loop.trips) (c2_i32_46 : BitVec 32) : Fin 1 → Nat :=
  let c0_i32_12 : BitVec 32 := 0#32
  let c1_i32_13 : BitVec 32 := 1#32
  let arg23 : BitVec 32 := Scf.iv c0_i32_12 c1_i32_13 k2_t1
  let c2_i32_38 : BitVec 32 := 2#32
  let v37 : BitVec 32 := Scalar.muli arg23 c2_i32_38
  let v45 : BitVec 32 := Scalar.addi v37 c2_i32_46
  let c1024_i32_47 : BitVec 32 := 1024#32
  let v46 : BitVec 32 := Scalar.muli v45 c1024_i32_47
  ![v46.toNat]
@[reducible] def k2_t3_loop : Scf.Loop 32 :=
  let c0_i32_53 : BitVec 32 := 0#32
  let c64_i32_54 : BitVec 32 := 64#32
  let v59 : BitVec 32 := Scalar.addi c0_i32_53 c64_i32_54
  let c1_i32_55 : BitVec 32 := 1#32
  ⟨c0_i32_53, v59, c1_i32_55⟩
def k2_off5 (k2_t3 : Fin k2_t3_loop.trips) : Fin 1 → Nat :=
  let c0_i32_53 : BitVec 32 := 0#32
  let c1_i32_55 : BitVec 32 := 1#32
  let arg24 : BitVec 32 := Scf.iv c0_i32_53 c1_i32_55 k2_t3
  let c16_i32 : BitVec 32 := 16#32
  let v67 : BitVec 32 := Scalar.muli arg24 c16_i32
  let v68 : Index := Scalar.indexCast v67
  ![v68.toNat]

def k2_chk3 (v69 : IVec S16 32) : Prop :=
  (∀ a x, ((![v69] : Fin 1 → IVec S16 32) a x).toNat < S10240.size a) ∧
  (∀ a x, ((![v69] : Fin 1 → IVec S16 32) a x).toNat < S10240.size a) ∧
  (∀ a x, ((![v69] : Fin 1 → IVec S16 32) a x).toNat < S10240.size a) ∧
  (∀ a x, ((![v69] : Fin 1 → IVec S16 32) a x).toNat < S10240.size a)
instance k2_chk3.dec : ∀ (v69 : IVec S16 32), Decidable (k2_chk3 v69) := fun v69 => decidable_of_iff' _ (Iff.of_eq (k2_chk3.eq_1 v69))
theorem k2_idx9_inb : ∀ (v69 : IVec S16 32) (k2_hw3 : k2_chk3 v69), ∀ a x, ((![v69] : Fin 1 → IVec S16 32) a x).toNat < S10240.size a := fun v69 k2_hw3 => k2_hw3.1
theorem k2_idx11_inb : ∀ (v69 : IVec S16 32) (k2_hw3 : k2_chk3 v69), ∀ a x, ((![v69] : Fin 1 → IVec S16 32) a x).toNat < S10240.size a := fun v69 k2_hw3 => k2_hw3.2.1
theorem k2_idx13_inb : ∀ (v69 : IVec S16 32) (k2_hw3 : k2_chk3 v69), ∀ a x, ((![v69] : Fin 1 → IVec S16 32) a x).toNat < S10240.size a := fun v69 k2_hw3 => k2_hw3.2.2.1
theorem k2_idx15_inb : ∀ (v69 : IVec S16 32) (k2_hw3 : k2_chk3 v69), ∀ a x, ((![v69] : Fin 1 → IVec S16 32) a x).toNat < S10240.size a := fun v69 k2_hw3 => k2_hw3.2.2.2

def k2_chk4 (v75 : IVec S16 32) : Prop :=
  (∀ a x, ((![v75] : Fin 1 → IVec S16 32) a x).toNat < S10256.size a) ∧
  (∀ a x, ((![v75] : Fin 1 → IVec S16 32) a x).toNat < S10256.size a) ∧
  (∀ a x, ((![v75] : Fin 1 → IVec S16 32) a x).toNat < S10256.size a) ∧
  (∀ a x, ((![v75] : Fin 1 → IVec S16 32) a x).toNat < S10256.size a)
instance k2_chk4.dec : ∀ (v75 : IVec S16 32), Decidable (k2_chk4 v75) := fun v75 => decidable_of_iff' _ (Iff.of_eq (k2_chk4.eq_1 v75))
theorem k2_idx10_inb : ∀ (v75 : IVec S16 32) (k2_hw4 : k2_chk4 v75), ∀ a x, ((![v75] : Fin 1 → IVec S16 32) a x).toNat < S10256.size a := fun v75 k2_hw4 => k2_hw4.1
theorem k2_idx12_inb : ∀ (v75 : IVec S16 32) (k2_hw4 : k2_chk4 v75), ∀ a x, ((![v75] : Fin 1 → IVec S16 32) a x).toNat < S10256.size a := fun v75 k2_hw4 => k2_hw4.2.1
theorem k2_idx14_inb : ∀ (v75 : IVec S16 32) (k2_hw4 : k2_chk4 v75), ∀ a x, ((![v75] : Fin 1 → IVec S16 32) a x).toNat < S10256.size a := fun v75 k2_hw4 => k2_hw4.2.2.1
theorem k2_idx16_inb : ∀ (v75 : IVec S16 32) (k2_hw4 : k2_chk4 v75), ∀ a x, ((![v75] : Fin 1 → IVec S16 32) a x).toNat < S10256.size a := fun v75 k2_hw4 => k2_hw4.2.2.2
@[reducible] def k2_t4_loop : Scf.Loop 32 :=
  let c0_i32_19 : BitVec 32 := 0#32
  let c64_i32 : BitVec 32 := 64#32
  let v23 : BitVec 32 := Scalar.addi c0_i32_19 c64_i32
  let c1_i32_20 : BitVec 32 := 1#32
  ⟨c0_i32_19, v23, c1_i32_20⟩
def k2_off6 (k2_t4 : Fin k2_t4_loop.trips) : Fin 1 → Nat :=
  let c0_i32_19 : BitVec 32 := 0#32
  let c1_i32_20 : BitVec 32 := 1#32
  let arg23 : BitVec 32 := Scf.iv c0_i32_19 c1_i32_20 k2_t4
  let c16_i32 : BitVec 32 := 16#32
  let v37 : BitVec 32 := Scalar.muli arg23 c16_i32
  let v38 : Index := Scalar.indexCast v37
  ![v38.toNat]

def k2_chk5 (v39 : IVec S16 32) : Prop :=
  (∀ a x, ((![v39] : Fin 1 → IVec S16 32) a x).toNat < S10240.size a) ∧
  (∀ a x, ((![v39] : Fin 1 → IVec S16 32) a x).toNat < S10240.size a) ∧
  (∀ a x, ((![v39] : Fin 1 → IVec S16 32) a x).toNat < S10240.size a) ∧
  (∀ a x, ((![v39] : Fin 1 → IVec S16 32) a x).toNat < S10240.size a)
instance k2_chk5.dec : ∀ (v39 : IVec S16 32), Decidable (k2_chk5 v39) := fun v39 => decidable_of_iff' _ (Iff.of_eq (k2_chk5.eq_1 v39))
theorem k2_idx17_inb : ∀ (v39 : IVec S16 32) (k2_hw5 : k2_chk5 v39), ∀ a x, ((![v39] : Fin 1 → IVec S16 32) a x).toNat < S10240.size a := fun v39 k2_hw5 => k2_hw5.1
theorem k2_idx19_inb : ∀ (v39 : IVec S16 32) (k2_hw5 : k2_chk5 v39), ∀ a x, ((![v39] : Fin 1 → IVec S16 32) a x).toNat < S10240.size a := fun v39 k2_hw5 => k2_hw5.2.1
theorem k2_idx21_inb : ∀ (v39 : IVec S16 32) (k2_hw5 : k2_chk5 v39), ∀ a x, ((![v39] : Fin 1 → IVec S16 32) a x).toNat < S10240.size a := fun v39 k2_hw5 => k2_hw5.2.2.1
theorem k2_idx23_inb : ∀ (v39 : IVec S16 32) (k2_hw5 : k2_chk5 v39), ∀ a x, ((![v39] : Fin 1 → IVec S16 32) a x).toNat < S10240.size a := fun v39 k2_hw5 => k2_hw5.2.2.2

def k2_chk6 (v45 : IVec S16 32) : Prop :=
  (∀ a x, ((![v45] : Fin 1 → IVec S16 32) a x).toNat < S10256.size a) ∧
  (∀ a x, ((![v45] : Fin 1 → IVec S16 32) a x).toNat < S10256.size a) ∧
  (∀ a x, ((![v45] : Fin 1 → IVec S16 32) a x).toNat < S10256.size a) ∧
  (∀ a x, ((![v45] : Fin 1 → IVec S16 32) a x).toNat < S10256.size a)
instance k2_chk6.dec : ∀ (v45 : IVec S16 32), Decidable (k2_chk6 v45) := fun v45 => decidable_of_iff' _ (Iff.of_eq (k2_chk6.eq_1 v45))
theorem k2_idx18_inb : ∀ (v45 : IVec S16 32) (k2_hw6 : k2_chk6 v45), ∀ a x, ((![v45] : Fin 1 → IVec S16 32) a x).toNat < S10256.size a := fun v45 k2_hw6 => k2_hw6.1
theorem k2_idx20_inb : ∀ (v45 : IVec S16 32) (k2_hw6 : k2_chk6 v45), ∀ a x, ((![v45] : Fin 1 → IVec S16 32) a x).toNat < S10256.size a := fun v45 k2_hw6 => k2_hw6.2.1
theorem k2_idx22_inb : ∀ (v45 : IVec S16 32) (k2_hw6 : k2_chk6 v45), ∀ a x, ((![v45] : Fin 1 → IVec S16 32) a x).toNat < S10256.size a := fun v45 k2_hw6 => k2_hw6.2.2.1
theorem k2_idx24_inb : ∀ (v45 : IVec S16 32) (k2_hw6 : k2_chk6 v45), ∀ a x, ((![v45] : Fin 1 → IVec S16 32) a x).toNat < S10256.size a := fun v45 k2_hw6 => k2_hw6.2.2.2
@[reducible] def k2_t5_loop : Scf.Loop 32 :=
  let c0_i32_26 : BitVec 32 := 0#32
  let c64_i32_27 : BitVec 32 := 64#32
  let v28 : BitVec 32 := Scalar.addi c0_i32_26 c64_i32_27
  let c1_i32_28 : BitVec 32 := 1#32
  ⟨c0_i32_26, v28, c1_i32_28⟩
def k2_off7 (k2_t5 : Fin k2_t5_loop.trips) : Fin 1 → Nat :=
  let c0_i32_26 : BitVec 32 := 0#32
  let c1_i32_28 : BitVec 32 := 1#32
  let arg23 : BitVec 32 := Scf.iv c0_i32_26 c1_i32_28 k2_t5
  let c16_i32 : BitVec 32 := 16#32
  let v37 : BitVec 32 := Scalar.muli arg23 c16_i32
  let v38 : Index := Scalar.indexCast v37
  ![v38.toNat]

def k2_chk7 (v39 : IVec S16 32) : Prop :=
  (∀ a x, ((![v39] : Fin 1 → IVec S16 32) a x).toNat < S10240.size a) ∧
  (∀ a x, ((![v39] : Fin 1 → IVec S16 32) a x).toNat < S10240.size a) ∧
  (∀ a x, ((![v39] : Fin 1 → IVec S16 32) a x).toNat < S10240.size a) ∧
  (∀ a x, ((![v39] : Fin 1 → IVec S16 32) a x).toNat < S10240.size a)
instance k2_chk7.dec : ∀ (v39 : IVec S16 32), Decidable (k2_chk7 v39) := fun v39 => decidable_of_iff' _ (Iff.of_eq (k2_chk7.eq_1 v39))
theorem k2_idx25_inb : ∀ (v39 : IVec S16 32) (k2_hw7 : k2_chk7 v39), ∀ a x, ((![v39] : Fin 1 → IVec S16 32) a x).toNat < S10240.size a := fun v39 k2_hw7 => k2_hw7.1
theorem k2_idx27_inb : ∀ (v39 : IVec S16 32) (k2_hw7 : k2_chk7 v39), ∀ a x, ((![v39] : Fin 1 → IVec S16 32) a x).toNat < S10240.size a := fun v39 k2_hw7 => k2_hw7.2.1
theorem k2_idx29_inb : ∀ (v39 : IVec S16 32) (k2_hw7 : k2_chk7 v39), ∀ a x, ((![v39] : Fin 1 → IVec S16 32) a x).toNat < S10240.size a := fun v39 k2_hw7 => k2_hw7.2.2.1
theorem k2_idx31_inb : ∀ (v39 : IVec S16 32) (k2_hw7 : k2_chk7 v39), ∀ a x, ((![v39] : Fin 1 → IVec S16 32) a x).toNat < S10240.size a := fun v39 k2_hw7 => k2_hw7.2.2.2

def k2_chk8 (v45 : IVec S16 32) : Prop :=
  (∀ a x, ((![v45] : Fin 1 → IVec S16 32) a x).toNat < S10256.size a) ∧
  (∀ a x, ((![v45] : Fin 1 → IVec S16 32) a x).toNat < S10256.size a) ∧
  (∀ a x, ((![v45] : Fin 1 → IVec S16 32) a x).toNat < S10256.size a) ∧
  (∀ a x, ((![v45] : Fin 1 → IVec S16 32) a x).toNat < S10256.size a)
instance k2_chk8.dec : ∀ (v45 : IVec S16 32), Decidable (k2_chk8 v45) := fun v45 => decidable_of_iff' _ (Iff.of_eq (k2_chk8.eq_1 v45))
theorem k2_idx26_inb : ∀ (v45 : IVec S16 32) (k2_hw8 : k2_chk8 v45), ∀ a x, ((![v45] : Fin 1 → IVec S16 32) a x).toNat < S10256.size a := fun v45 k2_hw8 => k2_hw8.1
theorem k2_idx28_inb : ∀ (v45 : IVec S16 32) (k2_hw8 : k2_chk8 v45), ∀ a x, ((![v45] : Fin 1 → IVec S16 32) a x).toNat < S10256.size a := fun v45 k2_hw8 => k2_hw8.2.1
theorem k2_idx30_inb : ∀ (v45 : IVec S16 32) (k2_hw8 : k2_chk8 v45), ∀ a x, ((![v45] : Fin 1 → IVec S16 32) a x).toNat < S10256.size a := fun v45 k2_hw8 => k2_hw8.2.2.1
theorem k2_idx32_inb : ∀ (v45 : IVec S16 32) (k2_hw8 : k2_chk8 v45), ∀ a x, ((![v45] : Fin 1 → IVec S16 32) a x).toNat < S10256.size a := fun v45 k2_hw8 => k2_hw8.2.2.2
abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x1280 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1280x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1280x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1280x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S7680 : S_.BroadcastsInDim S7680 (![] : Fin 0 → Fin S7680.rank)
  concatenates_S320000_S7680_S327680_d0 : Shape.Concatenates [S320000, S7680] S327680 0
  bcast_S_S240x128 : S_.BroadcastsInDim S240x128 (![] : Fin 0 → Fin S240x128.rank)
  concatenates_S10000x128_S240x128_S10240x128_d0 : Shape.Concatenates [S10000x128, S240x128] S10240x128 0
  bcast_S_S10256 : S_.BroadcastsInDim S10256 (![] : Fin 0 → Fin S10256.rank)
  transposes_S128x128_S128x128_1_0 : S128x128.Transposes [1, 0] S128x128
  shapeCasts_S128_S1x128 : S128.ShapeCasts S1x128
  inb_S1024_S16_0 : ∀ a, (![0] : Fin 1 → Nat) a + S16.size a ≤ S1024.size a
  h_S16 : 0 < S16.numel
  h_S10256 : 0 < S10256.numel
  inb_S1024_S16_16 : ∀ a, (![16] : Fin 1 → Nat) a + S16.size a ≤ S1024.size a
  inb_S1024_S16_32 : ∀ a, (![32] : Fin 1 → Nat) a + S16.size a ≤ S1024.size a
  inb_S1024_S16_48 : ∀ a, (![48] : Fin 1 → Nat) a + S16.size a ≤ S1024.size a
  inb_S1024_S16_64 : ∀ a, (![64] : Fin 1 → Nat) a + S16.size a ≤ S1024.size a
  inb_S1024_S16_80 : ∀ a, (![80] : Fin 1 → Nat) a + S16.size a ≤ S1024.size a
  inb_S1024_S16_96 : ∀ a, (![96] : Fin 1 → Nat) a + S16.size a ≤ S1024.size a
  inb_S1024_S16_112 : ∀ a, (![112] : Fin 1 → Nat) a + S16.size a ≤ S1024.size a
  inb_S1024_S16_128 : ∀ a, (![128] : Fin 1 → Nat) a + S16.size a ≤ S1024.size a
  inb_S1024_S16_144 : ∀ a, (![144] : Fin 1 → Nat) a + S16.size a ≤ S1024.size a
  inb_S1024_S16_160 : ∀ a, (![160] : Fin 1 → Nat) a + S16.size a ≤ S1024.size a
  inb_S1024_S16_176 : ∀ a, (![176] : Fin 1 → Nat) a + S16.size a ≤ S1024.size a
  inb_S1024_S16_192 : ∀ a, (![192] : Fin 1 → Nat) a + S16.size a ≤ S1024.size a
  inb_S1024_S16_208 : ∀ a, (![208] : Fin 1 → Nat) a + S16.size a ≤ S1024.size a
  inb_S1024_S16_224 : ∀ a, (![224] : Fin 1 → Nat) a + S16.size a ≤ S1024.size a
  inb_S1024_S16_240 : ∀ a, (![240] : Fin 1 → Nat) a + S16.size a ≤ S1024.size a
  inb_S1024_S16_256 : ∀ a, (![256] : Fin 1 → Nat) a + S16.size a ≤ S1024.size a
  inb_S1024_S16_272 : ∀ a, (![272] : Fin 1 → Nat) a + S16.size a ≤ S1024.size a
  inb_S1024_S16_288 : ∀ a, (![288] : Fin 1 → Nat) a + S16.size a ≤ S1024.size a
  inb_S1024_S16_304 : ∀ a, (![304] : Fin 1 → Nat) a + S16.size a ≤ S1024.size a
  inb_S1024_S16_320 : ∀ a, (![320] : Fin 1 → Nat) a + S16.size a ≤ S1024.size a
  inb_S1024_S16_336 : ∀ a, (![336] : Fin 1 → Nat) a + S16.size a ≤ S1024.size a
  inb_S1024_S16_352 : ∀ a, (![352] : Fin 1 → Nat) a + S16.size a ≤ S1024.size a
  inb_S1024_S16_368 : ∀ a, (![368] : Fin 1 → Nat) a + S16.size a ≤ S1024.size a
  inb_S1024_S16_384 : ∀ a, (![384] : Fin 1 → Nat) a + S16.size a ≤ S1024.size a
  inb_S1024_S16_400 : ∀ a, (![400] : Fin 1 → Nat) a + S16.size a ≤ S1024.size a
  inb_S1024_S16_416 : ∀ a, (![416] : Fin 1 → Nat) a + S16.size a ≤ S1024.size a
  inb_S1024_S16_432 : ∀ a, (![432] : Fin 1 → Nat) a + S16.size a ≤ S1024.size a
  inb_S1024_S16_448 : ∀ a, (![448] : Fin 1 → Nat) a + S16.size a ≤ S1024.size a
  inb_S1024_S16_464 : ∀ a, (![464] : Fin 1 → Nat) a + S16.size a ≤ S1024.size a
  inb_S1024_S16_480 : ∀ a, (![480] : Fin 1 → Nat) a + S16.size a ≤ S1024.size a
  inb_S1024_S16_496 : ∀ a, (![496] : Fin 1 → Nat) a + S16.size a ≤ S1024.size a
  inb_S1024_S16_512 : ∀ a, (![512] : Fin 1 → Nat) a + S16.size a ≤ S1024.size a
  inb_S1024_S16_528 : ∀ a, (![528] : Fin 1 → Nat) a + S16.size a ≤ S1024.size a
  inb_S1024_S16_544 : ∀ a, (![544] : Fin 1 → Nat) a + S16.size a ≤ S1024.size a
  inb_S1024_S16_560 : ∀ a, (![560] : Fin 1 → Nat) a + S16.size a ≤ S1024.size a
  inb_S1024_S16_576 : ∀ a, (![576] : Fin 1 → Nat) a + S16.size a ≤ S1024.size a
  inb_S1024_S16_592 : ∀ a, (![592] : Fin 1 → Nat) a + S16.size a ≤ S1024.size a
  inb_S1024_S16_608 : ∀ a, (![608] : Fin 1 → Nat) a + S16.size a ≤ S1024.size a
  inb_S1024_S16_624 : ∀ a, (![624] : Fin 1 → Nat) a + S16.size a ≤ S1024.size a
  inb_S1024_S16_640 : ∀ a, (![640] : Fin 1 → Nat) a + S16.size a ≤ S1024.size a
  inb_S1024_S16_656 : ∀ a, (![656] : Fin 1 → Nat) a + S16.size a ≤ S1024.size a
  inb_S1024_S16_672 : ∀ a, (![672] : Fin 1 → Nat) a + S16.size a ≤ S1024.size a
  inb_S1024_S16_688 : ∀ a, (![688] : Fin 1 → Nat) a + S16.size a ≤ S1024.size a
  inb_S1024_S16_704 : ∀ a, (![704] : Fin 1 → Nat) a + S16.size a ≤ S1024.size a
  inb_S1024_S16_720 : ∀ a, (![720] : Fin 1 → Nat) a + S16.size a ≤ S1024.size a
  inb_S1024_S16_736 : ∀ a, (![736] : Fin 1 → Nat) a + S16.size a ≤ S1024.size a
  inb_S1024_S16_752 : ∀ a, (![752] : Fin 1 → Nat) a + S16.size a ≤ S1024.size a
  inb_S1024_S16_768 : ∀ a, (![768] : Fin 1 → Nat) a + S16.size a ≤ S1024.size a
  inb_S1024_S16_784 : ∀ a, (![784] : Fin 1 → Nat) a + S16.size a ≤ S1024.size a
  inb_S1024_S16_800 : ∀ a, (![800] : Fin 1 → Nat) a + S16.size a ≤ S1024.size a
  inb_S1024_S16_816 : ∀ a, (![816] : Fin 1 → Nat) a + S16.size a ≤ S1024.size a
  inb_S1024_S16_832 : ∀ a, (![832] : Fin 1 → Nat) a + S16.size a ≤ S1024.size a
  inb_S1024_S16_848 : ∀ a, (![848] : Fin 1 → Nat) a + S16.size a ≤ S1024.size a
  inb_S1024_S16_864 : ∀ a, (![864] : Fin 1 → Nat) a + S16.size a ≤ S1024.size a
  inb_S1024_S16_880 : ∀ a, (![880] : Fin 1 → Nat) a + S16.size a ≤ S1024.size a
  inb_S1024_S16_896 : ∀ a, (![896] : Fin 1 → Nat) a + S16.size a ≤ S1024.size a
  inb_S1024_S16_912 : ∀ a, (![912] : Fin 1 → Nat) a + S16.size a ≤ S1024.size a
  inb_S1024_S16_928 : ∀ a, (![928] : Fin 1 → Nat) a + S16.size a ≤ S1024.size a
  inb_S1024_S16_944 : ∀ a, (![944] : Fin 1 → Nat) a + S16.size a ≤ S1024.size a
  inb_S1024_S16_960 : ∀ a, (![960] : Fin 1 → Nat) a + S16.size a ≤ S1024.size a
  inb_S1024_S16_976 : ∀ a, (![976] : Fin 1 → Nat) a + S16.size a ≤ S1024.size a
  inb_S1024_S16_992 : ∀ a, (![992] : Fin 1 → Nat) a + S16.size a ≤ S1024.size a
  inb_S1024_S16_1008 : ∀ a, (![1008] : Fin 1 → Nat) a + S16.size a ≤ S1024.size a
  squeezes_S1x10256_S10256 : S1x10256.Squeezes S10256
  slices_S32x10256_S32x10240_0_0 : S32x10256.Slices ![0, 0] S32x10240
  bcast_S32x10240_S32x10240x1_0_1 : S32x10240.BroadcastsInDim S32x10240x1 (![0, 1] : Fin 2 → Fin S32x10240x1.rank)
  inb_S32x1280x1_S32x1280x1_0_0_0 : ∀ a, (![0, 0, 0] : Fin 3 → Nat) a + S32x1280x1.size a ≤ S32x1280x1.size a
  h_S32x1280x1 : 0 < S32x1280x1.numel
  shapeCasts_S32x1280x1_S32x1280x1 : S32x1280x1.ShapeCasts S32x1280x1
  reduces_S32x1280x1_S1280x1 : S32x1280x1.Reduces [0] S1280x1
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1280x1_S1280x128 : S1280x1.Broadcasts S1280x128
  transposes_S1280x128_p1_0_S128x1280 : S1280x128.Transposes [1, 0] S128x1280
  inb_S128x1280_S128x1280_0_0 : ∀ a, (![0, 0] : Fin 2 → Nat) a + S128x1280.size a ≤ S128x1280.size a
  h_S128x1280 : 0 < S128x1280.numel
  inb_S1280x1_S1280x1_0_0 : ∀ a, (![0, 0] : Fin 2 → Nat) a + S1280x1.size a ≤ S1280x1.size a
  h_S1280x1 : 0 < S1280x1.numel
  squeezes_S1x10240_S10240 : S1x10240.Squeezes S10240
  inb_S327680_S1024_0 : ∀ a, (![0] : Fin 1 → Nat) a + S1024.size a ≤ S327680.size a
  inb_S327680_S1024_1024 : ∀ a, (![1024] : Fin 1 → Nat) a + S1024.size a ≤ S327680.size a
  h_S10240 : 0 < S10240.numel
  inb_S327680_S1024_325632 : ∀ a, (![325632] : Fin 1 → Nat) a + S1024.size a ≤ S327680.size a
  inb_S327680_S1024_326656 : ∀ a, (![326656] : Fin 1 → Nat) a + S1024.size a ≤ S327680.size a
  inb_S10256_S10240_0 : ∀ a, (![0] : Fin 1 → Nat) a + S10240.size a ≤ S10256.size a
  shapeCasts_S128x1280_S128x1280 : S128x1280.ShapeCasts S128x1280
  transposes_S128x1280_p1_0_S1280x128 : S128x1280.Transposes [1, 0] S1280x128
  shapeCasts_S1280x1_S1280x1 : S1280x1.ShapeCasts S1280x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1280x128 : S1x128.Broadcasts S1280x128
  slices_S10240x128_S10000x128_0_0 : S10240x128.Slices ![0, 0] S10000x128
  dot_S1280x128_S128x128_S1280x128_1_0_0_1_n_n_wf : DotDims.WF S1280x128 S128x128 S1280x128 [1] [0] [0] [1] [] []
  hcc0_scoped0 : 0 + S_.numel ≤ 40
  hcc0_scoped1 : 1 + S_.numel ≤ 40
  hcc0_scoped2 : 2 + S_.numel ≤ 40
  hcc0_scoped3 : 3 + S_.numel ≤ 40
  hcc2_scratch12 : 15 + S_.numel ≤ 40
  hcc2_scratch13 : 16 + S_.numel ≤ 40
  hcc2_scratch14 : 17 + S_.numel ≤ 40
  hcc2_scratch15 : 18 + S_.numel ≤ 40
  hcc2_scoped0 : 19 + S_.numel ≤ 40
  hcc2_scoped1 : 20 + S_.numel ≤ 40
  hcc2_scoped2 : 21 + S_.numel ≤ 40
  hcc2_scoped3 : 22 + S_.numel ≤ 40
  hcc2_scoped4 : 23 + S_.numel ≤ 40
  hcc2_scoped5 : 24 + S_.numel ≤ 40
  hcc2_scoped6 : 25 + S_.numel ≤ 40
  hcc2_scoped7 : 26 + S_.numel ≤ 40
  hcc2_scoped8 : 27 + S_.numel ≤ 40
  hcc2_scoped9 : 28 + S_.numel ≤ 40
  hcc2_scoped10 : 29 + S_.numel ≤ 40
  hcc2_scoped11 : 30 + S_.numel ≤ 40
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S1024.size a ≤ S327680.size a
  k0_off2_inb : ∀ i : grid0.Coords, ∀ a, (k0_off2 i) a + S1x10256.size a ≤ S32x10256.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x128.size a ≤ S10240x128.size a
  hwx1_0 : ∀ i : grid1.Coords, EltTy.bits .f32 = 32 ∨ (Rect.block (s := S10240x128) S1280x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x1280x1.size a ≤ S32x10240x1.size a
  hwx1_2 : ∀ i : grid1.Coords, EltTy.bits .f32 = 32 ∨ (Rect.block (s := S32x10240x1) S32x1280x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1280x128.size a ≤ S10240x128.size a
  hwx1_3 : ∀ i : grid1.Coords, EltTy.bits .f32 = 32 ∨ (Rect.block (s := S10240x128) S1280x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x1280.size a ≤ S128x10240.size a
  hwx1_4 : ∀ i : grid1.Coords, EltTy.bits .f32 = 32 ∨ (Rect.block (s := S128x10240) S128x1280.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1280x1.size a ≤ S10240x1.size a
  hwx1_5 : ∀ i : grid1.Coords, EltTy.bits .f32 = 32 ∨ (Rect.block (s := S10240x1) S1280x1.size (cc1_transform_5 i) (hinb1_5 i)).WholeWords (EltTy.packing .f32)
  hcore2 : grid2.bound 0 ≤ τ.nSC
  hsub2 : grid2.bound 1 ≤ τ.nSub
  k2_off1_inb : ∀ i : grid2.Coords, ∀ (r : Fin 4), ∀ a, (k2_off1 i (BitVec.ofNat 32 r.val)) a + S1x10240.size a ≤ S128x10240.size a
  k2_t1_ok : k2_t1_loop.OK
  k2_off2_inb : ∀ k2_t1 : Fin k2_t1_loop.trips, ∀ a, (k2_off2 k2_t1) a + S1024.size a ≤ S327680.size a
  k2_t2_ok : k2_t2_loop.OK
  k2_off3_inb : ∀ k2_t2 : Fin k2_t2_loop.trips, ∀ a, (k2_off3 k2_t2) a + S16.size a ≤ S1024.size a
  k2_off4_inb : ∀ k2_t1 : Fin k2_t1_loop.trips, ∀ (r : Fin 3), ∀ a, (k2_off4 k2_t1 (BitVec.ofNat 32 (1 + r.val))) a + S1024.size a ≤ S327680.size a
  k2_t3_ok : k2_t3_loop.OK
  k2_off5_inb : ∀ k2_t3 : Fin k2_t3_loop.trips, ∀ a, (k2_off5 k2_t3) a + S16.size a ≤ S1024.size a
  k2_t4_ok : k2_t4_loop.OK
  k2_off6_inb : ∀ k2_t4 : Fin k2_t4_loop.trips, ∀ a, (k2_off6 k2_t4) a + S16.size a ≤ S1024.size a
  k2_t5_ok : k2_t5_loop.OK
  k2_off7_inb : ∀ k2_t5 : Fin k2_t5_loop.trips, ∀ a, (k2_off7 k2_t5) a + S16.size a ≤ S1024.size a
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x1280.size a ≤ S128x10240.size a
  hwx3_0 : ∀ i : grid3.Coords, EltTy.bits .f32 = 32 ∨ (Rect.block (s := S128x10240) S128x1280.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1280x128.size a ≤ S10240x128.size a
  hwx3_1 : ∀ i : grid3.Coords, EltTy.bits .f32 = 32 ∨ (Rect.block (s := S10240x128) S1280x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1280x1.size a ≤ S10240x1.size a
  hwx3_2 : ∀ i : grid3.Coords, EltTy.bits .f32 = 32 ∨ (Rect.block (s := S10240x1) S1280x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1280x128.size a ≤ S10240x128.size a
  hwx3_4 : ∀ i : grid3.Coords, EltTy.bits .f32 = 32 ∨ (Rect.block (s := S10240x128) S1280x128.size (cc3_transform_4 i) (hinb3_4 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc2_scratch12 : DmaSems sig S_ := SemArray.consecutive 15 S_ hcc2_scratch12
abbrev cc2_scratch13 : DmaSems sig S_ := SemArray.consecutive 16 S_ hcc2_scratch13
abbrev cc2_scratch14 : DmaSems sig S_ := SemArray.consecutive 17 S_ hcc2_scratch14
abbrev cc2_scratch15 : DmaSems sig S_ := SemArray.consecutive 18 S_ hcc2_scratch15
abbrev cc2_scoped0 : DmaSems sig S_ := SemArray.consecutive 19 S_ hcc2_scoped0
abbrev cc2_scoped1 : DmaSems sig S_ := SemArray.consecutive 20 S_ hcc2_scoped1
abbrev cc2_scoped2 : DmaSems sig S_ := SemArray.consecutive 21 S_ hcc2_scoped2
abbrev cc2_scoped3 : DmaSems sig S_ := SemArray.consecutive 22 S_ hcc2_scoped3
abbrev cc2_scoped4 : DmaSems sig S_ := SemArray.consecutive 23 S_ hcc2_scoped4
abbrev cc2_scoped5 : DmaSems sig S_ := SemArray.consecutive 24 S_ hcc2_scoped5
abbrev cc2_scoped6 : DmaSems sig S_ := SemArray.consecutive 25 S_ hcc2_scoped6
abbrev cc2_scoped7 : DmaSems sig S_ := SemArray.consecutive 26 S_ hcc2_scoped7
abbrev cc2_scoped8 : DmaSems sig S_ := SemArray.consecutive 27 S_ hcc2_scoped8
abbrev cc2_scoped9 : DmaSems sig S_ := SemArray.consecutive 28 S_ hcc2_scoped9
abbrev cc2_scoped10 : DmaSems sig S_ := SemArray.consecutive 29 S_ hcc2_scoped10
abbrev cc2_scoped11 : DmaSems sig S_ := SemArray.consecutive 30 S_ hcc2_scoped11
def dot_S1280x128_S128x128_S1280x128_1_0_0_1_n_n : DotDims S1280x128 S128x128 S1280x128 where
  lhsContracting := [1]
  rhsContracting := [0]
  lhsNonContracting := [0]
  rhsNonContracting := [1]
  lhsBatch := []
  rhsBatch := []
  wf := dot_S1280x128_S128x128_S1280x128_1_0_0_1_n_n_wf

abbrev win1_0 : Pipeline.Window sig grid1 :=
  Pipeline.Window.ofSpec (Memref.whole main_v9) S1280x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S32x1280x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16_0) S1280x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16_1) S128x1280.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16_2) S1280x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win3_0 : Pipeline.Window sig grid3 :=
  Pipeline.Window.ofSpec (Memref.whole main_v17) S128x1280.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16_0) S1280x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16_2) S1280x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v18) S1280x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S1 : Shape := ⟨1, ![1]⟩
abbrev S1x1 : Shape := ⟨2, ![1, 1]⟩
abbrev S320000x128 : Shape := ⟨2, ![320000, 128]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S1x320000, .i32⟩
  | .hbm, ⟨5, _⟩ => ⟨S320000, .i32⟩
  | .hbm, ⟨6, _⟩ => ⟨S1x320000, .i32⟩
  | .hbm, ⟨7, _⟩ => ⟨S320000, .i32⟩
  | .hbm, ⟨8, _⟩ => ⟨S320000, .i1⟩
  | .hbm, ⟨9, _⟩ => ⟨S_, .f32⟩
  | .hbm, ⟨10, _⟩ => ⟨S10000, .f32⟩
  | .hbm, ⟨11, _⟩ => ⟨S320000, .f32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S_, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S10000x1, .f32⟩
  | .hbm, ⟨29, _⟩ => ⟨S10000x1, .f32⟩
  | .hbm, ⟨30, _⟩ => ⟨S10000x128, .f32⟩
  | .hbm, ⟨31, _⟩ => ⟨S10000x128, .f32⟩
  | .hbm, ⟨32, _⟩ => ⟨S128x128, .f32⟩
  | .hbm, ⟨33, _⟩ => ⟨S10000x128, .f32⟩
  | .hbm, ⟨34, _⟩ => ⟨S320000x1, .i1⟩
  | .hbm, ⟨35, _⟩ => ⟨S_, .i32⟩
  | .hbm, ⟨36, _⟩ => ⟨S320000, .i32⟩
  | .hbm, ⟨37, _⟩ => ⟨S320000, .i1⟩
  | .hbm, ⟨38, _⟩ => ⟨S_, .i32⟩
  | .hbm, ⟨39, _⟩ => ⟨S320000, .i32⟩
  | .hbm, ⟨40, _⟩ => ⟨S320000, .i32⟩
  | .hbm, ⟨41, _⟩ => ⟨S320000, .i32⟩
  | .hbm, ⟨42, _⟩ => ⟨S320000x1, .i32⟩
  | .hbm, ⟨43, _⟩ => ⟨S1, .i32⟩
  | .hbm, ⟨44, _⟩ => ⟨S_, .i32⟩
  | .hbm, ⟨45, _⟩ => ⟨S320000x1, .i32⟩
  | .hbm, ⟨46, _⟩ => ⟨S320000x1, .i1⟩
  | .hbm, ⟨47, _⟩ => ⟨S1x1, .i32⟩
  | .hbm, ⟨48, _⟩ => ⟨S320000x1, .i32⟩
  | .hbm, ⟨49, _⟩ => ⟨S320000x1, .i1⟩
  | .hbm, ⟨50, _⟩ => ⟨S320000x1, .i1⟩
  | .hbm, ⟨51, _⟩ => ⟨S_, .i1⟩
  | .hbm, ⟨52, _⟩ => ⟨S320000, .i1⟩
  | .hbm, ⟨53, _⟩ => ⟨S320000x128, .f32⟩
  | .hbm, ⟨54, _⟩ => ⟨S320000x128, .i1⟩
  | .hbm, ⟨55, _⟩ => ⟨S_, .f32⟩
  | .hbm, ⟨56, _⟩ => ⟨S320000x128, .f32⟩
  | .hbm, ⟨57, _⟩ => ⟨S320000x128, .f32⟩
  | .hbm, ⟨58, _⟩ => ⟨S_, .f32⟩
  | .hbm, ⟨59, _⟩ => ⟨S_, .f32⟩
  | .hbm, ⟨60, _⟩ => ⟨S320000x128, .i1⟩
  | .hbm, ⟨61, _⟩ => ⟨S320000x128, .f32⟩
  | .hbm, ⟨62, _⟩ => ⟨S320000x128, .f32⟩
  | .hbm, ⟨63, _⟩ => ⟨S_, .f32⟩
  | .hbm, ⟨64, _⟩ => ⟨S10000x128, .f32⟩
  | .hbm, ⟨65, _⟩ => ⟨S_, .i32⟩
  | .hbm, ⟨66, _⟩ => ⟨S320000, .i32⟩
  | .hbm, ⟨67, _⟩ => ⟨S320000, .i1⟩
  | .hbm, ⟨68, _⟩ => ⟨S_, .i32⟩
  | .hbm, ⟨69, _⟩ => ⟨S320000, .i32⟩
  | .hbm, ⟨70, _⟩ => ⟨S320000, .i32⟩
  | .hbm, ⟨71, _⟩ => ⟨S320000, .i32⟩
  | .hbm, ⟨72, _⟩ => ⟨S320000x1, .i32⟩
  | .hbm, ⟨73, _⟩ => ⟨S10000x128, .f32⟩
  | .hbm, ⟨74, _⟩ => ⟨S10000x128, .f32⟩
  | .hbm, ⟨75, _⟩ => ⟨S10000x1, .f32⟩
  | .hbm, ⟨76, _⟩ => ⟨S10000x128, .f32⟩
  | .hbm, ⟨77, _⟩ => ⟨S10000x128, .f32⟩
  | .hbm, ⟨78, _⟩ => ⟨S1x128, .f32⟩
  | .hbm, ⟨79, _⟩ => ⟨S10000x128, .f32⟩
  | .hbm, ⟨80, _⟩ => ⟨S10000x128, .f32⟩
  | .hbm, ⟨81, _⟩ => ⟨S_, .f32⟩
  | .hbm, ⟨82, _⟩ => ⟨S10000x128, .f32⟩
  | .hbm, ⟨83, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v24 : Ref sig .tc := ⟨.hbm, 57, rfl⟩
abbrev main_cst_3 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v25 : Ref sig .tc := ⟨.hbm, 62, rfl⟩
abbrev main_cst_4 : Ref sig .tc := ⟨.hbm, 63, rfl⟩
abbrev main_v26 : Ref sig .tc := ⟨.hbm, 64, rfl⟩
abbrev main_c_5 : Ref sig .tc := ⟨.hbm, 65, rfl⟩
abbrev main_v27 : Ref sig .tc := ⟨.hbm, 66, rfl⟩
abbrev main_v28 : Ref sig .tc := ⟨.hbm, 67, rfl⟩
abbrev main_c_6 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_call3_cst : Ref sig .tc := ⟨.hbm, 81, rfl⟩
abbrev main_call3_v0 : Ref sig .tc := ⟨.hbm, 82, rfl⟩
abbrev main_v41 : Ref sig .tc := ⟨.hbm, 83, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000 : S_.BroadcastsInDim S10000 (![] : Fin 0 → Fin S10000.rank)
  bcast_S_S320000 : S_.BroadcastsInDim S320000 (![] : Fin 0 → Fin S320000.rank)
  bcast_S320000_S320000x1_0 : S320000.BroadcastsInDim S320000x1 (![0] : Fin 1 → Fin S320000x1.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S128x128_S128x128_1_0 : S128x128.Transposes [1, 0] S128x128
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  bcast_S320000x1_S320000x128_0_1 : S320000x1.BroadcastsInDim S320000x128 (![0, 1] : Fin 2 → Fin S320000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  scatter_S10000_S320000x1_S320000_n_0_0_1_wf : ScatterDims.WF S10000 S320000x1 S320000 [] [0] [0] 1
  dot_S10000x128_S128x128_S10000x128_1_0_0_1_n_n_wf : DotDims.WF S10000x128 S128x128 S10000x128 [1] [0] [0] [1] [] []
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf

class Facts : Prop extends Facts₀ where

variable [Facts]
-- ==== Proof.LibReadTokens.lean ====
/-
  General: read tokens of an array over a two-level family of readers. When every one of n₁ × n₂ threads (n₁ cores, n₂ subcores
  of each) reads one array whole at the same time, the array's points-to at a share `q` is cut into a token per core and each
  core's token into a token per subcore; what is cut off on the way (the remainders) is kept aside and joins the tokens back to
  `q` afterwards. Both directions in one statement. Also: anything kept whole passes through a deal that hands it back unchanged.
-/
import Idealize.ShloMosaic.Lib.Transfers

noncomputable section

namespace Cert.Lib.ReadTokens

open Idealize.ShloMosaic Idealize.ShloMosaic.Transfers
open Idealize.SL
open Idealize.SL.BI (sProp bigSep bigSep_sep' bigSep_congr)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable {ℓ : Loc nD τ sig} {S : Finset (Idx ℓ)} {f : Buf Val ℓ}

/-- What is cut off when `q` is cut into n₁ tokens and each of those into n₂: kept aside while the tokens are out. -/
def rem2 (ℓ : Loc nD τ sig) (S : Finset (Idx ℓ)) (f : Buf Val ℓ) (q : PosShare TreeShare) (n₁ n₂ : ℕ) : sProp 𝕄 :=
  iprop((ℓ ↦[S]{shareDrop q n₁} f) ∗ bigSep Finset.univ fun c : Fin n₁ => ℓ ↦[S]{shareDrop (shareTok q n₁ c) n₂} f)

/-- A points-to at `q` is the remainders and one token per (core, subcore). -/
theorem pointsTo_toks2 (q : PosShare TreeShare) (n₁ n₂ : ℕ) :
    (ℓ ↦[S]{q} f : sProp 𝕄) ⊣⊢ iprop(rem2 ℓ S f q n₁ n₂
      ∗ bigSep Finset.univ fun c : Fin n₁ => bigSep Finset.univ fun i : Fin n₂ => ℓ ↦[S]{shareTok (shareTok q n₁ c) n₂ i} f) := by
  have inner : ∀ c : Fin n₁, (ℓ ↦[S]{shareTok q n₁ c} f : sProp 𝕄)
      ⊣⊢ iprop((ℓ ↦[S]{shareDrop (shareTok q n₁ c) n₂} f) ∗ bigSep Finset.univ fun i : Fin n₂ => ℓ ↦[S]{shareTok (shareTok q n₁ c) n₂ i} f) :=
    fun c => pointsTo_toks (shareTok q n₁ c) n₂
  unfold rem2
  constructor
  · refine (pointsTo_toks q n₁).1.trans ((sep_mono_right (BI.bigSep_mono (s := Finset.univ) fun c _ => (inner c).1)).trans ?_)
    rw [bigSep_sep']
    iintro ⟨Hr, Hd, Hi⟩
    isplitl [Hr Hd]
    · isplitl [Hr] <;> iassumption
    · iexact Hi
  · refine Entails.trans ?_ ((sep_mono_right (BI.bigSep_mono (s := Finset.univ) fun c _ => (inner c).2)).trans (pointsTo_toks q n₁).2)
    rw [bigSep_sep']
    iintro ⟨⟨Hr, Hd⟩, Hi⟩
    isplitl [Hr]; · iexact Hr
    isplitl [Hd] <;> iassumption

/-! ## Families of pieces over (core, subcore), closed under `∗` -/

/-- `A` is a remainder `R` and one piece `t c i` per (core, subcore): what is dealt to n₁ × n₂ readers and joined back. -/
def Toks2 {n₁ n₂ : ℕ} (A R : sProp 𝕄) (t : Fin n₁ → Fin n₂ → sProp 𝕄) : Prop :=
  A ⊣⊢ iprop(R ∗ bigSep Finset.univ fun c : Fin n₁ => bigSep Finset.univ fun i : Fin n₂ => t c i)

/-- An array's points-to at `q` is such a family: the remainders and the read tokens. -/
theorem Toks2.of_pointsTo (q : PosShare TreeShare) (n₁ n₂ : ℕ) :
    Toks2 (ℓ ↦[S]{q} f : sProp 𝕄) (rem2 ℓ S f q n₁ n₂) (fun (c : Fin n₁) (i : Fin n₂) => ℓ ↦[S]{shareTok (shareTok q n₁ c) n₂ i} f) :=
  pointsTo_toks2 q n₁ n₂

/-- A doubly indexed product of pairs is the pair of the doubly indexed products. -/
theorem bigSep2_sep {n₁ n₂ : ℕ} (a b : Fin n₁ → Fin n₂ → sProp 𝕄) :
    (bigSep Finset.univ fun c : Fin n₁ => bigSep Finset.univ fun i : Fin n₂ => iprop(a c i ∗ b c i) : sProp 𝕄)
      = iprop((bigSep Finset.univ fun c : Fin n₁ => bigSep Finset.univ fun i : Fin n₂ => a c i)
          ∗ bigSep Finset.univ fun c : Fin n₁ => bigSep Finset.univ fun i : Fin n₂ => b c i) := by
  rw [← bigSep_sep']; exact bigSep_congr fun c _ => bigSep_sep' _ _ _

/-- Two families side by side are one family of the paired pieces. -/
theorem Toks2.sep {n₁ n₂ : ℕ} {A B RA RB : sProp 𝕄} {a b : Fin n₁ → Fin n₂ → sProp 𝕄} (hA : Toks2 A RA a) (hB : Toks2 B RB b) :
    Toks2 iprop(A ∗ B) iprop(RA ∗ RB) (fun c i => iprop(a c i ∗ b c i)) := by
  unfold Toks2 at *
  have e : (bigSep Finset.univ fun c : Fin n₁ => bigSep Finset.univ fun i : Fin n₂ => iprop(a c i ∗ b c i) : sProp 𝕄)
      = iprop((bigSep Finset.univ fun c : Fin n₁ => bigSep Finset.univ fun i : Fin n₂ => a c i)
          ∗ bigSep Finset.univ fun c : Fin n₁ => bigSep Finset.univ fun i : Fin n₂ => b c i) := by
    rw [← bigSep_sep']; exact bigSep_congr fun c _ => bigSep_sep' _ _ _
  rw [e]
  constructor
  · refine (sep_mono hA.1 hB.1).trans ?_
    iintro ⟨⟨HRA, Ha⟩, HRB, Hb⟩
    isplitl [HRA HRB]
    · isplitl [HRA] <;> iassumption
    · isplitl [Ha] <;> iassumption
  · refine Entails.trans ?_ (sep_mono hA.2 hB.2)
    iintro ⟨⟨HRA, HRB⟩, Ha, Hb⟩
    isplitl [HRA Ha]
    · isplitl [HRA] <;> iassumption
    · isplitl [HRB] <;> iassumption

/-- A family with nothing kept aside, from an equation (a cover of an array by disjoint pieces). -/
theorem Toks2.of_eq {n₁ n₂ : ℕ} {A : sProp 𝕄} {t : Fin n₁ → Fin n₂ → sProp 𝕄}
    (h : A = bigSep Finset.univ fun c : Fin n₁ => bigSep Finset.univ fun i : Fin n₂ => t c i) : Toks2 A iprop(emp) t := by
  unfold Toks2
  rw [← h]
  constructor
  · iintro H
    isplitr
    · iempintro
    · iexact H
  · iintro ⟨-, H⟩
    iexact H

/-- A deal that hands out all of `A` and takes back `B` for `B`. -/
theorem keep_all [Preorder Lvl] (E : Set Name) (A B : sProp 𝕄) : A ⊢ iprop(|={E}=> (A ∗ (B -∗ B))) := by
  iintro H; imodintro
  isplitl [H]; · iexact H
  iintro H; iexact H

end Cert.Lib.ReadTokens

end
-- ==== Proof.KSetup.lean ====
/-
  The graph-convolution layer's kernel program as a launch of thirty-five threads: the TensorCore's main program, two
  sequencers, and thirty-two vector subcores (two cores of sixteen). Two calls go to the vector subcores: the first counts,
  per subcore, the non-self edges into each node for that subcore's tenth-of-a-thirty-second of the edge list; the second
  accumulates, per subcore, four feature columns over all edges. Between and after them the TensorCore runs two gridded
  regions. This module fixes what each handshake carries.

  Worker (c, i) (core c, subcore i) has number w = 2 i + c. In the first call it reads the padded source and destination
  index arrays and the zero vector whole (a read token of each) and owns row w of the 32-row count array. In the second it
  reads the same three arrays whole, owns rows 4 w … 4 w + 3 of the transposed feature array (read) and of the transposed
  aggregate array (written). A core's share is the product of its subcores' shares, so that dealing a core's share to its
  subcores is the identity.
-/
import proofs.«207969_g80633716015134_cont_9to1_m_1245_11_alg».proof.KernelIdeal
import proofs.«207969_g80633716015134_cont_9to1_m_1245_11_alg».proof.Proof.Gen.KernelIdeal
import proofs.«207969_g80633716015134_cont_9to1_m_1245_11_alg».proof.Proof.LibReadTokens
import Idealize.ShloMosaic.Lib.SparseCore.Launch
import Idealize.ShloMosaic.Lib.Pipeline.Kit
import Idealize.ShloMosaic.Lib.Transfers

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the two gridded regions' staging rounds, the copies' counters -/

abbrev UH : Type := URounds (GSem nD τ sig) ℕ
abbrev UP : Type := UR sig nD τ
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) := (Emb.inl : Emb UP (UP × Counters)).trans embR

instance EP_landsIn : (EP : Emb UP 𝕄).LandsIn (upEmb : UEmb _ 𝕄) := by unfold EP embR; infer_instance

/-! ## The arrays the calls exchange, as the TensorCore names them -/

abbrev srcLoc (d : Dev nD) : Loc nD τ sig := (SparseCore.T d).loc main_v5
abbrev dstLoc (d : Dev nD) : Loc nD τ sig := (SparseCore.T d).loc main_v7
abbrev zeroLoc (d : Dev nD) : Loc nD τ sig := (SparseCore.T d).loc main_v10
abbrev cntLoc (d : Dev nD) : Loc nD τ sig := (SparseCore.T d).loc main_v13
abbrev htLoc (d : Dev nD) : Loc nD τ sig := (SparseCore.T d).loc main_v16_1
abbrev aggLoc (d : Dev nD) : Loc nD τ sig := (SparseCore.T d).loc main_v17

/-- The worker number of (core, subcore). -/
def wid (c : ℕ) (i : ℕ) : ℕ := 2 * i + c

theorem hdiv32 : 32 ∣ S32x10256.size 0 := ⟨1, rfl⟩

/-- Row w of the 32-row count array: the w-th of the 32 equal parts of its first axis. -/
abbrev cntRow (w : Fin 32) : Rect S32x10256 := Rect.part (s := S32x10256) (a₀ := 0) hdiv32 w

theorem hdiv128 : 128 ∣ S128x10240.size 0 := ⟨1, rfl⟩

/-- Row r of a 128-row transposed feature or aggregate array: the r-th of the 128 equal parts of its first axis. -/
abbrev colRow (r : Fin 128) : Rect S128x10240 := Rect.part (s := S128x10240) (a₀ := 0) hdiv128 r

theorem wid_lt {c i : ℕ} (hc : c < 2) (hi : i < 16) : wid c i < 32 := by unfold wid; omega
theorem wid4_lt {c i : ℕ} (hc : c < 2) (hi : i < 16) (k : Fin 4) : 4 * wid c i + k.val < 128 := by
  unfold wid; have := k.isLt; omega

variable [FloatOps F]

/-! ## What the handshakes carry -/

section Pays

variable (fs : (d : Dev nD) → Buf (Elt F) (srcLoc d)) (fd : (d : Dev nD) → Buf (Elt F) (dstLoc d)) (fz : (d : Dev nD) → Buf (Elt F) (zeroLoc d))

/-- A worker's read token of an array held whole at contents f. -/
abbrev tok (ℓ : Loc nD τ sig) (f : Buf (Elt F) ℓ) (c : Fin 2) (i : Fin 16) : sProp 𝕄 :=
  ℓ ↦[Finset.univ]{shareTok (shareTok fullShare 2 c) 16 i} f

/-- The three arrays every worker reads whole in both calls. -/
def reads (d : Dev nD) (c : Fin 2) (i : Fin 16) : sProp 𝕄 :=
  iprop(tok (srcLoc d) (fs d) c i ∗ tok (dstLoc d) (fd d) c i ∗ tok (zeroLoc d) (fz d) c i)

/-- First call: the reads and the worker's row of the count array, at whatever it holds. -/
def pay0 (d : Dev nD) (c : Fin 2) (i : Fin 16) : sProp 𝕄 :=
  iprop(reads fs fd fz d c i ∗ ∃ g : Buf (Elt F) (cntLoc d), cntLoc d ↦[(cntRow ⟨wid c.val i.val, wid_lt c.isLt i.isLt⟩).set]{fullShare} g)

/-- Second call: the reads, the worker's four rows of the transposed features and of the transposed aggregate, each at
    whatever it holds. -/
def pay1 (d : Dev nD) (c : Fin 2) (i : Fin 16) : sProp 𝕄 :=
  iprop(reads fs fd fz d c i
    ∗ (bigSep Finset.univ fun k : Fin 4 => iprop(∃ h : Buf (Elt F) (htLoc d), htLoc d ↦[(colRow ⟨4 * wid c.val i.val + k.val, wid4_lt c.isLt i.isLt k⟩).set]{fullShare} h))
    ∗ bigSep Finset.univ fun k : Fin 4 => iprop(∃ g : Buf (Elt F) (aggLoc d), aggLoc d ↦[(colRow ⟨4 * wid c.val i.val + k.val, wid4_lt c.isLt i.isLt k⟩).set]{fullShare} g))

/-- Both ways the same: a task hands back what it was handed, its output rows at new contents. -/
def P : (K (F := F)).Pay (nD := nD) (Val := Elt F) (Name := ℕ) (U := UU) where
  st := fun q d c => match q with
    | ⟨0, _⟩ => bigSep Finset.univ fun i : Fin 16 => pay0 fs fd fz d c i
    | ⟨1, _⟩ => bigSep Finset.univ fun i : Fin 16 => pay1 fs fd fz d c i
  dn := fun q d c => match q with
    | ⟨0, _⟩ => bigSep Finset.univ fun i : Fin 16 => pay0 fs fd fz d c i
    | ⟨1, _⟩ => bigSep Finset.univ fun i : Fin 16 => pay1 fs fd fz d c i
  go := fun q d c i => match q with
    | ⟨0, _⟩ => pay0 fs fd fz d c i
    | ⟨1, _⟩ => pay1 fs fd fz d c i
  td := fun q d c i => match q with
    | ⟨0, _⟩ => pay0 fs fd fz d c i
    | ⟨1, _⟩ => pay1 fs fd fz d c i
  x := fun _ _ => iprop(emp)

end Pays

end Cert.KernelIdeal.Run

end
-- ==== Proof.KSplit.lean ====
/-
  Cutting the arrays the two calls exchange among the thirty-two workers, and putting them back.
  Worker (c, i) has number 2 i + c; the pairs (c, i) are in bijection with the numbers below 32, and the triples
  ((c, i), k) with the rows 4 (2 i + c) + k below 128. An array whose first axis has 32 (or 128) rows is the disjoint
  union of its rows, so a whole array at the full share is one row per worker (or four), and rows held each at contents of
  its own are one array at some contents.
-/
import proofs.«207969_g80633716015134_cont_9to1_m_1245_11_alg».proof.Proof.KSetup

noncomputable section

namespace Cert.KernelIdeal.Run

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F] [∀ e, Nonempty (Elt F e)]

local notation "𝕄" => MT nD τ sig (HIx 2) (Elt F) ℕ UU ℕ

/-! ## The numbering -/

/-- (core, subcore) ↦ 2 · subcore + core, onto the numbers below 32. -/
def e32 : Fin 2 × Fin 16 ≃ Fin 32 where
  toFun p := ⟨wid p.1.val p.2.val, wid_lt p.1.isLt p.2.isLt⟩
  invFun w := (⟨w.val % 2, Nat.mod_lt _ (by omega)⟩, ⟨w.val / 2, by have := w.isLt; omega⟩)
  left_inv p := by
    obtain ⟨⟨c, hc⟩, ⟨i, hi⟩⟩ := p
    refine Prod.ext (Fin.ext ?_) (Fin.ext ?_)
    · show (wid c i) % 2 = c; unfold wid; omega
    · show (wid c i) / 2 = i; unfold wid; omega
  right_inv w := by
    apply Fin.ext
    show wid (w.val % 2) (w.val / 2) = w.val
    unfold wid; omega

theorem e32_apply (c : Fin 2) (i : Fin 16) : e32 (c, i) = ⟨wid c.val i.val, wid_lt c.isLt i.isLt⟩ := rfl

/-- ((core, subcore), k) ↦ 4 · (2 · subcore + core) + k, onto the rows below 128. -/
def e128 : (Fin 2 × Fin 16) × Fin 4 ≃ Fin 128 where
  toFun p := ⟨4 * wid p.1.1.val p.1.2.val + p.2.val, wid4_lt p.1.1.isLt p.1.2.isLt p.2⟩
  invFun r := ((⟨(r.val / 4) % 2, Nat.mod_lt _ (by omega)⟩, ⟨(r.val / 4) / 2, by have := r.isLt; omega⟩), ⟨r.val % 4, Nat.mod_lt _ (by omega)⟩)
  left_inv p := by
    obtain ⟨⟨⟨c, hc⟩, ⟨i, hi⟩⟩, ⟨k, hk⟩⟩ := p
    refine Prod.ext (Prod.ext (Fin.ext ?_) (Fin.ext ?_)) (Fin.ext ?_)
    · show ((4 * wid c i + k) / 4) % 2 = c; unfold wid; omega
    · show ((4 * wid c i + k) / 4) / 2 = i; unfold wid; omega
    · show (4 * wid c i + k) % 4 = k; unfold wid; omega
  right_inv r := by
    apply Fin.ext
    show 4 * wid ((r.val / 4) % 2) ((r.val / 4) / 2) + r.val % 4 = r.val
    unfold wid; omega

theorem e128_apply (c : Fin 2) (i : Fin 16) (k : Fin 4) : e128 ((c, i), k) = ⟨4 * wid c.val i.val + k.val, wid4_lt c.isLt i.isLt k⟩ := rfl

/-! ## The count array: one row per worker -/

theorem cnt_rows_disjoint : ∀ w ∈ (Finset.univ : Finset (Fin 32)), ∀ w' ∈ (Finset.univ : Finset (Fin 32)), w ≠ w' → Disjoint (cntRow w).set (cntRow w').set :=
  fun _ _ _ _ h => Rect.part_disjoint hdiv32 h
theorem cnt_rows_cover : (Finset.univ : Finset (Fin 32)).biUnion (fun w => (cntRow w).set) = Finset.univ := Rect.biUnion_part hdiv32

omit [∀ e, Nonempty (Elt F e)] in
/-- The whole count array is one row per worker. -/
theorem cnt_rows (d : Dev nD) (g : Buf (Elt F) (cntLoc d)) :
    (cntLoc d ↦{fullShare} g : sProp 𝕄)
      = bigSep Finset.univ fun c : Fin 2 => bigSep Finset.univ fun i : Fin 16 => cntLoc d ↦[(cntRow (e32 (c, i))).set]{fullShare} g :=
  calc (cntLoc d ↦{fullShare} g : sProp 𝕄)
      = cntLoc d ↦[(Finset.univ : Finset (Fin 32)).biUnion fun w => (cntRow w).set]{fullShare} g := by rw [cnt_rows_cover]
    _ = bigSep Finset.univ fun w : Fin 32 => cntLoc d ↦[(cntRow w).set]{fullShare} g := pointsTo_biUnion Finset.univ _ cnt_rows_disjoint
    _ = bigSep Finset.univ fun p : Fin 2 × Fin 16 => cntLoc d ↦[(cntRow (e32 p)).set]{fullShare} g := bigSep_univ_equiv e32 _
    _ = _ := bigSep_univ_prod _

/-- Rows held each at contents of its own are the whole array at some contents. -/
theorem cnt_rows_join (d : Dev nD) :
    (bigSep Finset.univ fun c : Fin 2 => bigSep Finset.univ fun i : Fin 16 => iprop(∃ g : Buf (Elt F) (cntLoc d), cntLoc d ↦[(cntRow (e32 (c, i))).set]{fullShare} g))
      ⊢ (iprop(∃ g : Buf (Elt F) (cntLoc d), cntLoc d ↦{fullShare} g) : sProp 𝕄) := by
  rw [← bigSep_univ_prod (fun p : Fin 2 × Fin 16 => iprop(∃ g : Buf (Elt F) (cntLoc d), cntLoc d ↦[(cntRow (e32 p)).set]{fullShare} g)),
    ← bigSep_univ_equiv e32 (fun w : Fin 32 => iprop(∃ g : Buf (Elt F) (cntLoc d), cntLoc d ↦[(cntRow w).set]{fullShare} g))]
  refine (bigSep_exists_pi Finset.univ (fun (w : Fin 32) (g : Buf (Elt F) (cntLoc d)) => (cntLoc d ↦[(cntRow w).set]{fullShare} g : sProp 𝕄))).trans ?_
  iintro ⟨%gs, H⟩
  ihave H' := (pointsTo_biUnion_join Finset.univ (fun w : Fin 32 => (cntRow w).set) gs (gs 0) cnt_rows_disjoint) $$ H
  icases H' with ⟨%g, -, Hg⟩
  rw [cnt_rows_cover]
  iexists g; iexact Hg

/-! ## The 128-row arrays: four rows per worker -/

theorem col_rows_disjoint : ∀ r ∈ (Finset.univ : Finset (Fin 128)), ∀ r' ∈ (Finset.univ : Finset (Fin 128)), r ≠ r' → Disjoint (colRow r).set (colRow r').set :=
  fun _ _ _ _ h => Rect.part_disjoint hdiv128 h
theorem col_rows_cover : (Finset.univ : Finset (Fin 128)).biUnion (fun r => (colRow r).set) = Finset.univ := Rect.biUnion_part hdiv128

omit [∀ e, Nonempty (Elt F e)] in
/-- The whole transposed feature array is four rows per worker. -/
theorem ht_rows (d : Dev nD) (h : Buf (Elt F) (htLoc d)) :
    (htLoc d ↦{fullShare} h : sProp 𝕄)
      = bigSep Finset.univ fun c : Fin 2 => bigSep Finset.univ fun i : Fin 16 => bigSep Finset.univ fun k : Fin 4 =>
          htLoc d ↦[(colRow (e128 ((c, i), k))).set]{fullShare} h :=
  calc (htLoc d ↦{fullShare} h : sProp 𝕄)
      = htLoc d ↦[(Finset.univ : Finset (Fin 128)).biUnion fun r => (colRow r).set]{fullShare} h := by rw [col_rows_cover]
    _ = bigSep Finset.univ fun r : Fin 128 => htLoc d ↦[(colRow r).set]{fullShare} h := pointsTo_biUnion Finset.univ _ col_rows_disjoint
    _ = bigSep Finset.univ fun p : (Fin 2 × Fin 16) × Fin 4 => htLoc d ↦[(colRow (e128 p)).set]{fullShare} h := bigSep_univ_equiv e128 _
    _ = bigSep Finset.univ fun q : Fin 2 × Fin 16 => bigSep Finset.univ fun k : Fin 4 => htLoc d ↦[(colRow (e128 (q, k))).set]{fullShare} h := bigSep_univ_prod _
    _ = _ := bigSep_univ_prod (fun q : Fin 2 × Fin 16 => bigSep Finset.univ fun k : Fin 4 => htLoc d ↦[(colRow (e128 (q, k))).set]{fullShare} h)

omit [∀ e, Nonempty (Elt F e)] in
/-- The same for the transposed aggregate array. -/
theorem agg_rows (d : Dev nD) (g : Buf (Elt F) (aggLoc d)) :
    (aggLoc d ↦{fullShare} g : sProp 𝕄)
      = bigSep Finset.univ fun c : Fin 2 => bigSep Finset.univ fun i : Fin 16 => bigSep Finset.univ fun k : Fin 4 =>
          aggLoc d ↦[(colRow (e128 ((c, i), k))).set]{fullShare} g :=
  calc (aggLoc d ↦{fullShare} g : sProp 𝕄)
      = aggLoc d ↦[(Finset.univ : Finset (Fin 128)).biUnion fun r => (colRow r).set]{fullShare} g := by rw [col_rows_cover]
    _ = bigSep Finset.univ fun r : Fin 128 => aggLoc d ↦[(colRow r).set]{fullShare} g := pointsTo_biUnion Finset.univ _ col_rows_disjoint
    _ = bigSep Finset.univ fun p : (Fin 2 × Fin 16) × Fin 4 => aggLoc d ↦[(colRow (e128 p)).set]{fullShare} g := bigSep_univ_equiv e128 _
    _ = bigSep Finset.univ fun q : Fin 2 × Fin 16 => bigSep Finset.univ fun k : Fin 4 => aggLoc d ↦[(colRow (e128 (q, k))).set]{fullShare} g := bigSep_univ_prod _
    _ = _ := bigSep_univ_prod (fun q : Fin 2 × Fin 16 => bigSep Finset.univ fun k : Fin 4 => aggLoc d ↦[(colRow (e128 (q, k))).set]{fullShare} g)

/-- Rows of a 128-row array held each at contents of its own are the whole array at some contents. -/
theorem col_rows_join (ℓ : Loc nD τ sig) (S : (r : Fin 128) → Finset (Idx ℓ))
    (hdis : ∀ r ∈ (Finset.univ : Finset (Fin 128)), ∀ r' ∈ (Finset.univ : Finset (Fin 128)), r ≠ r' → Disjoint (S r) (S r'))
    (hcov : (Finset.univ : Finset (Fin 128)).biUnion S = Finset.univ) :
    (bigSep Finset.univ fun c : Fin 2 => bigSep Finset.univ fun i : Fin 16 => bigSep Finset.univ fun k : Fin 4 =>
        iprop(∃ g : Buf (Elt F) ℓ, ℓ ↦[S (e128 ((c, i), k))]{fullShare} g))
      ⊢ (iprop(∃ g : Buf (Elt F) ℓ, ℓ ↦{fullShare} g) : sProp 𝕄) := by
  rw [← bigSep_univ_prod (fun q : Fin 2 × Fin 16 => bigSep Finset.univ fun k : Fin 4 => iprop(∃ g : Buf (Elt F) ℓ, ℓ ↦[S (e128 (q, k))]{fullShare} g)),
    ← bigSep_univ_prod (fun p : (Fin 2 × Fin 16) × Fin 4 => iprop(∃ g : Buf (Elt F) ℓ, ℓ ↦[S (e128 p)]{fullShare} g)),
    ← bigSep_univ_equiv e128 (fun r : Fin 128 => iprop(∃ g : Buf (Elt F) ℓ, ℓ ↦[S r]{fullShare} g))]
  refine (bigSep_exists_pi Finset.univ (fun (r : Fin 128) (g : Buf (Elt F) ℓ) => (ℓ ↦[S r]{fullShare} g : sProp 𝕄))).trans ?_
  iintro ⟨%gs, H⟩
  ihave H' := (pointsTo_biUnion_join Finset.univ S gs (gs 0) hdis) $$ H
  icases H' with ⟨%g, -, Hg⟩
  rw [hcov]
  iexists g; iexact Hg

end Cert.KernelIdeal.Run

end
-- ==== Proof.KMainOps.lean ====
/-
  The TensorCore's main program as three straight lines of host operations around its four calls: seventeen operations
  that pad the index arrays and the features, make the zero vector, transpose the weights and reshape the bias; the first
  vector-subcore call; two operations that cut the count array to width 10240 and add a unit axis; the first gridded region;
  the second vector-subcore call; the second gridded region; one operation that keeps the first 10000 rows.
-/
import proofs.«207969_g80633716015134_cont_9to1_m_1245_11_alg».proof.Proof.KSetup
import Idealize.ShloMosaic.Lib.StableHlo.Run

noncomputable section

namespace Cert.KernelIdeal.Run

open Cert.KernelIdeal Cert.KernelIdeal.Gen
open Idealize.ShloMosaic Idealize.SL.Sem

variable {F : FTy → Type} [FloatOps F]

/-- The seventeen operations before the first call. -/
abbrev ops0 : List (HloOp τ sig (Elt F)) :=
  [StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
   StableHlo.reshape main_v0 main_v1 rfl shapeCasts_S1x320000_S320000,
   StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
   StableHlo.reshape main_v2 main_v3 rfl shapeCasts_S1x320000_S320000,
   StableHlo.nullary main_c (constantI S_ 32 0#32),
   StableHlo.unary main_c main_v4 (broadcastInDim S7680 ![] bcast_S_S7680 : (⟨S_, .i32⟩ : BufTy).Contents (Elt F) → (⟨S7680, .i32⟩ : BufTy).Contents (Elt F)),
   StableHlo.binary main_v1 main_v4 main_v5 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
   StableHlo.nullary main_c_0 (constantI S_ 32 0#32),
   StableHlo.unary main_c_0 main_v6 (broadcastInDim S7680 ![] bcast_S_S7680 : (⟨S_, .i32⟩ : BufTy).Contents (Elt F) → (⟨S7680, .i32⟩ : BufTy).Contents (Elt F)),
   StableHlo.binary main_v3 main_v6 main_v7 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
   StableHlo.nullary main_cst (constant S_ .f32 0x00000000#32),
   StableHlo.unary main_cst main_v8 (broadcastInDim S240x128 ![] bcast_S_S240x128 : (⟨S_, .f32⟩ : BufTy).Contents (Elt F) → (⟨S240x128, .f32⟩ : BufTy).Contents (Elt F)),
   StableHlo.binary main_arg0 main_v8 main_v9 ((fun a b => concatenate S10240x128 0 [⟨S10000x128, a⟩, ⟨S240x128, b⟩] concatenates_S10000x128_S240x128_S10240x128_d0) : (⟨S10000x128, .f32⟩ : BufTy).Contents (Elt F) → (⟨S240x128, .f32⟩ : BufTy).Contents (Elt F) → (⟨S10240x128, .f32⟩ : BufTy).Contents (Elt F)),
   StableHlo.nullary main_cst_1 (constant S_ .f32 0x00000000#32),
   StableHlo.unary main_cst_1 main_v10 (broadcastInDim S10256 ![] bcast_S_S10256 : (⟨S_, .f32⟩ : BufTy).Contents (Elt F) → (⟨S10256, .f32⟩ : BufTy).Contents (Elt F)),
   StableHlo.unary main_arg2 main_v11 ((transpose S128x128 [1, 0] · transposes_S128x128_S128x128_1_0) : (⟨S128x128, .f32⟩ : BufTy).Contents (Elt F) → (⟨S128x128, .f32⟩ : BufTy).Contents (Elt F)),
   StableHlo.reshape main_arg3 main_v12 rfl shapeCasts_S128_S1x128]

/-- The two operations between the first call and the first region. -/
abbrev ops1 : List (HloOp τ sig (Elt F)) :=
  [StableHlo.unary main_v13 main_v14 ((extractStridedSlice S32x10240 ![0, 0] · slices_S32x10256_S32x10240_0_0) : (⟨S32x10256, .f32⟩ : BufTy).Contents (Elt F) → (⟨S32x10240, .f32⟩ : BufTy).Contents (Elt F)),
   StableHlo.unary main_v14 main_v15 (broadcastInDim S32x10240x1 ![0, 1] bcast_S32x10240_S32x10240x1_0_1 : (⟨S32x10240, .f32⟩ : BufTy).Contents (Elt F) → (⟨S32x10240x1, .f32⟩ : BufTy).Contents (Elt F))]

/-- The operation after the second region. -/
abbrev ops2 : List (HloOp τ sig (Elt F)) :=
  [StableHlo.unary main_v18 main_v19 ((extractStridedSlice S10000x128 ![0, 0] · slices_S10240x128_S10000x128_0_0) : (⟨S10240x128, .f32⟩ : BufTy).Contents (Elt F) → (⟨S10000x128, .f32⟩ : BufTy).Contents (Elt F))]

/-- The main program is those three lines around the four calls. -/
theorem main_eq (d : Dev nD) :
    main (F := F) d
      = (StableHlo.seq ops0 >>= fun _ => (sc (F := F)).run d 0 >>= fun _ => StableHlo.seq ops1 >>= fun _ =>
          Prog.lift (.customCall (SparseCore.inner (Pipeline.entry 0)) ()) >>= fun _ => (sc (F := F)).run d 1 >>= fun _ =>
          Prog.lift (.customCall (SparseCore.inner (Pipeline.entry 1)) ()) >>= fun _ => StableHlo.seq ops2 >>= fun _ => pure ⟨⟩) := rfl

end Cert.KernelIdeal.Run

end
-- ==== Proof.KRun.lean ====
/-
  The launch: every weakly fair execution of the thirty-five threads terminates in a state the claim reads, given
  (a) each vector subcore's task in either call, proved at a symbolic worker, and (b) the TensorCore's main program.
  Dealing a core's share of a call's operands to its sixteen subcores is the identity here, a core's share being the
  product of its subcores'.
-/
import proofs.«207969_g80633716015134_cont_9to1_m_1245_11_alg».proof.Proof.KSetup

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 2) (Elt F) ℕ UU ℕ

variable (fs : (d : Dev nD) → Buf (Elt F) (srcLoc d)) (fd : (d : Dev nD) → Buf (Elt F) (dstLoc d)) (fz : (d : Dev nD) → Buf (Elt F) (zeroLoc d))

instance pay0_storable (d : Dev nD) (c : Fin 2) (i : Fin 16) : BI.Storable (upEmb : UEmb _ 𝕄) (pay0 fs fd fz d c i) := by
  unfold pay0 reads; infer_instance
instance pay1_storable (d : Dev nD) (c : Fin 2) (i : Fin 16) : BI.Storable (upEmb : UEmb _ 𝕄) (pay1 fs fd fz d c i) := by
  unfold pay1 reads; infer_instance

instance P_storable : (P (F := F) fs fd fz).IsStorable where
  st q d c := by
    match q with
    | ⟨0, _⟩ => show BI.Storable _ (bigSep Finset.univ fun i : Fin 16 => pay0 fs fd fz d c i); infer_instance
    | ⟨1, _⟩ => show BI.Storable _ (bigSep Finset.univ fun i : Fin 16 => pay1 fs fd fz d c i); infer_instance
  dn q d c := by
    match q with
    | ⟨0, _⟩ => show BI.Storable _ (bigSep Finset.univ fun i : Fin 16 => pay0 fs fd fz d c i); infer_instance
    | ⟨1, _⟩ => show BI.Storable _ (bigSep Finset.univ fun i : Fin 16 => pay1 fs fd fz d c i); infer_instance
  go q d c i := by
    match q with
    | ⟨0, _⟩ => show BI.Storable _ (pay0 fs fd fz d c i); infer_instance
    | ⟨1, _⟩ => show BI.Storable _ (pay1 fs fd fz d c i); infer_instance
  td q d c i := by
    match q with
    | ⟨0, _⟩ => show BI.Storable _ (pay0 fs fd fz d c i); infer_instance
    | ⟨1, _⟩ => show BI.Storable _ (pay1 fs fd fz d c i); infer_instance

/-- A core's share IS the product of its subcores' shares: handed out whole, taken back whole. -/
theorem vecSplit (q : Fin 2) : (K (F := F)).VecSplit' (P fs fd fz) q := by
  intro d c
  match q with
  | ⟨0, _⟩ =>
    exact Cert.Lib.ReadTokens.keep_all Set.univ (bigSep Finset.univ fun i : Fin 16 => pay0 fs fd fz d c i) (bigSep Finset.univ fun i : Fin 16 => pay0 fs fd fz d c i)
  | ⟨1, _⟩ =>
    exact Cert.Lib.ReadTokens.keep_all Set.univ (bigSep Finset.univ fun i : Fin 16 => pay1 fs fd fz d c i) (bigSep Finset.univ fun i : Fin 16 => pay1 fs fd fz d c i)

/-- The whole program's run from its two tasks and its main program. -/
theorem run_of [∀ e, Nonempty (Elt F e)] (m : (ℓ : Loc nD τ sig) → Buf (Elt F) ℓ) (ρ : Dev nD → PrngReg)
    (htile0 : (K (F := F)).TileObl (D (F := F)) 𝒱 (P fs fd fz) v₀ 0)
    (htile1 : (K (F := F)).TileObl (D (F := F)) 𝒱 (P fs fd fz) v₀ 1)
    (G FIN : Dev nD → sProp 𝕄) (u₀ : UU)
    (hu₀ : iprop(ownU u₀ ∗ (P fs fd fz).oxCred ∗ (K (F := F)).freeSems0) ⊢ |={Set.univ}=> iprop(BI.own (EH (initOf (K (F := F)).hsCells (K (F := F)).hsToks)) ∗ bigSep Finset.univ G
      ∗ bigSep Finset.univ fun thr : Thread nD τ => bigSep Finset.univ fun q : Fin 2 => (P fs fd fz).x q thr))
    (hmain : ∀ (κ : GSem nD τ sig → ℕ) (d : Dev nD),
      iprop((K (F := F)).ctx EH (P fs fd fz) κ ∗ (K (F := F)).tcSt EH d 0 ∗ (K (F := F)).tcRes m ρ d ∗ G d)
        ⊢ wp frame (wpE ((K (F := F)).defs (D (F := F))) 𝒱 (SparseCore.T d) none) Set.univ (main d) fun _ => iprop((K (F := F)).tcSt EH d 2 ∗ FIN d))
    (fq : Dev nD → Phys nD τ sig (Elt F) → Prop) (hfin : ∀ d s', iprop(FIN d ∗ SI s') ⊢ (⌜fq d s'⌝ : sProp 𝕄))
    (Q' : PUnit × MemSt nD τ sig (Elt F) → Prop) (hQ : ∀ s', (∀ d, fq d s') → Q' (⟨⟩, s'.mem)) :
    θ_run (Cert.KernelIdeal.defs (F := F)) (Cert.KernelIdeal.threads (F := F)) ⟨m, fun _ => 0, ρ⟩ Q' :=
  SparseCore.Cfg.θ_run_sc (K := K (F := F)) (D := D (F := F)) (𝒱 := 𝒱) (EH := EH) (P := P fs fd fz) facts v₀
    (fun q hq => match q with | ⟨0, _⟩ => nomatch hq | ⟨1, _⟩ => nomatch hq)
    (fun q _ => match q with | ⟨0, _⟩ => htile0 | ⟨1, _⟩ => htile1)
    (fun q _ => SparseCore.Cfg.VecSplit.of_plain (vecSplit fs fd fz q))
    m ρ main G FIN u₀ hu₀ hmain fq hfin Q' hQ

end Cert.KernelIdeal.Run

end
-- ==== Proof.KMain.lean ====
/-
  The TensorCore's main program, run: the host operations in straight lines over all of the TensorCore's unscoped arrays
  held whole; at each vector-subcore call the arrays the call exchanges are cut among the thirty-two workers (read tokens of
  the arrays every worker reads whole, rows of the arrays each worker owns a part of) and joined back after it.
-/
import proofs.«207969_g80633716015134_cont_9to1_m_1245_11_alg».proof.Proof.KSplit
import proofs.«207969_g80633716015134_cont_9to1_m_1245_11_alg».proof.Proof.KMainOps
import proofs.«207969_g80633716015134_cont_9to1_m_1245_11_alg».proof.Proof.KRun
import Idealize.ShloMosaic.Lib.Pipeline.Frame
import Idealize.ShloMosaic.Lib.Pipeline.Regions
import proofs.«207969_g80633716015134_cont_9to1_m_1245_11_alg».proof.Proof.Gen.KernelIdeal.Launch

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_sub_split held_congr wp_seq after)
open Cert.Lib.ReadTokens

variable {F : FTy → Type} [FloatOps F] [∀ e, Nonempty (Elt F e)]

local notation "𝕄" => MT nD τ sig (HIx 2) (Elt F) ℕ UU ℕ

variable (m : (ℓ : Loc nD τ sig) → Buf (Elt F) ℓ) (ρ : Dev nD → PrngReg)

/-! ## The arrays' contents along the main program -/

/-- At the launch. -/
def V0 (d : Dev nD) : Valuation τ sig (Elt F) := fun b => m (d, b)
/-- After the seventeen operations before the first call. -/
def V1 (d : Dev nD) : Valuation τ sig (Elt F) := after ops0 (V0 m d)

abbrev src' : DevRef τ sig := Proc.devRef .tc (main_v5 : Ref sig .tc)
abbrev dst' : DevRef τ sig := Proc.devRef .tc (main_v7 : Ref sig .tc)
abbrev zero' : DevRef τ sig := Proc.devRef .tc (main_v10 : Ref sig .tc)
abbrev cnt' : DevRef τ sig := Proc.devRef .tc (main_v13 : Ref sig .tc)
abbrev ht' : DevRef τ sig := Proc.devRef .tc (main_v16_1 : Ref sig .tc)
abbrev agg' : DevRef τ sig := Proc.devRef .tc (main_v17 : Ref sig .tc)

/-- The padded source indices, the padded destination indices and the zero vector, as the first line leaves them. -/
def fs (d : Dev nD) : Buf (Elt F) (srcLoc d) := V1 m d src'
def fd (d : Dev nD) : Buf (Elt F) (dstLoc d) := V1 m d dst'
def fz (d : Dev nD) : Buf (Elt F) (zeroLoc d) := V1 m d zero'

/-! ## The lines' side conditions -/

theorem ops0_sub : (ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.reshape_bufs_sub ..⟩
theorem ops1_sub : (ops1 : List (HloOp τ sig (Elt F))).Forall fun op => op.bufs ⊆ StableHlo.tcRefs τ sig :=
  ⟨StableHlo.unary_bufs_sub .., StableHlo.unary_bufs_sub ..⟩
theorem ops2_sub : (ops2 : List (HloOp τ sig (Elt F))).Forall fun op => op.bufs ⊆ StableHlo.tcRefs τ sig :=
  StableHlo.unary_bufs_sub ..
theorem ops0_fresh : (ops0 : List (HloOp τ sig (Elt F))).Forall fun op => op.fresh = ∅ := ⟨rfl, rfl, rfl, rfl, rfl, rfl, rfl, rfl, rfl, rfl, rfl, rfl, rfl, rfl, rfl, rfl, rfl⟩
theorem ops1_fresh : (ops1 : List (HloOp τ sig (Elt F))).Forall fun op => op.fresh = ∅ := ⟨rfl, rfl⟩
theorem ops2_fresh : (ops2 : List (HloOp τ sig (Elt F))).Forall fun op => op.fresh = ∅ := rfl

theorem uc_of_sub {ops : List (HloOp τ sig (Elt F))} (h : ops.Forall fun op => op.bufs ⊆ StableHlo.tcRefs τ sig) :
    ∀ op ∈ ops, op.bufs ⊆ Pipeline.ucRefs τ sig :=
  fun op hop => Pipeline.sub_ucRefs op ((List.forall_iff_forall_mem.mp h) op hop)

/-! ## The first call's operands, out of the held arrays and back -/

/-- The four arrays the first call exchanges. -/
abbrev T0 : Finset (DevRef τ sig) := {src', dst', zero', cnt'}

theorem T0_sub : T0 ⊆ Pipeline.ucRefs τ sig := by decide

omit [∀ e, Nonempty (Elt F e)] in
theorem held_T0 (d : Dev nD) (W : Valuation τ sig (Elt F)) :
    (held (SparseCore.T d) T0 W : sProp 𝕄)
      = iprop((srcLoc d ↦{fullShare} W src') ∗ (dstLoc d ↦{fullShare} W dst') ∗ (zeroLoc d ↦{fullShare} W zero') ∗ cntLoc d ↦{fullShare} W cnt') := by
  unfold held T0
  rw [SparseCore.bigSep_insert' (by decide), SparseCore.bigSep_insert' (by decide), SparseCore.bigSep_insert' (by decide), bigSep_singleton]

/-- What stays behind while the workers hold their read tokens of the three arrays every worker reads. -/
def rems (d : Dev nD) : sProp 𝕄 :=
  iprop(rem2 (srcLoc d) Finset.univ (fs m d) fullShare 2 16 ∗ rem2 (dstLoc d) Finset.univ (fd m d) fullShare 2 16 ∗ rem2 (zeroLoc d) Finset.univ (fz m d) fullShare 2 16)

omit [∀ e, Nonempty (Elt F e)] in
/-- The three read arrays, whole, are what stays behind and every worker's reads. -/
theorem reads_split (d : Dev nD) :
    (iprop((srcLoc d ↦{fullShare} fs m d) ∗ (dstLoc d ↦{fullShare} fd m d) ∗ (zeroLoc d ↦{fullShare} fz m d)) : sProp 𝕄)
      ⊣⊢ iprop(rems m d ∗ bigSep Finset.univ fun c : Fin 2 => bigSep Finset.univ fun i : Fin 16 => reads (fs m) (fd m) (fz m) d c i) :=
  ((Toks2.of_pointsTo (ℓ := srcLoc d) (S := Finset.univ) (f := fs m d) fullShare 2 16).sep
    ((Toks2.of_pointsTo (ℓ := dstLoc d) (S := Finset.univ) (f := fd m d) fullShare 2 16).sep
      (Toks2.of_pointsTo (ℓ := zeroLoc d) (S := Finset.univ) (f := fz m d) fullShare 2 16)))

/-- Every worker's first-call share at once: its reads, and its row of the count array at whatever it holds. -/
theorem pay0_all (d : Dev nD) :
    (bigSep Finset.univ fun c : Fin 2 => bigSep Finset.univ fun i : Fin 16 => pay0 (fs m) (fd m) (fz m) d c i : sProp 𝕄)
      = iprop((bigSep Finset.univ fun c : Fin 2 => bigSep Finset.univ fun i : Fin 16 => reads (fs m) (fd m) (fz m) d c i)
          ∗ bigSep Finset.univ fun c : Fin 2 => bigSep Finset.univ fun i : Fin 16 =>
              iprop(∃ g : Buf (Elt F) (cntLoc d), cntLoc d ↦[(cntRow (e32 (c, i))).set]{fullShare} g)) := by
  unfold pay0; exact bigSep2_sep _ _

/-- The count array whole at some contents is every worker's row at some contents. -/
theorem cnt_rows_some (d : Dev nD) (g : Buf (Elt F) (cntLoc d)) :
    (cntLoc d ↦{fullShare} g : sProp 𝕄)
      ⊢ bigSep Finset.univ fun c : Fin 2 => bigSep Finset.univ fun i : Fin 16 =>
          iprop(∃ g : Buf (Elt F) (cntLoc d), cntLoc d ↦[(cntRow (e32 (c, i))).set]{fullShare} g) := by
  rw [cnt_rows d g]
  refine bigSep_mono fun c _ => bigSep_mono fun i _ => ?_
  show (cntLoc d ↦[(cntRow (e32 (c, i))).set]{fullShare} g : sProp 𝕄) ⊢ iprop(∃ g : Buf (Elt F) (cntLoc d), cntLoc d ↦[(cntRow (e32 (c, i))).set]{fullShare} g)
  iintro H; iexists g; iexact H

/-- The held arrays after the first call: the count array at what the workers left, everything else as it was. -/
theorem held_update_cnt (d : Dev nD) (g : Buf (Elt F) (cntLoc d)) :
    (iprop((srcLoc d ↦{fullShare} fs m d) ∗ (dstLoc d ↦{fullShare} fd m d) ∗ (zeroLoc d ↦{fullShare} fz m d) ∗ (cntLoc d ↦{fullShare} g)
        ∗ held (SparseCore.T d) (Pipeline.ucRefs τ sig \ T0) (V1 m d)) : sProp 𝕄)
      ⊢ held (SparseCore.T d) (Pipeline.ucRefs τ sig) (Function.update (V1 m d) cnt' g) := by
  rw [held_sub_split _ T0_sub (Function.update (V1 m d) cnt' g), held_T0,
    Function.update_of_ne (show src' ≠ cnt' by decide), Function.update_of_ne (show dst' ≠ cnt' by decide),
    Function.update_of_ne (show zero' ≠ cnt' by decide), Function.update_self,
    held_congr (SparseCore.T d) (S := Pipeline.ucRefs τ sig \ T0) (V := Function.update (V1 m d) cnt' g) (V' := V1 m d)
      (fun b hb => Function.update_of_ne (fun e => (Finset.mem_sdiff.mp hb).2 (by subst e; decide)) _ _)]
  iintro ⟨Hs, Hd, Hz, Hc, Hr⟩
  isplitl [Hs Hd Hz Hc]
  · isplitl [Hs]; · iexact Hs
    isplitl [Hd]; · iexact Hd
    isplitl [Hz]; · iexact Hz
    iexact Hc
  · iexact Hr

/-- The first line and the first call: from all arrays at the launch contents to all arrays at the first line's
    results, but the count array, which is at whatever the workers left. -/
theorem stageA (κ : GSem nD τ sig → ℕ) (d : Dev nD) {β : Type}
    (k : PUnit → Prog (TpuEff nD τ sig (Elt F) (SparseCore.Sig (ΛP (F := F)) 2) .tc) β) (Φ : β → sProp 𝕄) :
    iprop((K (F := F)).ctx EH (P (fs m) (fd m) (fz m)) κ ∗ (K (F := F)).tcSt EH d 0
        ∗ boundary (SparseCore.T d) ∗ held (SparseCore.T d) (Pipeline.ucRefs τ sig) (V0 m d)
        ∗ (∀ g : Buf (Elt F) (cntLoc d), iprop((K (F := F)).tcSt EH d 1 ∗ boundary (SparseCore.T d)
              ∗ held (SparseCore.T d) (Pipeline.ucRefs τ sig) (Function.update (V1 m d) cnt' g))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ
          (StableHlo.seq ops0 >>= fun _ => (sc (F := F)).run d 0 >>= k) Φ := by
  iintro ⟨#Hctx, Hst, Hb, Hheld, Hk⟩
  iapply (wp_seq 𝒱 none Set.univ d (Pipeline.ucRefs τ sig) _ ops0 (uc_of_sub ops0_sub) (List.forall_iff_forall_mem.mp ops0_fresh) (V0 m d)) $$ [Hb Hheld]
  · isplitl [Hb]; · iexact Hb
    iexact Hheld
  iintro ⟨Hb, Hheld⟩
  ihave Hh := (Entails.of_eq (show (held (d.tc : Thread nD τ) (Pipeline.ucRefs τ sig) (after ops0 (V0 m d)) : sProp 𝕄)
      = iprop(((srcLoc d ↦{fullShare} fs m d) ∗ (dstLoc d ↦{fullShare} fd m d) ∗ (zeroLoc d ↦{fullShare} fz m d) ∗ cntLoc d ↦{fullShare} V1 m d cnt')
          ∗ held (SparseCore.T d) (Pipeline.ucRefs τ sig \ T0) (V1 m d))
      from (held_sub_split (SparseCore.T d) T0_sub (V1 m d)).trans (congrArg (fun X => iprop(X ∗ held (SparseCore.T d) (Pipeline.ucRefs τ sig \ T0) (V1 m d))) (held_T0 d (V1 m d))))) $$ Hheld
  icases Hh with ⟨⟨Hs, Hd, Hz, Hc⟩, Hrest⟩
  ihave Hr := (reads_split m d).1 $$ [Hs Hd Hz]
  · isplitl [Hs]; · iexact Hs
    isplitl [Hd]; · iexact Hd
    iexact Hz
  icases Hr with ⟨Hrem, Hreads⟩
  ihave Hrows := (cnt_rows_some d (V1 m d cnt')) $$ Hc
  rw [wp_bind]
  iapply ((K (F := F)).wp_run (D (F := F)) 𝒱 (EH := EH) (P := P (fs m) (fd m) (fz m)) κ d 0) $$ [Hst Hb Hrest Hrem Hreads Hrows Hk]
  isplitr; · iexact Hctx
  isplitl [Hst]; · iexact Hst
  isplitl [Hreads Hrows]
  · iapply (Entails.of_eq (pay0_all m d).symm)
    isplitl [Hreads]; · iexact Hreads
    iexact Hrows
  iintro ⟨Hst, Hdn⟩
  ihave Hdn' := (Entails.of_eq (show (bigSep Finset.univ fun c : Fin ((K (F := F)).nCore 0) => (P (fs m) (fd m) (fz m)).dn 0 d c : sProp 𝕄)
      = iprop((bigSep Finset.univ fun c : Fin 2 => bigSep Finset.univ fun i : Fin 16 => reads (fs m) (fd m) (fz m) d c i)
          ∗ bigSep Finset.univ fun c : Fin 2 => bigSep Finset.univ fun i : Fin 16 =>
              iprop(∃ g : Buf (Elt F) (cntLoc d), cntLoc d ↦[(cntRow (e32 (c, i))).set]{fullShare} g)) from pay0_all m d)) $$ Hdn
  icases Hdn' with ⟨Hreads, Hrows⟩
  ihave Hw := (reads_split m d).2 $$ [Hrem Hreads]
  · isplitl [Hrem]; · iexact Hrem
    iexact Hreads
  icases Hw with ⟨Hs, Hd, Hz⟩
  ihave Hc := (cnt_rows_join d) $$ Hrows
  icases Hc with ⟨%g, Hc⟩
  iapply Hk $$ %g
  isplitl [Hst]; · iexact Hst
  isplitl [Hb]; · iexact Hb
  iapply (held_update_cnt m d g)
  isplitl [Hs]; · iexact Hs
  isplitl [Hd]; · iexact Hd
  isplitl [Hz]; · iexact Hz
  isplitl [Hc]; · iexact Hc
  iexact Hrest

/-! ## What every step keeps: the three arrays the calls read, and the program's arguments -/

abbrev arg0' : DevRef τ sig := Proc.devRef .tc (main_arg0 : Ref sig .tc)
abbrev arg1' : DevRef τ sig := Proc.devRef .tc (main_arg1 : Ref sig .tc)
abbrev arg2' : DevRef τ sig := Proc.devRef .tc (main_arg2 : Ref sig .tc)
abbrev arg3' : DevRef τ sig := Proc.devRef .tc (main_arg3 : Ref sig .tc)

/-- A valuation of the arrays that still has the read arrays as the first line left them and the arguments as launched. -/
def Keeps (d : Dev nD) (W : Valuation τ sig (Elt F)) : Prop :=
  W src' = fs m d ∧ W dst' = fd m d ∧ W zero' = fz m d
    ∧ W arg0' = V0 m d arg0' ∧ W arg1' = V0 m d arg1' ∧ W arg2' = V0 m d arg2' ∧ W arg3' = V0 m d arg3'

omit [∀ e, Nonempty (Elt F e)] in
theorem keeps_V1 (d : Dev nD) : Keeps m d (V1 m d) :=
  ⟨rfl, rfl, rfl, by unfold V1; after_results, by unfold V1; after_results, by unfold V1; after_results, by unfold V1; after_results⟩

omit [∀ e, Nonempty (Elt F e)] in
theorem keeps_update {d : Dev nD} {W : Valuation τ sig (Elt F)} (h : Keeps m d W) (b : DevRef τ sig) (x : b.ty.Contents (Elt F))
    (hb : b ≠ src' ∧ b ≠ dst' ∧ b ≠ zero' ∧ b ≠ arg0' ∧ b ≠ arg1' ∧ b ≠ arg2' ∧ b ≠ arg3') : Keeps m d (Function.update W b x) := by
  obtain ⟨h1, h2, h3, h4, h5, h6, h7⟩ := h
  obtain ⟨b1, b2, b3, b4, b5, b6, b7⟩ := hb
  exact ⟨by rw [Function.update_of_ne b1.symm]; exact h1, by rw [Function.update_of_ne b2.symm]; exact h2, by rw [Function.update_of_ne b3.symm]; exact h3,
    by rw [Function.update_of_ne b4.symm]; exact h4, by rw [Function.update_of_ne b5.symm]; exact h5, by rw [Function.update_of_ne b6.symm]; exact h6,
    by rw [Function.update_of_ne b7.symm]; exact h7⟩

omit [∀ e, Nonempty (Elt F e)] in
theorem keeps_ops1 {d : Dev nD} {W : Valuation τ sig (Elt F)} (h : Keeps m d W) : Keeps m d (after ops1 W) := by
  obtain ⟨h1, h2, h3, h4, h5, h6, h7⟩ := h
  exact ⟨(by after_results : after ops1 W src' = W src').trans h1, (by after_results : after ops1 W dst' = W dst').trans h2,
    (by after_results : after ops1 W zero' = W zero').trans h3, (by after_results : after ops1 W arg0' = W arg0').trans h4,
    (by after_results : after ops1 W arg1' = W arg1').trans h5, (by after_results : after ops1 W arg2' = W arg2').trans h6,
    (by after_results : after ops1 W arg3' = W arg3').trans h7⟩

omit [∀ e, Nonempty (Elt F e)] in
theorem keeps_ops2 {d : Dev nD} {W : Valuation τ sig (Elt F)} (h : Keeps m d W) : Keeps m d (after ops2 W) := by
  obtain ⟨h1, h2, h3, h4, h5, h6, h7⟩ := h
  exact ⟨(by after_results : after ops2 W src' = W src').trans h1, (by after_results : after ops2 W dst' = W dst').trans h2,
    (by after_results : after ops2 W zero' = W zero').trans h3, (by after_results : after ops2 W arg0' = W arg0').trans h4,
    (by after_results : after ops2 W arg1' = W arg1').trans h5, (by after_results : after ops2 W arg2' = W arg2').trans h6,
    (by after_results : after ops2 W arg3' = W arg3').trans h7⟩

/-! ## A gridded region entered from inside the launch -/

/-- Neither region reads a prefetched table. -/
abbrev adm : (p : Fin 2) → (pcfgs (F := F) p).Adm := fun p => (cfgs p).toPCfg_adm

section Region

variable (rdats : (p : Fin 2) → (c : Dev nD) → Pipeline.RDat τ (Elt F) (HIx 2) ℕ UU ℕ (Pipeline.pin (pcfgs (F := F)) adm p) c)

-- the region rule is stated for any core's TensorCore thread; at this device's it unifies only when unification may unfold
-- plain definitions in a metavariable's type
set_option backward.isDefEq.respectTransparency.types false in
/-- A gridded region of the main program, entered while the launch's handshakes are in progress: from the region's entry
    state, the level facts and the region's staging ghost state, to its exit state. The call is the lifted form of the
    pipeline program's own region call, so the pipeline library's region rule applies under the launch's body table. -/
theorem region_step {p : Fin 2}
    (R : Pipeline.RDat.RegionSeg (pcfgs (F := F)) adm rdats (none : HIx 2) (defs₀ (F := F)) 𝒱₀ (K (F := F)).L (K (F := F)).lev p)
    (d : Dev nD) {β : Type} (k : PUnit → Prog (TpuEff nD τ sig (Elt F) (SparseCore.Sig (ΛP (F := F)) 2) .tc) β) (Φ : β → sProp 𝕄) :
    iprop((iprop(boundary (SparseCore.T d) ∗ R.post d) -∗ wp frame (wpE ((K (F := F)).defs (D (F := F))) 𝒱 (SparseCore.T d) none) Set.univ (k ⟨⟩) Φ)
        ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ()) >>= k) Φ := by
  rw [wp_bind]
  refine BIBase.Entails.trans ?_ ((K (F := F)).wp_liftProg (D (F := F)) 𝒱 (SparseCore.T d) Set.univ none
    (Prog.lift (.customCall (Pipeline.entry p) ())) (fun _ => wp frame (wpE ((K (F := F)).defs (D (F := F))) 𝒱 (SparseCore.T d) none) Set.univ (k ⟨⟩) Φ))
  have hreg := Pipeline.RDat.RegionSeg.wp (pcfgs (F := F)) adm rdats (none : HIx 2) cellOf_inj EP (defs₀ (F := F)) 𝒱₀ (K (F := F)).L (K (F := F)).lev R d none
      (fun _ h => nomatch h) (α := PUnit) (fun _ => (Prog.ret PUnit.unit : Prog (TpuEff nD τ sig (Elt F) (ΛP (F := F)) .tc) PUnit)) (fun _ => wp frame (wpE ((K (F := F)).defs (D (F := F))) 𝒱 (SparseCore.T d) none) Set.univ (k ⟨⟩) Φ)
  refine BIBase.Entails.trans (sep_mono_left ?_) hreg
  iintro Hk H
  rw [wp_ret]; imodintro
  iapply Hk; iexact H

end Region

/-! ## The second call's operands, out of the held arrays and back -/

/-- The five arrays the second call exchanges. -/
abbrev T1 : Finset (DevRef τ sig) := {src', dst', zero', ht', agg'}

theorem T1_sub : T1 ⊆ Pipeline.ucRefs τ sig := by decide

omit [∀ e, Nonempty (Elt F e)] in
theorem held_T1 (d : Dev nD) (W : Valuation τ sig (Elt F)) :
    (held (SparseCore.T d) T1 W : sProp 𝕄)
      = iprop((srcLoc d ↦{fullShare} W src') ∗ (dstLoc d ↦{fullShare} W dst') ∗ (zeroLoc d ↦{fullShare} W zero')
          ∗ (htLoc d ↦{fullShare} W ht') ∗ aggLoc d ↦{fullShare} W agg') := by
  unfold held T1
  rw [SparseCore.bigSep_insert' (by decide), SparseCore.bigSep_insert' (by decide), SparseCore.bigSep_insert' (by decide),
    SparseCore.bigSep_insert' (by decide), bigSep_singleton]

/-- Every worker's second-call share at once: its reads, its four rows of the transposed features and of the
    transposed aggregate at whatever they hold. -/
theorem pay1_all (d : Dev nD) :
    (bigSep Finset.univ fun c : Fin 2 => bigSep Finset.univ fun i : Fin 16 => pay1 (fs m) (fd m) (fz m) d c i : sProp 𝕄)
      = iprop((bigSep Finset.univ fun c : Fin 2 => bigSep Finset.univ fun i : Fin 16 => reads (fs m) (fd m) (fz m) d c i)
          ∗ (bigSep Finset.univ fun c : Fin 2 => bigSep Finset.univ fun i : Fin 16 => bigSep Finset.univ fun k : Fin 4 =>
              iprop(∃ h : Buf (Elt F) (htLoc d), htLoc d ↦[(colRow (e128 ((c, i), k))).set]{fullShare} h))
          ∗ bigSep Finset.univ fun c : Fin 2 => bigSep Finset.univ fun i : Fin 16 => bigSep Finset.univ fun k : Fin 4 =>
              iprop(∃ g : Buf (Elt F) (aggLoc d), aggLoc d ↦[(colRow (e128 ((c, i), k))).set]{fullShare} g)) := by
  unfold pay1
  rw [bigSep2_sep, bigSep2_sep]
  rfl

theorem ht_rows_some (d : Dev nD) (h : Buf (Elt F) (htLoc d)) :
    (htLoc d ↦{fullShare} h : sProp 𝕄)
      ⊢ bigSep Finset.univ fun c : Fin 2 => bigSep Finset.univ fun i : Fin 16 => bigSep Finset.univ fun k : Fin 4 =>
          iprop(∃ h : Buf (Elt F) (htLoc d), htLoc d ↦[(colRow (e128 ((c, i), k))).set]{fullShare} h) := by
  rw [ht_rows d h]
  refine bigSep_mono fun c _ => bigSep_mono fun i _ => bigSep_mono fun k _ => ?_
  show (htLoc d ↦[(colRow (e128 ((c, i), k))).set]{fullShare} h : sProp 𝕄) ⊢ iprop(∃ h : Buf (Elt F) (htLoc d), htLoc d ↦[(colRow (e128 ((c, i), k))).set]{fullShare} h)
  iintro H; iexists h; iexact H

theorem agg_rows_some (d : Dev nD) (g : Buf (Elt F) (aggLoc d)) :
    (aggLoc d ↦{fullShare} g : sProp 𝕄)
      ⊢ bigSep Finset.univ fun c : Fin 2 => bigSep Finset.univ fun i : Fin 16 => bigSep Finset.univ fun k : Fin 4 =>
          iprop(∃ g : Buf (Elt F) (aggLoc d), aggLoc d ↦[(colRow (e128 ((c, i), k))).set]{fullShare} g) := by
  rw [agg_rows d g]
  refine bigSep_mono fun c _ => bigSep_mono fun i _ => bigSep_mono fun k _ => ?_
  show (aggLoc d ↦[(colRow (e128 ((c, i), k))).set]{fullShare} g : sProp 𝕄) ⊢ iprop(∃ g : Buf (Elt F) (aggLoc d), aggLoc d ↦[(colRow (e128 ((c, i), k))).set]{fullShare} g)
  iintro H; iexists g; iexact H

/-- The held arrays after the second call: the two 128-row arrays at what the workers left, everything else as it was. -/
theorem held_update_ht_agg (d : Dev nD) (W : Valuation τ sig (Elt F)) (hK : Keeps m d W) (h : Buf (Elt F) (htLoc d)) (g : Buf (Elt F) (aggLoc d)) :
    (iprop((srcLoc d ↦{fullShare} fs m d) ∗ (dstLoc d ↦{fullShare} fd m d) ∗ (zeroLoc d ↦{fullShare} fz m d) ∗ (htLoc d ↦{fullShare} h)
        ∗ (aggLoc d ↦{fullShare} g) ∗ held (SparseCore.T d) (Pipeline.ucRefs τ sig \ T1) W) : sProp 𝕄)
      ⊢ held (SparseCore.T d) (Pipeline.ucRefs τ sig) (Function.update (Function.update W ht' h) agg' g) := by
  rw [held_sub_split _ T1_sub (Function.update (Function.update W ht' h) agg' g), held_T1,
    Function.update_of_ne (show src' ≠ agg' by decide), Function.update_of_ne (show src' ≠ ht' by decide), hK.1,
    Function.update_of_ne (show dst' ≠ agg' by decide), Function.update_of_ne (show dst' ≠ ht' by decide), hK.2.1,
    Function.update_of_ne (show zero' ≠ agg' by decide), Function.update_of_ne (show zero' ≠ ht' by decide), hK.2.2.1,
    Function.update_of_ne (show ht' ≠ agg' by decide), Function.update_self, Function.update_self,
    held_congr (SparseCore.T d) (S := Pipeline.ucRefs τ sig \ T1) (V := Function.update (Function.update W ht' h) agg' g) (V' := W)
      (fun b hb => (Function.update_of_ne (fun e => (Finset.mem_sdiff.mp hb).2 (by subst e; decide)) _ _).trans
        (Function.update_of_ne (fun e => (Finset.mem_sdiff.mp hb).2 (by subst e; decide)) _ _))]
  iintro ⟨Hs, Hd, Hz, Hh, Hg, Hr⟩
  isplitl [Hs Hd Hz Hh Hg]
  · isplitl [Hs]; · iexact Hs
    isplitl [Hd]; · iexact Hd
    isplitl [Hz]; · iexact Hz
    isplitl [Hh]; · iexact Hh
    iexact Hg
  · iexact Hr

/-- The second call, from all arrays held at a valuation that keeps the read arrays: afterwards the two 128-row arrays are
    at whatever the workers left, everything else as it was. -/
theorem stageC (κ : GSem nD τ sig → ℕ) (d : Dev nD) (W : Valuation τ sig (Elt F)) (hK : Keeps m d W) {β : Type}
    (k : PUnit → Prog (TpuEff nD τ sig (Elt F) (SparseCore.Sig (ΛP (F := F)) 2) .tc) β) (Φ : β → sProp 𝕄) :
    iprop((K (F := F)).ctx EH (P (fs m) (fd m) (fz m)) κ ∗ (K (F := F)).tcSt EH d 1
        ∗ boundary (SparseCore.T d) ∗ held (SparseCore.T d) (Pipeline.ucRefs τ sig) W
        ∗ (∀ (h : Buf (Elt F) (htLoc d)) (g : Buf (Elt F) (aggLoc d)), iprop((K (F := F)).tcSt EH d 2 ∗ boundary (SparseCore.T d)
              ∗ held (SparseCore.T d) (Pipeline.ucRefs τ sig) (Function.update (Function.update W ht' h) agg' g))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((sc (F := F)).run d 1 >>= k) Φ := by
  iintro ⟨#Hctx, Hst, Hb, Hheld, Hk⟩
  ihave Hh := (Entails.of_eq (show (held (SparseCore.T d) (Pipeline.ucRefs τ sig) W : sProp 𝕄)
      = iprop(((srcLoc d ↦{fullShare} fs m d) ∗ (dstLoc d ↦{fullShare} fd m d) ∗ (zeroLoc d ↦{fullShare} fz m d)
            ∗ (htLoc d ↦{fullShare} W ht') ∗ aggLoc d ↦{fullShare} W agg')
          ∗ held (SparseCore.T d) (Pipeline.ucRefs τ sig \ T1) W)
      from by rw [held_sub_split _ T1_sub W, held_T1, hK.1, hK.2.1, hK.2.2.1])) $$ Hheld
  icases Hh with ⟨⟨Hs, Hd, Hz, Hh, Hg⟩, Hrest⟩
  ihave Hr := (reads_split m d).1 $$ [Hs Hd Hz]
  · isplitl [Hs]; · iexact Hs
    isplitl [Hd]; · iexact Hd
    iexact Hz
  icases Hr with ⟨Hrem, Hreads⟩
  ihave Hhr := (ht_rows_some d (W ht')) $$ Hh
  ihave Hgr := (agg_rows_some d (W agg')) $$ Hg
  rw [wp_bind]
  iapply ((K (F := F)).wp_run (D (F := F)) 𝒱 (EH := EH) (P := P (fs m) (fd m) (fz m)) κ d 1) $$ [Hst Hb Hrest Hrem Hreads Hhr Hgr Hk]
  isplitr; · iexact Hctx
  isplitl [Hst]; · iexact Hst
  isplitl [Hreads Hhr Hgr]
  · iapply (Entails.of_eq (pay1_all m d).symm)
    isplitl [Hreads]; · iexact Hreads
    isplitl [Hhr]; · iexact Hhr
    iexact Hgr
  iintro ⟨Hst, Hdn⟩
  ihave Hdn' := (Entails.of_eq (show (bigSep Finset.univ fun c : Fin ((K (F := F)).nCore 1) => (P (fs m) (fd m) (fz m)).dn 1 d c : sProp 𝕄)
      = iprop((bigSep Finset.univ fun c : Fin 2 => bigSep Finset.univ fun i : Fin 16 => reads (fs m) (fd m) (fz m) d c i)
          ∗ (bigSep Finset.univ fun c : Fin 2 => bigSep Finset.univ fun i : Fin 16 => bigSep Finset.univ fun k : Fin 4 =>
              iprop(∃ h : Buf (Elt F) (htLoc d), htLoc d ↦[(colRow (e128 ((c, i), k))).set]{fullShare} h))
          ∗ bigSep Finset.univ fun c : Fin 2 => bigSep Finset.univ fun i : Fin 16 => bigSep Finset.univ fun k : Fin 4 =>
              iprop(∃ g : Buf (Elt F) (aggLoc d), aggLoc d ↦[(colRow (e128 ((c, i), k))).set]{fullShare} g)) from pay1_all m d)) $$ Hdn
  icases Hdn' with ⟨Hreads, Hhr, Hgr⟩
  ihave Hw := (reads_split m d).2 $$ [Hrem Hreads]
  · isplitl [Hrem]; · iexact Hrem
    iexact Hreads
  icases Hw with ⟨Hs, Hd, Hz⟩
  ihave Hh := (col_rows_join (htLoc d) (fun r => (colRow r).set) col_rows_disjoint col_rows_cover) $$ Hhr
  icases Hh with ⟨%h, Hh⟩
  ihave Hg := (col_rows_join (aggLoc d) (fun r => (colRow r).set) col_rows_disjoint col_rows_cover) $$ Hgr
  icases Hg with ⟨%g, Hg⟩
  iapply Hk $$ %h %g
  isplitl [Hst]; · iexact Hst
  isplitl [Hb]; · iexact Hb
  iapply (held_update_ht_agg m d W hK h g)
  isplitl [Hs]; · iexact Hs
  isplitl [Hd]; · iexact Hd
  isplitl [Hz]; · iexact Hz
  isplitl [Hh]; · iexact Hh
  isplitl [Hg]; · iexact Hg
  iexact Hrest

/-! ## The main program, assembled -/

/-- What rides beside the arrays through the main program for the regions' use: the generator register at some state and
    the TensorCore's own handshake-free semaphores at zero. -/
def Aux (d : Dev nD) : sProp 𝕄 := iprop((∃ r, prngReg d r) ∗ (K (F := F)).tcSems0 d)

/-- What the main program starts from beyond the launch's deal: the two gridded regions' staging ghost state. -/
def G (d : Dev nD) : sProp 𝕄 :=
  iprop((Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d))

/-- The program's four arguments. -/
abbrev Targs : Finset (DevRef τ sig) := {arg0', arg1', arg2', arg3'}
theorem Targs_sub : Targs ⊆ Pipeline.ucRefs τ sig := by decide

/-- What the main program leaves the claim: the arguments at their launch contents. -/
def FIN (d : Dev nD) : sProp 𝕄 := held (SparseCore.T d) Targs (V0 m d)

omit [∀ e, Nonempty (Elt F e)] in
theorem fin_of_keeps (d : Dev nD) (W : Valuation τ sig (Elt F)) (hK : Keeps m d W) :
    (held (SparseCore.T d) (Pipeline.ucRefs τ sig) W : sProp 𝕄) ⊢ FIN m d := by
  unfold FIN
  rw [held_sub_split _ Targs_sub W,
    held_congr (SparseCore.T d) (S := Targs) (V := W) (V' := V0 m d) (fun b hb => by
      simp only [Targs, Finset.mem_insert, Finset.mem_singleton] at hb
      rcases hb with rfl | rfl | rfl | rfl
      · exact hK.2.2.2.1
      · exact hK.2.2.2.2.1
      · exact hK.2.2.2.2.2.1
      · exact hK.2.2.2.2.2.2)]
  exact sep_elim_left

section Main

-- the two regions' proof data and records, as families over the arrays' contents when the region is entered (which depend
-- on what the call before it left)
variable (rd0 rd1 : Valuation τ sig (Elt F) → (p : Fin 2) → (c : Dev nD) → Pipeline.RDat τ (Elt F) (HIx 2) ℕ UU ℕ (Pipeline.pin (pcfgs (F := F)) adm p) c)
  (R0 : ∀ W, Pipeline.RDat.RegionSeg (pcfgs (F := F)) adm (rd0 W) (none : HIx 2) (defs₀ (F := F)) 𝒱₀ (K (F := F)).L (K (F := F)).lev 0)
  (R1 : ∀ W, Pipeline.RDat.RegionSeg (pcfgs (F := F)) adm (rd1 W) (none : HIx 2) (defs₀ (F := F)) 𝒱₀ (K (F := F)).L (K (F := F)).lev 1)

/-- The main program on a device's TensorCore, from the two gridded regions as records whose entry state is reached from
    "all arrays held at a valuation that keeps the read arrays and the arguments, the handshake state between the calls"
    and whose exit state gives that back. -/
theorem hmain
    (h0pre : ∀ d W, Keeps m d W → iprop((K (F := F)).tcSt EH d 1 ∗ held (SparseCore.T d) (Pipeline.ucRefs τ sig) W ∗ Aux d) ⊢ (R0 W).pre d)
    (h0post : ∀ d W, (R0 W).post d ⊢ iprop(∃ W', ⌜Keeps m d W'⌝ ∗ (K (F := F)).tcSt EH d 1 ∗ held (SparseCore.T d) (Pipeline.ucRefs τ sig) W' ∗ Aux d))
    (h1pre : ∀ d W, Keeps m d W → iprop((K (F := F)).tcSt EH d 2 ∗ held (SparseCore.T d) (Pipeline.ucRefs τ sig) W ∗ Aux d) ⊢ (R1 W).pre d)
    (h1post : ∀ d W, (R1 W).post d ⊢ iprop(∃ W', ⌜Keeps m d W'⌝ ∗ (K (F := F)).tcSt EH d 2 ∗ held (SparseCore.T d) (Pipeline.ucRefs τ sig) W' ∗ Aux d))
    (κ : GSem nD τ sig → ℕ) (d : Dev nD) :
    iprop((K (F := F)).ctx EH (P (fs m) (fd m) (fz m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d) := by
  rw [main_eq]
  unfold SparseCore.Cfg.tcRes G
  iintro ⟨#Hctx, Hst, ⟨Hb, Hheld, Hsm, Hpr⟩, ⟨Hg0, Hg1⟩⟩
  ihave Haux : (Aux (F := F) d) $$ [Hsm Hpr]
  · unfold Aux
    isplitl [Hpr]; · iexists _; iexact Hpr
    iexact Hsm
  ihave Hheld' := (Entails.of_eq (show (unscopedBufs d (fun b => m ((SparseCore.T d).loc b)) : sProp 𝕄)
      = held (SparseCore.T d) (Pipeline.ucRefs τ sig) (V0 m d) from Pipeline.unscopedBufs_held d (V0 m d))) $$ Hheld
  -- the first line and the first call
  iapply (stageA m κ d _ _) $$ [Hst Hb Hheld' Hg0 Hg1 Haux]
  isplitr; · iexact Hctx
  isplitl [Hst]; · iexact Hst
  isplitl [Hb]; · iexact Hb
  isplitl [Hheld']; · iexact Hheld'
  iintro %g ⟨Hst, Hb, Hheld⟩
  -- the two operations between the first call and the first region
  iapply (wp_seq 𝒱 none Set.univ d (Pipeline.ucRefs τ sig) _ ops1 (uc_of_sub ops1_sub) (List.forall_iff_forall_mem.mp ops1_fresh)
      (Function.update (V1 m d) cnt' g)) $$ [Hb Hheld]
  · isplitl [Hb]; · iexact Hb
    iexact Hheld
  iintro ⟨Hb, Hheld⟩
  have hK2 : Keeps m d (after ops1 (Function.update (V1 m d) cnt' g)) :=
    keeps_ops1 m (keeps_update m (keeps_V1 m d) cnt' g (by decide))
  -- the first region
  ihave Hlv := (SparseCore.Cfg.ctx_levAts κ) $$ Hctx
  iapply (region_step (rd0 _) (R0 (after ops1 (Function.update (V1 m d) cnt' g))) d _ _) $$ [Hst Hb Hheld Hg0 Hg1 Hlv Haux]
  isplitl [Hg1]
  · iintro ⟨Hb, Hpost⟩
    ihave Hp := (h0post d _) $$ Hpost
    icases Hp with ⟨%W, %hKW, Hst, Hheld, Haux⟩
    -- the second call
    iapply (stageC m κ d W hKW _ _) $$ [Hst Hb Hheld Hg1 Haux]
    isplitr; · iexact Hctx
    isplitl [Hst]; · iexact Hst
    isplitl [Hb]; · iexact Hb
    isplitl [Hheld]; · iexact Hheld
    iintro %h %g' ⟨Hst, Hb, Hheld⟩
    have hK3 : Keeps m d (Function.update (Function.update W ht' h) agg' g') :=
      keeps_update m (keeps_update m hKW ht' h (by decide)) agg' g' (by decide)
    -- the second region
    ihave Hlv := (SparseCore.Cfg.ctx_levAts κ) $$ Hctx
    iapply (region_step (rd1 _) (R1 (Function.update (Function.update W ht' h) agg' g')) d _ _) $$ [Hst Hb Hheld Hg1 Hlv Haux]
    isplitr [Hst Hb Hheld Hg1 Hlv Haux]
    · iintro ⟨Hb, Hpost⟩
      ihave Hp := (h1post d _) $$ Hpost
      icases Hp with ⟨%W2, %hKW2, Hst, Hheld, -⟩
      -- the last operation
      iapply (wp_seq 𝒱 none Set.univ d (Pipeline.ucRefs τ sig) _ ops2 (uc_of_sub ops2_sub) (List.forall_iff_forall_mem.mp ops2_fresh) W2) $$ [Hb Hheld]
      · isplitl [Hb]; · iexact Hb
        iexact Hheld
      iintro ⟨Hb, Hheld⟩
      rw [wp_pure]; imodintro
      isplitl [Hst]; · iexact Hst
      iapply (fin_of_keeps m d _ (keeps_ops2 m hKW2)); iexact Hheld
    isplitl [Hb]; · iexact Hb
    isplitl [Hst Hheld Haux]
    · iapply (h1pre d _ hK3)
      isplitl [Hst]; · iexact Hst
      isplitl [Hheld]; · iexact Hheld
      iexact Haux
    isplitl [Hlv]; · iexact Hlv
    icases Hg1 with ⟨Hc, Ht⟩
    isplitl [Hc]; · iexact Hc
    iexact Ht
  isplitl [Hb]; · iexact Hb
  isplitl [Hst Hheld Haux]
  · iapply (h0pre d _ hK2)
    isplitl [Hst]; · iexact Hst
    isplitl [Hheld]; · iexact Hheld
    iexact Haux
  isplitl [Hlv]; · iexact Hlv
  icases Hg0 with ⟨Hc, Ht⟩
  isplitl [Hc]; · iexact Hc
  iexact Ht

end Main

end Cert.KernelIdeal.Run

end
-- ==== Proof.KFrame.lean ====
/-
  The kernel program's run, and from it that the arguments end unchanged: the launch theorem applied to the main program,
  the launch element of the ghost state (the handshakes' rounds, the two gridded regions' staging rounds, the copies'
  counters), and the reading of the final memory. What remains open is stated as hypotheses: the two vector-subcore
  tasks, and the two gridded regions as records with their entry and exit states.
-/
import proofs.«207969_g80633716015134_cont_9to1_m_1245_11_alg».proof.Proof.KMain

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held)

variable {F : FTy → Type} [FloatOps F] [∀ e, Nonempty (Elt F e)]

local notation "𝕄" => MT nD τ sig (HIx 2) (Elt F) ℕ UU ℕ

variable (m : (ℓ : Loc nD τ sig) → Buf (Elt F) ℓ) (ρ : Dev nD → PrngReg)

/-! ## The launch element -/

/-- The handshakes' rounds at launch, the regions' staging rounds at launch, the counters' unit. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

omit [∀ e, Nonempty (Elt F e)] in
theorem bigSep_emp' {I : Type} (s : Finset I) : (bigSep s fun _ => iprop(emp)) = (iprop(emp) : sProp 𝕄) := bigSep_emp_const s

omit [∀ e, Nonempty (Elt F e)] in
/-- A device's staging ghost state for both regions, regrouped by region. -/
theorem G_of (c : Dev nD) :
    (iprop((bigSep Finset.univ fun p : Fin 2 => Pipeline.cellsGhost (Pipeline.pin (pcfgs (F := F)) adm) EP p c)
        ∗ bigSep Finset.univ fun p : Fin 2 => Pipeline.toksInit (Pipeline.pin (pcfgs (F := F)) adm) EP p c) : sProp 𝕄) ⊢ G c := by
  unfold G
  rw [bigSep_univ_two, bigSep_univ_two]
  iintro ⟨⟨Hc0, Hc1⟩, Ht0, Ht1⟩
  isplitl [Hc0 Ht0]
  · isplitl [Hc0]; · iexact Hc0
    iexact Ht0
  · isplitl [Hc1]; · iexact Hc1
    iexact Ht1

theorem hu₀ : iprop(ownU (u₀ (F := F)) ∗ (P (fs m) (fd m) (fz m)).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 2 => (P (fs m) (fd m) (fz m)).x q thr) := by
  unfold u₀
  iintro ⟨Hu, -, -⟩
  ihave H := (ownU_pair _ _) $$ Hu
  icases H with ⟨HH, HR⟩
  ihave H2 := (own_pair_emb embR _ _) $$ HR
  icases H2 with ⟨HP, -⟩
  ihave HP' := (Entails.of_eq (show (BI.own (((Emb.inl : Emb UP (UP × Counters)).trans embR)
        (initOf (Pipeline.cells (Pipeline.pin (pcfgs (F := F)) adm) cellOf_inj) (Pipeline.launchToks (Pipeline.pin (pcfgs (F := F)) adm) cellOf_inj))) : sProp 𝕄)
      = BI.own (EP (initOf (Pipeline.cells (Pipeline.pin (pcfgs (F := F)) adm) cellOf_inj) (Pipeline.launchToks (Pipeline.pin (pcfgs (F := F)) adm) cellOf_inj))) from rfl)) $$ HP
  imod (Pipeline.fund_ghost (cfgs := Pipeline.pin (pcfgs (F := F)) adm) (hinj := cellOf_inj) (ER := EP)) $$ HP' with ⟨Hcg, Hti⟩
  imodintro
  isplitl [HH]; · iexact HH
  isplitl [Hcg Hti]
  · ihave Hboth : (bigSep Finset.univ fun c : Dev nD => iprop((bigSep Finset.univ fun p : Fin 2 => Pipeline.cellsGhost (Pipeline.pin (pcfgs (F := F)) adm) EP p c)
        ∗ bigSep Finset.univ fun p : Fin 2 => Pipeline.toksInit (Pipeline.pin (pcfgs (F := F)) adm) EP p c)) $$ [Hcg Hti]
    · rw [bigSep_sep']
      isplitl [Hcg]; · iexact Hcg
      iexact Hti
    iapply (ent (bigSep_mono (s := Finset.univ) fun c _ => G_of c)) $$ Hboth
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## Reading the final memory -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3

def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d) ∧ s'.mem.mem (a3Loc d) = m (a3Loc d)

omit [∀ e, Nonempty (Elt F e)] in
theorem hfin (d : Dev nD) (s' : Phys nD τ sig (Elt F)) : iprop(FIN m d ∗ SI s') ⊢ (⌜fq m d s'⌝ : sProp 𝕄) := by
  unfold FIN held Targs
  rw [SparseCore.bigSep_insert' (by decide), SparseCore.bigSep_insert' (by decide), SparseCore.bigSep_insert' (by decide), bigSep_singleton]
  show iprop(((a0Loc d ↦{fullShare} m (a0Loc d)) ∗ (a1Loc d ↦{fullShare} m (a1Loc d)) ∗ (a2Loc d ↦{fullShare} m (a2Loc d)) ∗ (a3Loc d ↦{fullShare} m (a3Loc d))) ∗ SI s')
    ⊢ (⌜fq m d s'⌝ : sProp 𝕄)
  iintro ⟨⟨H0, H1, H2, H3⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := a3Loc d) (I := Finset.univ) (q := fullShare) (f := m (a3Loc d))) $$ [HSI H3]
  · isplitl [HSI] <;> iassumption
  icases H with %h3
  ipureintro
  exact ⟨funext fun i => h0 i (Finset.mem_univ i), funext fun i => h1 i (Finset.mem_univ i), funext fun i => h2 i (Finset.mem_univ i),
    funext fun i => h3 i (Finset.mem_univ i)⟩

/-! ## The run -/

section Run

variable (rd0 rd1 : Valuation τ sig (Elt F) → (p : Fin 2) → (c : Dev nD) → Pipeline.RDat τ (Elt F) (HIx 2) ℕ UU ℕ (Pipeline.pin (pcfgs (F := F)) adm p) c)
  (R0 : ∀ W, Pipeline.RDat.RegionSeg (pcfgs (F := F)) adm (rd0 W) (none : HIx 2) (defs₀ (F := F)) 𝒱₀ (K (F := F)).L (K (F := F)).lev 0)
  (R1 : ∀ W, Pipeline.RDat.RegionSeg (pcfgs (F := F)) adm (rd1 W) (none : HIx 2) (defs₀ (F := F)) 𝒱₀ (K (F := F)).L (K (F := F)).lev 1)

/-- Every weakly fair execution of the thirty-five threads terminates, nothing faulting, the four arguments unchanged —
    from the two vector-subcore tasks and the two gridded regions. -/
theorem run_args
    (htile0 : (K (F := F)).TileObl (D (F := F)) 𝒱 (P (fs m) (fd m) (fz m)) v₀ 0)
    (htile1 : (K (F := F)).TileObl (D (F := F)) 𝒱 (P (fs m) (fd m) (fz m)) v₀ 1)
    (h0pre : ∀ d W, Keeps m d W → iprop((K (F := F)).tcSt EH d 1 ∗ held (SparseCore.T d) (Pipeline.ucRefs τ sig) W ∗ Aux d) ⊢ (R0 W).pre d)
    (h0post : ∀ d W, (R0 W).post d ⊢ iprop(∃ W', ⌜Keeps m d W'⌝ ∗ (K (F := F)).tcSt EH d 1 ∗ held (SparseCore.T d) (Pipeline.ucRefs τ sig) W' ∗ Aux d))
    (h1pre : ∀ d W, Keeps m d W → iprop((K (F := F)).tcSt EH d 2 ∗ held (SparseCore.T d) (Pipeline.ucRefs τ sig) W ∗ Aux d) ⊢ (R1 W).pre d)
    (h1post : ∀ d W, (R1 W).post d ⊢ iprop(∃ W', ⌜Keeps m d W'⌝ ∗ (K (F := F)).tcSt EH d 2 ∗ held (SparseCore.T d) (Pipeline.ucRefs τ sig) W' ∗ Aux d)) :
    θ_run (Cert.KernelIdeal.defs (F := F)) (Cert.KernelIdeal.threads (F := F)) ⟨m, fun _ => 0, ρ⟩ (fun r => ∀ c : Dev nD,
      r.2.mem (a0Loc c) = m (a0Loc c) ∧ r.2.mem (a1Loc c) = m (a1Loc c) ∧ r.2.mem (a2Loc c) = m (a2Loc c) ∧ r.2.mem (a3Loc c) = m (a3Loc c)) :=
  run_of (fs m) (fd m) (fz m) m ρ htile0 htile1 (G (F := F)) (FIN m) (u₀ (F := F)) (hu₀ m)
    (hmain m ρ rd0 rd1 R0 R1 h0pre h0post h1pre h1post) (fq m) (hfin m) _ (fun _ h c => h c)

end Run

end Cert.KernelIdeal.Run

end
-- ==== Proof.LibLayoutForall.lean ====
/-
  General: a property of every element passes through the layout operations. A reshape, a strided slice, a broadcast and a
  concatenation only move elements: each element of the result is an element of an operand (of one of the pieces, for a
  concatenation). So whatever holds of every element of the operands — a bound on index words, finiteness, a sign — holds of
  every element of the result, with no arithmetic on the index.
-/
import Idealize.ShloMosaic.PureOps.ShapeOps

namespace Cert.Lib.LayoutForall

open Idealize.ShloMosaic

variable {α : Type} (P : α → Prop)

/-- Every element of a reshape is an element of the operand. -/
theorem shapeCast_forall {s t : Shape} (x : s.Idx → α) (h : s.ShapeCasts t) (hx : ∀ k, P (x k)) (j : t.Idx) :
    P (shapeCast t x h j) := by
  unfold shapeCast; exact hx _

/-- Every element of a unit-stride slice is an element of the operand. -/
theorem slice_forall {s t : Shape} (off : Fin s.rank → Nat) (x : s.Idx → α) (h : s.Slices off t) (hx : ∀ k, P (x k)) (j : t.Idx) :
    P (extractStridedSlice t off x h j) := by
  unfold extractStridedSlice; exact hx _

/-- Every element of a broadcast is an element of the operand. -/
theorem broadcast_forall {s t : Shape} (dims : Fin s.rank → Fin t.rank) (h : s.BroadcastsInDim t dims) (x : s.Idx → α)
    (hx : ∀ k, P (x k)) (j : t.Idx) : P (broadcastInDim t dims h x j) := by
  unfold broadcastInDim; exact hx _

/-- Every element of a concatenation is an element of one of the pieces. -/
theorem concatenate_forall (t : Shape) (a : Fin t.rank) (xs : List ((s : Shape) × (s.Idx → α)))
    (h : Shape.Concatenates (xs.map (·.1)) t a) (hx : ∀ p ∈ xs, ∀ i, P (p.2 i)) (j : t.Idx) :
    P (concatenate t a xs h j) := by
  unfold concatenate
  exact hx _ (List.getElem_mem _) _

/-- The two-piece case, as a host concatenation of two arrays spells it. -/
theorem concatenate2_forall (t : Shape) (a : Fin t.rank) {s₁ s₂ : Shape} (x₁ : s₁.Idx → α) (x₂ : s₂.Idx → α)
    (h : Shape.Concatenates (([⟨s₁, x₁⟩, ⟨s₂, x₂⟩] : List ((s : Shape) × (s.Idx → α))).map (·.1)) t a) (h1 : ∀ i, P (x₁ i)) (h2 : ∀ i, P (x₂ i)) (j : t.Idx) :
    P (concatenate t a [⟨s₁, x₁⟩, ⟨s₂, x₂⟩] h j) := by
  refine concatenate_forall P t a _ h ?_ j
  intro p hp
  rcases List.mem_cons.mp hp with rfl | hp
  · exact h1
  · rcases List.mem_cons.mp hp with rfl | hp
    · exact h2
    · exact absurd hp (List.not_mem_nil)

end Cert.Lib.LayoutForall
-- ==== Proof.KRange.lean ====
/-
  The index ranges the two vector-subcore tasks rest on. Where the input-domain predicate is all ones, every entry of the
  edge list, read signed, lies between 0 and 9999; the padded source and destination index arrays are a reshape of a row
  of the edge list followed by zeros, so every entry of either, read as an unsigned word, is below 10000.
-/
import proofs.«207969_g80633716015134_cont_9to1_m_1245_11_alg».proof.Proof.KMain
import proofs.«207969_g80633716015134_cont_9to1_m_1245_11_alg».proof.Proof.LibLayoutForall
import proofs.«207969_g80633716015134_cont_9to1_m_1245_11_alg».proof.Pre_input_domain
import proofs.«207969_g80633716015134_cont_9to1_m_1245_11_alg».proof.Proof.Gen.Pre_input_domain
import Idealize.ShloMosaic.Lib.ReduceAll
import Idealize.ShloMosaic.Lib.ValueIdx

noncomputable section

namespace Cert.KernelIdeal.Run

open Cert.KernelIdeal Cert.KernelIdeal.Gen
open Idealize.ShloMosaic Idealize.ShloMosaic.ValueIdx Idealize.SL.Sem
open Idealize.ShloMosaic.StableHlo (after)
open Cert.Lib.LayoutForall

variable {F : FTy → Type} [FloatOps F]

variable (m : (ℓ : Loc nD τ sig) → Buf (Elt F) ℓ)

/-- The input-domain predicate holds of the launch memory's arguments, on every device. -/
def PreOK : Prop :=
  ∀ d : Dev nD, Cert.Pre_input_domain.fn (F := F)
    (m ((SparseCore.T d).loc main_arg0)) (m ((SparseCore.T d).loc main_arg1)) (m ((SparseCore.T d).loc main_arg2)) (m ((SparseCore.T d).loc main_arg3))
    = fun _ => 1#1

/-- A word that is, read signed, between 0 and 9999 is, read unsigned, below 10000. -/
theorem toNat_lt_of_toInt (v : BitVec 32) (h0 : 0 ≤ v.toInt) (h1 : v.toInt ≤ 9999) : v.toNat < 10000 := by
  rw [BitVec.toInt_eq_toNat_cond] at h0 h1
  split at h0 <;> omega

/-- The domain predicate's last conjunct, an "and" over all entries of the edge list of two comparisons: where the
    predicate is 1, every entry is at least 0 and at most 9999 as a signed word, hence below 10000 as an unsigned one. -/
theorem ei_range (hpre : PreOK m) (d : Dev nD) (k : S2x320000.Idx) : (m ((SparseCore.T d).loc main_arg1) k).toNat < 10000 := by
  haveI : Subsingleton Cert.Pre_input_domain.S_.Idx := ⟨fun a b => funext fun x => x.elim0⟩
  have h0 := congrFun (hpre d) ix0
  dsimp only [Cert.Pre_input_domain.fn, Cert.Pre_input_domain.fn_part1] at h0
  obtain ⟨-, h19⟩ := IntOp.andi_eq_one.mp h0
  have hel := Host.reduce_andi_all _ _ _ _ _ h19 k
  obtain ⟨hge, hle⟩ := IntOp.andi_eq_one.mp hel
  have h1 := IntOp.cmpi_sge.mp hge
  have h2 := IntOp.cmpi_sle.mp hle
  simp only [broadcastInDim, constantI] at h1 h2
  have z0 : (0#32 : BitVec 32).toInt = 0 := by decide
  have z9 : (9999#32 : BitVec 32).toInt = 9999 := by decide
  rw [z0] at h1
  rw [z9] at h2
  exact toNat_lt_of_toInt _ h1 h2

/-- Every entry of the padded destination index array is below 10000. -/
theorem fd_range (hpre : PreOK m) (d : Dev nD) (j : (dstLoc d).ty.Idx) : (fd m d j).toNat < 10000 := by
  unfold fd V1
  after_results
  refine concatenate2_forall (fun v : BitVec 32 => v.toNat < 10000) S327680 0 _ _ concatenates_S320000_S7680_S327680_d0 ?_ ?_ j
  · intro i
    show (shapeCast S320000 (extractStridedSlice S1x320000 ![1, 0] (V0 m d (Proc.tc.devRef main_arg1)) slices_S2x320000_S1x320000_1_0)
      shapeCasts_S1x320000_S320000 i).toNat < 10000
    exact shapeCast_forall (fun v : BitVec 32 => v.toNat < 10000) _ _
      (fun k => slice_forall (fun v : BitVec 32 => v.toNat < 10000) _ _ _ (fun k' => ei_range m hpre d k') k) i
  · intro i
    exact broadcast_forall (fun v : BitVec 32 => v.toNat < 10000) _ _ _ (fun _ => by show (0#32 : BitVec 32).toNat < 10000; decide) i

/-- Every entry of the padded source index array is below 10000. -/
theorem fs_range (hpre : PreOK m) (d : Dev nD) (j : (srcLoc d).ty.Idx) : (fs m d j).toNat < 10000 := by
  unfold fs V1
  after_results
  refine concatenate2_forall (fun v : BitVec 32 => v.toNat < 10000) S327680 0 _ _ concatenates_S320000_S7680_S327680_d0 ?_ ?_ j
  · intro i
    show (shapeCast S320000 (extractStridedSlice S1x320000 ![0, 0] (V0 m d (Proc.tc.devRef main_arg1)) slices_S2x320000_S1x320000_0_0)
      shapeCasts_S1x320000_S320000 i).toNat < 10000
    exact shapeCast_forall (fun v : BitVec 32 => v.toNat < 10000) _ _
      (fun k => slice_forall (fun v : BitVec 32 => v.toNat < 10000) _ _ _ (fun k' => ei_range m hpre d k') k) i
  · intro i
    exact broadcast_forall (fun v : BitVec 32 => v.toNat < 10000) _ _ _ (fun _ => by show (0#32 : BitVec 32).toNat < 10000; decide) i

end Cert.KernelIdeal.Run

end
-- ==== Proof.KTile0Trip.lean ====
/-
  The first call's task on one vector subcore, at a symbolic worker: what the loop carries from trip to trip and one trip
  of it. A trip copies 1024 source indices and 1024 destination indices of the worker's share of the edge list into two
  scratch buffers and then, sixteen lanes at a time, adds one into the accumulator scratch at the destination index, or at
  position 10240 where source and destination agree. Every scattered index is below the accumulator's length 10256 because
  every destination index is below 10000. No value is tracked: the accumulator is held at whatever it holds.
-/
import proofs.«207969_g80633716015134_cont_9to1_m_1245_11_alg».proof.Proof.KSetup
import proofs.«207969_g80633716015134_cont_9to1_m_1245_11_alg».proof.Proof.Gen.KernelIdeal.Skeleton
import Idealize.ShloMosaic.Lib.SparseCore.Launch
import Idealize.ShloMosaic.Lib.SparseCore.Ops
import Idealize.ShloMosaic.Lib.Tactic

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 2) (Elt F) ℕ UU ℕ

namespace Tile0

/-! ## The first call's task, at a symbolic worker -/

section Geometry

variable [FloatOps F]
variable (fs : (d : Dev nD) → Buf (Elt F) (srcLoc d)) (fd : (d : Dev nD) → Buf (Elt F) (dstLoc d)) (fz : (d : Dev nD) → Buf (Elt F) (zeroLoc d))
variable (d : Dev nD) (L : grid0.Coords)

/-- The SparseCore and the vector subcore of a grid point, and the same two as the payloads index them. -/
abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)
abbrev wL (L : grid0.Coords) : Fin 32 := ⟨wid (cL L).val (iL L).val, wid_lt (cL L).isLt (iL L).isLt⟩

/-- The arrays and the scratch as the kernel is called with them. -/
abbrev aS : Memref sig .scVector .hbm S327680 .i32 := Memref.whole main_v5_scv
abbrev aD : Memref sig .scVector .hbm S327680 .i32 := Memref.whole main_v7_scv
abbrev aZ : Memref sig .scVector .hbm S10256 .f32 := Memref.whole main_v10_scv
abbrev aC : Memref sig .scVector .hbm S32x10256 .f32 := Memref.whole main_v13_scv
abbrev b6 : Memref sig .scVector .vmem S1024 .i32 := Memref.whole cc0_scratch0
abbrev b7 : Memref sig .scVector .vmem S1024 .i32 := Memref.whole cc0_scratch1
abbrev b8 : Memref sig .scVector .vmem S10256 .f32 := Memref.whole cc0_scratch2

/-- The row of the count array the kernel writes, as the kernel slices it. -/
abbrev rowK (L : grid0.Coords) : Rect S32x10256 := Rect.unit (s := S32x10256) (k0_off2 L) S1x10256.size (k0_off2_inb L)
abbrev cRowK (L : grid0.Coords) : Memref sig .scVector .hbm S10256 .f32 :=
  ((aC : Memref sig .scVector .hbm S32x10256 .f32).slice (rowK L) (fun _ => rfl)).squeeze S10256 squeezes_S1x10256_S10256

theorem rowK_eq : rowK L = cntRow (wL L) := by
  unfold rowK cntRow Rect.part Rect.block
  congr 1 <;> funext a
  · rw [k0_off2_eq]
    match a with
    | 0 => simp [Shape.partIx, Shape.partSize, wid]
    | 1 => simp [Shape.partIx, Shape.partSize]
  · match a with
    | 0 => simp [Shape.partSize]
    | 1 => simp [Shape.partSize]

theorem set_cRowK : (cRowK L).view.set = (cntRow (wL L)).set := by
  show (((aC : Memref sig .scVector .hbm S32x10256 .f32).view.slice (rowK L)).reshape S10256 squeezes_S1x10256_S10256.numel_eq).set = _
  rw [View.set_reshape]
  show ((View.whole (main_v13_scv : Ref sig .scVector)).slice (rowK L)).set = _
  rw [View.set_slice, rowK_eq]; exact Finset.map_refl

end Geometry

section Trip

variable [FloatOps F]
variable (fs : (d : Dev nD) → Buf (Elt F) (srcLoc d)) (fd : (d : Dev nD) → Buf (Elt F) (dstLoc d)) (fz : (d : Dev nD) → Buf (Elt F) (zeroLoc d))
variable (d : Dev nD) (L : grid0.Coords)

/-- The share of a whole array a worker reads. -/
abbrev qW (L : grid0.Coords) : PosShare TreeShare := shareTok (shareTok fullShare 2 (cL L)) 16 (iL L)

/-- The four semaphores of the task's copies. -/
abbrev g0 (d : Dev nD) (c : Fin τ.nSC) (i : Fin τ.nSub) : GSem nD τ sig := (V d c i, .dma cc0_scoped0.sem)
abbrev g1 (d : Dev nD) (c : Fin τ.nSC) (i : Fin τ.nSub) : GSem nD τ sig := (V d c i, .dma cc0_scoped1.sem)
abbrev g2 (d : Dev nD) (c : Fin τ.nSC) (i : Fin τ.nSub) : GSem nD τ sig := (V d c i, .dma cc0_scoped2.sem)
abbrev g3 (d : Dev nD) (c : Fin τ.nSC) (i : Fin τ.nSub) : GSem nD τ sig := (V d c i, .dma cc0_scoped3.sem)

omit [FloatOps F] in
theorem cell_ne {thr : Thread nD τ} {s s' : SemLoc sig} (h : s ≠ s') : ((thr, s) : GSem nD τ sig) ≠ (thr, s') :=
  fun e => h (Prod.mk.inj e).2

omit [FloatOps F] in
theorem mem_own (d : Dev nD) (c : Fin τ.nSC) (i : Fin τ.nSub) (s : SemLoc sig) (h : s.isScoped .scVector = true) :
    ((V d c i, s) : GSem nD τ sig) ∈ ownCells (V d c i) := (mem_ownCells (g := ((V d c i, s) : GSem nD τ sig))).mpr ⟨rfl, h⟩

omit [FloatOps F] in
theorem ownSems0_V :
    (ownSems0 (V d (cV L) (jV L)) : sProp 𝕄)
      = iprop(semVal (g0 d (cV L) (jV L)) 0 ∗ semVal (g1 d (cV L) (jV L)) 0 ∗ semVal (g2 d (cV L) (jV L)) 0 ∗ semVal (g3 d (cV L) (jV L)) 0
          ∗ bigSep (((((ownCells (V d (cV L) (jV L))).erase (g0 d (cV L) (jV L))).erase (g1 d (cV L) (jV L))).erase (g2 d (cV L) (jV L))).erase (g3 d (cV L) (jV L)))
              fun g => semVal g 0) := by
  unfold SparseCore.Cfg.ownSems0
  have m0 := mem_own d (cV L) (jV L) (.dma cc0_scoped0.sem) (by decide)
  have m1 := mem_own d (cV L) (jV L) (.dma cc0_scoped1.sem) (by decide)
  have m2 := mem_own d (cV L) (jV L) (.dma cc0_scoped2.sem) (by decide)
  have m3 := mem_own d (cV L) (jV L) (.dma cc0_scoped3.sem) (by decide)
  have n10 : g1 d (cV L) (jV L) ≠ g0 d (cV L) (jV L) := cell_ne (by decide)
  have n20 : g2 d (cV L) (jV L) ≠ g0 d (cV L) (jV L) := cell_ne (by decide)
  have n21 : g2 d (cV L) (jV L) ≠ g1 d (cV L) (jV L) := cell_ne (by decide)
  have n30 : g3 d (cV L) (jV L) ≠ g0 d (cV L) (jV L) := cell_ne (by decide)
  have n31 : g3 d (cV L) (jV L) ≠ g1 d (cV L) (jV L) := cell_ne (by decide)
  have n32 : g3 d (cV L) (jV L) ≠ g2 d (cV L) (jV L) := cell_ne (by decide)
  rw [SparseCore.bigSep_erase' m0,
    SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The arrays as a vector subcore's memrefs address them are the TensorCore's arrays. -/
theorem pts_aS (q : PosShare TreeShare) (f : Buf (Elt F) (srcLoc d)) :
    ((aS : Memref sig .scVector .hbm S327680 .i32).view.loc (V d (cV L) (jV L)) ↦{q} f : sProp 𝕄) = srcLoc d ↦{q} f := rfl
theorem pts_aD (q : PosShare TreeShare) (f : Buf (Elt F) (dstLoc d)) :
    ((aD : Memref sig .scVector .hbm S327680 .i32).view.loc (V d (cV L) (jV L)) ↦{q} f : sProp 𝕄) = dstLoc d ↦{q} f := rfl
theorem pts_aZ (q : PosShare TreeShare) (f : Buf (Elt F) (zeroLoc d)) :
    ((aZ : Memref sig .scVector .hbm S10256 .f32).view.loc (V d (cV L) (jV L)) ↦{q} f : sProp 𝕄) = zeroLoc d ↦{q} f := rfl
theorem pts_cRowK (f : Buf (Elt F) (cntLoc d)) :
    ((cRowK L).view.loc (V d (cV L) (jV L)) ↦[(cRowK L).view.set]{fullShare} f : sProp 𝕄) = cntLoc d ↦[(cntRow (wL L)).set]{fullShare} f := by
  rw [set_cRowK]
theorem pts_b6 (f : Buf (Elt F) ((V d (cV L) (jV L)).loc cc0_scratch0)) :
    ((b6 : Memref sig .scVector .vmem S1024 .i32).view.loc (V d (cV L) (jV L)) ↦{fullShare} f : sProp 𝕄) = (V d (cV L) (jV L)).loc cc0_scratch0 ↦{fullShare} f := rfl
theorem pts_b7 (f : Buf (Elt F) ((V d (cV L) (jV L)).loc cc0_scratch1)) :
    ((b7 : Memref sig .scVector .vmem S1024 .i32).view.loc (V d (cV L) (jV L)) ↦{fullShare} f : sProp 𝕄) = (V d (cV L) (jV L)).loc cc0_scratch1 ↦{fullShare} f := rfl
theorem pts_b8 (f : Buf (Elt F) ((V d (cV L) (jV L)).loc cc0_scratch2)) :
    ((b8 : Memref sig .scVector .vmem S10256 .f32).view.loc (V d (cV L) (jV L)) ↦{fullShare} f : sProp 𝕄) = (V d (cV L) (jV L)).loc cc0_scratch2 ↦{fullShare} f := rfl

/-- What a trip of the loop starts and ends with: the evidence that waits at the kernels' index are admissible, the two
    index arrays' read tokens, the three scratch buffers at whatever they hold, the two chunk copies' semaphores at
    zero, and the subcore's debts with only such waits recorded beyond the first ones. -/
def inv0 (O : CellTallies nD τ sig (HIx 2)) (W : Waits sig (HIx 2)) (_ : Nat) (_ : PUnit) : sProp 𝕄 :=
  iprop(Transfers.MayWaits (V d (cV L) (jV L)) (none : HIx 2) O
    ∗ ((aS : Memref sig .scVector .hbm S327680 .i32).view.loc (V d (cV L) (jV L)) ↦{qW L} fs d)
    ∗ ((aD : Memref sig .scVector .hbm S327680 .i32).view.loc (V d (cV L) (jV L)) ↦{qW L} fd d)
    ∗ (∃ f, (b6 : Memref sig .scVector .vmem S1024 .i32).view.loc (V d (cV L) (jV L)) ↦{fullShare} f)
    ∗ (∃ f, (b7 : Memref sig .scVector .vmem S1024 .i32).view.loc (V d (cV L) (jV L)) ↦{fullShare} f)
    ∗ (∃ f, (b8 : Memref sig .scVector .vmem S10256 .f32).view.loc (V d (cV L) (jV L)) ↦{fullShare} f)
    ∗ semVal (g1 d (cV L) (jV L)) 0 ∗ semVal (g2 d (cV L) (jV L)) 0
    ∗ ∃ W', ⌜∀ p ∈ W', p ∈ W ∨ p.2 = none⌝ ∗ owes (V d (cV L) (jV L)) O W')

/-- The index vector the kernel scatters at is in range whenever the destination indices are below 10000: a lane is the
    destination index or, where source and destination agree, 10240. -/
theorem dm_lt (s v : IVec S16 32) (hv : ∀ x, (v x).toNat < 10000) :
    ∀ (a : Fin 1) (x : S16.Idx), ((![select (cmpi .eq s v) (broadcast S16 10240#32) v] : Fin 1 → IVec S16 32) a x).toNat < S10256.size a := by
  intro a x
  obtain rfl : a = 0 := Subsingleton.elim _ _
  show (Scalar.select (cmpi .eq s v x) 10240#32 (v x)).toNat < 10256
  unfold Scalar.select; split
  · decide
  · have := hv x; omega

/-- What a load of sixteen lanes of the destination-index scratch reads is below 10000 when all its words are. -/
theorem read7_lt (f : Buf (Elt F) ((b7 : Memref sig .scVector .vmem S1024 .i32).view.loc (V d (cV L) (jV L))))
    (hb : ∀ j, (f j).toNat < 10000) (o : Nat) (h : ∀ a, (![o] : Fin 1 → Nat) a + S16.size a ≤ S1024.size a) :
    ∀ x, ((View.readAt (Elt F) (b7 : Memref sig .scVector .vmem S1024 .i32).view (Rect.unit (s := S1024) ![o] S16.size h).toLoadRect f) x).toNat < 10000 :=
  fun x => hb _

/-- The check before each indexed store holds of what the scratch holds. -/
theorem chk_ok (s : IVec S16 32) (f : Buf (Elt F) ((b7 : Memref sig .scVector .vmem S1024 .i32).view.loc (V d (cV L) (jV L))))
    (hb : ∀ j, (f j).toNat < 10000) (o : Nat) (h : ∀ a, (![o] : Fin 1 → Nat) a + S16.size a ≤ S1024.size a) :
    ∀ (a : Fin 1) (x : S16.Idx), ((![select (cmpi .eq s (View.readAt (Elt F) (b7 : Memref sig .scVector .vmem S1024 .i32).view (Rect.unit (s := S1024) ![o] S16.size h).toLoadRect f))
        (broadcast S16 10240#32) (View.readAt (Elt F) (b7 : Memref sig .scVector .vmem S1024 .i32).view (Rect.unit (s := S1024) ![o] S16.size h).toLoadRect f)] : Fin 1 → IVec S16 32) a x).toNat < S10256.size a :=
  dm_lt s _ (read7_lt (F := F) d L f hb o h)

/-- A chunk of the destination-index array, copied over the whole scratch, leaves every word of it below 10000. -/
theorem chunk_lt (hR : ∀ (d : Dev nD) (j : (dstLoc d).ty.Idx), (fd d j).toNat < 10000) (k : Fin k0_t1_loop.trips)
    (f7 : Buf (Elt F) ((b7 : Memref sig .scVector .vmem S1024 .i32).view.loc (V d (cV L) (jV L)))) :
    ∀ j, ((View.write (Elt F) (b7 : Memref sig .scVector .vmem S1024 .i32).view f7
      (ReadAs.same.apply (View.read (Elt F) ((aD : Memref sig .scVector .hbm S327680 .i32).slice (Rect.unit (s := S327680) (k0_off1 L k) S1024.size (k0_off1_inb L k)) (fun _ => rfl)).view (fd d)))
      Finset.univ) j).toNat < 10000 := by
  intro j
  have e := View.write_emb_of_mem (Val := Elt F) (v := (b7 : Memref sig .scVector .vmem S1024 .i32).view) f7
    (ReadAs.same.apply (View.read (Elt F) ((aD : Memref sig .scVector .hbm S327680 .i32).slice (Rect.unit (s := S327680) (k0_off1 L k) S1024.size (k0_off1_inb L k)) (fun _ => rfl)).view (fd d)))
    (M := Finset.univ) (x := j) (Finset.mem_univ _)
  have e' : (b7 : Memref sig .scVector .vmem S1024 .i32).view.emb j = j := rfl
  rw [e'] at e
  rw [e]
  exact hR d _

/-- The indexed store into the accumulator scratch, whatever it holds before and after. -/
theorem wp_store8 {α : Type} {Q : α → sProp 𝕄} (idxs : Fin S10256.rank → IVec S16 32) (v : Vec F S16 .f32) (mask : IVec S16 1) (add : Bool)
    (h : ∀ a x, (idxs a x).toNat < S10256.size a) (hs : ((b8 : Memref sig .scVector .vmem S10256 .f32).access (.whole S10256)).Stores Finset.univ)
    (k : PUnit → Prog (TpuEff nD τ sig (Elt F) Λ₀ (.scVector (cV L) (jV L))) α) :
    iprop(∃ f, (b8 : Memref sig .scVector .vmem S10256 .f32).view.loc (V d (cV L) (jV L)) ↦{fullShare} f)
      ⊢ iprop(((∃ f, (b8 : Memref sig .scVector .vmem S10256 .f32).view.loc (V d (cV L) (jV L)) ↦{fullShare} f)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (b8 : Memref sig .scVector .vmem S10256 .f32) idxs v mask add h hs >>= k) Q) := by
  iintro ⟨%f, H⟩ Hk
  have e : (((b8 : Memref sig .scVector .vmem S10256 .f32).access (.whole S10256)).set) = Finset.univ := Memref.set_access_whole _
  iapply (SparseCore.wp_vectorStoreIdx (defs := defs₀ (F := F)) 𝒱₀ (V d (cV L) (jV L)) none Set.univ (base := (b8 : Memref sig .scVector .vmem S10256 .f32))
    (idxs := idxs) (v := v) (mask := mask) (add := add) (h := h) (hs := hs) (k := k) (f := f) (Q := Q)) $$ [H]
  · rw [e]; iexact H
  iintro H
  iapply Hk
  iexists _
  rw [e]; iexact H

set_option hygiene false in
/-- One round of the unrolled inner loop: up to the check (discharged from the bound on the scratch's words), then the
    indexed store by its rule. -/
local macro "store_step" : tactic => `(tactic| (
  sl_exec (disch := exact chk_ok (F := F) d L _ _ hb _ _)
  iapply (wp_store8 (F := F) d L _ _ _ _ _ _ _) $$ [H8]
  · iexists _; iexact H8
  iintro ⟨%f8, H8⟩))

set_option sl_exec.dischHeartbeats 200000 in
set_option maxHeartbeats 4000000 in
/-- One trip of the loop: both index chunks fetched, then the sixty-four rounds of the unrolled inner loop. -/
theorem tile_trip (hR : ∀ (d : Dev nD) (j : (dstLoc d).ty.Idx), (fd d j).toNat < 10000)
    (O : CellTallies nD τ sig (HIx 2)) (W : Waits sig (HIx 2)) (v1 : BitVec 32) (k : Fin k0_t1_loop.trips) (acc : PUnit) :
    inv0 fs fd d L O W k.val acc
      ⊢ wp frame (wpE (defs₀ (F := F)) 𝒱₀ (V d (cV L) (jV L)) none) Set.univ
          (k0_t1_body L aS (Memref.isWhole_whole _) aD (Memref.isWhole_whole _) aZ (Memref.isWhole_whole _) aC (Memref.isWhole_whole _)
            b6 (Memref.isWhole_whole _) b7 (Memref.isWhole_whole _) b8 (Memref.isWhole_whole _) cc0_scoped0 cc0_scoped1 cc0_scoped2 cc0_scoped3 v1 k acc)
          (inv0 fs fd d L O W (k.val + 1)) := by
  unfold inv0
  iintro ⟨#Hmw, HS, HD, ⟨%f6, H6⟩, ⟨%f7, H7⟩, ⟨%f8, H8⟩, Hs1, Hs2, %W', %hW', HO⟩
  sl_exec
  have hb := chunk_lt (F := F) fd d L hR k f7
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  sl_exec
  sl_step
  isplitr; · iexact Hmw
  isplitl [HS]; · iexact HS
  isplitl [HD]; · iexact HD
  isplitl [H6]; · iexists _; iexact H6
  isplitl [H7]; · iexists _; iexact H7
  isplitl [H8]; · iexists _; iexact H8
  isplitl [Hs1]; · iexact Hs1
  isplitl [Hs2]; · iexact Hs2
  iexists _; isplitr
  swap
  · iexact HO
  · ipureintro; intro p hp
    rcases Finset.mem_insert.mp hp with rfl | hp
    · exact .inr rfl
    rcases Finset.mem_insert.mp hp with rfl | hp
    · exact .inr rfl
    · exact hW' p hp

end Trip

end Tile0

end Cert.KernelIdeal.Run
-- ==== Proof.KTile0.lean ====
/-
  The first call's task on one vector subcore: the accumulator is zeroed by a copy of the zero vector, the loop of ten trips
  runs by its invariant, the accumulator is copied to the worker's row of the count array, and the task hands back what it
  was handed, the row at new contents. This is the launch theorem's obligation for the first call.
-/
import proofs.«207969_g80633716015134_cont_9to1_m_1245_11_alg».proof.Proof.KTile0Trip
import proofs.«207969_g80633716015134_cont_9to1_m_1245_11_alg».proof.Proof.Gen.KernelIdeal.Skeleton
import Idealize.ShloMosaic.Lib.SparseCore.Launch
import Idealize.ShloMosaic.Lib.SparseCore.Ops
import Idealize.ShloMosaic.Lib.Tactic

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 2) (Elt F) ℕ UU ℕ

namespace Tile0

section Body

variable [FloatOps F]
variable (fs : (d : Dev nD) → Buf (Elt F) (srcLoc d)) (fd : (d : Dev nD) → Buf (Elt F) (dstLoc d)) (fz : (d : Dev nD) → Buf (Elt F) (zeroLoc d))
variable (d : Dev nD) (L : grid0.Coords)

set_option sl_exec.dischHeartbeats 200000 in
/-- The task's body at a symbolic worker: from its read tokens, its row of the count array and the subcore's scoped
    storage, it runs to the same, the row at new contents, having recorded only waits at the kernels' index. -/
theorem tile_body (hF : (K (F := F)).Facts) (hR : ∀ (d : Dev nD) (j : (dstLoc d).ty.Idx), (fd d j).toNat < 10000)
    (O : CellTallies nD τ sig (HIx 2)) (W : Waits sig (HIx 2)) (hO : ∀ g, O g none = 0) :
    iprop(levAts (K (F := F)).L (K (F := F)).lev ∗ emp ∗ pay0 fs fd fz d (cL L) (iL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__deg_sc L aS (Memref.isWhole_whole _) aD (Memref.isWhole_whole _) aZ (Memref.isWhole_whole _) aC (Memref.isWhole_whole _)
            b6 (Memref.isWhole_whole _) b7 (Memref.isWhole_whole _) b8 (Memref.isWhole_whole _) cc0_scoped0 cc0_scoped1 cc0_scoped2 cc0_scoped3)
          fun _ => iprop(pay0 fs fd fz d (cL L) (iL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__deg_sc_eq_skeleton]; unfold cc0__deg_sc_skel
  rw [(K (F := F)).scopedBufs_V hF d (cV L) (jV L), SparseCore.Cfg.scopedSems0_V (Val := Elt F) d (cV L) (jV L), ownSems0_V, ownBufs_V]
  unfold pay0 reads
  iintro ⟨#Hlv, -, ⟨⟨HS, HD, HZ⟩, %g, HC⟩, ⟨⟨%f6, H6⟩, ⟨%f7, H7⟩, ⟨%f8, H8⟩, Hbufs⟩, ⟨Hs0, Hs1, Hs2, Hs3, Hsems⟩, HO⟩
  ihave Hmw := ((K (F := F)).mayWaits_none (thr := V d (cV L) (jV L)) hO) $$ Hlv
  ihave HS' := (Entails.of_eq (pts_aS (F := F) d L _ _).symm) $$ HS
  ihave HD' := (Entails.of_eq (pts_aD (F := F) d L _ _).symm) $$ HD
  ihave HZ' := (Entails.of_eq (pts_aZ (F := F) d L _ _).symm) $$ HZ
  ihave HC' := (Entails.of_eq (pts_cRowK (F := F) d L _).symm) $$ HC
  ihave H6' := (Entails.of_eq (pts_b6 (F := F) d L _).symm) $$ H6
  ihave H7' := (Entails.of_eq (pts_b7 (F := F) d L _).symm) $$ H7
  ihave H8' := (Entails.of_eq (pts_b8 (F := F) d L _).symm) $$ H8
  sl_exec
  sl_for (inv0 fs fd d L O W) $$ [Hmw HS' HD' H6' H7' H8' Hs1 Hs2 HO]
  case region =>
    intro k acc
    exact tile_trip fs fd d L hR O W _ k acc
  · unfold inv0
    isplitr; · iexact Hmw
    isplitl [HS']; · iexact HS'
    isplitl [HD']; · iexact HD'
    isplitl [H6']; · iexists _; iexact H6'
    isplitl [H7']; · iexists _; iexact H7'
    isplitl [H8']; · iexists _; iexact H8'
    isplitl [Hs1]; · iexact Hs1
    isplitl [Hs2]; · iexact Hs2
    iexists _; isplitr
    swap
    · iexact HO
    · ipureintro; intro p hp
      rcases Finset.mem_insert.mp hp with rfl | hp
      · exact .inr rfl
      · exact .inl hp
  iintro %_ HI
  unfold inv0
  icases HI with ⟨-, HS, HD, ⟨%f6', H6⟩, ⟨%f7', H7⟩, ⟨%f8', H8⟩, Hs1, Hs2, %W', %hW', HO⟩
  sl_exec
  sl_step
  isplitl [HS HD HZ' HC']
  · isplitl [HS HD HZ']
    · isplitl [HS]; · iexact HS
      isplitl [HD]; · iexact HD
      iexact HZ'
    · iexists _; iapply (Entails.of_eq (pts_cRowK (F := F) d L _)); iexact HC'
  isplitl [H6 H7 H8 Hbufs]
  · isplitl [H6]; · iexists _; iexact H6
    isplitl [H7]; · iexists _; iexact H7
    isplitl [H8]; · iexists _; iexact H8
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  swap
  · iexact HO
  · ipureintro; intro p hp
    rcases Finset.mem_insert.mp hp with rfl | hp
    · exact .inr rfl
    · exact hW' p hp

end Body

/-! ## The launch theorem's obligation -/

section Obl

variable [FloatOps F]
variable (fs : (d : Dev nD) → Buf (Elt F) (srcLoc d)) (fd : (d : Dev nD) → Buf (Elt F) (dstLoc d)) (fz : (d : Dev nD) → Buf (Elt F) (zeroLoc d))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__deg_sc (coordsV c s)
          aS (Memref.isWhole_whole _) aD (Memref.isWhole_whole _) aZ (Memref.isWhole_whole _) aC (Memref.isWhole_whole _)
          b6 (Memref.isWhole_whole _) b7 (Memref.isWhole_whole _) b8 (Memref.isWhole_whole _) cc0_scoped0 cc0_scoped1 cc0_scoped2 cc0_scoped3) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Obl

end Tile0

section Obl0

open Tile0

variable [FloatOps F]
variable (fs : (d : Dev nD) → Buf (Elt F) (srcLoc d)) (fd : (d : Dev nD) → Buf (Elt F) (dstLoc d)) (fz : (d : Dev nD) → Buf (Elt F) (zeroLoc d))

/-- The first call's task obligation: every worker's task terminates without fault and hands back what it was handed. -/
theorem tileObl0 (hR : ∀ (d : Dev nD) (j : (dstLoc d).ty.Idx), (fd d j).toNat < 10000) :
    (K (F := F)).TileObl (D (F := F)) 𝒱 (P fs fd fz) v₀ 0 := by
  intro d c i O W hO _ _
  simp only [show (P fs fd fz).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body fs fd fz d (coordsV ⟨_, hc.1⟩ ⟨_, hc.2⟩) facts hR O W hO).trans (wp_mono frame _ _ fun _ => obl_post)

end Obl0

end Cert.KernelIdeal.Run
-- ==== Proof.KTile1Setup.lean ====
import proofs.«207969_g80633716015134_cont_9to1_m_1245_11_alg».proof.Proof.KSetup
import proofs.«207969_g80633716015134_cont_9to1_m_1245_11_alg».proof.Proof.Gen.KernelIdeal.Skeleton
import Idealize.ShloMosaic.Lib.SparseCore.Launch
import Idealize.ShloMosaic.Lib.SparseCore.Ops
import Idealize.ShloMosaic.Lib.Tactic

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 2) (Elt F) ℕ UU ℕ

/-! ## The second call's task at a symbolic worker: names -/

namespace T1

/-- The SparseCore and the vector subcore of a grid point, and the same two as the payloads index them. -/
abbrev cV (L : grid2.Coords) : Fin τ.nSC := (L 0).castLE hcore2
abbrev jV (L : grid2.Coords) : Fin τ.nSub := (L 1).castLE hsub2
theorem bound_zero : grid2.bound 0 = 2 := rfl
theorem bound_one : grid2.bound 1 = 16 := rfl
abbrev cL (L : grid2.Coords) : Fin 2 := Fin.cast bound_zero (L 0)
abbrev iL (L : grid2.Coords) : Fin 16 := Fin.cast bound_one (L 1)

/-- The share of a whole array a worker reads. -/
abbrev qW (L : grid2.Coords) : PosShare TreeShare := shareTok (shareTok fullShare 2 (cL L)) 16 (iL L)

/-- The arrays and the scratch as the kernel is called with them. -/
abbrev aS : Memref sig .scVector .hbm S327680 .i32 := Memref.whole main_v5_scv
abbrev aD : Memref sig .scVector .hbm S327680 .i32 := Memref.whole main_v7_scv
abbrev aZ : Memref sig .scVector .hbm S10256 .f32 := Memref.whole main_v10_scv
abbrev aH : Memref sig .scVector .hbm S128x10240 .f32 := Memref.whole main_v16_1_scv
abbrev aG : Memref sig .scVector .hbm S128x10240 .f32 := Memref.whole main_v17_scv
abbrev b0 : Memref sig .scVector .vmem S1024 .i32 := Memref.whole cc2_scratch0
abbrev b1 : Memref sig .scVector .vmem S1024 .i32 := Memref.whole cc2_scratch1
abbrev b2 : Memref sig .scVector .vmem S1024 .i32 := Memref.whole cc2_scratch2
abbrev b3 : Memref sig .scVector .vmem S1024 .i32 := Memref.whole cc2_scratch3
abbrev b4 : Memref sig .scVector .vmem S10240 .f32 := Memref.whole cc2_scratch4
abbrev b5 : Memref sig .scVector .vmem S10240 .f32 := Memref.whole cc2_scratch5
abbrev b6 : Memref sig .scVector .vmem S10240 .f32 := Memref.whole cc2_scratch6
abbrev b7 : Memref sig .scVector .vmem S10240 .f32 := Memref.whole cc2_scratch7
abbrev b8 : Memref sig .scVector .vmem S10256 .f32 := Memref.whole cc2_scratch8
abbrev b9 : Memref sig .scVector .vmem S10256 .f32 := Memref.whole cc2_scratch9
abbrev b10 : Memref sig .scVector .vmem S10256 .f32 := Memref.whole cc2_scratch10
abbrev b11 : Memref sig .scVector .vmem S10256 .f32 := Memref.whole cc2_scratch11

/-- Row r of the worker's four rows of a 128-row array, as the kernel slices it. -/
abbrev rowK (L : grid2.Coords) (r : Fin 4) : Rect S128x10240 :=
  Rect.unit (s := S128x10240) (k2_off1 L (BitVec.ofNat 32 r.val)) S1x10240.size (k2_off1_inb L r)
abbrev hRowK (L : grid2.Coords) (r : Fin 4) : Memref sig .scVector .hbm S10240 .f32 :=
  ((aH : Memref sig .scVector .hbm S128x10240 .f32).slice (rowK L r) (fun _ => rfl)).squeeze S10240 squeezes_S1x10240_S10240
abbrev gRowK (L : grid2.Coords) (r : Fin 4) : Memref sig .scVector .hbm S10240 .f32 :=
  ((aG : Memref sig .scVector .hbm S128x10240 .f32).slice (rowK L r) (fun _ => rfl)).squeeze S10240 squeezes_S1x10240_S10240

/-- The row of the payload that the kernel's r-th row is. -/
abbrev colK (L : grid2.Coords) (r : Fin 4) : Rect S128x10240 :=
  colRow ⟨4 * wid (cL L).val (iL L).val + r.val, wid4_lt (cL L).isLt (iL L).isLt r⟩

theorem rowK_eq (L : grid2.Coords) (r : Fin 4) : rowK L r = colK L r := by
  unfold rowK colK colRow Rect.part Rect.block
  have hc : (L 0).val < 2 := (L 0).isLt
  have hi : (L 1).val < 16 := (L 1).isLt
  have hr := r.isLt
  congr 1 <;> funext a
  · rw [k2_off1_eq]
    match a with
    | 0 => simp [Shape.partIx, Shape.partSize, wid]; omega
    | 1 => simp [Shape.partIx, Shape.partSize]
  · match a with
    | 0 => simp [Shape.partSize]
    | 1 => simp [Shape.partSize]

theorem set_hRowK (L : grid2.Coords) (r : Fin 4) : (hRowK L r).view.set = (colK L r).set := by
  show (((aH : Memref sig .scVector .hbm S128x10240 .f32).view.slice (rowK L r)).reshape S10240 squeezes_S1x10240_S10240.numel_eq).set = _
  rw [View.set_reshape]
  show ((View.whole (main_v16_1_scv : Ref sig .scVector)).slice (rowK L r)).set = _
  rw [View.set_slice, rowK_eq]; exact Finset.map_refl

theorem set_gRowK (L : grid2.Coords) (r : Fin 4) : (gRowK L r).view.set = (colK L r).set := by
  show (((aG : Memref sig .scVector .hbm S128x10240 .f32).view.slice (rowK L r)).reshape S10240 squeezes_S1x10240_S10240.numel_eq).set = _
  rw [View.set_reshape]
  show ((View.whole (main_v17_scv : Ref sig .scVector)).slice (rowK L r)).set = _
  rw [View.set_slice, rowK_eq]; exact Finset.map_refl

end T1

namespace T1

section Names

variable [FloatOps F]

abbrev g0 (d : Dev nD) (c : Fin τ.nSC) (i : Fin τ.nSub) : GSem nD τ sig := (V d c i, .dma cc2_scratch12.sem)
abbrev g1 (d : Dev nD) (c : Fin τ.nSC) (i : Fin τ.nSub) : GSem nD τ sig := (V d c i, .dma cc2_scratch13.sem)
abbrev g2 (d : Dev nD) (c : Fin τ.nSC) (i : Fin τ.nSub) : GSem nD τ sig := (V d c i, .dma cc2_scratch14.sem)
abbrev g3 (d : Dev nD) (c : Fin τ.nSC) (i : Fin τ.nSub) : GSem nD τ sig := (V d c i, .dma cc2_scratch15.sem)
abbrev g4 (d : Dev nD) (c : Fin τ.nSC) (i : Fin τ.nSub) : GSem nD τ sig := (V d c i, .dma cc2_scoped0.sem)
abbrev g5 (d : Dev nD) (c : Fin τ.nSC) (i : Fin τ.nSub) : GSem nD τ sig := (V d c i, .dma cc2_scoped1.sem)
abbrev g6 (d : Dev nD) (c : Fin τ.nSC) (i : Fin τ.nSub) : GSem nD τ sig := (V d c i, .dma cc2_scoped2.sem)
abbrev g7 (d : Dev nD) (c : Fin τ.nSC) (i : Fin τ.nSub) : GSem nD τ sig := (V d c i, .dma cc2_scoped3.sem)
abbrev g8 (d : Dev nD) (c : Fin τ.nSC) (i : Fin τ.nSub) : GSem nD τ sig := (V d c i, .dma cc2_scoped4.sem)
abbrev g9 (d : Dev nD) (c : Fin τ.nSC) (i : Fin τ.nSub) : GSem nD τ sig := (V d c i, .dma cc2_scoped5.sem)
abbrev g10 (d : Dev nD) (c : Fin τ.nSC) (i : Fin τ.nSub) : GSem nD τ sig := (V d c i, .dma cc2_scoped6.sem)
abbrev g11 (d : Dev nD) (c : Fin τ.nSC) (i : Fin τ.nSub) : GSem nD τ sig := (V d c i, .dma cc2_scoped7.sem)
abbrev g12 (d : Dev nD) (c : Fin τ.nSC) (i : Fin τ.nSub) : GSem nD τ sig := (V d c i, .dma cc2_scoped8.sem)
abbrev g13 (d : Dev nD) (c : Fin τ.nSC) (i : Fin τ.nSub) : GSem nD τ sig := (V d c i, .dma cc2_scoped9.sem)
abbrev g14 (d : Dev nD) (c : Fin τ.nSC) (i : Fin τ.nSub) : GSem nD τ sig := (V d c i, .dma cc2_scoped10.sem)
abbrev g15 (d : Dev nD) (c : Fin τ.nSC) (i : Fin τ.nSub) : GSem nD τ sig := (V d c i, .dma cc2_scoped11.sem)

/-- The sixteen semaphores of the task's copies: two per slot of the pipeline, one per copy in and out. -/
def sl : Fin 16 → SemLoc sig
  | ⟨0, _⟩ => .dma cc2_scratch12.sem
  | ⟨1, _⟩ => .dma cc2_scratch13.sem
  | ⟨2, _⟩ => .dma cc2_scratch14.sem
  | ⟨3, _⟩ => .dma cc2_scratch15.sem
  | ⟨4, _⟩ => .dma cc2_scoped0.sem
  | ⟨5, _⟩ => .dma cc2_scoped1.sem
  | ⟨6, _⟩ => .dma cc2_scoped2.sem
  | ⟨7, _⟩ => .dma cc2_scoped3.sem
  | ⟨8, _⟩ => .dma cc2_scoped4.sem
  | ⟨9, _⟩ => .dma cc2_scoped5.sem
  | ⟨10, _⟩ => .dma cc2_scoped6.sem
  | ⟨11, _⟩ => .dma cc2_scoped7.sem
  | ⟨12, _⟩ => .dma cc2_scoped8.sem
  | ⟨13, _⟩ => .dma cc2_scoped9.sem
  | ⟨14, _⟩ => .dma cc2_scoped10.sem
  | ⟨15, _⟩ => .dma cc2_scoped11.sem
  | ⟨_ + 16, h⟩ => absurd h (by omega)

theorem sl_ne : ∀ a b : Fin 16, a ≠ b → sl a ≠ sl b := by decide
theorem sl_scoped : ∀ a : Fin 16, (sl a).isScoped .scVector = true := by decide

omit [FloatOps F] in
theorem cell_ne {thr : Thread nD τ} {s s' : SemLoc sig} (h : s ≠ s') : ((thr, s) : GSem nD τ sig) ≠ (thr, s') :=
  fun e => h (Prod.mk.inj e).2

omit [FloatOps F] in
theorem mem_own (d : Dev nD) (c : Fin τ.nSC) (i : Fin τ.nSub) (a : Fin 16) :
    ((V d c i, sl a) : GSem nD τ sig) ∈ ownCells (V d c i) := (mem_ownCells (g := ((V d c i, sl a) : GSem nD τ sig))).mpr ⟨rfl, sl_scoped a⟩

omit [FloatOps F] in
/-- The sixteen semaphores are among the subcore's own: they are them, each at zero, and the rest. -/
theorem ownSems0_V (d : Dev nD) (c : Fin τ.nSC) (i : Fin τ.nSub) :
    (ownSems0 (V d c i) : sProp 𝕄)
      = iprop(semVal (g0 d c i) 0 ∗ semVal (g1 d c i) 0 ∗ semVal (g2 d c i) 0 ∗ semVal (g3 d c i) 0 ∗ semVal (g4 d c i) 0 ∗ semVal (g5 d c i) 0 ∗ semVal (g6 d c i) 0 ∗ semVal (g7 d c i) 0 ∗ semVal (g8 d c i) 0 ∗ semVal (g9 d c i) 0 ∗ semVal (g10 d c i) 0 ∗ semVal (g11 d c i) 0 ∗ semVal (g12 d c i) 0 ∗ semVal (g13 d c i) 0 ∗ semVal (g14 d c i) 0 ∗ semVal (g15 d c i) 0
          ∗ bigSep (((((((((((((((((ownCells (V d c i)).erase (g0 d c i)).erase (g1 d c i)).erase (g2 d c i)).erase (g3 d c i)).erase (g4 d c i)).erase (g5 d c i)).erase (g6 d c i)).erase (g7 d c i)).erase (g8 d c i)).erase (g9 d c i)).erase (g10 d c i)).erase (g11 d c i)).erase (g12 d c i)).erase (g13 d c i)).erase (g14 d c i)).erase (g15 d c i)) fun g => semVal g 0) := by
  unfold SparseCore.Cfg.ownSems0
  rw [SparseCore.bigSep_erase' (mem_own d c i 0),
    SparseCore.bigSep_erase' (Finset.mem_erase.mpr ⟨cell_ne (sl_ne 1 0 (by decide)), (mem_own d c i 1)⟩),
    SparseCore.bigSep_erase' (Finset.mem_erase.mpr ⟨cell_ne (sl_ne 2 1 (by decide)), (Finset.mem_erase.mpr ⟨cell_ne (sl_ne 2 0 (by decide)), (mem_own d c i 2)⟩)⟩),
    SparseCore.bigSep_erase' (Finset.mem_erase.mpr ⟨cell_ne (sl_ne 3 2 (by decide)), (Finset.mem_erase.mpr ⟨cell_ne (sl_ne 3 1 (by decide)), (Finset.mem_erase.mpr ⟨cell_ne (sl_ne 3 0 (by decide)), (mem_own d c i 3)⟩)⟩)⟩),
    SparseCore.bigSep_erase' (Finset.mem_erase.mpr ⟨cell_ne (sl_ne 4 3 (by decide)), (Finset.mem_erase.mpr ⟨cell_ne (sl_ne 4 2 (by decide)), (Finset.mem_erase.mpr ⟨cell_ne (sl_ne 4 1 (by decide)), (Finset.mem_erase.mpr ⟨cell_ne (sl_ne 4 0 (by decide)), (mem_own d c i 4)⟩)⟩)⟩)⟩),
    SparseCore.bigSep_erase' (Finset.mem_erase.mpr ⟨cell_ne (sl_ne 5 4 (by decide)), (Finset.mem_erase.mpr ⟨cell_ne (sl_ne 5 3 (by decide)), (Finset.mem_erase.mpr ⟨cell_ne (sl_ne 5 2 (by decide)), (Finset.mem_erase.mpr ⟨cell_ne (sl_ne 5 1 (by decide)), (Finset.mem_erase.mpr ⟨cell_ne (sl_ne 5 0 (by decide)), (mem_own d c i 5)⟩)⟩)⟩)⟩)⟩),
    SparseCore.bigSep_erase' (Finset.mem_erase.mpr ⟨cell_ne (sl_ne 6 5 (by decide)), (Finset.mem_erase.mpr ⟨cell_ne (sl_ne 6 4 (by decide)), (Finset.mem_erase.mpr ⟨cell_ne (sl_ne 6 3 (by decide)), (Finset.mem_erase.mpr ⟨cell_ne (sl_ne 6 2 (by decide)), (Finset.mem_erase.mpr ⟨cell_ne (sl_ne 6 1 (by decide)), (Finset.mem_erase.mpr ⟨cell_ne (sl_ne 6 0 (by decide)), (mem_own d c i 6)⟩)⟩)⟩)⟩)⟩)⟩),
    SparseCore.bigSep_erase' (Finset.mem_erase.mpr ⟨cell_ne (sl_ne 7 6 (by decide)), (Finset.mem_erase.mpr ⟨cell_ne (sl_ne 7 5 (by decide)), (Finset.mem_erase.mpr ⟨cell_ne (sl_ne 7 4 (by decide)), (Finset.mem_erase.mpr ⟨cell_ne (sl_ne 7 3 (by decide)), (Finset.mem_erase.mpr ⟨cell_ne (sl_ne 7 2 (by decide)), (Finset.mem_erase.mpr ⟨cell_ne (sl_ne 7 1 (by decide)), (Finset.mem_erase.mpr ⟨cell_ne (sl_ne 7 0 (by decide)), (mem_own d c i 7)⟩)⟩)⟩)⟩)⟩)⟩)⟩),
    SparseCore.bigSep_erase' (Finset.mem_erase.mpr ⟨cell_ne (sl_ne 8 7 (by decide)), (Finset.mem_erase.mpr ⟨cell_ne (sl_ne 8 6 (by decide)), (Finset.mem_erase.mpr ⟨cell_ne (sl_ne 8 5 (by decide)), (Finset.mem_erase.mpr ⟨cell_ne (sl_ne 8 4 (by decide)), (Finset.mem_erase.mpr ⟨cell_ne (sl_ne 8 3 (by decide)), (Finset.mem_erase.mpr ⟨cell_ne (sl_ne 8 2 (by decide)), (Finset.mem_erase.mpr ⟨cell_ne (sl_ne 8 1 (by decide)), (Finset.mem_erase.mpr ⟨cell_ne (sl_ne 8 0 (by decide)), (mem_own d c i 8)⟩)⟩)⟩)⟩)⟩)⟩)⟩)⟩),
    SparseCore.bigSep_erase' (Finset.mem_erase.mpr ⟨cell_ne (sl_ne 9 8 (by decide)), (Finset.mem_erase.mpr ⟨cell_ne (sl_ne 9 7 (by decide)), (Finset.mem_erase.mpr ⟨cell_ne (sl_ne 9 6 (by decide)), (Finset.mem_erase.mpr ⟨cell_ne (sl_ne 9 5 (by decide)), (Finset.mem_erase.mpr ⟨cell_ne (sl_ne 9 4 (by decide)), (Finset.mem_erase.mpr ⟨cell_ne (sl_ne 9 3 (by decide)), (Finset.mem_erase.mpr ⟨cell_ne (sl_ne 9 2 (by decide)), (Finset.mem_erase.mpr ⟨cell_ne (sl_ne 9 1 (by decide)), (Finset.mem_erase.mpr ⟨cell_ne (sl_ne 9 0 (by decide)), (mem_own d c i 9)⟩)⟩)⟩)⟩)⟩)⟩)⟩)⟩)⟩),
    SparseCore.bigSep_erase' (Finset.mem_erase.mpr ⟨cell_ne (sl_ne 10 9 (by decide)), (Finset.mem_erase.mpr ⟨cell_ne (sl_ne 10 8 (by decide)), (Finset.mem_erase.mpr ⟨cell_ne (sl_ne 10 7 (by decide)), (Finset.mem_erase.mpr ⟨cell_ne (sl_ne 10 6 (by decide)), (Finset.mem_erase.mpr ⟨cell_ne (sl_ne 10 5 (by decide)), (Finset.mem_erase.mpr ⟨cell_ne (sl_ne 10 4 (by decide)), (Finset.mem_erase.mpr ⟨cell_ne (sl_ne 10 3 (by decide)), (Finset.mem_erase.mpr ⟨cell_ne (sl_ne 10 2 (by decide)), (Finset.mem_erase.mpr ⟨cell_ne (sl_ne 10 1 (by decide)), (Finset.mem_erase.mpr ⟨cell_ne (sl_ne 10 0 (by decide)), (mem_own d c i 10)⟩)⟩)⟩)⟩)⟩)⟩)⟩)⟩)⟩)⟩),
    SparseCore.bigSep_erase' (Finset.mem_erase.mpr ⟨cell_ne (sl_ne 11 10 (by decide)), (Finset.mem_erase.mpr ⟨cell_ne (sl_ne 11 9 (by decide)), (Finset.mem_erase.mpr ⟨cell_ne (sl_ne 11 8 (by decide)), (Finset.mem_erase.mpr ⟨cell_ne (sl_ne 11 7 (by decide)), (Finset.mem_erase.mpr ⟨cell_ne (sl_ne 11 6 (by decide)), (Finset.mem_erase.mpr ⟨cell_ne (sl_ne 11 5 (by decide)), (Finset.mem_erase.mpr ⟨cell_ne (sl_ne 11 4 (by decide)), (Finset.mem_erase.mpr ⟨cell_ne (sl_ne 11 3 (by decide)), (Finset.mem_erase.mpr ⟨cell_ne (sl_ne 11 2 (by decide)), (Finset.mem_erase.mpr ⟨cell_ne (sl_ne 11 1 (by decide)), (Finset.mem_erase.mpr ⟨cell_ne (sl_ne 11 0 (by decide)), (mem_own d c i 11)⟩)⟩)⟩)⟩)⟩)⟩)⟩)⟩)⟩)⟩)⟩),
    SparseCore.bigSep_erase' (Finset.mem_erase.mpr ⟨cell_ne (sl_ne 12 11 (by decide)), (Finset.mem_erase.mpr ⟨cell_ne (sl_ne 12 10 (by decide)), (Finset.mem_erase.mpr ⟨cell_ne (sl_ne 12 9 (by decide)), (Finset.mem_erase.mpr ⟨cell_ne (sl_ne 12 8 (by decide)), (Finset.mem_erase.mpr ⟨cell_ne (sl_ne 12 7 (by decide)), (Finset.mem_erase.mpr ⟨cell_ne (sl_ne 12 6 (by decide)), (Finset.mem_erase.mpr ⟨cell_ne (sl_ne 12 5 (by decide)), (Finset.mem_erase.mpr ⟨cell_ne (sl_ne 12 4 (by decide)), (Finset.mem_erase.mpr ⟨cell_ne (sl_ne 12 3 (by decide)), (Finset.mem_erase.mpr ⟨cell_ne (sl_ne 12 2 (by decide)), (Finset.mem_erase.mpr ⟨cell_ne (sl_ne 12 1 (by decide)), (Finset.mem_erase.mpr ⟨cell_ne (sl_ne 12 0 (by decide)), (mem_own d c i 12)⟩)⟩)⟩)⟩)⟩)⟩)⟩)⟩)⟩)⟩)⟩)⟩),
    SparseCore.bigSep_erase' (Finset.mem_erase.mpr ⟨cell_ne (sl_ne 13 12 (by decide)), (Finset.mem_erase.mpr ⟨cell_ne (sl_ne 13 11 (by decide)), (Finset.mem_erase.mpr ⟨cell_ne (sl_ne 13 10 (by decide)), (Finset.mem_erase.mpr ⟨cell_ne (sl_ne 13 9 (by decide)), (Finset.mem_erase.mpr ⟨cell_ne (sl_ne 13 8 (by decide)), (Finset.mem_erase.mpr ⟨cell_ne (sl_ne 13 7 (by decide)), (Finset.mem_erase.mpr ⟨cell_ne (sl_ne 13 6 (by decide)), (Finset.mem_erase.mpr ⟨cell_ne (sl_ne 13 5 (by decide)), (Finset.mem_erase.mpr ⟨cell_ne (sl_ne 13 4 (by decide)), (Finset.mem_erase.mpr ⟨cell_ne (sl_ne 13 3 (by decide)), (Finset.mem_erase.mpr ⟨cell_ne (sl_ne 13 2 (by decide)), (Finset.mem_erase.mpr ⟨cell_ne (sl_ne 13 1 (by decide)), (Finset.mem_erase.mpr ⟨cell_ne (sl_ne 13 0 (by decide)), (mem_own d c i 13)⟩)⟩)⟩)⟩)⟩)⟩)⟩)⟩)⟩)⟩)⟩)⟩)⟩),
    SparseCore.bigSep_erase' (Finset.mem_erase.mpr ⟨cell_ne (sl_ne 14 13 (by decide)), (Finset.mem_erase.mpr ⟨cell_ne (sl_ne 14 12 (by decide)), (Finset.mem_erase.mpr ⟨cell_ne (sl_ne 14 11 (by decide)), (Finset.mem_erase.mpr ⟨cell_ne (sl_ne 14 10 (by decide)), (Finset.mem_erase.mpr ⟨cell_ne (sl_ne 14 9 (by decide)), (Finset.mem_erase.mpr ⟨cell_ne (sl_ne 14 8 (by decide)), (Finset.mem_erase.mpr ⟨cell_ne (sl_ne 14 7 (by decide)), (Finset.mem_erase.mpr ⟨cell_ne (sl_ne 14 6 (by decide)), (Finset.mem_erase.mpr ⟨cell_ne (sl_ne 14 5 (by decide)), (Finset.mem_erase.mpr ⟨cell_ne (sl_ne 14 4 (by decide)), (Finset.mem_erase.mpr ⟨cell_ne (sl_ne 14 3 (by decide)), (Finset.mem_erase.mpr ⟨cell_ne (sl_ne 14 2 (by decide)), (Finset.mem_erase.mpr ⟨cell_ne (sl_ne 14 1 (by decide)), (Finset.mem_erase.mpr ⟨cell_ne (sl_ne 14 0 (by decide)), (mem_own d c i 14)⟩)⟩)⟩)⟩)⟩)⟩)⟩)⟩)⟩)⟩)⟩)⟩)⟩)⟩),
    SparseCore.bigSep_erase' (Finset.mem_erase.mpr ⟨cell_ne (sl_ne 15 14 (by decide)), (Finset.mem_erase.mpr ⟨cell_ne (sl_ne 15 13 (by decide)), (Finset.mem_erase.mpr ⟨cell_ne (sl_ne 15 12 (by decide)), (Finset.mem_erase.mpr ⟨cell_ne (sl_ne 15 11 (by decide)), (Finset.mem_erase.mpr ⟨cell_ne (sl_ne 15 10 (by decide)), (Finset.mem_erase.mpr ⟨cell_ne (sl_ne 15 9 (by decide)), (Finset.mem_erase.mpr ⟨cell_ne (sl_ne 15 8 (by decide)), (Finset.mem_erase.mpr ⟨cell_ne (sl_ne 15 7 (by decide)), (Finset.mem_erase.mpr ⟨cell_ne (sl_ne 15 6 (by decide)), (Finset.mem_erase.mpr ⟨cell_ne (sl_ne 15 5 (by decide)), (Finset.mem_erase.mpr ⟨cell_ne (sl_ne 15 4 (by decide)), (Finset.mem_erase.mpr ⟨cell_ne (sl_ne 15 3 (by decide)), (Finset.mem_erase.mpr ⟨cell_ne (sl_ne 15 2 (by decide)), (Finset.mem_erase.mpr ⟨cell_ne (sl_ne 15 1 (by decide)), (Finset.mem_erase.mpr ⟨cell_ne (sl_ne 15 0 (by decide)), (mem_own d c i 15)⟩)⟩)⟩)⟩)⟩)⟩)⟩)⟩)⟩)⟩)⟩)⟩)⟩)⟩)⟩)]
  rfl

omit [FloatOps F] in
/-- The twelve scratch buffers are among the subcore's own: they are them, at some contents, and the rest. -/
theorem ownBufs_V (d : Dev nD) (c : Fin τ.nSC) (i : Fin τ.nSub) :
    (ownBufs (V d c i) : sProp 𝕄)
      = iprop((∃ f, (V d c i).loc cc2_scratch0 ↦{fullShare} f)
          ∗ (∃ f, (V d c i).loc cc2_scratch1 ↦{fullShare} f)
          ∗ (∃ f, (V d c i).loc cc2_scratch2 ↦{fullShare} f)
          ∗ (∃ f, (V d c i).loc cc2_scratch3 ↦{fullShare} f)
          ∗ (∃ f, (V d c i).loc cc2_scratch4 ↦{fullShare} f)
          ∗ (∃ f, (V d c i).loc cc2_scratch5 ↦{fullShare} f)
          ∗ (∃ f, (V d c i).loc cc2_scratch6 ↦{fullShare} f)
          ∗ (∃ f, (V d c i).loc cc2_scratch7 ↦{fullShare} f)
          ∗ (∃ f, (V d c i).loc cc2_scratch8 ↦{fullShare} f)
          ∗ (∃ f, (V d c i).loc cc2_scratch9 ↦{fullShare} f)
          ∗ (∃ f, (V d c i).loc cc2_scratch10 ↦{fullShare} f)
          ∗ (∃ f, (V d c i).loc cc2_scratch11 ↦{fullShare} f)
          ∗ bigSep (((((((((((((ownRefs (τ := τ) (.scVector c i)).erase ((Proc.scVector c i).devRef cc2_scratch0)).erase ((Proc.scVector c i).devRef cc2_scratch1)).erase ((Proc.scVector c i).devRef cc2_scratch2)).erase ((Proc.scVector c i).devRef cc2_scratch3)).erase ((Proc.scVector c i).devRef cc2_scratch4)).erase ((Proc.scVector c i).devRef cc2_scratch5)).erase ((Proc.scVector c i).devRef cc2_scratch6)).erase ((Proc.scVector c i).devRef cc2_scratch7)).erase ((Proc.scVector c i).devRef cc2_scratch8)).erase ((Proc.scVector c i).devRef cc2_scratch9)).erase ((Proc.scVector c i).devRef cc2_scratch10)).erase ((Proc.scVector c i).devRef cc2_scratch11))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := (Proc.scVector c i).devRef cc2_scratch0) rfl)).trans ?_
  rw [SparseCore.bigSep_erase' (Finset.mem_erase.mpr ⟨fun e => absurd (Proc.devRef_injective _ e) (show (cc2_scratch1 : Ref sig .scVector) ≠ cc2_scratch0 by decide), (SparseCore.Cfg.mem_ownRefs_of_owner (p := Proc.scVector c i) (b := (Proc.scVector c i).devRef cc2_scratch1) rfl)⟩),
    SparseCore.bigSep_erase' (Finset.mem_erase.mpr ⟨fun e => absurd (Proc.devRef_injective _ e) (show (cc2_scratch2 : Ref sig .scVector) ≠ cc2_scratch1 by decide), (Finset.mem_erase.mpr ⟨fun e => absurd (Proc.devRef_injective _ e) (show (cc2_scratch2 : Ref sig .scVector) ≠ cc2_scratch0 by decide), (SparseCore.Cfg.mem_ownRefs_of_owner (p := Proc.scVector c i) (b := (Proc.scVector c i).devRef cc2_scratch2) rfl)⟩)⟩),
    SparseCore.bigSep_erase' (Finset.mem_erase.mpr ⟨fun e => absurd (Proc.devRef_injective _ e) (show (cc2_scratch3 : Ref sig .scVector) ≠ cc2_scratch2 by decide), (Finset.mem_erase.mpr ⟨fun e => absurd (Proc.devRef_injective _ e) (show (cc2_scratch3 : Ref sig .scVector) ≠ cc2_scratch1 by decide), (Finset.mem_erase.mpr ⟨fun e => absurd (Proc.devRef_injective _ e) (show (cc2_scratch3 : Ref sig .scVector) ≠ cc2_scratch0 by decide), (SparseCore.Cfg.mem_ownRefs_of_owner (p := Proc.scVector c i) (b := (Proc.scVector c i).devRef cc2_scratch3) rfl)⟩)⟩)⟩),
    SparseCore.bigSep_erase' (Finset.mem_erase.mpr ⟨fun e => absurd (Proc.devRef_injective _ e) (show (cc2_scratch4 : Ref sig .scVector) ≠ cc2_scratch3 by decide), (Finset.mem_erase.mpr ⟨fun e => absurd (Proc.devRef_injective _ e) (show (cc2_scratch4 : Ref sig .scVector) ≠ cc2_scratch2 by decide), (Finset.mem_erase.mpr ⟨fun e => absurd (Proc.devRef_injective _ e) (show (cc2_scratch4 : Ref sig .scVector) ≠ cc2_scratch1 by decide), (Finset.mem_erase.mpr ⟨fun e => absurd (Proc.devRef_injective _ e) (show (cc2_scratch4 : Ref sig .scVector) ≠ cc2_scratch0 by decide), (SparseCore.Cfg.mem_ownRefs_of_owner (p := Proc.scVector c i) (b := (Proc.scVector c i).devRef cc2_scratch4) rfl)⟩)⟩)⟩)⟩),
    SparseCore.bigSep_erase' (Finset.mem_erase.mpr ⟨fun e => absurd (Proc.devRef_injective _ e) (show (cc2_scratch5 : Ref sig .scVector) ≠ cc2_scratch4 by decide), (Finset.mem_erase.mpr ⟨fun e => absurd (Proc.devRef_injective _ e) (show (cc2_scratch5 : Ref sig .scVector) ≠ cc2_scratch3 by decide), (Finset.mem_erase.mpr ⟨fun e => absurd (Proc.devRef_injective _ e) (show (cc2_scratch5 : Ref sig .scVector) ≠ cc2_scratch2 by decide), (Finset.mem_erase.mpr ⟨fun e => absurd (Proc.devRef_injective _ e) (show (cc2_scratch5 : Ref sig .scVector) ≠ cc2_scratch1 by decide), (Finset.mem_erase.mpr ⟨fun e => absurd (Proc.devRef_injective _ e) (show (cc2_scratch5 : Ref sig .scVector) ≠ cc2_scratch0 by decide), (SparseCore.Cfg.mem_ownRefs_of_owner (p := Proc.scVector c i) (b := (Proc.scVector c i).devRef cc2_scratch5) rfl)⟩)⟩)⟩)⟩)⟩),
    SparseCore.bigSep_erase' (Finset.mem_erase.mpr ⟨fun e => absurd (Proc.devRef_injective _ e) (show (cc2_scratch6 : Ref sig .scVector) ≠ cc2_scratch5 by decide), (Finset.mem_erase.mpr ⟨fun e => absurd (Proc.devRef_injective _ e) (show (cc2_scratch6 : Ref sig .scVector) ≠ cc2_scratch4 by decide), (Finset.mem_erase.mpr ⟨fun e => absurd (Proc.devRef_injective _ e) (show (cc2_scratch6 : Ref sig .scVector) ≠ cc2_scratch3 by decide), (Finset.mem_erase.mpr ⟨fun e => absurd (Proc.devRef_injective _ e) (show (cc2_scratch6 : Ref sig .scVector) ≠ cc2_scratch2 by decide), (Finset.mem_erase.mpr ⟨fun e => absurd (Proc.devRef_injective _ e) (show (cc2_scratch6 : Ref sig .scVector) ≠ cc2_scratch1 by decide), (Finset.mem_erase.mpr ⟨fun e => absurd (Proc.devRef_injective _ e) (show (cc2_scratch6 : Ref sig .scVector) ≠ cc2_scratch0 by decide), (SparseCore.Cfg.mem_ownRefs_of_owner (p := Proc.scVector c i) (b := (Proc.scVector c i).devRef cc2_scratch6) rfl)⟩)⟩)⟩)⟩)⟩)⟩),
    SparseCore.bigSep_erase' (Finset.mem_erase.mpr ⟨fun e => absurd (Proc.devRef_injective _ e) (show (cc2_scratch7 : Ref sig .scVector) ≠ cc2_scratch6 by decide), (Finset.mem_erase.mpr ⟨fun e => absurd (Proc.devRef_injective _ e) (show (cc2_scratch7 : Ref sig .scVector) ≠ cc2_scratch5 by decide), (Finset.mem_erase.mpr ⟨fun e => absurd (Proc.devRef_injective _ e) (show (cc2_scratch7 : Ref sig .scVector) ≠ cc2_scratch4 by decide), (Finset.mem_erase.mpr ⟨fun e => absurd (Proc.devRef_injective _ e) (show (cc2_scratch7 : Ref sig .scVector) ≠ cc2_scratch3 by decide), (Finset.mem_erase.mpr ⟨fun e => absurd (Proc.devRef_injective _ e) (show (cc2_scratch7 : Ref sig .scVector) ≠ cc2_scratch2 by decide), (Finset.mem_erase.mpr ⟨fun e => absurd (Proc.devRef_injective _ e) (show (cc2_scratch7 : Ref sig .scVector) ≠ cc2_scratch1 by decide), (Finset.mem_erase.mpr ⟨fun e => absurd (Proc.devRef_injective _ e) (show (cc2_scratch7 : Ref sig .scVector) ≠ cc2_scratch0 by decide), (SparseCore.Cfg.mem_ownRefs_of_owner (p := Proc.scVector c i) (b := (Proc.scVector c i).devRef cc2_scratch7) rfl)⟩)⟩)⟩)⟩)⟩)⟩)⟩),
    SparseCore.bigSep_erase' (Finset.mem_erase.mpr ⟨fun e => absurd (Proc.devRef_injective _ e) (show (cc2_scratch8 : Ref sig .scVector) ≠ cc2_scratch7 by decide), (Finset.mem_erase.mpr ⟨fun e => absurd (Proc.devRef_injective _ e) (show (cc2_scratch8 : Ref sig .scVector) ≠ cc2_scratch6 by decide), (Finset.mem_erase.mpr ⟨fun e => absurd (Proc.devRef_injective _ e) (show (cc2_scratch8 : Ref sig .scVector) ≠ cc2_scratch5 by decide), (Finset.mem_erase.mpr ⟨fun e => absurd (Proc.devRef_injective _ e) (show (cc2_scratch8 : Ref sig .scVector) ≠ cc2_scratch4 by decide), (Finset.mem_erase.mpr ⟨fun e => absurd (Proc.devRef_injective _ e) (show (cc2_scratch8 : Ref sig .scVector) ≠ cc2_scratch3 by decide), (Finset.mem_erase.mpr ⟨fun e => absurd (Proc.devRef_injective _ e) (show (cc2_scratch8 : Ref sig .scVector) ≠ cc2_scratch2 by decide), (Finset.mem_erase.mpr ⟨fun e => absurd (Proc.devRef_injective _ e) (show (cc2_scratch8 : Ref sig .scVector) ≠ cc2_scratch1 by decide), (Finset.mem_erase.mpr ⟨fun e => absurd (Proc.devRef_injective _ e) (show (cc2_scratch8 : Ref sig .scVector) ≠ cc2_scratch0 by decide), (SparseCore.Cfg.mem_ownRefs_of_owner (p := Proc.scVector c i) (b := (Proc.scVector c i).devRef cc2_scratch8) rfl)⟩)⟩)⟩)⟩)⟩)⟩)⟩)⟩),
    SparseCore.bigSep_erase' (Finset.mem_erase.mpr ⟨fun e => absurd (Proc.devRef_injective _ e) (show (cc2_scratch9 : Ref sig .scVector) ≠ cc2_scratch8 by decide), (Finset.mem_erase.mpr ⟨fun e => absurd (Proc.devRef_injective _ e) (show (cc2_scratch9 : Ref sig .scVector) ≠ cc2_scratch7 by decide), (Finset.mem_erase.mpr ⟨fun e => absurd (Proc.devRef_injective _ e) (show (cc2_scratch9 : Ref sig .scVector) ≠ cc2_scratch6 by decide), (Finset.mem_erase.mpr ⟨fun e => absurd (Proc.devRef_injective _ e) (show (cc2_scratch9 : Ref sig .scVector) ≠ cc2_scratch5 by decide), (Finset.mem_erase.mpr ⟨fun e => absurd (Proc.devRef_injective _ e) (show (cc2_scratch9 : Ref sig .scVector) ≠ cc2_scratch4 by decide), (Finset.mem_erase.mpr ⟨fun e => absurd (Proc.devRef_injective _ e) (show (cc2_scratch9 : Ref sig .scVector) ≠ cc2_scratch3 by decide), (Finset.mem_erase.mpr ⟨fun e => absurd (Proc.devRef_injective _ e) (show (cc2_scratch9 : Ref sig .scVector) ≠ cc2_scratch2 by decide), (Finset.mem_erase.mpr ⟨fun e => absurd (Proc.devRef_injective _ e) (show (cc2_scratch9 : Ref sig .scVector) ≠ cc2_scratch1 by decide), (Finset.mem_erase.mpr ⟨fun e => absurd (Proc.devRef_injective _ e) (show (cc2_scratch9 : Ref sig .scVector) ≠ cc2_scratch0 by decide), (SparseCore.Cfg.mem_ownRefs_of_owner (p := Proc.scVector c i) (b := (Proc.scVector c i).devRef cc2_scratch9) rfl)⟩)⟩)⟩)⟩)⟩)⟩)⟩)⟩)⟩),
    SparseCore.bigSep_erase' (Finset.mem_erase.mpr ⟨fun e => absurd (Proc.devRef_injective _ e) (show (cc2_scratch10 : Ref sig .scVector) ≠ cc2_scratch9 by decide), (Finset.mem_erase.mpr ⟨fun e => absurd (Proc.devRef_injective _ e) (show (cc2_scratch10 : Ref sig .scVector) ≠ cc2_scratch8 by decide), (Finset.mem_erase.mpr ⟨fun e => absurd (Proc.devRef_injective _ e) (show (cc2_scratch10 : Ref sig .scVector) ≠ cc2_scratch7 by decide), (Finset.mem_erase.mpr ⟨fun e => absurd (Proc.devRef_injective _ e) (show (cc2_scratch10 : Ref sig .scVector) ≠ cc2_scratch6 by decide), (Finset.mem_erase.mpr ⟨fun e => absurd (Proc.devRef_injective _ e) (show (cc2_scratch10 : Ref sig .scVector) ≠ cc2_scratch5 by decide), (Finset.mem_erase.mpr ⟨fun e => absurd (Proc.devRef_injective _ e) (show (cc2_scratch10 : Ref sig .scVector) ≠ cc2_scratch4 by decide), (Finset.mem_erase.mpr ⟨fun e => absurd (Proc.devRef_injective _ e) (show (cc2_scratch10 : Ref sig .scVector) ≠ cc2_scratch3 by decide), (Finset.mem_erase.mpr ⟨fun e => absurd (Proc.devRef_injective _ e) (show (cc2_scratch10 : Ref sig .scVector) ≠ cc2_scratch2 by decide), (Finset.mem_erase.mpr ⟨fun e => absurd (Proc.devRef_injective _ e) (show (cc2_scratch10 : Ref sig .scVector) ≠ cc2_scratch1 by decide), (Finset.mem_erase.mpr ⟨fun e => absurd (Proc.devRef_injective _ e) (show (cc2_scratch10 : Ref sig .scVector) ≠ cc2_scratch0 by decide), (SparseCore.Cfg.mem_ownRefs_of_owner (p := Proc.scVector c i) (b := (Proc.scVector c i).devRef cc2_scratch10) rfl)⟩)⟩)⟩)⟩)⟩)⟩)⟩)⟩)⟩)⟩),
    SparseCore.bigSep_erase' (Finset.mem_erase.mpr ⟨fun e => absurd (Proc.devRef_injective _ e) (show (cc2_scratch11 : Ref sig .scVector) ≠ cc2_scratch10 by decide), (Finset.mem_erase.mpr ⟨fun e => absurd (Proc.devRef_injective _ e) (show (cc2_scratch11 : Ref sig .scVector) ≠ cc2_scratch9 by decide), (Finset.mem_erase.mpr ⟨fun e => absurd (Proc.devRef_injective _ e) (show (cc2_scratch11 : Ref sig .scVector) ≠ cc2_scratch8 by decide), (Finset.mem_erase.mpr ⟨fun e => absurd (Proc.devRef_injective _ e) (show (cc2_scratch11 : Ref sig .scVector) ≠ cc2_scratch7 by decide), (Finset.mem_erase.mpr ⟨fun e => absurd (Proc.devRef_injective _ e) (show (cc2_scratch11 : Ref sig .scVector) ≠ cc2_scratch6 by decide), (Finset.mem_erase.mpr ⟨fun e => absurd (Proc.devRef_injective _ e) (show (cc2_scratch11 : Ref sig .scVector) ≠ cc2_scratch5 by decide), (Finset.mem_erase.mpr ⟨fun e => absurd (Proc.devRef_injective _ e) (show (cc2_scratch11 : Ref sig .scVector) ≠ cc2_scratch4 by decide), (Finset.mem_erase.mpr ⟨fun e => absurd (Proc.devRef_injective _ e) (show (cc2_scratch11 : Ref sig .scVector) ≠ cc2_scratch3 by decide), (Finset.mem_erase.mpr ⟨fun e => absurd (Proc.devRef_injective _ e) (show (cc2_scratch11 : Ref sig .scVector) ≠ cc2_scratch2 by decide), (Finset.mem_erase.mpr ⟨fun e => absurd (Proc.devRef_injective _ e) (show (cc2_scratch11 : Ref sig .scVector) ≠ cc2_scratch1 by decide), (Finset.mem_erase.mpr ⟨fun e => absurd (Proc.devRef_injective _ e) (show (cc2_scratch11 : Ref sig .scVector) ≠ cc2_scratch0 by decide), (SparseCore.Cfg.mem_ownRefs_of_owner (p := Proc.scVector c i) (b := (Proc.scVector c i).devRef cc2_scratch11) rfl)⟩)⟩)⟩)⟩)⟩)⟩)⟩)⟩)⟩)⟩)⟩)]

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl

end Names

section Pts

variable [FloatOps F]
variable (d : Dev nD) (L : grid2.Coords)

/-- The arrays as a vector subcore's memrefs address them are the TensorCore's arrays. -/
theorem pts_aS (q : PosShare TreeShare) (f : Buf (Elt F) (srcLoc d)) :
    ((aS : Memref sig .scVector .hbm S327680 .i32).view.loc (V d (cV L) (jV L)) ↦{q} f : sProp 𝕄) = srcLoc d ↦{q} f := rfl
theorem pts_aD (q : PosShare TreeShare) (f : Buf (Elt F) (dstLoc d)) :
    ((aD : Memref sig .scVector .hbm S327680 .i32).view.loc (V d (cV L) (jV L)) ↦{q} f : sProp 𝕄) = dstLoc d ↦{q} f := rfl
theorem pts_aZ (q : PosShare TreeShare) (f : Buf (Elt F) (zeroLoc d)) :
    ((aZ : Memref sig .scVector .hbm S10256 .f32).view.loc (V d (cV L) (jV L)) ↦{q} f : sProp 𝕄) = zeroLoc d ↦{q} f := rfl
theorem pts_hRow (r : Fin 4) (f : Buf (Elt F) (htLoc d)) :
    ((hRowK L r).view.loc (V d (cV L) (jV L)) ↦[(hRowK L r).view.set]{fullShare} f : sProp 𝕄) = htLoc d ↦[(colK L r).set]{fullShare} f := by
  rw [set_hRowK]
theorem pts_gRow (r : Fin 4) (f : Buf (Elt F) (aggLoc d)) :
    ((gRowK L r).view.loc (V d (cV L) (jV L)) ↦[(gRowK L r).view.set]{fullShare} f : sProp 𝕄) = aggLoc d ↦[(colK L r).set]{fullShare} f := by
  rw [set_gRowK]
theorem pts_b0 (f : Buf (Elt F) ((V d (cV L) (jV L)).loc cc2_scratch0)) :
    ((b0 : Memref sig .scVector .vmem S1024 .i32).view.loc (V d (cV L) (jV L)) ↦{fullShare} f : sProp 𝕄) = (V d (cV L) (jV L)).loc cc2_scratch0 ↦{fullShare} f := rfl
theorem pts_b1 (f : Buf (Elt F) ((V d (cV L) (jV L)).loc cc2_scratch1)) :
    ((b1 : Memref sig .scVector .vmem S1024 .i32).view.loc (V d (cV L) (jV L)) ↦{fullShare} f : sProp 𝕄) = (V d (cV L) (jV L)).loc cc2_scratch1 ↦{fullShare} f := rfl
theorem pts_b2 (f : Buf (Elt F) ((V d (cV L) (jV L)).loc cc2_scratch2)) :
    ((b2 : Memref sig .scVector .vmem S1024 .i32).view.loc (V d (cV L) (jV L)) ↦{fullShare} f : sProp 𝕄) = (V d (cV L) (jV L)).loc cc2_scratch2 ↦{fullShare} f := rfl
theorem pts_b3 (f : Buf (Elt F) ((V d (cV L) (jV L)).loc cc2_scratch3)) :
    ((b3 : Memref sig .scVector .vmem S1024 .i32).view.loc (V d (cV L) (jV L)) ↦{fullShare} f : sProp 𝕄) = (V d (cV L) (jV L)).loc cc2_scratch3 ↦{fullShare} f := rfl
theorem pts_b4 (f : Buf (Elt F) ((V d (cV L) (jV L)).loc cc2_scratch4)) :
    ((b4 : Memref sig .scVector .vmem S10240 .f32).view.loc (V d (cV L) (jV L)) ↦{fullShare} f : sProp 𝕄) = (V d (cV L) (jV L)).loc cc2_scratch4 ↦{fullShare} f := rfl
theorem pts_b5 (f : Buf (Elt F) ((V d (cV L) (jV L)).loc cc2_scratch5)) :
    ((b5 : Memref sig .scVector .vmem S10240 .f32).view.loc (V d (cV L) (jV L)) ↦{fullShare} f : sProp 𝕄) = (V d (cV L) (jV L)).loc cc2_scratch5 ↦{fullShare} f := rfl
theorem pts_b6 (f : Buf (Elt F) ((V d (cV L) (jV L)).loc cc2_scratch6)) :
    ((b6 : Memref sig .scVector .vmem S10240 .f32).view.loc (V d (cV L) (jV L)) ↦{fullShare} f : sProp 𝕄) = (V d (cV L) (jV L)).loc cc2_scratch6 ↦{fullShare} f := rfl
theorem pts_b7 (f : Buf (Elt F) ((V d (cV L) (jV L)).loc cc2_scratch7)) :
    ((b7 : Memref sig .scVector .vmem S10240 .f32).view.loc (V d (cV L) (jV L)) ↦{fullShare} f : sProp 𝕄) = (V d (cV L) (jV L)).loc cc2_scratch7 ↦{fullShare} f := rfl
theorem pts_b8 (f : Buf (Elt F) ((V d (cV L) (jV L)).loc cc2_scratch8)) :
    ((b8 : Memref sig .scVector .vmem S10256 .f32).view.loc (V d (cV L) (jV L)) ↦{fullShare} f : sProp 𝕄) = (V d (cV L) (jV L)).loc cc2_scratch8 ↦{fullShare} f := rfl
theorem pts_b9 (f : Buf (Elt F) ((V d (cV L) (jV L)).loc cc2_scratch9)) :
    ((b9 : Memref sig .scVector .vmem S10256 .f32).view.loc (V d (cV L) (jV L)) ↦{fullShare} f : sProp 𝕄) = (V d (cV L) (jV L)).loc cc2_scratch9 ↦{fullShare} f := rfl
theorem pts_b10 (f : Buf (Elt F) ((V d (cV L) (jV L)).loc cc2_scratch10)) :
    ((b10 : Memref sig .scVector .vmem S10256 .f32).view.loc (V d (cV L) (jV L)) ↦{fullShare} f : sProp 𝕄) = (V d (cV L) (jV L)).loc cc2_scratch10 ↦{fullShare} f := rfl
theorem pts_b11 (f : Buf (Elt F) ((V d (cV L) (jV L)).loc cc2_scratch11)) :
    ((b11 : Memref sig .scVector .vmem S10256 .f32).view.loc (V d (cV L) (jV L)) ↦{fullShare} f : sProp 𝕄) = (V d (cV L) (jV L)).loc cc2_scratch11 ↦{fullShare} f := rfl

end Pts

section Body

variable [FloatOps F]
variable (fs : (d : Dev nD) → Buf (Elt F) (srcLoc d)) (fd : (d : Dev nD) → Buf (Elt F) (dstLoc d)) (fz : (d : Dev nD) → Buf (Elt F) (zeroLoc d))

/-- The task's body at a symbolic worker: from its read tokens, its four rows of the features and of the aggregate and
    the subcore's scoped storage, it runs to the same, the rows at new contents, having recorded only waits at the
    kernels' index. -/
def TileBody : Prop :=
  ∀ (d : Dev nD) (L : grid2.Coords) (O : CellTallies nD τ sig (HIx 2)) (W : Waits sig (HIx 2)), (∀ g, O g none = 0) →
    iprop(levAts (K (F := F)).L (K (F := F)).lev ∗ emp ∗ pay1 fs fd fz d (cL L) (iL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__agg_sc L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11)
          fun _ => iprop(pay1 fs fd fz d (cL L) (iL L) ∗ scopedBufs (V d (cV L) (jV L)) ∗ scopedSems0 (V d (cV L) (jV L))
            ∗ ∃ W', ⌜∀ p ∈ W', p ∈ W ∨ p.2 = none⌝ ∗ owes (V d (cV L) (jV L)) O W')

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2__agg_sc (coordsV c s)
          aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Body

end T1

/-! ## The launch theorem's obligation, from the body -/

section Obl

variable [FloatOps F]
variable (fs : (d : Dev nD) → Buf (Elt F) (srcLoc d)) (fd : (d : Dev nD) → Buf (Elt F) (dstLoc d)) (fz : (d : Dev nD) → Buf (Elt F) (zeroLoc d))

open T1 in
/-- The second call's task obligation, given its body at a symbolic worker. -/
theorem tileObl1_of_body (hb : T1.TileBody (F := F) fs fd fz) :
    (K (F := F)).TileObl (D (F := F)) 𝒱 (P fs fd fz) v₀ 1 := by
  intro d c i O W hO _ _
  simp only [show (P fs fd fz).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [T1.defs₀_vector]; simp only [SparseCore.onTile, hc, and_self, ↓reduceDIte]
  exact (hb d (T1.coordsV ⟨_, hc.1⟩ ⟨_, hc.2⟩) O W hO).trans (wp_mono frame _ _ fun _ => T1.obl_post)

end Obl

end Cert.KernelIdeal.Run
-- ==== Proof.KTile1Proc.lean ====
import proofs.«207969_g80633716015134_cont_9to1_m_1245_11_alg».proof.Proof.KTile1Setup

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 2) (Elt F) ℕ UU ℕ

namespace T1

section Lib

variable [FloatOps F]

omit [FloatOps F] in
/-- A transfer in flight that lent some elements of an array takes the rest of the array along: it then delivers the
    array whole. -/
theorem Flight_absorb {EC : UEmb Counters 𝕄} {c : Thread nD τ} {sm : SemLoc sig} {ι : HIx 2} {N : ℕ} {Pd : sProp 𝕄}
    {ℓ : Loc nD τ sig} {A : Finset (Idx ℓ)} {q : PosShare TreeShare} {f : Buf (Elt F) ℓ} :
    iprop(Flight EC c sm ι N iprop(Pd ∗ (ℓ ↦[A]{q} f)) ∗ (ℓ ↦[Finset.univ \ A]{q} f))
      ⊢ Flight EC c sm ι N iprop(Pd ∗ (ℓ ↦[Finset.univ]{q} f)) := by
  unfold Flight
  iintro ⟨⟨⟨%R, HR, %hcap, %hpeek⟩, Hcred⟩, Hrest⟩
  isplitr [Hcred]
  · iexists iprop(R ∗ (ℓ ↦[Finset.univ \ A]{q} f))
    isplitl [HR Hrest]
    · isplitl [HR]
      · iexact HR
      · iexact Hrest
    isplitl []
    · ipureintro
      intro K
      refine BIBase.Entails.trans ?_ (hcap K)
      iintro ⟨⟨HR, Hrest⟩, HK⟩
      isplitl [HR]
      · iexact HR
      iintro ⟨Hv, HPd, Hsl⟩
      iapply HK
      isplitl [Hv]
      · iexact Hv
      isplitl [HPd]
      · iexact HPd
      iapply (pointsTo_split_subset (Finset.subset_univ A)).2
      isplitl [Hsl]
      · iexact Hsl
      · iexact Hrest
    · ipureintro
      intro K
      refine BIBase.Entails.trans ?_ (hpeek K)
      iintro ⟨⟨HR, Hrest⟩, HK⟩
      isplitl [HR]
      · iexact HR
      iintro HR
      iapply HK
      isplitl [HR]
      · iexact HR
      · iexact Hrest
  · iexact Hcred

omit [FloatOps F] in
/-- An index vector whose words are below 10000 names rows of a 10240-row buffer. -/
theorem src_ok (v : IVec S16 32) (hv : ∀ x, (v x).toNat < 10000) :
    ∀ (a : Fin 1) (x : S16.Idx), ((![v] : Fin 1 → IVec S16 32) a x).toNat < S10240.size a := by
  intro a x
  obtain rfl : a = 0 := Subsingleton.elim _ _
  show (v x).toNat < 10240
  have := hv x; omega

omit [FloatOps F] in
/-- The scatter's index vector is in range of a 10256-row buffer whenever the destination indices are below 10000: a
    lane is the destination index or, where source and destination agree, 10240. -/
theorem dst_ok (s v : IVec S16 32) (hv : ∀ x, (v x).toNat < 10000) :
    ∀ (a : Fin 1) (x : S16.Idx), ((![select (cmpi .eq s v) (broadcast S16 10240#32) v] : Fin 1 → IVec S16 32) a x).toNat < S10256.size a := by
  intro a x
  obtain rfl : a = 0 := Subsingleton.elim _ _
  show (Scalar.select (cmpi .eq s v x) 10240#32 (v x)).toNat < 10256
  unfold Scalar.select; split
  · decide
  · have := hv x; omega

end Lib

section Proc

variable [FloatOps F]
variable (d : Dev nD) (L : grid2.Coords)

theorem wp_ld_b4 {α : Type} {Q : α → sProp 𝕄} (idxs : Fin S10240.rank → IVec S16 32)
    (h : ∀ a x, (idxs a x).toNat < S10240.size a) (hl : (b4 : Memref sig .scVector .vmem S10240 .f32).view.Loads)
    (k : Vec F S16 .f32 → Prog (TpuEff nD τ sig (Elt F) Λ₀ (.scVector (cV L) (jV L))) α)
    (f : Buf (Elt F) ((b4 : Memref sig .scVector .vmem S10240 .f32).view.loc (V d (cV L) (jV L)))) :
    ((b4 : Memref sig .scVector .vmem S10240 .f32).view.loc (V d (cV L) (jV L)) ↦{fullShare} f)
      ⊢ iprop((((b4 : Memref sig .scVector .vmem S10240 .f32).view.loc (V d (cV L) (jV L)) ↦{fullShare} f)
          -∗ wp frame (wpE (defs₀ (F := F)) 𝒱₀ (V d (cV L) (jV L)) none) Set.univ (k (loadIdx (((b4 : Memref sig .scVector .vmem S10240 .f32).access (.whole S10240)).read (Elt F) f) idxs h)) Q)
        -∗ wp frame (wpE (defs₀ (F := F)) 𝒱₀ (V d (cV L) (jV L)) none) Set.univ (SparseCore.vectorLoadIdx (b4 : Memref sig .scVector .vmem S10240 .f32) idxs h hl >>= k) Q) := by
  iintro H Hk
  iapply (SparseCore.wp_vectorLoadIdx (defs := defs₀ (F := F)) 𝒱₀ (V d (cV L) (jV L)) none Set.univ (base := (b4 : Memref sig .scVector .vmem S10240 .f32))
    (idxs := idxs) (h := h) (hl := hl) (k := k) (S := Finset.univ) (q := fullShare) (f := f) (Q := Q) (Finset.subset_univ _)) $$ [H]
  · iexact H
  iintro H
  iapply Hk
  iexact H

theorem wp_ld_b5 {α : Type} {Q : α → sProp 𝕄} (idxs : Fin S10240.rank → IVec S16 32)
    (h : ∀ a x, (idxs a x).toNat < S10240.size a) (hl : (b5 : Memref sig .scVector .vmem S10240 .f32).view.Loads)
    (k : Vec F S16 .f32 → Prog (TpuEff nD τ sig (Elt F) Λ₀ (.scVector (cV L) (jV L))) α)
    (f : Buf (Elt F) ((b5 : Memref sig .scVector .vmem S10240 .f32).view.loc (V d (cV L) (jV L)))) :
    ((b5 : Memref sig .scVector .vmem S10240 .f32).view.loc (V d (cV L) (jV L)) ↦{fullShare} f)
      ⊢ iprop((((b5 : Memref sig .scVector .vmem S10240 .f32).view.loc (V d (cV L) (jV L)) ↦{fullShare} f)
          -∗ wp frame (wpE (defs₀ (F := F)) 𝒱₀ (V d (cV L) (jV L)) none) Set.univ (k (loadIdx (((b5 : Memref sig .scVector .vmem S10240 .f32).access (.whole S10240)).read (Elt F) f) idxs h)) Q)
        -∗ wp frame (wpE (defs₀ (F := F)) 𝒱₀ (V d (cV L) (jV L)) none) Set.univ (SparseCore.vectorLoadIdx (b5 : Memref sig .scVector .vmem S10240 .f32) idxs h hl >>= k) Q) := by
  iintro H Hk
  iapply (SparseCore.wp_vectorLoadIdx (defs := defs₀ (F := F)) 𝒱₀ (V d (cV L) (jV L)) none Set.univ (base := (b5 : Memref sig .scVector .vmem S10240 .f32))
    (idxs := idxs) (h := h) (hl := hl) (k := k) (S := Finset.univ) (q := fullShare) (f := f) (Q := Q) (Finset.subset_univ _)) $$ [H]
  · iexact H
  iintro H
  iapply Hk
  iexact H

theorem wp_ld_b6 {α : Type} {Q : α → sProp 𝕄} (idxs : Fin S10240.rank → IVec S16 32)
    (h : ∀ a x, (idxs a x).toNat < S10240.size a) (hl : (b6 : Memref sig .scVector .vmem S10240 .f32).view.Loads)
    (k : Vec F S16 .f32 → Prog (TpuEff nD τ sig (Elt F) Λ₀ (.scVector (cV L) (jV L))) α)
    (f : Buf (Elt F) ((b6 : Memref sig .scVector .vmem S10240 .f32).view.loc (V d (cV L) (jV L)))) :
    ((b6 : Memref sig .scVector .vmem S10240 .f32).view.loc (V d (cV L) (jV L)) ↦{fullShare} f)
      ⊢ iprop((((b6 : Memref sig .scVector .vmem S10240 .f32).view.loc (V d (cV L) (jV L)) ↦{fullShare} f)
          -∗ wp frame (wpE (defs₀ (F := F)) 𝒱₀ (V d (cV L) (jV L)) none) Set.univ (k (loadIdx (((b6 : Memref sig .scVector .vmem S10240 .f32).access (.whole S10240)).read (Elt F) f) idxs h)) Q)
        -∗ wp frame (wpE (defs₀ (F := F)) 𝒱₀ (V d (cV L) (jV L)) none) Set.univ (SparseCore.vectorLoadIdx (b6 : Memref sig .scVector .vmem S10240 .f32) idxs h hl >>= k) Q) := by
  iintro H Hk
  iapply (SparseCore.wp_vectorLoadIdx (defs := defs₀ (F := F)) 𝒱₀ (V d (cV L) (jV L)) none Set.univ (base := (b6 : Memref sig .scVector .vmem S10240 .f32))
    (idxs := idxs) (h := h) (hl := hl) (k := k) (S := Finset.univ) (q := fullShare) (f := f) (Q := Q) (Finset.subset_univ _)) $$ [H]
  · iexact H
  iintro H
  iapply Hk
  iexact H

theorem wp_ld_b7 {α : Type} {Q : α → sProp 𝕄} (idxs : Fin S10240.rank → IVec S16 32)
    (h : ∀ a x, (idxs a x).toNat < S10240.size a) (hl : (b7 : Memref sig .scVector .vmem S10240 .f32).view.Loads)
    (k : Vec F S16 .f32 → Prog (TpuEff nD τ sig (Elt F) Λ₀ (.scVector (cV L) (jV L))) α)
    (f : Buf (Elt F) ((b7 : Memref sig .scVector .vmem S10240 .f32).view.loc (V d (cV L) (jV L)))) :
    ((b7 : Memref sig .scVector .vmem S10240 .f32).view.loc (V d (cV L) (jV L)) ↦{fullShare} f)
      ⊢ iprop((((b7 : Memref sig .scVector .vmem S10240 .f32).view.loc (V d (cV L) (jV L)) ↦{fullShare} f)
          -∗ wp frame (wpE (defs₀ (F := F)) 𝒱₀ (V d (cV L) (jV L)) none) Set.univ (k (loadIdx (((b7 : Memref sig .scVector .vmem S10240 .f32).access (.whole S10240)).read (Elt F) f) idxs h)) Q)
        -∗ wp frame (wpE (defs₀ (F := F)) 𝒱₀ (V d (cV L) (jV L)) none) Set.univ (SparseCore.vectorLoadIdx (b7 : Memref sig .scVector .vmem S10240 .f32) idxs h hl >>= k) Q) := by
  iintro H Hk
  iapply (SparseCore.wp_vectorLoadIdx (defs := defs₀ (F := F)) 𝒱₀ (V d (cV L) (jV L)) none Set.univ (base := (b7 : Memref sig .scVector .vmem S10240 .f32))
    (idxs := idxs) (h := h) (hl := hl) (k := k) (S := Finset.univ) (q := fullShare) (f := f) (Q := Q) (Finset.subset_univ _)) $$ [H]
  · iexact H
  iintro H
  iapply Hk
  iexact H

theorem wp_st_b8 {α : Type} {Q : α → sProp 𝕄} (idxs : Fin S10256.rank → IVec S16 32) (v : Vec F S16 .f32) (mask : IVec S16 1) (add : Bool)
    (h : ∀ a x, (idxs a x).toNat < S10256.size a) (hs : ((b8 : Memref sig .scVector .vmem S10256 .f32).access (.whole S10256)).Stores Finset.univ)
    (k : PUnit → Prog (TpuEff nD τ sig (Elt F) Λ₀ (.scVector (cV L) (jV L))) α) :
    iprop(∃ f, (b8 : Memref sig .scVector .vmem S10256 .f32).view.loc (V d (cV L) (jV L)) ↦{fullShare} f)
      ⊢ iprop(((∃ f, (b8 : Memref sig .scVector .vmem S10256 .f32).view.loc (V d (cV L) (jV L)) ↦{fullShare} f)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (b8 : Memref sig .scVector .vmem S10256 .f32) idxs v mask add h hs >>= k) Q) := by
  iintro ⟨%f, H⟩ Hk
  have e : (((b8 : Memref sig .scVector .vmem S10256 .f32).access (.whole S10256)).set) = Finset.univ := Memref.set_access_whole _
  iapply (SparseCore.wp_vectorStoreIdx (defs := defs₀ (F := F)) 𝒱₀ (V d (cV L) (jV L)) none Set.univ (base := (b8 : Memref sig .scVector .vmem S10256 .f32))
    (idxs := idxs) (v := v) (mask := mask) (add := add) (h := h) (hs := hs) (k := k) (f := f) (Q := Q)) $$ [H]
  · rw [e]; iexact H
  iintro H
  iapply Hk
  iexists _
  rw [e]; iexact H

theorem wp_st_b9 {α : Type} {Q : α → sProp 𝕄} (idxs : Fin S10256.rank → IVec S16 32) (v : Vec F S16 .f32) (mask : IVec S16 1) (add : Bool)
    (h : ∀ a x, (idxs a x).toNat < S10256.size a) (hs : ((b9 : Memref sig .scVector .vmem S10256 .f32).access (.whole S10256)).Stores Finset.univ)
    (k : PUnit → Prog (TpuEff nD τ sig (Elt F) Λ₀ (.scVector (cV L) (jV L))) α) :
    iprop(∃ f, (b9 : Memref sig .scVector .vmem S10256 .f32).view.loc (V d (cV L) (jV L)) ↦{fullShare} f)
      ⊢ iprop(((∃ f, (b9 : Memref sig .scVector .vmem S10256 .f32).view.loc (V d (cV L) (jV L)) ↦{fullShare} f)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (b9 : Memref sig .scVector .vmem S10256 .f32) idxs v mask add h hs >>= k) Q) := by
  iintro ⟨%f, H⟩ Hk
  have e : (((b9 : Memref sig .scVector .vmem S10256 .f32).access (.whole S10256)).set) = Finset.univ := Memref.set_access_whole _
  iapply (SparseCore.wp_vectorStoreIdx (defs := defs₀ (F := F)) 𝒱₀ (V d (cV L) (jV L)) none Set.univ (base := (b9 : Memref sig .scVector .vmem S10256 .f32))
    (idxs := idxs) (v := v) (mask := mask) (add := add) (h := h) (hs := hs) (k := k) (f := f) (Q := Q)) $$ [H]
  · rw [e]; iexact H
  iintro H
  iapply Hk
  iexists _
  rw [e]; iexact H

theorem wp_st_b10 {α : Type} {Q : α → sProp 𝕄} (idxs : Fin S10256.rank → IVec S16 32) (v : Vec F S16 .f32) (mask : IVec S16 1) (add : Bool)
    (h : ∀ a x, (idxs a x).toNat < S10256.size a) (hs : ((b10 : Memref sig .scVector .vmem S10256 .f32).access (.whole S10256)).Stores Finset.univ)
    (k : PUnit → Prog (TpuEff nD τ sig (Elt F) Λ₀ (.scVector (cV L) (jV L))) α) :
    iprop(∃ f, (b10 : Memref sig .scVector .vmem S10256 .f32).view.loc (V d (cV L) (jV L)) ↦{fullShare} f)
      ⊢ iprop(((∃ f, (b10 : Memref sig .scVector .vmem S10256 .f32).view.loc (V d (cV L) (jV L)) ↦{fullShare} f)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (b10 : Memref sig .scVector .vmem S10256 .f32) idxs v mask add h hs >>= k) Q) := by
  iintro ⟨%f, H⟩ Hk
  have e : (((b10 : Memref sig .scVector .vmem S10256 .f32).access (.whole S10256)).set) = Finset.univ := Memref.set_access_whole _
  iapply (SparseCore.wp_vectorStoreIdx (defs := defs₀ (F := F)) 𝒱₀ (V d (cV L) (jV L)) none Set.univ (base := (b10 : Memref sig .scVector .vmem S10256 .f32))
    (idxs := idxs) (v := v) (mask := mask) (add := add) (h := h) (hs := hs) (k := k) (f := f) (Q := Q)) $$ [H]
  · rw [e]; iexact H
  iintro H
  iapply Hk
  iexists _
  rw [e]; iexact H

theorem wp_st_b11 {α : Type} {Q : α → sProp 𝕄} (idxs : Fin S10256.rank → IVec S16 32) (v : Vec F S16 .f32) (mask : IVec S16 1) (add : Bool)
    (h : ∀ a x, (idxs a x).toNat < S10256.size a) (hs : ((b11 : Memref sig .scVector .vmem S10256 .f32).access (.whole S10256)).Stores Finset.univ)
    (k : PUnit → Prog (TpuEff nD τ sig (Elt F) Λ₀ (.scVector (cV L) (jV L))) α) :
    iprop(∃ f, (b11 : Memref sig .scVector .vmem S10256 .f32).view.loc (V d (cV L) (jV L)) ↦{fullShare} f)
      ⊢ iprop(((∃ f, (b11 : Memref sig .scVector .vmem S10256 .f32).view.loc (V d (cV L) (jV L)) ↦{fullShare} f)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (b11 : Memref sig .scVector .vmem S10256 .f32) idxs v mask add h hs >>= k) Q) := by
  iintro ⟨%f, H⟩ Hk
  have e : (((b11 : Memref sig .scVector .vmem S10256 .f32).access (.whole S10256)).set) = Finset.univ := Memref.set_access_whole _
  iapply (SparseCore.wp_vectorStoreIdx (defs := defs₀ (F := F)) 𝒱₀ (V d (cV L) (jV L)) none Set.univ (base := (b11 : Memref sig .scVector .vmem S10256 .f32))
    (idxs := idxs) (v := v) (mask := mask) (add := add) (h := h) (hs := hs) (k := k) (f := f) (Q := Q)) $$ [H]
  · rw [e]; iexact H
  iintro H
  iapply Hk
  iexists _
  rw [e]; iexact H

theorem chkS_t2 (f : Buf (Elt F) ((b0 : Memref sig .scVector .vmem S1024 .i32).view.loc (V d (cV L) (jV L)))) (hb : ∀ j, (f j).toNat < 10000)
    (o : Fin 1 → Nat) (h : ∀ a, o a + S16.size a ≤ S1024.size a) :
    k2_chk1 (View.readAt (Elt F) (b0 : Memref sig .scVector .vmem S1024 .i32).view (Rect.unit (s := S1024) o S16.size h).toLoadRect f) :=
  ⟨src_ok _ (fun _ => hb _), src_ok _ (fun _ => hb _), src_ok _ (fun _ => hb _), src_ok _ (fun _ => hb _)⟩

theorem chkD_t2 (s : IVec S16 32) (f : Buf (Elt F) ((b2 : Memref sig .scVector .vmem S1024 .i32).view.loc (V d (cV L) (jV L)))) (hb : ∀ j, (f j).toNat < 10000)
    (o : Fin 1 → Nat) (h : ∀ a, o a + S16.size a ≤ S1024.size a) :
    k2_chk2 (k2_pay1 (F := F) s (View.readAt (Elt F) (b2 : Memref sig .scVector .vmem S1024 .i32).view (Rect.unit (s := S1024) o S16.size h).toLoadRect f)) :=
  ⟨dst_ok _ _ (fun _ => hb _), dst_ok _ _ (fun _ => hb _), dst_ok _ _ (fun _ => hb _), dst_ok _ _ (fun _ => hb _)⟩

theorem chkS_t3 (f : Buf (Elt F) ((b1 : Memref sig .scVector .vmem S1024 .i32).view.loc (V d (cV L) (jV L)))) (hb : ∀ j, (f j).toNat < 10000)
    (o : Fin 1 → Nat) (h : ∀ a, o a + S16.size a ≤ S1024.size a) :
    k2_chk3 (View.readAt (Elt F) (b1 : Memref sig .scVector .vmem S1024 .i32).view (Rect.unit (s := S1024) o S16.size h).toLoadRect f) :=
  ⟨src_ok _ (fun _ => hb _), src_ok _ (fun _ => hb _), src_ok _ (fun _ => hb _), src_ok _ (fun _ => hb _)⟩

theorem chkD_t3 (s : IVec S16 32) (f : Buf (Elt F) ((b3 : Memref sig .scVector .vmem S1024 .i32).view.loc (V d (cV L) (jV L)))) (hb : ∀ j, (f j).toNat < 10000)
    (o : Fin 1 → Nat) (h : ∀ a, o a + S16.size a ≤ S1024.size a) :
    k2_chk4 (k2_pay2 (F := F) s (View.readAt (Elt F) (b3 : Memref sig .scVector .vmem S1024 .i32).view (Rect.unit (s := S1024) o S16.size h).toLoadRect f)) :=
  ⟨dst_ok _ _ (fun _ => hb _), dst_ok _ _ (fun _ => hb _), dst_ok _ _ (fun _ => hb _), dst_ok _ _ (fun _ => hb _)⟩

theorem chkS_t4 (f : Buf (Elt F) ((b0 : Memref sig .scVector .vmem S1024 .i32).view.loc (V d (cV L) (jV L)))) (hb : ∀ j, (f j).toNat < 10000)
    (o : Fin 1 → Nat) (h : ∀ a, o a + S16.size a ≤ S1024.size a) :
    k2_chk5 (View.readAt (Elt F) (b0 : Memref sig .scVector .vmem S1024 .i32).view (Rect.unit (s := S1024) o S16.size h).toLoadRect f) :=
  ⟨src_ok _ (fun _ => hb _), src_ok _ (fun _ => hb _), src_ok _ (fun _ => hb _), src_ok _ (fun _ => hb _)⟩

theorem chkD_t4 (s : IVec S16 32) (f : Buf (Elt F) ((b2 : Memref sig .scVector .vmem S1024 .i32).view.loc (V d (cV L) (jV L)))) (hb : ∀ j, (f j).toNat < 10000)
    (o : Fin 1 → Nat) (h : ∀ a, o a + S16.size a ≤ S1024.size a) :
    k2_chk6 (k2_pay3 (F := F) s (View.readAt (Elt F) (b2 : Memref sig .scVector .vmem S1024 .i32).view (Rect.unit (s := S1024) o S16.size h).toLoadRect f)) :=
  ⟨dst_ok _ _ (fun _ => hb _), dst_ok _ _ (fun _ => hb _), dst_ok _ _ (fun _ => hb _), dst_ok _ _ (fun _ => hb _)⟩

theorem chkS_t5 (f : Buf (Elt F) ((b1 : Memref sig .scVector .vmem S1024 .i32).view.loc (V d (cV L) (jV L)))) (hb : ∀ j, (f j).toNat < 10000)
    (o : Fin 1 → Nat) (h : ∀ a, o a + S16.size a ≤ S1024.size a) :
    k2_chk7 (View.readAt (Elt F) (b1 : Memref sig .scVector .vmem S1024 .i32).view (Rect.unit (s := S1024) o S16.size h).toLoadRect f) :=
  ⟨src_ok _ (fun _ => hb _), src_ok _ (fun _ => hb _), src_ok _ (fun _ => hb _), src_ok _ (fun _ => hb _)⟩

theorem chkD_t5 (s : IVec S16 32) (f : Buf (Elt F) ((b3 : Memref sig .scVector .vmem S1024 .i32).view.loc (V d (cV L) (jV L)))) (hb : ∀ j, (f j).toNat < 10000)
    (o : Fin 1 → Nat) (h : ∀ a, o a + S16.size a ≤ S1024.size a) :
    k2_chk8 (k2_pay4 (F := F) s (View.readAt (Elt F) (b3 : Memref sig .scVector .vmem S1024 .i32).view (Rect.unit (s := S1024) o S16.size h).toLoadRect f)) :=
  ⟨dst_ok _ _ (fun _ => hb _), dst_ok _ _ (fun _ => hb _), dst_ok _ _ (fun _ => hb _), dst_ok _ _ (fun _ => hb _)⟩

/-- What a round of a slot's processing starts and ends with: the slot's two index buffers (every word below 10000),
    the four feature rows, and the four accumulators at whatever they hold. -/
def procInv (mS mD : Memref sig .scVector .vmem S1024 .i32)
    (fS : Buf (Elt F) (mS.view.loc (V d (cV L) (jV L)))) (fD : Buf (Elt F) (mD.view.loc (V d (cV L) (jV L))))
    (h4 : Buf (Elt F) ((b4 : Memref sig .scVector .vmem S10240 .f32).view.loc (V d (cV L) (jV L)))) (h5 : Buf (Elt F) ((b5 : Memref sig .scVector .vmem S10240 .f32).view.loc (V d (cV L) (jV L))))
    (h6 : Buf (Elt F) ((b6 : Memref sig .scVector .vmem S10240 .f32).view.loc (V d (cV L) (jV L)))) (h7 : Buf (Elt F) ((b7 : Memref sig .scVector .vmem S10240 .f32).view.loc (V d (cV L) (jV L))))
    (_ : Nat) (_ : Unit) : sProp 𝕄 :=
  iprop((mS.view.loc (V d (cV L) (jV L)) ↦{fullShare} fS) ∗ (mD.view.loc (V d (cV L) (jV L)) ↦{fullShare} fD)
    ∗ ((b4 : Memref sig .scVector .vmem S10240 .f32).view.loc (V d (cV L) (jV L)) ↦{fullShare} h4) ∗ ((b5 : Memref sig .scVector .vmem S10240 .f32).view.loc (V d (cV L) (jV L)) ↦{fullShare} h5)
    ∗ ((b6 : Memref sig .scVector .vmem S10240 .f32).view.loc (V d (cV L) (jV L)) ↦{fullShare} h6) ∗ ((b7 : Memref sig .scVector .vmem S10240 .f32).view.loc (V d (cV L) (jV L)) ↦{fullShare} h7)
    ∗ (∃ f, (b8 : Memref sig .scVector .vmem S10256 .f32).view.loc (V d (cV L) (jV L)) ↦{fullShare} f) ∗ (∃ f, (b9 : Memref sig .scVector .vmem S10256 .f32).view.loc (V d (cV L) (jV L)) ↦{fullShare} f)
    ∗ (∃ f, (b10 : Memref sig .scVector .vmem S10256 .f32).view.loc (V d (cV L) (jV L)) ↦{fullShare} f) ∗ ∃ f, (b11 : Memref sig .scVector .vmem S10256 .f32).view.loc (V d (cV L) (jV L)) ↦{fullShare} f)

set_option sl_exec.dischHeartbeats 200000 in
set_option maxHeartbeats 4000000 in
/-- One round of a slot's processing: sixteen source and destination indices read, and for each of the four feature
    rows the indexed load and the indexed accumulating store, every index in range. -/
theorem proc_trip_t2 (fS : Buf (Elt F) ((b0 : Memref sig .scVector .vmem S1024 .i32).view.loc (V d (cV L) (jV L)))) (fD : Buf (Elt F) ((b2 : Memref sig .scVector .vmem S1024 .i32).view.loc (V d (cV L) (jV L))))
    (hbS : ∀ j, (fS j).toNat < 10000) (hbD : ∀ j, (fD j).toNat < 10000)
    (h4 : Buf (Elt F) ((b4 : Memref sig .scVector .vmem S10240 .f32).view.loc (V d (cV L) (jV L)))) (h5 : Buf (Elt F) ((b5 : Memref sig .scVector .vmem S10240 .f32).view.loc (V d (cV L) (jV L))))
    (h6 : Buf (Elt F) ((b6 : Memref sig .scVector .vmem S10240 .f32).view.loc (V d (cV L) (jV L)))) (h7 : Buf (Elt F) ((b7 : Memref sig .scVector .vmem S10240 .f32).view.loc (V d (cV L) (jV L))))
    (c0 c1 : BitVec 32) (g : Fin k2_t1_loop.trips) (k : Fin k2_t2_loop.trips) (acc : Unit) :
    procInv (F := F) d L b0 b2 fS fD h4 h5 h6 h7 k.val acc
      ⊢ wp frame (wpE (defs₀ (F := F)) 𝒱₀ (V d (cV L) (jV L)) none) Set.univ
          (k2_t2_body L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 c0 c1 g k acc)
          (procInv (F := F) d L b0 b2 fS fD h4 h5 h6 h7 (k.val + 1)) := by
  unfold k2_t2_body
  unfold procInv
  iintro ⟨HmS, HmD, H4, H5, H6, H7, H8, H9, H10, H11⟩
  sl_exec (disch := first | sl_exact (chkS_t2 (F := F) d L _ hbS _ _) | sl_exact (chkD_t2 (F := F) d L _ _ hbD _ _))
  iapply (wp_ld_b4 (F := F) d L _ _ _ _ _) $$ [H4]
  · iexact H4
  iintro H4
  iapply (wp_st_b8 (F := F) d L _ _ _ _ _ _ _) $$ [H8]
  · iexact H8
  iintro H8
  iapply (wp_ld_b5 (F := F) d L _ _ _ _ _) $$ [H5]
  · iexact H5
  iintro H5
  iapply (wp_st_b9 (F := F) d L _ _ _ _ _ _ _) $$ [H9]
  · iexact H9
  iintro H9
  iapply (wp_ld_b6 (F := F) d L _ _ _ _ _) $$ [H6]
  · iexact H6
  iintro H6
  iapply (wp_st_b10 (F := F) d L _ _ _ _ _ _ _) $$ [H10]
  · iexact H10
  iintro H10
  iapply (wp_ld_b7 (F := F) d L _ _ _ _ _) $$ [H7]
  · iexact H7
  iintro H7
  iapply (wp_st_b11 (F := F) d L _ _ _ _ _ _ _) $$ [H11]
  · iexact H11
  iintro H11
  sl_exec
  sl_step
  isplitl [HmS]; · iexact HmS
  isplitl [HmD]; · iexact HmD
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option sl_exec.dischHeartbeats 200000 in
set_option maxHeartbeats 4000000 in
/-- One round of a slot's processing: sixteen source and destination indices read, and for each of the four feature
    rows the indexed load and the indexed accumulating store, every index in range. -/
theorem proc_trip_t3 (fS : Buf (Elt F) ((b1 : Memref sig .scVector .vmem S1024 .i32).view.loc (V d (cV L) (jV L)))) (fD : Buf (Elt F) ((b3 : Memref sig .scVector .vmem S1024 .i32).view.loc (V d (cV L) (jV L))))
    (hbS : ∀ j, (fS j).toNat < 10000) (hbD : ∀ j, (fD j).toNat < 10000)
    (h4 : Buf (Elt F) ((b4 : Memref sig .scVector .vmem S10240 .f32).view.loc (V d (cV L) (jV L)))) (h5 : Buf (Elt F) ((b5 : Memref sig .scVector .vmem S10240 .f32).view.loc (V d (cV L) (jV L))))
    (h6 : Buf (Elt F) ((b6 : Memref sig .scVector .vmem S10240 .f32).view.loc (V d (cV L) (jV L)))) (h7 : Buf (Elt F) ((b7 : Memref sig .scVector .vmem S10240 .f32).view.loc (V d (cV L) (jV L))))
    (c0 c1 : BitVec 32) (g : Fin k2_t1_loop.trips) (k : Fin k2_t3_loop.trips) (acc : Unit) :
    procInv (F := F) d L b1 b3 fS fD h4 h5 h6 h7 k.val acc
      ⊢ wp frame (wpE (defs₀ (F := F)) 𝒱₀ (V d (cV L) (jV L)) none) Set.univ
          (k2_t3_body L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 c0 c1 g k acc)
          (procInv (F := F) d L b1 b3 fS fD h4 h5 h6 h7 (k.val + 1)) := by
  unfold k2_t3_body
  unfold procInv
  iintro ⟨HmS, HmD, H4, H5, H6, H7, H8, H9, H10, H11⟩
  sl_exec (disch := first | sl_exact (chkS_t3 (F := F) d L _ hbS _ _) | sl_exact (chkD_t3 (F := F) d L _ _ hbD _ _))
  iapply (wp_ld_b4 (F := F) d L _ _ _ _ _) $$ [H4]
  · iexact H4
  iintro H4
  iapply (wp_st_b8 (F := F) d L _ _ _ _ _ _ _) $$ [H8]
  · iexact H8
  iintro H8
  iapply (wp_ld_b5 (F := F) d L _ _ _ _ _) $$ [H5]
  · iexact H5
  iintro H5
  iapply (wp_st_b9 (F := F) d L _ _ _ _ _ _ _) $$ [H9]
  · iexact H9
  iintro H9
  iapply (wp_ld_b6 (F := F) d L _ _ _ _ _) $$ [H6]
  · iexact H6
  iintro H6
  iapply (wp_st_b10 (F := F) d L _ _ _ _ _ _ _) $$ [H10]
  · iexact H10
  iintro H10
  iapply (wp_ld_b7 (F := F) d L _ _ _ _ _) $$ [H7]
  · iexact H7
  iintro H7
  iapply (wp_st_b11 (F := F) d L _ _ _ _ _ _ _) $$ [H11]
  · iexact H11
  iintro H11
  sl_exec
  sl_step
  isplitl [HmS]; · iexact HmS
  isplitl [HmD]; · iexact HmD
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option sl_exec.dischHeartbeats 200000 in
set_option maxHeartbeats 4000000 in
/-- One round of a slot's processing: sixteen source and destination indices read, and for each of the four feature
    rows the indexed load and the indexed accumulating store, every index in range. -/
theorem proc_trip_t4 (fS : Buf (Elt F) ((b0 : Memref sig .scVector .vmem S1024 .i32).view.loc (V d (cV L) (jV L)))) (fD : Buf (Elt F) ((b2 : Memref sig .scVector .vmem S1024 .i32).view.loc (V d (cV L) (jV L))))
    (hbS : ∀ j, (fS j).toNat < 10000) (hbD : ∀ j, (fD j).toNat < 10000)
    (h4 : Buf (Elt F) ((b4 : Memref sig .scVector .vmem S10240 .f32).view.loc (V d (cV L) (jV L)))) (h5 : Buf (Elt F) ((b5 : Memref sig .scVector .vmem S10240 .f32).view.loc (V d (cV L) (jV L))))
    (h6 : Buf (Elt F) ((b6 : Memref sig .scVector .vmem S10240 .f32).view.loc (V d (cV L) (jV L)))) (h7 : Buf (Elt F) ((b7 : Memref sig .scVector .vmem S10240 .f32).view.loc (V d (cV L) (jV L))))
    (v1 : BitVec 32) (k : Fin k2_t4_loop.trips) (acc : Unit) :
    procInv (F := F) d L b0 b2 fS fD h4 h5 h6 h7 k.val acc
      ⊢ wp frame (wpE (defs₀ (F := F)) 𝒱₀ (V d (cV L) (jV L)) none) Set.univ
          (k2_t4_body L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 v1 k acc)
          (procInv (F := F) d L b0 b2 fS fD h4 h5 h6 h7 (k.val + 1)) := by
  unfold k2_t4_body
  unfold procInv
  iintro ⟨HmS, HmD, H4, H5, H6, H7, H8, H9, H10, H11⟩
  sl_exec (disch := first | sl_exact (chkS_t4 (F := F) d L _ hbS _ _) | sl_exact (chkD_t4 (F := F) d L _ _ hbD _ _))
  iapply (wp_ld_b4 (F := F) d L _ _ _ _ _) $$ [H4]
  · iexact H4
  iintro H4
  iapply (wp_st_b8 (F := F) d L _ _ _ _ _ _ _) $$ [H8]
  · iexact H8
  iintro H8
  iapply (wp_ld_b5 (F := F) d L _ _ _ _ _) $$ [H5]
  · iexact H5
  iintro H5
  iapply (wp_st_b9 (F := F) d L _ _ _ _ _ _ _) $$ [H9]
  · iexact H9
  iintro H9
  iapply (wp_ld_b6 (F := F) d L _ _ _ _ _) $$ [H6]
  · iexact H6
  iintro H6
  iapply (wp_st_b10 (F := F) d L _ _ _ _ _ _ _) $$ [H10]
  · iexact H10
  iintro H10
  iapply (wp_ld_b7 (F := F) d L _ _ _ _ _) $$ [H7]
  · iexact H7
  iintro H7
  iapply (wp_st_b11 (F := F) d L _ _ _ _ _ _ _) $$ [H11]
  · iexact H11
  iintro H11
  sl_exec
  sl_step
  isplitl [HmS]; · iexact HmS
  isplitl [HmD]; · iexact HmD
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option sl_exec.dischHeartbeats 200000 in
set_option maxHeartbeats 4000000 in
/-- One round of a slot's processing: sixteen source and destination indices read, and for each of the four feature
    rows the indexed load and the indexed accumulating store, every index in range. -/
theorem proc_trip_t5 (fS : Buf (Elt F) ((b1 : Memref sig .scVector .vmem S1024 .i32).view.loc (V d (cV L) (jV L)))) (fD : Buf (Elt F) ((b3 : Memref sig .scVector .vmem S1024 .i32).view.loc (V d (cV L) (jV L))))
    (hbS : ∀ j, (fS j).toNat < 10000) (hbD : ∀ j, (fD j).toNat < 10000)
    (h4 : Buf (Elt F) ((b4 : Memref sig .scVector .vmem S10240 .f32).view.loc (V d (cV L) (jV L)))) (h5 : Buf (Elt F) ((b5 : Memref sig .scVector .vmem S10240 .f32).view.loc (V d (cV L) (jV L))))
    (h6 : Buf (Elt F) ((b6 : Memref sig .scVector .vmem S10240 .f32).view.loc (V d (cV L) (jV L)))) (h7 : Buf (Elt F) ((b7 : Memref sig .scVector .vmem S10240 .f32).view.loc (V d (cV L) (jV L))))
    (v1 : BitVec 32) (k : Fin k2_t5_loop.trips) (acc : Unit) :
    procInv (F := F) d L b1 b3 fS fD h4 h5 h6 h7 k.val acc
      ⊢ wp frame (wpE (defs₀ (F := F)) 𝒱₀ (V d (cV L) (jV L)) none) Set.univ
          (k2_t5_body L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 v1 k acc)
          (procInv (F := F) d L b1 b3 fS fD h4 h5 h6 h7 (k.val + 1)) := by
  unfold k2_t5_body
  unfold procInv
  iintro ⟨HmS, HmD, H4, H5, H6, H7, H8, H9, H10, H11⟩
  sl_exec (disch := first | sl_exact (chkS_t5 (F := F) d L _ hbS _ _) | sl_exact (chkD_t5 (F := F) d L _ _ hbD _ _))
  iapply (wp_ld_b4 (F := F) d L _ _ _ _ _) $$ [H4]
  · iexact H4
  iintro H4
  iapply (wp_st_b8 (F := F) d L _ _ _ _ _ _ _) $$ [H8]
  · iexact H8
  iintro H8
  iapply (wp_ld_b5 (F := F) d L _ _ _ _ _) $$ [H5]
  · iexact H5
  iintro H5
  iapply (wp_st_b9 (F := F) d L _ _ _ _ _ _ _) $$ [H9]
  · iexact H9
  iintro H9
  iapply (wp_ld_b6 (F := F) d L _ _ _ _ _) $$ [H6]
  · iexact H6
  iintro H6
  iapply (wp_st_b10 (F := F) d L _ _ _ _ _ _ _) $$ [H10]
  · iexact H10
  iintro H10
  iapply (wp_ld_b7 (F := F) d L _ _ _ _ _) $$ [H7]
  · iexact H7
  iintro H7
  iapply (wp_st_b11 (F := F) d L _ _ _ _ _ _ _) $$ [H11]
  · iexact H11
  iintro H11
  sl_exec
  sl_step
  isplitl [HmS]; · iexact HmS
  isplitl [HmD]; · iexact HmD
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Proc
end T1
end Cert.KernelIdeal.Run
-- ==== Proof.KTile1Inv.lean ====
import proofs.«207969_g80633716015134_cont_9to1_m_1245_11_alg».proof.Proof.KTile1Proc

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 2) (Elt F) ℕ UU ℕ

namespace T1

section Inv
variable [FloatOps F]
variable (fs : (d : Dev nD) → Buf (Elt F) (srcLoc d)) (fd : (d : Dev nD) → Buf (Elt F) (dstLoc d)) (fz : (d : Dev nD) → Buf (Elt F) (zeroLoc d))
variable (d : Dev nD) (L : grid2.Coords)

/-- A whole index buffer overwritten by a payload of words below 10000 holds words below 10000. -/
theorem write_lt_b0 (f0 : Buf (Elt F) ((b0 : Memref sig .scVector .vmem S1024 .i32).view.loc (V d (cV L) (jV L)))) (w : S1024.Idx → Elt F .i32) (hw : ∀ x, (w x).toNat < 10000) :
    ∀ j, ((View.write (Elt F) (b0 : Memref sig .scVector .vmem S1024 .i32).view f0 w Finset.univ) j).toNat < 10000 := by
  intro j
  have e := View.write_emb_of_mem (Val := Elt F) (v := (b0 : Memref sig .scVector .vmem S1024 .i32).view) f0 w (M := Finset.univ) (x := j) (Finset.mem_univ _)
  have e' : (b0 : Memref sig .scVector .vmem S1024 .i32).view.emb j = j := rfl
  rw [e'] at e
  rw [e]
  exact hw _

theorem write_lt_b1 (f0 : Buf (Elt F) ((b1 : Memref sig .scVector .vmem S1024 .i32).view.loc (V d (cV L) (jV L)))) (w : S1024.Idx → Elt F .i32) (hw : ∀ x, (w x).toNat < 10000) :
    ∀ j, ((View.write (Elt F) (b1 : Memref sig .scVector .vmem S1024 .i32).view f0 w Finset.univ) j).toNat < 10000 := by
  intro j
  have e := View.write_emb_of_mem (Val := Elt F) (v := (b1 : Memref sig .scVector .vmem S1024 .i32).view) f0 w (M := Finset.univ) (x := j) (Finset.mem_univ _)
  have e' : (b1 : Memref sig .scVector .vmem S1024 .i32).view.emb j = j := rfl
  rw [e'] at e
  rw [e]
  exact hw _

theorem write_lt_b2 (f0 : Buf (Elt F) ((b2 : Memref sig .scVector .vmem S1024 .i32).view.loc (V d (cV L) (jV L)))) (w : S1024.Idx → Elt F .i32) (hw : ∀ x, (w x).toNat < 10000) :
    ∀ j, ((View.write (Elt F) (b2 : Memref sig .scVector .vmem S1024 .i32).view f0 w Finset.univ) j).toNat < 10000 := by
  intro j
  have e := View.write_emb_of_mem (Val := Elt F) (v := (b2 : Memref sig .scVector .vmem S1024 .i32).view) f0 w (M := Finset.univ) (x := j) (Finset.mem_univ _)
  have e' : (b2 : Memref sig .scVector .vmem S1024 .i32).view.emb j = j := rfl
  rw [e'] at e
  rw [e]
  exact hw _

theorem write_lt_b3 (f0 : Buf (Elt F) ((b3 : Memref sig .scVector .vmem S1024 .i32).view.loc (V d (cV L) (jV L)))) (w : S1024.Idx → Elt F .i32) (hw : ∀ x, (w x).toNat < 10000) :
    ∀ j, ((View.write (Elt F) (b3 : Memref sig .scVector .vmem S1024 .i32).view f0 w Finset.univ) j).toNat < 10000 := by
  intro j
  have e := View.write_emb_of_mem (Val := Elt F) (v := (b3 : Memref sig .scVector .vmem S1024 .i32).view) f0 w (M := Finset.univ) (x := j) (Finset.mem_univ _)
  have e' : (b3 : Memref sig .scVector .vmem S1024 .i32).view.emb j = j := rfl
  rw [e'] at e
  rw [e]
  exact hw _

/-- What a trip of the pipeline starts and ends with: the evidence that waits at the kernels' index are admissible; per
    slot, the two index copies in flight, each to deliver its buffer at words below 10000 and the half of the index
    array's read token it borrowed; the four feature rows; the four accumulators at whatever they hold; and the
    subcore's debts with only such waits recorded beyond the first ones. -/
def mainInv (O : CellTallies nD τ sig (HIx 2)) (W : Waits sig (HIx 2))
    (h4 : Buf (Elt F) ((b4 : Memref sig .scVector .vmem S10240 .f32).view.loc (V d (cV L) (jV L)))) (h5 : Buf (Elt F) ((b5 : Memref sig .scVector .vmem S10240 .f32).view.loc (V d (cV L) (jV L))))
    (h6 : Buf (Elt F) ((b6 : Memref sig .scVector .vmem S10240 .f32).view.loc (V d (cV L) (jV L)))) (h7 : Buf (Elt F) ((b7 : Memref sig .scVector .vmem S10240 .f32).view.loc (V d (cV L) (jV L))))
    (_ : Nat) (_ : Unit) : sProp 𝕄 :=
  iprop(Transfers.MayWaits (V d (cV L) (jV L)) (none : HIx 2) O
    ∗ (∃ c : Buf (Elt F) ((b0 : Memref sig .scVector .vmem S1024 .i32).view.loc (V d (cV L) (jV L))), ⌜∀ j, (c j).toNat < 10000⌝
        ∗ Flight (countersEmb : UEmb Counters 𝕄) (V d (cV L) (jV L)) (.dma cc2_scratch12.sem) default 32768
            iprop(((b0 : Memref sig .scVector .vmem S1024 .i32).view.loc (V d (cV L) (jV L)) ↦{fullShare} c) ∗ ((aS : Memref sig .scVector .hbm S327680 .i32).view.loc (V d (cV L) (jV L)) ↦{(qW L).left} fs d)))
    ∗ (∃ c : Buf (Elt F) ((b2 : Memref sig .scVector .vmem S1024 .i32).view.loc (V d (cV L) (jV L))), ⌜∀ j, (c j).toNat < 10000⌝
        ∗ Flight (countersEmb : UEmb Counters 𝕄) (V d (cV L) (jV L)) (.dma cc2_scratch14.sem) default 32768
            iprop(((b2 : Memref sig .scVector .vmem S1024 .i32).view.loc (V d (cV L) (jV L)) ↦{fullShare} c) ∗ ((aD : Memref sig .scVector .hbm S327680 .i32).view.loc (V d (cV L) (jV L)) ↦{(qW L).left} fd d)))
    ∗ (∃ c : Buf (Elt F) ((b1 : Memref sig .scVector .vmem S1024 .i32).view.loc (V d (cV L) (jV L))), ⌜∀ j, (c j).toNat < 10000⌝
        ∗ Flight (countersEmb : UEmb Counters 𝕄) (V d (cV L) (jV L)) (.dma cc2_scratch13.sem) default 32768
            iprop(((b1 : Memref sig .scVector .vmem S1024 .i32).view.loc (V d (cV L) (jV L)) ↦{fullShare} c) ∗ ((aS : Memref sig .scVector .hbm S327680 .i32).view.loc (V d (cV L) (jV L)) ↦{(qW L).right} fs d)))
    ∗ (∃ c : Buf (Elt F) ((b3 : Memref sig .scVector .vmem S1024 .i32).view.loc (V d (cV L) (jV L))), ⌜∀ j, (c j).toNat < 10000⌝
        ∗ Flight (countersEmb : UEmb Counters 𝕄) (V d (cV L) (jV L)) (.dma cc2_scratch15.sem) default 32768
            iprop(((b3 : Memref sig .scVector .vmem S1024 .i32).view.loc (V d (cV L) (jV L)) ↦{fullShare} c) ∗ ((aD : Memref sig .scVector .hbm S327680 .i32).view.loc (V d (cV L) (jV L)) ↦{(qW L).right} fd d)))
    ∗ ((b4 : Memref sig .scVector .vmem S10240 .f32).view.loc (V d (cV L) (jV L)) ↦{fullShare} h4) ∗ ((b5 : Memref sig .scVector .vmem S10240 .f32).view.loc (V d (cV L) (jV L)) ↦{fullShare} h5) ∗ ((b6 : Memref sig .scVector .vmem S10240 .f32).view.loc (V d (cV L) (jV L)) ↦{fullShare} h6) ∗ ((b7 : Memref sig .scVector .vmem S10240 .f32).view.loc (V d (cV L) (jV L)) ↦{fullShare} h7)
    ∗ (∃ f, (b8 : Memref sig .scVector .vmem S10256 .f32).view.loc (V d (cV L) (jV L)) ↦{fullShare} f) ∗ (∃ f, (b9 : Memref sig .scVector .vmem S10256 .f32).view.loc (V d (cV L) (jV L)) ↦{fullShare} f)
    ∗ (∃ f, (b10 : Memref sig .scVector .vmem S10256 .f32).view.loc (V d (cV L) (jV L)) ↦{fullShare} f) ∗ (∃ f, (b11 : Memref sig .scVector .vmem S10256 .f32).view.loc (V d (cV L) (jV L)) ↦{fullShare} f)
    ∗ ∃ W', ⌜∀ p ∈ W', p ∈ W ∨ p.2 = none⌝ ∗ owes (V d (cV L) (jV L)) O W')

end Inv
end T1
end Cert.KernelIdeal.Run
-- ==== Proof.KTile1Main.lean ====
import proofs.«207969_g80633716015134_cont_9to1_m_1245_11_alg».proof.Proof.KTile1Inv

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 2) (Elt F) ℕ UU ℕ

namespace T1

section Main
variable [FloatOps F]
variable (fs : (d : Dev nD) → Buf (Elt F) (srcLoc d)) (fd : (d : Dev nD) → Buf (Elt F) (dstLoc d)) (fz : (d : Dev nD) → Buf (Elt F) (zeroLoc d))
variable (d : Dev nD) (L : grid2.Coords)

set_option maxHeartbeats 4000000 in
/-- One trip of the pipeline: slot 0's chunk awaited and processed and its next chunk started, then slot 1's. -/
theorem main_trip (hRs : ∀ (d : Dev nD) (j : (srcLoc d).ty.Idx), (fs d j).toNat < 10000)
    (hRd : ∀ (d : Dev nD) (j : (dstLoc d).ty.Idx), (fd d j).toNat < 10000)
    (O : CellTallies nD τ sig (HIx 2)) (W : Waits sig (HIx 2))
    (h4 : Buf (Elt F) ((b4 : Memref sig .scVector .vmem S10240 .f32).view.loc (V d (cV L) (jV L)))) (h5 : Buf (Elt F) ((b5 : Memref sig .scVector .vmem S10240 .f32).view.loc (V d (cV L) (jV L))))
    (h6 : Buf (Elt F) ((b6 : Memref sig .scVector .vmem S10240 .f32).view.loc (V d (cV L) (jV L)))) (h7 : Buf (Elt F) ((b7 : Memref sig .scVector .vmem S10240 .f32).view.loc (V d (cV L) (jV L))))
    (v1 : BitVec 32) (k : Fin k2_t1_loop.trips) (acc : Unit) :
    mainInv (F := F) fs fd d L O W h4 h5 h6 h7 k.val acc
      ⊢ wp frame (wpE (defs₀ (F := F)) 𝒱₀ (V d (cV L) (jV L)) none) Set.univ
          (k2_t1_body L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 v1 k acc)
          (mainInv (F := F) fs fd d L O W h4 h5 h6 h7 (k.val + 1)) := by
  unfold mainInv
  iintro ⟨#Hmw, ⟨%c0, %hc0, Hf0⟩, ⟨%c2, %hc2, Hf2⟩, ⟨%c1, %hc1, Hf1⟩, ⟨%c3, %hc3, Hf3⟩, H4, H5, H6, H7, H8, H9, H10, H11, %W', %hW', HO⟩
  sl_exec
  sl_for (procInv (F := F) d L b0 b2 c0 c2 h4 h5 h6 h7) $$ [Hf0_dst Hf2_dst H4 H5 H6 H7 H8 H9 H10 H11]
  case region =>
    intro k' acc'
    exact proc_trip_t2 (F := F) d L c0 c2 hc0 hc2 h4 h5 h6 h7 _ _ _ k' acc'
  · unfold procInv
    isplitl [Hf0_dst]; · iexact Hf0_dst
    isplitl [Hf2_dst]; · iexact Hf2_dst
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  unfold procInv
  iintro %acc1 ⟨Hb0, Hb2, H4, H5, H6, H7, H8, H9, H10, H11⟩
  sl_exec
  ihave Hg0 := (Flight_absorb (F := F)) $$ [Hf0 Hf0_src]
  · isplitl [Hf0]; · iexact Hf0
    iexact Hf0_src
  ihave Hg2 := (Flight_absorb (F := F)) $$ [Hf2 Hf2_src]
  · isplitl [Hf2]; · iexact Hf2
    iexact Hf2_src
  sl_for (procInv (F := F) d L b1 b3 c1 c3 h4 h5 h6 h7) $$ [Hf1_dst Hf3_dst H4 H5 H6 H7 H8 H9 H10 H11]
  case region =>
    intro k' acc'
    exact proc_trip_t3 (F := F) d L c1 c3 hc1 hc3 h4 h5 h6 h7 _ _ _ k' acc'
  · unfold procInv
    isplitl [Hf1_dst]; · iexact Hf1_dst
    isplitl [Hf3_dst]; · iexact Hf3_dst
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  unfold procInv
  iintro %acc2 ⟨Hb1, Hb3, H4, H5, H6, H7, H8, H9, H10, H11⟩
  sl_exec
  ihave Hg1 := (Flight_absorb (F := F)) $$ [Hf1 Hf1_src]
  · isplitl [Hf1]; · iexact Hf1
    iexact Hf1_src
  ihave Hg3 := (Flight_absorb (F := F)) $$ [Hf3 Hf3_src]
  · isplitl [Hf3]; · iexact Hf3
    iexact Hf3_src
  sl_step
  isplitr
  · iexact Hmw
  isplitl [Hg0]
  · iexists _
    isplitr
    rotate_left
    · iexact Hg0
    · ipureintro
      exact write_lt_b0 (F := F) d L _ _ (fun _ => hRs d _)
  isplitl [Hg2]
  · iexists _
    isplitr
    rotate_left
    · iexact Hg2
    · ipureintro
      exact write_lt_b2 (F := F) d L _ _ (fun _ => hRd d _)
  isplitl [Hg1]
  · iexists _
    isplitr
    rotate_left
    · iexact Hg1
    · ipureintro
      exact write_lt_b1 (F := F) d L _ _ (fun _ => hRs d _)
  isplitl [Hg3]
  · iexists _
    isplitr
    rotate_left
    · iexact Hg3
    · ipureintro
      exact write_lt_b3 (F := F) d L _ _ (fun _ => hRd d _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _
  isplitr
  rotate_left
  · iexact HO
  · ipureintro
    intro p hp
    rcases Finset.mem_insert.mp hp with hp | hp
    · exact .inr (by rw [hp]; rfl)
    rcases Finset.mem_insert.mp hp with hp | hp
    · exact .inr (by rw [hp]; rfl)
    rcases Finset.mem_insert.mp hp with hp | hp
    · exact .inr (by rw [hp]; rfl)
    rcases Finset.mem_insert.mp hp with hp | hp
    · exact .inr (by rw [hp]; rfl)
    · exact hW' p hp

end Main
end T1
end Cert.KernelIdeal.Run
-- ==== Proof.KTile1Outer.lean ====
/-
  The second call's task on one vector subcore, around its main loop. The four feature rows and four zeroed accumulators
  are fetched; the first two index chunks of each slot are requested; the main loop runs by its invariant, which carries
  the two slots' pending copies from trip to trip (each read token halved, one half lent per slot); the last two chunks
  are awaited and processed; the accumulators' first 10240 entries are copied to the worker's four rows of the aggregate;
  the token halves are rejoined and the task hands back what it was handed, the rows at new contents. One trip of the main
  loop enters as a hypothesis; each processing loop is closed by its own trip lemma at the processing invariant.
-/
import proofs.«207969_g80633716015134_cont_9to1_m_1245_11_alg».proof.Proof.KTile1Inv

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 2) (Elt F) ℕ UU ℕ

namespace T1

section Outer

variable [FloatOps F]
variable (fs : (d : Dev nD) → Buf (Elt F) (srcLoc d)) (fd : (d : Dev nD) → Buf (Elt F) (dstLoc d)) (fz : (d : Dev nD) → Buf (Elt F) (zeroLoc d))

variable (d : Dev nD) (L : grid2.Coords)

/-- A buffer held at some contents is held at whatever it holds. -/
theorem held_some {ℓ : Loc nD τ sig} {q : PosShare TreeShare} (f : Buf (Elt F) ℓ) : (ℓ ↦{q} f : sProp 𝕄) ⊢ iprop(∃ g, ℓ ↦{q} g) := by
  iintro H; iexists _; iexact H

/-- The task's body from one trip of its main loop: prologue, the loop at its invariant, the closing rounds and the
    epilogue, every index chunk's words below 10000 because the arrays' are. -/
theorem tileBody_of_trip (hRs : ∀ (d : Dev nD) (j : (srcLoc d).ty.Idx), (fs d j).toNat < 10000) (hRd : ∀ (d : Dev nD) (j : (dstLoc d).ty.Idx), (fd d j).toNat < 10000)
    (hmain : ∀ (d : Dev nD) (L : grid2.Coords) (O : CellTallies nD τ sig (HIx 2)) (W : Waits sig (HIx 2)) h4 h5 h6 h7 (v1 : BitVec 32) (k : Fin k2_t1_loop.trips) (acc : Unit),
      mainInv (F := F) fs fd d L O W h4 h5 h6 h7 k.val acc
        ⊢ wp frame (wpE (defs₀ (F := F)) 𝒱₀ (V d (cV L) (jV L)) none) Set.univ
          (k2_t1_body L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 v1 k acc)
          (mainInv (F := F) fs fd d L O W h4 h5 h6 h7 (k.val + 1)))
    : TileBody (F := F) fs fd fz := by
  intro d L O W hO
  simp only [cc2__agg_sc_eq_skeleton]; unfold cc2__agg_sc_skel
  rw [(K (F := F)).scopedBufs_V facts d (cV L) (jV L), SparseCore.Cfg.scopedSems0_V (Val := Elt F) d (cV L) (jV L), ownSems0_V, ownBufs_V]
  unfold pay1 reads
  rw [bigSep_fin4, bigSep_fin4]
  iintro ⟨#Hlv, -, ⟨⟨HS, HD, HZ⟩, ⟨⟨%h0, HH0⟩, ⟨%h1, HH1⟩, ⟨%h2, HH2⟩, ⟨%h3, HH3⟩⟩, ⟨⟨%a0, HG0⟩, ⟨%a1, HG1⟩, ⟨%a2, HG2⟩, ⟨%a3, HG3⟩⟩⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, Hbufs⟩, ⟨Hs0, Hs1, Hs2, Hs3, Hs4, Hs5, Hs6, Hs7, Hs8, Hs9, Hs10, Hs11, Hs12, Hs13, Hs14, Hs15, Hsems⟩, HO⟩
  ihave Hmw := ((K (F := F)).mayWaits_none (thr := V d (cV L) (jV L)) hO) $$ Hlv
  ihave HSs := ((pointsTo_share (PosShare.mem_left_op_right (qW L))).1) $$ HS
  icases HSs with ⟨HSl, HSr⟩
  ihave HDs := ((pointsTo_share (PosShare.mem_left_op_right (qW L))).1) $$ HD
  icases HDs with ⟨HDl, HDr⟩
  ihave HH0' := (Entails.of_eq (pts_hRow (F := F) d L 0 _).symm) $$ HH0
  ihave HH1' := (Entails.of_eq (pts_hRow (F := F) d L 1 _).symm) $$ HH1
  ihave HH2' := (Entails.of_eq (pts_hRow (F := F) d L 2 _).symm) $$ HH2
  ihave HH3' := (Entails.of_eq (pts_hRow (F := F) d L 3 _).symm) $$ HH3
  ihave HG0' := (Entails.of_eq (pts_gRow (F := F) d L 0 _).symm) $$ HG0
  ihave HG1' := (Entails.of_eq (pts_gRow (F := F) d L 1 _).symm) $$ HG1
  ihave HG2' := (Entails.of_eq (pts_gRow (F := F) d L 2 _).symm) $$ HG2
  ihave HG3' := (Entails.of_eq (pts_gRow (F := F) d L 3 _).symm) $$ HG3
  ihave H0' := (Entails.of_eq (pts_b0 (F := F) d L _).symm) $$ H0
  ihave H1' := (Entails.of_eq (pts_b1 (F := F) d L _).symm) $$ H1
  ihave H2' := (Entails.of_eq (pts_b2 (F := F) d L _).symm) $$ H2
  ihave H3' := (Entails.of_eq (pts_b3 (F := F) d L _).symm) $$ H3
  ihave H4' := (Entails.of_eq (pts_b4 (F := F) d L _).symm) $$ H4
  ihave H5' := (Entails.of_eq (pts_b5 (F := F) d L _).symm) $$ H5
  ihave H6' := (Entails.of_eq (pts_b6 (F := F) d L _).symm) $$ H6
  ihave H7' := (Entails.of_eq (pts_b7 (F := F) d L _).symm) $$ H7
  ihave H8' := (Entails.of_eq (pts_b8 (F := F) d L _).symm) $$ H8
  ihave H9' := (Entails.of_eq (pts_b9 (F := F) d L _).symm) $$ H9
  ihave H10' := (Entails.of_eq (pts_b10 (F := F) d L _).symm) $$ H10
  ihave H11' := (Entails.of_eq (pts_b11 (F := F) d L _).symm) $$ H11
  ihave HZ' := (Entails.of_eq (pts_aZ (F := F) d L _ _).symm) $$ HZ
  ihave HSl' := (Entails.of_eq (pts_aS (F := F) d L _ _).symm) $$ HSl
  ihave HSr' := (Entails.of_eq (pts_aS (F := F) d L _ _).symm) $$ HSr
  ihave HDl' := (Entails.of_eq (pts_aD (F := F) d L _ _).symm) $$ HDl
  ihave HDr' := (Entails.of_eq (pts_aD (F := F) d L _ _).symm) $$ HDr
  sl_exec
  ihave Hf0 := (Flight_absorb (F := F)) $$ [Hs0 HSl']
  · isplitl [Hs0]; · iexact Hs0
    iexact HSl'
  ihave Hf2 := (Flight_absorb (F := F)) $$ [Hs2 HDl']
  · isplitl [Hs2]; · iexact Hs2
    iexact HDl'
  ihave Hf1 := (Flight_absorb (F := F)) $$ [Hs1 HSr']
  · isplitl [Hs1]; · iexact Hs1
    iexact HSr'
  ihave Hf3 := (Flight_absorb (F := F)) $$ [Hs3 HDr']
  · isplitl [Hs3]; · iexact Hs3
    iexact HDr'
  ihave H4e := (held_some (F := F) _) $$ H4'
  icases H4e with ⟨%h4, H4⟩
  ihave H5e := (held_some (F := F) _) $$ H5'
  icases H5e with ⟨%h5, H5⟩
  ihave H6e := (held_some (F := F) _) $$ H6'
  icases H6e with ⟨%h6, H6⟩
  ihave H7e := (held_some (F := F) _) $$ H7'
  icases H7e with ⟨%h7, H7⟩
  sl_for (mainInv (F := F) fs fd d L O W h4 h5 h6 h7) $$ [Hmw Hf0 Hf2 Hf1 Hf3 H4 H5 H6 H7 H8' H9' H10' H11' HO]
  case region =>
    intro k acc
    exact hmain d L O W h4 h5 h6 h7 _ k acc
  · unfold mainInv
    isplitr; · iexact Hmw
    isplitl [Hf0]
    · iexists _; isplitr
      swap
      · iexact Hf0
      · ipureintro; exact write_lt_b0 (F := F) d L _ _ (fun x => hRs d _)
    isplitl [Hf2]
    · iexists _; isplitr
      swap
      · iexact Hf2
      · ipureintro; exact write_lt_b2 (F := F) d L _ _ (fun x => hRd d _)
    isplitl [Hf1]
    · iexists _; isplitr
      swap
      · iexact Hf1
      · ipureintro; exact write_lt_b1 (F := F) d L _ _ (fun x => hRs d _)
    isplitl [Hf3]
    · iexists _; isplitr
      swap
      · iexact Hf3
      · ipureintro; exact write_lt_b3 (F := F) d L _ _ (fun x => hRd d _)
    isplitl [H4]; · iexact H4
    isplitl [H5]; · iexact H5
    isplitl [H6]; · iexact H6
    isplitl [H7]; · iexact H7
    isplitl [H8']; · iexists _; iexact H8'
    isplitl [H9']; · iexists _; iexact H9'
    isplitl [H10']; · iexists _; iexact H10'
    isplitl [H11']; · iexists _; iexact H11'
    iexists _; isplitr
    swap
    · iexact HO
    · ipureintro; intro p hp
      repeat (rcases Finset.mem_insert.mp hp with rfl | hp; · exact .inr rfl)
      exact .inl hp
  iintro %_ HI
  unfold mainInv
  icases HI with ⟨-, ⟨%c0, %hc0, Hf0⟩, ⟨%c2, %hc2, Hf2⟩, ⟨%c1, %hc1, Hf1⟩, ⟨%c3, %hc3, Hf3⟩, H4, H5, H6, H7, ⟨%e8, H8⟩, ⟨%e9, H9⟩, ⟨%e10, H10⟩, ⟨%e11, H11⟩, %W', %hW', HO⟩
  sl_exec
  sl_for (procInv (F := F) d L b0 b2 c0 c2 h4 h5 h6 h7) $$ [Hf0_dst Hf2_dst H4 H5 H6 H7 H8 H9 H10 H11]
  case region =>
    intro k acc
    exact proc_trip_t4 (F := F) d L c0 c2 hc0 hc2 h4 h5 h6 h7 _ k acc
  · unfold procInv
    isplitl [Hf0_dst]; · iexact Hf0_dst
    isplitl [Hf2_dst]; · iexact Hf2_dst
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iexists _; iexact H11
  iintro %_ HI
  unfold procInv
  icases HI with ⟨H0, H2, H4, H5, H6, H7, ⟨%e8', H8⟩, ⟨%e9', H9⟩, ⟨%e10', H10⟩, ⟨%e11', H11⟩⟩
  sl_exec
  sl_for (procInv (F := F) d L b1 b3 c1 c3 h4 h5 h6 h7) $$ [Hf1_dst Hf3_dst H4 H5 H6 H7 H8 H9 H10 H11]
  case region =>
    intro k acc
    exact proc_trip_t5 (F := F) d L c1 c3 hc1 hc3 h4 h5 h6 h7 _ k acc
  · unfold procInv
    isplitl [Hf1_dst]; · iexact Hf1_dst
    isplitl [Hf3_dst]; · iexact Hf3_dst
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iexists _; iexact H11
  iintro %_ HI
  unfold procInv
  icases HI with ⟨H1, H3, H4, H5, H6, H7, ⟨%e8'', H8⟩, ⟨%e9'', H9⟩, ⟨%e10'', H10⟩, ⟨%e11'', H11⟩⟩
  sl_exec
  sl_step
  ihave HSj := ((pointsTo_share (PosShare.mem_left_op_right (qW L))).2) $$ [Hf0_src Hf1_src]
  · isplitl [Hf0_src]; · iexact Hf0_src
    iexact Hf1_src
  ihave HDj := ((pointsTo_share (PosShare.mem_left_op_right (qW L))).2) $$ [Hf2_src Hf3_src]
  · isplitl [Hf2_src]; · iexact Hf2_src
    iexact Hf3_src
  isplitl [HSj HDj HZ' HH0' HH1' HH2' HH3' HG0' HG1' HG2' HG3']
  · isplitl [HSj HDj HZ']
    · isplitl [HSj]; · iexact HSj
      isplitl [HDj]; · iexact HDj
      iexact HZ'
    isplitl [HH0' HH1' HH2' HH3']
    · isplitl [HH0']; · iexists _; iapply (Entails.of_eq (pts_hRow (F := F) d L 0 _)); iexact HH0'
      isplitl [HH1']; · iexists _; iapply (Entails.of_eq (pts_hRow (F := F) d L 1 _)); iexact HH1'
      isplitl [HH2']; · iexists _; iapply (Entails.of_eq (pts_hRow (F := F) d L 2 _)); iexact HH2'
      iexists _; iapply (Entails.of_eq (pts_hRow (F := F) d L 3 _)); iexact HH3'
    · isplitl [HG0']; · iexists _; iapply (Entails.of_eq (pts_gRow (F := F) d L 0 _)); iexact HG0'
      isplitl [HG1']; · iexists _; iapply (Entails.of_eq (pts_gRow (F := F) d L 1 _)); iexact HG1'
      isplitl [HG2']; · iexists _; iapply (Entails.of_eq (pts_gRow (F := F) d L 2 _)); iexact HG2'
      iexists _; iapply (Entails.of_eq (pts_gRow (F := F) d L 3 _)); iexact HG3'
  isplitl [H0 H1 H2 H3 H4 H5 H6 H7 H8 H9 H10 H11 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexact Hbufs
  isplitl [Hf0 Hf1 Hf2 Hf3 Hs4 Hs5 Hs6 Hs7 Hs8 Hs9 Hs10 Hs11 Hs12 Hs13 Hs14 Hs15 Hsems]
  · isplitl [Hf0]; · iexact Hf0
    isplitl [Hf1]; · iexact Hf1
    isplitl [Hf2]; · iexact Hf2
    isplitl [Hf3]; · iexact Hf3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    iexact Hsems
  iexists _; isplitr
  swap
  · iexact HO
  · ipureintro; intro p hp
    repeat (rcases Finset.mem_insert.mp hp with rfl | hp; · exact .inr rfl)
    exact hW' p hp

end Outer

end T1

end Cert.KernelIdeal.Run
-- ==== Proof.KTile1.lean ====
import proofs.«207969_g80633716015134_cont_9to1_m_1245_11_alg».proof.Proof.KTile1Main
import proofs.«207969_g80633716015134_cont_9to1_m_1245_11_alg».proof.Proof.KTile1Outer

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

/-! ## The second call's task obligation -/

section Obl

variable [FloatOps F]
variable (fs : (d : Dev nD) → Buf (Elt F) (srcLoc d)) (fd : (d : Dev nD) → Buf (Elt F) (dstLoc d)) (fz : (d : Dev nD) → Buf (Elt F) (zeroLoc d))

/-- The second call's task obligation: every worker's task terminates without fault and hands back what it was handed,
    its four rows of the aggregate at new contents, every assumed index in range because the words of the two index
    arrays are below 10000. -/
theorem tileObl1 (hRs : ∀ (d : Dev nD) (j : (srcLoc d).ty.Idx), (fs d j).toNat < 10000)
    (hRd : ∀ (d : Dev nD) (j : (dstLoc d).ty.Idx), (fd d j).toNat < 10000) :
    (K (F := F)).TileObl (D (F := F)) 𝒱 (P fs fd fz) v₀ 1 :=
  tileObl1_of_body fs fd fz
    (T1.tileBody_of_trip (F := F) fs fd fz hRs hRd
      (fun d L O W h4 h5 h6 h7 v1 k acc => T1.main_trip (F := F) fs fd d L hRs hRd O W h4 h5 h6 h7 v1 k acc))

end Obl

end Cert.KernelIdeal.Run
-- ==== Proof.KReg0Body.lean ====
/-
  The first gridded region (eight grid points; each point reads a 1280×128 block of the features, the 128×128 weights
  and a 32×1280×1 block of the per-worker counts, and writes a 1280×128 block of the scaled linear map, the 128×1280
  block of its transpose and a 1280×1 block of the degree factors): what the body leaves in its staging buffers at every
  point, and the body's obligation to the pipeline. The arithmetic stays three opaque payloads of the three input blocks;
  nothing here opens them.
-/
import proofs.«207969_g80633716015134_cont_9to1_m_1245_11_alg».proof.Proof.KSetup
import proofs.«207969_g80633716015134_cont_9to1_m_1245_11_alg».proof.Proof.Gen.KernelIdeal.Launch
import proofs.«207969_g80633716015134_cont_9to1_m_1245_11_alg».proof.Proof.Gen.KernelIdeal.Skeleton
import proofs.«207969_g80633716015134_cont_9to1_m_1245_11_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] [∀ e, Nonempty (Elt F e)]

local notation "𝕄" => MT nD τ sig (HIx 2) (Elt F) ℕ UU ℕ

-- the arrays' contents when the region is entered, what the core owes while it runs, and the bound on the pairs its
-- waits have recorded
variable (V : (c : Dev nD) → (b : Ref sig .tc) → Buf (Elt F) ((c : Thread nD τ).loc b)) (O : CellTallies nD τ sig (HIx 2))
  (B : Set (SemLoc sig × HIx 2))

/-! ## The windows' blocks -/

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (at a point where it
    is not fetched its block index has not moved, and the body left the block in place), for any proof data over the
    region-entry arrays whose body leaves the block in place. The weights' window is fetched at the first point only. -/
theorem before1_0_of {c : Dev nD} (dat : Dat τ (Elt F) (HIx 2) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) (HIx 2) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) (HIx 2) ℕ UU ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes: whole blocks -/

abbrev r1_x : Rect S1280x128 := Rect.unit (s := S1280x128) ![0, 0] S1280x128.size inb_S1280x128_S1280x128_0_0
abbrev r1_w : Rect S128x128 := Rect.unit (s := S128x128) ![0, 0] S128x128.size inb_S128x128_S128x128_0_0
abbrev r1_c : Rect S32x1280x1 := Rect.unit (s := S32x1280x1) ![0, 0, 0] S32x1280x1.size inb_S32x1280x1_S32x1280x1_0_0_0
abbrev r1_t : Rect S128x1280 := Rect.unit (s := S128x1280) ![0, 0] S128x1280.size inb_S128x1280_S128x1280_0_0
abbrev r1_r : Rect S1280x1 := Rect.unit (s := S1280x1) ![0, 0] S1280x1.size inb_S1280x1_S1280x1_0_0

/-- The first output block after the body, from the three input blocks (features, weights, counts): its one store, of the
    body's second payload. -/
def out1_3 (x0 : Vec F S1280x128 .f32) (x1 : Vec F S128x128 .f32) (x2 : Vec F S32x1280x1 .f32) : Vec F S1280x128 .f32 :=
  View.canon [⟨r1_x, k1_pay2 (View.ld x2 r1_c) (View.ld x0 r1_x) (View.ld x1 r1_w)⟩]

/-- The second output block after the body: its one store, of the third payload (the transpose of the second). -/
def out1_4 (x0 : Vec F S1280x128 .f32) (x1 : Vec F S128x128 .f32) (x2 : Vec F S32x1280x1 .f32) : Vec F S128x1280 .f32 :=
  View.canon [⟨r1_t, k1_pay3 (View.ld x2 r1_c) (View.ld x0 r1_x) (View.ld x1 r1_w)⟩]

/-- The third output block after the body: its one store, of the first payload (a function of the counts alone). -/
def out1_5 (x2 : Vec F S32x1280x1 .f32) : Vec F S1280x1 .f32 :=
  View.canon [⟨r1_r, k1_pay1 (View.ld x2 r1_c)⟩]

/-- Each output's one store covers its block. -/
theorem cover1_3 (p0 : Vec F S1280x128 .f32) (y : S1280x128.Idx) :
    ∃ pc ∈ ([⟨r1_x, p0⟩] : List (View.Piece (Elt F) S1280x128 .f32)), y ∈ pc.1.set :=
  View.cover_of_tiled [⟨r1_x, p0⟩] S1280x128.size (by rfl) y
theorem cover1_4 (p0 : Vec F S128x1280 .f32) (y : S128x1280.Idx) :
    ∃ pc ∈ ([⟨r1_t, p0⟩] : List (View.Piece (Elt F) S128x1280 .f32)), y ∈ pc.1.set :=
  View.cover_of_tiled [⟨r1_t, p0⟩] S128x1280.size (by rfl) y
theorem cover1_5 (p0 : Vec F S1280x1 .f32) (y : S1280x1.Idx) :
    ∃ pc ∈ ([⟨r1_r, p0⟩] : List (View.Piece (Elt F) S1280x1 .f32)), y ∈ pc.1.set :=
  View.cover_of_tiled [⟨r1_r, p0⟩] S1280x1.size (by rfl) y

/-! ## The body's triple -/

set_option maxHeartbeats 2000000 in
/-- The body on whole staging memrefs: the three inputs stay as they were, each output ends at its out1 of them. -/
theorem sound_kernel1 (c : Dev nD) (E : Set ℕ) (i : grid1.Coords)
    (arg1 : Memref sig .tc .vmem S1280x128 .f32) (harg1 : arg1.IsWhole) (arg2 : Memref sig .tc .vmem S128x128 .f32) (harg2 : arg2.IsWhole)
    (arg3 : Memref sig .tc .vmem S32x1280x1 .f32) (harg3 : arg3.IsWhole) (arg4 : Memref sig .tc .vmem S1280x128 .f32) (harg4 : arg4.IsWhole)
    (arg5 : Memref sig .tc .vmem S128x1280 .f32) (harg5 : arg5.IsWhole) (arg6 : Memref sig .tc .vmem S1280x1 .f32) (harg6 : arg6.IsWhole)
    (x0 : Vec F S1280x128 .f32) (x1 : Vec F S128x128 .f32) (x2 : Vec F S32x1280x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)
            ∗ owns (c : Thread nD τ) arg6 fullShare (out1_5 x2)) -∗ K ⟨⟩))
      ⊢ wp frame (wpE (defs₀ (F := F)) Variants.none c none) E (cc1__s2_body i arg1 harg1 arg2 harg2 arg3 harg3 arg4 harg4 arg5 harg5 arg6 harg6) K := by
  simp only [cc1__s2_body_eq_skeleton]; unfold cc1__s2_body_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_3 _)
  isplitl [H5]
  · iexists _; isplitr
    swap; · iexact H5
    ipureintro
    exact View.read_writes_eq_canon _ _ _ (cover1_4 _)
  iexists _; isplitr
  swap; · iexact H6
  ipureintro
  exact View.read_writes_eq_canon _ _ _ (cover1_5 _)

/-! ## The pipeline's proof data -/

/-- The region's invariant on core c: the core's scoped buffers that are no staging buffer of this region, each whole at
    some contents, and its generator register at some state — what a body that touches nothing but its windows leaves
    alone. -/
def ΦS1 (c : Dev nD) : sProp 𝕄 :=
  iprop(Pipeline.scopedRest (Ix := HIx 2) (Name := ℕ) (U := UU) (Lvl := ℕ) (Val := Elt F) spec1 c ∗ ∃ r, prngReg c r)

/-- The proof data of the first region on core c: the arrays as the region finds them; after the body at point t each
    input's buffer at its block and each output's at its out1 of the input blocks; the invariant that of a body that
    touches nothing but its windows; the core owing O throughout, its recorded pairs within B; full shares. -/
def dat1 (c : Dev nD) : Dat τ (Elt F) (HIx 2) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
    | ⟨5, _⟩ => out1_5 (iblk1 V c 2 t)
  Φ _ := ΦS1 c
  q _ := fullShare
  owed _ := O
  recorded _ := B

theorem A_eq1 (c : Dev nD) (w : Fin cfg1.W) : (dat1 V O B c).A w = V c (Pipeline.arrRef spec1 w) := by
  dsimp only [dat1]

theorem after1_0 (c : Dev nD) (t : Fin cfg1.N) : (dat1 V O B c).after 0 t = iblk1 V c 0 t := by dsimp only [dat1]
theorem after1_1 (c : Dev nD) (t : Fin cfg1.N) : (dat1 V O B c).after 1 t = iblk1 V c 1 t := by dsimp only [dat1]
theorem after1_2 (c : Dev nD) (t : Fin cfg1.N) : (dat1 V O B c).after 2 t = iblk1 V c 2 t := by dsimp only [dat1]
theorem after1_3 (c : Dev nD) (t : Fin cfg1.N) :
    (dat1 V O B c).after 3 t = out1_3 (iblk1 V c 0 t) (iblk1 V c 1 t) (iblk1 V c 2 t) := by dsimp only [dat1]
theorem after1_4 (c : Dev nD) (t : Fin cfg1.N) :
    (dat1 V O B c).after 4 t = out1_4 (iblk1 V c 0 t) (iblk1 V c 1 t) (iblk1 V c 2 t) := by dsimp only [dat1]
theorem after1_5 (c : Dev nD) (t : Fin cfg1.N) : (dat1 V O B c).after 5 t = out1_5 (iblk1 V c 2 t) := by dsimp only [dat1]

theorem before1_0 (c : Dev nD) (t : Fin cfg1.N) (d) : (dat1 V O B c).before 0 t d = iblk1 V c 0 t :=
  before1_0_of V (dat1 V O B c) (A_eq1 V O B c 0) (after1_0 V O B c) t d
theorem before1_1 (c : Dev nD) (t : Fin cfg1.N) (d) : (dat1 V O B c).before 1 t d = iblk1 V c 1 t :=
  before1_1_of V (dat1 V O B c) (A_eq1 V O B c 1) (after1_1 V O B c) t d
theorem before1_2 (c : Dev nD) (t : Fin cfg1.N) (d) : (dat1 V O B c).before 2 t d = iblk1 V c 2 t :=
  before1_2_of V (dat1 V O B c) (A_eq1 V O B c 2) (after1_2 V O B c) t d

/-! ## The body obligation, at a generic point -/

/-- What the body is called with at point t, the windows one by one, -/
def bodyPre1 (c : Dev nD) (t : Fin cfg1.N) : sProp 𝕄 :=
  iprop((dat1 V O B c).Φ t.castSucc ∗ (dat1 V O B c).owesAt (none : HIx 2) t.castSucc
    ∗ (∃ d, owns (c : Thread nD τ) (st1_0 t) fullShare ((dat1 V O B c).before 0 t d))
    ∗ (∃ d, owns (c : Thread nD τ) (st1_1 t) fullShare ((dat1 V O B c).before 1 t d))
    ∗ (∃ d, owns (c : Thread nD τ) (st1_2 t) fullShare ((dat1 V O B c).before 2 t d))
    ∗ (∃ d, owns (c : Thread nD τ) (st1_3 t) fullShare ((dat1 V O B c).before 3 t d))
    ∗ (∃ d, owns (c : Thread nD τ) (st1_4 t) fullShare ((dat1 V O B c).before 4 t d))
    ∗ (∃ d, owns (c : Thread nD τ) (st1_5 t) fullShare ((dat1 V O B c).before 5 t d)))

/-- and what it returns. -/
def bodyPost1 (c : Dev nD) (t : Fin cfg1.N) : sProp 𝕄 :=
  iprop((dat1 V O B c).Φ t.succ ∗ (dat1 V O B c).owesAt (none : HIx 2) t.succ
    ∗ owns (c : Thread nD τ) (st1_0 t) fullShare ((dat1 V O B c).after 0 t)
    ∗ owns (c : Thread nD τ) (st1_1 t) fullShare ((dat1 V O B c).after 1 t)
    ∗ owns (c : Thread nD τ) (st1_2 t) fullShare ((dat1 V O B c).after 2 t)
    ∗ owns (c : Thread nD τ) (st1_3 t) fullShare ((dat1 V O B c).after 3 t)
    ∗ owns (c : Thread nD τ) (st1_4 t) fullShare ((dat1 V O B c).after 4 t)
    ∗ owns (c : Thread nD τ) (st1_5 t) fullShare ((dat1 V O B c).after 5 t))

/-- The body at any point: the inputs' memrefs hold their blocks, so the body's triple applies; the invariant and what the
    core owes pass through unread. -/
theorem sound_body1 (c : Dev nD) (t : Fin cfg1.N) :
    bodyPre1 V O B c t ⊢ wp frame (wpE (defs₀ (F := F)) Variants.none c none) Set.univ (bodyAt1 t) (fun _ => bodyPost1 V O B c t) := by
  unfold bodyPre1 bodyPost1 bodyAt1
  simp only [before1_0, before1_1, before1_2]
  rw [show (dat1 V O B c).Φ t.succ = (dat1 V O B c).Φ t.castSucc from rfl,
    show (dat1 V O B c).owesAt (none : HIx 2) t.succ = (dat1 V O B c).owesAt (none : HIx 2) t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation1 (c : Dev nD) : BodyObligation (dat1 (F := F) V O B c) (defs₀ (F := F)) Variants.none (none : HIx 2) Set.univ := fun t => by
  rw [bigSep_W1, bigSep_W1]
  exact sound_body1 V O B c t

end Cert.KernelIdeal.Run

end
-- ==== Proof.KReg1Body.lean ====
/-
  The second gridded region (eight grid points; each point reads a 128×1280 block of the transposed aggregate, a 1280×128
  block of the scaled features, a 1280×1 block of the degree factors and the 1×128 bias, and writes a 1280×128 block of
  the result): what the body leaves in its staging buffers at every point, and the body's obligation to the pipeline.
  The arithmetic stays one opaque payload of the four blocks; nothing here opens it.
-/
import proofs.«207969_g80633716015134_cont_9to1_m_1245_11_alg».proof.Proof.KSetup
import proofs.«207969_g80633716015134_cont_9to1_m_1245_11_alg».proof.Proof.Gen.KernelIdeal.Launch
import proofs.«207969_g80633716015134_cont_9to1_m_1245_11_alg».proof.Proof.Gen.KernelIdeal.Skeleton
import proofs.«207969_g80633716015134_cont_9to1_m_1245_11_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] [∀ e, Nonempty (Elt F e)]

local notation "𝕄" => MT nD τ sig (HIx 2) (Elt F) ℕ UU ℕ

-- the arrays' contents when the region is entered, what the core owes while it runs, and a bound on the waits it has recorded
variable (V : (c : Dev nD) → (b : Ref sig .tc) → Buf (Elt F) ((c : Thread nD τ).loc b)) (O : CellTallies nD τ sig (HIx 2))
  (B : Set (SemLoc sig × HIx 2))

/-! ## The windows' blocks -/

/-- Window w's block at grid point t, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof data over
    the region-entry arrays whose body leaves the block in place. -/
theorem before3_0_of {c : Dev nD} (dat : Dat τ (Elt F) (HIx 2) ℕ UU ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem before3_1_of {c : Dev nD} (dat : Dat τ (Elt F) (HIx 2) ℕ UU ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem before3_2_of {c : Dev nD} (dat : Dat τ (Elt F) (HIx 2) ℕ UU ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)
theorem before3_3_of {c : Dev nD} (dat : Dat τ (Elt F) (HIx 2) ℕ UU ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)

/-! ## What the body reads and writes: whole blocks -/

abbrev rA : Rect S128x1280 := Rect.unit (s := S128x1280) ![0, 0] S128x1280.size inb_S128x1280_S128x1280_0_0
abbrev rH : Rect S1280x128 := Rect.unit (s := S1280x128) ![0, 0] S1280x128.size inb_S1280x128_S1280x128_0_0
abbrev rR : Rect S1280x1 := Rect.unit (s := S1280x1) ![0, 0] S1280x1.size inb_S1280x1_S1280x1_0_0
abbrev rB : Rect S1x128 := Rect.unit (s := S1x128) ![0, 0] S1x128.size inb_S1x128_S1x128_0_0

/-- The output block after the body, from the four input blocks: its one store, of the body's payload. -/
def out3 (xa : Vec F S128x1280 .f32) (xh : Vec F S1280x128 .f32) (xr : Vec F S1280x1 .f32) (xb : Vec F S1x128 .f32) : Vec F S1280x128 .f32 :=
  View.canon [⟨rH, k3_pay1 (View.ld xa rA) (View.ld xh rH) (View.ld xr rR) (View.ld xb rB)⟩]

/-- The one store covers the block. -/
theorem cover3 (p0 : Vec F S1280x128 .f32) (y : S1280x128.Idx) :
    ∃ pc ∈ ([⟨rH, p0⟩] : List (View.Piece (Elt F) S1280x128 .f32)), y ∈ pc.1.set :=
  View.cover_of_tiled [⟨rH, p0⟩] S1280x128.size (by rfl) y

/-! ## The body's triple -/

set_option maxHeartbeats 1000000 in
/-- The body on whole staging memrefs: the four inputs stay as they were, the output ends at out3 of them. -/
theorem sound_kernel3 (c : Dev nD) (E : Set ℕ) (i : grid3.Coords)
    (arg1 : Memref sig .tc .vmem S128x1280 .f32) (harg1 : arg1.IsWhole) (arg2 : Memref sig .tc .vmem S1280x128 .f32) (harg2 : arg2.IsWhole)
    (arg3 : Memref sig .tc .vmem S1280x1 .f32) (harg3 : arg3.IsWhole) (arg4 : Memref sig .tc .vmem S1x128 .f32) (harg4 : arg4.IsWhole)
    (arg5 : Memref sig .tc .vmem S1280x128 .f32) (harg5 : arg5.IsWhole)
    (xa : Vec F S128x1280 .f32) (xh : Vec F S1280x128 .f32) (xr : Vec F S1280x1 .f32) (xb : Vec F S1x128 .f32) (K : PUnit → sProp 𝕄) :
    iprop(owns (c : Thread nD τ) arg1 fullShare xa ∗ owns (c : Thread nD τ) arg2 fullShare xh ∗ owns (c : Thread nD τ) arg3 fullShare xr
        ∗ owns (c : Thread nD τ) arg4 fullShare xb ∗ (∃ d, owns (c : Thread nD τ) arg5 fullShare d)
        ∗ (iprop(owns (c : Thread nD τ) arg1 fullShare xa ∗ owns (c : Thread nD τ) arg2 fullShare xh ∗ owns (c : Thread nD τ) arg3 fullShare xr
            ∗ owns (c : Thread nD τ) arg4 fullShare xb ∗ owns (c : Thread nD τ) arg5 fullShare (out3 xa xh xr xb)) -∗ K ⟨⟩))
      ⊢ wp frame (wpE (defs₀ (F := F)) Variants.none c none) E (cc3__s4_body i arg1 harg1 arg2 harg2 arg3 harg3 arg4 harg4 arg5 harg5) K := by
  simp only [cc3__s4_body_eq_skeleton]; unfold cc3__s4_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3 _)

/-! ## The pipeline's proof data -/

/-- What a body that touches nothing but its windows may use and need not describe: the core's scoped buffers that are no
    staging buffer of this region, each at some contents, and the generator register at some state. -/
def ΦS (c : Dev nD) : sProp 𝕄 :=
  iprop(Pipeline.scopedRest (Ix := HIx 2) (Name := ℕ) (U := UU) (Lvl := ℕ) (Val := Elt F) spec3 c ∗ ∃ r, prngReg c r)

/-- The proof data of the second region on core c: the arrays as the region finds them; after the body at point t each
    input's buffer at its block and the output's at out3 of the input blocks; the invariant that of a body that touches
    nothing but its windows; the core owing O throughout; full shares. -/
def dat3 (c : Dev nD) : Dat τ (Elt F) (HIx 2) ℕ UU ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => out3 (blk3 V c 0 t) (blk3 V c 1 t) (blk3 V c 2 t) (blk3 V c 3 t)
  Φ _ := ΦS c
  q _ := fullShare
  owed _ := O
  recorded _ := B

theorem A_eq3 (c : Dev nD) (w : Fin cfg3.W) : (dat3 V O B c).A w = V c (Pipeline.arrRef spec3 w) := by
  dsimp only [dat3]

theorem after3_0 (c : Dev nD) (t : Fin cfg3.N) : (dat3 V O B c).after 0 t = blk3 V c 0 t := by dsimp only [dat3]
theorem after3_1 (c : Dev nD) (t : Fin cfg3.N) : (dat3 V O B c).after 1 t = blk3 V c 1 t := by dsimp only [dat3]
theorem after3_2 (c : Dev nD) (t : Fin cfg3.N) : (dat3 V O B c).after 2 t = blk3 V c 2 t := by dsimp only [dat3]
theorem after3_3 (c : Dev nD) (t : Fin cfg3.N) : (dat3 V O B c).after 3 t = blk3 V c 3 t := by dsimp only [dat3]
theorem after3_4 (c : Dev nD) (t : Fin cfg3.N) :
    (dat3 V O B c).after 4 t = out3 (blk3 V c 0 t) (blk3 V c 1 t) (blk3 V c 2 t) (blk3 V c 3 t) := by dsimp only [dat3]

theorem before3_0 (c : Dev nD) (t : Fin cfg3.N) (d) : (dat3 V O B c).before 0 t d = blk3 V c 0 t :=
  before3_0_of V (dat3 V O B c) (A_eq3 V O B c 0) (after3_0 V O B c) t d
theorem before3_1 (c : Dev nD) (t : Fin cfg3.N) (d) : (dat3 V O B c).before 1 t d = blk3 V c 1 t :=
  before3_1_of V (dat3 V O B c) (A_eq3 V O B c 1) (after3_1 V O B c) t d
theorem before3_2 (c : Dev nD) (t : Fin cfg3.N) (d) : (dat3 V O B c).before 2 t d = blk3 V c 2 t :=
  before3_2_of V (dat3 V O B c) (A_eq3 V O B c 2) (after3_2 V O B c) t d
theorem before3_3 (c : Dev nD) (t : Fin cfg3.N) (d) : (dat3 V O B c).before 3 t d = blk3 V c 3 t :=
  before3_3_of V (dat3 V O B c) (A_eq3 V O B c 3) (after3_3 V O B c) t d

/-! ## The body obligation, at a generic point -/

/-- What the body is called with at point t, the windows one by one, -/
def bodyPre3 (c : Dev nD) (t : Fin cfg3.N) : sProp 𝕄 :=
  iprop((dat3 V O B c).Φ t.castSucc ∗ (dat3 V O B c).owesAt (none : HIx 2) t.castSucc
    ∗ (∃ d, owns (c : Thread nD τ) (st3_0 t) fullShare ((dat3 V O B c).before 0 t d))
    ∗ (∃ d, owns (c : Thread nD τ) (st3_1 t) fullShare ((dat3 V O B c).before 1 t d))
    ∗ (∃ d, owns (c : Thread nD τ) (st3_2 t) fullShare ((dat3 V O B c).before 2 t d))
    ∗ (∃ d, owns (c : Thread nD τ) (st3_3 t) fullShare ((dat3 V O B c).before 3 t d))
    ∗ (∃ d, owns (c : Thread nD τ) (st3_4 t) fullShare ((dat3 V O B c).before 4 t d)))

/-- and what it returns. -/
def bodyPost3 (c : Dev nD) (t : Fin cfg3.N) : sProp 𝕄 :=
  iprop((dat3 V O B c).Φ t.succ ∗ (dat3 V O B c).owesAt (none : HIx 2) t.succ
    ∗ owns (c : Thread nD τ) (st3_0 t) fullShare ((dat3 V O B c).after 0 t)
    ∗ owns (c : Thread nD τ) (st3_1 t) fullShare ((dat3 V O B c).after 1 t)
    ∗ owns (c : Thread nD τ) (st3_2 t) fullShare ((dat3 V O B c).after 2 t)
    ∗ owns (c : Thread nD τ) (st3_3 t) fullShare ((dat3 V O B c).after 3 t)
    ∗ owns (c : Thread nD τ) (st3_4 t) fullShare ((dat3 V O B c).after 4 t))

/-- The body at any point: the inputs' memrefs hold their blocks, so the body's triple applies; the invariant and what the
    core owes pass through unread. -/
theorem sound_body3 (c : Dev nD) (t : Fin cfg3.N) :
    bodyPre3 V O B c t ⊢ wp frame (wpE (defs₀ (F := F)) Variants.none c none) Set.univ (bodyAt3 t) (fun _ => bodyPost3 V O B c t) := by
  unfold bodyPre3 bodyPost3 bodyAt3
  simp only [before3_0, before3_1, before3_2, before3_3]
  rw [show (dat3 V O B c).Φ t.succ = (dat3 V O B c).Φ t.castSucc from rfl,
    show (dat3 V O B c).owesAt (none : HIx 2) t.succ = (dat3 V O B c).owesAt (none : HIx 2) t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (blk3 V c 0 t) (blk3 V c 1 t) (blk3 V c 2 t) (blk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation3 (c : Dev nD) : BodyObligation (dat3 (F := F) V O B c) (defs₀ (F := F)) Variants.none (none : HIx 2) Set.univ := fun t => by
  rw [bigSep_W3, bigSep_W3]
  exact sound_body3 V O B c t

end Cert.KernelIdeal.Run

end
-- ==== Proof.KReg1.lean ====
/-
  The second gridded region as a step of the main program: entered after both vector-subcore calls, when the TensorCore
  owes the launch nothing more, from all of the TensorCore's unscoped arrays held at a valuation; left with the region's
  five arrays at what its write-backs leave and every other array as it was. The region's arrays are cut out of the held
  arrays at entry and put back at exit; the generator register goes through the body's invariant; the launch's handshake
  state and the TensorCore's own semaphores bypass the region.
-/
import proofs.«207969_g80633716015134_cont_9to1_m_1245_11_alg».proof.Proof.KReg1Body
import proofs.«207969_g80633716015134_cont_9to1_m_1245_11_alg».proof.Proof.KMain
import Idealize.ShloMosaic.Lib.Pipeline.FrameSuffix
import Idealize.ShloMosaic.Lib.Pipeline.RegionsLoop

set_option maxRecDepth 16384

noncomputable section

namespace Cert.KernelIdeal.Run

open Cert.KernelIdeal Cert.KernelIdeal.Gen

open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)
open Idealize.ShloMosaic.StableHlo (held)

variable {F : FTy → Type} [FloatOps F] [∀ e, Nonempty (Elt F e)]

local notation "𝕄" => MT nD τ sig (HIx 2) (Elt F) ℕ UU ℕ

variable (m : (ℓ : Loc nD τ sig) → Buf (Elt F) ℓ)

/-! ## The launch's handshake state of the TensorCore, as what it owes and the rest -/

/-- The TensorCore's handshake state before call n but for what it owes: its position on its done cell, that round
    reached, the sequencers' start rounds reached, the later calls' tokens and credit. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [∀ e, Nonempty (Elt F e)] in
theorem tcSt_eq (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcRest d n) := rfl

/-! ## The arrays at the region's entry and exit -/

section Region

variable (W : Valuation τ sig (Elt F))

/-- The entry valuation read at the TensorCore's references. -/
abbrev VofW : (c : Dev nD) → (b : Ref sig .tc) → Buf (Elt F) ((c : Thread nD τ).loc b) := fun _ b => W b

/-- The recorded waits the launch has the TensorCore at before the region: at or below the second call's band. -/
def B2 (c : Dev nD) : Set (SemLoc sig × HIx 2) := {p | (K (F := F)).lev (SparseCore.T c, p.1) p.2 ≤ 8 * 2}

/-- At the region's exit: its five arrays at what the pipeline leaves (the inputs as entered, the output's write-backs
    folded), every other array as entered. -/
def Wout (c : Dev nD) : Valuation τ sig (Elt F) :=
  Pipeline.withArrays spec3 c W fun w => (dat3 (F := F) (VofW W) 0 (B2 (F := F) c) c).arrAt w cfg3.N

theorem Wout_arr (c : Dev nD) (w : Fin cfg3.W) :
    Wout W c (Proc.devRef .tc (Pipeline.arrRef spec3 w)) = (dat3 (F := F) (VofW W) 0 (B2 (F := F) c) c).arrAt w cfg3.N := by
  unfold Wout; exact Pipeline.withArrays_arr spec3 launch3.win.arr_inj c _ _ w
theorem Wout_of_ne (c : Dev nD) (b : Ref sig .tc) (hb : ∀ w, Pipeline.arrRef spec3 w ≠ b) :
    Wout W c (Proc.devRef .tc b) = W (Proc.devRef .tc b) := by
  unfold Wout; exact Pipeline.withArrays_of_ne spec3 c _ _ b hb

/-- The region writes none of the arrays the calls read nor an argument. -/
theorem keeps_Wout (c : Dev nD) (hK : Keeps m c W) : Keeps m c (Wout W c) := by
  obtain ⟨h1, h2, h3, h4, h5, h6, h7⟩ := hK
  exact ⟨(Wout_of_ne W c main_v5 (by decide)).trans h1, (Wout_of_ne W c main_v7 (by decide)).trans h2, (Wout_of_ne W c main_v10 (by decide)).trans h3,
    (Wout_of_ne W c main_arg0 (by decide)).trans h4, (Wout_of_ne W c main_arg1 (by decide)).trans h5, (Wout_of_ne W c main_arg2 (by decide)).trans h6,
    (Wout_of_ne W c main_arg3 (by decide)).trans h7⟩

/-! ## The proof data family -/

/-- Proof data for the first region while the second runs: never consulted; any data over the same arrays. -/
def dat1' (c : Dev nD) : Dat τ (Elt F) (HIx 2) ℕ UU ℕ cfg1 c where
  A w := VofW W c (Pipeline.arrRef spec1 w)
  after w t := Dat.unnamed w t
  Φ _ := iprop(emp)
  q _ := fullShare
  owed _ := 0

/-- Both pipelines' proof data, a literal match so that the pinned configuration at a numeral reduces to the printed one. -/
def pd2 : (p : Fin 2) → (c : Dev nD) → Dat τ (Elt F) (HIx 2) ℕ UU ℕ (Pipeline.pin (pcfgs (F := F)) adm p) c
  | ⟨0, _⟩ => fun c => dat1' W c
  | ⟨1, _⟩ => fun c => dat3 (VofW W) 0 (B2 (F := F) c) c

/-! ## The region as a step -/

-- a library lemma stated over the pinned configuration unifies with the printed one only when unification may unfold plain
-- definitions in a metavariable's type
set_option backward.isDefEq.respectTransparency.types false in
/-- The second region over the thread state "the launch's handshake state after both calls, every unscoped array at W, the
    generator register and the TensorCore's own semaphores": its five arrays cut out of the held arrays and put back at
    what the pipeline leaves; what the TensorCore owes (nothing, both calls being over) through the pipeline's loop with its
    recorded waits bounded as the launch has them; no semaphore of the kernel's own. -/
def reg1 : Pipeline.RegionSeg (pcfgs (F := F)) adm (pd2 (F := F) W) (none : HIx 2) (defs₀ (F := F)) 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (body_obligation3 (VofW W) 0 (B2 (F := F) c) c).loose
  hwaits := Pipeline.hwaits_of_owed_zero _ _ _ _ (K (F := F)).L (K (F := F)).lev 1 fun _ _ => rfl
  pre c := iprop(⌜Keeps m c W⌝ ∗ (K (F := F)).tcSt EH c 2 ∗ held (SparseCore.T c) (Pipeline.ucRefs τ sig) W ∗ Aux c)
  post c := iprop(⌜Keeps m c W⌝ ∗ (K (F := F)).tcSt EH c 2 ∗ held (SparseCore.T c) (Pipeline.ucRefs τ sig) (Wout W c) ∗ Aux c)
  X c := iprop(∃ r, prngReg c r)
  Y c := iprop(∃ r, prngReg c r)
  Z c := iprop(⌜Keeps m c W⌝ ∗ Pipeline.unscopedRest (Ix := HIx 2) (Name := ℕ) (U := UU) (Lvl := ℕ) spec3 c (VofW W c)
    ∗ tcRest c 2 ∗ (K (F := F)).tcSems0 c)
  hentry c := by
    rw [Pipeline.ownSems0_none]
    have hsplit := Pipeline.arrays_of_unscopedBufs (p := 1) (pcfgs (F := F)) adm (pd2 (F := F) W) launch3.win launch3.arr_whole c
      ((pd2 (F := F) W 1 c).share_full fun _ => rfl) (VofW W c) fun _ => rfl
    rw [Pipeline.unscopedBufs_held] at hsplit
    rw [tcSt_eq, (K (F := F)).Otc_end c (le_refl 2)]
    unfold Aux
    iintro ⟨⟨%hK, ⟨⟨%Wr, %hWr, HO⟩, Hrest⟩, Hub, ⟨Hp, Hsm⟩⟩, -, -⟩
    ihave H := hsplit $$ Hub
    icases H with ⟨Ha, Hur⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wr; isplitr
      · ipureintro; exact fun p hp => Or.inl (hWr p (Finset.mem_coe.mp hp))
      iexact HO
    isplitl [Hp]; · iexact Hp
    isplitr; · ipureintro; exact hK
    isplitl [Hur]; · iexact Hur
    isplitl [Hrest]; · iexact Hrest
    iexact Hsm
  hin c := by
    rw [show (pd2 (F := F) W 1 c).Φ 0 = ΦS c from rfl]; unfold ΦS
    iintro ⟨Hp, -, Hr⟩
    isplitl [Hr]; · iexact Hr
    iexact Hp
  hout c := by
    rw [Pipeline.ownSems0_none, show (pd2 (F := F) W 1 c).Φ (Fin.last _) = ΦS c from rfl]; unfold ΦS
    iintro ⟨Hr, Hp⟩
    isplitl [Hp]; · iexact Hp
    isplitr; · iempintro
    iexact Hr
  hexit c := by
    have hjoin := Pipeline.unscopedBufs_of_arrays (p := 1) (pcfgs (F := F)) adm (Ix := HIx 2) (Name := ℕ) (U := UU) (Lvl := ℕ)
      launch3.win launch3.arr_whole c (pd2 (F := F) W) ((pd2 (F := F) W 1 c).share_full fun _ => rfl)
      (VofW W c) (fun b => Wout W c b) ((pd2 (F := F) W 1 c).arrAt · cfg3.N) (fun w => (Wout_arr W c w).symm)
      (fun b hb => Wout_of_ne W c b fun w e => hb (Finset.mem_image.mpr ⟨w, Finset.mem_univ _, e⟩))
    rw [Pipeline.unscopedBufs_held] at hjoin
    rw [tcSt_eq, (K (F := F)).Otc_end c (le_refl 2)]
    unfold Aux
    iintro ⟨Ha, HO, HY, ⟨%hK, Hur, Hrest, Hsm⟩⟩
    imodintro
    isplitr; · ipureintro; exact hK
    isplitl [HO Hrest]
    · isplitl [HO]
      · unfold Pipeline.Dat.owesAt Pipeline.owesWithin
        icases HO with ⟨%W', %hW', HO⟩; iexists W'; isplitr
        · ipureintro
          intro p hp
          rcases hW' (Finset.mem_coe.mpr hp) with h | ⟨w, s, rfl⟩
          · exact h
          · show (K (F := F)).lev _ none ≤ 8 * 2
            rw [SparseCore.Cfg.lev_none]; omega
        iexact HO
      iexact Hrest
    isplitl [Ha Hur]
    · iapply hjoin; isplitl [Ha] <;> iassumption
    isplitl [HY]; · iexact HY
    iexact Hsm

/-! ## The region's record for the main program -/

/-- The relational form of the proof data the main program's region step takes. -/
abbrev rd1F : (p : Fin 2) → (c : Dev nD) → Pipeline.RDat τ (Elt F) (HIx 2) ℕ UU ℕ (Pipeline.pin (pcfgs (F := F)) adm p) c :=
  Pipeline.Dat.toRs (pd2 (F := F) W)

/-- The record, in the relational kit's form. -/
abbrev R1F : Pipeline.RDat.RegionSeg (pcfgs (F := F)) adm (rd1F (F := F) W) (none : HIx 2) (defs₀ (F := F)) 𝒱₀ (K (F := F)).L (K (F := F)).lev 1 :=
  (reg1 m W).toR

theorem h1pre' (d : Dev nD) (hK : Keeps m d W) :
    iprop((K (F := F)).tcSt EH d 2 ∗ held (SparseCore.T d) (Pipeline.ucRefs τ sig) W ∗ Aux d) ⊢ (R1F m W).pre d := by
  show _ ⊢ iprop(⌜Keeps m d W⌝ ∗ (K (F := F)).tcSt EH d 2 ∗ held (SparseCore.T d) (Pipeline.ucRefs τ sig) W ∗ Aux d)
  iintro H
  isplitr; · ipureintro; exact hK
  iexact H

theorem h1post' (d : Dev nD) :
    (R1F m W).post d ⊢ iprop(∃ W', ⌜Keeps m d W'⌝ ∗ (K (F := F)).tcSt EH d 2 ∗ held (SparseCore.T d) (Pipeline.ucRefs τ sig) W' ∗ Aux d) := by
  show iprop(⌜Keeps m d W⌝ ∗ (K (F := F)).tcSt EH d 2 ∗ held (SparseCore.T d) (Pipeline.ucRefs τ sig) (Wout W d) ∗ Aux d) ⊢ _
  iintro ⟨%hK, H⟩
  iexists (Wout W d)
  isplitr; · ipureintro; exact keeps_Wout m W d hK
  iexact H

end Region

end Cert.KernelIdeal.Run

end
-- ==== Proof.KReg0.lean ====
/-
  The first gridded region as a step of the main program: entered between the two vector-subcore calls, while the
  TensorCore still owes the second call's start signals, from all of the TensorCore's unscoped arrays held at a valuation;
  left with the region's six arrays at what its write-backs leave and every other array as it was. The region's arrays are
  cut out of the held arrays at entry and put back at exit; the generator register goes through the body's invariant; what
  the TensorCore owes passes through the pipeline's loop unchanged, every wait of the loop being on a staging cell at the
  kernels' own index, which sits below every call's; the rest of the launch's handshake state and the TensorCore's own
  semaphores bypass the region.
-/
import proofs.«207969_g80633716015134_cont_9to1_m_1245_11_alg».proof.Proof.KReg0Body
import proofs.«207969_g80633716015134_cont_9to1_m_1245_11_alg».proof.Proof.KReg1
import proofs.«207969_g80633716015134_cont_9to1_m_1245_11_alg».proof.Proof.KMain
import Idealize.ShloMosaic.Lib.Pipeline.FrameSuffix
import Idealize.ShloMosaic.Lib.Pipeline.RegionsLoop

set_option maxRecDepth 16384

noncomputable section

namespace Cert.KernelIdeal.Run

open Cert.KernelIdeal Cert.KernelIdeal.Gen

open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)
open Idealize.ShloMosaic.StableHlo (held)

variable {F : FTy → Type} [FloatOps F] [∀ e, Nonempty (Elt F e)]

local notation "𝕄" => MT nD τ sig (HIx 2) (Elt F) ℕ UU ℕ

variable (m : (ℓ : Loc nD τ sig) → Buf (Elt F) ℓ)

/-! ## What the TensorCore owes the launch is all at a call's index -/

omit [∀ e, Nonempty (Elt F e)] in
/-- Before any call the TensorCore owes start signals only, each at its call's index: nothing at the kernels' own index. -/
theorem Otc_none (d : Dev nD) (n : ℕ) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    rw [tallyAt_apply, if_neg (by rintro ⟨-, h⟩; cases h)]
  · rfl

/-! ## The arrays at the region's entry and exit -/

section Region

variable (W : Valuation τ sig (Elt F))

/-- The recorded waits the launch has the TensorCore at before the region: at or below the first call's band. -/
def B1 (c : Dev nD) : Set (SemLoc sig × HIx 2) := {p | (K (F := F)).lev (SparseCore.T c, p.1) p.2 ≤ 8 * 1}

/-- At the region's exit: its six arrays at what the pipeline leaves (the inputs as entered, the outputs' write-backs
    folded), every other array as entered. -/
def Wout0 (c : Dev nD) : Valuation τ sig (Elt F) :=
  Pipeline.withArrays spec1 c W fun w => (dat1 (F := F) (VofW W) ((K (F := F)).Otc c 1) (B1 (F := F) c) c).arrAt w cfg1.N

theorem Wout0_arr (c : Dev nD) (w : Fin cfg1.W) :
    Wout0 W c (Proc.devRef .tc (Pipeline.arrRef spec1 w))
      = (dat1 (F := F) (VofW W) ((K (F := F)).Otc c 1) (B1 (F := F) c) c).arrAt w cfg1.N := by
  unfold Wout0; exact Pipeline.withArrays_arr spec1 launch1.win.arr_inj c _ _ w
theorem Wout0_of_ne (c : Dev nD) (b : Ref sig .tc) (hb : ∀ w, Pipeline.arrRef spec1 w ≠ b) :
    Wout0 W c (Proc.devRef .tc b) = W (Proc.devRef .tc b) := by
  unfold Wout0; exact Pipeline.withArrays_of_ne spec1 c _ _ b hb

/-- The region writes none of the arrays the calls read nor an argument. -/
theorem keeps_Wout0 (c : Dev nD) (hK : Keeps m c W) : Keeps m c (Wout0 W c) := by
  obtain ⟨h1, h2, h3, h4, h5, h6, h7⟩ := hK
  exact ⟨(Wout0_of_ne W c main_v5 (by decide)).trans h1, (Wout0_of_ne W c main_v7 (by decide)).trans h2, (Wout0_of_ne W c main_v10 (by decide)).trans h3,
    (Wout0_of_ne W c main_arg0 (by decide)).trans h4, (Wout0_of_ne W c main_arg1 (by decide)).trans h5, (Wout0_of_ne W c main_arg2 (by decide)).trans h6,
    (Wout0_of_ne W c main_arg3 (by decide)).trans h7⟩

/-! ## The proof data family -/

/-- Proof data for the second region while the first runs: never consulted; any data over the same arrays. -/
def dat3' (c : Dev nD) : Dat τ (Elt F) (HIx 2) ℕ UU ℕ cfg3 c where
  A w := VofW W c (Pipeline.arrRef spec3 w)
  after w t := Dat.unnamed w t
  Φ _ := iprop(emp)
  q _ := fullShare
  owed _ := 0

/-- Both pipelines' proof data, a literal match so that the pinned configuration at a numeral reduces to the printed one. -/
def pd0 : (p : Fin 2) → (c : Dev nD) → Dat τ (Elt F) (HIx 2) ℕ UU ℕ (Pipeline.pin (pcfgs (F := F)) adm p) c
  | ⟨0, _⟩ => fun c => dat1 (VofW W) ((K (F := F)).Otc c 1) (B1 (F := F) c) c
  | ⟨1, _⟩ => fun c => dat3' W c

/-! ## The region as a step -/

-- a library lemma stated over the pinned configuration unifies with the printed one only when unification may unfold plain
-- definitions in a metavariable's type
set_option backward.isDefEq.respectTransparency.types false in
/-- The first region over the thread state "the launch's handshake state between the two calls, every unscoped array at W,
    the generator register and the TensorCore's own semaphores": its six arrays cut out of the held arrays and put back at
    what the pipeline leaves; what the TensorCore owes (the second call's start signals) through the pipeline's loop
    unchanged, its recorded waits bounded as the launch has them; no semaphore of the kernel's own. -/
def reg0 : Pipeline.RegionSeg (pcfgs (F := F)) adm (pd0 (F := F) W) (none : HIx 2) (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 (VofW W) ((K (F := F)).Otc c 1) (B1 (F := F) c) c).loose
  hwaits c := Pipeline.cellsWaits_intro (Pipeline.pin (pcfgs (F := F)) adm) (pd0 (F := F) W) (none : HIx 2) 0 c
    fun w s t => (K (F := F)).mayWait_none (.dma _) (Otc_none c 1)
  pre c := iprop(⌜Keeps m c W⌝ ∗ (K (F := F)).tcSt EH c 1 ∗ held (SparseCore.T c) (Pipeline.ucRefs τ sig) W ∗ Aux c)
  post c := iprop(⌜Keeps m c W⌝ ∗ (K (F := F)).tcSt EH c 1 ∗ held (SparseCore.T c) (Pipeline.ucRefs τ sig) (Wout0 W c) ∗ Aux c)
  X c := iprop(∃ r, prngReg c r)
  Y c := iprop(∃ r, prngReg c r)
  Z c := iprop(⌜Keeps m c W⌝ ∗ Pipeline.unscopedRest (Ix := HIx 2) (Name := ℕ) (U := UU) (Lvl := ℕ) spec1 c (VofW W c)
    ∗ tcRest c 1 ∗ (K (F := F)).tcSems0 c)
  hentry c := by
    rw [Pipeline.ownSems0_none]
    have hsplit := Pipeline.arrays_of_unscopedBufs (p := 0) (pcfgs (F := F)) adm (pd0 (F := F) W) launch1.win launch1.arr_whole c
      ((pd0 (F := F) W 0 c).share_full fun _ => rfl) (VofW W c) fun _ => rfl
    rw [Pipeline.unscopedBufs_held] at hsplit
    rw [tcSt_eq]
    unfold Aux
    iintro ⟨⟨%hK, ⟨⟨%Wr, %hWr, HO⟩, Hrest⟩, Hub, ⟨Hp, Hsm⟩⟩, -, -⟩
    ihave H := hsplit $$ Hub
    icases H with ⟨Ha, Hur⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wr; isplitr
      · ipureintro; exact fun p hp => Or.inl (hWr p (Finset.mem_coe.mp hp))
      iexact HO
    isplitl [Hp]; · iexact Hp
    isplitr; · ipureintro; exact hK
    isplitl [Hur]; · iexact Hur
    isplitl [Hrest]; · iexact Hrest
    iexact Hsm
  hin c := by
    rw [show (pd0 (F := F) W 0 c).Φ 0 = ΦS1 c from rfl]; unfold ΦS1
    iintro ⟨Hp, -, Hr⟩
    isplitl [Hr]; · iexact Hr
    iexact Hp
  hout c := by
    rw [Pipeline.ownSems0_none, show (pd0 (F := F) W 0 c).Φ (Fin.last _) = ΦS1 c from rfl]; unfold ΦS1
    iintro ⟨Hr, Hp⟩
    isplitl [Hp]; · iexact Hp
    isplitr; · iempintro
    iexact Hr
  hexit c := by
    have hjoin := Pipeline.unscopedBufs_of_arrays (p := 0) (pcfgs (F := F)) adm (Ix := HIx 2) (Name := ℕ) (U := UU) (Lvl := ℕ)
      launch1.win launch1.arr_whole c (pd0 (F := F) W) ((pd0 (F := F) W 0 c).share_full fun _ => rfl)
      (VofW W c) (fun b => Wout0 W c b) ((pd0 (F := F) W 0 c).arrAt · cfg1.N) (fun w => (Wout0_arr W c w).symm)
      (fun b hb => Wout0_of_ne W c b fun w e => hb (Finset.mem_image.mpr ⟨w, Finset.mem_univ _, e⟩))
    rw [Pipeline.unscopedBufs_held] at hjoin
    rw [tcSt_eq]
    unfold Aux
    iintro ⟨Ha, HO, HY, ⟨%hK, Hur, Hrest, Hsm⟩⟩
    imodintro
    isplitr; · ipureintro; exact hK
    isplitl [HO Hrest]
    · isplitl [HO]
      · unfold Pipeline.Dat.owesAt Pipeline.owesWithin
        icases HO with ⟨%W', %hW', HO⟩; iexists W'; isplitr
        · ipureintro
          intro p hp
          rcases hW' (Finset.mem_coe.mpr hp) with h | ⟨w, s, rfl⟩
          · exact h
          · show (K (F := F)).lev _ none ≤ 8 * 1
            rw [SparseCore.Cfg.lev_none]; omega
        iexact HO
      iexact Hrest
    isplitl [Ha Hur]
    · iapply hjoin; isplitl [Ha] <;> iassumption
    isplitl [HY]; · iexact HY
    iexact Hsm

/-! ## The region's record for the main program -/

/-- The relational form of the proof data the main program's region step takes. -/
abbrev rd0F : (p : Fin 2) → (c : Dev nD) → Pipeline.RDat τ (Elt F) (HIx 2) ℕ UU ℕ (Pipeline.pin (pcfgs (F := F)) adm p) c :=
  Pipeline.Dat.toRs (pd0 (F := F) W)

/-- The record, in the relational kit's form. -/
abbrev R0F : Pipeline.RDat.RegionSeg (pcfgs (F := F)) adm (rd0F (F := F) W) (none : HIx 2) (defs₀ (F := F)) 𝒱₀ (K (F := F)).L (K (F := F)).lev 0 :=
  (reg0 m W).toR

theorem h0pre' (d : Dev nD) (hK : Keeps m d W) :
    iprop((K (F := F)).tcSt EH d 1 ∗ held (SparseCore.T d) (Pipeline.ucRefs τ sig) W ∗ Aux d) ⊢ (R0F m W).pre d := by
  show _ ⊢ iprop(⌜Keeps m d W⌝ ∗ (K (F := F)).tcSt EH d 1 ∗ held (SparseCore.T d) (Pipeline.ucRefs τ sig) W ∗ Aux d)
  iintro H
  isplitr; · ipureintro; exact hK
  iexact H

theorem h0post' (d : Dev nD) :
    (R0F m W).post d ⊢ iprop(∃ W', ⌜Keeps m d W'⌝ ∗ (K (F := F)).tcSt EH d 1 ∗ held (SparseCore.T d) (Pipeline.ucRefs τ sig) W' ∗ Aux d) := by
  show iprop(⌜Keeps m d W⌝ ∗ (K (F := F)).tcSt EH d 1 ∗ held (SparseCore.T d) (Pipeline.ucRefs τ sig) (Wout0 W d) ∗ Aux d) ⊢ _
  iintro ⟨%hK, H⟩
  iexists (Wout0 W d)
  isplitr; · ipureintro; exact keeps_Wout0 m W d hK
  iexact H

end Region

end Cert.KernelIdeal.Run

end
-- ==== Proof.KClaims.lean ====
/-
  The frame claim of the kernel program: under the input-domain precondition every weakly fair execution of its thirty-five
  threads terminates, nothing faulting, and the four arguments end unchanged.
-/
import proofs.«207969_g80633716015134_cont_9to1_m_1245_11_alg».proof.Defs
import proofs.«207969_g80633716015134_cont_9to1_m_1245_11_alg».proof.Proof.KFrame
import proofs.«207969_g80633716015134_cont_9to1_m_1245_11_alg».proof.Proof.KRange
import proofs.«207969_g80633716015134_cont_9to1_m_1245_11_alg».proof.Proof.KTile0
import proofs.«207969_g80633716015134_cont_9to1_m_1245_11_alg».proof.Proof.KTile1
import proofs.«207969_g80633716015134_cont_9to1_m_1245_11_alg».proof.Proof.KReg0
import proofs.«207969_g80633716015134_cont_9to1_m_1245_11_alg».proof.Proof.KReg1

noncomputable section

namespace Cert.KernelIdeal.Run

open Cert.KernelIdeal Cert.KernelIdeal.Gen
open Idealize.ShloMosaic Idealize.SL.Sem

/-- The kernel program's run with the arguments unchanged, at any float instance, from the precondition: the launch of the
    two calls over the main program, each call's task at a symbolic worker, each gridded region as a step of the main
    program, and the index arrays' words in range. -/
theorem run_args_of_pre {F : FTy → Type} [FloatOps F] [∀ e, Nonempty (Elt F e)]
    (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩ (fun r => ∀ c : Dev nD,
      r.2.mem (a0Loc c) = m (a0Loc c) ∧ r.2.mem (a1Loc c) = m (a1Loc c) ∧ r.2.mem (a2Loc c) = m (a2Loc c) ∧ r.2.mem (a3Loc c) = m (a3Loc c)) :=
  run_args m ρ (fun W => rd0F (F := F) W) (fun W => rd1F (F := F) W) (fun W => R0F m W) (fun W => R1F m W)
    (tileObl0 (fs m) (fd m) (fz m) (fun d j => fd_range m hpre d j))
    (tileObl1 (fs m) (fd m) (fz m) (fun d j => fs_range m hpre d j) (fun d j => fd_range m hpre d j))
    (fun d W hK => h0pre' m W d hK) (fun d W => h0post' m W d) (fun d W hK => h1pre' m W d hK) (fun d W => h1post' m W d)

end Cert.KernelIdeal.Run

end
-- ==== Proof.BSetup.lean ====
/-
  The graph-convolution layer's kernel program as a launch of thirty-five threads: the TensorCore's main program, two
  sequencers, and thirty-two vector subcores (two cores of sixteen). Two calls go to the vector subcores: the first counts,
  per subcore, the non-self edges into each node for that subcore's tenth-of-a-thirty-second of the edge list; the second
  accumulates, per subcore, four feature columns over all edges. Between and after them the TensorCore runs two gridded
  regions. This module fixes what each handshake carries.

  Worker (c, i) (core c, subcore i) has number w = 2 i + c. In the first call it reads the padded source and destination
  index arrays and the zero vector whole (a read token of each) and owns row w of the 32-row count array. In the second it
  reads the same three arrays whole, owns rows 4 w … 4 w + 3 of the transposed feature array (read) and of the transposed
  aggregate array (written). A core's share is the product of its subcores' shares, so that dealing a core's share to its
  subcores is the identity.
-/
import proofs.«207969_g80633716015134_cont_9to1_m_1245_11_alg».proof.Kernel
import proofs.«207969_g80633716015134_cont_9to1_m_1245_11_alg».proof.Proof.Gen.Kernel
import proofs.«207969_g80633716015134_cont_9to1_m_1245_11_alg».proof.Proof.LibReadTokens
import Idealize.ShloMosaic.Lib.SparseCore.Launch
import Idealize.ShloMosaic.Lib.Pipeline.Kit
import Idealize.ShloMosaic.Lib.Transfers

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the two gridded regions' staging rounds, the copies' counters -/

abbrev UH : Type := URounds (GSem nD τ sig) ℕ
abbrev UP : Type := UR sig nD τ
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) := (Emb.inl : Emb UP (UP × Counters)).trans embR

instance EP_landsIn : (EP : Emb UP 𝕄).LandsIn (upEmb : UEmb _ 𝕄) := by unfold EP embR; infer_instance

/-! ## The arrays the calls exchange, as the TensorCore names them -/

abbrev srcLoc (d : Dev nD) : Loc nD τ sig := (SparseCore.T d).loc main_v5
abbrev dstLoc (d : Dev nD) : Loc nD τ sig := (SparseCore.T d).loc main_v7
abbrev zeroLoc (d : Dev nD) : Loc nD τ sig := (SparseCore.T d).loc main_v10
abbrev cntLoc (d : Dev nD) : Loc nD τ sig := (SparseCore.T d).loc main_v13
abbrev htLoc (d : Dev nD) : Loc nD τ sig := (SparseCore.T d).loc main_v16_1
abbrev aggLoc (d : Dev nD) : Loc nD τ sig := (SparseCore.T d).loc main_v17

/-- The worker number of (core, subcore). -/
def wid (c : ℕ) (i : ℕ) : ℕ := 2 * i + c

theorem hdiv32 : 32 ∣ S32x10256.size 0 := ⟨1, rfl⟩

/-- Row w of the 32-row count array: the w-th of the 32 equal parts of its first axis. -/
abbrev cntRow (w : Fin 32) : Rect S32x10256 := Rect.part (s := S32x10256) (a₀ := 0) hdiv32 w

theorem hdiv128 : 128 ∣ S128x10240.size 0 := ⟨1, rfl⟩

/-- Row r of a 128-row transposed feature or aggregate array: the r-th of the 128 equal parts of its first axis. -/
abbrev colRow (r : Fin 128) : Rect S128x10240 := Rect.part (s := S128x10240) (a₀ := 0) hdiv128 r

theorem wid_lt {c i : ℕ} (hc : c < 2) (hi : i < 16) : wid c i < 32 := by unfold wid; omega
theorem wid4_lt {c i : ℕ} (hc : c < 2) (hi : i < 16) (k : Fin 4) : 4 * wid c i + k.val < 128 := by
  unfold wid; have := k.isLt; omega

variable [FloatOps F]

/-! ## What the handshakes carry -/

section Pays

variable (fs : (d : Dev nD) → Buf (Elt F) (srcLoc d)) (fd : (d : Dev nD) → Buf (Elt F) (dstLoc d)) (fz : (d : Dev nD) → Buf (Elt F) (zeroLoc d))

/-- A worker's read token of an array held whole at contents f. -/
abbrev tok (ℓ : Loc nD τ sig) (f : Buf (Elt F) ℓ) (c : Fin 2) (i : Fin 16) : sProp 𝕄 :=
  ℓ ↦[Finset.univ]{shareTok (shareTok fullShare 2 c) 16 i} f

/-- The three arrays every worker reads whole in both calls. -/
def reads (d : Dev nD) (c : Fin 2) (i : Fin 16) : sProp 𝕄 :=
  iprop(tok (srcLoc d) (fs d) c i ∗ tok (dstLoc d) (fd d) c i ∗ tok (zeroLoc d) (fz d) c i)

/-- First call: the reads and the worker's row of the count array, at whatever it holds. -/
def pay0 (d : Dev nD) (c : Fin 2) (i : Fin 16) : sProp 𝕄 :=
  iprop(reads fs fd fz d c i ∗ ∃ g : Buf (Elt F) (cntLoc d), cntLoc d ↦[(cntRow ⟨wid c.val i.val, wid_lt c.isLt i.isLt⟩).set]{fullShare} g)

/-- Second call: the reads, the worker's four rows of the transposed features and of the transposed aggregate, each at
    whatever it holds. -/
def pay1 (d : Dev nD) (c : Fin 2) (i : Fin 16) : sProp 𝕄 :=
  iprop(reads fs fd fz d c i
    ∗ (bigSep Finset.univ fun k : Fin 4 => iprop(∃ h : Buf (Elt F) (htLoc d), htLoc d ↦[(colRow ⟨4 * wid c.val i.val + k.val, wid4_lt c.isLt i.isLt k⟩).set]{fullShare} h))
    ∗ bigSep Finset.univ fun k : Fin 4 => iprop(∃ g : Buf (Elt F) (aggLoc d), aggLoc d ↦[(colRow ⟨4 * wid c.val i.val + k.val, wid4_lt c.isLt i.isLt k⟩).set]{fullShare} g))

/-- Both ways the same: a task hands back what it was handed, its output rows at new contents. -/
def P : (K (F := F)).Pay (nD := nD) (Val := Elt F) (Name := ℕ) (U := UU) where
  st := fun q d c => match q with
    | ⟨0, _⟩ => bigSep Finset.univ fun i : Fin 16 => pay0 fs fd fz d c i
    | ⟨1, _⟩ => bigSep Finset.univ fun i : Fin 16 => pay1 fs fd fz d c i
  dn := fun q d c => match q with
    | ⟨0, _⟩ => bigSep Finset.univ fun i : Fin 16 => pay0 fs fd fz d c i
    | ⟨1, _⟩ => bigSep Finset.univ fun i : Fin 16 => pay1 fs fd fz d c i
  go := fun q d c i => match q with
    | ⟨0, _⟩ => pay0 fs fd fz d c i
    | ⟨1, _⟩ => pay1 fs fd fz d c i
  td := fun q d c i => match q with
    | ⟨0, _⟩ => pay0 fs fd fz d c i
    | ⟨1, _⟩ => pay1 fs fd fz d c i
  x := fun _ _ => iprop(emp)

end Pays

end Cert.Kernel.Run

end
-- ==== Proof.BSplit.lean ====
/-
  Cutting the arrays the two calls exchange among the thirty-two workers, and putting them back.
  Worker (c, i) has number 2 i + c; the pairs (c, i) are in bijection with the numbers below 32, and the triples
  ((c, i), k) with the rows 4 (2 i + c) + k below 128. An array whose first axis has 32 (or 128) rows is the disjoint
  union of its rows, so a whole array at the full share is one row per worker (or four), and rows held each at contents of
  its own are one array at some contents.
-/
import proofs.«207969_g80633716015134_cont_9to1_m_1245_11_alg».proof.Proof.BSetup

noncomputable section

namespace Cert.Kernel.Run

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F] [∀ e, Nonempty (Elt F e)]

local notation "𝕄" => MT nD τ sig (HIx 2) (Elt F) ℕ UU ℕ

/-! ## The numbering -/

/-- (core, subcore) ↦ 2 · subcore + core, onto the numbers below 32. -/
def e32 : Fin 2 × Fin 16 ≃ Fin 32 where
  toFun p := ⟨wid p.1.val p.2.val, wid_lt p.1.isLt p.2.isLt⟩
  invFun w := (⟨w.val % 2, Nat.mod_lt _ (by omega)⟩, ⟨w.val / 2, by have := w.isLt; omega⟩)
  left_inv p := by
    obtain ⟨⟨c, hc⟩, ⟨i, hi⟩⟩ := p
    refine Prod.ext (Fin.ext ?_) (Fin.ext ?_)
    · show (wid c i) % 2 = c; unfold wid; omega
    · show (wid c i) / 2 = i; unfold wid; omega
  right_inv w := by
    apply Fin.ext
    show wid (w.val % 2) (w.val / 2) = w.val
    unfold wid; omega

theorem e32_apply (c : Fin 2) (i : Fin 16) : e32 (c, i) = ⟨wid c.val i.val, wid_lt c.isLt i.isLt⟩ := rfl

/-- ((core, subcore), k) ↦ 4 · (2 · subcore + core) + k, onto the rows below 128. -/
def e128 : (Fin 2 × Fin 16) × Fin 4 ≃ Fin 128 where
  toFun p := ⟨4 * wid p.1.1.val p.1.2.val + p.2.val, wid4_lt p.1.1.isLt p.1.2.isLt p.2⟩
  invFun r := ((⟨(r.val / 4) % 2, Nat.mod_lt _ (by omega)⟩, ⟨(r.val / 4) / 2, by have := r.isLt; omega⟩), ⟨r.val % 4, Nat.mod_lt _ (by omega)⟩)
  left_inv p := by
    obtain ⟨⟨⟨c, hc⟩, ⟨i, hi⟩⟩, ⟨k, hk⟩⟩ := p
    refine Prod.ext (Prod.ext (Fin.ext ?_) (Fin.ext ?_)) (Fin.ext ?_)
    · show ((4 * wid c i + k) / 4) % 2 = c; unfold wid; omega
    · show ((4 * wid c i + k) / 4) / 2 = i; unfold wid; omega
    · show (4 * wid c i + k) % 4 = k; unfold wid; omega
  right_inv r := by
    apply Fin.ext
    show 4 * wid ((r.val / 4) % 2) ((r.val / 4) / 2) + r.val % 4 = r.val
    unfold wid; omega

theorem e128_apply (c : Fin 2) (i : Fin 16) (k : Fin 4) : e128 ((c, i), k) = ⟨4 * wid c.val i.val + k.val, wid4_lt c.isLt i.isLt k⟩ := rfl

/-! ## The count array: one row per worker -/

theorem cnt_rows_disjoint : ∀ w ∈ (Finset.univ : Finset (Fin 32)), ∀ w' ∈ (Finset.univ : Finset (Fin 32)), w ≠ w' → Disjoint (cntRow w).set (cntRow w').set :=
  fun _ _ _ _ h => Rect.part_disjoint hdiv32 h
theorem cnt_rows_cover : (Finset.univ : Finset (Fin 32)).biUnion (fun w => (cntRow w).set) = Finset.univ := Rect.biUnion_part hdiv32

omit [∀ e, Nonempty (Elt F e)] in
/-- The whole count array is one row per worker. -/
theorem cnt_rows (d : Dev nD) (g : Buf (Elt F) (cntLoc d)) :
    (cntLoc d ↦{fullShare} g : sProp 𝕄)
      = bigSep Finset.univ fun c : Fin 2 => bigSep Finset.univ fun i : Fin 16 => cntLoc d ↦[(cntRow (e32 (c, i))).set]{fullShare} g :=
  calc (cntLoc d ↦{fullShare} g : sProp 𝕄)
      = cntLoc d ↦[(Finset.univ : Finset (Fin 32)).biUnion fun w => (cntRow w).set]{fullShare} g := by rw [cnt_rows_cover]
    _ = bigSep Finset.univ fun w : Fin 32 => cntLoc d ↦[(cntRow w).set]{fullShare} g := pointsTo_biUnion Finset.univ _ cnt_rows_disjoint
    _ = bigSep Finset.univ fun p : Fin 2 × Fin 16 => cntLoc d ↦[(cntRow (e32 p)).set]{fullShare} g := bigSep_univ_equiv e32 _
    _ = _ := bigSep_univ_prod _

/-- Rows held each at contents of its own are the whole array at some contents. -/
theorem cnt_rows_join (d : Dev nD) :
    (bigSep Finset.univ fun c : Fin 2 => bigSep Finset.univ fun i : Fin 16 => iprop(∃ g : Buf (Elt F) (cntLoc d), cntLoc d ↦[(cntRow (e32 (c, i))).set]{fullShare} g))
      ⊢ (iprop(∃ g : Buf (Elt F) (cntLoc d), cntLoc d ↦{fullShare} g) : sProp 𝕄) := by
  rw [← bigSep_univ_prod (fun p : Fin 2 × Fin 16 => iprop(∃ g : Buf (Elt F) (cntLoc d), cntLoc d ↦[(cntRow (e32 p)).set]{fullShare} g)),
    ← bigSep_univ_equiv e32 (fun w : Fin 32 => iprop(∃ g : Buf (Elt F) (cntLoc d), cntLoc d ↦[(cntRow w).set]{fullShare} g))]
  refine (bigSep_exists_pi Finset.univ (fun (w : Fin 32) (g : Buf (Elt F) (cntLoc d)) => (cntLoc d ↦[(cntRow w).set]{fullShare} g : sProp 𝕄))).trans ?_
  iintro ⟨%gs, H⟩
  ihave H' := (pointsTo_biUnion_join Finset.univ (fun w : Fin 32 => (cntRow w).set) gs (gs 0) cnt_rows_disjoint) $$ H
  icases H' with ⟨%g, -, Hg⟩
  rw [cnt_rows_cover]
  iexists g; iexact Hg

/-! ## The 128-row arrays: four rows per worker -/

theorem col_rows_disjoint : ∀ r ∈ (Finset.univ : Finset (Fin 128)), ∀ r' ∈ (Finset.univ : Finset (Fin 128)), r ≠ r' → Disjoint (colRow r).set (colRow r').set :=
  fun _ _ _ _ h => Rect.part_disjoint hdiv128 h
theorem col_rows_cover : (Finset.univ : Finset (Fin 128)).biUnion (fun r => (colRow r).set) = Finset.univ := Rect.biUnion_part hdiv128

omit [∀ e, Nonempty (Elt F e)] in
/-- The whole transposed feature array is four rows per worker. -/
theorem ht_rows (d : Dev nD) (h : Buf (Elt F) (htLoc d)) :
    (htLoc d ↦{fullShare} h : sProp 𝕄)
      = bigSep Finset.univ fun c : Fin 2 => bigSep Finset.univ fun i : Fin 16 => bigSep Finset.univ fun k : Fin 4 =>
          htLoc d ↦[(colRow (e128 ((c, i), k))).set]{fullShare} h :=
  calc (htLoc d ↦{fullShare} h : sProp 𝕄)
      = htLoc d ↦[(Finset.univ : Finset (Fin 128)).biUnion fun r => (colRow r).set]{fullShare} h := by rw [col_rows_cover]
    _ = bigSep Finset.univ fun r : Fin 128 => htLoc d ↦[(colRow r).set]{fullShare} h := pointsTo_biUnion Finset.univ _ col_rows_disjoint
    _ = bigSep Finset.univ fun p : (Fin 2 × Fin 16) × Fin 4 => htLoc d ↦[(colRow (e128 p)).set]{fullShare} h := bigSep_univ_equiv e128 _
    _ = bigSep Finset.univ fun q : Fin 2 × Fin 16 => bigSep Finset.univ fun k : Fin 4 => htLoc d ↦[(colRow (e128 (q, k))).set]{fullShare} h := bigSep_univ_prod _
    _ = _ := bigSep_univ_prod (fun q : Fin 2 × Fin 16 => bigSep Finset.univ fun k : Fin 4 => htLoc d ↦[(colRow (e128 (q, k))).set]{fullShare} h)

omit [∀ e, Nonempty (Elt F e)] in
/-- The same for the transposed aggregate array. -/
theorem agg_rows (d : Dev nD) (g : Buf (Elt F) (aggLoc d)) :
    (aggLoc d ↦{fullShare} g : sProp 𝕄)
      = bigSep Finset.univ fun c : Fin 2 => bigSep Finset.univ fun i : Fin 16 => bigSep Finset.univ fun k : Fin 4 =>
          aggLoc d ↦[(colRow (e128 ((c, i), k))).set]{fullShare} g :=
  calc (aggLoc d ↦{fullShare} g : sProp 𝕄)
      = aggLoc d ↦[(Finset.univ : Finset (Fin 128)).biUnion fun r => (colRow r).set]{fullShare} g := by rw [col_rows_cover]
    _ = bigSep Finset.univ fun r : Fin 128 => aggLoc d ↦[(colRow r).set]{fullShare} g := pointsTo_biUnion Finset.univ _ col_rows_disjoint
    _ = bigSep Finset.univ fun p : (Fin 2 × Fin 16) × Fin 4 => aggLoc d ↦[(colRow (e128 p)).set]{fullShare} g := bigSep_univ_equiv e128 _
    _ = bigSep Finset.univ fun q : Fin 2 × Fin 16 => bigSep Finset.univ fun k : Fin 4 => aggLoc d ↦[(colRow (e128 (q, k))).set]{fullShare} g := bigSep_univ_prod _
    _ = _ := bigSep_univ_prod (fun q : Fin 2 × Fin 16 => bigSep Finset.univ fun k : Fin 4 => aggLoc d ↦[(colRow (e128 (q, k))).set]{fullShare} g)

/-- Rows of a 128-row array held each at contents of its own are the whole array at some contents. -/
theorem col_rows_join (ℓ : Loc nD τ sig) (S : (r : Fin 128) → Finset (Idx ℓ))
    (hdis : ∀ r ∈ (Finset.univ : Finset (Fin 128)), ∀ r' ∈ (Finset.univ : Finset (Fin 128)), r ≠ r' → Disjoint (S r) (S r'))
    (hcov : (Finset.univ : Finset (Fin 128)).biUnion S = Finset.univ) :
    (bigSep Finset.univ fun c : Fin 2 => bigSep Finset.univ fun i : Fin 16 => bigSep Finset.univ fun k : Fin 4 =>
        iprop(∃ g : Buf (Elt F) ℓ, ℓ ↦[S (e128 ((c, i), k))]{fullShare} g))
      ⊢ (iprop(∃ g : Buf (Elt F) ℓ, ℓ ↦{fullShare} g) : sProp 𝕄) := by
  rw [← bigSep_univ_prod (fun q : Fin 2 × Fin 16 => bigSep Finset.univ fun k : Fin 4 => iprop(∃ g : Buf (Elt F) ℓ, ℓ ↦[S (e128 (q, k))]{fullShare} g)),
    ← bigSep_univ_prod (fun p : (Fin 2 × Fin 16) × Fin 4 => iprop(∃ g : Buf (Elt F) ℓ, ℓ ↦[S (e128 p)]{fullShare} g)),
    ← bigSep_univ_equiv e128 (fun r : Fin 128 => iprop(∃ g : Buf (Elt F) ℓ, ℓ ↦[S r]{fullShare} g))]
  refine (bigSep_exists_pi Finset.univ (fun (r : Fin 128) (g : Buf (Elt F) ℓ) => (ℓ ↦[S r]{fullShare} g : sProp 𝕄))).trans ?_
  iintro ⟨%gs, H⟩
  ihave H' := (pointsTo_biUnion_join Finset.univ S gs (gs 0) hdis) $$ H
  icases H' with ⟨%g, -, Hg⟩
  rw [hcov]
  iexists g; iexact Hg

end Cert.Kernel.Run

end
-- ==== Proof.BMainOps.lean ====
/-
  The TensorCore's main program as three straight lines of host operations around its four calls: seventeen operations
  that pad the index arrays and the features, make the zero vector, transpose the weights and reshape the bias; the first
  vector-subcore call; two operations that cut the count array to width 10240 and add a unit axis; the first gridded region;
  the second vector-subcore call; the second gridded region; one operation that keeps the first 10000 rows.
-/
import proofs.«207969_g80633716015134_cont_9to1_m_1245_11_alg».proof.Proof.BSetup
import Idealize.ShloMosaic.Lib.StableHlo.Run

noncomputable section

namespace Cert.Kernel.Run

open Cert.Kernel Cert.Kernel.Gen
open Idealize.ShloMosaic Idealize.SL.Sem

variable {F : FTy → Type} [FloatOps F]

/-- The seventeen operations before the first call. -/
abbrev ops0 : List (HloOp τ sig (Elt F)) :=
  [StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
   StableHlo.reshape main_v0 main_v1 rfl shapeCasts_S1x320000_S320000,
   StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
   StableHlo.reshape main_v2 main_v3 rfl shapeCasts_S1x320000_S320000,
   StableHlo.nullary main_c (constantI S_ 32 0#32),
   StableHlo.unary main_c main_v4 (broadcastInDim S7680 ![] bcast_S_S7680 : (⟨S_, .i32⟩ : BufTy).Contents (Elt F) → (⟨S7680, .i32⟩ : BufTy).Contents (Elt F)),
   StableHlo.binary main_v1 main_v4 main_v5 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
   StableHlo.nullary main_c_0 (constantI S_ 32 0#32),
   StableHlo.unary main_c_0 main_v6 (broadcastInDim S7680 ![] bcast_S_S7680 : (⟨S_, .i32⟩ : BufTy).Contents (Elt F) → (⟨S7680, .i32⟩ : BufTy).Contents (Elt F)),
   StableHlo.binary main_v3 main_v6 main_v7 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
   StableHlo.nullary main_cst (constant S_ .f32 0x00000000#32),
   StableHlo.unary main_cst main_v8 (broadcastInDim S240x128 ![] bcast_S_S240x128 : (⟨S_, .f32⟩ : BufTy).Contents (Elt F) → (⟨S240x128, .f32⟩ : BufTy).Contents (Elt F)),
   StableHlo.binary main_arg0 main_v8 main_v9 ((fun a b => concatenate S10240x128 0 [⟨S10000x128, a⟩, ⟨S240x128, b⟩] concatenates_S10000x128_S240x128_S10240x128_d0) : (⟨S10000x128, .f32⟩ : BufTy).Contents (Elt F) → (⟨S240x128, .f32⟩ : BufTy).Contents (Elt F) → (⟨S10240x128, .f32⟩ : BufTy).Contents (Elt F)),
   StableHlo.nullary main_cst_1 (constant S_ .f32 0x00000000#32),
   StableHlo.unary main_cst_1 main_v10 (broadcastInDim S10256 ![] bcast_S_S10256 : (⟨S_, .f32⟩ : BufTy).Contents (Elt F) → (⟨S10256, .f32⟩ : BufTy).Contents (Elt F)),
   StableHlo.unary main_arg2 main_v11 ((transpose S128x128 [1, 0] · transposes_S128x128_S128x128_1_0) : (⟨S128x128, .f32⟩ : BufTy).Contents (Elt F) → (⟨S128x128, .f32⟩ : BufTy).Contents (Elt F)),
   StableHlo.reshape main_arg3 main_v12 rfl shapeCasts_S128_S1x128]

/-- The two operations between the first call and the first region. -/
abbrev ops1 : List (HloOp τ sig (Elt F)) :=
  [StableHlo.unary main_v13 main_v14 ((extractStridedSlice S32x10240 ![0, 0] · slices_S32x10256_S32x10240_0_0) : (⟨S32x10256, .f32⟩ : BufTy).Contents (Elt F) → (⟨S32x10240, .f32⟩ : BufTy).Contents (Elt F)),
   StableHlo.unary main_v14 main_v15 (broadcastInDim S32x10240x1 ![0, 1] bcast_S32x10240_S32x10240x1_0_1 : (⟨S32x10240, .f32⟩ : BufTy).Contents (Elt F) → (⟨S32x10240x1, .f32⟩ : BufTy).Contents (Elt F))]

/-- The operation after the second region. -/
abbrev ops2 : List (HloOp τ sig (Elt F)) :=
  [StableHlo.unary main_v18 main_v19 ((extractStridedSlice S10000x128 ![0, 0] · slices_S10240x128_S10000x128_0_0) : (⟨S10240x128, .f32⟩ : BufTy).Contents (Elt F) → (⟨S10000x128, .f32⟩ : BufTy).Contents (Elt F))]

/-- The main program is those three lines around the four calls. -/
theorem main_eq (d : Dev nD) :
    main (F := F) d
      = (StableHlo.seq ops0 >>= fun _ => (sc (F := F)).run d 0 >>= fun _ => StableHlo.seq ops1 >>= fun _ =>
          Prog.lift (.customCall (SparseCore.inner (Pipeline.entry 0)) ()) >>= fun _ => (sc (F := F)).run d 1 >>= fun _ =>
          Prog.lift (.customCall (SparseCore.inner (Pipeline.entry 1)) ()) >>= fun _ => StableHlo.seq ops2 >>= fun _ => pure ⟨⟩) := rfl

end Cert.Kernel.Run

end
-- ==== Proof.BRun.lean ====
/-
  The launch: every weakly fair execution of the thirty-five threads terminates in a state the claim reads, given
  (a) each vector subcore's task in either call, proved at a symbolic worker, and (b) the TensorCore's main program.
  Dealing a core's share of a call's operands to its sixteen subcores is the identity here, a core's share being the
  product of its subcores'.
-/
import proofs.«207969_g80633716015134_cont_9to1_m_1245_11_alg».proof.Proof.BSetup

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 2) (Elt F) ℕ UU ℕ

variable (fs : (d : Dev nD) → Buf (Elt F) (srcLoc d)) (fd : (d : Dev nD) → Buf (Elt F) (dstLoc d)) (fz : (d : Dev nD) → Buf (Elt F) (zeroLoc d))

instance pay0_storable (d : Dev nD) (c : Fin 2) (i : Fin 16) : BI.Storable (upEmb : UEmb _ 𝕄) (pay0 fs fd fz d c i) := by
  unfold pay0 reads; infer_instance
instance pay1_storable (d : Dev nD) (c : Fin 2) (i : Fin 16) : BI.Storable (upEmb : UEmb _ 𝕄) (pay1 fs fd fz d c i) := by
  unfold pay1 reads; infer_instance

instance P_storable : (P (F := F) fs fd fz).IsStorable where
  st q d c := by
    match q with
    | ⟨0, _⟩ => show BI.Storable _ (bigSep Finset.univ fun i : Fin 16 => pay0 fs fd fz d c i); infer_instance
    | ⟨1, _⟩ => show BI.Storable _ (bigSep Finset.univ fun i : Fin 16 => pay1 fs fd fz d c i); infer_instance
  dn q d c := by
    match q with
    | ⟨0, _⟩ => show BI.Storable _ (bigSep Finset.univ fun i : Fin 16 => pay0 fs fd fz d c i); infer_instance
    | ⟨1, _⟩ => show BI.Storable _ (bigSep Finset.univ fun i : Fin 16 => pay1 fs fd fz d c i); infer_instance
  go q d c i := by
    match q with
    | ⟨0, _⟩ => show BI.Storable _ (pay0 fs fd fz d c i); infer_instance
    | ⟨1, _⟩ => show BI.Storable _ (pay1 fs fd fz d c i); infer_instance
  td q d c i := by
    match q with
    | ⟨0, _⟩ => show BI.Storable _ (pay0 fs fd fz d c i); infer_instance
    | ⟨1, _⟩ => show BI.Storable _ (pay1 fs fd fz d c i); infer_instance

/-- A core's share IS the product of its subcores' shares: handed out whole, taken back whole. -/
theorem vecSplit (q : Fin 2) : (K (F := F)).VecSplit' (P fs fd fz) q := by
  intro d c
  match q with
  | ⟨0, _⟩ =>
    exact Cert.Lib.ReadTokens.keep_all Set.univ (bigSep Finset.univ fun i : Fin 16 => pay0 fs fd fz d c i) (bigSep Finset.univ fun i : Fin 16 => pay0 fs fd fz d c i)
  | ⟨1, _⟩ =>
    exact Cert.Lib.ReadTokens.keep_all Set.univ (bigSep Finset.univ fun i : Fin 16 => pay1 fs fd fz d c i) (bigSep Finset.univ fun i : Fin 16 => pay1 fs fd fz d c i)

/-- The whole program's run from its two tasks and its main program. -/
theorem run_of [∀ e, Nonempty (Elt F e)] (m : (ℓ : Loc nD τ sig) → Buf (Elt F) ℓ) (ρ : Dev nD → PrngReg)
    (htile0 : (K (F := F)).TileObl (D (F := F)) 𝒱 (P fs fd fz) v₀ 0)
    (htile1 : (K (F := F)).TileObl (D (F := F)) 𝒱 (P fs fd fz) v₀ 1)
    (G FIN : Dev nD → sProp 𝕄) (u₀ : UU)
    (hu₀ : iprop(ownU u₀ ∗ (P fs fd fz).oxCred ∗ (K (F := F)).freeSems0) ⊢ |={Set.univ}=> iprop(BI.own (EH (initOf (K (F := F)).hsCells (K (F := F)).hsToks)) ∗ bigSep Finset.univ G
      ∗ bigSep Finset.univ fun thr : Thread nD τ => bigSep Finset.univ fun q : Fin 2 => (P fs fd fz).x q thr))
    (hmain : ∀ (κ : GSem nD τ sig → ℕ) (d : Dev nD),
      iprop((K (F := F)).ctx EH (P fs fd fz) κ ∗ (K (F := F)).tcSt EH d 0 ∗ (K (F := F)).tcRes m ρ d ∗ G d)
        ⊢ wp frame (wpE ((K (F := F)).defs (D (F := F))) 𝒱 (SparseCore.T d) none) Set.univ (main d) fun _ => iprop((K (F := F)).tcSt EH d 2 ∗ FIN d))
    (fq : Dev nD → Phys nD τ sig (Elt F) → Prop) (hfin : ∀ d s', iprop(FIN d ∗ SI s') ⊢ (⌜fq d s'⌝ : sProp 𝕄))
    (Q' : PUnit × MemSt nD τ sig (Elt F) → Prop) (hQ : ∀ s', (∀ d, fq d s') → Q' (⟨⟩, s'.mem)) :
    θ_run (Cert.Kernel.defs (F := F)) (Cert.Kernel.threads (F := F)) ⟨m, fun _ => 0, ρ⟩ Q' :=
  SparseCore.Cfg.θ_run_sc (K := K (F := F)) (D := D (F := F)) (𝒱 := 𝒱) (EH := EH) (P := P fs fd fz) facts v₀
    (fun q hq => match q with | ⟨0, _⟩ => nomatch hq | ⟨1, _⟩ => nomatch hq)
    (fun q _ => match q with | ⟨0, _⟩ => htile0 | ⟨1, _⟩ => htile1)
    (fun q _ => SparseCore.Cfg.VecSplit.of_plain (vecSplit fs fd fz q))
    m ρ main G FIN u₀ hu₀ hmain fq hfin Q' hQ

end Cert.Kernel.Run

end
-- ==== Proof.BMain.lean ====
/-
  The TensorCore's main program, run: the host operations in straight lines over all of the TensorCore's unscoped arrays
  held whole; at each vector-subcore call the arrays the call exchanges are cut among the thirty-two workers (read tokens of
  the arrays every worker reads whole, rows of the arrays each worker owns a part of) and joined back after it.
-/
import proofs.«207969_g80633716015134_cont_9to1_m_1245_11_alg».proof.Proof.BSplit
import proofs.«207969_g80633716015134_cont_9to1_m_1245_11_alg».proof.Proof.BMainOps
import proofs.«207969_g80633716015134_cont_9to1_m_1245_11_alg».proof.Proof.BRun
import Idealize.ShloMosaic.Lib.Pipeline.Frame
import Idealize.ShloMosaic.Lib.Pipeline.Regions
import proofs.«207969_g80633716015134_cont_9to1_m_1245_11_alg».proof.Proof.Gen.Kernel.Launch

noncomputable section

namespace Cert.Kernel.Run

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_sub_split held_congr wp_seq after)
open Cert.Lib.ReadTokens

variable {F : FTy → Type} [FloatOps F] [∀ e, Nonempty (Elt F e)]

local notation "𝕄" => MT nD τ sig (HIx 2) (Elt F) ℕ UU ℕ

variable (m : (ℓ : Loc nD τ sig) → Buf (Elt F) ℓ) (ρ : Dev nD → PrngReg)

/-! ## The arrays' contents along the main program -/

/-- At the launch. -/
def V0 (d : Dev nD) : Valuation τ sig (Elt F) := fun b => m (d, b)
/-- After the seventeen operations before the first call. -/
def V1 (d : Dev nD) : Valuation τ sig (Elt F) := after ops0 (V0 m d)

abbrev src' : DevRef τ sig := Proc.devRef .tc (main_v5 : Ref sig .tc)
abbrev dst' : DevRef τ sig := Proc.devRef .tc (main_v7 : Ref sig .tc)
abbrev zero' : DevRef τ sig := Proc.devRef .tc (main_v10 : Ref sig .tc)
abbrev cnt' : DevRef τ sig := Proc.devRef .tc (main_v13 : Ref sig .tc)
abbrev ht' : DevRef τ sig := Proc.devRef .tc (main_v16_1 : Ref sig .tc)
abbrev agg' : DevRef τ sig := Proc.devRef .tc (main_v17 : Ref sig .tc)

/-- The padded source indices, the padded destination indices and the zero vector, as the first line leaves them. -/
def fs (d : Dev nD) : Buf (Elt F) (srcLoc d) := V1 m d src'
def fd (d : Dev nD) : Buf (Elt F) (dstLoc d) := V1 m d dst'
def fz (d : Dev nD) : Buf (Elt F) (zeroLoc d) := V1 m d zero'

/-! ## The lines' side conditions -/

theorem ops0_sub : (ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.reshape_bufs_sub ..⟩
theorem ops1_sub : (ops1 : List (HloOp τ sig (Elt F))).Forall fun op => op.bufs ⊆ StableHlo.tcRefs τ sig :=
  ⟨StableHlo.unary_bufs_sub .., StableHlo.unary_bufs_sub ..⟩
theorem ops2_sub : (ops2 : List (HloOp τ sig (Elt F))).Forall fun op => op.bufs ⊆ StableHlo.tcRefs τ sig :=
  StableHlo.unary_bufs_sub ..
theorem ops0_fresh : (ops0 : List (HloOp τ sig (Elt F))).Forall fun op => op.fresh = ∅ := ⟨rfl, rfl, rfl, rfl, rfl, rfl, rfl, rfl, rfl, rfl, rfl, rfl, rfl, rfl, rfl, rfl, rfl⟩
theorem ops1_fresh : (ops1 : List (HloOp τ sig (Elt F))).Forall fun op => op.fresh = ∅ := ⟨rfl, rfl⟩
theorem ops2_fresh : (ops2 : List (HloOp τ sig (Elt F))).Forall fun op => op.fresh = ∅ := rfl

theorem uc_of_sub {ops : List (HloOp τ sig (Elt F))} (h : ops.Forall fun op => op.bufs ⊆ StableHlo.tcRefs τ sig) :
    ∀ op ∈ ops, op.bufs ⊆ Pipeline.ucRefs τ sig :=
  fun op hop => Pipeline.sub_ucRefs op ((List.forall_iff_forall_mem.mp h) op hop)

/-! ## The first call's operands, out of the held arrays and back -/

/-- The four arrays the first call exchanges. -/
abbrev T0 : Finset (DevRef τ sig) := {src', dst', zero', cnt'}

theorem T0_sub : T0 ⊆ Pipeline.ucRefs τ sig := by decide

omit [∀ e, Nonempty (Elt F e)] in
theorem held_T0 (d : Dev nD) (W : Valuation τ sig (Elt F)) :
    (held (SparseCore.T d) T0 W : sProp 𝕄)
      = iprop((srcLoc d ↦{fullShare} W src') ∗ (dstLoc d ↦{fullShare} W dst') ∗ (zeroLoc d ↦{fullShare} W zero') ∗ cntLoc d ↦{fullShare} W cnt') := by
  unfold held T0
  rw [SparseCore.bigSep_insert' (by decide), SparseCore.bigSep_insert' (by decide), SparseCore.bigSep_insert' (by decide), bigSep_singleton]

/-- What stays behind while the workers hold their read tokens of the three arrays every worker reads. -/
def rems (d : Dev nD) : sProp 𝕄 :=
  iprop(rem2 (srcLoc d) Finset.univ (fs m d) fullShare 2 16 ∗ rem2 (dstLoc d) Finset.univ (fd m d) fullShare 2 16 ∗ rem2 (zeroLoc d) Finset.univ (fz m d) fullShare 2 16)

omit [∀ e, Nonempty (Elt F e)] in
/-- The three read arrays, whole, are what stays behind and every worker's reads. -/
theorem reads_split (d : Dev nD) :
    (iprop((srcLoc d ↦{fullShare} fs m d) ∗ (dstLoc d ↦{fullShare} fd m d) ∗ (zeroLoc d ↦{fullShare} fz m d)) : sProp 𝕄)
      ⊣⊢ iprop(rems m d ∗ bigSep Finset.univ fun c : Fin 2 => bigSep Finset.univ fun i : Fin 16 => reads (fs m) (fd m) (fz m) d c i) :=
  ((Toks2.of_pointsTo (ℓ := srcLoc d) (S := Finset.univ) (f := fs m d) fullShare 2 16).sep
    ((Toks2.of_pointsTo (ℓ := dstLoc d) (S := Finset.univ) (f := fd m d) fullShare 2 16).sep
      (Toks2.of_pointsTo (ℓ := zeroLoc d) (S := Finset.univ) (f := fz m d) fullShare 2 16)))

/-- Every worker's first-call share at once: its reads, and its row of the count array at whatever it holds. -/
theorem pay0_all (d : Dev nD) :
    (bigSep Finset.univ fun c : Fin 2 => bigSep Finset.univ fun i : Fin 16 => pay0 (fs m) (fd m) (fz m) d c i : sProp 𝕄)
      = iprop((bigSep Finset.univ fun c : Fin 2 => bigSep Finset.univ fun i : Fin 16 => reads (fs m) (fd m) (fz m) d c i)
          ∗ bigSep Finset.univ fun c : Fin 2 => bigSep Finset.univ fun i : Fin 16 =>
              iprop(∃ g : Buf (Elt F) (cntLoc d), cntLoc d ↦[(cntRow (e32 (c, i))).set]{fullShare} g)) := by
  unfold pay0; exact bigSep2_sep _ _

/-- The count array whole at some contents is every worker's row at some contents. -/
theorem cnt_rows_some (d : Dev nD) (g : Buf (Elt F) (cntLoc d)) :
    (cntLoc d ↦{fullShare} g : sProp 𝕄)
      ⊢ bigSep Finset.univ fun c : Fin 2 => bigSep Finset.univ fun i : Fin 16 =>
          iprop(∃ g : Buf (Elt F) (cntLoc d), cntLoc d ↦[(cntRow (e32 (c, i))).set]{fullShare} g) := by
  rw [cnt_rows d g]
  refine bigSep_mono fun c _ => bigSep_mono fun i _ => ?_
  show (cntLoc d ↦[(cntRow (e32 (c, i))).set]{fullShare} g : sProp 𝕄) ⊢ iprop(∃ g : Buf (Elt F) (cntLoc d), cntLoc d ↦[(cntRow (e32 (c, i))).set]{fullShare} g)
  iintro H; iexists g; iexact H

/-- The held arrays after the first call: the count array at what the workers left, everything else as it was. -/
theorem held_update_cnt (d : Dev nD) (g : Buf (Elt F) (cntLoc d)) :
    (iprop((srcLoc d ↦{fullShare} fs m d) ∗ (dstLoc d ↦{fullShare} fd m d) ∗ (zeroLoc d ↦{fullShare} fz m d) ∗ (cntLoc d ↦{fullShare} g)
        ∗ held (SparseCore.T d) (Pipeline.ucRefs τ sig \ T0) (V1 m d)) : sProp 𝕄)
      ⊢ held (SparseCore.T d) (Pipeline.ucRefs τ sig) (Function.update (V1 m d) cnt' g) := by
  rw [held_sub_split _ T0_sub (Function.update (V1 m d) cnt' g), held_T0,
    Function.update_of_ne (show src' ≠ cnt' by decide), Function.update_of_ne (show dst' ≠ cnt' by decide),
    Function.update_of_ne (show zero' ≠ cnt' by decide), Function.update_self,
    held_congr (SparseCore.T d) (S := Pipeline.ucRefs τ sig \ T0) (V := Function.update (V1 m d) cnt' g) (V' := V1 m d)
      (fun b hb => Function.update_of_ne (fun e => (Finset.mem_sdiff.mp hb).2 (by subst e; decide)) _ _)]
  iintro ⟨Hs, Hd, Hz, Hc, Hr⟩
  isplitl [Hs Hd Hz Hc]
  · isplitl [Hs]; · iexact Hs
    isplitl [Hd]; · iexact Hd
    isplitl [Hz]; · iexact Hz
    iexact Hc
  · iexact Hr

/-- The first line and the first call: from all arrays at the launch contents to all arrays at the first line's
    results, but the count array, which is at whatever the workers left. -/
theorem stageA (κ : GSem nD τ sig → ℕ) (d : Dev nD) {β : Type}
    (k : PUnit → Prog (TpuEff nD τ sig (Elt F) (SparseCore.Sig (ΛP (F := F)) 2) .tc) β) (Φ : β → sProp 𝕄) :
    iprop((K (F := F)).ctx EH (P (fs m) (fd m) (fz m)) κ ∗ (K (F := F)).tcSt EH d 0
        ∗ boundary (SparseCore.T d) ∗ held (SparseCore.T d) (Pipeline.ucRefs τ sig) (V0 m d)
        ∗ (∀ g : Buf (Elt F) (cntLoc d), iprop((K (F := F)).tcSt EH d 1 ∗ boundary (SparseCore.T d)
              ∗ held (SparseCore.T d) (Pipeline.ucRefs τ sig) (Function.update (V1 m d) cnt' g))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ
          (StableHlo.seq ops0 >>= fun _ => (sc (F := F)).run d 0 >>= k) Φ := by
  iintro ⟨#Hctx, Hst, Hb, Hheld, Hk⟩
  iapply (wp_seq 𝒱 none Set.univ d (Pipeline.ucRefs τ sig) _ ops0 (uc_of_sub ops0_sub) (List.forall_iff_forall_mem.mp ops0_fresh) (V0 m d)) $$ [Hb Hheld]
  · isplitl [Hb]; · iexact Hb
    iexact Hheld
  iintro ⟨Hb, Hheld⟩
  ihave Hh := (Entails.of_eq (show (held (d.tc : Thread nD τ) (Pipeline.ucRefs τ sig) (after ops0 (V0 m d)) : sProp 𝕄)
      = iprop(((srcLoc d ↦{fullShare} fs m d) ∗ (dstLoc d ↦{fullShare} fd m d) ∗ (zeroLoc d ↦{fullShare} fz m d) ∗ cntLoc d ↦{fullShare} V1 m d cnt')
          ∗ held (SparseCore.T d) (Pipeline.ucRefs τ sig \ T0) (V1 m d))
      from (held_sub_split (SparseCore.T d) T0_sub (V1 m d)).trans (congrArg (fun X => iprop(X ∗ held (SparseCore.T d) (Pipeline.ucRefs τ sig \ T0) (V1 m d))) (held_T0 d (V1 m d))))) $$ Hheld
  icases Hh with ⟨⟨Hs, Hd, Hz, Hc⟩, Hrest⟩
  ihave Hr := (reads_split m d).1 $$ [Hs Hd Hz]
  · isplitl [Hs]; · iexact Hs
    isplitl [Hd]; · iexact Hd
    iexact Hz
  icases Hr with ⟨Hrem, Hreads⟩
  ihave Hrows := (cnt_rows_some d (V1 m d cnt')) $$ Hc
  rw [wp_bind]
  iapply ((K (F := F)).wp_run (D (F := F)) 𝒱 (EH := EH) (P := P (fs m) (fd m) (fz m)) κ d 0) $$ [Hst Hb Hrest Hrem Hreads Hrows Hk]
  isplitr; · iexact Hctx
  isplitl [Hst]; · iexact Hst
  isplitl [Hreads Hrows]
  · iapply (Entails.of_eq (pay0_all m d).symm)
    isplitl [Hreads]; · iexact Hreads
    iexact Hrows
  iintro ⟨Hst, Hdn⟩
  ihave Hdn' := (Entails.of_eq (show (bigSep Finset.univ fun c : Fin ((K (F := F)).nCore 0) => (P (fs m) (fd m) (fz m)).dn 0 d c : sProp 𝕄)
      = iprop((bigSep Finset.univ fun c : Fin 2 => bigSep Finset.univ fun i : Fin 16 => reads (fs m) (fd m) (fz m) d c i)
          ∗ bigSep Finset.univ fun c : Fin 2 => bigSep Finset.univ fun i : Fin 16 =>
              iprop(∃ g : Buf (Elt F) (cntLoc d), cntLoc d ↦[(cntRow (e32 (c, i))).set]{fullShare} g)) from pay0_all m d)) $$ Hdn
  icases Hdn' with ⟨Hreads, Hrows⟩
  ihave Hw := (reads_split m d).2 $$ [Hrem Hreads]
  · isplitl [Hrem]; · iexact Hrem
    iexact Hreads
  icases Hw with ⟨Hs, Hd, Hz⟩
  ihave Hc := (cnt_rows_join d) $$ Hrows
  icases Hc with ⟨%g, Hc⟩
  iapply Hk $$ %g
  isplitl [Hst]; · iexact Hst
  isplitl [Hb]; · iexact Hb
  iapply (held_update_cnt m d g)
  isplitl [Hs]; · iexact Hs
  isplitl [Hd]; · iexact Hd
  isplitl [Hz]; · iexact Hz
  isplitl [Hc]; · iexact Hc
  iexact Hrest

/-! ## What every step keeps: the three arrays the calls read, and the program's arguments -/

abbrev arg0' : DevRef τ sig := Proc.devRef .tc (main_arg0 : Ref sig .tc)
abbrev arg1' : DevRef τ sig := Proc.devRef .tc (main_arg1 : Ref sig .tc)
abbrev arg2' : DevRef τ sig := Proc.devRef .tc (main_arg2 : Ref sig .tc)
abbrev arg3' : DevRef τ sig := Proc.devRef .tc (main_arg3 : Ref sig .tc)

/-- A valuation of the arrays that still has the read arrays as the first line left them and the arguments as launched. -/
def Keeps (d : Dev nD) (W : Valuation τ sig (Elt F)) : Prop :=
  W src' = fs m d ∧ W dst' = fd m d ∧ W zero' = fz m d
    ∧ W arg0' = V0 m d arg0' ∧ W arg1' = V0 m d arg1' ∧ W arg2' = V0 m d arg2' ∧ W arg3' = V0 m d arg3'

omit [∀ e, Nonempty (Elt F e)] in
theorem keeps_V1 (d : Dev nD) : Keeps m d (V1 m d) :=
  ⟨rfl, rfl, rfl, by unfold V1; after_results, by unfold V1; after_results, by unfold V1; after_results, by unfold V1; after_results⟩

omit [∀ e, Nonempty (Elt F e)] in
theorem keeps_update {d : Dev nD} {W : Valuation τ sig (Elt F)} (h : Keeps m d W) (b : DevRef τ sig) (x : b.ty.Contents (Elt F))
    (hb : b ≠ src' ∧ b ≠ dst' ∧ b ≠ zero' ∧ b ≠ arg0' ∧ b ≠ arg1' ∧ b ≠ arg2' ∧ b ≠ arg3') : Keeps m d (Function.update W b x) := by
  obtain ⟨h1, h2, h3, h4, h5, h6, h7⟩ := h
  obtain ⟨b1, b2, b3, b4, b5, b6, b7⟩ := hb
  exact ⟨by rw [Function.update_of_ne b1.symm]; exact h1, by rw [Function.update_of_ne b2.symm]; exact h2, by rw [Function.update_of_ne b3.symm]; exact h3,
    by rw [Function.update_of_ne b4.symm]; exact h4, by rw [Function.update_of_ne b5.symm]; exact h5, by rw [Function.update_of_ne b6.symm]; exact h6,
    by rw [Function.update_of_ne b7.symm]; exact h7⟩

omit [∀ e, Nonempty (Elt F e)] in
theorem keeps_ops1 {d : Dev nD} {W : Valuation τ sig (Elt F)} (h : Keeps m d W) : Keeps m d (after ops1 W) := by
  obtain ⟨h1, h2, h3, h4, h5, h6, h7⟩ := h
  exact ⟨(by after_results : after ops1 W src' = W src').trans h1, (by after_results : after ops1 W dst' = W dst').trans h2,
    (by after_results : after ops1 W zero' = W zero').trans h3, (by after_results : after ops1 W arg0' = W arg0').trans h4,
    (by after_results : after ops1 W arg1' = W arg1').trans h5, (by after_results : after ops1 W arg2' = W arg2').trans h6,
    (by after_results : after ops1 W arg3' = W arg3').trans h7⟩

omit [∀ e, Nonempty (Elt F e)] in
theorem keeps_ops2 {d : Dev nD} {W : Valuation τ sig (Elt F)} (h : Keeps m d W) : Keeps m d (after ops2 W) := by
  obtain ⟨h1, h2, h3, h4, h5, h6, h7⟩ := h
  exact ⟨(by after_results : after ops2 W src' = W src').trans h1, (by after_results : after ops2 W dst' = W dst').trans h2,
    (by after_results : after ops2 W zero' = W zero').trans h3, (by after_results : after ops2 W arg0' = W arg0').trans h4,
    (by after_results : after ops2 W arg1' = W arg1').trans h5, (by after_results : after ops2 W arg2' = W arg2').trans h6,
    (by after_results : after ops2 W arg3' = W arg3').trans h7⟩

/-! ## A gridded region entered from inside the launch -/

/-- Neither region reads a prefetched table. -/
abbrev adm : (p : Fin 2) → (pcfgs (F := F) p).Adm := fun p => (cfgs p).toPCfg_adm

section Region

variable (rdats : (p : Fin 2) → (c : Dev nD) → Pipeline.RDat τ (Elt F) (HIx 2) ℕ UU ℕ (Pipeline.pin (pcfgs (F := F)) adm p) c)

-- the region rule is stated for any core's TensorCore thread; at this device's it unifies only when unification may unfold
-- plain definitions in a metavariable's type
set_option backward.isDefEq.respectTransparency.types false in
/-- A gridded region of the main program, entered while the launch's handshakes are in progress: from the region's entry
    state, the level facts and the region's staging ghost state, to its exit state. The call is the lifted form of the
    pipeline program's own region call, so the pipeline library's region rule applies under the launch's body table. -/
theorem region_step {p : Fin 2}
    (R : Pipeline.RDat.RegionSeg (pcfgs (F := F)) adm rdats (none : HIx 2) (defs₀ (F := F)) 𝒱₀ (K (F := F)).L (K (F := F)).lev p)
    (d : Dev nD) {β : Type} (k : PUnit → Prog (TpuEff nD τ sig (Elt F) (SparseCore.Sig (ΛP (F := F)) 2) .tc) β) (Φ : β → sProp 𝕄) :
    iprop((iprop(boundary (SparseCore.T d) ∗ R.post d) -∗ wp frame (wpE ((K (F := F)).defs (D (F := F))) 𝒱 (SparseCore.T d) none) Set.univ (k ⟨⟩) Φ)
        ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ()) >>= k) Φ := by
  rw [wp_bind]
  refine BIBase.Entails.trans ?_ ((K (F := F)).wp_liftProg (D (F := F)) 𝒱 (SparseCore.T d) Set.univ none
    (Prog.lift (.customCall (Pipeline.entry p) ())) (fun _ => wp frame (wpE ((K (F := F)).defs (D (F := F))) 𝒱 (SparseCore.T d) none) Set.univ (k ⟨⟩) Φ))
  have hreg := Pipeline.RDat.RegionSeg.wp (pcfgs (F := F)) adm rdats (none : HIx 2) cellOf_inj EP (defs₀ (F := F)) 𝒱₀ (K (F := F)).L (K (F := F)).lev R d none
      (fun _ h => nomatch h) (α := PUnit) (fun _ => (Prog.ret PUnit.unit : Prog (TpuEff nD τ sig (Elt F) (ΛP (F := F)) .tc) PUnit)) (fun _ => wp frame (wpE ((K (F := F)).defs (D (F := F))) 𝒱 (SparseCore.T d) none) Set.univ (k ⟨⟩) Φ)
  refine BIBase.Entails.trans (sep_mono_left ?_) hreg
  iintro Hk H
  rw [wp_ret]; imodintro
  iapply Hk; iexact H

end Region

/-! ## The second call's operands, out of the held arrays and back -/

/-- The five arrays the second call exchanges. -/
abbrev T1 : Finset (DevRef τ sig) := {src', dst', zero', ht', agg'}

theorem T1_sub : T1 ⊆ Pipeline.ucRefs τ sig := by decide

omit [∀ e, Nonempty (Elt F e)] in
theorem held_T1 (d : Dev nD) (W : Valuation τ sig (Elt F)) :
    (held (SparseCore.T d) T1 W : sProp 𝕄)
      = iprop((srcLoc d ↦{fullShare} W src') ∗ (dstLoc d ↦{fullShare} W dst') ∗ (zeroLoc d ↦{fullShare} W zero')
          ∗ (htLoc d ↦{fullShare} W ht') ∗ aggLoc d ↦{fullShare} W agg') := by
  unfold held T1
  rw [SparseCore.bigSep_insert' (by decide), SparseCore.bigSep_insert' (by decide), SparseCore.bigSep_insert' (by decide),
    SparseCore.bigSep_insert' (by decide), bigSep_singleton]

/-- Every worker's second-call share at once: its reads, its four rows of the transposed features and of the
    transposed aggregate at whatever they hold. -/
theorem pay1_all (d : Dev nD) :
    (bigSep Finset.univ fun c : Fin 2 => bigSep Finset.univ fun i : Fin 16 => pay1 (fs m) (fd m) (fz m) d c i : sProp 𝕄)
      = iprop((bigSep Finset.univ fun c : Fin 2 => bigSep Finset.univ fun i : Fin 16 => reads (fs m) (fd m) (fz m) d c i)
          ∗ (bigSep Finset.univ fun c : Fin 2 => bigSep Finset.univ fun i : Fin 16 => bigSep Finset.univ fun k : Fin 4 =>
              iprop(∃ h : Buf (Elt F) (htLoc d), htLoc d ↦[(colRow (e128 ((c, i), k))).set]{fullShare} h))
          ∗ bigSep Finset.univ fun c : Fin 2 => bigSep Finset.univ fun i : Fin 16 => bigSep Finset.univ fun k : Fin 4 =>
              iprop(∃ g : Buf (Elt F) (aggLoc d), aggLoc d ↦[(colRow (e128 ((c, i), k))).set]{fullShare} g)) := by
  unfold pay1
  rw [bigSep2_sep, bigSep2_sep]
  rfl

theorem ht_rows_some (d : Dev nD) (h : Buf (Elt F) (htLoc d)) :
    (htLoc d ↦{fullShare} h : sProp 𝕄)
      ⊢ bigSep Finset.univ fun c : Fin 2 => bigSep Finset.univ fun i : Fin 16 => bigSep Finset.univ fun k : Fin 4 =>
          iprop(∃ h : Buf (Elt F) (htLoc d), htLoc d ↦[(colRow (e128 ((c, i), k))).set]{fullShare} h) := by
  rw [ht_rows d h]
  refine bigSep_mono fun c _ => bigSep_mono fun i _ => bigSep_mono fun k _ => ?_
  show (htLoc d ↦[(colRow (e128 ((c, i), k))).set]{fullShare} h : sProp 𝕄) ⊢ iprop(∃ h : Buf (Elt F) (htLoc d), htLoc d ↦[(colRow (e128 ((c, i), k))).set]{fullShare} h)
  iintro H; iexists h; iexact H

theorem agg_rows_some (d : Dev nD) (g : Buf (Elt F) (aggLoc d)) :
    (aggLoc d ↦{fullShare} g : sProp 𝕄)
      ⊢ bigSep Finset.univ fun c : Fin 2 => bigSep Finset.univ fun i : Fin 16 => bigSep Finset.univ fun k : Fin 4 =>
          iprop(∃ g : Buf (Elt F) (aggLoc d), aggLoc d ↦[(colRow (e128 ((c, i), k))).set]{fullShare} g) := by
  rw [agg_rows d g]
  refine bigSep_mono fun c _ => bigSep_mono fun i _ => bigSep_mono fun k _ => ?_
  show (aggLoc d ↦[(colRow (e128 ((c, i), k))).set]{fullShare} g : sProp 𝕄) ⊢ iprop(∃ g : Buf (Elt F) (aggLoc d), aggLoc d ↦[(colRow (e128 ((c, i), k))).set]{fullShare} g)
  iintro H; iexists g; iexact H

/-- The held arrays after the second call: the two 128-row arrays at what the workers left, everything else as it was. -/
theorem held_update_ht_agg (d : Dev nD) (W : Valuation τ sig (Elt F)) (hK : Keeps m d W) (h : Buf (Elt F) (htLoc d)) (g : Buf (Elt F) (aggLoc d)) :
    (iprop((srcLoc d ↦{fullShare} fs m d) ∗ (dstLoc d ↦{fullShare} fd m d) ∗ (zeroLoc d ↦{fullShare} fz m d) ∗ (htLoc d ↦{fullShare} h)
        ∗ (aggLoc d ↦{fullShare} g) ∗ held (SparseCore.T d) (Pipeline.ucRefs τ sig \ T1) W) : sProp 𝕄)
      ⊢ held (SparseCore.T d) (Pipeline.ucRefs τ sig) (Function.update (Function.update W ht' h) agg' g) := by
  rw [held_sub_split _ T1_sub (Function.update (Function.update W ht' h) agg' g), held_T1,
    Function.update_of_ne (show src' ≠ agg' by decide), Function.update_of_ne (show src' ≠ ht' by decide), hK.1,
    Function.update_of_ne (show dst' ≠ agg' by decide), Function.update_of_ne (show dst' ≠ ht' by decide), hK.2.1,
    Function.update_of_ne (show zero' ≠ agg' by decide), Function.update_of_ne (show zero' ≠ ht' by decide), hK.2.2.1,
    Function.update_of_ne (show ht' ≠ agg' by decide), Function.update_self, Function.update_self,
    held_congr (SparseCore.T d) (S := Pipeline.ucRefs τ sig \ T1) (V := Function.update (Function.update W ht' h) agg' g) (V' := W)
      (fun b hb => (Function.update_of_ne (fun e => (Finset.mem_sdiff.mp hb).2 (by subst e; decide)) _ _).trans
        (Function.update_of_ne (fun e => (Finset.mem_sdiff.mp hb).2 (by subst e; decide)) _ _))]
  iintro ⟨Hs, Hd, Hz, Hh, Hg, Hr⟩
  isplitl [Hs Hd Hz Hh Hg]
  · isplitl [Hs]; · iexact Hs
    isplitl [Hd]; · iexact Hd
    isplitl [Hz]; · iexact Hz
    isplitl [Hh]; · iexact Hh
    iexact Hg
  · iexact Hr

/-- The second call, from all arrays held at a valuation that keeps the read arrays: afterwards the two 128-row arrays are
    at whatever the workers left, everything else as it was. -/
theorem stageC (κ : GSem nD τ sig → ℕ) (d : Dev nD) (W : Valuation τ sig (Elt F)) (hK : Keeps m d W) {β : Type}
    (k : PUnit → Prog (TpuEff nD τ sig (Elt F) (SparseCore.Sig (ΛP (F := F)) 2) .tc) β) (Φ : β → sProp 𝕄) :
    iprop((K (F := F)).ctx EH (P (fs m) (fd m) (fz m)) κ ∗ (K (F := F)).tcSt EH d 1
        ∗ boundary (SparseCore.T d) ∗ held (SparseCore.T d) (Pipeline.ucRefs τ sig) W
        ∗ (∀ (h : Buf (Elt F) (htLoc d)) (g : Buf (Elt F) (aggLoc d)), iprop((K (F := F)).tcSt EH d 2 ∗ boundary (SparseCore.T d)
              ∗ held (SparseCore.T d) (Pipeline.ucRefs τ sig) (Function.update (Function.update W ht' h) agg' g))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((sc (F := F)).run d 1 >>= k) Φ := by
  iintro ⟨#Hctx, Hst, Hb, Hheld, Hk⟩
  ihave Hh := (Entails.of_eq (show (held (SparseCore.T d) (Pipeline.ucRefs τ sig) W : sProp 𝕄)
      = iprop(((srcLoc d ↦{fullShare} fs m d) ∗ (dstLoc d ↦{fullShare} fd m d) ∗ (zeroLoc d ↦{fullShare} fz m d)
            ∗ (htLoc d ↦{fullShare} W ht') ∗ aggLoc d ↦{fullShare} W agg')
          ∗ held (SparseCore.T d) (Pipeline.ucRefs τ sig \ T1) W)
      from by rw [held_sub_split _ T1_sub W, held_T1, hK.1, hK.2.1, hK.2.2.1])) $$ Hheld
  icases Hh with ⟨⟨Hs, Hd, Hz, Hh, Hg⟩, Hrest⟩
  ihave Hr := (reads_split m d).1 $$ [Hs Hd Hz]
  · isplitl [Hs]; · iexact Hs
    isplitl [Hd]; · iexact Hd
    iexact Hz
  icases Hr with ⟨Hrem, Hreads⟩
  ihave Hhr := (ht_rows_some d (W ht')) $$ Hh
  ihave Hgr := (agg_rows_some d (W agg')) $$ Hg
  rw [wp_bind]
  iapply ((K (F := F)).wp_run (D (F := F)) 𝒱 (EH := EH) (P := P (fs m) (fd m) (fz m)) κ d 1) $$ [Hst Hb Hrest Hrem Hreads Hhr Hgr Hk]
  isplitr; · iexact Hctx
  isplitl [Hst]; · iexact Hst
  isplitl [Hreads Hhr Hgr]
  · iapply (Entails.of_eq (pay1_all m d).symm)
    isplitl [Hreads]; · iexact Hreads
    isplitl [Hhr]; · iexact Hhr
    iexact Hgr
  iintro ⟨Hst, Hdn⟩
  ihave Hdn' := (Entails.of_eq (show (bigSep Finset.univ fun c : Fin ((K (F := F)).nCore 1) => (P (fs m) (fd m) (fz m)).dn 1 d c : sProp 𝕄)
      = iprop((bigSep Finset.univ fun c : Fin 2 => bigSep Finset.univ fun i : Fin 16 => reads (fs m) (fd m) (fz m) d c i)
          ∗ (bigSep Finset.univ fun c : Fin 2 => bigSep Finset.univ fun i : Fin 16 => bigSep Finset.univ fun k : Fin 4 =>
              iprop(∃ h : Buf (Elt F) (htLoc d), htLoc d ↦[(colRow (e128 ((c, i), k))).set]{fullShare} h))
          ∗ bigSep Finset.univ fun c : Fin 2 => bigSep Finset.univ fun i : Fin 16 => bigSep Finset.univ fun k : Fin 4 =>
              iprop(∃ g : Buf (Elt F) (aggLoc d), aggLoc d ↦[(colRow (e128 ((c, i), k))).set]{fullShare} g)) from pay1_all m d)) $$ Hdn
  icases Hdn' with ⟨Hreads, Hhr, Hgr⟩
  ihave Hw := (reads_split m d).2 $$ [Hrem Hreads]
  · isplitl [Hrem]; · iexact Hrem
    iexact Hreads
  icases Hw with ⟨Hs, Hd, Hz⟩
  ihave Hh := (col_rows_join (htLoc d) (fun r => (colRow r).set) col_rows_disjoint col_rows_cover) $$ Hhr
  icases Hh with ⟨%h, Hh⟩
  ihave Hg := (col_rows_join (aggLoc d) (fun r => (colRow r).set) col_rows_disjoint col_rows_cover) $$ Hgr
  icases Hg with ⟨%g, Hg⟩
  iapply Hk $$ %h %g
  isplitl [Hst]; · iexact Hst
  isplitl [Hb]; · iexact Hb
  iapply (held_update_ht_agg m d W hK h g)
  isplitl [Hs]; · iexact Hs
  isplitl [Hd]; · iexact Hd
  isplitl [Hz]; · iexact Hz
  isplitl [Hh]; · iexact Hh
  isplitl [Hg]; · iexact Hg
  iexact Hrest

/-! ## The main program, assembled -/

/-- What rides beside the arrays through the main program for the regions' use: the generator register at some state and
    the TensorCore's own handshake-free semaphores at zero. -/
def Aux (d : Dev nD) : sProp 𝕄 := iprop((∃ r, prngReg d r) ∗ (K (F := F)).tcSems0 d)

/-- What the main program starts from beyond the launch's deal: the two gridded regions' staging ghost state. -/
def G (d : Dev nD) : sProp 𝕄 :=
  iprop((Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d))

/-- The program's four arguments. -/
abbrev Targs : Finset (DevRef τ sig) := {arg0', arg1', arg2', arg3'}
theorem Targs_sub : Targs ⊆ Pipeline.ucRefs τ sig := by decide

/-- What the main program leaves the claim: the arguments at their launch contents. -/
def FIN (d : Dev nD) : sProp 𝕄 := held (SparseCore.T d) Targs (V0 m d)

omit [∀ e, Nonempty (Elt F e)] in
theorem fin_of_keeps (d : Dev nD) (W : Valuation τ sig (Elt F)) (hK : Keeps m d W) :
    (held (SparseCore.T d) (Pipeline.ucRefs τ sig) W : sProp 𝕄) ⊢ FIN m d := by
  unfold FIN
  rw [held_sub_split _ Targs_sub W,
    held_congr (SparseCore.T d) (S := Targs) (V := W) (V' := V0 m d) (fun b hb => by
      simp only [Targs, Finset.mem_insert, Finset.mem_singleton] at hb
      rcases hb with rfl | rfl | rfl | rfl
      · exact hK.2.2.2.1
      · exact hK.2.2.2.2.1
      · exact hK.2.2.2.2.2.1
      · exact hK.2.2.2.2.2.2)]
  exact sep_elim_left

section Main

-- the two regions' proof data and records, as families over the arrays' contents when the region is entered (which depend
-- on what the call before it left)
variable (rd0 rd1 : Valuation τ sig (Elt F) → (p : Fin 2) → (c : Dev nD) → Pipeline.RDat τ (Elt F) (HIx 2) ℕ UU ℕ (Pipeline.pin (pcfgs (F := F)) adm p) c)
  (R0 : ∀ W, Pipeline.RDat.RegionSeg (pcfgs (F := F)) adm (rd0 W) (none : HIx 2) (defs₀ (F := F)) 𝒱₀ (K (F := F)).L (K (F := F)).lev 0)
  (R1 : ∀ W, Pipeline.RDat.RegionSeg (pcfgs (F := F)) adm (rd1 W) (none : HIx 2) (defs₀ (F := F)) 𝒱₀ (K (F := F)).L (K (F := F)).lev 1)

/-- The main program on a device's TensorCore, from the two gridded regions as records whose entry state is reached from
    "all arrays held at a valuation that keeps the read arrays and the arguments, the handshake state between the calls"
    and whose exit state gives that back. -/
theorem hmain
    (h0pre : ∀ d W, Keeps m d W → iprop((K (F := F)).tcSt EH d 1 ∗ held (SparseCore.T d) (Pipeline.ucRefs τ sig) W ∗ Aux d) ⊢ (R0 W).pre d)
    (h0post : ∀ d W, (R0 W).post d ⊢ iprop(∃ W', ⌜Keeps m d W'⌝ ∗ (K (F := F)).tcSt EH d 1 ∗ held (SparseCore.T d) (Pipeline.ucRefs τ sig) W' ∗ Aux d))
    (h1pre : ∀ d W, Keeps m d W → iprop((K (F := F)).tcSt EH d 2 ∗ held (SparseCore.T d) (Pipeline.ucRefs τ sig) W ∗ Aux d) ⊢ (R1 W).pre d)
    (h1post : ∀ d W, (R1 W).post d ⊢ iprop(∃ W', ⌜Keeps m d W'⌝ ∗ (K (F := F)).tcSt EH d 2 ∗ held (SparseCore.T d) (Pipeline.ucRefs τ sig) W' ∗ Aux d))
    (κ : GSem nD τ sig → ℕ) (d : Dev nD) :
    iprop((K (F := F)).ctx EH (P (fs m) (fd m) (fz m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d) := by
  rw [main_eq]
  unfold SparseCore.Cfg.tcRes G
  iintro ⟨#Hctx, Hst, ⟨Hb, Hheld, Hsm, Hpr⟩, ⟨Hg0, Hg1⟩⟩
  ihave Haux : (Aux (F := F) d) $$ [Hsm Hpr]
  · unfold Aux
    isplitl [Hpr]; · iexists _; iexact Hpr
    iexact Hsm
  ihave Hheld' := (Entails.of_eq (show (unscopedBufs d (fun b => m ((SparseCore.T d).loc b)) : sProp 𝕄)
      = held (SparseCore.T d) (Pipeline.ucRefs τ sig) (V0 m d) from Pipeline.unscopedBufs_held d (V0 m d))) $$ Hheld
  -- the first line and the first call
  iapply (stageA m κ d _ _) $$ [Hst Hb Hheld' Hg0 Hg1 Haux]
  isplitr; · iexact Hctx
  isplitl [Hst]; · iexact Hst
  isplitl [Hb]; · iexact Hb
  isplitl [Hheld']; · iexact Hheld'
  iintro %g ⟨Hst, Hb, Hheld⟩
  -- the two operations between the first call and the first region
  iapply (wp_seq 𝒱 none Set.univ d (Pipeline.ucRefs τ sig) _ ops1 (uc_of_sub ops1_sub) (List.forall_iff_forall_mem.mp ops1_fresh)
      (Function.update (V1 m d) cnt' g)) $$ [Hb Hheld]
  · isplitl [Hb]; · iexact Hb
    iexact Hheld
  iintro ⟨Hb, Hheld⟩
  have hK2 : Keeps m d (after ops1 (Function.update (V1 m d) cnt' g)) :=
    keeps_ops1 m (keeps_update m (keeps_V1 m d) cnt' g (by decide))
  -- the first region
  ihave Hlv := (SparseCore.Cfg.ctx_levAts κ) $$ Hctx
  iapply (region_step (rd0 _) (R0 (after ops1 (Function.update (V1 m d) cnt' g))) d _ _) $$ [Hst Hb Hheld Hg0 Hg1 Hlv Haux]
  isplitl [Hg1]
  · iintro ⟨Hb, Hpost⟩
    ihave Hp := (h0post d _) $$ Hpost
    icases Hp with ⟨%W, %hKW, Hst, Hheld, Haux⟩
    -- the second call
    iapply (stageC m κ d W hKW _ _) $$ [Hst Hb Hheld Hg1 Haux]
    isplitr; · iexact Hctx
    isplitl [Hst]; · iexact Hst
    isplitl [Hb]; · iexact Hb
    isplitl [Hheld]; · iexact Hheld
    iintro %h %g' ⟨Hst, Hb, Hheld⟩
    have hK3 : Keeps m d (Function.update (Function.update W ht' h) agg' g') :=
      keeps_update m (keeps_update m hKW ht' h (by decide)) agg' g' (by decide)
    -- the second region
    ihave Hlv := (SparseCore.Cfg.ctx_levAts κ) $$ Hctx
    iapply (region_step (rd1 _) (R1 (Function.update (Function.update W ht' h) agg' g')) d _ _) $$ [Hst Hb Hheld Hg1 Hlv Haux]
    isplitr [Hst Hb Hheld Hg1 Hlv Haux]
    · iintro ⟨Hb, Hpost⟩
      ihave Hp := (h1post d _) $$ Hpost
      icases Hp with ⟨%W2, %hKW2, Hst, Hheld, -⟩
      -- the last operation
      iapply (wp_seq 𝒱 none Set.univ d (Pipeline.ucRefs τ sig) _ ops2 (uc_of_sub ops2_sub) (List.forall_iff_forall_mem.mp ops2_fresh) W2) $$ [Hb Hheld]
      · isplitl [Hb]; · iexact Hb
        iexact Hheld
      iintro ⟨Hb, Hheld⟩
      rw [wp_pure]; imodintro
      isplitl [Hst]; · iexact Hst
      iapply (fin_of_keeps m d _ (keeps_ops2 m hKW2)); iexact Hheld
    isplitl [Hb]; · iexact Hb
    isplitl [Hst Hheld Haux]
    · iapply (h1pre d _ hK3)
      isplitl [Hst]; · iexact Hst
      isplitl [Hheld]; · iexact Hheld
      iexact Haux
    isplitl [Hlv]; · iexact Hlv
    icases Hg1 with ⟨Hc, Ht⟩
    isplitl [Hc]; · iexact Hc
    iexact Ht
  isplitl [Hb]; · iexact Hb
  isplitl [Hst Hheld Haux]
  · iapply (h0pre d _ hK2)
    isplitl [Hst]; · iexact Hst
    isplitl [Hheld]; · iexact Hheld
    iexact Haux
  isplitl [Hlv]; · iexact Hlv
  icases Hg0 with ⟨Hc, Ht⟩
  isplitl [Hc]; · iexact Hc
  iexact Ht

end Main

end Cert.Kernel.Run

end
-- ==== Proof.BFrame.lean ====
/-
  The kernel program's run, and from it that the arguments end unchanged: the launch theorem applied to the main program,
  the launch element of the ghost state (the handshakes' rounds, the two gridded regions' staging rounds, the copies'
  counters), and the reading of the final memory. What remains open is stated as hypotheses: the two vector-subcore
  tasks, and the two gridded regions as records with their entry and exit states.
-/
import proofs.«207969_g80633716015134_cont_9to1_m_1245_11_alg».proof.Proof.BMain

noncomputable section

namespace Cert.Kernel.Run

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held)

variable {F : FTy → Type} [FloatOps F] [∀ e, Nonempty (Elt F e)]

local notation "𝕄" => MT nD τ sig (HIx 2) (Elt F) ℕ UU ℕ

variable (m : (ℓ : Loc nD τ sig) → Buf (Elt F) ℓ) (ρ : Dev nD → PrngReg)

/-! ## The launch element -/

/-- The handshakes' rounds at launch, the regions' staging rounds at launch, the counters' unit. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

omit [∀ e, Nonempty (Elt F e)] in
theorem bigSep_emp' {I : Type} (s : Finset I) : (bigSep s fun _ => iprop(emp)) = (iprop(emp) : sProp 𝕄) := bigSep_emp_const s

omit [∀ e, Nonempty (Elt F e)] in
/-- A device's staging ghost state for both regions, regrouped by region. -/
theorem G_of (c : Dev nD) :
    (iprop((bigSep Finset.univ fun p : Fin 2 => Pipeline.cellsGhost (Pipeline.pin (pcfgs (F := F)) adm) EP p c)
        ∗ bigSep Finset.univ fun p : Fin 2 => Pipeline.toksInit (Pipeline.pin (pcfgs (F := F)) adm) EP p c) : sProp 𝕄) ⊢ G c := by
  unfold G
  rw [bigSep_univ_two, bigSep_univ_two]
  iintro ⟨⟨Hc0, Hc1⟩, Ht0, Ht1⟩
  isplitl [Hc0 Ht0]
  · isplitl [Hc0]; · iexact Hc0
    iexact Ht0
  · isplitl [Hc1]; · iexact Hc1
    iexact Ht1

theorem hu₀ : iprop(ownU (u₀ (F := F)) ∗ (P (fs m) (fd m) (fz m)).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 2 => (P (fs m) (fd m) (fz m)).x q thr) := by
  unfold u₀
  iintro ⟨Hu, -, -⟩
  ihave H := (ownU_pair _ _) $$ Hu
  icases H with ⟨HH, HR⟩
  ihave H2 := (own_pair_emb embR _ _) $$ HR
  icases H2 with ⟨HP, -⟩
  ihave HP' := (Entails.of_eq (show (BI.own (((Emb.inl : Emb UP (UP × Counters)).trans embR)
        (initOf (Pipeline.cells (Pipeline.pin (pcfgs (F := F)) adm) cellOf_inj) (Pipeline.launchToks (Pipeline.pin (pcfgs (F := F)) adm) cellOf_inj))) : sProp 𝕄)
      = BI.own (EP (initOf (Pipeline.cells (Pipeline.pin (pcfgs (F := F)) adm) cellOf_inj) (Pipeline.launchToks (Pipeline.pin (pcfgs (F := F)) adm) cellOf_inj))) from rfl)) $$ HP
  imod (Pipeline.fund_ghost (cfgs := Pipeline.pin (pcfgs (F := F)) adm) (hinj := cellOf_inj) (ER := EP)) $$ HP' with ⟨Hcg, Hti⟩
  imodintro
  isplitl [HH]; · iexact HH
  isplitl [Hcg Hti]
  · ihave Hboth : (bigSep Finset.univ fun c : Dev nD => iprop((bigSep Finset.univ fun p : Fin 2 => Pipeline.cellsGhost (Pipeline.pin (pcfgs (F := F)) adm) EP p c)
        ∗ bigSep Finset.univ fun p : Fin 2 => Pipeline.toksInit (Pipeline.pin (pcfgs (F := F)) adm) EP p c)) $$ [Hcg Hti]
    · rw [bigSep_sep']
      isplitl [Hcg]; · iexact Hcg
      iexact Hti
    iapply (ent (bigSep_mono (s := Finset.univ) fun c _ => G_of c)) $$ Hboth
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## Reading the final memory -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3

def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d) ∧ s'.mem.mem (a3Loc d) = m (a3Loc d)

omit [∀ e, Nonempty (Elt F e)] in
theorem hfin (d : Dev nD) (s' : Phys nD τ sig (Elt F)) : iprop(FIN m d ∗ SI s') ⊢ (⌜fq m d s'⌝ : sProp 𝕄) := by
  unfold FIN held Targs
  rw [SparseCore.bigSep_insert' (by decide), SparseCore.bigSep_insert' (by decide), SparseCore.bigSep_insert' (by decide), bigSep_singleton]
  show iprop(((a0Loc d ↦{fullShare} m (a0Loc d)) ∗ (a1Loc d ↦{fullShare} m (a1Loc d)) ∗ (a2Loc d ↦{fullShare} m (a2Loc d)) ∗ (a3Loc d ↦{fullShare} m (a3Loc d))) ∗ SI s')
    ⊢ (⌜fq m d s'⌝ : sProp 𝕄)
  iintro ⟨⟨H0, H1, H2, H3⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := a3Loc d) (I := Finset.univ) (q := fullShare) (f := m (a3Loc d))) $$ [HSI H3]
  · isplitl [HSI] <;> iassumption
  icases H with %h3
  ipureintro
  exact ⟨funext fun i => h0 i (Finset.mem_univ i), funext fun i => h1 i (Finset.mem_univ i), funext fun i => h2 i (Finset.mem_univ i),
    funext fun i => h3 i (Finset.mem_univ i)⟩

/-! ## The run -/

section Run

variable (rd0 rd1 : Valuation τ sig (Elt F) → (p : Fin 2) → (c : Dev nD) → Pipeline.RDat τ (Elt F) (HIx 2) ℕ UU ℕ (Pipeline.pin (pcfgs (F := F)) adm p) c)
  (R0 : ∀ W, Pipeline.RDat.RegionSeg (pcfgs (F := F)) adm (rd0 W) (none : HIx 2) (defs₀ (F := F)) 𝒱₀ (K (F := F)).L (K (F := F)).lev 0)
  (R1 : ∀ W, Pipeline.RDat.RegionSeg (pcfgs (F := F)) adm (rd1 W) (none : HIx 2) (defs₀ (F := F)) 𝒱₀ (K (F := F)).L (K (F := F)).lev 1)

/-- Every weakly fair execution of the thirty-five threads terminates, nothing faulting, the four arguments unchanged —
    from the two vector-subcore tasks and the two gridded regions. -/
theorem run_args
    (htile0 : (K (F := F)).TileObl (D (F := F)) 𝒱 (P (fs m) (fd m) (fz m)) v₀ 0)
    (htile1 : (K (F := F)).TileObl (D (F := F)) 𝒱 (P (fs m) (fd m) (fz m)) v₀ 1)
    (h0pre : ∀ d W, Keeps m d W → iprop((K (F := F)).tcSt EH d 1 ∗ held (SparseCore.T d) (Pipeline.ucRefs τ sig) W ∗ Aux d) ⊢ (R0 W).pre d)
    (h0post : ∀ d W, (R0 W).post d ⊢ iprop(∃ W', ⌜Keeps m d W'⌝ ∗ (K (F := F)).tcSt EH d 1 ∗ held (SparseCore.T d) (Pipeline.ucRefs τ sig) W' ∗ Aux d))
    (h1pre : ∀ d W, Keeps m d W → iprop((K (F := F)).tcSt EH d 2 ∗ held (SparseCore.T d) (Pipeline.ucRefs τ sig) W ∗ Aux d) ⊢ (R1 W).pre d)
    (h1post : ∀ d W, (R1 W).post d ⊢ iprop(∃ W', ⌜Keeps m d W'⌝ ∗ (K (F := F)).tcSt EH d 2 ∗ held (SparseCore.T d) (Pipeline.ucRefs τ sig) W' ∗ Aux d)) :
    θ_run (Cert.Kernel.defs (F := F)) (Cert.Kernel.threads (F := F)) ⟨m, fun _ => 0, ρ⟩ (fun r => ∀ c : Dev nD,
      r.2.mem (a0Loc c) = m (a0Loc c) ∧ r.2.mem (a1Loc c) = m (a1Loc c) ∧ r.2.mem (a2Loc c) = m (a2Loc c) ∧ r.2.mem (a3Loc c) = m (a3Loc c)) :=
  run_of (fs m) (fd m) (fz m) m ρ htile0 htile1 (G (F := F)) (FIN m) (u₀ (F := F)) (hu₀ m)
    (hmain m ρ rd0 rd1 R0 R1 h0pre h0post h1pre h1post) (fq m) (hfin m) _ (fun _ h c => h c)

end Run

end Cert.Kernel.Run

end
-- ==== Proof.BRange.lean ====
/-
  The index ranges the two vector-subcore tasks rest on. Where the input-domain predicate is all ones, every entry of the
  edge list, read signed, lies between 0 and 9999; the padded source and destination index arrays are a reshape of a row
  of the edge list followed by zeros, so every entry of either, read as an unsigned word, is below 10000.
-/
import proofs.«207969_g80633716015134_cont_9to1_m_1245_11_alg».proof.Proof.BMain
import proofs.«207969_g80633716015134_cont_9to1_m_1245_11_alg».proof.Proof.LibLayoutForall
import proofs.«207969_g80633716015134_cont_9to1_m_1245_11_alg».proof.Pre_input_domain
import proofs.«207969_g80633716015134_cont_9to1_m_1245_11_alg».proof.Proof.Gen.Pre_input_domain
import Idealize.ShloMosaic.Lib.ReduceAll
import Idealize.ShloMosaic.Lib.ValueIdx

noncomputable section

namespace Cert.Kernel.Run

open Cert.Kernel Cert.Kernel.Gen
open Idealize.ShloMosaic Idealize.ShloMosaic.ValueIdx Idealize.SL.Sem
open Idealize.ShloMosaic.StableHlo (after)
open Cert.Lib.LayoutForall

variable {F : FTy → Type} [FloatOps F]

variable (m : (ℓ : Loc nD τ sig) → Buf (Elt F) ℓ)

/-- The input-domain predicate holds of the launch memory's arguments, on every device. -/
def PreOK : Prop :=
  ∀ d : Dev nD, Cert.Pre_input_domain.fn (F := F)
    (m ((SparseCore.T d).loc main_arg0)) (m ((SparseCore.T d).loc main_arg1)) (m ((SparseCore.T d).loc main_arg2)) (m ((SparseCore.T d).loc main_arg3))
    = fun _ => 1#1

/-- A word that is, read signed, between 0 and 9999 is, read unsigned, below 10000. -/
theorem toNat_lt_of_toInt (v : BitVec 32) (h0 : 0 ≤ v.toInt) (h1 : v.toInt ≤ 9999) : v.toNat < 10000 := by
  rw [BitVec.toInt_eq_toNat_cond] at h0 h1
  split at h0 <;> omega

/-- The domain predicate's last conjunct, an "and" over all entries of the edge list of two comparisons: where the
    predicate is 1, every entry is at least 0 and at most 9999 as a signed word, hence below 10000 as an unsigned one. -/
theorem ei_range (hpre : PreOK m) (d : Dev nD) (k : S2x320000.Idx) : (m ((SparseCore.T d).loc main_arg1) k).toNat < 10000 := by
  haveI : Subsingleton Cert.Pre_input_domain.S_.Idx := ⟨fun a b => funext fun x => x.elim0⟩
  have h0 := congrFun (hpre d) ix0
  dsimp only [Cert.Pre_input_domain.fn, Cert.Pre_input_domain.fn_part1] at h0
  obtain ⟨-, h19⟩ := IntOp.andi_eq_one.mp h0
  have hel := Host.reduce_andi_all _ _ _ _ _ h19 k
  obtain ⟨hge, hle⟩ := IntOp.andi_eq_one.mp hel
  have h1 := IntOp.cmpi_sge.mp hge
  have h2 := IntOp.cmpi_sle.mp hle
  simp only [broadcastInDim, constantI] at h1 h2
  have z0 : (0#32 : BitVec 32).toInt = 0 := by decide
  have z9 : (9999#32 : BitVec 32).toInt = 9999 := by decide
  rw [z0] at h1
  rw [z9] at h2
  exact toNat_lt_of_toInt _ h1 h2

/-- Every entry of the padded destination index array is below 10000. -/
theorem fd_range (hpre : PreOK m) (d : Dev nD) (j : (dstLoc d).ty.Idx) : (fd m d j).toNat < 10000 := by
  unfold fd V1
  after_results
  refine concatenate2_forall (fun v : BitVec 32 => v.toNat < 10000) S327680 0 _ _ concatenates_S320000_S7680_S327680_d0 ?_ ?_ j
  · intro i
    show (shapeCast S320000 (extractStridedSlice S1x320000 ![1, 0] (V0 m d (Proc.tc.devRef main_arg1)) slices_S2x320000_S1x320000_1_0)
      shapeCasts_S1x320000_S320000 i).toNat < 10000
    exact shapeCast_forall (fun v : BitVec 32 => v.toNat < 10000) _ _
      (fun k => slice_forall (fun v : BitVec 32 => v.toNat < 10000) _ _ _ (fun k' => ei_range m hpre d k') k) i
  · intro i
    exact broadcast_forall (fun v : BitVec 32 => v.toNat < 10000) _ _ _ (fun _ => by show (0#32 : BitVec 32).toNat < 10000; decide) i

/-- Every entry of the padded source index array is below 10000. -/
theorem fs_range (hpre : PreOK m) (d : Dev nD) (j : (srcLoc d).ty.Idx) : (fs m d j).toNat < 10000 := by
  unfold fs V1
  after_results
  refine concatenate2_forall (fun v : BitVec 32 => v.toNat < 10000) S327680 0 _ _ concatenates_S320000_S7680_S327680_d0 ?_ ?_ j
  · intro i
    show (shapeCast S320000 (extractStridedSlice S1x320000 ![0, 0] (V0 m d (Proc.tc.devRef main_arg1)) slices_S2x320000_S1x320000_0_0)
      shapeCasts_S1x320000_S320000 i).toNat < 10000
    exact shapeCast_forall (fun v : BitVec 32 => v.toNat < 10000) _ _
      (fun k => slice_forall (fun v : BitVec 32 => v.toNat < 10000) _ _ _ (fun k' => ei_range m hpre d k') k) i
  · intro i
    exact broadcast_forall (fun v : BitVec 32 => v.toNat < 10000) _ _ _ (fun _ => by show (0#32 : BitVec 32).toNat < 10000; decide) i

end Cert.Kernel.Run

end
-- ==== Proof.BTile0Trip.lean ====
/-
  The first call's task on one vector subcore, at a symbolic worker: what the loop carries from trip to trip and one trip
  of it. A trip copies 1024 source indices and 1024 destination indices of the worker's share of the edge list into two
  scratch buffers and then, sixteen lanes at a time, adds one into the accumulator scratch at the destination index, or at
  position 10240 where source and destination agree. Every scattered index is below the accumulator's length 10256 because
  every destination index is below 10000. No value is tracked: the accumulator is held at whatever it holds.
-/
import proofs.«207969_g80633716015134_cont_9to1_m_1245_11_alg».proof.Proof.BSetup
import proofs.«207969_g80633716015134_cont_9to1_m_1245_11_alg».proof.Proof.Gen.Kernel.Skeleton
import Idealize.ShloMosaic.Lib.SparseCore.Launch
import Idealize.ShloMosaic.Lib.SparseCore.Ops
import Idealize.ShloMosaic.Lib.Tactic

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 2) (Elt F) ℕ UU ℕ

namespace Tile0

/-! ## The first call's task, at a symbolic worker -/

section Geometry

variable [FloatOps F]
variable (fs : (d : Dev nD) → Buf (Elt F) (srcLoc d)) (fd : (d : Dev nD) → Buf (Elt F) (dstLoc d)) (fz : (d : Dev nD) → Buf (Elt F) (zeroLoc d))
variable (d : Dev nD) (L : grid0.Coords)

/-- The SparseCore and the vector subcore of a grid point, and the same two as the payloads index them. -/
abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)
abbrev wL (L : grid0.Coords) : Fin 32 := ⟨wid (cL L).val (iL L).val, wid_lt (cL L).isLt (iL L).isLt⟩

/-- The arrays and the scratch as the kernel is called with them. -/
abbrev aS : Memref sig .scVector .hbm S327680 .i32 := Memref.whole main_v5_scv
abbrev aD : Memref sig .scVector .hbm S327680 .i32 := Memref.whole main_v7_scv
abbrev aZ : Memref sig .scVector .hbm S10256 .f32 := Memref.whole main_v10_scv
abbrev aC : Memref sig .scVector .hbm S32x10256 .f32 := Memref.whole main_v13_scv
abbrev b6 : Memref sig .scVector .vmem S1024 .i32 := Memref.whole cc0_scratch0
abbrev b7 : Memref sig .scVector .vmem S1024 .i32 := Memref.whole cc0_scratch1
abbrev b8 : Memref sig .scVector .vmem S10256 .f32 := Memref.whole cc0_scratch2

/-- The row of the count array the kernel writes, as the kernel slices it. -/
abbrev rowK (L : grid0.Coords) : Rect S32x10256 := Rect.unit (s := S32x10256) (k0_off2 L) S1x10256.size (k0_off2_inb L)
abbrev cRowK (L : grid0.Coords) : Memref sig .scVector .hbm S10256 .f32 :=
  ((aC : Memref sig .scVector .hbm S32x10256 .f32).slice (rowK L) (fun _ => rfl)).squeeze S10256 squeezes_S1x10256_S10256

theorem rowK_eq : rowK L = cntRow (wL L) := by
  unfold rowK cntRow Rect.part Rect.block
  congr 1 <;> funext a
  · rw [k0_off2_eq]
    match a with
    | 0 => simp [Shape.partIx, Shape.partSize, wid]
    | 1 => simp [Shape.partIx, Shape.partSize]
  · match a with
    | 0 => simp [Shape.partSize]
    | 1 => simp [Shape.partSize]

theorem set_cRowK : (cRowK L).view.set = (cntRow (wL L)).set := by
  show (((aC : Memref sig .scVector .hbm S32x10256 .f32).view.slice (rowK L)).reshape S10256 squeezes_S1x10256_S10256.numel_eq).set = _
  rw [View.set_reshape]
  show ((View.whole (main_v13_scv : Ref sig .scVector)).slice (rowK L)).set = _
  rw [View.set_slice, rowK_eq]; exact Finset.map_refl

end Geometry

section Trip

variable [FloatOps F]
variable (fs : (d : Dev nD) → Buf (Elt F) (srcLoc d)) (fd : (d : Dev nD) → Buf (Elt F) (dstLoc d)) (fz : (d : Dev nD) → Buf (Elt F) (zeroLoc d))
variable (d : Dev nD) (L : grid0.Coords)

/-- The share of a whole array a worker reads. -/
abbrev qW (L : grid0.Coords) : PosShare TreeShare := shareTok (shareTok fullShare 2 (cL L)) 16 (iL L)

/-- The four semaphores of the task's copies. -/
abbrev g0 (d : Dev nD) (c : Fin τ.nSC) (i : Fin τ.nSub) : GSem nD τ sig := (V d c i, .dma cc0_scoped0.sem)
abbrev g1 (d : Dev nD) (c : Fin τ.nSC) (i : Fin τ.nSub) : GSem nD τ sig := (V d c i, .dma cc0_scoped1.sem)
abbrev g2 (d : Dev nD) (c : Fin τ.nSC) (i : Fin τ.nSub) : GSem nD τ sig := (V d c i, .dma cc0_scoped2.sem)
abbrev g3 (d : Dev nD) (c : Fin τ.nSC) (i : Fin τ.nSub) : GSem nD τ sig := (V d c i, .dma cc0_scoped3.sem)

omit [FloatOps F] in
theorem cell_ne {thr : Thread nD τ} {s s' : SemLoc sig} (h : s ≠ s') : ((thr, s) : GSem nD τ sig) ≠ (thr, s') :=
  fun e => h (Prod.mk.inj e).2

omit [FloatOps F] in
theorem mem_own (d : Dev nD) (c : Fin τ.nSC) (i : Fin τ.nSub) (s : SemLoc sig) (h : s.isScoped .scVector = true) :
    ((V d c i, s) : GSem nD τ sig) ∈ ownCells (V d c i) := (mem_ownCells (g := ((V d c i, s) : GSem nD τ sig))).mpr ⟨rfl, h⟩

omit [FloatOps F] in
theorem ownSems0_V :
    (ownSems0 (V d (cV L) (jV L)) : sProp 𝕄)
      = iprop(semVal (g0 d (cV L) (jV L)) 0 ∗ semVal (g1 d (cV L) (jV L)) 0 ∗ semVal (g2 d (cV L) (jV L)) 0 ∗ semVal (g3 d (cV L) (jV L)) 0
          ∗ bigSep (((((ownCells (V d (cV L) (jV L))).erase (g0 d (cV L) (jV L))).erase (g1 d (cV L) (jV L))).erase (g2 d (cV L) (jV L))).erase (g3 d (cV L) (jV L)))
              fun g => semVal g 0) := by
  unfold SparseCore.Cfg.ownSems0
  have m0 := mem_own d (cV L) (jV L) (.dma cc0_scoped0.sem) (by decide)
  have m1 := mem_own d (cV L) (jV L) (.dma cc0_scoped1.sem) (by decide)
  have m2 := mem_own d (cV L) (jV L) (.dma cc0_scoped2.sem) (by decide)
  have m3 := mem_own d (cV L) (jV L) (.dma cc0_scoped3.sem) (by decide)
  have n10 : g1 d (cV L) (jV L) ≠ g0 d (cV L) (jV L) := cell_ne (by decide)
  have n20 : g2 d (cV L) (jV L) ≠ g0 d (cV L) (jV L) := cell_ne (by decide)
  have n21 : g2 d (cV L) (jV L) ≠ g1 d (cV L) (jV L) := cell_ne (by decide)
  have n30 : g3 d (cV L) (jV L) ≠ g0 d (cV L) (jV L) := cell_ne (by decide)
  have n31 : g3 d (cV L) (jV L) ≠ g1 d (cV L) (jV L) := cell_ne (by decide)
  have n32 : g3 d (cV L) (jV L) ≠ g2 d (cV L) (jV L) := cell_ne (by decide)
  rw [SparseCore.bigSep_erase' m0,
    SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The arrays as a vector subcore's memrefs address them are the TensorCore's arrays. -/
theorem pts_aS (q : PosShare TreeShare) (f : Buf (Elt F) (srcLoc d)) :
    ((aS : Memref sig .scVector .hbm S327680 .i32).view.loc (V d (cV L) (jV L)) ↦{q} f : sProp 𝕄) = srcLoc d ↦{q} f := rfl
theorem pts_aD (q : PosShare TreeShare) (f : Buf (Elt F) (dstLoc d)) :
    ((aD : Memref sig .scVector .hbm S327680 .i32).view.loc (V d (cV L) (jV L)) ↦{q} f : sProp 𝕄) = dstLoc d ↦{q} f := rfl
theorem pts_aZ (q : PosShare TreeShare) (f : Buf (Elt F) (zeroLoc d)) :
    ((aZ : Memref sig .scVector .hbm S10256 .f32).view.loc (V d (cV L) (jV L)) ↦{q} f : sProp 𝕄) = zeroLoc d ↦{q} f := rfl
theorem pts_cRowK (f : Buf (Elt F) (cntLoc d)) :
    ((cRowK L).view.loc (V d (cV L) (jV L)) ↦[(cRowK L).view.set]{fullShare} f : sProp 𝕄) = cntLoc d ↦[(cntRow (wL L)).set]{fullShare} f := by
  rw [set_cRowK]
theorem pts_b6 (f : Buf (Elt F) ((V d (cV L) (jV L)).loc cc0_scratch0)) :
    ((b6 : Memref sig .scVector .vmem S1024 .i32).view.loc (V d (cV L) (jV L)) ↦{fullShare} f : sProp 𝕄) = (V d (cV L) (jV L)).loc cc0_scratch0 ↦{fullShare} f := rfl
theorem pts_b7 (f : Buf (Elt F) ((V d (cV L) (jV L)).loc cc0_scratch1)) :
    ((b7 : Memref sig .scVector .vmem S1024 .i32).view.loc (V d (cV L) (jV L)) ↦{fullShare} f : sProp 𝕄) = (V d (cV L) (jV L)).loc cc0_scratch1 ↦{fullShare} f := rfl
theorem pts_b8 (f : Buf (Elt F) ((V d (cV L) (jV L)).loc cc0_scratch2)) :
    ((b8 : Memref sig .scVector .vmem S10256 .f32).view.loc (V d (cV L) (jV L)) ↦{fullShare} f : sProp 𝕄) = (V d (cV L) (jV L)).loc cc0_scratch2 ↦{fullShare} f := rfl

/-- What a trip of the loop starts and ends with: the evidence that waits at the kernels' index are admissible, the two
    index arrays' read tokens, the three scratch buffers at whatever they hold, the two chunk copies' semaphores at
    zero, and the subcore's debts with only such waits recorded beyond the first ones. -/
def inv0 (O : CellTallies nD τ sig (HIx 2)) (W : Waits sig (HIx 2)) (_ : Nat) (_ : PUnit) : sProp 𝕄 :=
  iprop(Transfers.MayWaits (V d (cV L) (jV L)) (none : HIx 2) O
    ∗ ((aS : Memref sig .scVector .hbm S327680 .i32).view.loc (V d (cV L) (jV L)) ↦{qW L} fs d)
    ∗ ((aD : Memref sig .scVector .hbm S327680 .i32).view.loc (V d (cV L) (jV L)) ↦{qW L} fd d)
    ∗ (∃ f, (b6 : Memref sig .scVector .vmem S1024 .i32).view.loc (V d (cV L) (jV L)) ↦{fullShare} f)
    ∗ (∃ f, (b7 : Memref sig .scVector .vmem S1024 .i32).view.loc (V d (cV L) (jV L)) ↦{fullShare} f)
    ∗ (∃ f, (b8 : Memref sig .scVector .vmem S10256 .f32).view.loc (V d (cV L) (jV L)) ↦{fullShare} f)
    ∗ semVal (g1 d (cV L) (jV L)) 0 ∗ semVal (g2 d (cV L) (jV L)) 0
    ∗ ∃ W', ⌜∀ p ∈ W', p ∈ W ∨ p.2 = none⌝ ∗ owes (V d (cV L) (jV L)) O W')

/-- The index vector the kernel scatters at is in range whenever the destination indices are below 10000: a lane is the
    destination index or, where source and destination agree, 10240. -/
theorem dm_lt (s v : IVec S16 32) (hv : ∀ x, (v x).toNat < 10000) :
    ∀ (a : Fin 1) (x : S16.Idx), ((![select (cmpi .eq s v) (broadcast S16 10240#32) v] : Fin 1 → IVec S16 32) a x).toNat < S10256.size a := by
  intro a x
  obtain rfl : a = 0 := Subsingleton.elim _ _
  show (Scalar.select (cmpi .eq s v x) 10240#32 (v x)).toNat < 10256
  unfold Scalar.select; split
  · decide
  · have := hv x; omega

/-- What a load of sixteen lanes of the destination-index scratch reads is below 10000 when all its words are. -/
theorem read7_lt (f : Buf (Elt F) ((b7 : Memref sig .scVector .vmem S1024 .i32).view.loc (V d (cV L) (jV L))))
    (hb : ∀ j, (f j).toNat < 10000) (o : Nat) (h : ∀ a, (![o] : Fin 1 → Nat) a + S16.size a ≤ S1024.size a) :
    ∀ x, ((View.readAt (Elt F) (b7 : Memref sig .scVector .vmem S1024 .i32).view (Rect.unit (s := S1024) ![o] S16.size h).toLoadRect f) x).toNat < 10000 :=
  fun x => hb _

/-- The check before each indexed store holds of what the scratch holds. -/
theorem chk_ok (s : IVec S16 32) (f : Buf (Elt F) ((b7 : Memref sig .scVector .vmem S1024 .i32).view.loc (V d (cV L) (jV L))))
    (hb : ∀ j, (f j).toNat < 10000) (o : Nat) (h : ∀ a, (![o] : Fin 1 → Nat) a + S16.size a ≤ S1024.size a) :
    ∀ (a : Fin 1) (x : S16.Idx), ((![select (cmpi .eq s (View.readAt (Elt F) (b7 : Memref sig .scVector .vmem S1024 .i32).view (Rect.unit (s := S1024) ![o] S16.size h).toLoadRect f))
        (broadcast S16 10240#32) (View.readAt (Elt F) (b7 : Memref sig .scVector .vmem S1024 .i32).view (Rect.unit (s := S1024) ![o] S16.size h).toLoadRect f)] : Fin 1 → IVec S16 32) a x).toNat < S10256.size a :=
  dm_lt s _ (read7_lt (F := F) d L f hb o h)

/-- A chunk of the destination-index array, copied over the whole scratch, leaves every word of it below 10000. -/
theorem chunk_lt (hR : ∀ (d : Dev nD) (j : (dstLoc d).ty.Idx), (fd d j).toNat < 10000) (k : Fin k0_t1_loop.trips)
    (f7 : Buf (Elt F) ((b7 : Memref sig .scVector .vmem S1024 .i32).view.loc (V d (cV L) (jV L)))) :
    ∀ j, ((View.write (Elt F) (b7 : Memref sig .scVector .vmem S1024 .i32).view f7
      (ReadAs.same.apply (View.read (Elt F) ((aD : Memref sig .scVector .hbm S327680 .i32).slice (Rect.unit (s := S327680) (k0_off1 L k) S1024.size (k0_off1_inb L k)) (fun _ => rfl)).view (fd d)))
      Finset.univ) j).toNat < 10000 := by
  intro j
  have e := View.write_emb_of_mem (Val := Elt F) (v := (b7 : Memref sig .scVector .vmem S1024 .i32).view) f7
    (ReadAs.same.apply (View.read (Elt F) ((aD : Memref sig .scVector .hbm S327680 .i32).slice (Rect.unit (s := S327680) (k0_off1 L k) S1024.size (k0_off1_inb L k)) (fun _ => rfl)).view (fd d)))
    (M := Finset.univ) (x := j) (Finset.mem_univ _)
  have e' : (b7 : Memref sig .scVector .vmem S1024 .i32).view.emb j = j := rfl
  rw [e'] at e
  rw [e]
  exact hR d _

/-- The indexed store into the accumulator scratch, whatever it holds before and after. -/
theorem wp_store8 {α : Type} {Q : α → sProp 𝕄} (idxs : Fin S10256.rank → IVec S16 32) (v : Vec F S16 .f32) (mask : IVec S16 1) (add : Bool)
    (h : ∀ a x, (idxs a x).toNat < S10256.size a) (hs : ((b8 : Memref sig .scVector .vmem S10256 .f32).access (.whole S10256)).Stores Finset.univ)
    (k : PUnit → Prog (TpuEff nD τ sig (Elt F) Λ₀ (.scVector (cV L) (jV L))) α) :
    iprop(∃ f, (b8 : Memref sig .scVector .vmem S10256 .f32).view.loc (V d (cV L) (jV L)) ↦{fullShare} f)
      ⊢ iprop(((∃ f, (b8 : Memref sig .scVector .vmem S10256 .f32).view.loc (V d (cV L) (jV L)) ↦{fullShare} f)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (b8 : Memref sig .scVector .vmem S10256 .f32) idxs v mask add h hs >>= k) Q) := by
  iintro ⟨%f, H⟩ Hk
  have e : (((b8 : Memref sig .scVector .vmem S10256 .f32).access (.whole S10256)).set) = Finset.univ := Memref.set_access_whole _
  iapply (SparseCore.wp_vectorStoreIdx (defs := defs₀ (F := F)) 𝒱₀ (V d (cV L) (jV L)) none Set.univ (base := (b8 : Memref sig .scVector .vmem S10256 .f32))
    (idxs := idxs) (v := v) (mask := mask) (add := add) (h := h) (hs := hs) (k := k) (f := f) (Q := Q)) $$ [H]
  · rw [e]; iexact H
  iintro H
  iapply Hk
  iexists _
  rw [e]; iexact H

set_option hygiene false in
/-- One round of the unrolled inner loop: up to the check (discharged from the bound on the scratch's words), then the
    indexed store by its rule. -/
local macro "store_step" : tactic => `(tactic| (
  sl_exec (disch := exact chk_ok (F := F) d L _ _ hb _ _)
  iapply (wp_store8 (F := F) d L _ _ _ _ _ _ _) $$ [H8]
  · iexists _; iexact H8
  iintro ⟨%f8, H8⟩))

set_option sl_exec.dischHeartbeats 200000 in
set_option maxHeartbeats 4000000 in
/-- One trip of the loop: both index chunks fetched, then the sixty-four rounds of the unrolled inner loop. -/
theorem tile_trip (hR : ∀ (d : Dev nD) (j : (dstLoc d).ty.Idx), (fd d j).toNat < 10000)
    (O : CellTallies nD τ sig (HIx 2)) (W : Waits sig (HIx 2)) (v1 : BitVec 32) (k : Fin k0_t1_loop.trips) (acc : PUnit) :
    inv0 fs fd d L O W k.val acc
      ⊢ wp frame (wpE (defs₀ (F := F)) 𝒱₀ (V d (cV L) (jV L)) none) Set.univ
          (k0_t1_body L aS (Memref.isWhole_whole _) aD (Memref.isWhole_whole _) aZ (Memref.isWhole_whole _) aC (Memref.isWhole_whole _)
            b6 (Memref.isWhole_whole _) b7 (Memref.isWhole_whole _) b8 (Memref.isWhole_whole _) cc0_scoped0 cc0_scoped1 cc0_scoped2 cc0_scoped3 v1 k acc)
          (inv0 fs fd d L O W (k.val + 1)) := by
  unfold inv0
  iintro ⟨#Hmw, HS, HD, ⟨%f6, H6⟩, ⟨%f7, H7⟩, ⟨%f8, H8⟩, Hs1, Hs2, %W', %hW', HO⟩
  sl_exec
  have hb := chunk_lt (F := F) fd d L hR k f7
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  store_step
  sl_exec
  sl_step
  isplitr; · iexact Hmw
  isplitl [HS]; · iexact HS
  isplitl [HD]; · iexact HD
  isplitl [H6]; · iexists _; iexact H6
  isplitl [H7]; · iexists _; iexact H7
  isplitl [H8]; · iexists _; iexact H8
  isplitl [Hs1]; · iexact Hs1
  isplitl [Hs2]; · iexact Hs2
  iexists _; isplitr
  swap
  · iexact HO
  · ipureintro; intro p hp
    rcases Finset.mem_insert.mp hp with rfl | hp
    · exact .inr rfl
    rcases Finset.mem_insert.mp hp with rfl | hp
    · exact .inr rfl
    · exact hW' p hp

end Trip

end Tile0

end Cert.Kernel.Run
-- ==== Proof.BTile0.lean ====
/-
  The first call's task on one vector subcore: the accumulator is zeroed by a copy of the zero vector, the loop of ten trips
  runs by its invariant, the accumulator is copied to the worker's row of the count array, and the task hands back what it
  was handed, the row at new contents. This is the launch theorem's obligation for the first call.
-/
import proofs.«207969_g80633716015134_cont_9to1_m_1245_11_alg».proof.Proof.BTile0Trip
import proofs.«207969_g80633716015134_cont_9to1_m_1245_11_alg».proof.Proof.Gen.Kernel.Skeleton
import Idealize.ShloMosaic.Lib.SparseCore.Launch
import Idealize.ShloMosaic.Lib.SparseCore.Ops
import Idealize.ShloMosaic.Lib.Tactic

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 2) (Elt F) ℕ UU ℕ

namespace Tile0

section Body

variable [FloatOps F]
variable (fs : (d : Dev nD) → Buf (Elt F) (srcLoc d)) (fd : (d : Dev nD) → Buf (Elt F) (dstLoc d)) (fz : (d : Dev nD) → Buf (Elt F) (zeroLoc d))
variable (d : Dev nD) (L : grid0.Coords)

set_option sl_exec.dischHeartbeats 200000 in
/-- The task's body at a symbolic worker: from its read tokens, its row of the count array and the subcore's scoped
    storage, it runs to the same, the row at new contents, having recorded only waits at the kernels' index. -/
theorem tile_body (hF : (K (F := F)).Facts) (hR : ∀ (d : Dev nD) (j : (dstLoc d).ty.Idx), (fd d j).toNat < 10000)
    (O : CellTallies nD τ sig (HIx 2)) (W : Waits sig (HIx 2)) (hO : ∀ g, O g none = 0) :
    iprop(levAts (K (F := F)).L (K (F := F)).lev ∗ emp ∗ pay0 fs fd fz d (cL L) (iL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__deg_sc L aS (Memref.isWhole_whole _) aD (Memref.isWhole_whole _) aZ (Memref.isWhole_whole _) aC (Memref.isWhole_whole _)
            b6 (Memref.isWhole_whole _) b7 (Memref.isWhole_whole _) b8 (Memref.isWhole_whole _) cc0_scoped0 cc0_scoped1 cc0_scoped2 cc0_scoped3)
          fun _ => iprop(pay0 fs fd fz d (cL L) (iL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__deg_sc_eq_skeleton]; unfold cc0__deg_sc_skel
  rw [(K (F := F)).scopedBufs_V hF d (cV L) (jV L), SparseCore.Cfg.scopedSems0_V (Val := Elt F) d (cV L) (jV L), ownSems0_V, ownBufs_V]
  unfold pay0 reads
  iintro ⟨#Hlv, -, ⟨⟨HS, HD, HZ⟩, %g, HC⟩, ⟨⟨%f6, H6⟩, ⟨%f7, H7⟩, ⟨%f8, H8⟩, Hbufs⟩, ⟨Hs0, Hs1, Hs2, Hs3, Hsems⟩, HO⟩
  ihave Hmw := ((K (F := F)).mayWaits_none (thr := V d (cV L) (jV L)) hO) $$ Hlv
  ihave HS' := (Entails.of_eq (pts_aS (F := F) d L _ _).symm) $$ HS
  ihave HD' := (Entails.of_eq (pts_aD (F := F) d L _ _).symm) $$ HD
  ihave HZ' := (Entails.of_eq (pts_aZ (F := F) d L _ _).symm) $$ HZ
  ihave HC' := (Entails.of_eq (pts_cRowK (F := F) d L _).symm) $$ HC
  ihave H6' := (Entails.of_eq (pts_b6 (F := F) d L _).symm) $$ H6
  ihave H7' := (Entails.of_eq (pts_b7 (F := F) d L _).symm) $$ H7
  ihave H8' := (Entails.of_eq (pts_b8 (F := F) d L _).symm) $$ H8
  sl_exec
  sl_for (inv0 fs fd d L O W) $$ [Hmw HS' HD' H6' H7' H8' Hs1 Hs2 HO]
  case region =>
    intro k acc
    exact tile_trip fs fd d L hR O W _ k acc
  · unfold inv0
    isplitr; · iexact Hmw
    isplitl [HS']; · iexact HS'
    isplitl [HD']; · iexact HD'
    isplitl [H6']; · iexists _; iexact H6'
    isplitl [H7']; · iexists _; iexact H7'
    isplitl [H8']; · iexists _; iexact H8'
    isplitl [Hs1]; · iexact Hs1
    isplitl [Hs2]; · iexact Hs2
    iexists _; isplitr
    swap
    · iexact HO
    · ipureintro; intro p hp
      rcases Finset.mem_insert.mp hp with rfl | hp
      · exact .inr rfl
      · exact .inl hp
  iintro %_ HI
  unfold inv0
  icases HI with ⟨-, HS, HD, ⟨%f6', H6⟩, ⟨%f7', H7⟩, ⟨%f8', H8⟩, Hs1, Hs2, %W', %hW', HO⟩
  sl_exec
  sl_step
  isplitl [HS HD HZ' HC']
  · isplitl [HS HD HZ']
    · isplitl [HS]; · iexact HS
      isplitl [HD]; · iexact HD
      iexact HZ'
    · iexists _; iapply (Entails.of_eq (pts_cRowK (F := F) d L _)); iexact HC'
  isplitl [H6 H7 H8 Hbufs]
  · isplitl [H6]; · iexists _; iexact H6
    isplitl [H7]; · iexists _; iexact H7
    isplitl [H8]; · iexists _; iexact H8
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  swap
  · iexact HO
  · ipureintro; intro p hp
    rcases Finset.mem_insert.mp hp with rfl | hp
    · exact .inr rfl
    · exact hW' p hp

end Body

/-! ## The launch theorem's obligation -/

section Obl

variable [FloatOps F]
variable (fs : (d : Dev nD) → Buf (Elt F) (srcLoc d)) (fd : (d : Dev nD) → Buf (Elt F) (dstLoc d)) (fz : (d : Dev nD) → Buf (Elt F) (zeroLoc d))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__deg_sc (coordsV c s)
          aS (Memref.isWhole_whole _) aD (Memref.isWhole_whole _) aZ (Memref.isWhole_whole _) aC (Memref.isWhole_whole _)
          b6 (Memref.isWhole_whole _) b7 (Memref.isWhole_whole _) b8 (Memref.isWhole_whole _) cc0_scoped0 cc0_scoped1 cc0_scoped2 cc0_scoped3) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Obl

end Tile0

section Obl0

open Tile0

variable [FloatOps F]
variable (fs : (d : Dev nD) → Buf (Elt F) (srcLoc d)) (fd : (d : Dev nD) → Buf (Elt F) (dstLoc d)) (fz : (d : Dev nD) → Buf (Elt F) (zeroLoc d))

/-- The first call's task obligation: every worker's task terminates without fault and hands back what it was handed. -/
theorem tileObl0 (hR : ∀ (d : Dev nD) (j : (dstLoc d).ty.Idx), (fd d j).toNat < 10000) :
    (K (F := F)).TileObl (D (F := F)) 𝒱 (P fs fd fz) v₀ 0 := by
  intro d c i O W hO _ _
  simp only [show (P fs fd fz).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body fs fd fz d (coordsV ⟨_, hc.1⟩ ⟨_, hc.2⟩) facts hR O W hO).trans (wp_mono frame _ _ fun _ => obl_post)

end Obl0

end Cert.Kernel.Run
-- ==== Proof.BTile1Setup.lean ====
import proofs.«207969_g80633716015134_cont_9to1_m_1245_11_alg».proof.Proof.BSetup
import proofs.«207969_g80633716015134_cont_9to1_m_1245_11_alg».proof.Proof.Gen.Kernel.Skeleton
import Idealize.ShloMosaic.Lib.SparseCore.Launch
import Idealize.ShloMosaic.Lib.SparseCore.Ops
import Idealize.ShloMosaic.Lib.Tactic

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 2) (Elt F) ℕ UU ℕ

/-! ## The second call's task at a symbolic worker: names -/

namespace T1

/-- The SparseCore and the vector subcore of a grid point, and the same two as the payloads index them. -/
abbrev cV (L : grid2.Coords) : Fin τ.nSC := (L 0).castLE hcore2
abbrev jV (L : grid2.Coords) : Fin τ.nSub := (L 1).castLE hsub2
theorem bound_zero : grid2.bound 0 = 2 := rfl
theorem bound_one : grid2.bound 1 = 16 := rfl
abbrev cL (L : grid2.Coords) : Fin 2 := Fin.cast bound_zero (L 0)
abbrev iL (L : grid2.Coords) : Fin 16 := Fin.cast bound_one (L 1)

/-- The share of a whole array a worker reads. -/
abbrev qW (L : grid2.Coords) : PosShare TreeShare := shareTok (shareTok fullShare 2 (cL L)) 16 (iL L)

/-- The arrays and the scratch as the kernel is called with them. -/
abbrev aS : Memref sig .scVector .hbm S327680 .i32 := Memref.whole main_v5_scv
abbrev aD : Memref sig .scVector .hbm S327680 .i32 := Memref.whole main_v7_scv
abbrev aZ : Memref sig .scVector .hbm S10256 .f32 := Memref.whole main_v10_scv
abbrev aH : Memref sig .scVector .hbm S128x10240 .f32 := Memref.whole main_v16_1_scv
abbrev aG : Memref sig .scVector .hbm S128x10240 .f32 := Memref.whole main_v17_scv
abbrev b0 : Memref sig .scVector .vmem S1024 .i32 := Memref.whole cc2_scratch0
abbrev b1 : Memref sig .scVector .vmem S1024 .i32 := Memref.whole cc2_scratch1
abbrev b2 : Memref sig .scVector .vmem S1024 .i32 := Memref.whole cc2_scratch2
abbrev b3 : Memref sig .scVector .vmem S1024 .i32 := Memref.whole cc2_scratch3
abbrev b4 : Memref sig .scVector .vmem S10240 .f32 := Memref.whole cc2_scratch4
abbrev b5 : Memref sig .scVector .vmem S10240 .f32 := Memref.whole cc2_scratch5
abbrev b6 : Memref sig .scVector .vmem S10240 .f32 := Memref.whole cc2_scratch6
abbrev b7 : Memref sig .scVector .vmem S10240 .f32 := Memref.whole cc2_scratch7
abbrev b8 : Memref sig .scVector .vmem S10256 .f32 := Memref.whole cc2_scratch8
abbrev b9 : Memref sig .scVector .vmem S10256 .f32 := Memref.whole cc2_scratch9
abbrev b10 : Memref sig .scVector .vmem S10256 .f32 := Memref.whole cc2_scratch10
abbrev b11 : Memref sig .scVector .vmem S10256 .f32 := Memref.whole cc2_scratch11

/-- Row r of the worker's four rows of a 128-row array, as the kernel slices it. -/
abbrev rowK (L : grid2.Coords) (r : Fin 4) : Rect S128x10240 :=
  Rect.unit (s := S128x10240) (k2_off1 L (BitVec.ofNat 32 r.val)) S1x10240.size (k2_off1_inb L r)
abbrev hRowK (L : grid2.Coords) (r : Fin 4) : Memref sig .scVector .hbm S10240 .f32 :=
  ((aH : Memref sig .scVector .hbm S128x10240 .f32).slice (rowK L r) (fun _ => rfl)).squeeze S10240 squeezes_S1x10240_S10240
abbrev gRowK (L : grid2.Coords) (r : Fin 4) : Memref sig .scVector .hbm S10240 .f32 :=
  ((aG : Memref sig .scVector .hbm S128x10240 .f32).slice (rowK L r) (fun _ => rfl)).squeeze S10240 squeezes_S1x10240_S10240

/-- The row of the payload that the kernel's r-th row is. -/
abbrev colK (L : grid2.Coords) (r : Fin 4) : Rect S128x10240 :=
  colRow ⟨4 * wid (cL L).val (iL L).val + r.val, wid4_lt (cL L).isLt (iL L).isLt r⟩

theorem rowK_eq (L : grid2.Coords) (r : Fin 4) : rowK L r = colK L r := by
  unfold rowK colK colRow Rect.part Rect.block
  have hc : (L 0).val < 2 := (L 0).isLt
  have hi : (L 1).val < 16 := (L 1).isLt
  have hr := r.isLt
  congr 1 <;> funext a
  · rw [k2_off1_eq]
    match a with
    | 0 => simp [Shape.partIx, Shape.partSize, wid]; omega
    | 1 => simp [Shape.partIx, Shape.partSize]
  · match a with
    | 0 => simp [Shape.partSize]
    | 1 => simp [Shape.partSize]

theorem set_hRowK (L : grid2.Coords) (r : Fin 4) : (hRowK L r).view.set = (colK L r).set := by
  show (((aH : Memref sig .scVector .hbm S128x10240 .f32).view.slice (rowK L r)).reshape S10240 squeezes_S1x10240_S10240.numel_eq).set = _
  rw [View.set_reshape]
  show ((View.whole (main_v16_1_scv : Ref sig .scVector)).slice (rowK L r)).set = _
  rw [View.set_slice, rowK_eq]; exact Finset.map_refl

theorem set_gRowK (L : grid2.Coords) (r : Fin 4) : (gRowK L r).view.set = (colK L r).set := by
  show (((aG : Memref sig .scVector .hbm S128x10240 .f32).view.slice (rowK L r)).reshape S10240 squeezes_S1x10240_S10240.numel_eq).set = _
  rw [View.set_reshape]
  show ((View.whole (main_v17_scv : Ref sig .scVector)).slice (rowK L r)).set = _
  rw [View.set_slice, rowK_eq]; exact Finset.map_refl

end T1

namespace T1

section Names

variable [FloatOps F]

abbrev g0 (d : Dev nD) (c : Fin τ.nSC) (i : Fin τ.nSub) : GSem nD τ sig := (V d c i, .dma cc2_scratch12.sem)
abbrev g1 (d : Dev nD) (c : Fin τ.nSC) (i : Fin τ.nSub) : GSem nD τ sig := (V d c i, .dma cc2_scratch13.sem)
abbrev g2 (d : Dev nD) (c : Fin τ.nSC) (i : Fin τ.nSub) : GSem nD τ sig := (V d c i, .dma cc2_scratch14.sem)
abbrev g3 (d : Dev nD) (c : Fin τ.nSC) (i : Fin τ.nSub) : GSem nD τ sig := (V d c i, .dma cc2_scratch15.sem)
abbrev g4 (d : Dev nD) (c : Fin τ.nSC) (i : Fin τ.nSub) : GSem nD τ sig := (V d c i, .dma cc2_scoped0.sem)
abbrev g5 (d : Dev nD) (c : Fin τ.nSC) (i : Fin τ.nSub) : GSem nD τ sig := (V d c i, .dma cc2_scoped1.sem)
abbrev g6 (d : Dev nD) (c : Fin τ.nSC) (i : Fin τ.nSub) : GSem nD τ sig := (V d c i, .dma cc2_scoped2.sem)
abbrev g7 (d : Dev nD) (c : Fin τ.nSC) (i : Fin τ.nSub) : GSem nD τ sig := (V d c i, .dma cc2_scoped3.sem)
abbrev g8 (d : Dev nD) (c : Fin τ.nSC) (i : Fin τ.nSub) : GSem nD τ sig := (V d c i, .dma cc2_scoped4.sem)
abbrev g9 (d : Dev nD) (c : Fin τ.nSC) (i : Fin τ.nSub) : GSem nD τ sig := (V d c i, .dma cc2_scoped5.sem)
abbrev g10 (d : Dev nD) (c : Fin τ.nSC) (i : Fin τ.nSub) : GSem nD τ sig := (V d c i, .dma cc2_scoped6.sem)
abbrev g11 (d : Dev nD) (c : Fin τ.nSC) (i : Fin τ.nSub) : GSem nD τ sig := (V d c i, .dma cc2_scoped7.sem)
abbrev g12 (d : Dev nD) (c : Fin τ.nSC) (i : Fin τ.nSub) : GSem nD τ sig := (V d c i, .dma cc2_scoped8.sem)
abbrev g13 (d : Dev nD) (c : Fin τ.nSC) (i : Fin τ.nSub) : GSem nD τ sig := (V d c i, .dma cc2_scoped9.sem)
abbrev g14 (d : Dev nD) (c : Fin τ.nSC) (i : Fin τ.nSub) : GSem nD τ sig := (V d c i, .dma cc2_scoped10.sem)
abbrev g15 (d : Dev nD) (c : Fin τ.nSC) (i : Fin τ.nSub) : GSem nD τ sig := (V d c i, .dma cc2_scoped11.sem)

/-- The sixteen semaphores of the task's copies: two per slot of the pipeline, one per copy in and out. -/
def sl : Fin 16 → SemLoc sig
  | ⟨0, _⟩ => .dma cc2_scratch12.sem
  | ⟨1, _⟩ => .dma cc2_scratch13.sem
  | ⟨2, _⟩ => .dma cc2_scratch14.sem
  | ⟨3, _⟩ => .dma cc2_scratch15.sem
  | ⟨4, _⟩ => .dma cc2_scoped0.sem
  | ⟨5, _⟩ => .dma cc2_scoped1.sem
  | ⟨6, _⟩ => .dma cc2_scoped2.sem
  | ⟨7, _⟩ => .dma cc2_scoped3.sem
  | ⟨8, _⟩ => .dma cc2_scoped4.sem
  | ⟨9, _⟩ => .dma cc2_scoped5.sem
  | ⟨10, _⟩ => .dma cc2_scoped6.sem
  | ⟨11, _⟩ => .dma cc2_scoped7.sem
  | ⟨12, _⟩ => .dma cc2_scoped8.sem
  | ⟨13, _⟩ => .dma cc2_scoped9.sem
  | ⟨14, _⟩ => .dma cc2_scoped10.sem
  | ⟨15, _⟩ => .dma cc2_scoped11.sem
  | ⟨_ + 16, h⟩ => absurd h (by omega)

theorem sl_ne : ∀ a b : Fin 16, a ≠ b → sl a ≠ sl b := by decide
theorem sl_scoped : ∀ a : Fin 16, (sl a).isScoped .scVector = true := by decide

omit [FloatOps F] in
theorem cell_ne {thr : Thread nD τ} {s s' : SemLoc sig} (h : s ≠ s') : ((thr, s) : GSem nD τ sig) ≠ (thr, s') :=
  fun e => h (Prod.mk.inj e).2

omit [FloatOps F] in
theorem mem_own (d : Dev nD) (c : Fin τ.nSC) (i : Fin τ.nSub) (a : Fin 16) :
    ((V d c i, sl a) : GSem nD τ sig) ∈ ownCells (V d c i) := (mem_ownCells (g := ((V d c i, sl a) : GSem nD τ sig))).mpr ⟨rfl, sl_scoped a⟩

omit [FloatOps F] in
/-- The sixteen semaphores are among the subcore's own: they are them, each at zero, and the rest. -/
theorem ownSems0_V (d : Dev nD) (c : Fin τ.nSC) (i : Fin τ.nSub) :
    (ownSems0 (V d c i) : sProp 𝕄)
      = iprop(semVal (g0 d c i) 0 ∗ semVal (g1 d c i) 0 ∗ semVal (g2 d c i) 0 ∗ semVal (g3 d c i) 0 ∗ semVal (g4 d c i) 0 ∗ semVal (g5 d c i) 0 ∗ semVal (g6 d c i) 0 ∗ semVal (g7 d c i) 0 ∗ semVal (g8 d c i) 0 ∗ semVal (g9 d c i) 0 ∗ semVal (g10 d c i) 0 ∗ semVal (g11 d c i) 0 ∗ semVal (g12 d c i) 0 ∗ semVal (g13 d c i) 0 ∗ semVal (g14 d c i) 0 ∗ semVal (g15 d c i) 0
          ∗ bigSep (((((((((((((((((ownCells (V d c i)).erase (g0 d c i)).erase (g1 d c i)).erase (g2 d c i)).erase (g3 d c i)).erase (g4 d c i)).erase (g5 d c i)).erase (g6 d c i)).erase (g7 d c i)).erase (g8 d c i)).erase (g9 d c i)).erase (g10 d c i)).erase (g11 d c i)).erase (g12 d c i)).erase (g13 d c i)).erase (g14 d c i)).erase (g15 d c i)) fun g => semVal g 0) := by
  unfold SparseCore.Cfg.ownSems0
  rw [SparseCore.bigSep_erase' (mem_own d c i 0),
    SparseCore.bigSep_erase' (Finset.mem_erase.mpr ⟨cell_ne (sl_ne 1 0 (by decide)), (mem_own d c i 1)⟩),
    SparseCore.bigSep_erase' (Finset.mem_erase.mpr ⟨cell_ne (sl_ne 2 1 (by decide)), (Finset.mem_erase.mpr ⟨cell_ne (sl_ne 2 0 (by decide)), (mem_own d c i 2)⟩)⟩),
    SparseCore.bigSep_erase' (Finset.mem_erase.mpr ⟨cell_ne (sl_ne 3 2 (by decide)), (Finset.mem_erase.mpr ⟨cell_ne (sl_ne 3 1 (by decide)), (Finset.mem_erase.mpr ⟨cell_ne (sl_ne 3 0 (by decide)), (mem_own d c i 3)⟩)⟩)⟩),
    SparseCore.bigSep_erase' (Finset.mem_erase.mpr ⟨cell_ne (sl_ne 4 3 (by decide)), (Finset.mem_erase.mpr ⟨cell_ne (sl_ne 4 2 (by decide)), (Finset.mem_erase.mpr ⟨cell_ne (sl_ne 4 1 (by decide)), (Finset.mem_erase.mpr ⟨cell_ne (sl_ne 4 0 (by decide)), (mem_own d c i 4)⟩)⟩)⟩)⟩),
    SparseCore.bigSep_erase' (Finset.mem_erase.mpr ⟨cell_ne (sl_ne 5 4 (by decide)), (Finset.mem_erase.mpr ⟨cell_ne (sl_ne 5 3 (by decide)), (Finset.mem_erase.mpr ⟨cell_ne (sl_ne 5 2 (by decide)), (Finset.mem_erase.mpr ⟨cell_ne (sl_ne 5 1 (by decide)), (Finset.mem_erase.mpr ⟨cell_ne (sl_ne 5 0 (by decide)), (mem_own d c i 5)⟩)⟩)⟩)⟩)⟩),
    SparseCore.bigSep_erase' (Finset.mem_erase.mpr ⟨cell_ne (sl_ne 6 5 (by decide)), (Finset.mem_erase.mpr ⟨cell_ne (sl_ne 6 4 (by decide)), (Finset.mem_erase.mpr ⟨cell_ne (sl_ne 6 3 (by decide)), (Finset.mem_erase.mpr ⟨cell_ne (sl_ne 6 2 (by decide)), (Finset.mem_erase.mpr ⟨cell_ne (sl_ne 6 1 (by decide)), (Finset.mem_erase.mpr ⟨cell_ne (sl_ne 6 0 (by decide)), (mem_own d c i 6)⟩)⟩)⟩)⟩)⟩)⟩),
    SparseCore.bigSep_erase' (Finset.mem_erase.mpr ⟨cell_ne (sl_ne 7 6 (by decide)), (Finset.mem_erase.mpr ⟨cell_ne (sl_ne 7 5 (by decide)), (Finset.mem_erase.mpr ⟨cell_ne (sl_ne 7 4 (by decide)), (Finset.mem_erase.mpr ⟨cell_ne (sl_ne 7 3 (by decide)), (Finset.mem_erase.mpr ⟨cell_ne (sl_ne 7 2 (by decide)), (Finset.mem_erase.mpr ⟨cell_ne (sl_ne 7 1 (by decide)), (Finset.mem_erase.mpr ⟨cell_ne (sl_ne 7 0 (by decide)), (mem_own d c i 7)⟩)⟩)⟩)⟩)⟩)⟩)⟩),
    SparseCore.bigSep_erase' (Finset.mem_erase.mpr ⟨cell_ne (sl_ne 8 7 (by decide)), (Finset.mem_erase.mpr ⟨cell_ne (sl_ne 8 6 (by decide)), (Finset.mem_erase.mpr ⟨cell_ne (sl_ne 8 5 (by decide)), (Finset.mem_erase.mpr ⟨cell_ne (sl_ne 8 4 (by decide)), (Finset.mem_erase.mpr ⟨cell_ne (sl_ne 8 3 (by decide)), (Finset.mem_erase.mpr ⟨cell_ne (sl_ne 8 2 (by decide)), (Finset.mem_erase.mpr ⟨cell_ne (sl_ne 8 1 (by decide)), (Finset.mem_erase.mpr ⟨cell_ne (sl_ne 8 0 (by decide)), (mem_own d c i 8)⟩)⟩)⟩)⟩)⟩)⟩)⟩)⟩),
    SparseCore.bigSep_erase' (Finset.mem_erase.mpr ⟨cell_ne (sl_ne 9 8 (by decide)), (Finset.mem_erase.mpr ⟨cell_ne (sl_ne 9 7 (by decide)), (Finset.mem_erase.mpr ⟨cell_ne (sl_ne 9 6 (by decide)), (Finset.mem_erase.mpr ⟨cell_ne (sl_ne 9 5 (by decide)), (Finset.mem_erase.mpr ⟨cell_ne (sl_ne 9 4 (by decide)), (Finset.mem_erase.mpr ⟨cell_ne (sl_ne 9 3 (by decide)), (Finset.mem_erase.mpr ⟨cell_ne (sl_ne 9 2 (by decide)), (Finset.mem_erase.mpr ⟨cell_ne (sl_ne 9 1 (by decide)), (Finset.mem_erase.mpr ⟨cell_ne (sl_ne 9 0 (by decide)), (mem_own d c i 9)⟩)⟩)⟩)⟩)⟩)⟩)⟩)⟩)⟩),
    SparseCore.bigSep_erase' (Finset.mem_erase.mpr ⟨cell_ne (sl_ne 10 9 (by decide)), (Finset.mem_erase.mpr ⟨cell_ne (sl_ne 10 8 (by decide)), (Finset.mem_erase.mpr ⟨cell_ne (sl_ne 10 7 (by decide)), (Finset.mem_erase.mpr ⟨cell_ne (sl_ne 10 6 (by decide)), (Finset.mem_erase.mpr ⟨cell_ne (sl_ne 10 5 (by decide)), (Finset.mem_erase.mpr ⟨cell_ne (sl_ne 10 4 (by decide)), (Finset.mem_erase.mpr ⟨cell_ne (sl_ne 10 3 (by decide)), (Finset.mem_erase.mpr ⟨cell_ne (sl_ne 10 2 (by decide)), (Finset.mem_erase.mpr ⟨cell_ne (sl_ne 10 1 (by decide)), (Finset.mem_erase.mpr ⟨cell_ne (sl_ne 10 0 (by decide)), (mem_own d c i 10)⟩)⟩)⟩)⟩)⟩)⟩)⟩)⟩)⟩)⟩),
    SparseCore.bigSep_erase' (Finset.mem_erase.mpr ⟨cell_ne (sl_ne 11 10 (by decide)), (Finset.mem_erase.mpr ⟨cell_ne (sl_ne 11 9 (by decide)), (Finset.mem_erase.mpr ⟨cell_ne (sl_ne 11 8 (by decide)), (Finset.mem_erase.mpr ⟨cell_ne (sl_ne 11 7 (by decide)), (Finset.mem_erase.mpr ⟨cell_ne (sl_ne 11 6 (by decide)), (Finset.mem_erase.mpr ⟨cell_ne (sl_ne 11 5 (by decide)), (Finset.mem_erase.mpr ⟨cell_ne (sl_ne 11 4 (by decide)), (Finset.mem_erase.mpr ⟨cell_ne (sl_ne 11 3 (by decide)), (Finset.mem_erase.mpr ⟨cell_ne (sl_ne 11 2 (by decide)), (Finset.mem_erase.mpr ⟨cell_ne (sl_ne 11 1 (by decide)), (Finset.mem_erase.mpr ⟨cell_ne (sl_ne 11 0 (by decide)), (mem_own d c i 11)⟩)⟩)⟩)⟩)⟩)⟩)⟩)⟩)⟩)⟩)⟩),
    SparseCore.bigSep_erase' (Finset.mem_erase.mpr ⟨cell_ne (sl_ne 12 11 (by decide)), (Finset.mem_erase.mpr ⟨cell_ne (sl_ne 12 10 (by decide)), (Finset.mem_erase.mpr ⟨cell_ne (sl_ne 12 9 (by decide)), (Finset.mem_erase.mpr ⟨cell_ne (sl_ne 12 8 (by decide)), (Finset.mem_erase.mpr ⟨cell_ne (sl_ne 12 7 (by decide)), (Finset.mem_erase.mpr ⟨cell_ne (sl_ne 12 6 (by decide)), (Finset.mem_erase.mpr ⟨cell_ne (sl_ne 12 5 (by decide)), (Finset.mem_erase.mpr ⟨cell_ne (sl_ne 12 4 (by decide)), (Finset.mem_erase.mpr ⟨cell_ne (sl_ne 12 3 (by decide)), (Finset.mem_erase.mpr ⟨cell_ne (sl_ne 12 2 (by decide)), (Finset.mem_erase.mpr ⟨cell_ne (sl_ne 12 1 (by decide)), (Finset.mem_erase.mpr ⟨cell_ne (sl_ne 12 0 (by decide)), (mem_own d c i 12)⟩)⟩)⟩)⟩)⟩)⟩)⟩)⟩)⟩)⟩)⟩)⟩),
    SparseCore.bigSep_erase' (Finset.mem_erase.mpr ⟨cell_ne (sl_ne 13 12 (by decide)), (Finset.mem_erase.mpr ⟨cell_ne (sl_ne 13 11 (by decide)), (Finset.mem_erase.mpr ⟨cell_ne (sl_ne 13 10 (by decide)), (Finset.mem_erase.mpr ⟨cell_ne (sl_ne 13 9 (by decide)), (Finset.mem_erase.mpr ⟨cell_ne (sl_ne 13 8 (by decide)), (Finset.mem_erase.mpr ⟨cell_ne (sl_ne 13 7 (by decide)), (Finset.mem_erase.mpr ⟨cell_ne (sl_ne 13 6 (by decide)), (Finset.mem_erase.mpr ⟨cell_ne (sl_ne 13 5 (by decide)), (Finset.mem_erase.mpr ⟨cell_ne (sl_ne 13 4 (by decide)), (Finset.mem_erase.mpr ⟨cell_ne (sl_ne 13 3 (by decide)), (Finset.mem_erase.mpr ⟨cell_ne (sl_ne 13 2 (by decide)), (Finset.mem_erase.mpr ⟨cell_ne (sl_ne 13 1 (by decide)), (Finset.mem_erase.mpr ⟨cell_ne (sl_ne 13 0 (by decide)), (mem_own d c i 13)⟩)⟩)⟩)⟩)⟩)⟩)⟩)⟩)⟩)⟩)⟩)⟩)⟩),
    SparseCore.bigSep_erase' (Finset.mem_erase.mpr ⟨cell_ne (sl_ne 14 13 (by decide)), (Finset.mem_erase.mpr ⟨cell_ne (sl_ne 14 12 (by decide)), (Finset.mem_erase.mpr ⟨cell_ne (sl_ne 14 11 (by decide)), (Finset.mem_erase.mpr ⟨cell_ne (sl_ne 14 10 (by decide)), (Finset.mem_erase.mpr ⟨cell_ne (sl_ne 14 9 (by decide)), (Finset.mem_erase.mpr ⟨cell_ne (sl_ne 14 8 (by decide)), (Finset.mem_erase.mpr ⟨cell_ne (sl_ne 14 7 (by decide)), (Finset.mem_erase.mpr ⟨cell_ne (sl_ne 14 6 (by decide)), (Finset.mem_erase.mpr ⟨cell_ne (sl_ne 14 5 (by decide)), (Finset.mem_erase.mpr ⟨cell_ne (sl_ne 14 4 (by decide)), (Finset.mem_erase.mpr ⟨cell_ne (sl_ne 14 3 (by decide)), (Finset.mem_erase.mpr ⟨cell_ne (sl_ne 14 2 (by decide)), (Finset.mem_erase.mpr ⟨cell_ne (sl_ne 14 1 (by decide)), (Finset.mem_erase.mpr ⟨cell_ne (sl_ne 14 0 (by decide)), (mem_own d c i 14)⟩)⟩)⟩)⟩)⟩)⟩)⟩)⟩)⟩)⟩)⟩)⟩)⟩)⟩),
    SparseCore.bigSep_erase' (Finset.mem_erase.mpr ⟨cell_ne (sl_ne 15 14 (by decide)), (Finset.mem_erase.mpr ⟨cell_ne (sl_ne 15 13 (by decide)), (Finset.mem_erase.mpr ⟨cell_ne (sl_ne 15 12 (by decide)), (Finset.mem_erase.mpr ⟨cell_ne (sl_ne 15 11 (by decide)), (Finset.mem_erase.mpr ⟨cell_ne (sl_ne 15 10 (by decide)), (Finset.mem_erase.mpr ⟨cell_ne (sl_ne 15 9 (by decide)), (Finset.mem_erase.mpr ⟨cell_ne (sl_ne 15 8 (by decide)), (Finset.mem_erase.mpr ⟨cell_ne (sl_ne 15 7 (by decide)), (Finset.mem_erase.mpr ⟨cell_ne (sl_ne 15 6 (by decide)), (Finset.mem_erase.mpr ⟨cell_ne (sl_ne 15 5 (by decide)), (Finset.mem_erase.mpr ⟨cell_ne (sl_ne 15 4 (by decide)), (Finset.mem_erase.mpr ⟨cell_ne (sl_ne 15 3 (by decide)), (Finset.mem_erase.mpr ⟨cell_ne (sl_ne 15 2 (by decide)), (Finset.mem_erase.mpr ⟨cell_ne (sl_ne 15 1 (by decide)), (Finset.mem_erase.mpr ⟨cell_ne (sl_ne 15 0 (by decide)), (mem_own d c i 15)⟩)⟩)⟩)⟩)⟩)⟩)⟩)⟩)⟩)⟩)⟩)⟩)⟩)⟩)⟩)]
  rfl

omit [FloatOps F] in
/-- The twelve scratch buffers are among the subcore's own: they are them, at some contents, and the rest. -/
theorem ownBufs_V (d : Dev nD) (c : Fin τ.nSC) (i : Fin τ.nSub) :
    (ownBufs (V d c i) : sProp 𝕄)
      = iprop((∃ f, (V d c i).loc cc2_scratch0 ↦{fullShare} f)
          ∗ (∃ f, (V d c i).loc cc2_scratch1 ↦{fullShare} f)
          ∗ (∃ f, (V d c i).loc cc2_scratch2 ↦{fullShare} f)
          ∗ (∃ f, (V d c i).loc cc2_scratch3 ↦{fullShare} f)
          ∗ (∃ f, (V d c i).loc cc2_scratch4 ↦{fullShare} f)
          ∗ (∃ f, (V d c i).loc cc2_scratch5 ↦{fullShare} f)
          ∗ (∃ f, (V d c i).loc cc2_scratch6 ↦{fullShare} f)
          ∗ (∃ f, (V d c i).loc cc2_scratch7 ↦{fullShare} f)
          ∗ (∃ f, (V d c i).loc cc2_scratch8 ↦{fullShare} f)
          ∗ (∃ f, (V d c i).loc cc2_scratch9 ↦{fullShare} f)
          ∗ (∃ f, (V d c i).loc cc2_scratch10 ↦{fullShare} f)
          ∗ (∃ f, (V d c i).loc cc2_scratch11 ↦{fullShare} f)
          ∗ bigSep (((((((((((((ownRefs (τ := τ) (.scVector c i)).erase ((Proc.scVector c i).devRef cc2_scratch0)).erase ((Proc.scVector c i).devRef cc2_scratch1)).erase ((Proc.scVector c i).devRef cc2_scratch2)).erase ((Proc.scVector c i).devRef cc2_scratch3)).erase ((Proc.scVector c i).devRef cc2_scratch4)).erase ((Proc.scVector c i).devRef cc2_scratch5)).erase ((Proc.scVector c i).devRef cc2_scratch6)).erase ((Proc.scVector c i).devRef cc2_scratch7)).erase ((Proc.scVector c i).devRef cc2_scratch8)).erase ((Proc.scVector c i).devRef cc2_scratch9)).erase ((Proc.scVector c i).devRef cc2_scratch10)).erase ((Proc.scVector c i).devRef cc2_scratch11))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := (Proc.scVector c i).devRef cc2_scratch0) rfl)).trans ?_
  rw [SparseCore.bigSep_erase' (Finset.mem_erase.mpr ⟨fun e => absurd (Proc.devRef_injective _ e) (show (cc2_scratch1 : Ref sig .scVector) ≠ cc2_scratch0 by decide), (SparseCore.Cfg.mem_ownRefs_of_owner (p := Proc.scVector c i) (b := (Proc.scVector c i).devRef cc2_scratch1) rfl)⟩),
    SparseCore.bigSep_erase' (Finset.mem_erase.mpr ⟨fun e => absurd (Proc.devRef_injective _ e) (show (cc2_scratch2 : Ref sig .scVector) ≠ cc2_scratch1 by decide), (Finset.mem_erase.mpr ⟨fun e => absurd (Proc.devRef_injective _ e) (show (cc2_scratch2 : Ref sig .scVector) ≠ cc2_scratch0 by decide), (SparseCore.Cfg.mem_ownRefs_of_owner (p := Proc.scVector c i) (b := (Proc.scVector c i).devRef cc2_scratch2) rfl)⟩)⟩),
    SparseCore.bigSep_erase' (Finset.mem_erase.mpr ⟨fun e => absurd (Proc.devRef_injective _ e) (show (cc2_scratch3 : Ref sig .scVector) ≠ cc2_scratch2 by decide), (Finset.mem_erase.mpr ⟨fun e => absurd (Proc.devRef_injective _ e) (show (cc2_scratch3 : Ref sig .scVector) ≠ cc2_scratch1 by decide), (Finset.mem_erase.mpr ⟨fun e => absurd (Proc.devRef_injective _ e) (show (cc2_scratch3 : Ref sig .scVector) ≠ cc2_scratch0 by decide), (SparseCore.Cfg.mem_ownRefs_of_owner (p := Proc.scVector c i) (b := (Proc.scVector c i).devRef cc2_scratch3) rfl)⟩)⟩)⟩),
    SparseCore.bigSep_erase' (Finset.mem_erase.mpr ⟨fun e => absurd (Proc.devRef_injective _ e) (show (cc2_scratch4 : Ref sig .scVector) ≠ cc2_scratch3 by decide), (Finset.mem_erase.mpr ⟨fun e => absurd (Proc.devRef_injective _ e) (show (cc2_scratch4 : Ref sig .scVector) ≠ cc2_scratch2 by decide), (Finset.mem_erase.mpr ⟨fun e => absurd (Proc.devRef_injective _ e) (show (cc2_scratch4 : Ref sig .scVector) ≠ cc2_scratch1 by decide), (Finset.mem_erase.mpr ⟨fun e => absurd (Proc.devRef_injective _ e) (show (cc2_scratch4 : Ref sig .scVector) ≠ cc2_scratch0 by decide), (SparseCore.Cfg.mem_ownRefs_of_owner (p := Proc.scVector c i) (b := (Proc.scVector c i).devRef cc2_scratch4) rfl)⟩)⟩)⟩)⟩),
    SparseCore.bigSep_erase' (Finset.mem_erase.mpr ⟨fun e => absurd (Proc.devRef_injective _ e) (show (cc2_scratch5 : Ref sig .scVector) ≠ cc2_scratch4 by decide), (Finset.mem_erase.mpr ⟨fun e => absurd (Proc.devRef_injective _ e) (show (cc2_scratch5 : Ref sig .scVector) ≠ cc2_scratch3 by decide), (Finset.mem_erase.mpr ⟨fun e => absurd (Proc.devRef_injective _ e) (show (cc2_scratch5 : Ref sig .scVector) ≠ cc2_scratch2 by decide), (Finset.mem_erase.mpr ⟨fun e => absurd (Proc.devRef_injective _ e) (show (cc2_scratch5 : Ref sig .scVector) ≠ cc2_scratch1 by decide), (Finset.mem_erase.mpr ⟨fun e => absurd (Proc.devRef_injective _ e) (show (cc2_scratch5 : Ref sig .scVector) ≠ cc2_scratch0 by decide), (SparseCore.Cfg.mem_ownRefs_of_owner (p := Proc.scVector c i) (b := (Proc.scVector c i).devRef cc2_scratch5) rfl)⟩)⟩)⟩)⟩)⟩),
    SparseCore.bigSep_erase' (Finset.mem_erase.mpr ⟨fun e => absurd (Proc.devRef_injective _ e) (show (cc2_scratch6 : Ref sig .scVector) ≠ cc2_scratch5 by decide), (Finset.mem_erase.mpr ⟨fun e => absurd (Proc.devRef_injective _ e) (show (cc2_scratch6 : Ref sig .scVector) ≠ cc2_scratch4 by decide), (Finset.mem_erase.mpr ⟨fun e => absurd (Proc.devRef_injective _ e) (show (cc2_scratch6 : Ref sig .scVector) ≠ cc2_scratch3 by decide), (Finset.mem_erase.mpr ⟨fun e => absurd (Proc.devRef_injective _ e) (show (cc2_scratch6 : Ref sig .scVector) ≠ cc2_scratch2 by decide), (Finset.mem_erase.mpr ⟨fun e => absurd (Proc.devRef_injective _ e) (show (cc2_scratch6 : Ref sig .scVector) ≠ cc2_scratch1 by decide), (Finset.mem_erase.mpr ⟨fun e => absurd (Proc.devRef_injective _ e) (show (cc2_scratch6 : Ref sig .scVector) ≠ cc2_scratch0 by decide), (SparseCore.Cfg.mem_ownRefs_of_owner (p := Proc.scVector c i) (b := (Proc.scVector c i).devRef cc2_scratch6) rfl)⟩)⟩)⟩)⟩)⟩)⟩),
    SparseCore.bigSep_erase' (Finset.mem_erase.mpr ⟨fun e => absurd (Proc.devRef_injective _ e) (show (cc2_scratch7 : Ref sig .scVector) ≠ cc2_scratch6 by decide), (Finset.mem_erase.mpr ⟨fun e => absurd (Proc.devRef_injective _ e) (show (cc2_scratch7 : Ref sig .scVector) ≠ cc2_scratch5 by decide), (Finset.mem_erase.mpr ⟨fun e => absurd (Proc.devRef_injective _ e) (show (cc2_scratch7 : Ref sig .scVector) ≠ cc2_scratch4 by decide), (Finset.mem_erase.mpr ⟨fun e => absurd (Proc.devRef_injective _ e) (show (cc2_scratch7 : Ref sig .scVector) ≠ cc2_scratch3 by decide), (Finset.mem_erase.mpr ⟨fun e => absurd (Proc.devRef_injective _ e) (show (cc2_scratch7 : Ref sig .scVector) ≠ cc2_scratch2 by decide), (Finset.mem_erase.mpr ⟨fun e => absurd (Proc.devRef_injective _ e) (show (cc2_scratch7 : Ref sig .scVector) ≠ cc2_scratch1 by decide), (Finset.mem_erase.mpr ⟨fun e => absurd (Proc.devRef_injective _ e) (show (cc2_scratch7 : Ref sig .scVector) ≠ cc2_scratch0 by decide), (SparseCore.Cfg.mem_ownRefs_of_owner (p := Proc.scVector c i) (b := (Proc.scVector c i).devRef cc2_scratch7) rfl)⟩)⟩)⟩)⟩)⟩)⟩)⟩),
    SparseCore.bigSep_erase' (Finset.mem_erase.mpr ⟨fun e => absurd (Proc.devRef_injective _ e) (show (cc2_scratch8 : Ref sig .scVector) ≠ cc2_scratch7 by decide), (Finset.mem_erase.mpr ⟨fun e => absurd (Proc.devRef_injective _ e) (show (cc2_scratch8 : Ref sig .scVector) ≠ cc2_scratch6 by decide), (Finset.mem_erase.mpr ⟨fun e => absurd (Proc.devRef_injective _ e) (show (cc2_scratch8 : Ref sig .scVector) ≠ cc2_scratch5 by decide), (Finset.mem_erase.mpr ⟨fun e => absurd (Proc.devRef_injective _ e) (show (cc2_scratch8 : Ref sig .scVector) ≠ cc2_scratch4 by decide), (Finset.mem_erase.mpr ⟨fun e => absurd (Proc.devRef_injective _ e) (show (cc2_scratch8 : Ref sig .scVector) ≠ cc2_scratch3 by decide), (Finset.mem_erase.mpr ⟨fun e => absurd (Proc.devRef_injective _ e) (show (cc2_scratch8 : Ref sig .scVector) ≠ cc2_scratch2 by decide), (Finset.mem_erase.mpr ⟨fun e => absurd (Proc.devRef_injective _ e) (show (cc2_scratch8 : Ref sig .scVector) ≠ cc2_scratch1 by decide), (Finset.mem_erase.mpr ⟨fun e => absurd (Proc.devRef_injective _ e) (show (cc2_scratch8 : Ref sig .scVector) ≠ cc2_scratch0 by decide), (SparseCore.Cfg.mem_ownRefs_of_owner (p := Proc.scVector c i) (b := (Proc.scVector c i).devRef cc2_scratch8) rfl)⟩)⟩)⟩)⟩)⟩)⟩)⟩)⟩),
    SparseCore.bigSep_erase' (Finset.mem_erase.mpr ⟨fun e => absurd (Proc.devRef_injective _ e) (show (cc2_scratch9 : Ref sig .scVector) ≠ cc2_scratch8 by decide), (Finset.mem_erase.mpr ⟨fun e => absurd (Proc.devRef_injective _ e) (show (cc2_scratch9 : Ref sig .scVector) ≠ cc2_scratch7 by decide), (Finset.mem_erase.mpr ⟨fun e => absurd (Proc.devRef_injective _ e) (show (cc2_scratch9 : Ref sig .scVector) ≠ cc2_scratch6 by decide), (Finset.mem_erase.mpr ⟨fun e => absurd (Proc.devRef_injective _ e) (show (cc2_scratch9 : Ref sig .scVector) ≠ cc2_scratch5 by decide), (Finset.mem_erase.mpr ⟨fun e => absurd (Proc.devRef_injective _ e) (show (cc2_scratch9 : Ref sig .scVector) ≠ cc2_scratch4 by decide), (Finset.mem_erase.mpr ⟨fun e => absurd (Proc.devRef_injective _ e) (show (cc2_scratch9 : Ref sig .scVector) ≠ cc2_scratch3 by decide), (Finset.mem_erase.mpr ⟨fun e => absurd (Proc.devRef_injective _ e) (show (cc2_scratch9 : Ref sig .scVector) ≠ cc2_scratch2 by decide), (Finset.mem_erase.mpr ⟨fun e => absurd (Proc.devRef_injective _ e) (show (cc2_scratch9 : Ref sig .scVector) ≠ cc2_scratch1 by decide), (Finset.mem_erase.mpr ⟨fun e => absurd (Proc.devRef_injective _ e) (show (cc2_scratch9 : Ref sig .scVector) ≠ cc2_scratch0 by decide), (SparseCore.Cfg.mem_ownRefs_of_owner (p := Proc.scVector c i) (b := (Proc.scVector c i).devRef cc2_scratch9) rfl)⟩)⟩)⟩)⟩)⟩)⟩)⟩)⟩)⟩),
    SparseCore.bigSep_erase' (Finset.mem_erase.mpr ⟨fun e => absurd (Proc.devRef_injective _ e) (show (cc2_scratch10 : Ref sig .scVector) ≠ cc2_scratch9 by decide), (Finset.mem_erase.mpr ⟨fun e => absurd (Proc.devRef_injective _ e) (show (cc2_scratch10 : Ref sig .scVector) ≠ cc2_scratch8 by decide), (Finset.mem_erase.mpr ⟨fun e => absurd (Proc.devRef_injective _ e) (show (cc2_scratch10 : Ref sig .scVector) ≠ cc2_scratch7 by decide), (Finset.mem_erase.mpr ⟨fun e => absurd (Proc.devRef_injective _ e) (show (cc2_scratch10 : Ref sig .scVector) ≠ cc2_scratch6 by decide), (Finset.mem_erase.mpr ⟨fun e => absurd (Proc.devRef_injective _ e) (show (cc2_scratch10 : Ref sig .scVector) ≠ cc2_scratch5 by decide), (Finset.mem_erase.mpr ⟨fun e => absurd (Proc.devRef_injective _ e) (show (cc2_scratch10 : Ref sig .scVector) ≠ cc2_scratch4 by decide), (Finset.mem_erase.mpr ⟨fun e => absurd (Proc.devRef_injective _ e) (show (cc2_scratch10 : Ref sig .scVector) ≠ cc2_scratch3 by decide), (Finset.mem_erase.mpr ⟨fun e => absurd (Proc.devRef_injective _ e) (show (cc2_scratch10 : Ref sig .scVector) ≠ cc2_scratch2 by decide), (Finset.mem_erase.mpr ⟨fun e => absurd (Proc.devRef_injective _ e) (show (cc2_scratch10 : Ref sig .scVector) ≠ cc2_scratch1 by decide), (Finset.mem_erase.mpr ⟨fun e => absurd (Proc.devRef_injective _ e) (show (cc2_scratch10 : Ref sig .scVector) ≠ cc2_scratch0 by decide), (SparseCore.Cfg.mem_ownRefs_of_owner (p := Proc.scVector c i) (b := (Proc.scVector c i).devRef cc2_scratch10) rfl)⟩)⟩)⟩)⟩)⟩)⟩)⟩)⟩)⟩)⟩),
    SparseCore.bigSep_erase' (Finset.mem_erase.mpr ⟨fun e => absurd (Proc.devRef_injective _ e) (show (cc2_scratch11 : Ref sig .scVector) ≠ cc2_scratch10 by decide), (Finset.mem_erase.mpr ⟨fun e => absurd (Proc.devRef_injective _ e) (show (cc2_scratch11 : Ref sig .scVector) ≠ cc2_scratch9 by decide), (Finset.mem_erase.mpr ⟨fun e => absurd (Proc.devRef_injective _ e) (show (cc2_scratch11 : Ref sig .scVector) ≠ cc2_scratch8 by decide), (Finset.mem_erase.mpr ⟨fun e => absurd (Proc.devRef_injective _ e) (show (cc2_scratch11 : Ref sig .scVector) ≠ cc2_scratch7 by decide), (Finset.mem_erase.mpr ⟨fun e => absurd (Proc.devRef_injective _ e) (show (cc2_scratch11 : Ref sig .scVector) ≠ cc2_scratch6 by decide), (Finset.mem_erase.mpr ⟨fun e => absurd (Proc.devRef_injective _ e) (show (cc2_scratch11 : Ref sig .scVector) ≠ cc2_scratch5 by decide), (Finset.mem_erase.mpr ⟨fun e => absurd (Proc.devRef_injective _ e) (show (cc2_scratch11 : Ref sig .scVector) ≠ cc2_scratch4 by decide), (Finset.mem_erase.mpr ⟨fun e => absurd (Proc.devRef_injective _ e) (show (cc2_scratch11 : Ref sig .scVector) ≠ cc2_scratch3 by decide), (Finset.mem_erase.mpr ⟨fun e => absurd (Proc.devRef_injective _ e) (show (cc2_scratch11 : Ref sig .scVector) ≠ cc2_scratch2 by decide), (Finset.mem_erase.mpr ⟨fun e => absurd (Proc.devRef_injective _ e) (show (cc2_scratch11 : Ref sig .scVector) ≠ cc2_scratch1 by decide), (Finset.mem_erase.mpr ⟨fun e => absurd (Proc.devRef_injective _ e) (show (cc2_scratch11 : Ref sig .scVector) ≠ cc2_scratch0 by decide), (SparseCore.Cfg.mem_ownRefs_of_owner (p := Proc.scVector c i) (b := (Proc.scVector c i).devRef cc2_scratch11) rfl)⟩)⟩)⟩)⟩)⟩)⟩)⟩)⟩)⟩)⟩)⟩)]

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl

end Names

section Pts

variable [FloatOps F]
variable (d : Dev nD) (L : grid2.Coords)

/-- The arrays as a vector subcore's memrefs address them are the TensorCore's arrays. -/
theorem pts_aS (q : PosShare TreeShare) (f : Buf (Elt F) (srcLoc d)) :
    ((aS : Memref sig .scVector .hbm S327680 .i32).view.loc (V d (cV L) (jV L)) ↦{q} f : sProp 𝕄) = srcLoc d ↦{q} f := rfl
theorem pts_aD (q : PosShare TreeShare) (f : Buf (Elt F) (dstLoc d)) :
    ((aD : Memref sig .scVector .hbm S327680 .i32).view.loc (V d (cV L) (jV L)) ↦{q} f : sProp 𝕄) = dstLoc d ↦{q} f := rfl
theorem pts_aZ (q : PosShare TreeShare) (f : Buf (Elt F) (zeroLoc d)) :
    ((aZ : Memref sig .scVector .hbm S10256 .f32).view.loc (V d (cV L) (jV L)) ↦{q} f : sProp 𝕄) = zeroLoc d ↦{q} f := rfl
theorem pts_hRow (r : Fin 4) (f : Buf (Elt F) (htLoc d)) :
    ((hRowK L r).view.loc (V d (cV L) (jV L)) ↦[(hRowK L r).view.set]{fullShare} f : sProp 𝕄) = htLoc d ↦[(colK L r).set]{fullShare} f := by
  rw [set_hRowK]
theorem pts_gRow (r : Fin 4) (f : Buf (Elt F) (aggLoc d)) :
    ((gRowK L r).view.loc (V d (cV L) (jV L)) ↦[(gRowK L r).view.set]{fullShare} f : sProp 𝕄) = aggLoc d ↦[(colK L r).set]{fullShare} f := by
  rw [set_gRowK]
theorem pts_b0 (f : Buf (Elt F) ((V d (cV L) (jV L)).loc cc2_scratch0)) :
    ((b0 : Memref sig .scVector .vmem S1024 .i32).view.loc (V d (cV L) (jV L)) ↦{fullShare} f : sProp 𝕄) = (V d (cV L) (jV L)).loc cc2_scratch0 ↦{fullShare} f := rfl
theorem pts_b1 (f : Buf (Elt F) ((V d (cV L) (jV L)).loc cc2_scratch1)) :
    ((b1 : Memref sig .scVector .vmem S1024 .i32).view.loc (V d (cV L) (jV L)) ↦{fullShare} f : sProp 𝕄) = (V d (cV L) (jV L)).loc cc2_scratch1 ↦{fullShare} f := rfl
theorem pts_b2 (f : Buf (Elt F) ((V d (cV L) (jV L)).loc cc2_scratch2)) :
    ((b2 : Memref sig .scVector .vmem S1024 .i32).view.loc (V d (cV L) (jV L)) ↦{fullShare} f : sProp 𝕄) = (V d (cV L) (jV L)).loc cc2_scratch2 ↦{fullShare} f := rfl
theorem pts_b3 (f : Buf (Elt F) ((V d (cV L) (jV L)).loc cc2_scratch3)) :
    ((b3 : Memref sig .scVector .vmem S1024 .i32).view.loc (V d (cV L) (jV L)) ↦{fullShare} f : sProp 𝕄) = (V d (cV L) (jV L)).loc cc2_scratch3 ↦{fullShare} f := rfl
theorem pts_b4 (f : Buf (Elt F) ((V d (cV L) (jV L)).loc cc2_scratch4)) :
    ((b4 : Memref sig .scVector .vmem S10240 .f32).view.loc (V d (cV L) (jV L)) ↦{fullShare} f : sProp 𝕄) = (V d (cV L) (jV L)).loc cc2_scratch4 ↦{fullShare} f := rfl
theorem pts_b5 (f : Buf (Elt F) ((V d (cV L) (jV L)).loc cc2_scratch5)) :
    ((b5 : Memref sig .scVector .vmem S10240 .f32).view.loc (V d (cV L) (jV L)) ↦{fullShare} f : sProp 𝕄) = (V d (cV L) (jV L)).loc cc2_scratch5 ↦{fullShare} f := rfl
theorem pts_b6 (f : Buf (Elt F) ((V d (cV L) (jV L)).loc cc2_scratch6)) :
    ((b6 : Memref sig .scVector .vmem S10240 .f32).view.loc (V d (cV L) (jV L)) ↦{fullShare} f : sProp 𝕄) = (V d (cV L) (jV L)).loc cc2_scratch6 ↦{fullShare} f := rfl
theorem pts_b7 (f : Buf (Elt F) ((V d (cV L) (jV L)).loc cc2_scratch7)) :
    ((b7 : Memref sig .scVector .vmem S10240 .f32).view.loc (V d (cV L) (jV L)) ↦{fullShare} f : sProp 𝕄) = (V d (cV L) (jV L)).loc cc2_scratch7 ↦{fullShare} f := rfl
theorem pts_b8 (f : Buf (Elt F) ((V d (cV L) (jV L)).loc cc2_scratch8)) :
    ((b8 : Memref sig .scVector .vmem S10256 .f32).view.loc (V d (cV L) (jV L)) ↦{fullShare} f : sProp 𝕄) = (V d (cV L) (jV L)).loc cc2_scratch8 ↦{fullShare} f := rfl
theorem pts_b9 (f : Buf (Elt F) ((V d (cV L) (jV L)).loc cc2_scratch9)) :
    ((b9 : Memref sig .scVector .vmem S10256 .f32).view.loc (V d (cV L) (jV L)) ↦{fullShare} f : sProp 𝕄) = (V d (cV L) (jV L)).loc cc2_scratch9 ↦{fullShare} f := rfl
theorem pts_b10 (f : Buf (Elt F) ((V d (cV L) (jV L)).loc cc2_scratch10)) :
    ((b10 : Memref sig .scVector .vmem S10256 .f32).view.loc (V d (cV L) (jV L)) ↦{fullShare} f : sProp 𝕄) = (V d (cV L) (jV L)).loc cc2_scratch10 ↦{fullShare} f := rfl
theorem pts_b11 (f : Buf (Elt F) ((V d (cV L) (jV L)).loc cc2_scratch11)) :
    ((b11 : Memref sig .scVector .vmem S10256 .f32).view.loc (V d (cV L) (jV L)) ↦{fullShare} f : sProp 𝕄) = (V d (cV L) (jV L)).loc cc2_scratch11 ↦{fullShare} f := rfl

end Pts

section Body

variable [FloatOps F]
variable (fs : (d : Dev nD) → Buf (Elt F) (srcLoc d)) (fd : (d : Dev nD) → Buf (Elt F) (dstLoc d)) (fz : (d : Dev nD) → Buf (Elt F) (zeroLoc d))

/-- The task's body at a symbolic worker: from its read tokens, its four rows of the features and of the aggregate and
    the subcore's scoped storage, it runs to the same, the rows at new contents, having recorded only waits at the
    kernels' index. -/
def TileBody : Prop :=
  ∀ (d : Dev nD) (L : grid2.Coords) (O : CellTallies nD τ sig (HIx 2)) (W : Waits sig (HIx 2)), (∀ g, O g none = 0) →
    iprop(levAts (K (F := F)).L (K (F := F)).lev ∗ emp ∗ pay1 fs fd fz d (cL L) (iL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__agg_sc L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11)
          fun _ => iprop(pay1 fs fd fz d (cL L) (iL L) ∗ scopedBufs (V d (cV L) (jV L)) ∗ scopedSems0 (V d (cV L) (jV L))
            ∗ ∃ W', ⌜∀ p ∈ W', p ∈ W ∨ p.2 = none⌝ ∗ owes (V d (cV L) (jV L)) O W')

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2__agg_sc (coordsV c s)
          aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Body

end T1

/-! ## The launch theorem's obligation, from the body -/

section Obl

variable [FloatOps F]
variable (fs : (d : Dev nD) → Buf (Elt F) (srcLoc d)) (fd : (d : Dev nD) → Buf (Elt F) (dstLoc d)) (fz : (d : Dev nD) → Buf (Elt F) (zeroLoc d))

open T1 in
/-- The second call's task obligation, given its body at a symbolic worker. -/
theorem tileObl1_of_body (hb : T1.TileBody (F := F) fs fd fz) :
    (K (F := F)).TileObl (D (F := F)) 𝒱 (P fs fd fz) v₀ 1 := by
  intro d c i O W hO _ _
  simp only [show (P fs fd fz).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [T1.defs₀_vector]; simp only [SparseCore.onTile, hc, and_self, ↓reduceDIte]
  exact (hb d (T1.coordsV ⟨_, hc.1⟩ ⟨_, hc.2⟩) O W hO).trans (wp_mono frame _ _ fun _ => T1.obl_post)

end Obl

end Cert.Kernel.Run
-- ==== Proof.BTile1Proc.lean ====
import proofs.«207969_g80633716015134_cont_9to1_m_1245_11_alg».proof.Proof.BTile1Setup

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 2) (Elt F) ℕ UU ℕ

namespace T1

section Lib

variable [FloatOps F]

omit [FloatOps F] in
/-- A transfer in flight that lent some elements of an array takes the rest of the array along: it then delivers the
    array whole. -/
theorem Flight_absorb {EC : UEmb Counters 𝕄} {c : Thread nD τ} {sm : SemLoc sig} {ι : HIx 2} {N : ℕ} {Pd : sProp 𝕄}
    {ℓ : Loc nD τ sig} {A : Finset (Idx ℓ)} {q : PosShare TreeShare} {f : Buf (Elt F) ℓ} :
    iprop(Flight EC c sm ι N iprop(Pd ∗ (ℓ ↦[A]{q} f)) ∗ (ℓ ↦[Finset.univ \ A]{q} f))
      ⊢ Flight EC c sm ι N iprop(Pd ∗ (ℓ ↦[Finset.univ]{q} f)) := by
  unfold Flight
  iintro ⟨⟨⟨%R, HR, %hcap, %hpeek⟩, Hcred⟩, Hrest⟩
  isplitr [Hcred]
  · iexists iprop(R ∗ (ℓ ↦[Finset.univ \ A]{q} f))
    isplitl [HR Hrest]
    · isplitl [HR]
      · iexact HR
      · iexact Hrest
    isplitl []
    · ipureintro
      intro K
      refine BIBase.Entails.trans ?_ (hcap K)
      iintro ⟨⟨HR, Hrest⟩, HK⟩
      isplitl [HR]
      · iexact HR
      iintro ⟨Hv, HPd, Hsl⟩
      iapply HK
      isplitl [Hv]
      · iexact Hv
      isplitl [HPd]
      · iexact HPd
      iapply (pointsTo_split_subset (Finset.subset_univ A)).2
      isplitl [Hsl]
      · iexact Hsl
      · iexact Hrest
    · ipureintro
      intro K
      refine BIBase.Entails.trans ?_ (hpeek K)
      iintro ⟨⟨HR, Hrest⟩, HK⟩
      isplitl [HR]
      · iexact HR
      iintro HR
      iapply HK
      isplitl [HR]
      · iexact HR
      · iexact Hrest
  · iexact Hcred

omit [FloatOps F] in
/-- An index vector whose words are below 10000 names rows of a 10240-row buffer. -/
theorem src_ok (v : IVec S16 32) (hv : ∀ x, (v x).toNat < 10000) :
    ∀ (a : Fin 1) (x : S16.Idx), ((![v] : Fin 1 → IVec S16 32) a x).toNat < S10240.size a := by
  intro a x
  obtain rfl : a = 0 := Subsingleton.elim _ _
  show (v x).toNat < 10240
  have := hv x; omega

omit [FloatOps F] in
/-- The scatter's index vector is in range of a 10256-row buffer whenever the destination indices are below 10000: a
    lane is the destination index or, where source and destination agree, 10240. -/
theorem dst_ok (s v : IVec S16 32) (hv : ∀ x, (v x).toNat < 10000) :
    ∀ (a : Fin 1) (x : S16.Idx), ((![select (cmpi .eq s v) (broadcast S16 10240#32) v] : Fin 1 → IVec S16 32) a x).toNat < S10256.size a := by
  intro a x
  obtain rfl : a = 0 := Subsingleton.elim _ _
  show (Scalar.select (cmpi .eq s v x) 10240#32 (v x)).toNat < 10256
  unfold Scalar.select; split
  · decide
  · have := hv x; omega

end Lib

section Proc

variable [FloatOps F]
variable (d : Dev nD) (L : grid2.Coords)

theorem wp_ld_b4 {α : Type} {Q : α → sProp 𝕄} (idxs : Fin S10240.rank → IVec S16 32)
    (h : ∀ a x, (idxs a x).toNat < S10240.size a) (hl : (b4 : Memref sig .scVector .vmem S10240 .f32).view.Loads)
    (k : Vec F S16 .f32 → Prog (TpuEff nD τ sig (Elt F) Λ₀ (.scVector (cV L) (jV L))) α)
    (f : Buf (Elt F) ((b4 : Memref sig .scVector .vmem S10240 .f32).view.loc (V d (cV L) (jV L)))) :
    ((b4 : Memref sig .scVector .vmem S10240 .f32).view.loc (V d (cV L) (jV L)) ↦{fullShare} f)
      ⊢ iprop((((b4 : Memref sig .scVector .vmem S10240 .f32).view.loc (V d (cV L) (jV L)) ↦{fullShare} f)
          -∗ wp frame (wpE (defs₀ (F := F)) 𝒱₀ (V d (cV L) (jV L)) none) Set.univ (k (loadIdx (((b4 : Memref sig .scVector .vmem S10240 .f32).access (.whole S10240)).read (Elt F) f) idxs h)) Q)
        -∗ wp frame (wpE (defs₀ (F := F)) 𝒱₀ (V d (cV L) (jV L)) none) Set.univ (SparseCore.vectorLoadIdx (b4 : Memref sig .scVector .vmem S10240 .f32) idxs h hl >>= k) Q) := by
  iintro H Hk
  iapply (SparseCore.wp_vectorLoadIdx (defs := defs₀ (F := F)) 𝒱₀ (V d (cV L) (jV L)) none Set.univ (base := (b4 : Memref sig .scVector .vmem S10240 .f32))
    (idxs := idxs) (h := h) (hl := hl) (k := k) (S := Finset.univ) (q := fullShare) (f := f) (Q := Q) (Finset.subset_univ _)) $$ [H]
  · iexact H
  iintro H
  iapply Hk
  iexact H

theorem wp_ld_b5 {α : Type} {Q : α → sProp 𝕄} (idxs : Fin S10240.rank → IVec S16 32)
    (h : ∀ a x, (idxs a x).toNat < S10240.size a) (hl : (b5 : Memref sig .scVector .vmem S10240 .f32).view.Loads)
    (k : Vec F S16 .f32 → Prog (TpuEff nD τ sig (Elt F) Λ₀ (.scVector (cV L) (jV L))) α)
    (f : Buf (Elt F) ((b5 : Memref sig .scVector .vmem S10240 .f32).view.loc (V d (cV L) (jV L)))) :
    ((b5 : Memref sig .scVector .vmem S10240 .f32).view.loc (V d (cV L) (jV L)) ↦{fullShare} f)
      ⊢ iprop((((b5 : Memref sig .scVector .vmem S10240 .f32).view.loc (V d (cV L) (jV L)) ↦{fullShare} f)
          -∗ wp frame (wpE (defs₀ (F := F)) 𝒱₀ (V d (cV L) (jV L)) none) Set.univ (k (loadIdx (((b5 : Memref sig .scVector .vmem S10240 .f32).access (.whole S10240)).read (Elt F) f) idxs h)) Q)
        -∗ wp frame (wpE (defs₀ (F := F)) 𝒱₀ (V d (cV L) (jV L)) none) Set.univ (SparseCore.vectorLoadIdx (b5 : Memref sig .scVector .vmem S10240 .f32) idxs h hl >>= k) Q) := by
  iintro H Hk
  iapply (SparseCore.wp_vectorLoadIdx (defs := defs₀ (F := F)) 𝒱₀ (V d (cV L) (jV L)) none Set.univ (base := (b5 : Memref sig .scVector .vmem S10240 .f32))
    (idxs := idxs) (h := h) (hl := hl) (k := k) (S := Finset.univ) (q := fullShare) (f := f) (Q := Q) (Finset.subset_univ _)) $$ [H]
  · iexact H
  iintro H
  iapply Hk
  iexact H

theorem wp_ld_b6 {α : Type} {Q : α → sProp 𝕄} (idxs : Fin S10240.rank → IVec S16 32)
    (h : ∀ a x, (idxs a x).toNat < S10240.size a) (hl : (b6 : Memref sig .scVector .vmem S10240 .f32).view.Loads)
    (k : Vec F S16 .f32 → Prog (TpuEff nD τ sig (Elt F) Λ₀ (.scVector (cV L) (jV L))) α)
    (f : Buf (Elt F) ((b6 : Memref sig .scVector .vmem S10240 .f32).view.loc (V d (cV L) (jV L)))) :
    ((b6 : Memref sig .scVector .vmem S10240 .f32).view.loc (V d (cV L) (jV L)) ↦{fullShare} f)
      ⊢ iprop((((b6 : Memref sig .scVector .vmem S10240 .f32).view.loc (V d (cV L) (jV L)) ↦{fullShare} f)
          -∗ wp frame (wpE (defs₀ (F := F)) 𝒱₀ (V d (cV L) (jV L)) none) Set.univ (k (loadIdx (((b6 : Memref sig .scVector .vmem S10240 .f32).access (.whole S10240)).read (Elt F) f) idxs h)) Q)
        -∗ wp frame (wpE (defs₀ (F := F)) 𝒱₀ (V d (cV L) (jV L)) none) Set.univ (SparseCore.vectorLoadIdx (b6 : Memref sig .scVector .vmem S10240 .f32) idxs h hl >>= k) Q) := by
  iintro H Hk
  iapply (SparseCore.wp_vectorLoadIdx (defs := defs₀ (F := F)) 𝒱₀ (V d (cV L) (jV L)) none Set.univ (base := (b6 : Memref sig .scVector .vmem S10240 .f32))
    (idxs := idxs) (h := h) (hl := hl) (k := k) (S := Finset.univ) (q := fullShare) (f := f) (Q := Q) (Finset.subset_univ _)) $$ [H]
  · iexact H
  iintro H
  iapply Hk
  iexact H

theorem wp_ld_b7 {α : Type} {Q : α → sProp 𝕄} (idxs : Fin S10240.rank → IVec S16 32)
    (h : ∀ a x, (idxs a x).toNat < S10240.size a) (hl : (b7 : Memref sig .scVector .vmem S10240 .f32).view.Loads)
    (k : Vec F S16 .f32 → Prog (TpuEff nD τ sig (Elt F) Λ₀ (.scVector (cV L) (jV L))) α)
    (f : Buf (Elt F) ((b7 : Memref sig .scVector .vmem S10240 .f32).view.loc (V d (cV L) (jV L)))) :
    ((b7 : Memref sig .scVector .vmem S10240 .f32).view.loc (V d (cV L) (jV L)) ↦{fullShare} f)
      ⊢ iprop((((b7 : Memref sig .scVector .vmem S10240 .f32).view.loc (V d (cV L) (jV L)) ↦{fullShare} f)
          -∗ wp frame (wpE (defs₀ (F := F)) 𝒱₀ (V d (cV L) (jV L)) none) Set.univ (k (loadIdx (((b7 : Memref sig .scVector .vmem S10240 .f32).access (.whole S10240)).read (Elt F) f) idxs h)) Q)
        -∗ wp frame (wpE (defs₀ (F := F)) 𝒱₀ (V d (cV L) (jV L)) none) Set.univ (SparseCore.vectorLoadIdx (b7 : Memref sig .scVector .vmem S10240 .f32) idxs h hl >>= k) Q) := by
  iintro H Hk
  iapply (SparseCore.wp_vectorLoadIdx (defs := defs₀ (F := F)) 𝒱₀ (V d (cV L) (jV L)) none Set.univ (base := (b7 : Memref sig .scVector .vmem S10240 .f32))
    (idxs := idxs) (h := h) (hl := hl) (k := k) (S := Finset.univ) (q := fullShare) (f := f) (Q := Q) (Finset.subset_univ _)) $$ [H]
  · iexact H
  iintro H
  iapply Hk
  iexact H

theorem wp_st_b8 {α : Type} {Q : α → sProp 𝕄} (idxs : Fin S10256.rank → IVec S16 32) (v : Vec F S16 .f32) (mask : IVec S16 1) (add : Bool)
    (h : ∀ a x, (idxs a x).toNat < S10256.size a) (hs : ((b8 : Memref sig .scVector .vmem S10256 .f32).access (.whole S10256)).Stores Finset.univ)
    (k : PUnit → Prog (TpuEff nD τ sig (Elt F) Λ₀ (.scVector (cV L) (jV L))) α) :
    iprop(∃ f, (b8 : Memref sig .scVector .vmem S10256 .f32).view.loc (V d (cV L) (jV L)) ↦{fullShare} f)
      ⊢ iprop(((∃ f, (b8 : Memref sig .scVector .vmem S10256 .f32).view.loc (V d (cV L) (jV L)) ↦{fullShare} f)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (b8 : Memref sig .scVector .vmem S10256 .f32) idxs v mask add h hs >>= k) Q) := by
  iintro ⟨%f, H⟩ Hk
  have e : (((b8 : Memref sig .scVector .vmem S10256 .f32).access (.whole S10256)).set) = Finset.univ := Memref.set_access_whole _
  iapply (SparseCore.wp_vectorStoreIdx (defs := defs₀ (F := F)) 𝒱₀ (V d (cV L) (jV L)) none Set.univ (base := (b8 : Memref sig .scVector .vmem S10256 .f32))
    (idxs := idxs) (v := v) (mask := mask) (add := add) (h := h) (hs := hs) (k := k) (f := f) (Q := Q)) $$ [H]
  · rw [e]; iexact H
  iintro H
  iapply Hk
  iexists _
  rw [e]; iexact H

theorem wp_st_b9 {α : Type} {Q : α → sProp 𝕄} (idxs : Fin S10256.rank → IVec S16 32) (v : Vec F S16 .f32) (mask : IVec S16 1) (add : Bool)
    (h : ∀ a x, (idxs a x).toNat < S10256.size a) (hs : ((b9 : Memref sig .scVector .vmem S10256 .f32).access (.whole S10256)).Stores Finset.univ)
    (k : PUnit → Prog (TpuEff nD τ sig (Elt F) Λ₀ (.scVector (cV L) (jV L))) α) :
    iprop(∃ f, (b9 : Memref sig .scVector .vmem S10256 .f32).view.loc (V d (cV L) (jV L)) ↦{fullShare} f)
      ⊢ iprop(((∃ f, (b9 : Memref sig .scVector .vmem S10256 .f32).view.loc (V d (cV L) (jV L)) ↦{fullShare} f)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (b9 : Memref sig .scVector .vmem S10256 .f32) idxs v mask add h hs >>= k) Q) := by
  iintro ⟨%f, H⟩ Hk
  have e : (((b9 : Memref sig .scVector .vmem S10256 .f32).access (.whole S10256)).set) = Finset.univ := Memref.set_access_whole _
  iapply (SparseCore.wp_vectorStoreIdx (defs := defs₀ (F := F)) 𝒱₀ (V d (cV L) (jV L)) none Set.univ (base := (b9 : Memref sig .scVector .vmem S10256 .f32))
    (idxs := idxs) (v := v) (mask := mask) (add := add) (h := h) (hs := hs) (k := k) (f := f) (Q := Q)) $$ [H]
  · rw [e]; iexact H
  iintro H
  iapply Hk
  iexists _
  rw [e]; iexact H

theorem wp_st_b10 {α : Type} {Q : α → sProp 𝕄} (idxs : Fin S10256.rank → IVec S16 32) (v : Vec F S16 .f32) (mask : IVec S16 1) (add : Bool)
    (h : ∀ a x, (idxs a x).toNat < S10256.size a) (hs : ((b10 : Memref sig .scVector .vmem S10256 .f32).access (.whole S10256)).Stores Finset.univ)
    (k : PUnit → Prog (TpuEff nD τ sig (Elt F) Λ₀ (.scVector (cV L) (jV L))) α) :
    iprop(∃ f, (b10 : Memref sig .scVector .vmem S10256 .f32).view.loc (V d (cV L) (jV L)) ↦{fullShare} f)
      ⊢ iprop(((∃ f, (b10 : Memref sig .scVector .vmem S10256 .f32).view.loc (V d (cV L) (jV L)) ↦{fullShare} f)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (b10 : Memref sig .scVector .vmem S10256 .f32) idxs v mask add h hs >>= k) Q) := by
  iintro ⟨%f, H⟩ Hk
  have e : (((b10 : Memref sig .scVector .vmem S10256 .f32).access (.whole S10256)).set) = Finset.univ := Memref.set_access_whole _
  iapply (SparseCore.wp_vectorStoreIdx (defs := defs₀ (F := F)) 𝒱₀ (V d (cV L) (jV L)) none Set.univ (base := (b10 : Memref sig .scVector .vmem S10256 .f32))
    (idxs := idxs) (v := v) (mask := mask) (add := add) (h := h) (hs := hs) (k := k) (f := f) (Q := Q)) $$ [H]
  · rw [e]; iexact H
  iintro H
  iapply Hk
  iexists _
  rw [e]; iexact H

theorem wp_st_b11 {α : Type} {Q : α → sProp 𝕄} (idxs : Fin S10256.rank → IVec S16 32) (v : Vec F S16 .f32) (mask : IVec S16 1) (add : Bool)
    (h : ∀ a x, (idxs a x).toNat < S10256.size a) (hs : ((b11 : Memref sig .scVector .vmem S10256 .f32).access (.whole S10256)).Stores Finset.univ)
    (k : PUnit → Prog (TpuEff nD τ sig (Elt F) Λ₀ (.scVector (cV L) (jV L))) α) :
    iprop(∃ f, (b11 : Memref sig .scVector .vmem S10256 .f32).view.loc (V d (cV L) (jV L)) ↦{fullShare} f)
      ⊢ iprop(((∃ f, (b11 : Memref sig .scVector .vmem S10256 .f32).view.loc (V d (cV L) (jV L)) ↦{fullShare} f)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (b11 : Memref sig .scVector .vmem S10256 .f32) idxs v mask add h hs >>= k) Q) := by
  iintro ⟨%f, H⟩ Hk
  have e : (((b11 : Memref sig .scVector .vmem S10256 .f32).access (.whole S10256)).set) = Finset.univ := Memref.set_access_whole _
  iapply (SparseCore.wp_vectorStoreIdx (defs := defs₀ (F := F)) 𝒱₀ (V d (cV L) (jV L)) none Set.univ (base := (b11 : Memref sig .scVector .vmem S10256 .f32))
    (idxs := idxs) (v := v) (mask := mask) (add := add) (h := h) (hs := hs) (k := k) (f := f) (Q := Q)) $$ [H]
  · rw [e]; iexact H
  iintro H
  iapply Hk
  iexists _
  rw [e]; iexact H

theorem chkS_t2 (f : Buf (Elt F) ((b0 : Memref sig .scVector .vmem S1024 .i32).view.loc (V d (cV L) (jV L)))) (hb : ∀ j, (f j).toNat < 10000)
    (o : Fin 1 → Nat) (h : ∀ a, o a + S16.size a ≤ S1024.size a) :
    k2_chk1 (View.readAt (Elt F) (b0 : Memref sig .scVector .vmem S1024 .i32).view (Rect.unit (s := S1024) o S16.size h).toLoadRect f) :=
  ⟨src_ok _ (fun _ => hb _), src_ok _ (fun _ => hb _), src_ok _ (fun _ => hb _), src_ok _ (fun _ => hb _)⟩

theorem chkD_t2 (s : IVec S16 32) (f : Buf (Elt F) ((b2 : Memref sig .scVector .vmem S1024 .i32).view.loc (V d (cV L) (jV L)))) (hb : ∀ j, (f j).toNat < 10000)
    (o : Fin 1 → Nat) (h : ∀ a, o a + S16.size a ≤ S1024.size a) :
    k2_chk2 (k2_pay1 (F := F) s (View.readAt (Elt F) (b2 : Memref sig .scVector .vmem S1024 .i32).view (Rect.unit (s := S1024) o S16.size h).toLoadRect f)) :=
  ⟨dst_ok _ _ (fun _ => hb _), dst_ok _ _ (fun _ => hb _), dst_ok _ _ (fun _ => hb _), dst_ok _ _ (fun _ => hb _)⟩

theorem chkS_t3 (f : Buf (Elt F) ((b1 : Memref sig .scVector .vmem S1024 .i32).view.loc (V d (cV L) (jV L)))) (hb : ∀ j, (f j).toNat < 10000)
    (o : Fin 1 → Nat) (h : ∀ a, o a + S16.size a ≤ S1024.size a) :
    k2_chk3 (View.readAt (Elt F) (b1 : Memref sig .scVector .vmem S1024 .i32).view (Rect.unit (s := S1024) o S16.size h).toLoadRect f) :=
  ⟨src_ok _ (fun _ => hb _), src_ok _ (fun _ => hb _), src_ok _ (fun _ => hb _), src_ok _ (fun _ => hb _)⟩

theorem chkD_t3 (s : IVec S16 32) (f : Buf (Elt F) ((b3 : Memref sig .scVector .vmem S1024 .i32).view.loc (V d (cV L) (jV L)))) (hb : ∀ j, (f j).toNat < 10000)
    (o : Fin 1 → Nat) (h : ∀ a, o a + S16.size a ≤ S1024.size a) :
    k2_chk4 (k2_pay2 (F := F) s (View.readAt (Elt F) (b3 : Memref sig .scVector .vmem S1024 .i32).view (Rect.unit (s := S1024) o S16.size h).toLoadRect f)) :=
  ⟨dst_ok _ _ (fun _ => hb _), dst_ok _ _ (fun _ => hb _), dst_ok _ _ (fun _ => hb _), dst_ok _ _ (fun _ => hb _)⟩

theorem chkS_t4 (f : Buf (Elt F) ((b0 : Memref sig .scVector .vmem S1024 .i32).view.loc (V d (cV L) (jV L)))) (hb : ∀ j, (f j).toNat < 10000)
    (o : Fin 1 → Nat) (h : ∀ a, o a + S16.size a ≤ S1024.size a) :
    k2_chk5 (View.readAt (Elt F) (b0 : Memref sig .scVector .vmem S1024 .i32).view (Rect.unit (s := S1024) o S16.size h).toLoadRect f) :=
  ⟨src_ok _ (fun _ => hb _), src_ok _ (fun _ => hb _), src_ok _ (fun _ => hb _), src_ok _ (fun _ => hb _)⟩

theorem chkD_t4 (s : IVec S16 32) (f : Buf (Elt F) ((b2 : Memref sig .scVector .vmem S1024 .i32).view.loc (V d (cV L) (jV L)))) (hb : ∀ j, (f j).toNat < 10000)
    (o : Fin 1 → Nat) (h : ∀ a, o a + S16.size a ≤ S1024.size a) :
    k2_chk6 (k2_pay3 (F := F) s (View.readAt (Elt F) (b2 : Memref sig .scVector .vmem S1024 .i32).view (Rect.unit (s := S1024) o S16.size h).toLoadRect f)) :=
  ⟨dst_ok _ _ (fun _ => hb _), dst_ok _ _ (fun _ => hb _), dst_ok _ _ (fun _ => hb _), dst_ok _ _ (fun _ => hb _)⟩

theorem chkS_t5 (f : Buf (Elt F) ((b1 : Memref sig .scVector .vmem S1024 .i32).view.loc (V d (cV L) (jV L)))) (hb : ∀ j, (f j).toNat < 10000)
    (o : Fin 1 → Nat) (h : ∀ a, o a + S16.size a ≤ S1024.size a) :
    k2_chk7 (View.readAt (Elt F) (b1 : Memref sig .scVector .vmem S1024 .i32).view (Rect.unit (s := S1024) o S16.size h).toLoadRect f) :=
  ⟨src_ok _ (fun _ => hb _), src_ok _ (fun _ => hb _), src_ok _ (fun _ => hb _), src_ok _ (fun _ => hb _)⟩

theorem chkD_t5 (s : IVec S16 32) (f : Buf (Elt F) ((b3 : Memref sig .scVector .vmem S1024 .i32).view.loc (V d (cV L) (jV L)))) (hb : ∀ j, (f j).toNat < 10000)
    (o : Fin 1 → Nat) (h : ∀ a, o a + S16.size a ≤ S1024.size a) :
    k2_chk8 (k2_pay4 (F := F) s (View.readAt (Elt F) (b3 : Memref sig .scVector .vmem S1024 .i32).view (Rect.unit (s := S1024) o S16.size h).toLoadRect f)) :=
  ⟨dst_ok _ _ (fun _ => hb _), dst_ok _ _ (fun _ => hb _), dst_ok _ _ (fun _ => hb _), dst_ok _ _ (fun _ => hb _)⟩

/-- What a round of a slot's processing starts and ends with: the slot's two index buffers (every word below 10000),
    the four feature rows, and the four accumulators at whatever they hold. -/
def procInv (mS mD : Memref sig .scVector .vmem S1024 .i32)
    (fS : Buf (Elt F) (mS.view.loc (V d (cV L) (jV L)))) (fD : Buf (Elt F) (mD.view.loc (V d (cV L) (jV L))))
    (h4 : Buf (Elt F) ((b4 : Memref sig .scVector .vmem S10240 .f32).view.loc (V d (cV L) (jV L)))) (h5 : Buf (Elt F) ((b5 : Memref sig .scVector .vmem S10240 .f32).view.loc (V d (cV L) (jV L))))
    (h6 : Buf (Elt F) ((b6 : Memref sig .scVector .vmem S10240 .f32).view.loc (V d (cV L) (jV L)))) (h7 : Buf (Elt F) ((b7 : Memref sig .scVector .vmem S10240 .f32).view.loc (V d (cV L) (jV L))))
    (_ : Nat) (_ : Unit) : sProp 𝕄 :=
  iprop((mS.view.loc (V d (cV L) (jV L)) ↦{fullShare} fS) ∗ (mD.view.loc (V d (cV L) (jV L)) ↦{fullShare} fD)
    ∗ ((b4 : Memref sig .scVector .vmem S10240 .f32).view.loc (V d (cV L) (jV L)) ↦{fullShare} h4) ∗ ((b5 : Memref sig .scVector .vmem S10240 .f32).view.loc (V d (cV L) (jV L)) ↦{fullShare} h5)
    ∗ ((b6 : Memref sig .scVector .vmem S10240 .f32).view.loc (V d (cV L) (jV L)) ↦{fullShare} h6) ∗ ((b7 : Memref sig .scVector .vmem S10240 .f32).view.loc (V d (cV L) (jV L)) ↦{fullShare} h7)
    ∗ (∃ f, (b8 : Memref sig .scVector .vmem S10256 .f32).view.loc (V d (cV L) (jV L)) ↦{fullShare} f) ∗ (∃ f, (b9 : Memref sig .scVector .vmem S10256 .f32).view.loc (V d (cV L) (jV L)) ↦{fullShare} f)
    ∗ (∃ f, (b10 : Memref sig .scVector .vmem S10256 .f32).view.loc (V d (cV L) (jV L)) ↦{fullShare} f) ∗ ∃ f, (b11 : Memref sig .scVector .vmem S10256 .f32).view.loc (V d (cV L) (jV L)) ↦{fullShare} f)

set_option sl_exec.dischHeartbeats 200000 in
set_option maxHeartbeats 4000000 in
/-- One round of a slot's processing: sixteen source and destination indices read, and for each of the four feature
    rows the indexed load and the indexed accumulating store, every index in range. -/
theorem proc_trip_t2 (fS : Buf (Elt F) ((b0 : Memref sig .scVector .vmem S1024 .i32).view.loc (V d (cV L) (jV L)))) (fD : Buf (Elt F) ((b2 : Memref sig .scVector .vmem S1024 .i32).view.loc (V d (cV L) (jV L))))
    (hbS : ∀ j, (fS j).toNat < 10000) (hbD : ∀ j, (fD j).toNat < 10000)
    (h4 : Buf (Elt F) ((b4 : Memref sig .scVector .vmem S10240 .f32).view.loc (V d (cV L) (jV L)))) (h5 : Buf (Elt F) ((b5 : Memref sig .scVector .vmem S10240 .f32).view.loc (V d (cV L) (jV L))))
    (h6 : Buf (Elt F) ((b6 : Memref sig .scVector .vmem S10240 .f32).view.loc (V d (cV L) (jV L)))) (h7 : Buf (Elt F) ((b7 : Memref sig .scVector .vmem S10240 .f32).view.loc (V d (cV L) (jV L))))
    (c0 c1 : BitVec 32) (g : Fin k2_t1_loop.trips) (k : Fin k2_t2_loop.trips) (acc : Unit) :
    procInv (F := F) d L b0 b2 fS fD h4 h5 h6 h7 k.val acc
      ⊢ wp frame (wpE (defs₀ (F := F)) 𝒱₀ (V d (cV L) (jV L)) none) Set.univ
          (k2_t2_body L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 c0 c1 g k acc)
          (procInv (F := F) d L b0 b2 fS fD h4 h5 h6 h7 (k.val + 1)) := by
  unfold k2_t2_body
  unfold procInv
  iintro ⟨HmS, HmD, H4, H5, H6, H7, H8, H9, H10, H11⟩
  sl_exec (disch := first | sl_exact (chkS_t2 (F := F) d L _ hbS _ _) | sl_exact (chkD_t2 (F := F) d L _ _ hbD _ _))
  iapply (wp_ld_b4 (F := F) d L _ _ _ _ _) $$ [H4]
  · iexact H4
  iintro H4
  iapply (wp_st_b8 (F := F) d L _ _ _ _ _ _ _) $$ [H8]
  · iexact H8
  iintro H8
  iapply (wp_ld_b5 (F := F) d L _ _ _ _ _) $$ [H5]
  · iexact H5
  iintro H5
  iapply (wp_st_b9 (F := F) d L _ _ _ _ _ _ _) $$ [H9]
  · iexact H9
  iintro H9
  iapply (wp_ld_b6 (F := F) d L _ _ _ _ _) $$ [H6]
  · iexact H6
  iintro H6
  iapply (wp_st_b10 (F := F) d L _ _ _ _ _ _ _) $$ [H10]
  · iexact H10
  iintro H10
  iapply (wp_ld_b7 (F := F) d L _ _ _ _ _) $$ [H7]
  · iexact H7
  iintro H7
  iapply (wp_st_b11 (F := F) d L _ _ _ _ _ _ _) $$ [H11]
  · iexact H11
  iintro H11
  sl_exec
  sl_step
  isplitl [HmS]; · iexact HmS
  isplitl [HmD]; · iexact HmD
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option sl_exec.dischHeartbeats 200000 in
set_option maxHeartbeats 4000000 in
/-- One round of a slot's processing: sixteen source and destination indices read, and for each of the four feature
    rows the indexed load and the indexed accumulating store, every index in range. -/
theorem proc_trip_t3 (fS : Buf (Elt F) ((b1 : Memref sig .scVector .vmem S1024 .i32).view.loc (V d (cV L) (jV L)))) (fD : Buf (Elt F) ((b3 : Memref sig .scVector .vmem S1024 .i32).view.loc (V d (cV L) (jV L))))
    (hbS : ∀ j, (fS j).toNat < 10000) (hbD : ∀ j, (fD j).toNat < 10000)
    (h4 : Buf (Elt F) ((b4 : Memref sig .scVector .vmem S10240 .f32).view.loc (V d (cV L) (jV L)))) (h5 : Buf (Elt F) ((b5 : Memref sig .scVector .vmem S10240 .f32).view.loc (V d (cV L) (jV L))))
    (h6 : Buf (Elt F) ((b6 : Memref sig .scVector .vmem S10240 .f32).view.loc (V d (cV L) (jV L)))) (h7 : Buf (Elt F) ((b7 : Memref sig .scVector .vmem S10240 .f32).view.loc (V d (cV L) (jV L))))
    (c0 c1 : BitVec 32) (g : Fin k2_t1_loop.trips) (k : Fin k2_t3_loop.trips) (acc : Unit) :
    procInv (F := F) d L b1 b3 fS fD h4 h5 h6 h7 k.val acc
      ⊢ wp frame (wpE (defs₀ (F := F)) 𝒱₀ (V d (cV L) (jV L)) none) Set.univ
          (k2_t3_body L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 c0 c1 g k acc)
          (procInv (F := F) d L b1 b3 fS fD h4 h5 h6 h7 (k.val + 1)) := by
  unfold k2_t3_body
  unfold procInv
  iintro ⟨HmS, HmD, H4, H5, H6, H7, H8, H9, H10, H11⟩
  sl_exec (disch := first | sl_exact (chkS_t3 (F := F) d L _ hbS _ _) | sl_exact (chkD_t3 (F := F) d L _ _ hbD _ _))
  iapply (wp_ld_b4 (F := F) d L _ _ _ _ _) $$ [H4]
  · iexact H4
  iintro H4
  iapply (wp_st_b8 (F := F) d L _ _ _ _ _ _ _) $$ [H8]
  · iexact H8
  iintro H8
  iapply (wp_ld_b5 (F := F) d L _ _ _ _ _) $$ [H5]
  · iexact H5
  iintro H5
  iapply (wp_st_b9 (F := F) d L _ _ _ _ _ _ _) $$ [H9]
  · iexact H9
  iintro H9
  iapply (wp_ld_b6 (F := F) d L _ _ _ _ _) $$ [H6]
  · iexact H6
  iintro H6
  iapply (wp_st_b10 (F := F) d L _ _ _ _ _ _ _) $$ [H10]
  · iexact H10
  iintro H10
  iapply (wp_ld_b7 (F := F) d L _ _ _ _ _) $$ [H7]
  · iexact H7
  iintro H7
  iapply (wp_st_b11 (F := F) d L _ _ _ _ _ _ _) $$ [H11]
  · iexact H11
  iintro H11
  sl_exec
  sl_step
  isplitl [HmS]; · iexact HmS
  isplitl [HmD]; · iexact HmD
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option sl_exec.dischHeartbeats 200000 in
set_option maxHeartbeats 4000000 in
/-- One round of a slot's processing: sixteen source and destination indices read, and for each of the four feature
    rows the indexed load and the indexed accumulating store, every index in range. -/
theorem proc_trip_t4 (fS : Buf (Elt F) ((b0 : Memref sig .scVector .vmem S1024 .i32).view.loc (V d (cV L) (jV L)))) (fD : Buf (Elt F) ((b2 : Memref sig .scVector .vmem S1024 .i32).view.loc (V d (cV L) (jV L))))
    (hbS : ∀ j, (fS j).toNat < 10000) (hbD : ∀ j, (fD j).toNat < 10000)
    (h4 : Buf (Elt F) ((b4 : Memref sig .scVector .vmem S10240 .f32).view.loc (V d (cV L) (jV L)))) (h5 : Buf (Elt F) ((b5 : Memref sig .scVector .vmem S10240 .f32).view.loc (V d (cV L) (jV L))))
    (h6 : Buf (Elt F) ((b6 : Memref sig .scVector .vmem S10240 .f32).view.loc (V d (cV L) (jV L)))) (h7 : Buf (Elt F) ((b7 : Memref sig .scVector .vmem S10240 .f32).view.loc (V d (cV L) (jV L))))
    (v1 : BitVec 32) (k : Fin k2_t4_loop.trips) (acc : Unit) :
    procInv (F := F) d L b0 b2 fS fD h4 h5 h6 h7 k.val acc
      ⊢ wp frame (wpE (defs₀ (F := F)) 𝒱₀ (V d (cV L) (jV L)) none) Set.univ
          (k2_t4_body L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 v1 k acc)
          (procInv (F := F) d L b0 b2 fS fD h4 h5 h6 h7 (k.val + 1)) := by
  unfold k2_t4_body
  unfold procInv
  iintro ⟨HmS, HmD, H4, H5, H6, H7, H8, H9, H10, H11⟩
  sl_exec (disch := first | sl_exact (chkS_t4 (F := F) d L _ hbS _ _) | sl_exact (chkD_t4 (F := F) d L _ _ hbD _ _))
  iapply (wp_ld_b4 (F := F) d L _ _ _ _ _) $$ [H4]
  · iexact H4
  iintro H4
  iapply (wp_st_b8 (F := F) d L _ _ _ _ _ _ _) $$ [H8]
  · iexact H8
  iintro H8
  iapply (wp_ld_b5 (F := F) d L _ _ _ _ _) $$ [H5]
  · iexact H5
  iintro H5
  iapply (wp_st_b9 (F := F) d L _ _ _ _ _ _ _) $$ [H9]
  · iexact H9
  iintro H9
  iapply (wp_ld_b6 (F := F) d L _ _ _ _ _) $$ [H6]
  · iexact H6
  iintro H6
  iapply (wp_st_b10 (F := F) d L _ _ _ _ _ _ _) $$ [H10]
  · iexact H10
  iintro H10
  iapply (wp_ld_b7 (F := F) d L _ _ _ _ _) $$ [H7]
  · iexact H7
  iintro H7
  iapply (wp_st_b11 (F := F) d L _ _ _ _ _ _ _) $$ [H11]
  · iexact H11
  iintro H11
  sl_exec
  sl_step
  isplitl [HmS]; · iexact HmS
  isplitl [HmD]; · iexact HmD
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option sl_exec.dischHeartbeats 200000 in
set_option maxHeartbeats 4000000 in
/-- One round of a slot's processing: sixteen source and destination indices read, and for each of the four feature
    rows the indexed load and the indexed accumulating store, every index in range. -/
theorem proc_trip_t5 (fS : Buf (Elt F) ((b1 : Memref sig .scVector .vmem S1024 .i32).view.loc (V d (cV L) (jV L)))) (fD : Buf (Elt F) ((b3 : Memref sig .scVector .vmem S1024 .i32).view.loc (V d (cV L) (jV L))))
    (hbS : ∀ j, (fS j).toNat < 10000) (hbD : ∀ j, (fD j).toNat < 10000)
    (h4 : Buf (Elt F) ((b4 : Memref sig .scVector .vmem S10240 .f32).view.loc (V d (cV L) (jV L)))) (h5 : Buf (Elt F) ((b5 : Memref sig .scVector .vmem S10240 .f32).view.loc (V d (cV L) (jV L))))
    (h6 : Buf (Elt F) ((b6 : Memref sig .scVector .vmem S10240 .f32).view.loc (V d (cV L) (jV L)))) (h7 : Buf (Elt F) ((b7 : Memref sig .scVector .vmem S10240 .f32).view.loc (V d (cV L) (jV L))))
    (v1 : BitVec 32) (k : Fin k2_t5_loop.trips) (acc : Unit) :
    procInv (F := F) d L b1 b3 fS fD h4 h5 h6 h7 k.val acc
      ⊢ wp frame (wpE (defs₀ (F := F)) 𝒱₀ (V d (cV L) (jV L)) none) Set.univ
          (k2_t5_body L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 v1 k acc)
          (procInv (F := F) d L b1 b3 fS fD h4 h5 h6 h7 (k.val + 1)) := by
  unfold k2_t5_body
  unfold procInv
  iintro ⟨HmS, HmD, H4, H5, H6, H7, H8, H9, H10, H11⟩
  sl_exec (disch := first | sl_exact (chkS_t5 (F := F) d L _ hbS _ _) | sl_exact (chkD_t5 (F := F) d L _ _ hbD _ _))
  iapply (wp_ld_b4 (F := F) d L _ _ _ _ _) $$ [H4]
  · iexact H4
  iintro H4
  iapply (wp_st_b8 (F := F) d L _ _ _ _ _ _ _) $$ [H8]
  · iexact H8
  iintro H8
  iapply (wp_ld_b5 (F := F) d L _ _ _ _ _) $$ [H5]
  · iexact H5
  iintro H5
  iapply (wp_st_b9 (F := F) d L _ _ _ _ _ _ _) $$ [H9]
  · iexact H9
  iintro H9
  iapply (wp_ld_b6 (F := F) d L _ _ _ _ _) $$ [H6]
  · iexact H6
  iintro H6
  iapply (wp_st_b10 (F := F) d L _ _ _ _ _ _ _) $$ [H10]
  · iexact H10
  iintro H10
  iapply (wp_ld_b7 (F := F) d L _ _ _ _ _) $$ [H7]
  · iexact H7
  iintro H7
  iapply (wp_st_b11 (F := F) d L _ _ _ _ _ _ _) $$ [H11]
  · iexact H11
  iintro H11
  sl_exec
  sl_step
  isplitl [HmS]; · iexact HmS
  isplitl [HmD]; · iexact HmD
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Proc
end T1
end Cert.Kernel.Run
-- ==== Proof.BTile1Inv.lean ====
import proofs.«207969_g80633716015134_cont_9to1_m_1245_11_alg».proof.Proof.BTile1Proc

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 2) (Elt F) ℕ UU ℕ

namespace T1

section Inv
variable [FloatOps F]
variable (fs : (d : Dev nD) → Buf (Elt F) (srcLoc d)) (fd : (d : Dev nD) → Buf (Elt F) (dstLoc d)) (fz : (d : Dev nD) → Buf (Elt F) (zeroLoc d))
variable (d : Dev nD) (L : grid2.Coords)

/-- A whole index buffer overwritten by a payload of words below 10000 holds words below 10000. -/
theorem write_lt_b0 (f0 : Buf (Elt F) ((b0 : Memref sig .scVector .vmem S1024 .i32).view.loc (V d (cV L) (jV L)))) (w : S1024.Idx → Elt F .i32) (hw : ∀ x, (w x).toNat < 10000) :
    ∀ j, ((View.write (Elt F) (b0 : Memref sig .scVector .vmem S1024 .i32).view f0 w Finset.univ) j).toNat < 10000 := by
  intro j
  have e := View.write_emb_of_mem (Val := Elt F) (v := (b0 : Memref sig .scVector .vmem S1024 .i32).view) f0 w (M := Finset.univ) (x := j) (Finset.mem_univ _)
  have e' : (b0 : Memref sig .scVector .vmem S1024 .i32).view.emb j = j := rfl
  rw [e'] at e
  rw [e]
  exact hw _

theorem write_lt_b1 (f0 : Buf (Elt F) ((b1 : Memref sig .scVector .vmem S1024 .i32).view.loc (V d (cV L) (jV L)))) (w : S1024.Idx → Elt F .i32) (hw : ∀ x, (w x).toNat < 10000) :
    ∀ j, ((View.write (Elt F) (b1 : Memref sig .scVector .vmem S1024 .i32).view f0 w Finset.univ) j).toNat < 10000 := by
  intro j
  have e := View.write_emb_of_mem (Val := Elt F) (v := (b1 : Memref sig .scVector .vmem S1024 .i32).view) f0 w (M := Finset.univ) (x := j) (Finset.mem_univ _)
  have e' : (b1 : Memref sig .scVector .vmem S1024 .i32).view.emb j = j := rfl
  rw [e'] at e
  rw [e]
  exact hw _

theorem write_lt_b2 (f0 : Buf (Elt F) ((b2 : Memref sig .scVector .vmem S1024 .i32).view.loc (V d (cV L) (jV L)))) (w : S1024.Idx → Elt F .i32) (hw : ∀ x, (w x).toNat < 10000) :
    ∀ j, ((View.write (Elt F) (b2 : Memref sig .scVector .vmem S1024 .i32).view f0 w Finset.univ) j).toNat < 10000 := by
  intro j
  have e := View.write_emb_of_mem (Val := Elt F) (v := (b2 : Memref sig .scVector .vmem S1024 .i32).view) f0 w (M := Finset.univ) (x := j) (Finset.mem_univ _)
  have e' : (b2 : Memref sig .scVector .vmem S1024 .i32).view.emb j = j := rfl
  rw [e'] at e
  rw [e]
  exact hw _

theorem write_lt_b3 (f0 : Buf (Elt F) ((b3 : Memref sig .scVector .vmem S1024 .i32).view.loc (V d (cV L) (jV L)))) (w : S1024.Idx → Elt F .i32) (hw : ∀ x, (w x).toNat < 10000) :
    ∀ j, ((View.write (Elt F) (b3 : Memref sig .scVector .vmem S1024 .i32).view f0 w Finset.univ) j).toNat < 10000 := by
  intro j
  have e := View.write_emb_of_mem (Val := Elt F) (v := (b3 : Memref sig .scVector .vmem S1024 .i32).view) f0 w (M := Finset.univ) (x := j) (Finset.mem_univ _)
  have e' : (b3 : Memref sig .scVector .vmem S1024 .i32).view.emb j = j := rfl
  rw [e'] at e
  rw [e]
  exact hw _

/-- What a trip of the pipeline starts and ends with: the evidence that waits at the kernels' index are admissible; per
    slot, the two index copies in flight, each to deliver its buffer at words below 10000 and the half of the index
    array's read token it borrowed; the four feature rows; the four accumulators at whatever they hold; and the
    subcore's debts with only such waits recorded beyond the first ones. -/
def mainInv (O : CellTallies nD τ sig (HIx 2)) (W : Waits sig (HIx 2))
    (h4 : Buf (Elt F) ((b4 : Memref sig .scVector .vmem S10240 .f32).view.loc (V d (cV L) (jV L)))) (h5 : Buf (Elt F) ((b5 : Memref sig .scVector .vmem S10240 .f32).view.loc (V d (cV L) (jV L))))
    (h6 : Buf (Elt F) ((b6 : Memref sig .scVector .vmem S10240 .f32).view.loc (V d (cV L) (jV L)))) (h7 : Buf (Elt F) ((b7 : Memref sig .scVector .vmem S10240 .f32).view.loc (V d (cV L) (jV L))))
    (_ : Nat) (_ : Unit) : sProp 𝕄 :=
  iprop(Transfers.MayWaits (V d (cV L) (jV L)) (none : HIx 2) O
    ∗ (∃ c : Buf (Elt F) ((b0 : Memref sig .scVector .vmem S1024 .i32).view.loc (V d (cV L) (jV L))), ⌜∀ j, (c j).toNat < 10000⌝
        ∗ Flight (countersEmb : UEmb Counters 𝕄) (V d (cV L) (jV L)) (.dma cc2_scratch12.sem) default 32768
            iprop(((b0 : Memref sig .scVector .vmem S1024 .i32).view.loc (V d (cV L) (jV L)) ↦{fullShare} c) ∗ ((aS : Memref sig .scVector .hbm S327680 .i32).view.loc (V d (cV L) (jV L)) ↦{(qW L).left} fs d)))
    ∗ (∃ c : Buf (Elt F) ((b2 : Memref sig .scVector .vmem S1024 .i32).view.loc (V d (cV L) (jV L))), ⌜∀ j, (c j).toNat < 10000⌝
        ∗ Flight (countersEmb : UEmb Counters 𝕄) (V d (cV L) (jV L)) (.dma cc2_scratch14.sem) default 32768
            iprop(((b2 : Memref sig .scVector .vmem S1024 .i32).view.loc (V d (cV L) (jV L)) ↦{fullShare} c) ∗ ((aD : Memref sig .scVector .hbm S327680 .i32).view.loc (V d (cV L) (jV L)) ↦{(qW L).left} fd d)))
    ∗ (∃ c : Buf (Elt F) ((b1 : Memref sig .scVector .vmem S1024 .i32).view.loc (V d (cV L) (jV L))), ⌜∀ j, (c j).toNat < 10000⌝
        ∗ Flight (countersEmb : UEmb Counters 𝕄) (V d (cV L) (jV L)) (.dma cc2_scratch13.sem) default 32768
            iprop(((b1 : Memref sig .scVector .vmem S1024 .i32).view.loc (V d (cV L) (jV L)) ↦{fullShare} c) ∗ ((aS : Memref sig .scVector .hbm S327680 .i32).view.loc (V d (cV L) (jV L)) ↦{(qW L).right} fs d)))
    ∗ (∃ c : Buf (Elt F) ((b3 : Memref sig .scVector .vmem S1024 .i32).view.loc (V d (cV L) (jV L))), ⌜∀ j, (c j).toNat < 10000⌝
        ∗ Flight (countersEmb : UEmb Counters 𝕄) (V d (cV L) (jV L)) (.dma cc2_scratch15.sem) default 32768
            iprop(((b3 : Memref sig .scVector .vmem S1024 .i32).view.loc (V d (cV L) (jV L)) ↦{fullShare} c) ∗ ((aD : Memref sig .scVector .hbm S327680 .i32).view.loc (V d (cV L) (jV L)) ↦{(qW L).right} fd d)))
    ∗ ((b4 : Memref sig .scVector .vmem S10240 .f32).view.loc (V d (cV L) (jV L)) ↦{fullShare} h4) ∗ ((b5 : Memref sig .scVector .vmem S10240 .f32).view.loc (V d (cV L) (jV L)) ↦{fullShare} h5) ∗ ((b6 : Memref sig .scVector .vmem S10240 .f32).view.loc (V d (cV L) (jV L)) ↦{fullShare} h6) ∗ ((b7 : Memref sig .scVector .vmem S10240 .f32).view.loc (V d (cV L) (jV L)) ↦{fullShare} h7)
    ∗ (∃ f, (b8 : Memref sig .scVector .vmem S10256 .f32).view.loc (V d (cV L) (jV L)) ↦{fullShare} f) ∗ (∃ f, (b9 : Memref sig .scVector .vmem S10256 .f32).view.loc (V d (cV L) (jV L)) ↦{fullShare} f)
    ∗ (∃ f, (b10 : Memref sig .scVector .vmem S10256 .f32).view.loc (V d (cV L) (jV L)) ↦{fullShare} f) ∗ (∃ f, (b11 : Memref sig .scVector .vmem S10256 .f32).view.loc (V d (cV L) (jV L)) ↦{fullShare} f)
    ∗ ∃ W', ⌜∀ p ∈ W', p ∈ W ∨ p.2 = none⌝ ∗ owes (V d (cV L) (jV L)) O W')

end Inv
end T1
end Cert.Kernel.Run
-- ==== Proof.BTile1Main.lean ====
import proofs.«207969_g80633716015134_cont_9to1_m_1245_11_alg».proof.Proof.BTile1Inv

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 2) (Elt F) ℕ UU ℕ

namespace T1

section Main
variable [FloatOps F]
variable (fs : (d : Dev nD) → Buf (Elt F) (srcLoc d)) (fd : (d : Dev nD) → Buf (Elt F) (dstLoc d)) (fz : (d : Dev nD) → Buf (Elt F) (zeroLoc d))
variable (d : Dev nD) (L : grid2.Coords)

set_option maxHeartbeats 4000000 in
/-- One trip of the pipeline: slot 0's chunk awaited and processed and its next chunk started, then slot 1's. -/
theorem main_trip (hRs : ∀ (d : Dev nD) (j : (srcLoc d).ty.Idx), (fs d j).toNat < 10000)
    (hRd : ∀ (d : Dev nD) (j : (dstLoc d).ty.Idx), (fd d j).toNat < 10000)
    (O : CellTallies nD τ sig (HIx 2)) (W : Waits sig (HIx 2))
    (h4 : Buf (Elt F) ((b4 : Memref sig .scVector .vmem S10240 .f32).view.loc (V d (cV L) (jV L)))) (h5 : Buf (Elt F) ((b5 : Memref sig .scVector .vmem S10240 .f32).view.loc (V d (cV L) (jV L))))
    (h6 : Buf (Elt F) ((b6 : Memref sig .scVector .vmem S10240 .f32).view.loc (V d (cV L) (jV L)))) (h7 : Buf (Elt F) ((b7 : Memref sig .scVector .vmem S10240 .f32).view.loc (V d (cV L) (jV L))))
    (v1 : BitVec 32) (k : Fin k2_t1_loop.trips) (acc : Unit) :
    mainInv (F := F) fs fd d L O W h4 h5 h6 h7 k.val acc
      ⊢ wp frame (wpE (defs₀ (F := F)) 𝒱₀ (V d (cV L) (jV L)) none) Set.univ
          (k2_t1_body L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 v1 k acc)
          (mainInv (F := F) fs fd d L O W h4 h5 h6 h7 (k.val + 1)) := by
  unfold mainInv
  iintro ⟨#Hmw, ⟨%c0, %hc0, Hf0⟩, ⟨%c2, %hc2, Hf2⟩, ⟨%c1, %hc1, Hf1⟩, ⟨%c3, %hc3, Hf3⟩, H4, H5, H6, H7, H8, H9, H10, H11, %W', %hW', HO⟩
  sl_exec
  sl_for (procInv (F := F) d L b0 b2 c0 c2 h4 h5 h6 h7) $$ [Hf0_dst Hf2_dst H4 H5 H6 H7 H8 H9 H10 H11]
  case region =>
    intro k' acc'
    exact proc_trip_t2 (F := F) d L c0 c2 hc0 hc2 h4 h5 h6 h7 _ _ _ k' acc'
  · unfold procInv
    isplitl [Hf0_dst]; · iexact Hf0_dst
    isplitl [Hf2_dst]; · iexact Hf2_dst
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  unfold procInv
  iintro %acc1 ⟨Hb0, Hb2, H4, H5, H6, H7, H8, H9, H10, H11⟩
  sl_exec
  ihave Hg0 := (Flight_absorb (F := F)) $$ [Hf0 Hf0_src]
  · isplitl [Hf0]; · iexact Hf0
    iexact Hf0_src
  ihave Hg2 := (Flight_absorb (F := F)) $$ [Hf2 Hf2_src]
  · isplitl [Hf2]; · iexact Hf2
    iexact Hf2_src
  sl_for (procInv (F := F) d L b1 b3 c1 c3 h4 h5 h6 h7) $$ [Hf1_dst Hf3_dst H4 H5 H6 H7 H8 H9 H10 H11]
  case region =>
    intro k' acc'
    exact proc_trip_t3 (F := F) d L c1 c3 hc1 hc3 h4 h5 h6 h7 _ _ _ k' acc'
  · unfold procInv
    isplitl [Hf1_dst]; · iexact Hf1_dst
    isplitl [Hf3_dst]; · iexact Hf3_dst
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  unfold procInv
  iintro %acc2 ⟨Hb1, Hb3, H4, H5, H6, H7, H8, H9, H10, H11⟩
  sl_exec
  ihave Hg1 := (Flight_absorb (F := F)) $$ [Hf1 Hf1_src]
  · isplitl [Hf1]; · iexact Hf1
    iexact Hf1_src
  ihave Hg3 := (Flight_absorb (F := F)) $$ [Hf3 Hf3_src]
  · isplitl [Hf3]; · iexact Hf3
    iexact Hf3_src
  sl_step
  isplitr
  · iexact Hmw
  isplitl [Hg0]
  · iexists _
    isplitr
    rotate_left
    · iexact Hg0
    · ipureintro
      exact write_lt_b0 (F := F) d L _ _ (fun _ => hRs d _)
  isplitl [Hg2]
  · iexists _
    isplitr
    rotate_left
    · iexact Hg2
    · ipureintro
      exact write_lt_b2 (F := F) d L _ _ (fun _ => hRd d _)
  isplitl [Hg1]
  · iexists _
    isplitr
    rotate_left
    · iexact Hg1
    · ipureintro
      exact write_lt_b1 (F := F) d L _ _ (fun _ => hRs d _)
  isplitl [Hg3]
  · iexists _
    isplitr
    rotate_left
    · iexact Hg3
    · ipureintro
      exact write_lt_b3 (F := F) d L _ _ (fun _ => hRd d _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _
  isplitr
  rotate_left
  · iexact HO
  · ipureintro
    intro p hp
    rcases Finset.mem_insert.mp hp with hp | hp
    · exact .inr (by rw [hp]; rfl)
    rcases Finset.mem_insert.mp hp with hp | hp
    · exact .inr (by rw [hp]; rfl)
    rcases Finset.mem_insert.mp hp with hp | hp
    · exact .inr (by rw [hp]; rfl)
    rcases Finset.mem_insert.mp hp with hp | hp
    · exact .inr (by rw [hp]; rfl)
    · exact hW' p hp

end Main
end T1
end Cert.Kernel.Run
-- ==== Proof.BTile1Outer.lean ====
/-
  The second call's task on one vector subcore, around its main loop. The four feature rows and four zeroed accumulators
  are fetched; the first two index chunks of each slot are requested; the main loop runs by its invariant, which carries
  the two slots' pending copies from trip to trip (each read token halved, one half lent per slot); the last two chunks
  are awaited and processed; the accumulators' first 10240 entries are copied to the worker's four rows of the aggregate;
  the token halves are rejoined and the task hands back what it was handed, the rows at new contents. One trip of the main
  loop enters as a hypothesis; each processing loop is closed by its own trip lemma at the processing invariant.
-/
import proofs.«207969_g80633716015134_cont_9to1_m_1245_11_alg».proof.Proof.BTile1Inv

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 2) (Elt F) ℕ UU ℕ

namespace T1

section Outer

variable [FloatOps F]
variable (fs : (d : Dev nD) → Buf (Elt F) (srcLoc d)) (fd : (d : Dev nD) → Buf (Elt F) (dstLoc d)) (fz : (d : Dev nD) → Buf (Elt F) (zeroLoc d))

variable (d : Dev nD) (L : grid2.Coords)

/-- A buffer held at some contents is held at whatever it holds. -/
theorem held_some {ℓ : Loc nD τ sig} {q : PosShare TreeShare} (f : Buf (Elt F) ℓ) : (ℓ ↦{q} f : sProp 𝕄) ⊢ iprop(∃ g, ℓ ↦{q} g) := by
  iintro H; iexists _; iexact H

/-- The task's body from one trip of its main loop: prologue, the loop at its invariant, the closing rounds and the
    epilogue, every index chunk's words below 10000 because the arrays' are. -/
theorem tileBody_of_trip (hRs : ∀ (d : Dev nD) (j : (srcLoc d).ty.Idx), (fs d j).toNat < 10000) (hRd : ∀ (d : Dev nD) (j : (dstLoc d).ty.Idx), (fd d j).toNat < 10000)
    (hmain : ∀ (d : Dev nD) (L : grid2.Coords) (O : CellTallies nD τ sig (HIx 2)) (W : Waits sig (HIx 2)) h4 h5 h6 h7 (v1 : BitVec 32) (k : Fin k2_t1_loop.trips) (acc : Unit),
      mainInv (F := F) fs fd d L O W h4 h5 h6 h7 k.val acc
        ⊢ wp frame (wpE (defs₀ (F := F)) 𝒱₀ (V d (cV L) (jV L)) none) Set.univ
          (k2_t1_body L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 v1 k acc)
          (mainInv (F := F) fs fd d L O W h4 h5 h6 h7 (k.val + 1)))
    : TileBody (F := F) fs fd fz := by
  intro d L O W hO
  simp only [cc2__agg_sc_eq_skeleton]; unfold cc2__agg_sc_skel
  rw [(K (F := F)).scopedBufs_V facts d (cV L) (jV L), SparseCore.Cfg.scopedSems0_V (Val := Elt F) d (cV L) (jV L), ownSems0_V, ownBufs_V]
  unfold pay1 reads
  rw [bigSep_fin4, bigSep_fin4]
  iintro ⟨#Hlv, -, ⟨⟨HS, HD, HZ⟩, ⟨⟨%h0, HH0⟩, ⟨%h1, HH1⟩, ⟨%h2, HH2⟩, ⟨%h3, HH3⟩⟩, ⟨⟨%a0, HG0⟩, ⟨%a1, HG1⟩, ⟨%a2, HG2⟩, ⟨%a3, HG3⟩⟩⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, Hbufs⟩, ⟨Hs0, Hs1, Hs2, Hs3, Hs4, Hs5, Hs6, Hs7, Hs8, Hs9, Hs10, Hs11, Hs12, Hs13, Hs14, Hs15, Hsems⟩, HO⟩
  ihave Hmw := ((K (F := F)).mayWaits_none (thr := V d (cV L) (jV L)) hO) $$ Hlv
  ihave HSs := ((pointsTo_share (PosShare.mem_left_op_right (qW L))).1) $$ HS
  icases HSs with ⟨HSl, HSr⟩
  ihave HDs := ((pointsTo_share (PosShare.mem_left_op_right (qW L))).1) $$ HD
  icases HDs with ⟨HDl, HDr⟩
  ihave HH0' := (Entails.of_eq (pts_hRow (F := F) d L 0 _).symm) $$ HH0
  ihave HH1' := (Entails.of_eq (pts_hRow (F := F) d L 1 _).symm) $$ HH1
  ihave HH2' := (Entails.of_eq (pts_hRow (F := F) d L 2 _).symm) $$ HH2
  ihave HH3' := (Entails.of_eq (pts_hRow (F := F) d L 3 _).symm) $$ HH3
  ihave HG0' := (Entails.of_eq (pts_gRow (F := F) d L 0 _).symm) $$ HG0
  ihave HG1' := (Entails.of_eq (pts_gRow (F := F) d L 1 _).symm) $$ HG1
  ihave HG2' := (Entails.of_eq (pts_gRow (F := F) d L 2 _).symm) $$ HG2
  ihave HG3' := (Entails.of_eq (pts_gRow (F := F) d L 3 _).symm) $$ HG3
  ihave H0' := (Entails.of_eq (pts_b0 (F := F) d L _).symm) $$ H0
  ihave H1' := (Entails.of_eq (pts_b1 (F := F) d L _).symm) $$ H1
  ihave H2' := (Entails.of_eq (pts_b2 (F := F) d L _).symm) $$ H2
  ihave H3' := (Entails.of_eq (pts_b3 (F := F) d L _).symm) $$ H3
  ihave H4' := (Entails.of_eq (pts_b4 (F := F) d L _).symm) $$ H4
  ihave H5' := (Entails.of_eq (pts_b5 (F := F) d L _).symm) $$ H5
  ihave H6' := (Entails.of_eq (pts_b6 (F := F) d L _).symm) $$ H6
  ihave H7' := (Entails.of_eq (pts_b7 (F := F) d L _).symm) $$ H7
  ihave H8' := (Entails.of_eq (pts_b8 (F := F) d L _).symm) $$ H8
  ihave H9' := (Entails.of_eq (pts_b9 (F := F) d L _).symm) $$ H9
  ihave H10' := (Entails.of_eq (pts_b10 (F := F) d L _).symm) $$ H10
  ihave H11' := (Entails.of_eq (pts_b11 (F := F) d L _).symm) $$ H11
  ihave HZ' := (Entails.of_eq (pts_aZ (F := F) d L _ _).symm) $$ HZ
  ihave HSl' := (Entails.of_eq (pts_aS (F := F) d L _ _).symm) $$ HSl
  ihave HSr' := (Entails.of_eq (pts_aS (F := F) d L _ _).symm) $$ HSr
  ihave HDl' := (Entails.of_eq (pts_aD (F := F) d L _ _).symm) $$ HDl
  ihave HDr' := (Entails.of_eq (pts_aD (F := F) d L _ _).symm) $$ HDr
  sl_exec
  ihave Hf0 := (Flight_absorb (F := F)) $$ [Hs0 HSl']
  · isplitl [Hs0]; · iexact Hs0
    iexact HSl'
  ihave Hf2 := (Flight_absorb (F := F)) $$ [Hs2 HDl']
  · isplitl [Hs2]; · iexact Hs2
    iexact HDl'
  ihave Hf1 := (Flight_absorb (F := F)) $$ [Hs1 HSr']
  · isplitl [Hs1]; · iexact Hs1
    iexact HSr'
  ihave Hf3 := (Flight_absorb (F := F)) $$ [Hs3 HDr']
  · isplitl [Hs3]; · iexact Hs3
    iexact HDr'
  ihave H4e := (held_some (F := F) _) $$ H4'
  icases H4e with ⟨%h4, H4⟩
  ihave H5e := (held_some (F := F) _) $$ H5'
  icases H5e with ⟨%h5, H5⟩
  ihave H6e := (held_some (F := F) _) $$ H6'
  icases H6e with ⟨%h6, H6⟩
  ihave H7e := (held_some (F := F) _) $$ H7'
  icases H7e with ⟨%h7, H7⟩
  sl_for (mainInv (F := F) fs fd d L O W h4 h5 h6 h7) $$ [Hmw Hf0 Hf2 Hf1 Hf3 H4 H5 H6 H7 H8' H9' H10' H11' HO]
  case region =>
    intro k acc
    exact hmain d L O W h4 h5 h6 h7 _ k acc
  · unfold mainInv
    isplitr; · iexact Hmw
    isplitl [Hf0]
    · iexists _; isplitr
      swap
      · iexact Hf0
      · ipureintro; exact write_lt_b0 (F := F) d L _ _ (fun x => hRs d _)
    isplitl [Hf2]
    · iexists _; isplitr
      swap
      · iexact Hf2
      · ipureintro; exact write_lt_b2 (F := F) d L _ _ (fun x => hRd d _)
    isplitl [Hf1]
    · iexists _; isplitr
      swap
      · iexact Hf1
      · ipureintro; exact write_lt_b1 (F := F) d L _ _ (fun x => hRs d _)
    isplitl [Hf3]
    · iexists _; isplitr
      swap
      · iexact Hf3
      · ipureintro; exact write_lt_b3 (F := F) d L _ _ (fun x => hRd d _)
    isplitl [H4]; · iexact H4
    isplitl [H5]; · iexact H5
    isplitl [H6]; · iexact H6
    isplitl [H7]; · iexact H7
    isplitl [H8']; · iexists _; iexact H8'
    isplitl [H9']; · iexists _; iexact H9'
    isplitl [H10']; · iexists _; iexact H10'
    isplitl [H11']; · iexists _; iexact H11'
    iexists _; isplitr
    swap
    · iexact HO
    · ipureintro; intro p hp
      repeat (rcases Finset.mem_insert.mp hp with rfl | hp; · exact .inr rfl)
      exact .inl hp
  iintro %_ HI
  unfold mainInv
  icases HI with ⟨-, ⟨%c0, %hc0, Hf0⟩, ⟨%c2, %hc2, Hf2⟩, ⟨%c1, %hc1, Hf1⟩, ⟨%c3, %hc3, Hf3⟩, H4, H5, H6, H7, ⟨%e8, H8⟩, ⟨%e9, H9⟩, ⟨%e10, H10⟩, ⟨%e11, H11⟩, %W', %hW', HO⟩
  sl_exec
  sl_for (procInv (F := F) d L b0 b2 c0 c2 h4 h5 h6 h7) $$ [Hf0_dst Hf2_dst H4 H5 H6 H7 H8 H9 H10 H11]
  case region =>
    intro k acc
    exact proc_trip_t4 (F := F) d L c0 c2 hc0 hc2 h4 h5 h6 h7 _ k acc
  · unfold procInv
    isplitl [Hf0_dst]; · iexact Hf0_dst
    isplitl [Hf2_dst]; · iexact Hf2_dst
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iexists _; iexact H11
  iintro %_ HI
  unfold procInv
  icases HI with ⟨H0, H2, H4, H5, H6, H7, ⟨%e8', H8⟩, ⟨%e9', H9⟩, ⟨%e10', H10⟩, ⟨%e11', H11⟩⟩
  sl_exec
  sl_for (procInv (F := F) d L b1 b3 c1 c3 h4 h5 h6 h7) $$ [Hf1_dst Hf3_dst H4 H5 H6 H7 H8 H9 H10 H11]
  case region =>
    intro k acc
    exact proc_trip_t5 (F := F) d L c1 c3 hc1 hc3 h4 h5 h6 h7 _ k acc
  · unfold procInv
    isplitl [Hf1_dst]; · iexact Hf1_dst
    isplitl [Hf3_dst]; · iexact Hf3_dst
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iexists _; iexact H11
  iintro %_ HI
  unfold procInv
  icases HI with ⟨H1, H3, H4, H5, H6, H7, ⟨%e8'', H8⟩, ⟨%e9'', H9⟩, ⟨%e10'', H10⟩, ⟨%e11'', H11⟩⟩
  sl_exec
  sl_step
  ihave HSj := ((pointsTo_share (PosShare.mem_left_op_right (qW L))).2) $$ [Hf0_src Hf1_src]
  · isplitl [Hf0_src]; · iexact Hf0_src
    iexact Hf1_src
  ihave HDj := ((pointsTo_share (PosShare.mem_left_op_right (qW L))).2) $$ [Hf2_src Hf3_src]
  · isplitl [Hf2_src]; · iexact Hf2_src
    iexact Hf3_src
  isplitl [HSj HDj HZ' HH0' HH1' HH2' HH3' HG0' HG1' HG2' HG3']
  · isplitl [HSj HDj HZ']
    · isplitl [HSj]; · iexact HSj
      isplitl [HDj]; · iexact HDj
      iexact HZ'
    isplitl [HH0' HH1' HH2' HH3']
    · isplitl [HH0']; · iexists _; iapply (Entails.of_eq (pts_hRow (F := F) d L 0 _)); iexact HH0'
      isplitl [HH1']; · iexists _; iapply (Entails.of_eq (pts_hRow (F := F) d L 1 _)); iexact HH1'
      isplitl [HH2']; · iexists _; iapply (Entails.of_eq (pts_hRow (F := F) d L 2 _)); iexact HH2'
      iexists _; iapply (Entails.of_eq (pts_hRow (F := F) d L 3 _)); iexact HH3'
    · isplitl [HG0']; · iexists _; iapply (Entails.of_eq (pts_gRow (F := F) d L 0 _)); iexact HG0'
      isplitl [HG1']; · iexists _; iapply (Entails.of_eq (pts_gRow (F := F) d L 1 _)); iexact HG1'
      isplitl [HG2']; · iexists _; iapply (Entails.of_eq (pts_gRow (F := F) d L 2 _)); iexact HG2'
      iexists _; iapply (Entails.of_eq (pts_gRow (F := F) d L 3 _)); iexact HG3'
  isplitl [H0 H1 H2 H3 H4 H5 H6 H7 H8 H9 H10 H11 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexact Hbufs
  isplitl [Hf0 Hf1 Hf2 Hf3 Hs4 Hs5 Hs6 Hs7 Hs8 Hs9 Hs10 Hs11 Hs12 Hs13 Hs14 Hs15 Hsems]
  · isplitl [Hf0]; · iexact Hf0
    isplitl [Hf1]; · iexact Hf1
    isplitl [Hf2]; · iexact Hf2
    isplitl [Hf3]; · iexact Hf3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    iexact Hsems
  iexists _; isplitr
  swap
  · iexact HO
  · ipureintro; intro p hp
    repeat (rcases Finset.mem_insert.mp hp with rfl | hp; · exact .inr rfl)
    exact hW' p hp

end Outer

end T1

end Cert.Kernel.Run
-- ==== Proof.BTile1.lean ====
import proofs.«207969_g80633716015134_cont_9to1_m_1245_11_alg».proof.Proof.BTile1Main
import proofs.«207969_g80633716015134_cont_9to1_m_1245_11_alg».proof.Proof.BTile1Outer

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

/-! ## The second call's task obligation -/

section Obl

variable [FloatOps F]
variable (fs : (d : Dev nD) → Buf (Elt F) (srcLoc d)) (fd : (d : Dev nD) → Buf (Elt F) (dstLoc d)) (fz : (d : Dev nD) → Buf (Elt F) (zeroLoc d))

/-- The second call's task obligation: every worker's task terminates without fault and hands back what it was handed,
    its four rows of the aggregate at new contents, every assumed index in range because the words of the two index
    arrays are below 10000. -/
theorem tileObl1 (hRs : ∀ (d : Dev nD) (j : (srcLoc d).ty.Idx), (fs d j).toNat < 10000)
    (hRd : ∀ (d : Dev nD) (j : (dstLoc d).ty.Idx), (fd d j).toNat < 10000) :
    (K (F := F)).TileObl (D (F := F)) 𝒱 (P fs fd fz) v₀ 1 :=
  tileObl1_of_body fs fd fz
    (T1.tileBody_of_trip (F := F) fs fd fz hRs hRd
      (fun d L O W h4 h5 h6 h7 v1 k acc => T1.main_trip (F := F) fs fd d L hRs hRd O W h4 h5 h6 h7 v1 k acc))

end Obl

end Cert.Kernel.Run
-- ==== Proof.BReg0Body.lean ====
/-
  The first gridded region (eight grid points; each point reads a 1280×128 block of the features, the 128×128 weights
  and a 32×1280×1 block of the per-worker counts, and writes a 1280×128 block of the scaled linear map, the 128×1280
  block of its transpose and a 1280×1 block of the degree factors): what the body leaves in its staging buffers at every
  point, and the body's obligation to the pipeline. The arithmetic stays three opaque payloads of the three input blocks;
  nothing here opens them.
-/
import proofs.«207969_g80633716015134_cont_9to1_m_1245_11_alg».proof.Proof.BSetup
import proofs.«207969_g80633716015134_cont_9to1_m_1245_11_alg».proof.Proof.Gen.Kernel.Launch
import proofs.«207969_g80633716015134_cont_9to1_m_1245_11_alg».proof.Proof.Gen.Kernel.Skeleton
import proofs.«207969_g80633716015134_cont_9to1_m_1245_11_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] [∀ e, Nonempty (Elt F e)]

local notation "𝕄" => MT nD τ sig (HIx 2) (Elt F) ℕ UU ℕ

-- the arrays' contents when the region is entered, what the core owes while it runs, and the bound on the pairs its
-- waits have recorded
variable (V : (c : Dev nD) → (b : Ref sig .tc) → Buf (Elt F) ((c : Thread nD τ).loc b)) (O : CellTallies nD τ sig (HIx 2))
  (B : Set (SemLoc sig × HIx 2))

/-! ## The windows' blocks -/

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (at a point where it
    is not fetched its block index has not moved, and the body left the block in place), for any proof data over the
    region-entry arrays whose body leaves the block in place. The weights' window is fetched at the first point only. -/
theorem before1_0_of {c : Dev nD} (dat : Dat τ (Elt F) (HIx 2) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) (HIx 2) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) (HIx 2) ℕ UU ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes: whole blocks -/

abbrev r1_x : Rect S1280x128 := Rect.unit (s := S1280x128) ![0, 0] S1280x128.size inb_S1280x128_S1280x128_0_0
abbrev r1_w : Rect S128x128 := Rect.unit (s := S128x128) ![0, 0] S128x128.size inb_S128x128_S128x128_0_0
abbrev r1_c : Rect S32x1280x1 := Rect.unit (s := S32x1280x1) ![0, 0, 0] S32x1280x1.size inb_S32x1280x1_S32x1280x1_0_0_0
abbrev r1_t : Rect S128x1280 := Rect.unit (s := S128x1280) ![0, 0] S128x1280.size inb_S128x1280_S128x1280_0_0
abbrev r1_r : Rect S1280x1 := Rect.unit (s := S1280x1) ![0, 0] S1280x1.size inb_S1280x1_S1280x1_0_0

/-- The first output block after the body, from the three input blocks (features, weights, counts): its one store, of the
    body's second payload. -/
def out1_3 (x0 : Vec F S1280x128 .f32) (x1 : Vec F S128x128 .f32) (x2 : Vec F S32x1280x1 .f32) : Vec F S1280x128 .f32 :=
  View.canon [⟨r1_x, k1_pay2 (View.ld x2 r1_c) (View.ld x0 r1_x) (View.ld x1 r1_w)⟩]

/-- The second output block after the body: its one store, of the third payload (the transpose of the second). -/
def out1_4 (x0 : Vec F S1280x128 .f32) (x1 : Vec F S128x128 .f32) (x2 : Vec F S32x1280x1 .f32) : Vec F S128x1280 .f32 :=
  View.canon [⟨r1_t, k1_pay3 (View.ld x2 r1_c) (View.ld x0 r1_x) (View.ld x1 r1_w)⟩]

/-- The third output block after the body: its one store, of the first payload (a function of the counts alone). -/
def out1_5 (x2 : Vec F S32x1280x1 .f32) : Vec F S1280x1 .f32 :=
  View.canon [⟨r1_r, k1_pay1 (View.ld x2 r1_c)⟩]

/-- Each output's one store covers its block. -/
theorem cover1_3 (p0 : Vec F S1280x128 .f32) (y : S1280x128.Idx) :
    ∃ pc ∈ ([⟨r1_x, p0⟩] : List (View.Piece (Elt F) S1280x128 .f32)), y ∈ pc.1.set :=
  View.cover_of_tiled [⟨r1_x, p0⟩] S1280x128.size (by rfl) y
theorem cover1_4 (p0 : Vec F S128x1280 .f32) (y : S128x1280.Idx) :
    ∃ pc ∈ ([⟨r1_t, p0⟩] : List (View.Piece (Elt F) S128x1280 .f32)), y ∈ pc.1.set :=
  View.cover_of_tiled [⟨r1_t, p0⟩] S128x1280.size (by rfl) y
theorem cover1_5 (p0 : Vec F S1280x1 .f32) (y : S1280x1.Idx) :
    ∃ pc ∈ ([⟨r1_r, p0⟩] : List (View.Piece (Elt F) S1280x1 .f32)), y ∈ pc.1.set :=
  View.cover_of_tiled [⟨r1_r, p0⟩] S1280x1.size (by rfl) y

/-! ## The body's triple -/

set_option maxHeartbeats 2000000 in
/-- The body on whole staging memrefs: the three inputs stay as they were, each output ends at its out1 of them. -/
theorem sound_kernel1 (c : Dev nD) (E : Set ℕ) (i : grid1.Coords)
    (arg1 : Memref sig .tc .vmem S1280x128 .f32) (harg1 : arg1.IsWhole) (arg2 : Memref sig .tc .vmem S128x128 .f32) (harg2 : arg2.IsWhole)
    (arg3 : Memref sig .tc .vmem S32x1280x1 .f32) (harg3 : arg3.IsWhole) (arg4 : Memref sig .tc .vmem S1280x128 .f32) (harg4 : arg4.IsWhole)
    (arg5 : Memref sig .tc .vmem S128x1280 .f32) (harg5 : arg5.IsWhole) (arg6 : Memref sig .tc .vmem S1280x1 .f32) (harg6 : arg6.IsWhole)
    (x0 : Vec F S1280x128 .f32) (x1 : Vec F S128x128 .f32) (x2 : Vec F S32x1280x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)
            ∗ owns (c : Thread nD τ) arg6 fullShare (out1_5 x2)) -∗ K ⟨⟩))
      ⊢ wp frame (wpE (defs₀ (F := F)) Variants.none c none) E (cc1__s2_body i arg1 harg1 arg2 harg2 arg3 harg3 arg4 harg4 arg5 harg5 arg6 harg6) K := by
  simp only [cc1__s2_body_eq_skeleton]; unfold cc1__s2_body_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_3 _)
  isplitl [H5]
  · iexists _; isplitr
    swap; · iexact H5
    ipureintro
    exact View.read_writes_eq_canon _ _ _ (cover1_4 _)
  iexists _; isplitr
  swap; · iexact H6
  ipureintro
  exact View.read_writes_eq_canon _ _ _ (cover1_5 _)

/-! ## The pipeline's proof data -/

/-- The region's invariant on core c: the core's scoped buffers that are no staging buffer of this region, each whole at
    some contents, and its generator register at some state — what a body that touches nothing but its windows leaves
    alone. -/
def ΦS1 (c : Dev nD) : sProp 𝕄 :=
  iprop(Pipeline.scopedRest (Ix := HIx 2) (Name := ℕ) (U := UU) (Lvl := ℕ) (Val := Elt F) spec1 c ∗ ∃ r, prngReg c r)

/-- The proof data of the first region on core c: the arrays as the region finds them; after the body at point t each
    input's buffer at its block and each output's at its out1 of the input blocks; the invariant that of a body that
    touches nothing but its windows; the core owing O throughout, its recorded pairs within B; full shares. -/
def dat1 (c : Dev nD) : Dat τ (Elt F) (HIx 2) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
    | ⟨5, _⟩ => out1_5 (iblk1 V c 2 t)
  Φ _ := ΦS1 c
  q _ := fullShare
  owed _ := O
  recorded _ := B

theorem A_eq1 (c : Dev nD) (w : Fin cfg1.W) : (dat1 V O B c).A w = V c (Pipeline.arrRef spec1 w) := by
  dsimp only [dat1]

theorem after1_0 (c : Dev nD) (t : Fin cfg1.N) : (dat1 V O B c).after 0 t = iblk1 V c 0 t := by dsimp only [dat1]
theorem after1_1 (c : Dev nD) (t : Fin cfg1.N) : (dat1 V O B c).after 1 t = iblk1 V c 1 t := by dsimp only [dat1]
theorem after1_2 (c : Dev nD) (t : Fin cfg1.N) : (dat1 V O B c).after 2 t = iblk1 V c 2 t := by dsimp only [dat1]
theorem after1_3 (c : Dev nD) (t : Fin cfg1.N) :
    (dat1 V O B c).after 3 t = out1_3 (iblk1 V c 0 t) (iblk1 V c 1 t) (iblk1 V c 2 t) := by dsimp only [dat1]
theorem after1_4 (c : Dev nD) (t : Fin cfg1.N) :
    (dat1 V O B c).after 4 t = out1_4 (iblk1 V c 0 t) (iblk1 V c 1 t) (iblk1 V c 2 t) := by dsimp only [dat1]
theorem after1_5 (c : Dev nD) (t : Fin cfg1.N) : (dat1 V O B c).after 5 t = out1_5 (iblk1 V c 2 t) := by dsimp only [dat1]

theorem before1_0 (c : Dev nD) (t : Fin cfg1.N) (d) : (dat1 V O B c).before 0 t d = iblk1 V c 0 t :=
  before1_0_of V (dat1 V O B c) (A_eq1 V O B c 0) (after1_0 V O B c) t d
theorem before1_1 (c : Dev nD) (t : Fin cfg1.N) (d) : (dat1 V O B c).before 1 t d = iblk1 V c 1 t :=
  before1_1_of V (dat1 V O B c) (A_eq1 V O B c 1) (after1_1 V O B c) t d
theorem before1_2 (c : Dev nD) (t : Fin cfg1.N) (d) : (dat1 V O B c).before 2 t d = iblk1 V c 2 t :=
  before1_2_of V (dat1 V O B c) (A_eq1 V O B c 2) (after1_2 V O B c) t d

/-! ## The body obligation, at a generic point -/

/-- What the body is called with at point t, the windows one by one, -/
def bodyPre1 (c : Dev nD) (t : Fin cfg1.N) : sProp 𝕄 :=
  iprop((dat1 V O B c).Φ t.castSucc ∗ (dat1 V O B c).owesAt (none : HIx 2) t.castSucc
    ∗ (∃ d, owns (c : Thread nD τ) (st1_0 t) fullShare ((dat1 V O B c).before 0 t d))
    ∗ (∃ d, owns (c : Thread nD τ) (st1_1 t) fullShare ((dat1 V O B c).before 1 t d))
    ∗ (∃ d, owns (c : Thread nD τ) (st1_2 t) fullShare ((dat1 V O B c).before 2 t d))
    ∗ (∃ d, owns (c : Thread nD τ) (st1_3 t) fullShare ((dat1 V O B c).before 3 t d))
    ∗ (∃ d, owns (c : Thread nD τ) (st1_4 t) fullShare ((dat1 V O B c).before 4 t d))
    ∗ (∃ d, owns (c : Thread nD τ) (st1_5 t) fullShare ((dat1 V O B c).before 5 t d)))

/-- and what it returns. -/
def bodyPost1 (c : Dev nD) (t : Fin cfg1.N) : sProp 𝕄 :=
  iprop((dat1 V O B c).Φ t.succ ∗ (dat1 V O B c).owesAt (none : HIx 2) t.succ
    ∗ owns (c : Thread nD τ) (st1_0 t) fullShare ((dat1 V O B c).after 0 t)
    ∗ owns (c : Thread nD τ) (st1_1 t) fullShare ((dat1 V O B c).after 1 t)
    ∗ owns (c : Thread nD τ) (st1_2 t) fullShare ((dat1 V O B c).after 2 t)
    ∗ owns (c : Thread nD τ) (st1_3 t) fullShare ((dat1 V O B c).after 3 t)
    ∗ owns (c : Thread nD τ) (st1_4 t) fullShare ((dat1 V O B c).after 4 t)
    ∗ owns (c : Thread nD τ) (st1_5 t) fullShare ((dat1 V O B c).after 5 t))

/-- The body at any point: the inputs' memrefs hold their blocks, so the body's triple applies; the invariant and what the
    core owes pass through unread. -/
theorem sound_body1 (c : Dev nD) (t : Fin cfg1.N) :
    bodyPre1 V O B c t ⊢ wp frame (wpE (defs₀ (F := F)) Variants.none c none) Set.univ (bodyAt1 t) (fun _ => bodyPost1 V O B c t) := by
  unfold bodyPre1 bodyPost1 bodyAt1
  simp only [before1_0, before1_1, before1_2]
  rw [show (dat1 V O B c).Φ t.succ = (dat1 V O B c).Φ t.castSucc from rfl,
    show (dat1 V O B c).owesAt (none : HIx 2) t.succ = (dat1 V O B c).owesAt (none : HIx 2) t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation1 (c : Dev nD) : BodyObligation (dat1 (F := F) V O B c) (defs₀ (F := F)) Variants.none (none : HIx 2) Set.univ := fun t => by
  rw [bigSep_W1, bigSep_W1]
  exact sound_body1 V O B c t

end Cert.Kernel.Run

end
-- ==== Proof.BReg1Body.lean ====
/-
  The second gridded region (eight grid points; each point reads a 128×1280 block of the transposed aggregate, a 1280×128
  block of the scaled features, a 1280×1 block of the degree factors and the 1×128 bias, and writes a 1280×128 block of
  the result): what the body leaves in its staging buffers at every point, and the body's obligation to the pipeline.
  The arithmetic stays one opaque payload of the four blocks; nothing here opens it.
-/
import proofs.«207969_g80633716015134_cont_9to1_m_1245_11_alg».proof.Proof.BSetup
import proofs.«207969_g80633716015134_cont_9to1_m_1245_11_alg».proof.Proof.Gen.Kernel.Launch
import proofs.«207969_g80633716015134_cont_9to1_m_1245_11_alg».proof.Proof.Gen.Kernel.Skeleton
import proofs.«207969_g80633716015134_cont_9to1_m_1245_11_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F] [∀ e, Nonempty (Elt F e)]

local notation "𝕄" => MT nD τ sig (HIx 2) (Elt F) ℕ UU ℕ

-- the arrays' contents when the region is entered, what the core owes while it runs, and a bound on the waits it has recorded
variable (V : (c : Dev nD) → (b : Ref sig .tc) → Buf (Elt F) ((c : Thread nD τ).loc b)) (O : CellTallies nD τ sig (HIx 2))
  (B : Set (SemLoc sig × HIx 2))

/-! ## The windows' blocks -/

/-- Window w's block at grid point t, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof data over
    the region-entry arrays whose body leaves the block in place. -/
theorem before3_0_of {c : Dev nD} (dat : Dat τ (Elt F) (HIx 2) ℕ UU ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem before3_1_of {c : Dev nD} (dat : Dat τ (Elt F) (HIx 2) ℕ UU ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem before3_2_of {c : Dev nD} (dat : Dat τ (Elt F) (HIx 2) ℕ UU ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)
theorem before3_3_of {c : Dev nD} (dat : Dat τ (Elt F) (HIx 2) ℕ UU ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)

/-! ## What the body reads and writes: whole blocks -/

abbrev rA : Rect S128x1280 := Rect.unit (s := S128x1280) ![0, 0] S128x1280.size inb_S128x1280_S128x1280_0_0
abbrev rH : Rect S1280x128 := Rect.unit (s := S1280x128) ![0, 0] S1280x128.size inb_S1280x128_S1280x128_0_0
abbrev rR : Rect S1280x1 := Rect.unit (s := S1280x1) ![0, 0] S1280x1.size inb_S1280x1_S1280x1_0_0
abbrev rB : Rect S1x128 := Rect.unit (s := S1x128) ![0, 0] S1x128.size inb_S1x128_S1x128_0_0

/-- The output block after the body, from the four input blocks: its one store, of the body's payload. -/
def out3 (xa : Vec F S128x1280 .f32) (xh : Vec F S1280x128 .f32) (xr : Vec F S1280x1 .f32) (xb : Vec F S1x128 .f32) : Vec F S1280x128 .f32 :=
  View.canon [⟨rH, k3_pay1 (View.ld xa rA) (View.ld xh rH) (View.ld xr rR) (View.ld xb rB)⟩]

/-- The one store covers the block. -/
theorem cover3 (p0 : Vec F S1280x128 .f32) (y : S1280x128.Idx) :
    ∃ pc ∈ ([⟨rH, p0⟩] : List (View.Piece (Elt F) S1280x128 .f32)), y ∈ pc.1.set :=
  View.cover_of_tiled [⟨rH, p0⟩] S1280x128.size (by rfl) y

/-! ## The body's triple -/

set_option maxHeartbeats 1000000 in
/-- The body on whole staging memrefs: the four inputs stay as they were, the output ends at out3 of them. -/
theorem sound_kernel3 (c : Dev nD) (E : Set ℕ) (i : grid3.Coords)
    (arg1 : Memref sig .tc .vmem S128x1280 .f32) (harg1 : arg1.IsWhole) (arg2 : Memref sig .tc .vmem S1280x128 .f32) (harg2 : arg2.IsWhole)
    (arg3 : Memref sig .tc .vmem S1280x1 .f32) (harg3 : arg3.IsWhole) (arg4 : Memref sig .tc .vmem S1x128 .f32) (harg4 : arg4.IsWhole)
    (arg5 : Memref sig .tc .vmem S1280x128 .f32) (harg5 : arg5.IsWhole)
    (xa : Vec F S128x1280 .f32) (xh : Vec F S1280x128 .f32) (xr : Vec F S1280x1 .f32) (xb : Vec F S1x128 .f32) (K : PUnit → sProp 𝕄) :
    iprop(owns (c : Thread nD τ) arg1 fullShare xa ∗ owns (c : Thread nD τ) arg2 fullShare xh ∗ owns (c : Thread nD τ) arg3 fullShare xr
        ∗ owns (c : Thread nD τ) arg4 fullShare xb ∗ (∃ d, owns (c : Thread nD τ) arg5 fullShare d)
        ∗ (iprop(owns (c : Thread nD τ) arg1 fullShare xa ∗ owns (c : Thread nD τ) arg2 fullShare xh ∗ owns (c : Thread nD τ) arg3 fullShare xr
            ∗ owns (c : Thread nD τ) arg4 fullShare xb ∗ owns (c : Thread nD τ) arg5 fullShare (out3 xa xh xr xb)) -∗ K ⟨⟩))
      ⊢ wp frame (wpE (defs₀ (F := F)) Variants.none c none) E (cc3__s4_body i arg1 harg1 arg2 harg2 arg3 harg3 arg4 harg4 arg5 harg5) K := by
  simp only [cc3__s4_body_eq_skeleton]; unfold cc3__s4_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3 _)

/-! ## The pipeline's proof data -/

/-- What a body that touches nothing but its windows may use and need not describe: the core's scoped buffers that are no
    staging buffer of this region, each at some contents, and the generator register at some state. -/
def ΦS (c : Dev nD) : sProp 𝕄 :=
  iprop(Pipeline.scopedRest (Ix := HIx 2) (Name := ℕ) (U := UU) (Lvl := ℕ) (Val := Elt F) spec3 c ∗ ∃ r, prngReg c r)

/-- The proof data of the second region on core c: the arrays as the region finds them; after the body at point t each
    input's buffer at its block and the output's at out3 of the input blocks; the invariant that of a body that touches
    nothing but its windows; the core owing O throughout; full shares. -/
def dat3 (c : Dev nD) : Dat τ (Elt F) (HIx 2) ℕ UU ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => out3 (blk3 V c 0 t) (blk3 V c 1 t) (blk3 V c 2 t) (blk3 V c 3 t)
  Φ _ := ΦS c
  q _ := fullShare
  owed _ := O
  recorded _ := B

theorem A_eq3 (c : Dev nD) (w : Fin cfg3.W) : (dat3 V O B c).A w = V c (Pipeline.arrRef spec3 w) := by
  dsimp only [dat3]

theorem after3_0 (c : Dev nD) (t : Fin cfg3.N) : (dat3 V O B c).after 0 t = blk3 V c 0 t := by dsimp only [dat3]
theorem after3_1 (c : Dev nD) (t : Fin cfg3.N) : (dat3 V O B c).after 1 t = blk3 V c 1 t := by dsimp only [dat3]
theorem after3_2 (c : Dev nD) (t : Fin cfg3.N) : (dat3 V O B c).after 2 t = blk3 V c 2 t := by dsimp only [dat3]
theorem after3_3 (c : Dev nD) (t : Fin cfg3.N) : (dat3 V O B c).after 3 t = blk3 V c 3 t := by dsimp only [dat3]
theorem after3_4 (c : Dev nD) (t : Fin cfg3.N) :
    (dat3 V O B c).after 4 t = out3 (blk3 V c 0 t) (blk3 V c 1 t) (blk3 V c 2 t) (blk3 V c 3 t) := by dsimp only [dat3]

theorem before3_0 (c : Dev nD) (t : Fin cfg3.N) (d) : (dat3 V O B c).before 0 t d = blk3 V c 0 t :=
  before3_0_of V (dat3 V O B c) (A_eq3 V O B c 0) (after3_0 V O B c) t d
theorem before3_1 (c : Dev nD) (t : Fin cfg3.N) (d) : (dat3 V O B c).before 1 t d = blk3 V c 1 t :=
  before3_1_of V (dat3 V O B c) (A_eq3 V O B c 1) (after3_1 V O B c) t d
theorem before3_2 (c : Dev nD) (t : Fin cfg3.N) (d) : (dat3 V O B c).before 2 t d = blk3 V c 2 t :=
  before3_2_of V (dat3 V O B c) (A_eq3 V O B c 2) (after3_2 V O B c) t d
theorem before3_3 (c : Dev nD) (t : Fin cfg3.N) (d) : (dat3 V O B c).before 3 t d = blk3 V c 3 t :=
  before3_3_of V (dat3 V O B c) (A_eq3 V O B c 3) (after3_3 V O B c) t d

/-! ## The body obligation, at a generic point -/

/-- What the body is called with at point t, the windows one by one, -/
def bodyPre3 (c : Dev nD) (t : Fin cfg3.N) : sProp 𝕄 :=
  iprop((dat3 V O B c).Φ t.castSucc ∗ (dat3 V O B c).owesAt (none : HIx 2) t.castSucc
    ∗ (∃ d, owns (c : Thread nD τ) (st3_0 t) fullShare ((dat3 V O B c).before 0 t d))
    ∗ (∃ d, owns (c : Thread nD τ) (st3_1 t) fullShare ((dat3 V O B c).before 1 t d))
    ∗ (∃ d, owns (c : Thread nD τ) (st3_2 t) fullShare ((dat3 V O B c).before 2 t d))
    ∗ (∃ d, owns (c : Thread nD τ) (st3_3 t) fullShare ((dat3 V O B c).before 3 t d))
    ∗ (∃ d, owns (c : Thread nD τ) (st3_4 t) fullShare ((dat3 V O B c).before 4 t d)))

/-- and what it returns. -/
def bodyPost3 (c : Dev nD) (t : Fin cfg3.N) : sProp 𝕄 :=
  iprop((dat3 V O B c).Φ t.succ ∗ (dat3 V O B c).owesAt (none : HIx 2) t.succ
    ∗ owns (c : Thread nD τ) (st3_0 t) fullShare ((dat3 V O B c).after 0 t)
    ∗ owns (c : Thread nD τ) (st3_1 t) fullShare ((dat3 V O B c).after 1 t)
    ∗ owns (c : Thread nD τ) (st3_2 t) fullShare ((dat3 V O B c).after 2 t)
    ∗ owns (c : Thread nD τ) (st3_3 t) fullShare ((dat3 V O B c).after 3 t)
    ∗ owns (c : Thread nD τ) (st3_4 t) fullShare ((dat3 V O B c).after 4 t))

/-- The body at any point: the inputs' memrefs hold their blocks, so the body's triple applies; the invariant and what the
    core owes pass through unread. -/
theorem sound_body3 (c : Dev nD) (t : Fin cfg3.N) :
    bodyPre3 V O B c t ⊢ wp frame (wpE (defs₀ (F := F)) Variants.none c none) Set.univ (bodyAt3 t) (fun _ => bodyPost3 V O B c t) := by
  unfold bodyPre3 bodyPost3 bodyAt3
  simp only [before3_0, before3_1, before3_2, before3_3]
  rw [show (dat3 V O B c).Φ t.succ = (dat3 V O B c).Φ t.castSucc from rfl,
    show (dat3 V O B c).owesAt (none : HIx 2) t.succ = (dat3 V O B c).owesAt (none : HIx 2) t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (blk3 V c 0 t) (blk3 V c 1 t) (blk3 V c 2 t) (blk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation3 (c : Dev nD) : BodyObligation (dat3 (F := F) V O B c) (defs₀ (F := F)) Variants.none (none : HIx 2) Set.univ := fun t => by
  rw [bigSep_W3, bigSep_W3]
  exact sound_body3 V O B c t

end Cert.Kernel.Run

end
-- ==== Proof.BReg1.lean ====
/-
  The second gridded region as a step of the main program: entered after both vector-subcore calls, when the TensorCore
  owes the launch nothing more, from all of the TensorCore's unscoped arrays held at a valuation; left with the region's
  five arrays at what its write-backs leave and every other array as it was. The region's arrays are cut out of the held
  arrays at entry and put back at exit; the generator register goes through the body's invariant; the launch's handshake
  state and the TensorCore's own semaphores bypass the region.
-/
import proofs.«207969_g80633716015134_cont_9to1_m_1245_11_alg».proof.Proof.BReg1Body
import proofs.«207969_g80633716015134_cont_9to1_m_1245_11_alg».proof.Proof.BMain
import Idealize.ShloMosaic.Lib.Pipeline.FrameSuffix
import Idealize.ShloMosaic.Lib.Pipeline.RegionsLoop

set_option maxRecDepth 16384

noncomputable section

namespace Cert.Kernel.Run

open Cert.Kernel Cert.Kernel.Gen

open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)
open Idealize.ShloMosaic.StableHlo (held)

variable {F : FTy → Type} [FloatOps F] [∀ e, Nonempty (Elt F e)]

local notation "𝕄" => MT nD τ sig (HIx 2) (Elt F) ℕ UU ℕ

variable (m : (ℓ : Loc nD τ sig) → Buf (Elt F) ℓ)

/-! ## The launch's handshake state of the TensorCore, as what it owes and the rest -/

/-- The TensorCore's handshake state before call n but for what it owes: its position on its done cell, that round
    reached, the sequencers' start rounds reached, the later calls' tokens and credit. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [∀ e, Nonempty (Elt F e)] in
theorem tcSt_eq (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcRest d n) := rfl

/-! ## The arrays at the region's entry and exit -/

section Region

variable (W : Valuation τ sig (Elt F))

/-- The entry valuation read at the TensorCore's references. -/
abbrev VofW : (c : Dev nD) → (b : Ref sig .tc) → Buf (Elt F) ((c : Thread nD τ).loc b) := fun _ b => W b

/-- The recorded waits the launch has the TensorCore at before the region: at or below the second call's band. -/
def B2 (c : Dev nD) : Set (SemLoc sig × HIx 2) := {p | (K (F := F)).lev (SparseCore.T c, p.1) p.2 ≤ 8 * 2}

/-- At the region's exit: its five arrays at what the pipeline leaves (the inputs as entered, the output's write-backs
    folded), every other array as entered. -/
def Wout (c : Dev nD) : Valuation τ sig (Elt F) :=
  Pipeline.withArrays spec3 c W fun w => (dat3 (F := F) (VofW W) 0 (B2 (F := F) c) c).arrAt w cfg3.N

theorem Wout_arr (c : Dev nD) (w : Fin cfg3.W) :
    Wout W c (Proc.devRef .tc (Pipeline.arrRef spec3 w)) = (dat3 (F := F) (VofW W) 0 (B2 (F := F) c) c).arrAt w cfg3.N := by
  unfold Wout; exact Pipeline.withArrays_arr spec3 launch3.win.arr_inj c _ _ w
theorem Wout_of_ne (c : Dev nD) (b : Ref sig .tc) (hb : ∀ w, Pipeline.arrRef spec3 w ≠ b) :
    Wout W c (Proc.devRef .tc b) = W (Proc.devRef .tc b) := by
  unfold Wout; exact Pipeline.withArrays_of_ne spec3 c _ _ b hb

/-- The region writes none of the arrays the calls read nor an argument. -/
theorem keeps_Wout (c : Dev nD) (hK : Keeps m c W) : Keeps m c (Wout W c) := by
  obtain ⟨h1, h2, h3, h4, h5, h6, h7⟩ := hK
  exact ⟨(Wout_of_ne W c main_v5 (by decide)).trans h1, (Wout_of_ne W c main_v7 (by decide)).trans h2, (Wout_of_ne W c main_v10 (by decide)).trans h3,
    (Wout_of_ne W c main_arg0 (by decide)).trans h4, (Wout_of_ne W c main_arg1 (by decide)).trans h5, (Wout_of_ne W c main_arg2 (by decide)).trans h6,
    (Wout_of_ne W c main_arg3 (by decide)).trans h7⟩

/-! ## The proof data family -/

/-- Proof data for the first region while the second runs: never consulted; any data over the same arrays. -/
def dat1' (c : Dev nD) : Dat τ (Elt F) (HIx 2) ℕ UU ℕ cfg1 c where
  A w := VofW W c (Pipeline.arrRef spec1 w)
  after w t := Dat.unnamed w t
  Φ _ := iprop(emp)
  q _ := fullShare
  owed _ := 0

/-- Both pipelines' proof data, a literal match so that the pinned configuration at a numeral reduces to the printed one. -/
def pd2 : (p : Fin 2) → (c : Dev nD) → Dat τ (Elt F) (HIx 2) ℕ UU ℕ (Pipeline.pin (pcfgs (F := F)) adm p) c
  | ⟨0, _⟩ => fun c => dat1' W c
  | ⟨1, _⟩ => fun c => dat3 (VofW W) 0 (B2 (F := F) c) c

/-! ## The region as a step -/

-- a library lemma stated over the pinned configuration unifies with the printed one only when unification may unfold plain
-- definitions in a metavariable's type
set_option backward.isDefEq.respectTransparency.types false in
/-- The second region over the thread state "the launch's handshake state after both calls, every unscoped array at W, the
    generator register and the TensorCore's own semaphores": its five arrays cut out of the held arrays and put back at
    what the pipeline leaves; what the TensorCore owes (nothing, both calls being over) through the pipeline's loop with its
    recorded waits bounded as the launch has them; no semaphore of the kernel's own. -/
def reg1 : Pipeline.RegionSeg (pcfgs (F := F)) adm (pd2 (F := F) W) (none : HIx 2) (defs₀ (F := F)) 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (body_obligation3 (VofW W) 0 (B2 (F := F) c) c).loose
  hwaits := Pipeline.hwaits_of_owed_zero _ _ _ _ (K (F := F)).L (K (F := F)).lev 1 fun _ _ => rfl
  pre c := iprop(⌜Keeps m c W⌝ ∗ (K (F := F)).tcSt EH c 2 ∗ held (SparseCore.T c) (Pipeline.ucRefs τ sig) W ∗ Aux c)
  post c := iprop(⌜Keeps m c W⌝ ∗ (K (F := F)).tcSt EH c 2 ∗ held (SparseCore.T c) (Pipeline.ucRefs τ sig) (Wout W c) ∗ Aux c)
  X c := iprop(∃ r, prngReg c r)
  Y c := iprop(∃ r, prngReg c r)
  Z c := iprop(⌜Keeps m c W⌝ ∗ Pipeline.unscopedRest (Ix := HIx 2) (Name := ℕ) (U := UU) (Lvl := ℕ) spec3 c (VofW W c)
    ∗ tcRest c 2 ∗ (K (F := F)).tcSems0 c)
  hentry c := by
    rw [Pipeline.ownSems0_none]
    have hsplit := Pipeline.arrays_of_unscopedBufs (p := 1) (pcfgs (F := F)) adm (pd2 (F := F) W) launch3.win launch3.arr_whole c
      ((pd2 (F := F) W 1 c).share_full fun _ => rfl) (VofW W c) fun _ => rfl
    rw [Pipeline.unscopedBufs_held] at hsplit
    rw [tcSt_eq, (K (F := F)).Otc_end c (le_refl 2)]
    unfold Aux
    iintro ⟨⟨%hK, ⟨⟨%Wr, %hWr, HO⟩, Hrest⟩, Hub, ⟨Hp, Hsm⟩⟩, -, -⟩
    ihave H := hsplit $$ Hub
    icases H with ⟨Ha, Hur⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wr; isplitr
      · ipureintro; exact fun p hp => Or.inl (hWr p (Finset.mem_coe.mp hp))
      iexact HO
    isplitl [Hp]; · iexact Hp
    isplitr; · ipureintro; exact hK
    isplitl [Hur]; · iexact Hur
    isplitl [Hrest]; · iexact Hrest
    iexact Hsm
  hin c := by
    rw [show (pd2 (F := F) W 1 c).Φ 0 = ΦS c from rfl]; unfold ΦS
    iintro ⟨Hp, -, Hr⟩
    isplitl [Hr]; · iexact Hr
    iexact Hp
  hout c := by
    rw [Pipeline.ownSems0_none, show (pd2 (F := F) W 1 c).Φ (Fin.last _) = ΦS c from rfl]; unfold ΦS
    iintro ⟨Hr, Hp⟩
    isplitl [Hp]; · iexact Hp
    isplitr; · iempintro
    iexact Hr
  hexit c := by
    have hjoin := Pipeline.unscopedBufs_of_arrays (p := 1) (pcfgs (F := F)) adm (Ix := HIx 2) (Name := ℕ) (U := UU) (Lvl := ℕ)
      launch3.win launch3.arr_whole c (pd2 (F := F) W) ((pd2 (F := F) W 1 c).share_full fun _ => rfl)
      (VofW W c) (fun b => Wout W c b) ((pd2 (F := F) W 1 c).arrAt · cfg3.N) (fun w => (Wout_arr W c w).symm)
      (fun b hb => Wout_of_ne W c b fun w e => hb (Finset.mem_image.mpr ⟨w, Finset.mem_univ _, e⟩))
    rw [Pipeline.unscopedBufs_held] at hjoin
    rw [tcSt_eq, (K (F := F)).Otc_end c (le_refl 2)]
    unfold Aux
    iintro ⟨Ha, HO, HY, ⟨%hK, Hur, Hrest, Hsm⟩⟩
    imodintro
    isplitr; · ipureintro; exact hK
    isplitl [HO Hrest]
    · isplitl [HO]
      · unfold Pipeline.Dat.owesAt Pipeline.owesWithin
        icases HO with ⟨%W', %hW', HO⟩; iexists W'; isplitr
        · ipureintro
          intro p hp
          rcases hW' (Finset.mem_coe.mpr hp) with h | ⟨w, s, rfl⟩
          · exact h
          · show (K (F := F)).lev _ none ≤ 8 * 2
            rw [SparseCore.Cfg.lev_none]; omega
        iexact HO
      iexact Hrest
    isplitl [Ha Hur]
    · iapply hjoin; isplitl [Ha] <;> iassumption
    isplitl [HY]; · iexact HY
    iexact Hsm

/-! ## The region's record for the main program -/

/-- The relational form of the proof data the main program's region step takes. -/
abbrev rd1F : (p : Fin 2) → (c : Dev nD) → Pipeline.RDat τ (Elt F) (HIx 2) ℕ UU ℕ (Pipeline.pin (pcfgs (F := F)) adm p) c :=
  Pipeline.Dat.toRs (pd2 (F := F) W)

/-- The record, in the relational kit's form. -/
abbrev R1F : Pipeline.RDat.RegionSeg (pcfgs (F := F)) adm (rd1F (F := F) W) (none : HIx 2) (defs₀ (F := F)) 𝒱₀ (K (F := F)).L (K (F := F)).lev 1 :=
  (reg1 m W).toR

theorem h1pre' (d : Dev nD) (hK : Keeps m d W) :
    iprop((K (F := F)).tcSt EH d 2 ∗ held (SparseCore.T d) (Pipeline.ucRefs τ sig) W ∗ Aux d) ⊢ (R1F m W).pre d := by
  show _ ⊢ iprop(⌜Keeps m d W⌝ ∗ (K (F := F)).tcSt EH d 2 ∗ held (SparseCore.T d) (Pipeline.ucRefs τ sig) W ∗ Aux d)
  iintro H
  isplitr; · ipureintro; exact hK
  iexact H

theorem h1post' (d : Dev nD) :
    (R1F m W).post d ⊢ iprop(∃ W', ⌜Keeps m d W'⌝ ∗ (K (F := F)).tcSt EH d 2 ∗ held (SparseCore.T d) (Pipeline.ucRefs τ sig) W' ∗ Aux d) := by
  show iprop(⌜Keeps m d W⌝ ∗ (K (F := F)).tcSt EH d 2 ∗ held (SparseCore.T d) (Pipeline.ucRefs τ sig) (Wout W d) ∗ Aux d) ⊢ _
  iintro ⟨%hK, H⟩
  iexists (Wout W d)
  isplitr; · ipureintro; exact keeps_Wout m W d hK
  iexact H

end Region

end Cert.Kernel.Run

end
-- ==== Proof.BReg0.lean ====
/-
  The first gridded region as a step of the main program: entered between the two vector-subcore calls, while the
  TensorCore still owes the second call's start signals, from all of the TensorCore's unscoped arrays held at a valuation;
  left with the region's six arrays at what its write-backs leave and every other array as it was. The region's arrays are
  cut out of the held arrays at entry and put back at exit; the generator register goes through the body's invariant; what
  the TensorCore owes passes through the pipeline's loop unchanged, every wait of the loop being on a staging cell at the
  kernels' own index, which sits below every call's; the rest of the launch's handshake state and the TensorCore's own
  semaphores bypass the region.
-/
import proofs.«207969_g80633716015134_cont_9to1_m_1245_11_alg».proof.Proof.BReg0Body
import proofs.«207969_g80633716015134_cont_9to1_m_1245_11_alg».proof.Proof.BReg1
import proofs.«207969_g80633716015134_cont_9to1_m_1245_11_alg».proof.Proof.BMain
import Idealize.ShloMosaic.Lib.Pipeline.FrameSuffix
import Idealize.ShloMosaic.Lib.Pipeline.RegionsLoop

set_option maxRecDepth 16384

noncomputable section

namespace Cert.Kernel.Run

open Cert.Kernel Cert.Kernel.Gen

open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)
open Idealize.ShloMosaic.StableHlo (held)

variable {F : FTy → Type} [FloatOps F] [∀ e, Nonempty (Elt F e)]

local notation "𝕄" => MT nD τ sig (HIx 2) (Elt F) ℕ UU ℕ

variable (m : (ℓ : Loc nD τ sig) → Buf (Elt F) ℓ)

/-! ## What the TensorCore owes the launch is all at a call's index -/

omit [∀ e, Nonempty (Elt F e)] in
/-- Before any call the TensorCore owes start signals only, each at its call's index: nothing at the kernels' own index. -/
theorem Otc_none (d : Dev nD) (n : ℕ) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    rw [tallyAt_apply, if_neg (by rintro ⟨-, h⟩; cases h)]
  · rfl

/-! ## The arrays at the region's entry and exit -/

section Region

variable (W : Valuation τ sig (Elt F))

/-- The recorded waits the launch has the TensorCore at before the region: at or below the first call's band. -/
def B1 (c : Dev nD) : Set (SemLoc sig × HIx 2) := {p | (K (F := F)).lev (SparseCore.T c, p.1) p.2 ≤ 8 * 1}

/-- At the region's exit: its six arrays at what the pipeline leaves (the inputs as entered, the outputs' write-backs
    folded), every other array as entered. -/
def Wout0 (c : Dev nD) : Valuation τ sig (Elt F) :=
  Pipeline.withArrays spec1 c W fun w => (dat1 (F := F) (VofW W) ((K (F := F)).Otc c 1) (B1 (F := F) c) c).arrAt w cfg1.N

theorem Wout0_arr (c : Dev nD) (w : Fin cfg1.W) :
    Wout0 W c (Proc.devRef .tc (Pipeline.arrRef spec1 w))
      = (dat1 (F := F) (VofW W) ((K (F := F)).Otc c 1) (B1 (F := F) c) c).arrAt w cfg1.N := by
  unfold Wout0; exact Pipeline.withArrays_arr spec1 launch1.win.arr_inj c _ _ w
theorem Wout0_of_ne (c : Dev nD) (b : Ref sig .tc) (hb : ∀ w, Pipeline.arrRef spec1 w ≠ b) :
    Wout0 W c (Proc.devRef .tc b) = W (Proc.devRef .tc b) := by
  unfold Wout0; exact Pipeline.withArrays_of_ne spec1 c _ _ b hb

/-- The region writes none of the arrays the calls read nor an argument. -/
theorem keeps_Wout0 (c : Dev nD) (hK : Keeps m c W) : Keeps m c (Wout0 W c) := by
  obtain ⟨h1, h2, h3, h4, h5, h6, h7⟩ := hK
  exact ⟨(Wout0_of_ne W c main_v5 (by decide)).trans h1, (Wout0_of_ne W c main_v7 (by decide)).trans h2, (Wout0_of_ne W c main_v10 (by decide)).trans h3,
    (Wout0_of_ne W c main_arg0 (by decide)).trans h4, (Wout0_of_ne W c main_arg1 (by decide)).trans h5, (Wout0_of_ne W c main_arg2 (by decide)).trans h6,
    (Wout0_of_ne W c main_arg3 (by decide)).trans h7⟩

/-! ## The proof data family -/

/-- Proof data for the second region while the first runs: never consulted; any data over the same arrays. -/
def dat3' (c : Dev nD) : Dat τ (Elt F) (HIx 2) ℕ UU ℕ cfg3 c where
  A w := VofW W c (Pipeline.arrRef spec3 w)
  after w t := Dat.unnamed w t
  Φ _ := iprop(emp)
  q _ := fullShare
  owed _ := 0

/-- Both pipelines' proof data, a literal match so that the pinned configuration at a numeral reduces to the printed one. -/
def pd0 : (p : Fin 2) → (c : Dev nD) → Dat τ (Elt F) (HIx 2) ℕ UU ℕ (Pipeline.pin (pcfgs (F := F)) adm p) c
  | ⟨0, _⟩ => fun c => dat1 (VofW W) ((K (F := F)).Otc c 1) (B1 (F := F) c) c
  | ⟨1, _⟩ => fun c => dat3' W c

/-! ## The region as a step -/

-- a library lemma stated over the pinned configuration unifies with the printed one only when unification may unfold plain
-- definitions in a metavariable's type
set_option backward.isDefEq.respectTransparency.types false in
/-- The first region over the thread state "the launch's handshake state between the two calls, every unscoped array at W,
    the generator register and the TensorCore's own semaphores": its six arrays cut out of the held arrays and put back at
    what the pipeline leaves; what the TensorCore owes (the second call's start signals) through the pipeline's loop
    unchanged, its recorded waits bounded as the launch has them; no semaphore of the kernel's own. -/
def reg0 : Pipeline.RegionSeg (pcfgs (F := F)) adm (pd0 (F := F) W) (none : HIx 2) (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 (VofW W) ((K (F := F)).Otc c 1) (B1 (F := F) c) c).loose
  hwaits c := Pipeline.cellsWaits_intro (Pipeline.pin (pcfgs (F := F)) adm) (pd0 (F := F) W) (none : HIx 2) 0 c
    fun w s t => (K (F := F)).mayWait_none (.dma _) (Otc_none c 1)
  pre c := iprop(⌜Keeps m c W⌝ ∗ (K (F := F)).tcSt EH c 1 ∗ held (SparseCore.T c) (Pipeline.ucRefs τ sig) W ∗ Aux c)
  post c := iprop(⌜Keeps m c W⌝ ∗ (K (F := F)).tcSt EH c 1 ∗ held (SparseCore.T c) (Pipeline.ucRefs τ sig) (Wout0 W c) ∗ Aux c)
  X c := iprop(∃ r, prngReg c r)
  Y c := iprop(∃ r, prngReg c r)
  Z c := iprop(⌜Keeps m c W⌝ ∗ Pipeline.unscopedRest (Ix := HIx 2) (Name := ℕ) (U := UU) (Lvl := ℕ) spec1 c (VofW W c)
    ∗ tcRest c 1 ∗ (K (F := F)).tcSems0 c)
  hentry c := by
    rw [Pipeline.ownSems0_none]
    have hsplit := Pipeline.arrays_of_unscopedBufs (p := 0) (pcfgs (F := F)) adm (pd0 (F := F) W) launch1.win launch1.arr_whole c
      ((pd0 (F := F) W 0 c).share_full fun _ => rfl) (VofW W c) fun _ => rfl
    rw [Pipeline.unscopedBufs_held] at hsplit
    rw [tcSt_eq]
    unfold Aux
    iintro ⟨⟨%hK, ⟨⟨%Wr, %hWr, HO⟩, Hrest⟩, Hub, ⟨Hp, Hsm⟩⟩, -, -⟩
    ihave H := hsplit $$ Hub
    icases H with ⟨Ha, Hur⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wr; isplitr
      · ipureintro; exact fun p hp => Or.inl (hWr p (Finset.mem_coe.mp hp))
      iexact HO
    isplitl [Hp]; · iexact Hp
    isplitr; · ipureintro; exact hK
    isplitl [Hur]; · iexact Hur
    isplitl [Hrest]; · iexact Hrest
    iexact Hsm
  hin c := by
    rw [show (pd0 (F := F) W 0 c).Φ 0 = ΦS1 c from rfl]; unfold ΦS1
    iintro ⟨Hp, -, Hr⟩
    isplitl [Hr]; · iexact Hr
    iexact Hp
  hout c := by
    rw [Pipeline.ownSems0_none, show (pd0 (F := F) W 0 c).Φ (Fin.last _) = ΦS1 c from rfl]; unfold ΦS1
    iintro ⟨Hr, Hp⟩
    isplitl [Hp]; · iexact Hp
    isplitr; · iempintro
    iexact Hr
  hexit c := by
    have hjoin := Pipeline.unscopedBufs_of_arrays (p := 0) (pcfgs (F := F)) adm (Ix := HIx 2) (Name := ℕ) (U := UU) (Lvl := ℕ)
      launch1.win launch1.arr_whole c (pd0 (F := F) W) ((pd0 (F := F) W 0 c).share_full fun _ => rfl)
      (VofW W c) (fun b => Wout0 W c b) ((pd0 (F := F) W 0 c).arrAt · cfg1.N) (fun w => (Wout0_arr W c w).symm)
      (fun b hb => Wout0_of_ne W c b fun w e => hb (Finset.mem_image.mpr ⟨w, Finset.mem_univ _, e⟩))
    rw [Pipeline.unscopedBufs_held] at hjoin
    rw [tcSt_eq]
    unfold Aux
    iintro ⟨Ha, HO, HY, ⟨%hK, Hur, Hrest, Hsm⟩⟩
    imodintro
    isplitr; · ipureintro; exact hK
    isplitl [HO Hrest]
    · isplitl [HO]
      · unfold Pipeline.Dat.owesAt Pipeline.owesWithin
        icases HO with ⟨%W', %hW', HO⟩; iexists W'; isplitr
        · ipureintro
          intro p hp
          rcases hW' (Finset.mem_coe.mpr hp) with h | ⟨w, s, rfl⟩
          · exact h
          · show (K (F := F)).lev _ none ≤ 8 * 1
            rw [SparseCore.Cfg.lev_none]; omega
        iexact HO
      iexact Hrest
    isplitl [Ha Hur]
    · iapply hjoin; isplitl [Ha] <;> iassumption
    isplitl [HY]; · iexact HY
    iexact Hsm

/-! ## The region's record for the main program -/

/-- The relational form of the proof data the main program's region step takes. -/
abbrev rd0F : (p : Fin 2) → (c : Dev nD) → Pipeline.RDat τ (Elt F) (HIx 2) ℕ UU ℕ (Pipeline.pin (pcfgs (F := F)) adm p) c :=
  Pipeline.Dat.toRs (pd0 (F := F) W)

/-- The record, in the relational kit's form. -/
abbrev R0F : Pipeline.RDat.RegionSeg (pcfgs (F := F)) adm (rd0F (F := F) W) (none : HIx 2) (defs₀ (F := F)) 𝒱₀ (K (F := F)).L (K (F := F)).lev 0 :=
  (reg0 m W).toR

theorem h0pre' (d : Dev nD) (hK : Keeps m d W) :
    iprop((K (F := F)).tcSt EH d 1 ∗ held (SparseCore.T d) (Pipeline.ucRefs τ sig) W ∗ Aux d) ⊢ (R0F m W).pre d := by
  show _ ⊢ iprop(⌜Keeps m d W⌝ ∗ (K (F := F)).tcSt EH d 1 ∗ held (SparseCore.T d) (Pipeline.ucRefs τ sig) W ∗ Aux d)
  iintro H
  isplitr; · ipureintro; exact hK
  iexact H

theorem h0post' (d : Dev nD) :
    (R0F m W).post d ⊢ iprop(∃ W', ⌜Keeps m d W'⌝ ∗ (K (F := F)).tcSt EH d 1 ∗ held (SparseCore.T d) (Pipeline.ucRefs τ sig) W' ∗ Aux d) := by
  show iprop(⌜Keeps m d W⌝ ∗ (K (F := F)).tcSt EH d 1 ∗ held (SparseCore.T d) (Pipeline.ucRefs τ sig) (Wout0 W d) ∗ Aux d) ⊢ _
  iintro ⟨%hK, H⟩
  iexists (Wout0 W d)
  isplitr; · ipureintro; exact keeps_Wout0 m W d hK
  iexact H

end Region

end Cert.Kernel.Run

end
-- ==== Proof.BClaims.lean ====
/-
  The frame claim of the kernel program: under the input-domain precondition every weakly fair execution of its thirty-five
  threads terminates, nothing faulting, and the four arguments end unchanged.
-/
import proofs.«207969_g80633716015134_cont_9to1_m_1245_11_alg».proof.Defs
import proofs.«207969_g80633716015134_cont_9to1_m_1245_11_alg».proof.Proof.BFrame
import proofs.«207969_g80633716015134_cont_9to1_m_1245_11_alg».proof.Proof.BRange
import proofs.«207969_g80633716015134_cont_9to1_m_1245_11_alg».proof.Proof.BTile0
import proofs.«207969_g80633716015134_cont_9to1_m_1245_11_alg».proof.Proof.BTile1
import proofs.«207969_g80633716015134_cont_9to1_m_1245_11_alg».proof.Proof.BReg0
import proofs.«207969_g80633716015134_cont_9to1_m_1245_11_alg».proof.Proof.BReg1

noncomputable section

namespace Cert.Kernel.Run

open Cert.Kernel Cert.Kernel.Gen
open Idealize.ShloMosaic Idealize.SL.Sem

/-- The kernel program's run with the arguments unchanged, at any float instance, from the precondition: the launch of the
    two calls over the main program, each call's task at a symbolic worker, each gridded region as a step of the main
    program, and the index arrays' words in range. -/
theorem run_args_of_pre {F : FTy → Type} [FloatOps F] [∀ e, Nonempty (Elt F e)]
    (m : (ℓ : Loc nD τ sig) → Buf (Elt F) ℓ) (ρ : Dev nD → PrngReg) (hpre : PreOK m) :
    θ_run (Cert.Kernel.defs (F := F)) (Cert.Kernel.threads (F := F)) ⟨m, fun _ => 0, ρ⟩ (fun r => ∀ c : Dev nD,
      r.2.mem (a0Loc c) = m (a0Loc c) ∧ r.2.mem (a1Loc c) = m (a1Loc c) ∧ r.2.mem (a2Loc c) = m (a2Loc c) ∧ r.2.mem (a3Loc c) = m (a3Loc c)) :=
  run_args m ρ (fun W => rd0F (F := F) W) (fun W => rd1F (F := F) W) (fun W => R0F m W) (fun W => R1F m W)
    (tileObl0 (fs m) (fd m) (fz m) (fun d j => fd_range m hpre d j))
    (tileObl1 (fs m) (fd m) (fz m) (fun d j => fs_range m hpre d j) (fun d j => fd_range m hpre d j))
    (fun d W hK => h0pre' m W d hK) (fun d W => h0post' m W d) (fun d W hK => h1pre' m W d hK) (fun d W => h1post' m W d)

end Cert.Kernel.Run

end
-- ==== Proof.RefOps.lean ====
import proofs.«207969_g80633716015134_cont_9to1_m_1245_11_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference as one straight line of eighty operations, every outlined function written out at its call over
    that call's buffers: the degree count (a scatter-add of the non-self-loop flags at the wrapped destination
    indices, plus one), its lower clip at one (three operations), the features divided by the square root of the
    degree and multiplied by the transposed weights, the row gather at the wrapped source indices with its
    in-range mask (twenty-three operations, the index select among them), the self-loop mask (four), the
    scatter-add of the messages at the wrapped destination indices, the self-loop term, the second division by
    the square root of the degree, the bias, and the maximum with zero (three). -/
abbrev ops : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    binary main_v1 main_v3 main_v4 (cmpi .ne : (⟨S320000, .i32⟩ : BufTy).Contents (Elt F) → (⟨S320000, .i32⟩ : BufTy).Contents (Elt F) → (⟨S320000, .i1⟩ : BufTy).Contents (Elt F)),
    nullary main_cst (constant S_ .f32 0x00000000#32),
    unary main_cst main_v5 (broadcastInDim S10000 ![] bcast_S_S10000 : (⟨S_, .f32⟩ : BufTy).Contents (Elt F) → (⟨S10000, .f32⟩ : BufTy).Contents (Elt F)),
    unary main_v4 main_v6 (uitofp .f32 : (⟨S320000, .i1⟩ : BufTy).Contents (Elt F) → (⟨S320000, .f32⟩ : BufTy).Contents (Elt F)),
    nullary main_c (constantI S_ 32 0#32),
    unary main_c main_v7 (broadcastInDim S320000 ![] bcast_S_S320000 : (⟨S_, .i32⟩ : BufTy).Contents (Elt F) → (⟨S320000, .i32⟩ : BufTy).Contents (Elt F)),
    binary main_v3 main_v7 main_v8 (cmpi .slt : (⟨S320000, .i32⟩ : BufTy).Contents (Elt F) → (⟨S320000, .i32⟩ : BufTy).Contents (Elt F) → (⟨S320000, .i1⟩ : BufTy).Contents (Elt F)),
    nullary main_c_0 (constantI S_ 32 10000#32),
    unary main_c_0 main_v9 (broadcastInDim S320000 ![] bcast_S_S320000 : (⟨S_, .i32⟩ : BufTy).Contents (Elt F) → (⟨S320000, .i32⟩ : BufTy).Contents (Elt F)),
    binary main_v3 main_v9 main_v10 (addi : (⟨S320000, .i32⟩ : BufTy).Contents (Elt F) → (⟨S320000, .i32⟩ : BufTy).Contents (Elt F) → (⟨S320000, .i32⟩ : BufTy).Contents (Elt F)),
    ternary main_v8 main_v10 main_v3 main_v11 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v11 main_v12 (broadcastInDim S320000x1 ![0] bcast_S320000_S320000x1_0 : (⟨S320000, .i32⟩ : BufTy).Contents (Elt F) → (⟨S320000x1, .i32⟩ : BufTy).Contents (Elt F)),
    ternary main_v5 main_v12 main_v6 main_v13 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_1 (constant S_ .f32 0x3F800000#32),
    unary main_cst_1 main_v14 (broadcastInDim S10000 ![] bcast_S_S10000 : (⟨S_, .f32⟩ : BufTy).Contents (Elt F) → (⟨S10000, .f32⟩ : BufTy).Contents (Elt F)),
    binary main_v13 main_v14 main_v15 (addf : (⟨S10000, .f32⟩ : BufTy).Contents (Elt F) → (⟨S10000, .f32⟩ : BufTy).Contents (Elt F) → (⟨S10000, .f32⟩ : BufTy).Contents (Elt F)),
    nullary main_cst_2 (constant S_ .f32 0x3F800000#32),
    TRef.unary (.of main_cst_2 : TRef sig ⟨S_, .f32⟩) main_call0.v0 id,
    TRef.unary main_call0.v0 main_call0.v1 (broadcastInDim S10000 ![] bcast_S_S10000),
    TRef.binary main_call0.v1 (.of main_v15 : TRef sig ⟨S10000, .f32⟩) main_call0.v2 maximumf,
    unary main_v16 main_v17 (broadcastInDim S10000x1 ![0] bcast_S10000_S10000x1_0 : (⟨S10000, .f32⟩ : BufTy).Contents (Elt F) → (⟨S10000x1, .f32⟩ : BufTy).Contents (Elt F)),
    unary main_v17 main_v18 (Host.sqrt : (⟨S10000x1, .f32⟩ : BufTy).Contents (Elt F) → (⟨S10000x1, .f32⟩ : BufTy).Contents (Elt F)),
    unary main_v18 main_v19 (broadcastInDim S10000x128 ![0, 1] bcast_S10000x1_S10000x128_0_1 : (⟨S10000x1, .f32⟩ : BufTy).Contents (Elt F) → (⟨S10000x128, .f32⟩ : BufTy).Contents (Elt F)),
    binary main_arg0 main_v19 main_v20 (Host.divf : (⟨S10000x128, .f32⟩ : BufTy).Contents (Elt F) → (⟨S10000x128, .f32⟩ : BufTy).Contents (Elt F) → (⟨S10000x128, .f32⟩ : BufTy).Contents (Elt F)),
    unary main_arg2 main_v21 ((transpose S128x128 [1, 0] · transposes_S128x128_S128x128_1_0) : (⟨S128x128, .f32⟩ : BufTy).Contents (Elt F) → (⟨S128x128, .f32⟩ : BufTy).Contents (Elt F)),
    binary main_v20 main_v21 main_v22 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_v4 main_v23 (broadcastInDim S320000x1 ![0] bcast_S320000_S320000x1_0 : (⟨S320000, .i1⟩ : BufTy).Contents (Elt F) → (⟨S320000x1, .i1⟩ : BufTy).Contents (Elt F)),
    TRef.nullary main_call1.c (constantI S_ 32 0#32),
    TRef.unary main_call1.c main_call1.v0 (broadcastInDim S320000 ![] bcast_S_S320000),
    TRef.binary (.of main_v1 : TRef sig ⟨S320000, .i32⟩) main_call1.v0 main_call1.v1 (cmpi .slt),
    TRef.nullary main_call1.c_0 (constantI S_ 32 10000#32),
    TRef.unary main_call1.c_0 main_call1.v2 (broadcastInDim S320000 ![] bcast_S_S320000),
    TRef.binary (.of main_v1 : TRef sig ⟨S320000, .i32⟩) main_call1.v2 main_call1.v3 addi,
    TRef.ternary main_call1.v1 main_call1.v3 (.of main_v1 : TRef sig ⟨S320000, .i32⟩) main_call1.call0.v0 select,
    TRef.unary main_call1.call0.v0 main_call1.v5 (broadcastInDim S320000x1 ![0] bcast_S320000_S320000x1_0),
    TRef.nullary main_call1.c_1 (constantI S1 32 9999#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (.of main_v22 : TRef sig ⟨S10000x128, .f32⟩) main_call1.v5 main_call1.v13 (fun x i => Host.gather gather_S10000x128_S320000x1_S320000x128_1_0_n_n_0_1_1128 x i),
    TRef.unary main_call1.v12 main_call1.v14 (broadcastInDim S320000x128 ![0] bcast_S320000_S320000x128_0),
    TRef.nullary main_call1.cst (constant S_ .f32 0x7FC00000#32),
    TRef.unary main_call1.cst main_call1.v15 (broadcastInDim S320000x128 ![] bcast_S_S320000x128),
    TRef.ternary main_call1.v14 main_call1.v13 main_call1.v15 main_call1.v16 select,
    nullary main_cst_3 (constant S_ .f32 0x00000000#32),
    TRef.unary (.of main_cst_3 : TRef sig ⟨S_, .f32⟩) main_call2.v0 id,
    TRef.unary (.of main_v23 : TRef sig ⟨S320000x1, .i1⟩) main_call2.v1 (broadcastInDim S320000x128 ![0, 1] bcast_S320000x1_S320000x128_0_1),
    TRef.unary main_call2.v0 main_call2.v2 (broadcastInDim S320000x128 ![] bcast_S_S320000x128),
    TRef.ternary main_call2.v1 (.of main_v24 : TRef sig ⟨S320000x128, .f32⟩) main_call2.v2 main_call2.v3 select,
    nullary main_cst_4 (constant S_ .f32 0x00000000#32),
    unary main_cst_4 main_v26 (broadcastInDim S10000x128 ![] bcast_S_S10000x128 : (⟨S_, .f32⟩ : BufTy).Contents (Elt F) → (⟨S10000x128, .f32⟩ : BufTy).Contents (Elt F)),
    nullary main_c_5 (constantI S_ 32 0#32),
    unary main_c_5 main_v27 (broadcastInDim S320000 ![] bcast_S_S320000 : (⟨S_, .i32⟩ : BufTy).Contents (Elt F) → (⟨S320000, .i32⟩ : BufTy).Contents (Elt F)),
    binary main_v3 main_v27 main_v28 (cmpi .slt : (⟨S320000, .i32⟩ : BufTy).Contents (Elt F) → (⟨S320000, .i32⟩ : BufTy).Contents (Elt F) → (⟨S320000, .i1⟩ : BufTy).Contents (Elt F)),
    nullary main_c_6 (constantI S_ 32 10000#32),
    unary main_c_6 main_v29 (broadcastInDim S320000 ![] bcast_S_S320000 : (⟨S_, .i32⟩ : BufTy).Contents (Elt F) → (⟨S320000, .i32⟩ : BufTy).Contents (Elt F)),
    binary main_v3 main_v29 main_v30 (addi : (⟨S320000, .i32⟩ : BufTy).Contents (Elt F) → (⟨S320000, .i32⟩ : BufTy).Contents (Elt F) → (⟨S320000, .i32⟩ : BufTy).Contents (Elt F)),
    ternary main_v28 main_v30 main_v3 main_v31 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v31 main_v32 (broadcastInDim S320000x1 ![0] bcast_S320000_S320000x1_0 : (⟨S320000, .i32⟩ : BufTy).Contents (Elt F) → (⟨S320000x1, .i32⟩ : BufTy).Contents (Elt F)),
    ternary main_v26 main_v32 main_v25 main_v33 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    binary main_v33 main_v22 main_v34 (addf : (⟨S10000x128, .f32⟩ : BufTy).Contents (Elt F) → (⟨S10000x128, .f32⟩ : BufTy).Contents (Elt F) → (⟨S10000x128, .f32⟩ : BufTy).Contents (Elt F)),
    unary main_v17 main_v35 (Host.sqrt : (⟨S10000x1, .f32⟩ : BufTy).Contents (Elt F) → (⟨S10000x1, .f32⟩ : BufTy).Contents (Elt F)),
    unary main_v35 main_v36 (broadcastInDim S10000x128 ![0, 1] bcast_S10000x1_S10000x128_0_1 : (⟨S10000x1, .f32⟩ : BufTy).Contents (Elt F) → (⟨S10000x128, .f32⟩ : BufTy).Contents (Elt F)),
    binary main_v34 main_v36 main_v37 (Host.divf : (⟨S10000x128, .f32⟩ : BufTy).Contents (Elt F) → (⟨S10000x128, .f32⟩ : BufTy).Contents (Elt F) → (⟨S10000x128, .f32⟩ : BufTy).Contents (Elt F)),
    unary main_arg3 main_v38 (broadcastInDim S1x128 ![1] bcast_S128_S1x128_1 : (⟨S128, .f32⟩ : BufTy).Contents (Elt F) → (⟨S1x128, .f32⟩ : BufTy).Contents (Elt F)),
    unary main_v38 main_v39 (broadcastInDim S10000x128 ![0, 1] bcast_S1x128_S10000x128_0_1 : (⟨S1x128, .f32⟩ : BufTy).Contents (Elt F) → (⟨S10000x128, .f32⟩ : BufTy).Contents (Elt F)),
    binary main_v37 main_v39 main_v40 (addf : (⟨S10000x128, .f32⟩ : BufTy).Contents (Elt F) → (⟨S10000x128, .f32⟩ : BufTy).Contents (Elt F) → (⟨S10000x128, .f32⟩ : BufTy).Contents (Elt F)),
    TRef.nullary main_call3.cst (constant S_ .f32 0x00000000#32),
    TRef.unary main_call3.cst main_call3.v0 (broadcastInDim S10000x128 ![] bcast_S_S10000x128),
    TRef.binary (.of main_v40 : TRef sig ⟨S10000x128, .f32⟩) main_call3.v0 main_call3.v1 maximumf ]

/-- The program is that straight line: each outlined function's body, unfolded at its call over that call's buffer
    record, is its operations in order, and sequencing a chain of steps after another grafts the second onto the
    first's end by computation — both sides are the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub ..,
    unary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., nullary_bufs_sub ..,
    unary_bufs_sub .., binary_bufs_sub .., nullary_bufs_sub .., unary_bufs_sub .., unary_bufs_sub .., binary_bufs_sub ..,
    unary_bufs_sub .., unary_bufs_sub .., unary_bufs_sub .., binary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., unary_bufs_sub .., unary_bufs_sub .., unary_bufs_sub .., ternary_bufs_sub .., nullary_bufs_sub ..,
    unary_bufs_sub .., nullary_bufs_sub .., unary_bufs_sub .., binary_bufs_sub .., nullary_bufs_sub .., unary_bufs_sub ..,
    binary_bufs_sub .., ternary_bufs_sub .., unary_bufs_sub .., ternary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub ..⟩

/-- On every device, for any float values, from any memory with zero counters: every weakly fair execution of the
    program terminates, and every buffer ends at the fold of the eighty operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRun.lean ====
import Idealize.ShloMosaic.PureOps.Ideal
import proofs.«207969_g80633716015134_cont_9to1_m_1245_11_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The layer as one term of its four arguments, in named stages

All floats are extended reals and every operation is exact. `x` is the 10000×128 feature array, `ei` the 2×320000
edge list (row 0 the sources, row 1 the destinations), `w` the 128×128 weights, `b` the 128 biases. -/

/-- Row 0 of the edge list: each edge's source node. -/
def srcV (ei : IVec S2x320000 32) : IVec S320000 32 :=
  shapeCast S320000 (extractStridedSlice S1x320000 ![0, 0] ei slices_S2x320000_S1x320000_0_0) shapeCasts_S1x320000_S320000

/-- Row 1 of the edge list: each edge's destination node. -/
def dstV (ei : IVec S2x320000 32) : IVec S320000 32 :=
  shapeCast S320000 (extractStridedSlice S1x320000 ![1, 0] ei slices_S2x320000_S1x320000_1_0) shapeCasts_S1x320000_S320000

/-- The flag of each edge: 1 where source and destination differ (the edge is no self-loop). -/
def neV (ei : IVec S2x320000 32) : IVec S320000 1 := cmpi .ne (srcV ei) (dstV ei)

/-- A node index with a negative value wrapped once: i + 10000 where i < 0, else i. -/
def wrapV (d : IVec S320000 32) : IVec S320000 32 :=
  select (cmpi .slt d (broadcastInDim S320000 ![] bcast_S_S320000 (constantI S_ 32 0#32)))
    (addi d (broadcastInDim S320000 ![] bcast_S_S320000 (constantI S_ 32 10000#32))) d

/-- An index list as a column: the 320000×1 array of start indices a gather or scatter takes. -/
def colV (d : IVec S320000 32) : IVec S320000x1 32 := broadcastInDim S320000x1 ![0] bcast_S320000_S320000x1_0 d

/-- The count of non-self-loop edges into each node: zero plus the edge flags (as 0 or 1) accumulated at the
    wrapped destinations. -/
def cntV (ei : IVec S2x320000 32) : FVec Ideal S10000 .f32 :=
  Host.scatterAdd (F := Ideal) scatter_S10000_S320000x1_S320000_n_0_0_1
    (broadcastInDim S10000 ![] bcast_S_S10000 (constant (F := Ideal) S_ .f32 0x00000000#32))
    (colV (wrapV (dstV ei))) (uitofp (F := Ideal) .f32 (neV ei))

/-- The degree: the count plus one (the added self-loop), clipped below at one. -/
def degV (ei : IVec S2x320000 32) : FVec Ideal S10000 .f32 :=
  maximumf (F := Ideal) (broadcastInDim S10000 ![] bcast_S_S10000 (constant (F := Ideal) S_ .f32 0x3F800000#32))
    (addf (F := Ideal) (cntV ei) (broadcastInDim S10000 ![] bcast_S_S10000 (constant (F := Ideal) S_ .f32 0x3F800000#32)))

/-- The degree as a 10000×1 column. -/
def degColV (ei : IVec S2x320000 32) : FVec Ideal S10000x1 .f32 :=
  broadcastInDim S10000x1 ![0] bcast_S10000_S10000x1_0 (degV ei)

/-- The square root of the degree, repeated along each row of a 10000×128 array. -/
def sqrtDegV (ei : IVec S2x320000 32) : FVec Ideal S10000x128 .f32 :=
  broadcastInDim S10000x128 ![0, 1] bcast_S10000x1_S10000x128_0_1 (Host.sqrt (F := Ideal) (degColV ei))

/-- The linear map: the features divided by the square root of the degree, times the transposed weights. -/
def hV (x : FVec Ideal S10000x128 .f32) (ei : IVec S2x320000 32) (w : FVec Ideal S128x128 .f32) : FVec Ideal S10000x128 .f32 :=
  Host.dotGeneral (F := Ideal) dot_S10000x128_S128x128_S10000x128_1_0_0_1_n_n none
    (Host.divf (F := Ideal) x (sqrtDegV ei)) (transpose S128x128 [1, 0] w transposes_S128x128_S128x128_1_0)

/-- The flag of each start index: 1 where 0 ≤ i ≤ 9999 (the and over the one entry of its row). -/
def inRangeV (i : IVec S320000x1 32) : IVec S320000 1 :=
  Host.reduce IntOp.andi
    (andi (cmpi .sge i (broadcastInDim S320000x1 ![] bcast_S_S320000x1 (constantI S_ 32 0#32)))
      (cmpi .sle i (broadcastInDim S320000x1 ![0, 1] bcast_S1x1_S320000x1_0_1
        (broadcastInDim S1x1 ![1] bcast_S1_S1x1_1 (constantI S1 32 9999#32)))))
    (constantI S_ 1 1#1) reducesTo_S320000x1_S320000_d1 h_S_

/-- Taking rows: row e is the row of `h` at the wrapped index `s e` where that is in range, and the word
    0x7FC00000's value elsewhere. -/
def takeV (h : FVec Ideal S10000x128 .f32) (s : IVec S320000 32) : FVec Ideal S320000x128 .f32 :=
  select (broadcastInDim S320000x128 ![0] bcast_S320000_S320000x128_0 (inRangeV (colV (wrapV s))))
    (Host.gather gather_S10000x128_S320000x1_S320000x128_1_0_n_n_0_1_1128 h (colV (wrapV s)))
    (broadcastInDim S320000x128 ![] bcast_S_S320000x128 (constant (F := Ideal) S_ .f32 0x7FC00000#32))

/-- The messages: edge e carries the row of the linear map at its source, or zero where it is a self-loop. -/
def msgV (x : FVec Ideal S10000x128 .f32) (ei : IVec S2x320000 32) (w : FVec Ideal S128x128 .f32) : FVec Ideal S320000x128 .f32 :=
  select (broadcastInDim S320000x128 ![0, 1] bcast_S320000x1_S320000x128_0_1
      (broadcastInDim S320000x1 ![0] bcast_S320000_S320000x1_0 (neV ei)))
    (takeV (hV x ei w) (srcV ei))
    (broadcastInDim S320000x128 ![] bcast_S_S320000x128 (constant (F := Ideal) S_ .f32 0x00000000#32))

/-- The aggregation: zero plus the messages accumulated at the wrapped destinations, plus the node's own row (the
    added self-loop). -/
def aggV (x : FVec Ideal S10000x128 .f32) (ei : IVec S2x320000 32) (w : FVec Ideal S128x128 .f32) : FVec Ideal S10000x128 .f32 :=
  addf (F := Ideal)
    (Host.scatterAdd (F := Ideal) scatter_S10000x128_S320000x1_S320000x128_1_0_0_1
      (broadcastInDim S10000x128 ![] bcast_S_S10000x128 (constant (F := Ideal) S_ .f32 0x00000000#32))
      (colV (wrapV (dstV ei))) (msgV x ei w))
    (hV x ei w)

/-- The layer's output: the aggregation divided by the square root of the degree, plus the bias along each row,
    and the maximum of that with zero. -/
def result (x : FVec Ideal S10000x128 .f32) (ei : IVec S2x320000 32) (w : FVec Ideal S128x128 .f32) (b : FVec Ideal S128 .f32) :
    FVec Ideal S10000x128 .f32 :=
  maximumf (F := Ideal)
    (addf (F := Ideal) (Host.divf (F := Ideal) (aggV x ei w) (sqrtDegV ei))
      (broadcastInDim S10000x128 ![0, 1] bcast_S1x128_S10000x128_0_1 (broadcastInDim S1x128 ![1] bcast_S128_S1x128_1 b)))
    (broadcastInDim S10000x128 ![] bcast_S_S10000x128 (constant (F := Ideal) S_ .f32 0x00000000#32))

/-! ## The fold of the eighty operations at the result and at the arguments -/

attribute [local irreducible] Host.reduce Host.gather Host.scatterAdd in
set_option maxRecDepth 16384 in
/-- After the eighty operations the result buffer holds `result` of the four arguments' contents: each operation's
    value at its own buffer is its function of its operands' values, and the typed references of the outlined
    functions move contents along an equation of a type with itself. -/
theorem out_eq (V : Valuation τ sig (Elt Ideal)) :
    after (ops (F := Ideal)) V (main_v41 : DevRef τ sig)
      = result (V (main_arg0 : DevRef τ sig)) (V (main_arg1 : DevRef τ sig)) (V (main_arg2 : DevRef τ sig))
          (V (main_arg3 : DevRef τ sig)) := by
  after_results_simp
  rfl

/-- No operation writes an argument's buffer. -/
theorem arg0_eq (V : Valuation τ sig (Elt Ideal)) :
    after (ops (F := Ideal)) V (main_arg0 : DevRef τ sig) = V (main_arg0 : DevRef τ sig) := by after_results_simp
theorem arg1_eq (V : Valuation τ sig (Elt Ideal)) :
    after (ops (F := Ideal)) V (main_arg1 : DevRef τ sig) = V (main_arg1 : DevRef τ sig) := by after_results_simp
theorem arg2_eq (V : Valuation τ sig (Elt Ideal)) :
    after (ops (F := Ideal)) V (main_arg2 : DevRef τ sig) = V (main_arg2 : DevRef τ sig) := by after_results_simp
theorem arg3_eq (V : Valuation τ sig (Elt Ideal)) :
    after (ops (F := Ideal)) V (main_arg3 : DevRef τ sig) = V (main_arg3 : DevRef τ sig) := by after_results_simp

/-! ## The run -/

/-- On every device, from any memory with zero counters: every weakly fair execution of the reference terminates,
    its result buffer ends at `result` of the arguments' launch contents, and the arguments end unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v41)
          = result (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run _ _ _).mono (fun _ h c => ⟨(h c main_v41).trans (out_eq _), (h c main_arg0).trans (arg0_eq _),
      (h c main_arg1).trans (arg1_eq _), (h c main_arg2).trans (arg2_eq _), (h c main_arg3).trans (arg3_eq _)⟩)
    (run_main (F := Ideal) m ρ)

end Cert.ReferenceIdeal.RefRun

end
-- ==== Proof.RefFrame.lean ====
import proofs.«207969_g80633716015134_cont_9to1_m_1245_11_alg».proof.Defs
import proofs.«207969_g80633716015134_cont_9to1_m_1245_11_alg».proof.Proof.Gen.Pre_input_domain
import proofs.«207969_g80633716015134_cont_9to1_m_1245_11_alg».proof.Proof.RefRun

noncomputable section

namespace Cert.ReferenceIdeal.RefRun

open Idealize.ShloMosaic Idealize.SL.Sem

/-- The reference runs from any memory, precondition or not, and its four arguments end unchanged: the run's
    post without its first conjunct. -/
theorem frame_ri : Cert.frame_ReferenceIdeal (hReferenceIdeal := Cert.ReferenceIdeal.Gen.facts)
    (hPre_input_domain := Cert.Pre_input_domain.Gen.facts) :=
  fun m ρ _ => (θ_run _ _ _).mono (fun _ h c => (h c).2) (run m ρ)

end Cert.ReferenceIdeal.RefRun

end
-- ==== Proof.AlgReduce.lean ====
/-
  The algebraic claim, reduced to the kernel program's side: the reference's run ends with its result at one function,
  result, of its four arguments; so if the kernel program's run (from memories agreeing on the arguments) ends with ITS result
  at that same function of the arguments, the two results are equal as extended reals on every device.
-/
import proofs.«207969_g80633716015134_cont_9to1_m_1245_11_alg».proof.Defs
import proofs.«207969_g80633716015134_cont_9to1_m_1245_11_alg».proof.Proof.RefRun
import proofs.«207969_g80633716015134_cont_9to1_m_1245_11_alg».proof.Proof.Gen.KernelIdeal
import proofs.«207969_g80633716015134_cont_9to1_m_1245_11_alg».proof.Proof.Gen.Pre_input_domain

noncomputable section

namespace Cert.Proof

open Idealize.ShloMosaic Idealize.SL.Sem

/-- What the algebraic claim asks of the kernel program: from the input domain it runs, ends with its result array at the
    reference's result function of its own arguments, and leaves the arguments unchanged. -/
def KernelValue : Prop :=
  ∀ (m : (ℓ : Loc Cert.KernelIdeal.nD Cert.KernelIdeal.τ Cert.KernelIdeal.sig) → Buf (Elt Ideal) ℓ) (g : Dev Cert.KernelIdeal.nD → PrngReg),
    Cert.Pre_KernelIdeal (hPre_input_domain := Cert.Pre_input_domain.Gen.facts) m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_v19)
        = Cert.ReferenceIdeal.RefRun.result (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

/-- From that, the algebraic claim: the reference's half is its run, with the arguments' agreement rewritten. -/
theorem algebraic_of_kernelValue (hval : KernelValue) :
    Cert.algebraic_KernelIdeal_ReferenceIdeal (hKernelIdeal := Cert.KernelIdeal.Gen.facts) (hReferenceIdeal := Cert.ReferenceIdeal.Gen.facts)
      (hPre_input_domain := Cert.Pre_input_domain.Gen.facts) := by
  intro m g m' g' hpre hagree
  refine ⟨_, hval m g hpre, ?_⟩
  refine (θ_run (Cert.ReferenceIdeal.defs (F := Ideal)) _ _).mono (fun _ h c => ⟨(h c).1.trans ?_, (h c).2⟩)
    (Cert.ReferenceIdeal.RefRun.run m' g')
  rw [(hagree c).1, (hagree c).2.1, (hagree c).2.2.1, (hagree c).2.2.2]

end Cert.Proof

end
-- ==== Proof.VSetup.lean ====
/-
  The handshakes' payloads with the arrays' CONTENTS named: after the first call worker (c, i)'s row of the count array
  holds the count array cntA on that row; the second call's workers are handed their four rows of the transposed features at
  htA and hand back their four rows of the transposed aggregate at aggA. The three arrays are parameters here; the tasks'
  proofs say which functions of the index arrays they are.
-/
import proofs.«207969_g80633716015134_cont_9to1_m_1245_11_alg».proof.Proof.KSetup
import proofs.«207969_g80633716015134_cont_9to1_m_1245_11_alg».proof.Proof.KSplit

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 2) (Elt F) ℕ UU ℕ

section PaysV

variable (fs : (d : Dev nD) → Buf (Elt F) (srcLoc d)) (fd : (d : Dev nD) → Buf (Elt F) (dstLoc d)) (fz : (d : Dev nD) → Buf (Elt F) (zeroLoc d))
  (cntA : (d : Dev nD) → Buf (Elt F) (cntLoc d)) (htA : (d : Dev nD) → Buf (Elt F) (htLoc d)) (aggA : (d : Dev nD) → Buf (Elt F) (aggLoc d))

/-- First call, handed: the reads and the worker's row of the count array at whatever it holds. -/
def go0v (d : Dev nD) (c : Fin 2) (i : Fin 16) : sProp 𝕄 :=
  iprop(reads fs fd fz d c i ∗ ∃ g : Buf (Elt F) (cntLoc d), cntLoc d ↦[(cntRow (e32 (c, i))).set]{fullShare} g)
/-- First call, handed back: the reads and the worker's row at the count array. -/
def td0v (d : Dev nD) (c : Fin 2) (i : Fin 16) : sProp 𝕄 :=
  iprop(reads fs fd fz d c i ∗ cntLoc d ↦[(cntRow (e32 (c, i))).set]{fullShare} cntA d)
/-- Second call, handed: the reads, the worker's four rows of the transposed features at htA, its four rows of the transposed
    aggregate at whatever they hold. -/
def go1v (d : Dev nD) (c : Fin 2) (i : Fin 16) : sProp 𝕄 :=
  iprop(reads fs fd fz d c i
    ∗ (bigSep Finset.univ fun k : Fin 4 => htLoc d ↦[(colRow (e128 ((c, i), k))).set]{fullShare} htA d)
    ∗ bigSep Finset.univ fun k : Fin 4 => iprop(∃ g : Buf (Elt F) (aggLoc d), aggLoc d ↦[(colRow (e128 ((c, i), k))).set]{fullShare} g))
/-- Second call, handed back: the same with the aggregate's rows at aggA. -/
def td1v (d : Dev nD) (c : Fin 2) (i : Fin 16) : sProp 𝕄 :=
  iprop(reads fs fd fz d c i
    ∗ (bigSep Finset.univ fun k : Fin 4 => htLoc d ↦[(colRow (e128 ((c, i), k))).set]{fullShare} htA d)
    ∗ bigSep Finset.univ fun k : Fin 4 => aggLoc d ↦[(colRow (e128 ((c, i), k))).set]{fullShare} aggA d)

/-- The payload record with contents named. -/
def PV : (K (F := F)).Pay (nD := nD) (Val := Elt F) (Name := ℕ) (U := UU) where
  st := fun q d c => match q with
    | ⟨0, _⟩ => bigSep Finset.univ fun i : Fin 16 => go0v fs fd fz d c i
    | ⟨1, _⟩ => bigSep Finset.univ fun i : Fin 16 => go1v fs fd fz htA d c i
  dn := fun q d c => match q with
    | ⟨0, _⟩ => bigSep Finset.univ fun i : Fin 16 => td0v fs fd fz cntA d c i
    | ⟨1, _⟩ => bigSep Finset.univ fun i : Fin 16 => td1v fs fd fz htA aggA d c i
  go := fun q d c i => match q with
    | ⟨0, _⟩ => go0v fs fd fz d c i
    | ⟨1, _⟩ => go1v fs fd fz htA d c i
  td := fun q d c i => match q with
    | ⟨0, _⟩ => td0v fs fd fz cntA d c i
    | ⟨1, _⟩ => td1v fs fd fz htA aggA d c i
  x := fun _ _ => iprop(emp)

end PaysV

end Cert.KernelIdeal.Run

end
-- ==== Proof.VRun.lean ====
/-
  The launch with contents named: the payloads are storable, a core's share is the product of its subcores' shares both
  ways (handed and handed back), and the launch theorem gives the whole program's run from the two tasks and the main
  program.
-/
import proofs.«207969_g80633716015134_cont_9to1_m_1245_11_alg».proof.Proof.VSetup
import proofs.«207969_g80633716015134_cont_9to1_m_1245_11_alg».proof.Proof.KRun

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 2) (Elt F) ℕ UU ℕ

variable (fs : (d : Dev nD) → Buf (Elt F) (srcLoc d)) (fd : (d : Dev nD) → Buf (Elt F) (dstLoc d)) (fz : (d : Dev nD) → Buf (Elt F) (zeroLoc d))
  (cntA : (d : Dev nD) → Buf (Elt F) (cntLoc d)) (htA : (d : Dev nD) → Buf (Elt F) (htLoc d)) (aggA : (d : Dev nD) → Buf (Elt F) (aggLoc d))

instance go0v_storable (d : Dev nD) (c : Fin 2) (i : Fin 16) : BI.Storable (upEmb : UEmb _ 𝕄) (go0v fs fd fz d c i) := by
  unfold go0v reads; infer_instance
instance td0v_storable (d : Dev nD) (c : Fin 2) (i : Fin 16) : BI.Storable (upEmb : UEmb _ 𝕄) (td0v fs fd fz cntA d c i) := by
  unfold td0v reads; infer_instance
instance go1v_storable (d : Dev nD) (c : Fin 2) (i : Fin 16) : BI.Storable (upEmb : UEmb _ 𝕄) (go1v fs fd fz htA d c i) := by
  unfold go1v reads; infer_instance
instance td1v_storable (d : Dev nD) (c : Fin 2) (i : Fin 16) : BI.Storable (upEmb : UEmb _ 𝕄) (td1v fs fd fz htA aggA d c i) := by
  unfold td1v reads; infer_instance

instance PV_storable : (PV (F := F) fs fd fz cntA htA aggA).IsStorable where
  st q d c := by
    match q with
    | ⟨0, _⟩ => show BI.Storable _ (bigSep Finset.univ fun i : Fin 16 => go0v fs fd fz d c i); infer_instance
    | ⟨1, _⟩ => show BI.Storable _ (bigSep Finset.univ fun i : Fin 16 => go1v fs fd fz htA d c i); infer_instance
  dn q d c := by
    match q with
    | ⟨0, _⟩ => show BI.Storable _ (bigSep Finset.univ fun i : Fin 16 => td0v fs fd fz cntA d c i); infer_instance
    | ⟨1, _⟩ => show BI.Storable _ (bigSep Finset.univ fun i : Fin 16 => td1v fs fd fz htA aggA d c i); infer_instance
  go q d c i := by
    match q with
    | ⟨0, _⟩ => show BI.Storable _ (go0v fs fd fz d c i); infer_instance
    | ⟨1, _⟩ => show BI.Storable _ (go1v fs fd fz htA d c i); infer_instance
  td q d c i := by
    match q with
    | ⟨0, _⟩ => show BI.Storable _ (td0v fs fd fz cntA d c i); infer_instance
    | ⟨1, _⟩ => show BI.Storable _ (td1v fs fd fz htA aggA d c i); infer_instance

/-- A core's share is the product of its subcores' shares, handed and handed back. -/
theorem vecSplitV (q : Fin 2) : (K (F := F)).VecSplit' (PV fs fd fz cntA htA aggA) q := by
  intro d c
  match q with
  | ⟨0, _⟩ =>
    exact Cert.Lib.ReadTokens.keep_all Set.univ (bigSep Finset.univ fun i : Fin 16 => go0v fs fd fz d c i) (bigSep Finset.univ fun i : Fin 16 => td0v fs fd fz cntA d c i)
  | ⟨1, _⟩ =>
    exact Cert.Lib.ReadTokens.keep_all Set.univ (bigSep Finset.univ fun i : Fin 16 => go1v fs fd fz htA d c i) (bigSep Finset.univ fun i : Fin 16 => td1v fs fd fz htA aggA d c i)

/-- The whole program's run from its two tasks and its main program, contents named. -/
theorem run_ofV [∀ e, Nonempty (Elt F e)] (m : (ℓ : Loc nD τ sig) → Buf (Elt F) ℓ) (ρ : Dev nD → PrngReg)
    (htile0 : (K (F := F)).TileObl (D (F := F)) 𝒱 (PV fs fd fz cntA htA aggA) v₀ 0)
    (htile1 : (K (F := F)).TileObl (D (F := F)) 𝒱 (PV fs fd fz cntA htA aggA) v₀ 1)
    (G FIN : Dev nD → sProp 𝕄) (u₀ : UU)
    (hu₀ : iprop(ownU u₀ ∗ (PV fs fd fz cntA htA aggA).oxCred ∗ (K (F := F)).freeSems0) ⊢ |={Set.univ}=> iprop(BI.own (EH (initOf (K (F := F)).hsCells (K (F := F)).hsToks)) ∗ bigSep Finset.univ G
      ∗ bigSep Finset.univ fun thr : Thread nD τ => bigSep Finset.univ fun q : Fin 2 => (PV fs fd fz cntA htA aggA).x q thr))
    (hmain : ∀ (κ : GSem nD τ sig → ℕ) (d : Dev nD),
      iprop((K (F := F)).ctx EH (PV fs fd fz cntA htA aggA) κ ∗ (K (F := F)).tcSt EH d 0 ∗ (K (F := F)).tcRes m ρ d ∗ G d)
        ⊢ wp frame (wpE ((K (F := F)).defs (D (F := F))) 𝒱 (SparseCore.T d) none) Set.univ (main d) fun _ => iprop((K (F := F)).tcSt EH d 2 ∗ FIN d))
    (fq : Dev nD → Phys nD τ sig (Elt F) → Prop) (hfin : ∀ d s', iprop(FIN d ∗ SI s') ⊢ (⌜fq d s'⌝ : sProp 𝕄))
    (Q' : PUnit × MemSt nD τ sig (Elt F) → Prop) (hQ : ∀ s', (∀ d, fq d s') → Q' (⟨⟩, s'.mem)) :
    θ_run (Cert.KernelIdeal.defs (F := F)) (Cert.KernelIdeal.threads (F := F)) ⟨m, fun _ => 0, ρ⟩ Q' :=
  SparseCore.Cfg.θ_run_sc (K := K (F := F)) (D := D (F := F)) (𝒱 := 𝒱) (EH := EH) (P := PV fs fd fz cntA htA aggA) facts v₀
    (fun q hq => match q with | ⟨0, _⟩ => nomatch hq | ⟨1, _⟩ => nomatch hq)
    (fun q _ => match q with | ⟨0, _⟩ => htile0 | ⟨1, _⟩ => htile1)
    (fun q _ => SparseCore.Cfg.VecSplit.of_plain (vecSplitV fs fd fz cntA htA aggA q))
    m ρ main G FIN u₀ hu₀ hmain fq hfin Q' hQ

end Cert.KernelIdeal.Run

end
-- ==== Proof.VMain.lean ====
/-
  The main program with every array's contents followed: after the first line the arrays are at the first line's results;
  after the first call the count array is cntA; after the two operations, the first region, the second call (the aggregate
  at aggA), the second region and the last operation, every array is at one valuation determined by the launch memory and
  the three arrays cntA, htA, aggA — where htA must be what the first region leaves in the transposed features.
-/
import proofs.«207969_g80633716015134_cont_9to1_m_1245_11_alg».proof.Proof.VRun
import proofs.«207969_g80633716015134_cont_9to1_m_1245_11_alg».proof.Proof.KMain
import proofs.«207969_g80633716015134_cont_9to1_m_1245_11_alg».proof.Proof.KReg0
import proofs.«207969_g80633716015134_cont_9to1_m_1245_11_alg».proof.Proof.KReg1

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_sub_split held_congr wp_seq after)
open Cert.Lib.ReadTokens

variable {F : FTy → Type} [FloatOps F] [∀ e, Nonempty (Elt F e)]

local notation "𝕄" => MT nD τ sig (HIx 2) (Elt F) ℕ UU ℕ

variable (m : (ℓ : Loc nD τ sig) → Buf (Elt F) ℓ) (ρ : Dev nD → PrngReg)
  (cntA : (d : Dev nD) → Buf (Elt F) (cntLoc d)) (htA : (d : Dev nD) → Buf (Elt F) (htLoc d)) (aggA : (d : Dev nD) → Buf (Elt F) (aggLoc d))

/-! ## The arrays' contents along the main program -/

/-- After the first call: the count array at cntA. -/
def W1 (d : Dev nD) : Valuation τ sig (Elt F) := Function.update (V1 m d) cnt' (cntA d)
/-- After the two operations that cut and re-lay the counts. -/
def W2 (d : Dev nD) : Valuation τ sig (Elt F) := after ops1 (W1 m cntA d)
/-- After the first region. -/
def W3 (d : Dev nD) : Valuation τ sig (Elt F) := Wout0 (W2 m cntA d) d
/-- After the second call: the transposed aggregate at aggA. -/
def W4 (d : Dev nD) : Valuation τ sig (Elt F) := Function.update (W3 m cntA d) agg' (aggA d)
/-- After the second region. -/
def W5 (d : Dev nD) : Valuation τ sig (Elt F) := Wout (W4 m cntA aggA d) d
/-- After the last operation. -/
def W6 (d : Dev nD) : Valuation τ sig (Elt F) := after ops2 (W5 m cntA aggA d)

theorem keeps_W2 (d : Dev nD) : Keeps m d (W2 m cntA d) :=
  keeps_ops1 m (keeps_update m (keeps_V1 m d) cnt' (cntA d) (by decide))
theorem keeps_W3 (d : Dev nD) : Keeps m d (W3 m cntA d) := keeps_Wout0 m (W2 m cntA d) d (keeps_W2 m cntA d)
theorem keeps_W4 (d : Dev nD) : Keeps m d (W4 m cntA aggA d) := keeps_update m (keeps_W3 m cntA d) agg' (aggA d) (by decide)
theorem keeps_W5 (d : Dev nD) : Keeps m d (W5 m cntA aggA d) := keeps_Wout m (W4 m cntA aggA d) d (keeps_W4 m cntA aggA d)
theorem keeps_W6 (d : Dev nD) : Keeps m d (W6 m cntA aggA d) := keeps_ops2 m (keeps_W5 m cntA aggA d)

/-! ## The regions' exit states with the exit contents in sight -/

theorem post0_eq (W : Valuation τ sig (Elt F)) (d : Dev nD) :
    (R0F m W).post d ⊢ iprop((K (F := F)).tcSt EH d 1 ∗ held (SparseCore.T d) (Pipeline.ucRefs τ sig) (Wout0 W d) ∗ Aux d) := by
  show iprop(⌜Keeps m d W⌝ ∗ (K (F := F)).tcSt EH d 1 ∗ held (SparseCore.T d) (Pipeline.ucRefs τ sig) (Wout0 W d) ∗ Aux d) ⊢ _
  iintro ⟨-, H⟩; iexact H
theorem post1_eq (W : Valuation τ sig (Elt F)) (d : Dev nD) :
    (R1F m W).post d ⊢ iprop((K (F := F)).tcSt EH d 2 ∗ held (SparseCore.T d) (Pipeline.ucRefs τ sig) (Wout W d) ∗ Aux d) := by
  show iprop(⌜Keeps m d W⌝ ∗ (K (F := F)).tcSt EH d 2 ∗ held (SparseCore.T d) (Pipeline.ucRefs τ sig) (Wout W d) ∗ Aux d) ⊢ _
  iintro ⟨-, H⟩; iexact H

/-! ## The calls with contents -/

/-- Every worker's first-call share handed back at once: its reads, and its row at the count array. -/
theorem td0v_all (d : Dev nD) :
    (bigSep Finset.univ fun c : Fin 2 => bigSep Finset.univ fun i : Fin 16 => td0v (fs m) (fd m) (fz m) cntA d c i : sProp 𝕄)
      = iprop((bigSep Finset.univ fun c : Fin 2 => bigSep Finset.univ fun i : Fin 16 => reads (fs m) (fd m) (fz m) d c i)
          ∗ bigSep Finset.univ fun c : Fin 2 => bigSep Finset.univ fun i : Fin 16 => cntLoc d ↦[(cntRow (e32 (c, i))).set]{fullShare} cntA d) := by
  unfold td0v; exact bigSep2_sep _ _

/-- The first line and the first call, the count array ending at cntA. -/
theorem stageAV (κ : GSem nD τ sig → ℕ) (d : Dev nD) {β : Type}
    (k : PUnit → Prog (TpuEff nD τ sig (Elt F) (SparseCore.Sig (ΛP (F := F)) 2) .tc) β) (Φ : β → sProp 𝕄) :
    iprop((K (F := F)).ctx EH (PV (fs m) (fd m) (fz m) cntA htA aggA) κ ∗ (K (F := F)).tcSt EH d 0
        ∗ boundary (SparseCore.T d) ∗ held (SparseCore.T d) (Pipeline.ucRefs τ sig) (V0 m d)
        ∗ (iprop((K (F := F)).tcSt EH d 1 ∗ boundary (SparseCore.T d) ∗ held (SparseCore.T d) (Pipeline.ucRefs τ sig) (W1 m cntA d))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ
          (StableHlo.seq ops0 >>= fun _ => (sc (F := F)).run d 0 >>= k) Φ := by
  iintro ⟨#Hctx, Hst, Hb, Hheld, Hk⟩
  iapply (wp_seq 𝒱 none Set.univ d (Pipeline.ucRefs τ sig) _ ops0 (uc_of_sub ops0_sub) (List.forall_iff_forall_mem.mp ops0_fresh) (V0 m d)) $$ [Hb Hheld]
  · isplitl [Hb]; · iexact Hb
    iexact Hheld
  iintro ⟨Hb, Hheld⟩
  ihave Hh := (Entails.of_eq (show (held (d.tc : Thread nD τ) (Pipeline.ucRefs τ sig) (after ops0 (V0 m d)) : sProp 𝕄)
      = iprop(((srcLoc d ↦{fullShare} fs m d) ∗ (dstLoc d ↦{fullShare} fd m d) ∗ (zeroLoc d ↦{fullShare} fz m d) ∗ cntLoc d ↦{fullShare} V1 m d cnt')
          ∗ held (SparseCore.T d) (Pipeline.ucRefs τ sig \ T0) (V1 m d))
      from (held_sub_split (SparseCore.T d) T0_sub (V1 m d)).trans (congrArg (fun X => iprop(X ∗ held (SparseCore.T d) (Pipeline.ucRefs τ sig \ T0) (V1 m d))) (held_T0 d (V1 m d))))) $$ Hheld
  icases Hh with ⟨⟨Hs, Hd, Hz, Hc⟩, Hrest⟩
  ihave Hr := (reads_split m d).1 $$ [Hs Hd Hz]
  · isplitl [Hs]; · iexact Hs
    isplitl [Hd]; · iexact Hd
    iexact Hz
  icases Hr with ⟨Hrem, Hreads⟩
  ihave Hrows := (cnt_rows_some d (V1 m d cnt')) $$ Hc
  rw [wp_bind]
  iapply ((K (F := F)).wp_run (D (F := F)) 𝒱 (EH := EH) (P := PV (fs m) (fd m) (fz m) cntA htA aggA) κ d 0) $$ [Hst Hb Hrest Hrem Hreads Hrows Hk]
  isplitr; · iexact Hctx
  isplitl [Hst]; · iexact Hst
  isplitl [Hreads Hrows]
  · iapply (Entails.of_eq (pay0_all m d).symm)
    isplitl [Hreads]; · iexact Hreads
    iexact Hrows
  iintro ⟨Hst, Hdn⟩
  ihave Hdn' := (Entails.of_eq (show (bigSep Finset.univ fun c : Fin ((K (F := F)).nCore 0) => (PV (fs m) (fd m) (fz m) cntA htA aggA).dn 0 d c : sProp 𝕄)
      = iprop((bigSep Finset.univ fun c : Fin 2 => bigSep Finset.univ fun i : Fin 16 => reads (fs m) (fd m) (fz m) d c i)
          ∗ bigSep Finset.univ fun c : Fin 2 => bigSep Finset.univ fun i : Fin 16 => cntLoc d ↦[(cntRow (e32 (c, i))).set]{fullShare} cntA d)
      from td0v_all m cntA d)) $$ Hdn
  icases Hdn' with ⟨Hreads, Hrows⟩
  ihave Hw := (reads_split m d).2 $$ [Hrem Hreads]
  · isplitl [Hrem]; · iexact Hrem
    iexact Hreads
  icases Hw with ⟨Hs, Hd, Hz⟩
  ihave Hc := (Entails.of_eq (cnt_rows d (cntA d)).symm) $$ Hrows
  iapply Hk
  isplitl [Hst]; · iexact Hst
  isplitl [Hb]; · iexact Hb
  unfold W1
  iapply (held_update_cnt m d (cntA d))
  isplitl [Hs]; · iexact Hs
  isplitl [Hd]; · iexact Hd
  isplitl [Hz]; · iexact Hz
  isplitl [Hc]; · iexact Hc
  iexact Hrest

/-- Every worker's second-call share at once, handed (features' rows at htA, aggregate's rows at whatever) -/
theorem go1v_all (d : Dev nD) :
    (bigSep Finset.univ fun c : Fin 2 => bigSep Finset.univ fun i : Fin 16 => go1v (fs m) (fd m) (fz m) htA d c i : sProp 𝕄)
      = iprop((bigSep Finset.univ fun c : Fin 2 => bigSep Finset.univ fun i : Fin 16 => reads (fs m) (fd m) (fz m) d c i)
          ∗ (bigSep Finset.univ fun c : Fin 2 => bigSep Finset.univ fun i : Fin 16 => bigSep Finset.univ fun k : Fin 4 =>
              htLoc d ↦[(colRow (e128 ((c, i), k))).set]{fullShare} htA d)
          ∗ bigSep Finset.univ fun c : Fin 2 => bigSep Finset.univ fun i : Fin 16 => bigSep Finset.univ fun k : Fin 4 =>
              iprop(∃ g : Buf (Elt F) (aggLoc d), aggLoc d ↦[(colRow (e128 ((c, i), k))).set]{fullShare} g)) := by
  unfold go1v
  rw [bigSep2_sep, bigSep2_sep]

/-- and handed back (aggregate's rows at aggA). -/
theorem td1v_all (d : Dev nD) :
    (bigSep Finset.univ fun c : Fin 2 => bigSep Finset.univ fun i : Fin 16 => td1v (fs m) (fd m) (fz m) htA aggA d c i : sProp 𝕄)
      = iprop((bigSep Finset.univ fun c : Fin 2 => bigSep Finset.univ fun i : Fin 16 => reads (fs m) (fd m) (fz m) d c i)
          ∗ (bigSep Finset.univ fun c : Fin 2 => bigSep Finset.univ fun i : Fin 16 => bigSep Finset.univ fun k : Fin 4 =>
              htLoc d ↦[(colRow (e128 ((c, i), k))).set]{fullShare} htA d)
          ∗ bigSep Finset.univ fun c : Fin 2 => bigSep Finset.univ fun i : Fin 16 => bigSep Finset.univ fun k : Fin 4 =>
              aggLoc d ↦[(colRow (e128 ((c, i), k))).set]{fullShare} aggA d) := by
  unfold td1v
  rw [bigSep2_sep, bigSep2_sep]

/-- The second call, from a valuation that keeps the read arrays and has the transposed features at htA: afterwards the
    transposed aggregate is at aggA, everything else as it was. -/
theorem stageCV (κ : GSem nD τ sig → ℕ) (d : Dev nD) (W : Valuation τ sig (Elt F)) (hK : Keeps m d W) (hW : W ht' = htA d) {β : Type}
    (k : PUnit → Prog (TpuEff nD τ sig (Elt F) (SparseCore.Sig (ΛP (F := F)) 2) .tc) β) (Φ : β → sProp 𝕄) :
    iprop((K (F := F)).ctx EH (PV (fs m) (fd m) (fz m) cntA htA aggA) κ ∗ (K (F := F)).tcSt EH d 1
        ∗ boundary (SparseCore.T d) ∗ held (SparseCore.T d) (Pipeline.ucRefs τ sig) W
        ∗ (iprop((K (F := F)).tcSt EH d 2 ∗ boundary (SparseCore.T d)
              ∗ held (SparseCore.T d) (Pipeline.ucRefs τ sig) (Function.update W agg' (aggA d)))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((sc (F := F)).run d 1 >>= k) Φ := by
  iintro ⟨#Hctx, Hst, Hb, Hheld, Hk⟩
  ihave Hh := (Entails.of_eq (show (held (SparseCore.T d) (Pipeline.ucRefs τ sig) W : sProp 𝕄)
      = iprop(((srcLoc d ↦{fullShare} fs m d) ∗ (dstLoc d ↦{fullShare} fd m d) ∗ (zeroLoc d ↦{fullShare} fz m d)
            ∗ (htLoc d ↦{fullShare} htA d) ∗ aggLoc d ↦{fullShare} W agg')
          ∗ held (SparseCore.T d) (Pipeline.ucRefs τ sig \ T1) W)
      from by rw [held_sub_split _ T1_sub W, held_T1, hK.1, hK.2.1, hK.2.2.1, hW])) $$ Hheld
  icases Hh with ⟨⟨Hs, Hd, Hz, Hh, Hg⟩, Hrest⟩
  ihave Hr := (reads_split m d).1 $$ [Hs Hd Hz]
  · isplitl [Hs]; · iexact Hs
    isplitl [Hd]; · iexact Hd
    iexact Hz
  icases Hr with ⟨Hrem, Hreads⟩
  ihave Hhr := (Entails.of_eq (ht_rows d (htA d))) $$ Hh
  ihave Hgr := (agg_rows_some d (W agg')) $$ Hg
  rw [wp_bind]
  iapply ((K (F := F)).wp_run (D (F := F)) 𝒱 (EH := EH) (P := PV (fs m) (fd m) (fz m) cntA htA aggA) κ d 1) $$ [Hst Hb Hrest Hrem Hreads Hhr Hgr Hk]
  isplitr; · iexact Hctx
  isplitl [Hst]; · iexact Hst
  isplitl [Hreads Hhr Hgr]
  · iapply (Entails.of_eq (go1v_all m htA d).symm)
    isplitl [Hreads]; · iexact Hreads
    isplitl [Hhr]; · iexact Hhr
    iexact Hgr
  iintro ⟨Hst, Hdn⟩
  ihave Hdn' := (Entails.of_eq (show (bigSep Finset.univ fun c : Fin ((K (F := F)).nCore 1) => (PV (fs m) (fd m) (fz m) cntA htA aggA).dn 1 d c : sProp 𝕄)
      = iprop((bigSep Finset.univ fun c : Fin 2 => bigSep Finset.univ fun i : Fin 16 => reads (fs m) (fd m) (fz m) d c i)
          ∗ (bigSep Finset.univ fun c : Fin 2 => bigSep Finset.univ fun i : Fin 16 => bigSep Finset.univ fun k : Fin 4 =>
              htLoc d ↦[(colRow (e128 ((c, i), k))).set]{fullShare} htA d)
          ∗ bigSep Finset.univ fun c : Fin 2 => bigSep Finset.univ fun i : Fin 16 => bigSep Finset.univ fun k : Fin 4 =>
              aggLoc d ↦[(colRow (e128 ((c, i), k))).set]{fullShare} aggA d) from td1v_all m htA aggA d)) $$ Hdn
  icases Hdn' with ⟨Hreads, Hhr, Hgr⟩
  ihave Hw := (reads_split m d).2 $$ [Hrem Hreads]
  · isplitl [Hrem]; · iexact Hrem
    iexact Hreads
  icases Hw with ⟨Hs, Hd, Hz⟩
  ihave Hh := (Entails.of_eq (ht_rows d (htA d)).symm) $$ Hhr
  ihave Hg := (Entails.of_eq (agg_rows d (aggA d)).symm) $$ Hgr
  iapply Hk
  isplitl [Hst]; · iexact Hst
  isplitl [Hb]; · iexact Hb
  have hupd : Function.update (Function.update W ht' (htA d)) agg' (aggA d) = Function.update W agg' (aggA d) := by
    rw [← hW, Function.update_eq_self]
  rw [← hupd]
  iapply (held_update_ht_agg m d W hK (htA d) (aggA d))
  isplitl [Hs]; · iexact Hs
  isplitl [Hd]; · iexact Hd
  isplitl [Hz]; · iexact Hz
  isplitl [Hh]; · iexact Hh
  isplitl [Hg]; · iexact Hg
  iexact Hrest

/-! ## The main program, assembled, with the final contents -/

/-- What the main program leaves the claim: every unscoped array at the final valuation. -/
def FINV (d : Dev nD) : sProp 𝕄 := held (SparseCore.T d) (Pipeline.ucRefs τ sig) (W6 m cntA aggA d)

theorem hmainV (hht : ∀ d, W3 m cntA d ht' = htA d) (κ : GSem nD τ sig → ℕ) (d : Dev nD) :
    iprop((K (F := F)).ctx EH (PV (fs m) (fd m) (fz m) cntA htA aggA) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FINV m cntA aggA d) := by
  rw [main_eq]
  unfold SparseCore.Cfg.tcRes G
  iintro ⟨#Hctx, Hst, ⟨Hb, Hheld, Hsm, Hpr⟩, ⟨Hg0, Hg1⟩⟩
  ihave Haux : (Aux (F := F) d) $$ [Hsm Hpr]
  · unfold Aux
    isplitl [Hpr]; · iexists _; iexact Hpr
    iexact Hsm
  ihave Hheld' := (Entails.of_eq (show (unscopedBufs d (fun b => m ((SparseCore.T d).loc b)) : sProp 𝕄)
      = held (SparseCore.T d) (Pipeline.ucRefs τ sig) (V0 m d) from Pipeline.unscopedBufs_held d (V0 m d))) $$ Hheld
  iapply (stageAV m cntA htA aggA κ d _ _) $$ [Hst Hb Hheld' Hg0 Hg1 Haux]
  isplitr; · iexact Hctx
  isplitl [Hst]; · iexact Hst
  isplitl [Hb]; · iexact Hb
  isplitl [Hheld']; · iexact Hheld'
  iintro ⟨Hst, Hb, Hheld⟩
  iapply (wp_seq 𝒱 none Set.univ d (Pipeline.ucRefs τ sig) _ ops1 (uc_of_sub ops1_sub) (List.forall_iff_forall_mem.mp ops1_fresh)
      (W1 m cntA d)) $$ [Hb Hheld]
  · isplitl [Hb]; · iexact Hb
    iexact Hheld
  iintro ⟨Hb, Hheld⟩
  ihave Hlv := (SparseCore.Cfg.ctx_levAts κ) $$ Hctx
  iapply (region_step (rd0F (F := F) (W2 m cntA d)) (R0F m (W2 m cntA d)) d _ _) $$ [Hst Hb Hheld Hg0 Hg1 Hlv Haux]
  isplitl [Hg1]
  · iintro ⟨Hb, Hpost⟩
    ihave Hp := (post0_eq m (W2 m cntA d) d) $$ Hpost
    icases Hp with ⟨Hst, Hheld, Haux⟩
    iapply (stageCV m cntA htA aggA κ d (W3 m cntA d) (keeps_W3 m cntA d) (hht d) _ _) $$ [Hst Hb Hheld Hg1 Haux]
    isplitr; · iexact Hctx
    isplitl [Hst]; · iexact Hst
    isplitl [Hb]; · iexact Hb
    isplitl [Hheld]; · iexact Hheld
    iintro ⟨Hst, Hb, Hheld⟩
    ihave Hlv := (SparseCore.Cfg.ctx_levAts κ) $$ Hctx
    iapply (region_step (rd1F (F := F) (W4 m cntA aggA d)) (R1F m (W4 m cntA aggA d)) d _ _) $$ [Hst Hb Hheld Hg1 Hlv Haux]
    isplitr [Hst Hb Hheld Hg1 Hlv Haux]
    · iintro ⟨Hb, Hpost⟩
      ihave Hp := (post1_eq m (W4 m cntA aggA d) d) $$ Hpost
      icases Hp with ⟨Hst, Hheld, -⟩
      iapply (wp_seq 𝒱 none Set.univ d (Pipeline.ucRefs τ sig) _ ops2 (uc_of_sub ops2_sub) (List.forall_iff_forall_mem.mp ops2_fresh)
          (W5 m cntA aggA d)) $$ [Hb Hheld]
      · isplitl [Hb]; · iexact Hb
        iexact Hheld
      iintro ⟨Hb, Hheld⟩
      rw [wp_pure]; imodintro
      isplitl [Hst]; · iexact Hst
      unfold FINV; iexact Hheld
    isplitl [Hb]; · iexact Hb
    isplitl [Hst Hheld Haux]
    · iapply (h1pre' m (W4 m cntA aggA d) d (keeps_W4 m cntA aggA d))
      isplitl [Hst]; · iexact Hst
      isplitl [Hheld]; · iexact Hheld
      iexact Haux
    isplitl [Hlv]; · iexact Hlv
    icases Hg1 with ⟨Hc, Ht⟩
    isplitl [Hc]; · iexact Hc
    iexact Ht
  isplitl [Hb]; · iexact Hb
  isplitl [Hst Hheld Haux]
  · iapply (h0pre' m (W2 m cntA d) d (keeps_W2 m cntA d))
    isplitl [Hst]; · iexact Hst
    isplitl [Hheld]; · iexact Hheld
    iexact Haux
  isplitl [Hlv]; · iexact Hlv
  icases Hg0 with ⟨Hc, Ht⟩
  isplitl [Hc]; · iexact Hc
  iexact Ht

end Cert.KernelIdeal.Run

end
-- ==== Proof.VFrame.lean ====
/-
  The kernel program's run with its result named: every weakly fair execution terminates, nothing faulting, the result
  array at the final valuation's contents and the four arguments unchanged — from the two tasks (with contents) and the
  consistency of the transposed features with what the first region leaves.
-/
import proofs.«207969_g80633716015134_cont_9to1_m_1245_11_alg».proof.Proof.VMain
import proofs.«207969_g80633716015134_cont_9to1_m_1245_11_alg».proof.Proof.KFrame

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_sub_split)

variable {F : FTy → Type} [FloatOps F] [∀ e, Nonempty (Elt F e)]

local notation "𝕄" => MT nD τ sig (HIx 2) (Elt F) ℕ UU ℕ

variable (m : (ℓ : Loc nD τ sig) → Buf (Elt F) ℓ) (ρ : Dev nD → PrngReg)
  (cntA : (d : Dev nD) → Buf (Elt F) (cntLoc d)) (htA : (d : Dev nD) → Buf (Elt F) (htLoc d)) (aggA : (d : Dev nD) → Buf (Elt F) (aggLoc d))

/-- The launch element serves the payloads with contents as it serves those without: neither consumes anything of it. -/
theorem hu₀V : iprop(ownU (u₀ (F := F)) ∗ (PV (fs m) (fd m) (fz m) cntA htA aggA).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 2 => (PV (fs m) (fd m) (fz m) cntA htA aggA).x q thr) := by
  unfold u₀
  iintro ⟨Hu, -, -⟩
  ihave H := (ownU_pair _ _) $$ Hu
  icases H with ⟨HH, HR⟩
  ihave H2 := (own_pair_emb embR _ _) $$ HR
  icases H2 with ⟨HP, -⟩
  ihave HP' := (Entails.of_eq (show (BI.own (((Emb.inl : Emb UP (UP × Counters)).trans embR)
        (initOf (Pipeline.cells (Pipeline.pin (pcfgs (F := F)) adm) cellOf_inj) (Pipeline.launchToks (Pipeline.pin (pcfgs (F := F)) adm) cellOf_inj))) : sProp 𝕄)
      = BI.own (EP (initOf (Pipeline.cells (Pipeline.pin (pcfgs (F := F)) adm) cellOf_inj) (Pipeline.launchToks (Pipeline.pin (pcfgs (F := F)) adm) cellOf_inj))) from rfl)) $$ HP
  imod (Pipeline.fund_ghost (cfgs := Pipeline.pin (pcfgs (F := F)) adm) (hinj := cellOf_inj) (ER := EP)) $$ HP' with ⟨Hcg, Hti⟩
  imodintro
  isplitl [HH]; · iexact HH
  isplitl [Hcg Hti]
  · ihave Hboth : (bigSep Finset.univ fun c : Dev nD => iprop((bigSep Finset.univ fun p : Fin 2 => Pipeline.cellsGhost (Pipeline.pin (pcfgs (F := F)) adm) EP p c)
        ∗ bigSep Finset.univ fun p : Fin 2 => Pipeline.toksInit (Pipeline.pin (pcfgs (F := F)) adm) EP p c)) $$ [Hcg Hti]
    · rw [bigSep_sep']
      isplitl [Hcg]; · iexact Hcg
      iexact Hti
    iapply (ent (bigSep_mono (s := Finset.univ) fun c _ => G_of c)) $$ Hboth
  unfold PV; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## Reading the final memory: the result and the arguments -/

abbrev v19' : DevRef τ sig := Proc.devRef .tc (main_v19 : Ref sig .tc)
abbrev v19Loc (d : Dev nD) : Loc nD τ sig := (SparseCore.T d).loc main_v19

/-- The result and the four arguments. -/
abbrev T5 : Finset (DevRef τ sig) := {v19', arg0', arg1', arg2', arg3'}
theorem T5_sub : T5 ⊆ Pipeline.ucRefs τ sig := by decide

def fqV (d : Dev nD) (s' : Phys nD τ sig (Elt F)) : Prop :=
  s'.mem.mem (v19Loc d) = W6 m cntA aggA d v19'
    ∧ s'.mem.mem (a0Loc d) = m (a0Loc d) ∧ s'.mem.mem (a1Loc d) = m (a1Loc d) ∧ s'.mem.mem (a2Loc d) = m (a2Loc d) ∧ s'.mem.mem (a3Loc d) = m (a3Loc d)

theorem hfinV (d : Dev nD) (s' : Phys nD τ sig (Elt F)) : iprop(FINV m cntA aggA d ∗ SI s') ⊢ (⌜fqV m cntA aggA d s'⌝ : sProp 𝕄) := by
  have hK := keeps_W6 m cntA aggA d
  unfold FINV
  rw [held_sub_split _ T5_sub (W6 m cntA aggA d)]
  unfold held T5
  rw [SparseCore.bigSep_insert' (by decide), SparseCore.bigSep_insert' (by decide), SparseCore.bigSep_insert' (by decide),
    SparseCore.bigSep_insert' (by decide), bigSep_singleton, hK.2.2.2.1, hK.2.2.2.2.1, hK.2.2.2.2.2.1, hK.2.2.2.2.2.2]
  show iprop((((v19Loc d ↦{fullShare} W6 m cntA aggA d v19') ∗ (a0Loc d ↦{fullShare} m (a0Loc d)) ∗ (a1Loc d ↦{fullShare} m (a1Loc d))
      ∗ (a2Loc d ↦{fullShare} m (a2Loc d)) ∗ (a3Loc d ↦{fullShare} m (a3Loc d))) ∗ _) ∗ SI s') ⊢ (⌜fqV m cntA aggA d s'⌝ : sProp 𝕄)
  iintro ⟨⟨⟨Hv, H0, H1, H2, H3⟩, -⟩, HSI⟩
  ihave H := (persistent_entails_right (SI_pointsTo_agree (st := s') (ℓ := v19Loc d) (I := Finset.univ) (q := fullShare) (f := W6 m cntA aggA d v19'))) $$ [HSI Hv]
  · isplitl [HSI] <;> iassumption
  icases H with ⟨%hv, HSI, -⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := a3Loc d) (I := Finset.univ) (q := fullShare) (f := m (a3Loc d))) $$ [HSI H3]
  · isplitl [HSI] <;> iassumption
  icases H with %h3
  ipureintro
  exact ⟨funext fun i => hv i (Finset.mem_univ i), funext fun i => h0 i (Finset.mem_univ i), funext fun i => h1 i (Finset.mem_univ i),
    funext fun i => h2 i (Finset.mem_univ i), funext fun i => h3 i (Finset.mem_univ i)⟩

/-! ## The run with the result named -/

theorem run_value
    (htile0 : (K (F := F)).TileObl (D (F := F)) 𝒱 (PV (fs m) (fd m) (fz m) cntA htA aggA) v₀ 0)
    (htile1 : (K (F := F)).TileObl (D (F := F)) 𝒱 (PV (fs m) (fd m) (fz m) cntA htA aggA) v₀ 1)
    (hht : ∀ d, W3 m cntA d ht' = htA d) :
    θ_run (Cert.KernelIdeal.defs (F := F)) (Cert.KernelIdeal.threads (F := F)) ⟨m, fun _ => 0, ρ⟩ (fun r => ∀ c : Dev nD,
      r.2.mem (v19Loc c) = W6 m cntA aggA c v19'
        ∧ r.2.mem (a0Loc c) = m (a0Loc c) ∧ r.2.mem (a1Loc c) = m (a1Loc c) ∧ r.2.mem (a2Loc c) = m (a2Loc c) ∧ r.2.mem (a3Loc c) = m (a3Loc c)) :=
  run_ofV (fs m) (fd m) (fz m) cntA htA aggA m ρ htile0 htile1 (G (F := F)) (FINV m cntA aggA) (u₀ (F := F)) (hu₀V m cntA htA aggA)
    (hmainV m ρ cntA htA aggA hht) (fqV m cntA aggA) (hfinV m cntA aggA) _ (fun _ h c => h c)

end Cert.KernelIdeal.Run

end
-- ==== Proof.VChain.lean ====
/-
  The final valuation unfolded: the result array is the first 10000 rows of what the second region writes; the second region
  reads the transposed aggregate (the second call's), the scaled features and the degree factors (the first region's) and the
  bias row (a reshape of the bias); the first region reads the padded features, the transposed weights and the per-worker
  counts re-laid with a unit axis (a slice and a broadcast of the count array, the first call's).
-/
import proofs.«207969_g80633716015134_cont_9to1_m_1245_11_alg».proof.Proof.VFrame

noncomputable section

namespace Cert.KernelIdeal.Run

open Cert.KernelIdeal Cert.KernelIdeal.Gen
open Idealize.ShloMosaic Idealize.SL.Sem
open Idealize.ShloMosaic.StableHlo (after)
open Idealize.ShloMosaic.SparseCore.Cfg (HIx)

variable {F : FTy → Type} [FloatOps F] [∀ e, Nonempty (Elt F e)]

variable (m : (ℓ : Loc nD τ sig) → Buf (Elt F) ℓ)
  (cntA : (d : Dev nD) → Buf (Elt F) (cntLoc d)) (aggA : (d : Dev nD) → Buf (Elt F) (aggLoc d))

abbrev v18' : DevRef τ sig := Proc.devRef .tc (main_v18 : Ref sig .tc)
abbrev v9' : DevRef τ sig := Proc.devRef .tc (main_v9 : Ref sig .tc)
abbrev v11' : DevRef τ sig := Proc.devRef .tc (main_v11 : Ref sig .tc)
abbrev v12' : DevRef τ sig := Proc.devRef .tc (main_v12 : Ref sig .tc)
abbrev v15' : DevRef τ sig := Proc.devRef .tc (main_v15 : Ref sig .tc)
abbrev v160' : DevRef τ sig := Proc.devRef .tc (main_v16_0 : Ref sig .tc)
abbrev v162' : DevRef τ sig := Proc.devRef .tc (main_v16_2 : Ref sig .tc)

/-- The result is the first 10000 rows of the second region's output. -/
theorem W6_v19 (d : Dev nD) :
    W6 m cntA aggA d v19' = extractStridedSlice S10000x128 ![0, 0] (W5 m cntA aggA d v18') slices_S10240x128_S10000x128_0_0 := by
  unfold W6; after_results

/-- The second region's output array is what its pipeline leaves. -/
theorem W5_v18 (d : Dev nD) :
    W5 m cntA aggA d v18' = (dat3 (F := F) (VofW (W4 m cntA aggA d)) 0 (B2 (F := F) d) d).arrAt 4 cfg3.N :=
  Wout_arr (W4 m cntA aggA d) d 4

/-- The second region's inputs. -/
theorem W4_agg (d : Dev nD) : W4 m cntA aggA d agg' = aggA d := by unfold W4; exact Function.update_self _ _ _
theorem W4_h (d : Dev nD) : W4 m cntA aggA d v160' = W3 m cntA d v160' := by unfold W4; exact Function.update_of_ne (by decide) _ _
theorem W4_r (d : Dev nD) : W4 m cntA aggA d v162' = W3 m cntA d v162' := by unfold W4; exact Function.update_of_ne (by decide) _ _
theorem W4_bias (d : Dev nD) : W4 m cntA aggA d v12' = V1 m d v12' := by
  unfold W4 W3
  rw [Function.update_of_ne (by decide), Wout0_of_ne (W2 m cntA d) d main_v12 (by decide)]
  unfold W2 W1
  exact (by after_results : after ops1 (Function.update (V1 m d) cnt' (cntA d)) v12' = Function.update (V1 m d) cnt' (cntA d) v12').trans
    (Function.update_of_ne (by decide) _ _)

/-- The first region's three outputs are what its pipeline leaves. -/
theorem W3_h (d : Dev nD) :
    W3 m cntA d v160' = (dat1 (F := F) (VofW (W2 m cntA d)) ((K (F := F)).Otc d 1) (B1 (F := F) d) d).arrAt 3 cfg1.N :=
  Wout0_arr (W2 m cntA d) d 3
theorem W3_ht (d : Dev nD) :
    W3 m cntA d ht' = (dat1 (F := F) (VofW (W2 m cntA d)) ((K (F := F)).Otc d 1) (B1 (F := F) d) d).arrAt 4 cfg1.N :=
  Wout0_arr (W2 m cntA d) d 4
theorem W3_r (d : Dev nD) :
    W3 m cntA d v162' = (dat1 (F := F) (VofW (W2 m cntA d)) ((K (F := F)).Otc d 1) (B1 (F := F) d) d).arrAt 5 cfg1.N :=
  Wout0_arr (W2 m cntA d) d 5

/-- The first region's inputs: the padded features, the transposed weights, the counts re-laid. -/
theorem W2_x (d : Dev nD) : W2 m cntA d v9' = V1 m d v9' := by
  unfold W2 W1
  exact (by after_results : after ops1 (Function.update (V1 m d) cnt' (cntA d)) v9' = Function.update (V1 m d) cnt' (cntA d) v9').trans
    (Function.update_of_ne (by decide) _ _)
theorem W2_wt (d : Dev nD) : W2 m cntA d v11' = V1 m d v11' := by
  unfold W2 W1
  exact (by after_results : after ops1 (Function.update (V1 m d) cnt' (cntA d)) v11' = Function.update (V1 m d) cnt' (cntA d) v11').trans
    (Function.update_of_ne (by decide) _ _)
theorem W2_cnt (d : Dev nD) :
    W2 m cntA d v15' = broadcastInDim S32x10240x1 ![0, 1] bcast_S32x10240_S32x10240x1_0_1
      (extractStridedSlice S32x10240 ![0, 0] (cntA d) slices_S32x10256_S32x10240_0_0) := by
  unfold W2 W1
  after_results
  rw [Function.update_self]

/-- The padded features, the transposed weights and the bias row, from the arguments. -/
theorem V1_x (d : Dev nD) :
    V1 m d v9' = concatenate S10240x128 0 [⟨S10000x128, V0 m d arg0'⟩, ⟨S240x128, broadcastInDim S240x128 ![] bcast_S_S240x128 (constant S_ .f32 0x00000000#32)⟩]
      concatenates_S10000x128_S240x128_S10240x128_d0 := by
  unfold V1; after_results
theorem V1_wt (d : Dev nD) : V1 m d v11' = transpose S128x128 [1, 0] (V0 m d arg2') transposes_S128x128_S128x128_1_0 := by
  unfold V1; after_results

end Cert.KernelIdeal.Run

end
-- ==== Proof.VReads.lean ====
/-
  The layout operations of the main program read at an index: the result against the second region's output; the re-laid
  counts against the count array; the padded features, the transposed weights and the bias row against the arguments.
-/
import proofs.«207969_g80633716015134_cont_9to1_m_1245_11_alg».proof.Proof.VChain
import Idealize.ShloMosaic.Lib.Pipeline.Value
import Idealize.ShloMosaic.Lib.ValueIdx

noncomputable section

namespace Cert.KernelIdeal.Run

open Cert.KernelIdeal Cert.KernelIdeal.Gen
open Idealize.ShloMosaic Idealize.ShloMosaic.ValueIdx Idealize.SL.Sem
open Idealize.ShloMosaic.StableHlo (after)

variable {F : FTy → Type} [FloatOps F] [∀ e, Nonempty (Elt F e)]

variable (m : (ℓ : Loc nD τ sig) → Buf (Elt F) ℓ)
  (cntA : (d : Dev nD) → Buf (Elt F) (cntLoc d)) (aggA : (d : Dev nD) → Buf (Elt F) (aggLoc d))

/-- The result at (n, j) is the second region's output at (n, j). -/
theorem W6_apply (d : Dev nD) (n : Fin 10000) (j : Fin 128) :
    W6 m cntA aggA d v19' (ix2 n j) = W5 m cntA aggA d v18' (ix2 (⟨n.val, by have := n.isLt; omega⟩ : Fin 10240) j) := by
  rw [W6_v19]
  refine extractStridedSlice_apply _ _ _ _ (ix2 (⟨n.val, by have := n.isLt; omega⟩ : Fin 10240) j) (fun a => ?_)
  match a with
  | ⟨0, _⟩ => show n.val = 0 + n.val; omega
  | ⟨1, _⟩ => show j.val = 0 + j.val; omega

/-- The re-laid counts at (p, i, 0) are the count array at (p, i). -/
theorem W2_cnt_apply (d : Dev nD) (p : Fin 32) (i : Fin 10240) :
    W2 m cntA d v15' (ix3 p i (0 : Fin 1)) = cntA d (ix2 p (⟨i.val, by have := i.isLt; omega⟩ : Fin 10256)) := by
  rw [W2_cnt]
  refine (broadcastInDim_apply _ _ _ (ix3 p i (0 : Fin 1)) (ix2 p i) (fun a => ?_)).trans ?_
  · match a with
    | ⟨0, _⟩ => rfl
    | ⟨1, _⟩ => rfl
  · refine extractStridedSlice_apply _ _ _ _ (ix2 p (⟨i.val, by have := i.isLt; omega⟩ : Fin 10256)) (fun a => ?_)
    match a with
    | ⟨0, _⟩ => show p.val = 0 + p.val; omega
    | ⟨1, _⟩ => show i.val = 0 + i.val; omega

/-- The padded features at a node's row are the features. -/
theorem x9_apply (d : Dev nD) (i : Fin 10000) (k : Fin 128) :
    V1 m d v9' (ix2 (⟨i.val, by have := i.isLt; omega⟩ : Fin 10240) k) = m ((SparseCore.T d).loc main_arg0) (ix2 i k) := by
  rw [V1_x]
  exact concatenate_pair_apply_left (t := S10240x128) 0 _ _ concatenates_S10000x128_S240x128_S10240x128_d0 _ rfl (ix2 i k)
    (fun b => by match b with | ⟨0, _⟩ => rfl | ⟨1, _⟩ => rfl)

/-- The transposed weights at (k, q) are the weights at (q, k). -/
theorem wt_apply (d : Dev nD) (k q : Fin 128) :
    V1 m d v11' (ix2 k q) = m ((SparseCore.T d).loc main_arg2) (ix2 q k) := by
  rw [V1_wt]
  exact transpose_apply _ _ _ (ix2 k q) (ix2 q k) (fun b => by match b with | ⟨0, _⟩ => rfl | ⟨1, _⟩ => rfl)

end Cert.KernelIdeal.Run

end
-- ==== Proof.LibSegSum.lean ====
/-
  Gathering rows and accumulating rows by an index list, read at an index, on the extended reals.
  An array of N rows of width W, an index list of E entries (an E×1 integer array):
  * the gather of the rows named by the list has, at (e, q), the array's entry (r, q), r the e-th index read as a signed
    integer and clamped into [0, N − 1];
  * the accumulating scatter of E rows into the array adds to entry (i, q) the entries (e, q) of exactly those rows e whose
    index is i (an index outside [0, N) adds nowhere); for a vector of N entries and E scalars the same, without q;
  * dividing by max(n, 1), n a count, is multiplying by its reciprocal 1 / max(n, 1).
-/
import Idealize.ShloMosaic.Lib.ValueIdx
import Idealize.ShloMosaic.PureOps.Ideal.Laws

noncomputable section

namespace Cert.LibSegSum

open Idealize.ShloMosaic Idealize.ShloMosaic.ValueIdx

variable {N W E w : ℕ}

/-! ## The gather of rows -/

/-- "Take rows": operand N×W, start indices E×1 (one row number each), result E×W. -/
abbrev rowGather (N W E : ℕ) (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The row the e-th index names: read signed, clamped into [0, N − 1]. -/
def rowOfIdx (hN : 0 < N) (idx : IVec ⟨2, ![E, 1]⟩ w) (e : Fin E) : Fin N :=
  ⟨min (idx (ix2 e (0 : Fin 1))).toInt.toNat (N - 1), by omega⟩

/-- The gather at (e, q) is the operand at (row of e, q). -/
theorem rowGather_apply {α : Type} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (q : Fin W) :
    Host.gather (rowGather N W E wf) x idx (ix2 e q) = x (ix2 (rowOfIdx hN idx e) q) := by
  unfold Host.gather
  congr 1
  funext a
  refine Fin.ext ?_
  match a with
  | ⟨0, _⟩ =>
    show (rowGather N W E wf).start (ix2 e q) idx 0 + (rowGather N W E wf).batchCoord (ix2 e q) 0
        + (rowGather N W E wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N W E wf).startIndexMap from List.mem_singleton.mpr rfl)]
    have hsi : (rowGather N W E wf).siIdx (ix2 e q) ⟨List.idxOf (0 : Fin 2) (rowGather N W E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N W E wf).start (ix2 e q) idx 1 + (rowGather N W E wf).batchCoord (ix2 e q) 1
        + (rowGather N W E wf).offCoord (ix2 e q) 1 = _
    rw [GatherDims.batchCoord_eq_zero _ _ _ List.not_mem_nil]
    have hst : (rowGather N W E wf).start (ix2 e q) idx 1 = 0 := by
      unfold GatherDims.start
      rw [dif_neg (show ¬ ((1 : Fin 2) ∈ ([0] : List (Fin 2))) by decide)]
    have hoff : (rowGather N W E wf).offCoord (ix2 e q) 1 = q.val := by
      unfold GatherDims.offCoord
      rw [dif_pos ((GatherDims.mem_sKept _ _).2 ⟨show ¬ ((1 : Fin 2) ∈ ([0] : List (Fin 2))) by decide, List.not_mem_nil⟩)]
      rfl
    rw [hst, hoff, Nat.add_zero, Nat.zero_add]

/-! ## The accumulating scatter of rows -/

/-- "Add rows at": operand N×W, scatter indices E×1 (one row number each), updates E×W. -/
abbrev rowScatter (N W E : ℕ) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

section RowScatter
variable (wf : ScatterDims.WF ⟨2, ![N, W]⟩ ⟨2, ![E, 1]⟩ ⟨2, ![E, W]⟩ [1] [0] [0] 1) (idx : IVec ⟨2, ![E, 1]⟩ w)
  (e : Fin E) (q : Fin W)

theorem rowScatter_start0 : (rowScatter N W E wf).start (ix2 e q) idx 0 = (idx (ix2 e (0 : Fin 1))).toInt := by
  unfold ScatterDims.start
  rw [dif_pos (show (0 : Fin 2) ∈ (rowScatter N W E wf).scatterDimsToOperandDims from List.mem_singleton.mpr rfl)]
  have hsi : (rowScatter N W E wf).siIdx (ix2 e q) ⟨List.idxOf (0 : Fin 2) (rowScatter N W E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 : (rowScatter N W E wf).start (ix2 e q) idx 1 = 0 := by
  unfold ScatterDims.start
  rw [dif_neg (show ¬ ((1 : Fin 2) ∈ ([0] : List (Fin 2))) by decide)]

theorem rowScatter_window0 : (rowScatter N W E wf).window (ix2 e q) 0 = 0 := by
  unfold ScatterDims.window
  exact dif_neg (by simp [ScatterDims.sKept, Shape.kept])

theorem rowScatter_window1 : (rowScatter N W E wf).window (ix2 e q) 1 = q.val := by
  unfold ScatterDims.window
  rw [dif_pos (by simp [ScatterDims.sKept, Shape.kept] : (1 : Fin 2) ∈ (rowScatter N W E wf).sKept)]
  rfl

/-- Row e of the updates lands on (i, q') from column q exactly when its index is i and the columns agree. -/
theorem rowScatter_resultIdx_iff (q' : Fin W) (i : Fin N) :
    (rowScatter N W E wf).resultIdx? (ix2 e q) idx = some (ix2 i q')
      ↔ (idx (ix2 e (0 : Fin 1))).toInt = (i.val : ℤ) ∧ q = q' := by
  have hi := i.isLt
  have hq := q.isLt
  unfold ScatterDims.resultIdx?
  split
  · rename_i h
    rw [Option.some.injEq]
    constructor
    · intro hf
      have h0 := congrArg (fun f => (f 0).val) hf
      have h1 := congrArg (fun f => (f 1).val) hf
      have hh := (h 0).1
      rw [rowScatter_start0, rowScatter_window0] at hh
      change ((rowScatter N W E wf).start (ix2 e q) idx 0 + ((rowScatter N W E wf).window (ix2 e q) 0 : ℕ)).toNat = i.val at h0
      change ((rowScatter N W E wf).start (ix2 e q) idx 1 + ((rowScatter N W E wf).window (ix2 e q) 1 : ℕ)).toNat = q'.val at h1
      rw [rowScatter_start0, rowScatter_window0] at h0
      rw [rowScatter_start1, rowScatter_window1] at h1
      exact ⟨by omega, Fin.ext (by omega)⟩
    · rintro ⟨ht, rfl⟩
      funext a; refine Fin.ext ?_
      match a with
      | ⟨0, _⟩ =>
        show ((rowScatter N W E wf).start (ix2 e q) idx 0 + ((rowScatter N W E wf).window (ix2 e q) 0 : ℕ)).toNat = i.val
        rw [rowScatter_start0, rowScatter_window0, ht]; omega
      | ⟨1, _⟩ =>
        show ((rowScatter N W E wf).start (ix2 e q) idx 1 + ((rowScatter N W E wf).window (ix2 e q) 1 : ℕ)).toNat = q.val
        rw [rowScatter_start1, rowScatter_window1]; omega
  · rename_i h
    constructor
    · intro hf; exact absurd hf (by simp)
    · rintro ⟨ht, rfl⟩
      exfalso; apply h
      intro a
      match a with
      | ⟨0, _⟩ =>
        show 0 ≤ (rowScatter N W E wf).start (ix2 e q) idx 0 + ((rowScatter N W E wf).window (ix2 e q) 0 : ℕ)
          ∧ (rowScatter N W E wf).start (ix2 e q) idx 0 + ((rowScatter N W E wf).window (ix2 e q) 0 : ℕ) < (N : ℤ)
        rw [rowScatter_start0, rowScatter_window0, ht]; constructor <;> omega
      | ⟨1, _⟩ =>
        show 0 ≤ (rowScatter N W E wf).start (ix2 e q) idx 1 + ((rowScatter N W E wf).window (ix2 e q) 1 : ℕ)
          ∧ (rowScatter N W E wf).start (ix2 e q) idx 1 + ((rowScatter N W E wf).window (ix2 e q) 1 : ℕ) < (W : ℤ)
        rw [rowScatter_start1, rowScatter_window1]; constructor <;> omega

end RowScatter

/-- The rows of the index list that name row i. -/
def landing (idx : IVec ⟨2, ![E, 1]⟩ w) (i : Fin N) : Finset (Fin E) :=
  Finset.univ.filter fun e => (idx (ix2 e (0 : Fin 1))).toInt = (i.val : ℤ)

/-- The accumulating scatter at (i, q): the operand's entry plus the entries (e, q) of the rows e landing on i. -/
theorem rowScatterAdd_apply (wf : ScatterDims.WF ⟨2, ![N, W]⟩ ⟨2, ![E, 1]⟩ ⟨2, ![E, W]⟩ [1] [0] [0] 1)
    (x : (⟨2, ![N, W]⟩ : Shape).Idx → EReal) (idx : IVec ⟨2, ![E, 1]⟩ w) (upd : (⟨2, ![E, W]⟩ : Shape).Idx → EReal)
    (i : Fin N) (q : Fin W) :
    Ideal.hostScatterAdd (rowScatter N W E wf) x idx upd (ix2 i q)
      = x (ix2 i q) + ∑ e ∈ landing idx i, upd (ix2 e q) := by
  unfold Ideal.hostScatterAdd
  congr 1
  symm
  refine Finset.sum_bij (fun e _ => ix2 e q) ?_ ?_ ?_ ?_
  · intro e he
    rw [Finset.mem_filter]
    exact ⟨Finset.mem_univ _, (rowScatter_resultIdx_iff wf idx e q q i).2 ⟨(Finset.mem_filter.1 he).2, rfl⟩⟩
  · intro e _ e' _ hee
    have := congrArg (fun f => (f 0).val) hee
    exact Fin.ext this
  · intro j hj
    rw [Finset.mem_filter] at hj
    obtain ⟨e, q'', rfl⟩ : ∃ (e : Fin E) (q'' : Fin W), j = ix2 e q'' := ⟨j 0, j 1, eq_ix2 j⟩
    obtain ⟨ht, rfl⟩ := (rowScatter_resultIdx_iff wf idx e q'' q i).1 hj.2
    exact ⟨e, Finset.mem_filter.2 ⟨Finset.mem_univ _, ht⟩, rfl⟩
  · intro e _; rfl

/-! ## The accumulating scatter of scalars into a vector -/

/-- "Add at": operand of N entries, scatter indices E×1, updates E scalars. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable (wf : ScatterDims.WF ⟨1, ![N]⟩ ⟨2, ![E, 1]⟩ ⟨1, ![E]⟩ [] [0] [0] 1) (idx : IVec ⟨2, ![E, 1]⟩ w) (e : Fin E)

theorem vecScatter_start0 : (vecScatter N E wf).start (ix1 e) idx 0 = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScatter_window0 : (vecScatter N E wf).window (ix1 e) 0 = 0 := by
  unfold ScatterDims.window
  exact dif_neg (by simp [ScatterDims.sKept, Shape.kept])

/-- Scalar e of the updates lands on entry i exactly when its index is i. -/
theorem vecScatter_resultIdx_iff (i : Fin N) :
    (vecScatter N E wf).resultIdx? (ix1 e) idx = some (ix1 i) ↔ (idx (ix2 e (0 : Fin 1))).toInt = (i.val : ℤ) := by
  have hi := i.isLt
  unfold ScatterDims.resultIdx?
  split
  · rename_i h
    rw [Option.some.injEq]
    constructor
    · intro hf
      have h0 := congrArg (fun f => (f 0).val) hf
      have hh := (h 0).1
      rw [vecScatter_start0, vecScatter_window0] at hh
      change ((vecScatter N E wf).start (ix1 e) idx 0 + ((vecScatter N E wf).window (ix1 e) 0 : ℕ)).toNat = i.val at h0
      rw [vecScatter_start0, vecScatter_window0] at h0
      omega
    · intro ht
      funext a; refine Fin.ext ?_
      match a with
      | ⟨0, _⟩ =>
        show ((vecScatter N E wf).start (ix1 e) idx 0 + ((vecScatter N E wf).window (ix1 e) 0 : ℕ)).toNat = i.val
        rw [vecScatter_start0, vecScatter_window0, ht]; omega
  · rename_i h
    constructor
    · intro hf; exact absurd hf (by simp)
    · intro ht
      exfalso; apply h
      intro a
      match a with
      | ⟨0, _⟩ =>
        show 0 ≤ (vecScatter N E wf).start (ix1 e) idx 0 + ((vecScatter N E wf).window (ix1 e) 0 : ℕ)
          ∧ (vecScatter N E wf).start (ix1 e) idx 0 + ((vecScatter N E wf).window (ix1 e) 0 : ℕ) < (N : ℤ)
        rw [vecScatter_start0, vecScatter_window0, ht]; constructor <;> omega

end VecScatter

/-- The accumulating scatter at entry i: the operand's entry plus the scalars e landing on i. -/
theorem vecScatterAdd_apply (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (vecScatter N E wf) x idx upd (ix1 i) = x (ix1 i) + ∑ e ∈ landing idx i, upd (ix1 e) := by
  unfold Ideal.hostScatterAdd
  congr 1
  symm
  refine Finset.sum_bij (fun e _ => ix1 e) ?_ ?_ ?_ ?_
  · intro e he
    rw [Finset.mem_filter]
    exact ⟨Finset.mem_univ _, (vecScatter_resultIdx_iff wf idx e i).2 (Finset.mem_filter.1 he).2⟩
  · intro e _ e' _ hee
    have := congrArg (fun f => (f 0).val) hee
    exact Fin.ext this
  · intro j hj
    rw [Finset.mem_filter] at hj
    obtain ⟨e, rfl⟩ : ∃ e : Fin E, j = ix1 e := ⟨j 0, eq_ix1 j⟩
    exact ⟨e, Finset.mem_filter.2 ⟨Finset.mem_univ _, (vecScatter_resultIdx_iff wf idx e i).1 hj.2⟩, rfl⟩
  · intro e _; rfl

/-! ## The mean: dividing by the count, or multiplying by its reciprocal -/

/-- A count of ones, as an extended real, is the natural number. -/
theorem sum_ones (s : Finset (Fin E)) : (0 : EReal) + ∑ _e ∈ s, (1 : EReal) = ((s.card : ℝ) : EReal) := by
  rw [zero_add]
  induction s using Finset.induction_on with
  | empty => simp
  | insert a s ha ih =>
    rw [Finset.sum_insert ha, ih, Finset.card_insert_of_notMem ha]
    push_cast
    rw [add_comm]

/-- With c = max(n, 1) for a count n: s · (1 / c) = s / c, for every extended real s. -/
theorem mul_inv_count (s : EReal) (n : ℕ) :
    s * Ideal.div 1 (max ((n : ℝ) : EReal) 1) = Ideal.div s (max ((n : ℝ) : EReal) 1) := by
  have hc : max ((n : ℝ) : EReal) 1 = ((max (n : ℝ) 1 : ℝ) : EReal) := by
    rcases le_total (n : ℝ) 1 with h | h
    · rw [max_eq_right h, max_eq_right (by exact_mod_cast h)]; rfl
    · rw [max_eq_left h, max_eq_left (by exact_mod_cast h)]
  have hne : (max (n : ℝ) 1 : ℝ) ≠ 0 := by
    have : (1 : ℝ) ≤ max (n : ℝ) 1 := le_max_right _ _
    linarith
  rw [hc, Ideal.div_coe hne, Ideal.div_coe hne, one_mul]

end Cert.LibSegSum

end
-- ==== Proof.LibColBcast.lean ====
/-
  A column laid against the rows of a two-axis array: an a×1 array broadcast to a×b reads, at (p, q), the column at p;
  a length-a vector laid along the first axis (broadcast to a×1, then to a×b) reads, at (p, q), the vector at p; and a
  length-a vector reshaped to a×1 reads, at (p, 0), the vector at p.
-/
import Idealize.ShloMosaic.Lib.ValueIdx
import Idealize.ShloMosaic.Lib.Pipeline.Value

noncomputable section

namespace Cert.LibColBcast

open Idealize.ShloMosaic Idealize.ShloMosaic.ValueIdx

variable {α : Type}

/-- An a×1 array broadcast to a×b reads, at (p, q), the operand's row p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A length-a vector broadcast along axis 0 to a×1, read at (p, u). -/
theorem bcast_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- An a×1 array broadcast along both axes to a×b, read at (p, q), is its row p. -/
theorem bcast_ab_apply {a b : ℕ} (r : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h r (ix2 p q) = r (ix2 p (0 : Fin 1)) := by
  refine broadcastInDim_apply ![0, 1] h r (ix2 p q) (ix2 p (0 : Fin 1)) fun ax => ?_
  match ax with
  | ⟨0, _⟩ =>
    show p.val = if a = 1 then 0 else p.val
    split
    · have := p.isLt; omega
    · rfl
  | ⟨1, _⟩ => rfl

/-- The vector broadcast to a×1 and then to a×b reads, at (p, q), the vector at p. -/
theorem bcast_col_apply {a b : ℕ} (v : (⟨1, ![a]⟩ : Shape).Idx → α) (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [bcast_ab_apply, bcast_a1_apply]

/-- A length-a vector reshaped to a×1 reads, at (p, u), the vector at p. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cert.LibColBcast

end
-- ==== Proof.LibRowBias.lean ====
/-
  A vector of length N laid along the second axis of a two-axis array, read at an index: reshaped to 1×N it is the
  row `rowOf b`; broadcast to 1×N along axis 1 and then to M×N along both axes it reads, at (p, q), the vector at q.
-/
import Idealize.ShloMosaic.Lib.ValueIdx
import Idealize.ShloMosaic.Lib.ValueLayout
import Idealize.ShloMosaic.Lib.Pipeline.Value

noncomputable section

namespace Cert.LibRowBias

open Idealize.ShloMosaic Idealize.ShloMosaic.ValueIdx

variable {α : Type} {M N : ℕ}

/-- The 1×N array whose one row is the vector `b`. -/
def rowOf (b : (⟨1, ![N]⟩ : Shape).Idx → α) : (⟨2, ![1, N]⟩ : Shape).Idx → α :=
  fun j => b (ix1 ⟨(j 1).val, (j 1).isLt⟩)

theorem rowOf_ix2 (b : (⟨1, ![N]⟩ : Shape).Idx → α) (u : Fin 1) (q : Fin N) : rowOf b (ix2 u q) = b (ix1 q) := rfl

/-- A length-N vector reshaped to 1×N is its row. -/
theorem reshape_eq_rowOf (b : (⟨1, ![N]⟩ : Shape).Idx → α) (h : (⟨1, ![N]⟩ : Shape).ShapeCasts ⟨2, ![1, N]⟩) :
    shapeCast ⟨2, ![1, N]⟩ b h = rowOf b := by
  funext j
  obtain ⟨u, q, rfl⟩ : ∃ (u : Fin 1) (q : Fin N), j = ix2 u q := ⟨j 0, j 1, eq_ix2 j⟩
  rw [shapeCast_a_1a_apply b h u q, rowOf_ix2]

/-- The vector broadcast along axis 1 to 1×N, read at (u, q). -/
theorem bcast_1N_apply (b : (⟨1, ![N]⟩ : Shape).Idx → α) (h : (⟨1, ![N]⟩ : Shape).BroadcastsInDim ⟨2, ![1, N]⟩ ![1])
    (u : Fin 1) (q : Fin N) : broadcastInDim ⟨2, ![1, N]⟩ ![1] h b (ix2 u q) = b (ix1 q) := by
  refine broadcastInDim_apply ![1] h b (ix2 u q) (ix1 q) fun ax => ?_
  match ax with
  | ⟨0, _⟩ =>
    show q.val = if N = 1 then 0 else q.val
    split
    · have := q.isLt; omega
    · rfl

/-- A 1×N array broadcast along both axes to M×N, read at (p, q), is its row at q. -/
theorem bcast_MN_apply (r : (⟨2, ![1, N]⟩ : Shape).Idx → α) (h : (⟨2, ![1, N]⟩ : Shape).BroadcastsInDim ⟨2, ![M, N]⟩ ![0, 1])
    (p : Fin M) (q : Fin N) : broadcastInDim ⟨2, ![M, N]⟩ ![0, 1] h r (ix2 p q) = r (ix2 (0 : Fin 1) q) := by
  refine broadcastInDim_apply ![0, 1] h r (ix2 p q) (ix2 (0 : Fin 1) q) fun ax => ?_
  match ax with
  | ⟨0, _⟩ => rfl
  | ⟨1, _⟩ =>
    show q.val = if N = 1 then 0 else q.val
    split
    · have := q.isLt; omega
    · rfl

/-- The vector broadcast to 1×N and then to M×N reads, at (p, q), the vector at q. -/
theorem bcast_row_apply (b : (⟨1, ![N]⟩ : Shape).Idx → α) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [bcast_MN_apply, bcast_1N_apply]

end Cert.LibRowBias

end
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.RefValue.lean ====
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws
import Idealize.ShloMosaic.Lib.IdealHost
import proofs.«207969_g80633716015134_cont_9to1_m_1245_11_alg».proof.Proof.RefRun
import proofs.«207969_g80633716015134_cont_9to1_m_1245_11_alg».proof.Proof.LibSegSum
import proofs.«207969_g80633716015134_cont_9to1_m_1245_11_alg».proof.Proof.LibColBcast
import proofs.«207969_g80633716015134_cont_9to1_m_1245_11_alg».proof.Proof.LibRowBias
import proofs.«207969_g80633716015134_cont_9to1_m_1245_11_alg».proof.Proof.LibDense

/-!
  The reference's result read entry by entry. For an edge list whose every entry, read signed, is a node number
  (0 … 9999), the result at node n and column j is

    max (agg n j / √(deg n) + b j) 0,

  with cnt n the number of edges into n that are no self-loops, deg n = max 1 (cnt n + 1),
  h n j = ∑ₖ (x (n, k) / √(deg n)) · w (j, k), and agg n j = (∑ over the edges e into n of: h (source of e) j when e is
  no self-loop, else 0) + h n j. Division and square root are the extended reals' (division by zero and the root
  of a negative have the conventional values stated with those operations); none of it needs the floats finite.
-/

noncomputable section

namespace Cert.ReferenceIdeal.RefRun

open Cert.ReferenceIdeal Cert.ReferenceIdeal.Gen Idealize.ShloMosaic Idealize.ShloMosaic.ValueIdx
open scoped BigOperators

/-! ## The edge list read at an edge -/

/-- The source word of edge e: row 0 of the edge list. -/
def srcW (ei : IVec S2x320000 32) (e : Fin 320000) : BitVec 32 := ei (ix2 (0 : Fin 2) e)

/-- The destination word of edge e: row 1 of the edge list. -/
def dstW (ei : IVec S2x320000 32) (e : Fin 320000) : BitVec 32 := ei (ix2 (1 : Fin 2) e)

/-- Every entry of the edge list, read as a signed integer, is a node number: between 0 and 9999. -/
def InRange (ei : IVec S2x320000 32) : Prop :=
  ∀ (r : Fin 2) (e : Fin 320000), 0 ≤ (ei (ix2 r e)).toInt ∧ (ei (ix2 r e)).toInt ≤ 9999

theorem srcV_apply (ei : IVec S2x320000 32) (e : Fin 320000) : srcV ei (ix1 e) = srcW ei e := by
  unfold srcV srcW
  refine (shapeCast_1a_a_apply _ _ e).trans ?_
  exact slice2_axis0_apply 0 ei _ (0 : Fin 1) e (0 : Fin 2) rfl

theorem dstV_apply (ei : IVec S2x320000 32) (e : Fin 320000) : dstV ei (ix1 e) = dstW ei e := by
  unfold dstV dstW
  refine (shapeCast_1a_a_apply _ _ e).trans ?_
  exact slice2_axis0_apply 1 ei _ (0 : Fin 1) e (1 : Fin 2) rfl

/-- The self-loop flag of edge e is the comparison of its two words. -/
theorem neV_apply (ei : IVec S2x320000 32) (e : Fin 320000) :
    neV ei (ix1 e) = IntOp.cmpi .ne (srcW ei e) (dstW ei e) := by
  unfold neV
  show IntOp.cmpi .ne (srcV ei (ix1 e)) (dstV ei (ix1 e)) = _
  rw [srcV_apply, dstV_apply]

/-- Wrapping leaves a nonnegative index as it is. -/
theorem wrapV_apply (d : IVec S320000 32) (e : Fin 320000) (h0 : 0 ≤ (d (ix1 e)).toInt) : wrapV d (ix1 e) = d (ix1 e) := by
  unfold wrapV
  rw [select_apply]
  have hc : cmpi .slt d (broadcastInDim S320000 ![] bcast_S_S320000 (constantI S_ 32 0#32)) (ix1 e) = 0#1 := by
    refine eq_zero_of_ne_one fun h => ?_
    have h1 : (d (ix1 e)).toInt < (0#32 : BitVec 32).toInt := IntOp.cmpi_slt.mp h
    have h2 : (0#32 : BitVec 32).toInt = 0 := by decide
    omega
  rw [hc, select_zero]

/-- An index list as a column reads, at row e, the list's entry e. -/
theorem colV_apply (d : IVec S320000 32) (e : Fin 320000) (u : Fin 1) : colV d (ix2 e u) = d (ix1 e) :=
  Cert.LibColBcast.bcast_a1_apply d _ e u

/-- The wrapped destinations as a column, at row e: the destination word, when the edge list is in range. -/
theorem dstCol_apply (ei : IVec S2x320000 32) (hei : InRange ei) (e : Fin 320000) (u : Fin 1) :
    colV (wrapV (dstV ei)) (ix2 e u) = dstW ei e := by
  rw [colV_apply, wrapV_apply _ _ (by rw [dstV_apply]; exact (hei 1 e).1), dstV_apply]

/-- The wrapped sources as a column, at row e: the source word, when the edge list is in range. -/
theorem srcCol_apply (ei : IVec S2x320000 32) (hei : InRange ei) (e : Fin 320000) (u : Fin 1) :
    colV (wrapV (srcV ei)) (ix2 e u) = srcW ei e := by
  rw [colV_apply, wrapV_apply _ _ (by rw [srcV_apply]; exact (hei 0 e).1), srcV_apply]

/-! ## Host operations and splat constants read at an index -/

theorem hostSqrt_apply {s : Shape} {φ : FTy} (a : FVec Ideal s φ) (i : s.Idx) : Host.sqrt a i = Ideal.sqrt (a i) := rfl

theorem hostScatterAdd_eq {s si u : Shape} {v : ℕ} {φ : FTy} (d : ScatterDims s si u) (a : FVec Ideal s φ) (idx : IVec si v)
    (upd : FVec Ideal u φ) : Host.scatterAdd (F := Ideal) d a idx upd = Ideal.hostScatterAdd d a idx upd := rfl

theorem uitofp_apply {s : Shape} {v : ℕ} (a : IVec s v) (i : s.Idx) :
    uitofp (F := Ideal) .f32 a i = (((a i).toNat : ℝ) : EReal) := rfl

/-- A float word broadcast to any shape reads the word's value everywhere. -/
theorem bcast_const_apply {T : Shape} (h : S_.BroadcastsInDim T ![]) (bits : BitVec 32) (j : T.Idx) :
    broadcastInDim T ![] h (constant (F := Ideal) S_ .f32 bits) j = Ideal.ofBits .f32 bits := by
  rw [broadcastInDim_scalar_apply]; rfl

/-- An integer word broadcast to any shape reads the word everywhere. -/
theorem bcast_constI_apply {T : Shape} {v : ℕ} (h : S_.BroadcastsInDim T ![]) (c : BitVec v) (j : T.Idx) :
    broadcastInDim T ![] h (constantI S_ v c) j = c := by
  rw [broadcastInDim_scalar_apply]; rfl

theorem scatterVec_eq : scatter_S10000_S320000x1_S320000_n_0_0_1
    = Cert.LibSegSum.vecScatter 10000 320000 scatter_S10000_S320000x1_S320000_n_0_0_1_wf := rfl

theorem scatterRow_eq : scatter_S10000x128_S320000x1_S320000x128_1_0_0_1
    = Cert.LibSegSum.rowScatter 10000 128 320000 scatter_S10000x128_S320000x1_S320000x128_1_0_0_1_wf := rfl

theorem gatherRow_eq : gather_S10000x128_S320000x1_S320000x128_1_0_n_n_0_1_1128
    = Cert.LibSegSum.rowGather 10000 128 320000 gather_S10000x128_S320000x1_S320000x128_1_0_n_n_0_1_1128_wf := rfl

theorem dotPlain_eq : dot_S10000x128_S128x128_S10000x128_1_0_0_1_n_n = DotDims.plain 10000 128 128 := rfl

/-! ## The degree -/

/-- The edges into node n: those whose destination word, read signed, is n. -/
def inEdges (ei : IVec S2x320000 32) (n : Fin 10000) : Finset (Fin 320000) :=
  Finset.univ.filter fun e => (dstW ei e).toInt = (n.val : ℤ)

/-- The number of edges into n that are no self-loops, as an extended real. -/
def cntS (ei : IVec S2x320000 32) (n : Fin 10000) : EReal :=
  ∑ e ∈ inEdges ei n, (if srcW ei e ≠ dstW ei e then (1 : EReal) else 0)

/-- The degree of n: that count plus one, and at least one. -/
def degS (ei : IVec S2x320000 32) (n : Fin 10000) : EReal := max 1 (cntS ei n + 1)

/-- The rows of the wrapped destination column that name node n are the edges into n. -/
theorem landing_dst (ei : IVec S2x320000 32) (hei : InRange ei) (n : Fin 10000) :
    Cert.LibSegSum.landing (colV (wrapV (dstV ei))) n = inEdges ei n := by
  unfold Cert.LibSegSum.landing inEdges
  refine Finset.filter_congr fun e _ => ?_
  rw [dstCol_apply ei hei e 0]

/-- The flag of edge e as a float: one where the edge is no self-loop, zero where it is. -/
theorem flag_apply (ei : IVec S2x320000 32) (e : Fin 320000) :
    uitofp (F := Ideal) .f32 (neV ei) (ix1 e) = if srcW ei e ≠ dstW ei e then (1 : EReal) else 0 := by
  rw [uitofp_apply, neV_apply]
  by_cases h : srcW ei e = dstW ei e
  · have hz : IntOp.cmpi .ne (srcW ei e) (dstW ei e) = 0#1 := eq_zero_of_ne_one fun h1 => (IntOp.cmpi_ne.mp h1) h
    rw [hz, if_neg (not_not.mpr h)]
    simp
  · have ho : IntOp.cmpi .ne (srcW ei e) (dstW ei e) = 1#1 := IntOp.cmpi_ne.mpr h
    rw [ho, if_pos h]
    simp

theorem cntV_apply (ei : IVec S2x320000 32) (hei : InRange ei) (n : Fin 10000) : cntV ei (ix1 n) = cntS ei n := by
  unfold cntV cntS
  rw [hostScatterAdd_eq, scatterVec_eq, Cert.LibSegSum.vecScatterAdd_apply, landing_dst ei hei n, bcast_const_apply,
    Ideal.ofBits_zero_f32, zero_add]
  exact Finset.sum_congr rfl fun e _ => flag_apply ei e

theorem degV_apply (ei : IVec S2x320000 32) (hei : InRange ei) (n : Fin 10000) : degV ei (ix1 n) = degS ei n := by
  unfold degV degS
  rw [maximumf_apply, addf_apply, bcast_const_apply, cntV_apply ei hei n, Ideal.ofBits_one_f32]

/-- The square root of the degree, at any column of row n. -/
theorem sqrtDegV_apply (ei : IVec S2x320000 32) (hei : InRange ei) (n : Fin 10000) (k : Fin 128) :
    sqrtDegV ei (ix2 n k) = Ideal.sqrt (degS ei n) := by
  unfold sqrtDegV
  refine (Cert.LibColBcast.bcast_ab_apply _ _ n k).trans ?_
  refine (hostSqrt_apply _ _).trans (congrArg Ideal.sqrt ?_)
  unfold degColV
  exact (Cert.LibColBcast.bcast_a1_apply _ _ n 0).trans (degV_apply ei hei n)

/-! ## The linear map -/

/-- Row n of the features over the square root of n's degree, against row j of the weights. -/
def hS (x : FVec Ideal S10000x128 .f32) (ei : IVec S2x320000 32) (w : FVec Ideal S128x128 .f32) (n : Fin 10000) (j : Fin 128) : EReal :=
  ∑ k : Fin 128, Ideal.div (x (ix2 n k)) (Ideal.sqrt (degS ei n)) * w (ix2 j k)

theorem hV_apply (x : FVec Ideal S10000x128 .f32) (ei : IVec S2x320000 32) (hei : InRange ei) (w : FVec Ideal S128x128 .f32)
    (n : Fin 10000) (j : Fin 128) : hV x ei w (ix2 n j) = hS x ei w n j := by
  unfold hV hS Host.dotGeneral
  rw [dotPlain_eq, Cert.LibDense.plain_dotGeneral_apply]
  refine Finset.sum_congr rfl fun k _ => ?_
  rw [transpose_ix2_apply, hostDivf_apply, sqrtDegV_apply ei hei n k]

/-! ## Taking rows -/

/-- The node a word names: read signed, and clamped into 0 … 9999 (the identity on a word in range). -/
def nodeOf (v : BitVec 32) : Fin 10000 := ⟨min v.toInt.toNat 9999, by omega⟩

/-- An and-fold from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- Every start index in range: the in-range flag is 1 at every row. -/
theorem inRangeV_apply (i : IVec S320000x1 32) (hi : ∀ k, 0 ≤ (i k).toInt ∧ (i k).toInt ≤ 9999) (e : S320000.Idx) :
    inRangeV i e = 1#1 := by
  unfold inRangeV Host.reduce
  refine foldl_andi_one _ _ fun n _ => ?_
  refine IntOp.andi_eq_one.mpr ⟨IntOp.cmpi_sge.mpr ?_, IntOp.cmpi_sle.mpr ?_⟩
  · rw [bcast_constI_apply]
    have h0 : (0#32 : BitVec 32).toInt = 0 := by decide
    rw [h0]; exact (hi _).1
  · have h9 : broadcastInDim S320000x1 ![0, 1] bcast_S1x1_S320000x1_0_1
        (broadcastInDim S1x1 ![1] bcast_S1_S1x1_1 (constantI S1 32 9999#32)) (S320000x1.rowMajor.symm n) = 9999#32 := rfl
    rw [h9]
    have h1 : (9999#32 : BitVec 32).toInt = 9999 := by decide
    rw [h1]; exact (hi _).2

/-- A length-a vector laid along the rows of an a×b array reads, at (p, q), the vector at p. -/
theorem bcast_rows_apply {a c : ℕ} {α : Type} (v : (⟨1, ![a]⟩ : Shape).Idx → α)
    (h : (⟨1, ![a]⟩ : Shape).BroadcastsInDim ⟨2, ![a, c]⟩ ![0]) (p : Fin a) (q : Fin c) :
    broadcastInDim ⟨2, ![a, c]⟩ ![0] h v (ix2 p q) = v (ix1 p) := by
  refine broadcastInDim_apply ![0] h v (ix2 p q) (ix1 p) fun ax => ?_
  match ax with
  | ⟨0, _⟩ =>
    show p.val = if a = 1 then 0 else p.val
    split
    · have := p.isLt; omega
    · rfl

/-- Row e of the rows taken at an in-range index list is the row that index names. -/
theorem takeV_apply (h : FVec Ideal S10000x128 .f32) (s : IVec S320000 32)
    (hs : ∀ e : Fin 320000, 0 ≤ (s (ix1 e)).toInt ∧ (s (ix1 e)).toInt ≤ 9999) (e : Fin 320000) (j : Fin 128) :
    takeV h s (ix2 e j) = h (ix2 (nodeOf (s (ix1 e))) j) := by
  have hcol : ∀ k : S320000x1.Idx, 0 ≤ (colV (wrapV s) k).toInt ∧ (colV (wrapV s) k).toInt ≤ 9999 := by
    intro k
    obtain ⟨e', u, rfl⟩ : ∃ (e' : Fin 320000) (u : Fin 1), k = ix2 e' u := ⟨k 0, k 1, eq_ix2 k⟩
    rw [colV_apply, wrapV_apply _ _ (hs e').1]; exact hs e'
  unfold takeV
  rw [select_apply]
  have hc : broadcastInDim S320000x128 ![0] bcast_S320000_S320000x128_0 (inRangeV (colV (wrapV s))) (ix2 e j) = 1#1 := by
    exact (bcast_rows_apply _ _ e j).trans (inRangeV_apply _ hcol _)
  rw [hc, select_one, gatherRow_eq, Cert.LibSegSum.rowGather_apply (by decide)]
  refine congrArg (fun r => h (ix2 r j)) (Fin.ext ?_)
  show min (colV (wrapV s) (ix2 e (0 : Fin 1))).toInt.toNat (10000 - 1) = min (s (ix1 e)).toInt.toNat 9999
  rw [colV_apply, wrapV_apply _ _ (hs e).1]

/-! ## The messages, the aggregation and the output -/

/-- The message of edge e at column j: the linear map's row at the edge's source, or zero on a self-loop. -/
def msgS (x : FVec Ideal S10000x128 .f32) (ei : IVec S2x320000 32) (w : FVec Ideal S128x128 .f32) (e : Fin 320000) (j : Fin 128) : EReal :=
  if srcW ei e ≠ dstW ei e then hS x ei w (nodeOf (srcW ei e)) j else 0

theorem msgV_apply (x : FVec Ideal S10000x128 .f32) (ei : IVec S2x320000 32) (hei : InRange ei) (w : FVec Ideal S128x128 .f32)
    (e : Fin 320000) (j : Fin 128) : msgV x ei w (ix2 e j) = msgS x ei w e j := by
  unfold msgV msgS
  rw [select_apply, Cert.LibColBcast.bcast_col_apply, neV_apply]
  by_cases h : srcW ei e = dstW ei e
  · rw [eq_zero_of_ne_one fun h1 => (IntOp.cmpi_ne.mp h1) h, select_zero, if_neg (not_not.mpr h), bcast_const_apply,
      Ideal.ofBits_zero_f32]
  · rw [IntOp.cmpi_ne.mpr h, select_one, if_pos h,
      takeV_apply _ _ (fun e' => by rw [srcV_apply]; exact hei 0 e') e j, hV_apply x ei hei w, srcV_apply]

/-- The aggregation at node n, column j: the messages of the edges into n, plus n's own row of the linear map. -/
def aggS (x : FVec Ideal S10000x128 .f32) (ei : IVec S2x320000 32) (w : FVec Ideal S128x128 .f32) (n : Fin 10000) (j : Fin 128) : EReal :=
  (∑ e ∈ inEdges ei n, msgS x ei w e j) + hS x ei w n j

theorem aggV_apply (x : FVec Ideal S10000x128 .f32) (ei : IVec S2x320000 32) (hei : InRange ei) (w : FVec Ideal S128x128 .f32)
    (n : Fin 10000) (j : Fin 128) : aggV x ei w (ix2 n j) = aggS x ei w n j := by
  unfold aggV aggS
  rw [addf_apply, hostScatterAdd_eq, scatterRow_eq, Cert.LibSegSum.rowScatterAdd_apply, landing_dst ei hei n, bcast_const_apply,
    Ideal.ofBits_zero_f32, zero_add, hV_apply x ei hei w n j]
  exact congrArg (· + hS x ei w n j) (Finset.sum_congr rfl fun e _ => msgV_apply x ei hei w e j)

/-- The layer's output at node n, column j: the aggregation over the square root of n's degree, plus the bias at j,
    and at least zero. -/
def spec (x : FVec Ideal S10000x128 .f32) (ei : IVec S2x320000 32) (w : FVec Ideal S128x128 .f32) (b : FVec Ideal S128 .f32)
    (n : Fin 10000) (j : Fin 128) : EReal :=
  max (Ideal.div (aggS x ei w n j) (Ideal.sqrt (degS ei n)) + b (ix1 j)) 0

/-- The reference's result read at (n, j), for an edge list whose every entry is a node number. -/
theorem result_apply (x : FVec Ideal S10000x128 .f32) (ei : IVec S2x320000 32) (hei : InRange ei) (w : FVec Ideal S128x128 .f32)
    (b : FVec Ideal S128 .f32) (n : Fin 10000) (j : Fin 128) : result x ei w b (ix2 n j) = spec x ei w b n j := by
  unfold result spec
  rw [maximumf_apply, addf_apply, hostDivf_apply, aggV_apply x ei hei w n j, sqrtDegV_apply ei hei n j,
    Cert.LibRowBias.bcast_row_apply, bcast_const_apply, Ideal.ofBits_zero_f32]

end Cert.ReferenceIdeal.RefRun

end
-- ==== Proof.VEdges.lean ====
/-
  The padded index arrays read at an edge position: the first 320000 positions hold the edge list's row (sources, or
  destinations), the last 7680 hold zero. Hence a padding position is a self-loop (0 → 0) and lands on the dummy slot;
  and a sum over all 327680 positions of a term that vanishes off "the landing slot is node n" is the sum over the edges
  into n of the term at the edges that are no self-loops.
-/
import proofs.«207969_g80633716015134_cont_9to1_m_1245_11_alg».proof.Proof.KMain
import proofs.«207969_g80633716015134_cont_9to1_m_1245_11_alg».proof.Proof.RefValue
import Idealize.ShloMosaic.Lib.Pipeline.Value

noncomputable section

namespace Cert.KernelIdeal.Run

open Cert.KernelIdeal Cert.KernelIdeal.Gen
open Idealize.ShloMosaic Idealize.ShloMosaic.ValueIdx Idealize.SL.Sem
open Idealize.ShloMosaic.StableHlo (after)
open Cert.ReferenceIdeal.RefRun (srcV dstV srcW dstW srcV_apply dstV_apply inEdges InRange)

variable {F : FTy → Type} [FloatOps F]

variable (m : (ℓ : Loc nD τ sig) → Buf (Elt F) ℓ)

/-- The edge list as launched, on device d. -/
abbrev eiOf (d : Dev nD) : IVec S2x320000 32 := m ((SparseCore.T d).loc main_arg1)

/-- The padded source array at position e. -/
theorem fs_apply (d : Dev nD) (e : Fin 327680) :
    fs m d (ix1 e) = if h : e.val < 320000 then srcW (eiOf m d) ⟨e.val, h⟩ else 0#32 := by
  unfold fs V1
  after_results
  by_cases h : e.val < 320000
  · rw [dif_pos h]
    refine (concatenate_pair_apply_left (t := S327680) 0 _ _ concatenates_S320000_S7680_S327680_d0 (ix1 e) rfl
      (ix1 (⟨e.val, h⟩ : Fin 320000)) (fun b => by match b with | ⟨0, _⟩ => rfl)).trans ?_
    exact srcV_apply (eiOf m d) ⟨e.val, h⟩
  · rw [dif_neg h]
    refine (concatenate_pair_apply_right (t := S327680) 0 _ _ concatenates_S320000_S7680_S327680_d0 (ix1 e) rfl rfl
      (ix1 (⟨e.val - 320000, by have := e.isLt; omega⟩ : Fin 7680)) (fun b hb => absurd (Fin.ext (by match b with | ⟨0, _⟩ => rfl)) hb)
      (by show (e.val - 320000) + 320000 = e.val; omega)).trans ?_
    rfl

/-- The padded destination array at position e. -/
theorem fd_apply (d : Dev nD) (e : Fin 327680) :
    fd m d (ix1 e) = if h : e.val < 320000 then dstW (eiOf m d) ⟨e.val, h⟩ else 0#32 := by
  unfold fd V1
  after_results
  by_cases h : e.val < 320000
  · rw [dif_pos h]
    refine (concatenate_pair_apply_left (t := S327680) 0 _ _ concatenates_S320000_S7680_S327680_d0 (ix1 e) rfl
      (ix1 (⟨e.val, h⟩ : Fin 320000)) (fun b => by match b with | ⟨0, _⟩ => rfl)).trans ?_
    exact dstV_apply (eiOf m d) ⟨e.val, h⟩
  · rw [dif_neg h]
    refine (concatenate_pair_apply_right (t := S327680) 0 _ _ concatenates_S320000_S7680_S327680_d0 (ix1 e) rfl rfl
      (ix1 (⟨e.val - 320000, by have := e.isLt; omega⟩ : Fin 7680)) (fun b hb => absurd (Fin.ext (by match b with | ⟨0, _⟩ => rfl)) hb)
      (by show (e.val - 320000) + 320000 = e.val; omega)).trans ?_
    rfl

/-! ## Positions to edges -/

section Positions

variable (ei : IVec S2x320000 32)

/-- The source word at a padded position: the edge's, or zero past the last edge. -/
def sP (e : Fin 327680) : BitVec 32 := if h : e.val < 320000 then srcW ei ⟨e.val, h⟩ else 0#32
/-- The destination word at a padded position. -/
def dP (e : Fin 327680) : BitVec 32 := if h : e.val < 320000 then dstW ei ⟨e.val, h⟩ else 0#32
/-- The slot a padded position lands on: the dummy slot 10240 for a self-loop, the destination otherwise. -/
def dmP (e : Fin 327680) : ℕ := if sP ei e = dP ei e then 10240 else (dP ei e).toNat

/-- A word that, read signed, is a node number is that number read unsigned. -/
theorem toInt_eq_iff_toNat (v : BitVec 32) (h0 : 0 ≤ v.toInt) (n : ℕ) : v.toInt = (n : ℤ) ↔ v.toNat = n := by
  rw [BitVec.toInt_eq_toNat_cond] at h0 ⊢
  split at h0 <;> split <;> omega

/-- A sum over all padded positions of a term supported on "the position lands on node n" is the sum over the edges into n
    of the term at the edges that are no self-loops: padding positions are self-loops, and a self-loop lands on the dummy
    slot, which is no node. -/
theorem sum_positions {M : Type} [AddCommMonoid M] (hei : InRange ei) (n : Fin 10000) (g : Fin 320000 → M) :
    (∑ e : Fin 327680, if dmP ei e = n.val then (if h : e.val < 320000 then g ⟨e.val, h⟩ else 0) else 0)
      = ∑ e ∈ inEdges ei n, if srcW ei e ≠ dstW ei e then g e else 0 := by
  have hsplit := Fin.sum_univ_add (a := 320000) (b := 7680)
    (fun e : Fin (320000 + 7680) => if dmP ei e = n.val then (if h : e.val < 320000 then g ⟨e.val, h⟩ else 0) else (0 : M))
  refine (show (∑ e : Fin 327680, if dmP ei e = n.val then (if h : e.val < 320000 then g ⟨e.val, h⟩ else 0) else (0 : M)) = _ from hsplit).trans ?_
  have hpad : (∑ j : Fin 7680, if dmP ei (Fin.natAdd 320000 j) = n.val
      then (if h : (Fin.natAdd 320000 j : Fin (320000 + 7680)).val < 320000 then g ⟨(Fin.natAdd 320000 j : Fin (320000 + 7680)).val, h⟩ else 0) else (0 : M)) = 0 := by
    refine Finset.sum_eq_zero fun j _ => ?_
    have hj : ¬ ((Fin.natAdd 320000 j : Fin (320000 + 7680)).val < 320000) := by simp
    have : dmP ei (Fin.natAdd 320000 j) = 10240 := by
      unfold dmP sP dP; rw [dif_neg hj, dif_neg hj]; simp
    rw [this, if_neg (by have := n.isLt; omega)]
  rw [hpad, add_zero]
  unfold inEdges
  rw [Finset.sum_filter]
  refine Finset.sum_congr rfl fun e _ => ?_
  have he : ((Fin.castAdd 7680 e : Fin (320000 + 7680)).val < 320000) := by simp
  have hs : sP ei (Fin.castAdd 7680 e) = srcW ei e := by unfold sP; rw [dif_pos he]; rfl
  have hd : dP ei (Fin.castAdd 7680 e) = dstW ei e := by unfold dP; rw [dif_pos he]; rfl
  rw [dif_pos he]
  unfold dmP; rw [hs, hd]
  have h0 : 0 ≤ (dstW ei e).toInt := (hei 1 e).1
  by_cases hsd : srcW ei e = dstW ei e
  · rw [if_pos hsd, if_neg (by have := n.isLt; omega)]
    split
    · rw [if_neg (fun h => h hsd)]
    · rfl
  · rw [if_neg hsd, if_pos hsd]
    by_cases hn : (dstW ei e).toNat = n.val
    · rw [if_pos hn, if_pos ((toInt_eq_iff_toNat _ h0 n.val).mpr hn)]; rfl
    · rw [if_neg hn, if_neg (fun h => hn ((toInt_eq_iff_toNat _ h0 n.val).mp h))]

/-- The same for a term given at every padded position. -/
theorem sum_positions' {M : Type} [AddCommMonoid M] (hei : InRange ei) (n : Fin 10000) (g : Fin 327680 → M) :
    (∑ e : Fin 327680, if dmP ei e = n.val then g e else 0)
      = ∑ e ∈ inEdges ei n, if srcW ei e ≠ dstW ei e then g ⟨e.val, by have := e.isLt; omega⟩ else 0 := by
  rw [← sum_positions ei hei n (fun e => g ⟨e.val, by have := e.isLt; omega⟩)]
  refine Finset.sum_congr rfl fun e _ => ?_
  by_cases hd : dmP ei e = n.val
  · rw [if_pos hd, if_pos hd]
    have he : e.val < 320000 := by
      by_contra hc
      have : dmP ei e = 10240 := by unfold dmP sP dP; rw [dif_neg hc, dif_neg hc]; simp
      have := n.isLt; omega
    rw [dif_pos he]
  · rw [if_neg hd, if_neg hd]

/-- At an edge position the source and destination words are the edge's. -/
theorem sP_edge (e : Fin 320000) : sP ei ⟨e.val, by have := e.isLt; omega⟩ = srcW ei e := by
  unfold sP; rw [dif_pos e.isLt]
theorem dP_edge (e : Fin 320000) : dP ei ⟨e.val, by have := e.isLt; omega⟩ = dstW ei e := by
  unfold dP; rw [dif_pos e.isLt]

end Positions

end Cert.KernelIdeal.Run

end
-- ==== Proof.KPay1Value.lean ====
import proofs.«207969_g80633716015134_cont_9to1_m_1245_11_alg».proof.Proof.Gen.KernelIdeal.Skeleton
import proofs.«207969_g80633716015134_cont_9to1_m_1245_11_alg».proof.Proof.LibDense
import proofs.«207969_g80633716015134_cont_9to1_m_1245_11_alg».proof.Proof.LibColBcast
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-!
  The three values the first gridded region's body stores, read entry by entry on the extended reals, from the three
  blocks it loads: c, a 32×1280×1 block of per-worker counts; x, a 1280×128 block of features; w, the 128×128 weights
  (already transposed: row k, column q).

    r i      = 1 / √((∑ over the 32 workers p of c (p, i, 0)) + 1)        the degree factor of row i
    h (i, q) = (∑ₖ x (i, k) · w (k, q)) · r i                              the scaled linear map
    hᵀ (q, i) = h (i, q)                                                    its transpose
-/

noncomputable section

namespace Cert.KernelIdeal.Run

open Cert.KernelIdeal Cert.KernelIdeal.Gen Idealize.ShloMosaic Idealize.ShloMosaic.ValueIdx
open scoped BigOperators

/-- A reciprocal square root at an index is the element's. -/
theorem rsqrt_apply {s : Shape} {φ : FTy} (a : FVec Ideal s φ) (i : s.Idx) : rsqrt a i = Ideal.rsqrt (a i) := rfl

/-- A reshape to the same shape reads the operand where it is read. -/
theorem shapeCast_same_apply {α : Type} {s : Shape} (v : s.Idx → α) (h : s.ShapeCasts s) (j : s.Idx) : shapeCast s v h j = v j :=
  shapeCast_apply v h j j rfl

/-- Over row (i, u) of the 1280×1 result, the index of the 32×1280×1 block with worker coordinate p is (p, i, u). -/
theorem lift_counts (h : S32x1280x1.Reduces [0] S1280x1) (i : Fin 1280) (u : Fin 1) (p : Fin 32) :
    h.lift (ix2 i u) p = ix3 p i u := by
  funext c
  refine Fin.ext ?_
  match c with
  | ⟨0, _⟩ => rfl
  | ⟨1, _⟩ => rfl
  | ⟨2, _⟩ => rfl

/-- The degree factor the body stores: one over the square root of (the counts summed over the 32 workers, plus one). -/
theorem k1_pay1_apply (v0 : Vec Ideal S32x1280x1 .f32) (i : Fin 1280) (u : Fin 1) :
    k1_pay1 (F := Ideal) v0 (ix2 i u) = Ideal.rsqrt ((∑ p : Fin 32, v0 (ix3 p i u)) + 1) := by
  unfold k1_pay1
  rw [rsqrt_apply, addf_apply, broadcast_apply]
  refine congrArg Ideal.rsqrt ?_
  refine congrArg₂ (· + ·) ?_ Ideal.ofBits_one_f32
  refine (Ideal.multiReduction_add_single _ _ _ _ _ (ix2 i u)).trans ?_
  exact Finset.sum_congr rfl fun p _ => (shapeCast_same_apply _ _ _).trans (congrArg v0 (lift_counts _ i u p))

theorem dotPlain1_eq : dot_S1280x128_S128x128_S1280x128_1_0_0_1_n_n = DotDims.plain 1280 128 128 := rfl

/-- The scaled linear map the body stores: row i of the features against column q of the weights, times row i's degree
    factor. -/
theorem k1_pay2_apply (v0 : Vec Ideal S32x1280x1 .f32) (v6 : Vec Ideal S1280x128 .f32) (v8 : Vec Ideal S128x128 .f32)
    (i : Fin 1280) (q : Fin 128) :
    k1_pay2 (F := Ideal) v0 v6 v8 (ix2 i q)
      = (∑ k : Fin 128, v6 (ix2 i k) * v8 (ix2 k q)) * k1_pay1 (F := Ideal) v0 (ix2 i (0 : Fin 1)) := by
  unfold k1_pay2 matmul
  rw [mulf_apply, dotPlain1_eq, Cert.LibDense.plain_matmul_apply, Cert.LibColBcast.broadcastTo_a1_ab_apply]
  refine congrArg (· * _) ?_
  exact Finset.sum_congr rfl fun k _ => by rw [shapeCast_same_apply, shapeCast_same_apply]

/-- The transposed copy the body stores. -/
theorem k1_pay3_apply (v0 : Vec Ideal S32x1280x1 .f32) (v6 : Vec Ideal S1280x128 .f32) (v8 : Vec Ideal S128x128 .f32)
    (q : Fin 128) (i : Fin 1280) :
    k1_pay3 (F := Ideal) v0 v6 v8 (ix2 q i) = k1_pay2 (F := Ideal) v0 v6 v8 (ix2 i q) := by
  unfold k1_pay3
  exact transpose_ix2_apply _ _ q i

end Cert.KernelIdeal.Run

end
-- ==== Proof.VReg0Value.lean ====
/-
  The first gridded region's three result arrays after the region, whole, on the extended reals, as functions of the three
  arrays it reads as it finds them: padded node r's degree factor is one over the square root of (the 32 workers' counts
  for r, summed, plus one); the scaled linear map at (r, q) is row r of the features against column q of the transposed
  weights, times that factor; the third array is its transpose. Each grid point writes back its block of these functions,
  and the eight blocks tile each array.
-/
import proofs.«207969_g80633716015134_cont_9to1_m_1245_11_alg».proof.Proof.KReg0Body
import proofs.«207969_g80633716015134_cont_9to1_m_1245_11_alg».proof.Proof.KPay1Value
import Idealize.ShloMosaic.Lib.Pipeline.Value
import Idealize.ShloMosaic.Lib.Tactic

set_option maxRecDepth 16384

noncomputable section

namespace Cert.KernelIdeal.Run

open Cert.KernelIdeal Cert.KernelIdeal.Gen

open Idealize.ShloMosaic Idealize.ShloMosaic.TcCoe Idealize.ShloMosaic.ValueIdx
open Idealize.SL Idealize.SL.Sem
open Idealize.ShloMosaic.Pipeline (Dat)
open Idealize.ShloMosaic.SparseCore.Cfg (HIx)
open scoped BigOperators

namespace RegVal

variable (V : (c : Dev nD) → (b : Ref sig .tc) → Buf (Elt Ideal) ((c : Thread nD τ).loc b)) (O : CellTallies nD τ sig (HIx 2))
  (B : Set (SemLoc sig × HIx 2))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps of the first region, decided over its eight grid points: the features', the counts' and the
    three outputs' blocks all move with the point along the node axis, the weights' block stays. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 3) = 0 ∧ win1_2.index t (1 : Fin 3) = t.val ∧ win1_2.index t (2 : Fin 3) = 0
    ∧ win1_3.index t (0 : Fin 2) = t.val ∧ win1_3.index t (1 : Fin 2) = 0
    ∧ win1_4.index t (0 : Fin 2) = 0 ∧ win1_4.index t (1 : Fin 2) = t.val
    ∧ win1_5.index t (0 : Fin 2) = t.val ∧ win1_5.index t (1 : Fin 2) = 0 :=
  (by decide +kernel : ∀ t : Fin grid1.N, _)

/-- The degree factor of padded node i from the 32 workers' counts: one over the square root of their sum plus one. -/
def rW (cnt : S32x10240x1.Idx → EReal) (i : Fin 10240) : EReal :=
  Ideal.rsqrt ((∑ p : Fin 32, cnt (ix3 p i (0 : Fin 1))) + 1)

/-- The array of degree factors. -/
def G5 (cnt : S32x10240x1.Idx → EReal) : S10240x1.Idx → EReal := fun i => rW cnt ⟨(i 0).val, idx2_lt0 i⟩

/-- The scaled linear map at padded node r, column q, from the whole arrays: row r of the features against column q of
    the transposed weights, times r's degree factor. -/
def hW (x : S10240x128.Idx → EReal) (wt : S128x128.Idx → EReal) (cnt : S32x10240x1.Idx → EReal) (r : Fin 10240) (q : Fin 128) : EReal :=
  (∑ k : Fin 128, x (ix2 r k) * wt (ix2 k q)) * rW cnt r

/-- The three arrays the region writes, as functions of the three it reads. -/
def G3 (x : S10240x128.Idx → EReal) (wt : S128x128.Idx → EReal) (cnt : S32x10240x1.Idx → EReal) : S10240x128.Idx → EReal :=
  fun i => hW x wt cnt ⟨(i 0).val, idx2_lt0 i⟩ ⟨(i 1).val, idx2_lt1 i⟩
def G4 (x : S10240x128.Idx → EReal) (wt : S128x128.Idx → EReal) (cnt : S32x10240x1.Idx → EReal) : S128x10240.Idx → EReal :=
  fun i => hW x wt cnt ⟨(i 1).val, idx2_lt1 i⟩ ⟨(i 0).val, idx2_lt0 i⟩

theorem row_lt (t : Fin cfg1.N) (jr : Fin 1280) : t.val * 1280 + jr.val < 10240 := by
  have h8 : cfg1.N = 8 := N_1
  have := t.isLt; have := jr.isLt; omega

/-- Row jr of point t's block is padded node 1280 t + jr. -/
def rowOf (t : Fin cfg1.N) (jr : Fin 1280) : Fin 10240 := ⟨t.val * 1280 + jr.val, row_lt t jr⟩

/-- The degree factor the body computes from point t's block of counts, at the block's row jr. -/
theorem pay1_blocks (c : Dev nD) (t : Fin cfg1.N) (jr : Fin 1280) (ju : Fin 1) :
    k1_pay1 (F := Ideal) (iblk1 V c 2 t) (ix2 jr ju) = rW (V c main_v15) (rowOf t jr) := by
  obtain ⟨e00, e01, e10, e11, e20, e21, e22, e30, e31, e40, e41, e50, e51⟩ := idx_facts1 t
  refine (k1_pay1_apply _ jr ju).trans ?_
  unfold rW
  refine congrArg Ideal.rsqrt (congrArg (· + 1) (Finset.sum_congr rfl fun p _ => ?_))
  show V c main_v15 (((cfg1.win 2).blk t).view.emb (ix3 p jr ju)) = _
  refine congrArg (V c main_v15) (funext fun a => Fin.ext ?_)
  match a with
  | ⟨0, _⟩ => show win1_2.index t (0 : Fin 3) * 32 + 1 * p.val = p.val; omega
  | ⟨1, _⟩ => show win1_2.index t (1 : Fin 3) * 1280 + 1 * jr.val = t.val * 1280 + jr.val; omega
  | ⟨2, _⟩ => show win1_2.index t (2 : Fin 3) * 1 + 1 * ju.val = 0; have := ju.isLt; omega

/-- The scaled linear map the body computes from point t's blocks, at the block's (jr, jq). -/
theorem pay2_blocks (c : Dev nD) (t : Fin cfg1.N) (jr : Fin 1280) (jq : Fin 128) :
    k1_pay2 (F := Ideal) (iblk1 V c 2 t) (iblk1 V c 0 t) (iblk1 V c 1 t) (ix2 jr jq)
      = hW (V c main_v9) (V c main_v11) (V c main_v15) (rowOf t jr) jq := by
  obtain ⟨e00, e01, e10, e11, e20, e21, e22, e30, e31, e40, e41, e50, e51⟩ := idx_facts1 t
  refine (k1_pay2_apply _ _ _ jr jq).trans ?_
  unfold hW
  refine congrArg₂ (· * ·) (Finset.sum_congr rfl fun k _ => congrArg₂ (· * ·) ?_ ?_) (pay1_blocks V c t jr 0)
  · show V c main_v9 (((cfg1.win 0).blk t).view.emb (ix2 jr k)) = _
    refine congrArg (V c main_v9) (funext fun a => Fin.ext ?_)
    match a with
    | ⟨0, _⟩ => show win1_0.index t (0 : Fin 2) * 1280 + 1 * jr.val = t.val * 1280 + jr.val; omega
    | ⟨1, _⟩ => show win1_0.index t (1 : Fin 2) * 128 + 1 * k.val = k.val; omega
  · show V c main_v11 (((cfg1.win 1).blk t).view.emb (ix2 k jq)) = _
    refine congrArg (V c main_v11) (funext fun a => Fin.ext ?_)
    match a with
    | ⟨0, _⟩ => show win1_1.index t (0 : Fin 2) * 128 + 1 * k.val = k.val; omega
    | ⟨1, _⟩ => show win1_1.index t (1 : Fin 2) * 128 + 1 * jq.val = jq.val; omega

/-! ## What each point writes back -/

theorem flushed3_eq (c : Dev nD) (t : Fin cfg1.N) :
    (dat1 (F := Ideal) V O B c).flushed 3 t
      = ((cfg1.win 3).blk t).view.read (Elt Ideal) (G3 (V c main_v9) (V c main_v11) (V c main_v15)) := by
  show (cfg1.win 3).cut (grid1.coords t) ((dat1 (F := Ideal) V O B c).after 3 t) = _
  rw [after1_3]
  unfold out1_3
  rw [View.canon_unit_zero hz2]
  simp only [View.ld_unit_zero (S := S32x1280x1) hz3, View.ld_unit_zero (S := S1280x128) hz2, View.ld_unit_zero (S := S128x128) hz2]
  obtain ⟨e00, e01, e10, e11, e20, e21, e22, e30, e31, e40, e41, e50, e51⟩ := idx_facts1 t
  funext j
  show k1_pay2 (F := Ideal) (iblk1 V c 2 t) (iblk1 V c 0 t) (iblk1 V c 1 t) j
    = G3 (V c main_v9) (V c main_v11) (V c main_v15) (((cfg1.win 3).blk t).view.emb j)
  obtain ⟨jr, jq, rfl⟩ : ∃ (jr : Fin 1280) (jq : Fin 128), j = ix2 jr jq := ⟨j 0, j 1, eq_ix2 j⟩
  refine (pay2_blocks V c t jr jq).trans ?_
  unfold G3
  refine congrArg₂ (hW _ _ _) (Fin.ext ?_) (Fin.ext ?_)
  · show t.val * 1280 + jr.val = win1_3.index t (0 : Fin 2) * 1280 + 1 * jr.val; omega
  · show jq.val = win1_3.index t (1 : Fin 2) * 128 + 1 * jq.val; omega

theorem flushed4_eq (c : Dev nD) (t : Fin cfg1.N) :
    (dat1 (F := Ideal) V O B c).flushed 4 t
      = ((cfg1.win 4).blk t).view.read (Elt Ideal) (G4 (V c main_v9) (V c main_v11) (V c main_v15)) := by
  show (cfg1.win 4).cut (grid1.coords t) ((dat1 (F := Ideal) V O B c).after 4 t) = _
  rw [after1_4]
  unfold out1_4
  rw [View.canon_unit_zero hz2]
  simp only [View.ld_unit_zero (S := S32x1280x1) hz3, View.ld_unit_zero (S := S1280x128) hz2, View.ld_unit_zero (S := S128x128) hz2]
  obtain ⟨e00, e01, e10, e11, e20, e21, e22, e30, e31, e40, e41, e50, e51⟩ := idx_facts1 t
  funext j
  show k1_pay3 (F := Ideal) (iblk1 V c 2 t) (iblk1 V c 0 t) (iblk1 V c 1 t) j
    = G4 (V c main_v9) (V c main_v11) (V c main_v15) (((cfg1.win 4).blk t).view.emb j)
  obtain ⟨jq, jr, rfl⟩ : ∃ (jq : Fin 128) (jr : Fin 1280), j = ix2 jq jr := ⟨j 0, j 1, eq_ix2 j⟩
  refine (k1_pay3_apply _ _ _ jq jr).trans ((pay2_blocks V c t jr jq).trans ?_)
  unfold G4
  refine congrArg₂ (hW _ _ _) (Fin.ext ?_) (Fin.ext ?_)
  · show t.val * 1280 + jr.val = win1_4.index t (1 : Fin 2) * 1280 + 1 * jr.val; omega
  · show jq.val = win1_4.index t (0 : Fin 2) * 128 + 1 * jq.val; omega

theorem flushed5_eq (c : Dev nD) (t : Fin cfg1.N) :
    (dat1 (F := Ideal) V O B c).flushed 5 t = ((cfg1.win 5).blk t).view.read (Elt Ideal) (G5 (V c main_v15)) := by
  show (cfg1.win 5).cut (grid1.coords t) ((dat1 (F := Ideal) V O B c).after 5 t) = _
  rw [after1_5]
  unfold out1_5
  rw [View.canon_unit_zero hz2]
  simp only [View.ld_unit_zero (S := S32x1280x1) hz3]
  obtain ⟨e00, e01, e10, e11, e20, e21, e22, e30, e31, e40, e41, e50, e51⟩ := idx_facts1 t
  funext j
  show k1_pay1 (F := Ideal) (iblk1 V c 2 t) j = G5 (V c main_v15) (((cfg1.win 5).blk t).view.emb j)
  obtain ⟨jr, ju, rfl⟩ : ∃ (jr : Fin 1280) (ju : Fin 1), j = ix2 jr ju := ⟨j 0, j 1, eq_ix2 j⟩
  refine (pay1_blocks V c t jr ju).trans ?_
  unfold G5
  refine congrArg (rW _) (Fin.ext ?_)
  show t.val * 1280 + jr.val = win1_5.index t (0 : Fin 2) * 1280 + 1 * jr.val; omega

/-! ## The blocks tile the arrays -/

theorem mem_blk3 (t : Fin cfg1.N) (i : S10240x128.Idx) :
    i ∈ ((cfg1.win 3).blk t).view.set ↔ ∀ a : Fin 2, win1_3.index t a * S1280x128.size a ≤ (i a).val ∧ (i a).val < win1_3.index t a * S1280x128.size a + S1280x128.size a := by
  show i ∈ ((View.whole main_v16_0).slice (win1_3.rect t)).set ↔ _
  rw [View.set_slice_whole, Rect.mem_set_unit]
  exact Iff.rfl
theorem mem_blk4 (t : Fin cfg1.N) (i : S128x10240.Idx) :
    i ∈ ((cfg1.win 4).blk t).view.set ↔ ∀ a : Fin 2, win1_4.index t a * S128x1280.size a ≤ (i a).val ∧ (i a).val < win1_4.index t a * S128x1280.size a + S128x1280.size a := by
  show i ∈ ((View.whole main_v16_1).slice (win1_4.rect t)).set ↔ _
  rw [View.set_slice_whole, Rect.mem_set_unit]
  exact Iff.rfl
theorem mem_blk5 (t : Fin cfg1.N) (i : S10240x1.Idx) :
    i ∈ ((cfg1.win 5).blk t).view.set ↔ ∀ a : Fin 2, win1_5.index t a * S1280x1.size a ≤ (i a).val ∧ (i a).val < win1_5.index t a * S1280x1.size a + S1280x1.size a := by
  show i ∈ ((View.whole main_v16_2).slice (win1_5.rect t)).set ↔ _
  rw [View.set_slice_whole, Rect.mem_set_unit]
  exact Iff.rfl

/-- The point whose blocks hold padded node r: r / 1280. -/
def ptOf (r : ℕ) (hr : r < 10240) : Fin cfg1.N := ⟨r / 1280, by rw [show cfg1.N = 8 from N_1]; omega⟩

theorem cover3 (i : S10240x128.Idx) : ∃ t : Fin cfg1.N, (cfg1.win 3).flush t = true ∧ i ∈ ((cfg1.win 3).blk t).view.set := by
  have hi0 : (i 0).val < 10240 := (i 0).isLt
  have hi1 : (i 1).val < 128 := (i 1).isLt
  obtain ⟨e00, e01, e10, e11, e20, e21, e22, e30, e31, e40, e41, e50, e51⟩ := idx_facts1 (ptOf (i 0).val hi0)
  have ht : (ptOf (i 0).val hi0).val = (i 0).val / 1280 := rfl
  refine ⟨ptOf (i 0).val hi0, flush1_3 _, ?_⟩
  rw [mem_blk3]
  intro a
  match a with
  | ⟨0, _⟩ =>
    show win1_3.index (ptOf (i 0).val hi0) (0 : Fin 2) * 1280 ≤ (i 0).val ∧ (i 0).val < win1_3.index (ptOf (i 0).val hi0) (0 : Fin 2) * 1280 + 1280
    omega
  | ⟨1, _⟩ =>
    show win1_3.index (ptOf (i 0).val hi0) (1 : Fin 2) * 128 ≤ (i 1).val ∧ (i 1).val < win1_3.index (ptOf (i 0).val hi0) (1 : Fin 2) * 128 + 128
    omega

theorem cover4 (i : S128x10240.Idx) : ∃ t : Fin cfg1.N, (cfg1.win 4).flush t = true ∧ i ∈ ((cfg1.win 4).blk t).view.set := by
  have hi0 : (i 0).val < 128 := (i 0).isLt
  have hi1 : (i 1).val < 10240 := (i 1).isLt
  obtain ⟨e00, e01, e10, e11, e20, e21, e22, e30, e31, e40, e41, e50, e51⟩ := idx_facts1 (ptOf (i 1).val hi1)
  have ht : (ptOf (i 1).val hi1).val = (i 1).val / 1280 := rfl
  refine ⟨ptOf (i 1).val hi1, flush1_4 _, ?_⟩
  rw [mem_blk4]
  intro a
  match a with
  | ⟨0, _⟩ =>
    show win1_4.index (ptOf (i 1).val hi1) (0 : Fin 2) * 128 ≤ (i 0).val ∧ (i 0).val < win1_4.index (ptOf (i 1).val hi1) (0 : Fin 2) * 128 + 128
    omega
  | ⟨1, _⟩ =>
    show win1_4.index (ptOf (i 1).val hi1) (1 : Fin 2) * 1280 ≤ (i 1).val ∧ (i 1).val < win1_4.index (ptOf (i 1).val hi1) (1 : Fin 2) * 1280 + 1280
    omega

theorem cover5 (i : S10240x1.Idx) : ∃ t : Fin cfg1.N, (cfg1.win 5).flush t = true ∧ i ∈ ((cfg1.win 5).blk t).view.set := by
  have hi0 : (i 0).val < 10240 := (i 0).isLt
  have hi1 : (i 1).val < 1 := (i 1).isLt
  obtain ⟨e00, e01, e10, e11, e20, e21, e22, e30, e31, e40, e41, e50, e51⟩ := idx_facts1 (ptOf (i 0).val hi0)
  have ht : (ptOf (i 0).val hi0).val = (i 0).val / 1280 := rfl
  refine ⟨ptOf (i 0).val hi0, flush1_5 _, ?_⟩
  rw [mem_blk5]
  intro a
  match a with
  | ⟨0, _⟩ =>
    show win1_5.index (ptOf (i 0).val hi0) (0 : Fin 2) * 1280 ≤ (i 0).val ∧ (i 0).val < win1_5.index (ptOf (i 0).val hi0) (0 : Fin 2) * 1280 + 1280
    omega
  | ⟨1, _⟩ =>
    show win1_5.index (ptOf (i 0).val hi0) (1 : Fin 2) * 1 ≤ (i 1).val ∧ (i 1).val < win1_5.index (ptOf (i 0).val hi0) (1 : Fin 2) * 1 + 1
    omega

/-! ## The arrays after the region -/

/-- The scaled linear map, its transpose and the degree factors after the region, whole, as functions of the features, the
    transposed weights and the counts the region found. -/
theorem final3 (c : Dev nD) : (dat1 (F := Ideal) V O B c).arrAt 3 cfg1.N = G3 (V c main_v9) (V c main_v11) (V c main_v15) :=
  (dat1 (F := Ideal) V O B c).arrAt_eq_of_cover 3 (G3 (V c main_v9) (V c main_v11) (V c main_v15)) (fun t _ => flushed3_eq V O B c t) cover3
theorem final4 (c : Dev nD) : (dat1 (F := Ideal) V O B c).arrAt 4 cfg1.N = G4 (V c main_v9) (V c main_v11) (V c main_v15) :=
  (dat1 (F := Ideal) V O B c).arrAt_eq_of_cover 4 (G4 (V c main_v9) (V c main_v11) (V c main_v15)) (fun t _ => flushed4_eq V O B c t) cover4
theorem final5 (c : Dev nD) : (dat1 (F := Ideal) V O B c).arrAt 5 cfg1.N = G5 (V c main_v15) :=
  (dat1 (F := Ideal) V O B c).arrAt_eq_of_cover 5 (G5 (V c main_v15)) (fun t _ => flushed5_eq V O B c t) cover5

/-- The same read at an index. -/
theorem arr3_apply (c : Dev nD) (r : Fin 10240) (q : Fin 128) :
    (dat1 (F := Ideal) V O B c).arrAt 3 cfg1.N (ix2 r q) = hW (V c main_v9) (V c main_v11) (V c main_v15) r q := by
  rw [final3]; rfl
theorem arr4_apply (c : Dev nD) (q : Fin 128) (r : Fin 10240) :
    (dat1 (F := Ideal) V O B c).arrAt 4 cfg1.N (ix2 q r) = hW (V c main_v9) (V c main_v11) (V c main_v15) r q := by
  rw [final4]; rfl
theorem arr5_apply (c : Dev nD) (r : Fin 10240) (u : Fin 1) :
    (dat1 (F := Ideal) V O B c).arrAt 5 cfg1.N (ix2 r u) = rW (V c main_v15) r := by
  rw [final5]; rfl

end RegVal

end Cert.KernelIdeal.Run

end
-- ==== Proof.KPay3Value.lean ====
import proofs.«207969_g80633716015134_cont_9to1_m_1245_11_alg».proof.Proof.Gen.KernelIdeal.Skeleton
import proofs.«207969_g80633716015134_cont_9to1_m_1245_11_alg».proof.Proof.KPay1Value
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-!
  The value the second gridded region's body stores, read entry by entry on the extended reals, from the four blocks it
  loads: aᵀ, a 128×1280 block of the transposed aggregate; h, a 1280×128 block of the scaled linear map; r, a 1280×1
  block of degree factors; b, the 1×128 bias:

    out (i, q) = max ((aᵀ (q, i) + h (i, q)) · r i + b q) 0.
-/

noncomputable section

namespace Cert.KernelIdeal.Run

open Cert.KernelIdeal Cert.KernelIdeal.Gen Idealize.ShloMosaic Idealize.ShloMosaic.ValueIdx
open scoped BigOperators

/-- The output block of the second region at (i, q). -/
theorem k3_pay1_apply (v0 : Vec Ideal S128x1280 .f32) (v3 : Vec Ideal S1280x128 .f32) (v6 : Vec Ideal S1280x1 .f32)
    (v10 : Vec Ideal S1x128 .f32) (i : Fin 1280) (q : Fin 128) :
    k3_pay1 (F := Ideal) v0 v3 v6 v10 (ix2 i q)
      = max ((v0 (ix2 q i) + v3 (ix2 i q)) * v6 (ix2 i (0 : Fin 1)) + v10 (ix2 (0 : Fin 1) q)) 0 := by
  unfold k3_pay1
  rw [maximumf_apply, addf_apply, mulf_apply, addf_apply, broadcast_apply, Cert.LibColBcast.broadcastTo_a1_ab_apply,
    broadcastTo_1b_ab_apply, transpose_ix2_apply, shapeCast_same_apply, shapeCast_same_apply, shapeCast_same_apply,
    shapeCast_same_apply]
  exact congrArg (max _) Ideal.ofBits_zero_f32

end Cert.KernelIdeal.Run

end
-- ==== Proof.VReg1Value.lean ====
/-
  The second gridded region's result array after the region, whole, on the extended reals, as a function of the four arrays
  it reads as it finds them: at padded node i and column q,

    max ((aggᵀ (q, i) + h (i, q)) · r (i, 0) + b (0, q)) 0.

  Each grid point writes back its block of this function, and the eight blocks tile the array.
-/
import proofs.«207969_g80633716015134_cont_9to1_m_1245_11_alg».proof.Proof.KReg1Body
import proofs.«207969_g80633716015134_cont_9to1_m_1245_11_alg».proof.Proof.KPay3Value
import proofs.«207969_g80633716015134_cont_9to1_m_1245_11_alg».proof.Proof.VReg0Value
import Idealize.ShloMosaic.Lib.Pipeline.Value
import Idealize.ShloMosaic.Lib.Tactic

set_option maxRecDepth 16384

noncomputable section

namespace Cert.KernelIdeal.Run

open Cert.KernelIdeal Cert.KernelIdeal.Gen

open Idealize.ShloMosaic Idealize.ShloMosaic.TcCoe Idealize.ShloMosaic.ValueIdx
open Idealize.SL Idealize.SL.Sem
open Idealize.ShloMosaic.Pipeline (Dat)
open Idealize.ShloMosaic.SparseCore.Cfg (HIx)
open scoped BigOperators

namespace RegVal

variable (V : (c : Dev nD) → (b : Ref sig .tc) → Buf (Elt Ideal) ((c : Thread nD τ).loc b)) (O : CellTallies nD τ sig (HIx 2))
  (B : Set (SemLoc sig × HIx 2))

/-- The printed index maps of the second region, decided over its eight grid points: the transposed aggregate's block moves
    with the point along its second axis, the linear map's, the degree factors' and the output's along their first, the
    bias's stays. -/
theorem idx_facts3 : ∀ t : Fin cfg3.N,
    win3_0.index t (0 : Fin 2) = 0 ∧ win3_0.index t (1 : Fin 2) = t.val
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The output at padded node i, column q, from the whole arrays. -/
def oW (aggt : S128x10240.Idx → EReal) (h : S10240x128.Idx → EReal) (r : S10240x1.Idx → EReal) (b : S1x128.Idx → EReal)
    (i : Fin 10240) (q : Fin 128) : EReal :=
  max ((aggt (ix2 q i) + h (ix2 i q)) * r (ix2 i (0 : Fin 1)) + b (ix2 (0 : Fin 1) q)) 0

/-- The array the region writes, as a function of the four it reads. -/
def Gout (aggt : S128x10240.Idx → EReal) (h : S10240x128.Idx → EReal) (r : S10240x1.Idx → EReal) (b : S1x128.Idx → EReal) :
    S10240x128.Idx → EReal :=
  fun i => oW aggt h r b ⟨(i 0).val, idx2_lt0 i⟩ ⟨(i 1).val, idx2_lt1 i⟩

/-- What point t writes back is block t of that function of the arrays as the region finds them. -/
theorem flushedOut_eq (c : Dev nD) (t : Fin cfg3.N) :
    (dat3 (F := Ideal) V O B c).flushed 4 t
      = ((cfg3.win 4).blk t).view.read (Elt Ideal) (Gout (V c main_v17) (V c main_v16_0) (V c main_v16_2) (V c main_v12)) := by
  show (cfg3.win 4).cut (grid3.coords t) ((dat3 (F := Ideal) V O B c).after 4 t) = _
  rw [after3_4]
  unfold out3
  rw [View.canon_unit_zero hz2]
  simp only [View.ld_unit_zero (S := S128x1280) hz2, View.ld_unit_zero (S := S1280x128) hz2, View.ld_unit_zero (S := S1280x1) hz2,
    View.ld_unit_zero (S := S1x128) hz2]
  obtain ⟨e00, e01, e10, e11, e20, e21, e30, e31, e40, e41⟩ := idx_facts3 t
  funext j
  show k3_pay1 (F := Ideal) (blk3 V c 0 t) (blk3 V c 1 t) (blk3 V c 2 t) (blk3 V c 3 t) j
    = Gout (V c main_v17) (V c main_v16_0) (V c main_v16_2) (V c main_v12) (((cfg3.win 4).blk t).view.emb j)
  obtain ⟨jr, jq, rfl⟩ : ∃ (jr : Fin 1280) (jq : Fin 128), j = ix2 jr jq := ⟨j 0, j 1, eq_ix2 j⟩
  refine (k3_pay1_apply _ _ _ _ jr jq).trans ?_
  unfold Gout oW
  refine congrArg₂ max (congrArg₂ (· + ·) (congrArg₂ (· * ·) (congrArg₂ (· + ·) ?_ ?_) ?_) ?_) rfl
  · show V c main_v17 (((cfg3.win 0).blk t).view.emb (ix2 jq jr)) = V c main_v17 _
    refine congrArg (V c main_v17) (funext fun a => Fin.ext ?_)
    match a with
    | ⟨0, _⟩ => show win3_0.index t (0 : Fin 2) * 128 + 1 * jq.val = win3_4.index t (1 : Fin 2) * 128 + 1 * jq.val; omega
    | ⟨1, _⟩ => show win3_0.index t (1 : Fin 2) * 1280 + 1 * jr.val = win3_4.index t (0 : Fin 2) * 1280 + 1 * jr.val; omega
  · show V c main_v16_0 (((cfg3.win 1).blk t).view.emb (ix2 jr jq)) = V c main_v16_0 _
    refine congrArg (V c main_v16_0) (funext fun a => Fin.ext ?_)
    match a with
    | ⟨0, _⟩ => show win3_1.index t (0 : Fin 2) * 1280 + 1 * jr.val = win3_4.index t (0 : Fin 2) * 1280 + 1 * jr.val; omega
    | ⟨1, _⟩ => show win3_1.index t (1 : Fin 2) * 128 + 1 * jq.val = win3_4.index t (1 : Fin 2) * 128 + 1 * jq.val; omega
  · show V c main_v16_2 (((cfg3.win 2).blk t).view.emb (ix2 jr (0 : Fin 1))) = V c main_v16_2 _
    refine congrArg (V c main_v16_2) (funext fun a => Fin.ext ?_)
    match a with
    | ⟨0, _⟩ => show win3_2.index t (0 : Fin 2) * 1280 + 1 * jr.val = win3_4.index t (0 : Fin 2) * 1280 + 1 * jr.val; omega
    | ⟨1, _⟩ => show win3_2.index t (1 : Fin 2) * 1 + 1 * 0 = 0; omega
  · show V c main_v12 (((cfg3.win 3).blk t).view.emb (ix2 (0 : Fin 1) jq)) = V c main_v12 _
    refine congrArg (V c main_v12) (funext fun a => Fin.ext ?_)
    match a with
    | ⟨0, _⟩ => show win3_3.index t (0 : Fin 2) * 1 + 1 * 0 = 0; omega
    | ⟨1, _⟩ => show win3_3.index t (1 : Fin 2) * 128 + 1 * jq.val = win3_4.index t (1 : Fin 2) * 128 + 1 * jq.val; omega

theorem mem_blkOut (t : Fin cfg3.N) (i : S10240x128.Idx) :
    i ∈ ((cfg3.win 4).blk t).view.set ↔ ∀ a : Fin 2, win3_4.index t a * S1280x128.size a ≤ (i a).val ∧ (i a).val < win3_4.index t a * S1280x128.size a + S1280x128.size a := by
  show i ∈ ((View.whole main_v18).slice (win3_4.rect t)).set ↔ _
  rw [View.set_slice_whole, Rect.mem_set_unit]
  exact Iff.rfl

/-- The point whose block holds padded node r: r / 1280. -/
def ptOf3 (r : ℕ) (hr : r < 10240) : Fin cfg3.N := ⟨r / 1280, by rw [show cfg3.N = 8 from N_3]; omega⟩

theorem coverOut (i : S10240x128.Idx) : ∃ t : Fin cfg3.N, (cfg3.win 4).flush t = true ∧ i ∈ ((cfg3.win 4).blk t).view.set := by
  have hi0 : (i 0).val < 10240 := (i 0).isLt
  have hi1 : (i 1).val < 128 := (i 1).isLt
  obtain ⟨e00, e01, e10, e11, e20, e21, e30, e31, e40, e41⟩ := idx_facts3 (ptOf3 (i 0).val hi0)
  have ht : (ptOf3 (i 0).val hi0).val = (i 0).val / 1280 := rfl
  refine ⟨ptOf3 (i 0).val hi0, flush3_4 _, ?_⟩
  rw [mem_blkOut]
  intro a
  match a with
  | ⟨0, _⟩ =>
    show win3_4.index (ptOf3 (i 0).val hi0) (0 : Fin 2) * 1280 ≤ (i 0).val ∧ (i 0).val < win3_4.index (ptOf3 (i 0).val hi0) (0 : Fin 2) * 1280 + 1280
    omega
  | ⟨1, _⟩ =>
    show win3_4.index (ptOf3 (i 0).val hi0) (1 : Fin 2) * 128 ≤ (i 1).val ∧ (i 1).val < win3_4.index (ptOf3 (i 0).val hi0) (1 : Fin 2) * 128 + 128
    omega

/-- The result array after the region, whole. -/
theorem finalOut (c : Dev nD) :
    (dat3 (F := Ideal) V O B c).arrAt 4 cfg3.N = Gout (V c main_v17) (V c main_v16_0) (V c main_v16_2) (V c main_v12) :=
  (dat3 (F := Ideal) V O B c).arrAt_eq_of_cover 4 (Gout (V c main_v17) (V c main_v16_0) (V c main_v16_2) (V c main_v12))
    (fun t _ => flushedOut_eq V O B c t) coverOut

/-- The same read at an index. -/
theorem arrOut_apply (c : Dev nD) (i : Fin 10240) (q : Fin 128) :
    (dat3 (F := Ideal) V O B c).arrAt 4 cfg3.N (ix2 i q)
      = oW (V c main_v17) (V c main_v16_0) (V c main_v16_2) (V c main_v12) i q := by
  rw [finalOut]; rfl

end RegVal

end Cert.KernelIdeal.Run

end
-- ==== Proof.LibQuot.lean ====
import Mathlib.Algebra.BigOperators.Fin
import Mathlib.Algebra.Order.BigOperators.Group.Finset
import Mathlib.Data.Fintype.BigOperators
import Idealize.ShloMosaic.PureOps.Ideal

/-!
# Quotients, reciprocals, norms and exponentials of reals, on the extended reals

The operations of the extended reals (`+`, `*`, the quotient `Ideal.div`, the square root
`Ideal.sqrt`, the exponential `Ideal.exp`) applied to coercions of reals give coercions of
reals, with the divisor not zero and the radicand not negative.  In particular a product with
two reciprocals is the iterated quotient, and `ε + √(∑ x²)` is a positive real for `ε > 0`.
-/

noncomputable section

namespace QuotLaws

open Idealize.ShloMosaic
open scoped BigOperators

/-! ### Being a real -/

/-- An extended real that is the coercion of a real. -/
def IsReal (x : EReal) : Prop := ∃ r : ℝ, x = (r : EReal)

/-- A coercion is a real. -/
theorem isReal_coe (r : ℝ) : IsReal (r : EReal) := ⟨r, rfl⟩

/-- Zero is a real. -/
theorem isReal_zero : IsReal 0 := ⟨0, rfl⟩

/-- One is a real. -/
theorem isReal_one : IsReal 1 := ⟨1, rfl⟩

/-- A sum of two reals is a real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- A difference of two reals is a real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- A product of two reals is a real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The larger of two reals is a real. -/
theorem IsReal.max {x y : EReal} (hx : IsReal x) (hy : IsReal y) : IsReal (max x y) := by
  rcases le_total x y with h | h
  · rwa [max_eq_right h]
  · rwa [max_eq_left h]

/-- The coercion of a finite sum of reals is the sum of the coercions. -/
theorem coe_sum {ι : Type*} (t : Finset ι) (f : ι → ℝ) :
    ((∑ i ∈ t, f i : ℝ) : EReal) = ∑ i ∈ t, (f i : EReal) := by
  classical
  refine Finset.induction_on t (by simp) ?_
  intro a t ha ih
  rw [Finset.sum_insert ha, Finset.sum_insert ha, EReal.coe_add, ih]

/-- A finite sum of reals is a real. -/
theorem isReal_sum {ι : Type*} (t : Finset ι) (f : ι → EReal) (h : ∀ i ∈ t, IsReal (f i)) :
    IsReal (∑ i ∈ t, f i) := by
  classical
  induction t using Finset.induction_on with
  | empty => exact ⟨0, by simp⟩
  | insert a t ha ih =>
    rw [Finset.sum_insert ha]
    exact (h a (Finset.mem_insert_self a t)).add
      (ih fun i hi => h i (Finset.mem_insert_of_mem hi))

/-- A finite sum of products of reals, as a real. -/
theorem sum_mul_coe {ι : Type*} (t : Finset ι) (f g : ι → ℝ) :
    (∑ i ∈ t, (f i : EReal) * (g i : EReal)) = ((∑ i ∈ t, f i * g i : ℝ) : EReal) := by
  rw [coe_sum]
  exact Finset.sum_congr rfl fun i _ => (EReal.coe_mul _ _).symm

/-! ### Quotients and reciprocals -/

/-- The quotient of two reals, the divisor not zero, is the real quotient. -/
theorem div_coe_coe (x : ℝ) {a : ℝ} (ha : a ≠ 0) :
    Ideal.div (x : EReal) (a : EReal) = ((x / a : ℝ) : EReal) := by
  rw [Ideal.div_coe ha, ← EReal.coe_mul, mul_one_div]

/-- The reciprocal of a real that is not zero. -/
theorem one_div_coe {a : ℝ} (ha : a ≠ 0) :
    Ideal.div 1 (a : EReal) = ((1 / a : ℝ) : EReal) := by
  rw [← EReal.coe_one, div_coe_coe 1 ha]

/-- A quotient of reals is a real. -/
theorem IsReal.div {x y : EReal} (hx : IsReal x) (hy : IsReal y) (h0 : y ≠ 0) :
    IsReal (Ideal.div x y) := by
  obtain ⟨a, rfl⟩ := hx; obtain ⟨b, rfl⟩ := hy
  exact ⟨a / b, div_coe_coe a (EReal.coe_ne_zero.1 h0)⟩

/-- **Two reciprocals against two quotients**: `x · (1/a) · (1/b) = (x / a) / b`. -/
theorem mul_recip_recip (x : ℝ) {a b : ℝ} (ha : a ≠ 0) (hb : b ≠ 0) :
    (x : EReal) * Ideal.div 1 (a : EReal) * Ideal.div 1 (b : EReal)
      = Ideal.div (Ideal.div (x : EReal) (a : EReal)) (b : EReal) := by
  rw [one_div_coe ha, one_div_coe hb, div_coe_coe x ha, div_coe_coe _ hb,
    ← EReal.coe_mul, ← EReal.coe_mul]
  congr 1
  ring

/-- Both sides of the law above as one real. -/
theorem div_div_coe (x : ℝ) {a b : ℝ} (ha : a ≠ 0) (hb : b ≠ 0) :
    Ideal.div (Ideal.div (x : EReal) (a : EReal)) (b : EReal) = ((x / a / b : ℝ) : EReal) := by
  rw [div_coe_coe x ha, div_coe_coe _ hb]

/-! ### Square roots and norms -/

/-- The square root of a real that is not negative. -/
theorem sqrt_coe_of_nonneg {r : ℝ} (h : 0 ≤ r) :
    Ideal.sqrt (r : EReal) = ((Real.sqrt r : ℝ) : EReal) := by
  rw [Ideal.sqrt_coe, if_neg (not_lt.2 h)]

/-- The square root of a nonnegative real is a nonnegative real. -/
theorem sqrt_isReal_nonneg {r : ℝ} (h : 0 ≤ r) :
    ∃ y : ℝ, 0 ≤ y ∧ Ideal.sqrt (r : EReal) = (y : EReal) :=
  ⟨Real.sqrt r, Real.sqrt_nonneg r, sqrt_coe_of_nonneg h⟩

/-- A sum of squares of reals is not negative. -/
theorem sum_sq_nonneg {ι : Type*} (t : Finset ι) (x : ι → ℝ) : 0 ≤ ∑ i ∈ t, x i * x i :=
  Finset.sum_nonneg fun i _ => mul_self_nonneg (x i)

/-- The Euclidean norm `√(∑ x²)` of a finite family of reals, on the extended reals. -/
theorem norm_coe {ι : Type*} (t : Finset ι) (x : ι → ℝ) :
    Ideal.sqrt (∑ i ∈ t, (x i : EReal) * (x i : EReal))
      = ((Real.sqrt (∑ i ∈ t, x i * x i) : ℝ) : EReal) := by
  rw [sum_mul_coe, sqrt_coe_of_nonneg (sum_sq_nonneg t x)]

/-- The same with the sum taken from the initial value zero. -/
theorem norm_coe' {ι : Type*} (t : Finset ι) (x : ι → ℝ) :
    Ideal.sqrt (0 + ∑ i ∈ t, (x i : EReal) * (x i : EReal))
      = ((Real.sqrt (∑ i ∈ t, x i * x i) : ℝ) : EReal) := by
  rw [zero_add, norm_coe]

/-- `ε + √(∑ x²)` on the extended reals is the real `ε + √(∑ x²)`. -/
theorem eps_add_norm_coe {ι : Type*} (t : Finset ι) (ε : ℝ) (x : ι → ℝ) :
    (ε : EReal) + Ideal.sqrt (∑ i ∈ t, (x i : EReal) * (x i : EReal))
      = ((ε + Real.sqrt (∑ i ∈ t, x i * x i) : ℝ) : EReal) := by
  rw [norm_coe, EReal.coe_add]

/-- For `ε > 0` the real `ε + √r` is positive. -/
theorem eps_add_sqrt_pos {ε : ℝ} (hε : 0 < ε) (r : ℝ) : 0 < ε + Real.sqrt r :=
  add_pos_of_pos_of_nonneg hε (Real.sqrt_nonneg r)

/-- For `ε > 0` the real `ε + √r` is not zero. -/
theorem eps_add_sqrt_ne_zero {ε : ℝ} (hε : 0 < ε) (r : ℝ) : ε + Real.sqrt r ≠ 0 :=
  (eps_add_sqrt_pos hε r).ne'

/-! ### Exponentials -/

/-- The exponential of a real is a positive real. -/
theorem exp_isReal_pos (r : ℝ) : ∃ y : ℝ, 0 < y ∧ Ideal.exp (r : EReal) = (y : EReal) :=
  ⟨Real.exp r, Real.exp_pos r, Ideal.exp_coe r⟩

/-- The exponential of a real is a real. -/
theorem IsReal.exp {x : EReal} (hx : IsReal x) : IsReal (Ideal.exp x) := by
  obtain ⟨a, rfl⟩ := hx
  exact ⟨Real.exp a, Ideal.exp_coe a⟩

end QuotLaws
-- ==== Proof.LibRsqrtReal.lean ====
import Idealize.ShloMosaic.PureOps.Ideal

/-!
# The reciprocal square root of a positive real, and the positive part of a real, on the extended reals

`Ideal.rsqrt` of the coercion of a POSITIVE real `r` is the coercion of the positive real `(√r)⁻¹`; in
particular `rsqrt (v + ε)` is a positive real whenever `v ≥ 0` and `ε > 0` are reals — the factor a
normalisation by a standard deviation multiplies with.  The larger of a real and zero (a rectifier) is a
real that is not negative.  These are the closure facts a layer-by-layer finiteness argument needs
after a normalisation and a rectifier.
-/

noncomputable section

namespace RsqrtReal

open Idealize.ShloMosaic

/-- The reciprocal square root of a positive real is the real `(√r)⁻¹`. -/
theorem rsqrt_coe_of_pos {r : ℝ} (h : 0 < r) :
    Ideal.rsqrt (r : EReal) = (((Real.sqrt r)⁻¹ : ℝ) : EReal) := by
  rw [Ideal.rsqrt_coe, if_neg (not_lt.2 h.le), if_neg h.ne']

/-- The reciprocal square root of a positive real is a positive real. -/
theorem rsqrt_isReal_pos {r : ℝ} (h : 0 < r) :
    ∃ y : ℝ, 0 < y ∧ Ideal.rsqrt (r : EReal) = (y : EReal) :=
  ⟨(Real.sqrt r)⁻¹, inv_pos.2 (Real.sqrt_pos.2 h), rsqrt_coe_of_pos h⟩

/-- For reals `v ≥ 0` and `ε > 0`, `rsqrt (v + ε)` on the extended reals is a positive real. -/
theorem rsqrt_add_eps_isReal_pos {v ε : ℝ} (hv : 0 ≤ v) (hε : 0 < ε) :
    ∃ y : ℝ, 0 < y ∧ Ideal.rsqrt ((v : EReal) + (ε : EReal)) = (y : EReal) := by
  rw [← EReal.coe_add]
  exact rsqrt_isReal_pos (add_pos_of_nonneg_of_pos hv hε)

/-- The larger of a real and zero is the real `max r 0`. -/
theorem max_coe_zero (r : ℝ) : max (r : EReal) 0 = ((max r 0 : ℝ) : EReal) := by
  rcases le_total r 0 with h | h
  · rw [max_eq_right h, max_eq_right (by exact_mod_cast h : (r : EReal) ≤ 0), EReal.coe_zero]
  · rw [max_eq_left h, max_eq_left (by exact_mod_cast h : (0 : EReal) ≤ (r : EReal))]

/-- The larger of a real and zero is a real that is not negative. -/
theorem max_zero_isReal_nonneg (r : ℝ) : ∃ y : ℝ, 0 ≤ y ∧ max (r : EReal) 0 = (y : EReal) :=
  ⟨max r 0, le_max_right r 0, max_coe_zero r⟩

end RsqrtReal
-- ==== Proof.LibScaledDot.lean ====
import Mathlib.Algebra.BigOperators.Fin
import Mathlib.Algebra.Order.BigOperators.Group.Finset
import Mathlib.Data.Fintype.BigOperators
import Idealize.ShloMosaic.PureOps.Ideal
import proofs.«207969_g80633716015134_cont_9to1_m_1245_11_alg».proof.Proof.LibQuot
import proofs.«207969_g80633716015134_cont_9to1_m_1245_11_alg».proof.Proof.LibRsqrtReal

/-!
# Scaling before or after a product, and a count clipped below at one, on the extended reals

For a positive real s, dividing a real by √s is multiplying it by the reciprocal square root of s; so a sum of products
whose left factors are each divided by √s is the sum of the products times the reciprocal square root — scaling the
rows of a matrix before a product, or the rows of the product after it, is the same. A finite sum of terms that are each
one or zero is the number of ones, a real that is not negative; adding one to it gives a real that is at least one, which
a clip below at one leaves alone.
-/

noncomputable section

namespace Cert.Lib.ScaledDot

open Idealize.ShloMosaic
open scoped BigOperators

/-! ### Dividing by a square root, multiplying by a reciprocal square root -/

/-- For a real a and a positive real s: a / √s = a · (1 / √s), the quotient and the square root the extended reals'. -/
theorem div_sqrt_eq_mul_rsqrt (a : ℝ) {s : ℝ} (hs : 0 < s) :
    Ideal.div (a : EReal) (Ideal.sqrt (s : EReal)) = (a : EReal) * Ideal.rsqrt (s : EReal) := by
  have hq : Real.sqrt s ≠ 0 := (Real.sqrt_pos.2 hs).ne'
  rw [QuotLaws.sqrt_coe_of_nonneg hs.le, QuotLaws.div_coe_coe a hq, RsqrtReal.rsqrt_coe_of_pos hs, ← EReal.coe_mul,
    div_eq_mul_inv]

/-- The same for an extended real known to be a real. -/
theorem div_sqrt_eq_mul_rsqrt' {a : EReal} (ha : ∃ r : ℝ, a = (r : EReal)) {s : ℝ} (hs : 0 < s) :
    Ideal.div a (Ideal.sqrt (s : EReal)) = a * Ideal.rsqrt (s : EReal) := by
  obtain ⟨r, rfl⟩ := ha
  exact div_sqrt_eq_mul_rsqrt r hs

/-- Over a finite set, for real x k and w k and a positive real s:
    ∑ₖ (x k / √s) · w k = (∑ₖ x k · w k) · (1 / √s). -/
theorem sum_div_sqrt_mul {ι : Type*} (t : Finset ι) (x w : ι → EReal) (hx : ∀ k ∈ t, ∃ r : ℝ, x k = (r : EReal))
    (hw : ∀ k ∈ t, ∃ r : ℝ, w k = (r : EReal)) {s : ℝ} (hs : 0 < s) :
    ∑ k ∈ t, Ideal.div (x k) (Ideal.sqrt (s : EReal)) * w k = (∑ k ∈ t, x k * w k) * Ideal.rsqrt (s : EReal) := by
  have hq : Real.sqrt s ≠ 0 := (Real.sqrt_pos.2 hs).ne'
  choose! xr hxr using hx
  choose! wr hwr using hw
  have hL : ∑ k ∈ t, Ideal.div (x k) (Ideal.sqrt (s : EReal)) * w k = ∑ k ∈ t, ((xr k / Real.sqrt s * wr k : ℝ) : EReal) :=
    Finset.sum_congr rfl fun k hk => by
      rw [hxr k hk, hwr k hk, QuotLaws.sqrt_coe_of_nonneg hs.le, QuotLaws.div_coe_coe _ hq, ← EReal.coe_mul]
  have hR : ∑ k ∈ t, x k * w k = ((∑ k ∈ t, xr k * wr k : ℝ) : EReal) := by
    rw [← QuotLaws.sum_mul_coe]
    exact Finset.sum_congr rfl fun k hk => by rw [hxr k hk, hwr k hk]
  rw [hL, hR, ← QuotLaws.coe_sum, RsqrtReal.rsqrt_coe_of_pos hs, ← EReal.coe_mul]
  congr 1
  rw [Finset.sum_mul]
  exact Finset.sum_congr rfl fun k _ => by rw [div_eq_mul_inv]; ring

/-- The same over a whole finite index type. -/
theorem sum_univ_div_sqrt_mul {ι : Type*} [Fintype ι] (x w : ι → EReal) (hx : ∀ k, ∃ r : ℝ, x k = (r : EReal))
    (hw : ∀ k, ∃ r : ℝ, w k = (r : EReal)) {s : ℝ} (hs : 0 < s) :
    ∑ k, Ideal.div (x k) (Ideal.sqrt (s : EReal)) * w k = (∑ k, x k * w k) * Ideal.rsqrt (s : EReal) :=
  sum_div_sqrt_mul Finset.univ x w (fun k _ => hx k) (fun k _ => hw k) hs

/-- A sum of products of reals is a real. -/
theorem sum_mul_isReal {ι : Type*} (t : Finset ι) (x w : ι → EReal) (hx : ∀ k ∈ t, ∃ r : ℝ, x k = (r : EReal))
    (hw : ∀ k ∈ t, ∃ r : ℝ, w k = (r : EReal)) : ∃ r : ℝ, ∑ k ∈ t, x k * w k = (r : EReal) := by
  choose! xr hxr using hx
  choose! wr hwr using hw
  refine ⟨∑ k ∈ t, xr k * wr k, ?_⟩
  rw [← QuotLaws.sum_mul_coe]
  exact Finset.sum_congr rfl fun k hk => by rw [hxr k hk, hwr k hk]

/-! ### A count, and the clip below at one of a count plus one -/

/-- A finite sum of terms each one or zero is the number of ones. -/
theorem sum_ite_eq_card {ι : Type*} (t : Finset ι) (p : ι → Prop) [DecidablePred p] :
    (∑ e ∈ t, if p e then (1 : EReal) else 0) = (((t.filter p).card : ℝ) : EReal) := by
  classical
  induction t using Finset.induction_on with
  | empty => simp
  | insert a t ha ih =>
    rw [Finset.sum_insert ha, ih, Finset.filter_insert]
    by_cases h : p a
    · rw [if_pos h, if_pos h, Finset.card_insert_of_notMem fun hm => ha (Finset.mem_of_mem_filter a hm)]
      push_cast
      rw [add_comm]
    · rw [if_neg h, if_neg h, zero_add]

/-- Such a count is a real that is not negative. -/
theorem count_isReal_nonneg {ι : Type*} (t : Finset ι) (p : ι → Prop) [DecidablePred p] :
    ∃ c : ℝ, 0 ≤ c ∧ (∑ e ∈ t, if p e then (1 : EReal) else 0) = (c : EReal) :=
  ⟨((t.filter p).card : ℝ), Nat.cast_nonneg _, sum_ite_eq_card t p⟩

/-- For c not negative, the larger of one and c + 1 is c + 1. -/
theorem max_one_add_one {c : EReal} (hc : 0 ≤ c) : max 1 (c + 1) = c + 1 :=
  max_eq_right (le_add_of_nonneg_left hc)

/-- For a real c that is not negative, the larger of one and c + 1 is the real c + 1, which is positive. -/
theorem max_one_add_one_coe {c : ℝ} (hc : 0 ≤ c) : max (1 : EReal) ((c : EReal) + 1) = ((c + 1 : ℝ) : EReal) := by
  rw [max_one_add_one (by exact_mod_cast hc), EReal.coe_add, EReal.coe_one]

/-- A count plus one, clipped below at one, is the real "number of ones, plus one". -/
theorem clip_count {ι : Type*} (t : Finset ι) (p : ι → Prop) [DecidablePred p] :
    max (1 : EReal) ((∑ e ∈ t, if p e then (1 : EReal) else 0) + 1) = ((((t.filter p).card : ℝ) + 1 : ℝ) : EReal) := by
  rw [sum_ite_eq_card, max_one_add_one_coe (Nat.cast_nonneg _)]

/-- That real is positive. -/
theorem count_add_one_pos {ι : Type*} (t : Finset ι) (p : ι → Prop) [DecidablePred p] : (0 : ℝ) < ((t.filter p).card : ℝ) + 1 :=
  add_pos_of_nonneg_of_pos (Nat.cast_nonneg _) one_pos

end Cert.Lib.ScaledDot

end
-- ==== Proof.RefAlg.lean ====
import proofs.«207969_g80633716015134_cont_9to1_m_1245_11_alg».proof.Proof.RefValue
import proofs.«207969_g80633716015134_cont_9to1_m_1245_11_alg».proof.Proof.LibScaledDot

/-!
  The reference's result with the scaling moved out of the sums. For an edge list in range and real features and weights:
  the degree of n is the real cnt n + 1, cnt n the number of edges into n that are no self-loops; with
  r n = 1 / √(cnt n + 1),

    h n j = (∑ₖ x (n, k) · w (j, k)) · r n        and        result (n, j) = max (agg n j · r n + b j) 0,

  agg as before. Every h, message and agg is a real.
-/

noncomputable section

namespace Cert.ReferenceIdeal.RefRun

open Cert.ReferenceIdeal Idealize.ShloMosaic Idealize.ShloMosaic.ValueIdx
open scoped BigOperators

/-- The number of edges into n that are no self-loops. -/
def cntN (ei : IVec S2x320000 32) (n : Fin 10000) : ℕ :=
  ((inEdges ei n).filter fun e => srcW ei e ≠ dstW ei e).card

/-- The count, as an extended real, is that natural number. -/
theorem cntS_eq (ei : IVec S2x320000 32) (n : Fin 10000) : cntS ei n = ((cntN ei n : ℝ) : EReal) := by
  unfold cntS cntN
  exact Cert.Lib.ScaledDot.sum_ite_eq_card _ _

/-- The degree is the count plus one: the clip below at one changes nothing. -/
theorem degS_eq (ei : IVec S2x320000 32) (n : Fin 10000) : degS ei n = (((cntN ei n : ℝ) + 1 : ℝ) : EReal) := by
  unfold degS cntS cntN
  exact Cert.Lib.ScaledDot.clip_count _ _

theorem deg_pos (ei : IVec S2x320000 32) (n : Fin 10000) : (0 : ℝ) < (cntN ei n : ℝ) + 1 :=
  add_pos_of_nonneg_of_pos (Nat.cast_nonneg _) one_pos

/-- The degree factor of n: one over the square root of its degree. -/
def rdegS (ei : IVec S2x320000 32) (n : Fin 10000) : EReal := Ideal.rsqrt (((cntN ei n : ℝ) + 1 : ℝ) : EReal)

/-- It is a positive real. -/
theorem rdegS_coe (ei : IVec S2x320000 32) (n : Fin 10000) :
    rdegS ei n = (((Real.sqrt ((cntN ei n : ℝ) + 1))⁻¹ : ℝ) : EReal) :=
  RsqrtReal.rsqrt_coe_of_pos (deg_pos ei n)

theorem rdegS_isReal (ei : IVec S2x320000 32) (n : Fin 10000) : QuotLaws.IsReal (rdegS ei n) := ⟨_, rdegS_coe ei n⟩

section Reals

variable (x : FVec Ideal S10000x128 .f32) (ei : IVec S2x320000 32) (w : FVec Ideal S128x128 .f32)
  (hx : ∀ i, ∃ r : ℝ, x i = ((r : ℝ) : EReal)) (hw : ∀ i, ∃ r : ℝ, w i = ((r : ℝ) : EReal))

include hx hw

/-- The linear map with the scaling after the product. -/
theorem hS_eq (n : Fin 10000) (j : Fin 128) :
    hS x ei w n j = (∑ k : Fin 128, x (ix2 n k) * w (ix2 j k)) * rdegS ei n := by
  unfold hS rdegS
  rw [degS_eq]
  exact Cert.Lib.ScaledDot.sum_univ_div_sqrt_mul (fun k => x (ix2 n k)) (fun k => w (ix2 j k)) (fun k => hx _) (fun k => hw _)
    (deg_pos ei n)

theorem hS_isReal (n : Fin 10000) (j : Fin 128) : QuotLaws.IsReal (hS x ei w n j) := by
  rw [hS_eq x ei w hx hw n j]
  exact QuotLaws.IsReal.mul
    (Cert.Lib.ScaledDot.sum_mul_isReal Finset.univ (fun k => x (ix2 n k)) (fun k => w (ix2 j k)) (fun k _ => hx _) (fun k _ => hw _))
    (rdegS_isReal ei n)

theorem msgS_isReal (e : Fin 320000) (j : Fin 128) : QuotLaws.IsReal (msgS x ei w e j) := by
  unfold msgS
  split
  · exact hS_isReal x ei w hx hw _ j
  · exact QuotLaws.isReal_zero

theorem aggS_isReal (n : Fin 10000) (j : Fin 128) : QuotLaws.IsReal (aggS x ei w n j) := by
  unfold aggS
  exact (QuotLaws.isReal_sum _ _ fun e _ => msgS_isReal x ei w hx hw e j).add (hS_isReal x ei w hx hw n j)

/-- The output with the second division as a multiplication by the degree factor. -/
theorem spec_eq (b : FVec Ideal S128 .f32) (n : Fin 10000) (j : Fin 128) :
    spec x ei w b n j = max (aggS x ei w n j * rdegS ei n + b (ix1 j)) 0 := by
  unfold spec rdegS
  rw [degS_eq, Cert.Lib.ScaledDot.div_sqrt_eq_mul_rsqrt' (aggS_isReal x ei w hx hw n j) (deg_pos ei n)]

/-- The reference's result at (n, j) in that form, for an edge list in range and real features and weights. -/
theorem result_apply_alg (hei : InRange ei) (b : FVec Ideal S128 .f32) (n : Fin 10000) (j : Fin 128) :
    result x ei w b (ix2 n j) = max (aggS x ei w n j * rdegS ei n + b (ix1 j)) 0 :=
  (result_apply x ei hei w b n j).trans (spec_eq x ei w hx hw b n j)

end Reals

end Cert.ReferenceIdeal.RefRun

end
-- ==== Proof.RefPre.lean ====
import Idealize.ShloMosaic.Lib.ReduceAll
import proofs.«207969_g80633716015134_cont_9to1_m_1245_11_alg».proof.Defs
import proofs.«207969_g80633716015134_cont_9to1_m_1245_11_alg».proof.Proof.Gen.Pre_input_domain
import proofs.«207969_g80633716015134_cont_9to1_m_1245_11_alg».proof.Proof.RefValue

/-!
  The input domain, opened: where the domain predicate is all ones, every entry of the edge list, read signed, lies
  between 0 and 9999, and every entry of the features, the weights and the bias is a real.
-/

noncomputable section

namespace Cert.ReferenceIdeal.RefRun

open Cert.ReferenceIdeal Idealize.ShloMosaic Idealize.ShloMosaic.ValueIdx Idealize.SL.Sem

/-- The domain predicate is a conjunction whose last conjunct is "every entry of the edge list is at least 0 and at
    most 9999", an and over all entries: where the predicate is 1, each entry's two comparisons are 1. -/
theorem inRange_of_domain (x : FVec Ideal Cert.Pre_input_domain.S10000x128 .f32) (ei : IVec Cert.Pre_input_domain.S2x320000 32)
    (w : FVec Ideal Cert.Pre_input_domain.S128x128 .f32) (b : FVec Ideal Cert.Pre_input_domain.S128 .f32)
    (h : Cert.Pre_input_domain.fn (F := Ideal) x ei w b = fun _ => 1#1) : InRange ei := by
  haveI : Subsingleton Cert.Pre_input_domain.S_.Idx := ⟨fun a b => funext fun d => d.elim0⟩
  intro r e
  have h0 := congrFun h ix0
  dsimp only [Cert.Pre_input_domain.fn, Cert.Pre_input_domain.fn_part1] at h0
  obtain ⟨-, h19⟩ := IntOp.andi_eq_one.mp h0
  have hel := Host.reduce_andi_all _ _ _ _ _ h19 (ix2 r e)
  obtain ⟨hge, hle⟩ := IntOp.andi_eq_one.mp hel
  have h1 := IntOp.cmpi_sge.mp hge
  have h2 := IntOp.cmpi_sle.mp hle
  rw [bcast_constI_apply] at h1 h2
  have z0 : (0#32 : BitVec 32).toInt = 0 := by decide
  have z9 : (9999#32 : BitVec 32).toInt = 9999 := by decide
  rw [z0] at h1
  rw [z9] at h2
  exact ⟨h1, h2⟩

/-- Under the reference's precondition the edge list at launch is in range, on every device. -/
theorem inRange_of_pre (m : (ℓ : Loc Cert.ReferenceIdeal.nD Cert.ReferenceIdeal.τ Cert.ReferenceIdeal.sig) → Buf (Elt Ideal) ℓ)
    (hpre : Cert.Pre_ReferenceIdeal (hPre_input_domain := Cert.Pre_input_domain.Gen.facts) m) (c : Dev Cert.ReferenceIdeal.nD) :
    InRange (m ((c.tc : Thread Cert.ReferenceIdeal.nD Cert.ReferenceIdeal.τ).loc Cert.ReferenceIdeal.main_arg1)) :=
  inRange_of_domain _ _ _ _ (hpre c)

/-- A float whose absolute value is below the value of the word 0x7F800000, plus infinity, is a real. -/
theorem real_of_abs_lt (a : Ideal .f32)
    (h : FloatOps.cmpf (F := Ideal) .olt (FloatOps.hostAbsf a) (Ideal.ofBits .f32 0x7F800000#32) = 1#1) :
    ∃ r : ℝ, a = ((r : ℝ) : EReal) := by
  have htop : Ideal.ofBits .f32 0x7F800000#32 = ⊤ := by simp [Ideal.ofBits, Ideal.ieee]
  rw [htop] at h
  change Ideal.cmp .olt (max (a : EReal) (-(a : EReal))) ⊤ = 1#1 at h
  induction a using EReal.rec with
  | bot => exfalso; revert h; simp [Ideal.cmp]
  | coe r => exact ⟨r, rfl⟩
  | top => exfalso; revert h; simp [Ideal.cmp]

/-- Where the domain predicate is all ones, every entry of the features, of the weights and of the bias is a real. -/
theorem real_of_domain (x : FVec Ideal Cert.Pre_input_domain.S10000x128 .f32) (ei : IVec Cert.Pre_input_domain.S2x320000 32)
    (w : FVec Ideal Cert.Pre_input_domain.S128x128 .f32) (b : FVec Ideal Cert.Pre_input_domain.S128 .f32)
    (h : Cert.Pre_input_domain.fn (F := Ideal) x ei w b = fun _ => 1#1) :
    (∀ i, ∃ r : ℝ, x i = ((r : ℝ) : EReal)) ∧ (∀ i, ∃ r : ℝ, w i = ((r : ℝ) : EReal)) ∧ (∀ i, ∃ r : ℝ, b i = ((r : ℝ) : EReal)) := by
  haveI : Subsingleton Cert.Pre_input_domain.S_.Idx := ⟨fun a b => funext fun d => d.elim0⟩
  have h0 := congrFun h ix0
  dsimp only [Cert.Pre_input_domain.fn, Cert.Pre_input_domain.fn_part1] at h0
  obtain ⟨h13, -⟩ := IntOp.andi_eq_one.mp h0
  obtain ⟨h8, h12⟩ := IntOp.andi_eq_one.mp h13
  obtain ⟨h3, h7⟩ := IntOp.andi_eq_one.mp h8
  refine ⟨fun i => ?_, fun i => ?_, fun i => ?_⟩
  · have hx := Host.reduce_andi_all _ _ _ _ _ h3 i
    rw [cmpf_apply, bcast_const_apply] at hx
    exact real_of_abs_lt (x i) hx
  · have hw := Host.reduce_andi_all _ _ _ _ _ h7 i
    rw [cmpf_apply, bcast_const_apply] at hw
    exact real_of_abs_lt (w i) hw
  · have hb := Host.reduce_andi_all _ _ _ _ _ h12 i
    rw [cmpf_apply, bcast_const_apply] at hb
    exact real_of_abs_lt (b i) hb

/-- Under the reference's precondition the float arguments at launch are real at every entry, on every device. -/
theorem real_of_pre (m : (ℓ : Loc Cert.ReferenceIdeal.nD Cert.ReferenceIdeal.τ Cert.ReferenceIdeal.sig) → Buf (Elt Ideal) ℓ)
    (hpre : Cert.Pre_ReferenceIdeal (hPre_input_domain := Cert.Pre_input_domain.Gen.facts) m) (c : Dev Cert.ReferenceIdeal.nD) :
    (∀ i, ∃ r : ℝ, m ((c.tc : Thread Cert.ReferenceIdeal.nD Cert.ReferenceIdeal.τ).loc Cert.ReferenceIdeal.main_arg0) i = ((r : ℝ) : EReal))
    ∧ (∀ i, ∃ r : ℝ, m ((c.tc : Thread Cert.ReferenceIdeal.nD Cert.ReferenceIdeal.τ).loc Cert.ReferenceIdeal.main_arg2) i = ((r : ℝ) : EReal))
    ∧ (∀ i, ∃ r : ℝ, m ((c.tc : Thread Cert.ReferenceIdeal.nD Cert.ReferenceIdeal.τ).loc Cert.ReferenceIdeal.main_arg3) i = ((r : ℝ) : EReal)) :=
  real_of_domain _ _ _ _ (hpre c)

end Cert.ReferenceIdeal.RefRun

end
-- ==== Proof.VFinal.lean ====
/-
  The kernel program's result is the reference's. At a node n and column j the result is
  max ((agg + h) · r + b, 0) with r the degree factor from the summed counts, h the scaled linear map, agg the accumulated
  neighbours' rows: the summed counts are the number of non-self-loop edges into n (positions to edges), so r is the
  reference's degree factor and h its linear map; the accumulated rows are the reference's messages summed over the edges into
  n; and the reference's result has exactly this form for real features and weights.
-/
import proofs.«207969_g80633716015134_cont_9to1_m_1245_11_alg».proof.Proof.VReads
import proofs.«207969_g80633716015134_cont_9to1_m_1245_11_alg».proof.Proof.VEdges
import proofs.«207969_g80633716015134_cont_9to1_m_1245_11_alg».proof.Proof.VReg0Value
import proofs.«207969_g80633716015134_cont_9to1_m_1245_11_alg».proof.Proof.VReg1Value
import proofs.«207969_g80633716015134_cont_9to1_m_1245_11_alg».proof.Proof.RefAlg
import proofs.«207969_g80633716015134_cont_9to1_m_1245_11_alg».proof.Proof.RefPre

noncomputable section

namespace Cert.KernelIdeal.Run

open Cert.KernelIdeal Cert.KernelIdeal.Gen
open Idealize.ShloMosaic Idealize.ShloMosaic.ValueIdx Idealize.SL.Sem
open Cert.ReferenceIdeal.RefRun (result result_apply_alg hS hS_eq msgS aggS cntS cntS_eq rdegS nodeOf srcW dstW inEdges InRange cntN)
open Cert.KernelIdeal.Run.RegVal
open scoped BigOperators

section Final

variable (m : (ℓ : Loc nD τ sig) → Buf (Elt Ideal) ℓ)
  (cntA : (d : Dev nD) → Buf (Elt Ideal) (cntLoc d)) (aggA : (d : Dev nD) → Buf (Elt Ideal) (aggLoc d)) (d : Dev nD)

/-- The features, the weights and the bias as launched. -/
abbrev xOf : FVec Ideal S10000x128 .f32 := m ((SparseCore.T d).loc main_arg0)
abbrev wOf : FVec Ideal S128x128 .f32 := m ((SparseCore.T d).loc main_arg2)
abbrev bOf : FVec Ideal S128 .f32 := m ((SparseCore.T d).loc main_arg3)

/-- A node as a padded node, and a padded node as a slot of the accumulators. -/
abbrev n40 (n : Fin 10000) : Fin 10240 := ⟨n.val, by have := n.isLt; omega⟩
abbrev n56 (n : Fin 10240) : Fin 10256 := ⟨n.val, by have := n.isLt; omega⟩

/-- The count array, the transposed features, the transposed aggregate and the re-laid counts as functions to the extended reals. -/
abbrev asCnt (f : Buf (Elt Ideal) (cntLoc d)) : S32x10256.Idx → EReal := f
abbrev asHt (f : Buf (Elt Ideal) (htLoc d)) : S128x10240.Idx → EReal := f
abbrev asAgg (f : Buf (Elt Ideal) (aggLoc d)) : S128x10240.Idx → EReal := f
abbrev as15 (f : Buf (Elt Ideal) ((SparseCore.T d : Thread nD τ).loc main_v15)) : S32x10240x1.Idx → EReal := f

variable (hei : InRange (eiOf m d))
  (hx : ∀ i, ∃ r : ℝ, xOf m d i = ((r : ℝ) : EReal)) (hw : ∀ i, ∃ r : ℝ, wOf m d i = ((r : ℝ) : EReal))
  -- the first call's counts summed over the workers: the positions landing on the slot
  (CF0 : ∀ n : Fin 10240, (∑ p : Fin 32, asCnt d (cntA d) (ix2 p (n56 n))) = ∑ e : Fin 327680, if dmP (eiOf m d) e = n.val then (1 : EReal) else 0)
  -- the second call's accumulated rows: the transposed features at the source of every position landing on the slot
  (CF1 : ∀ (r : Fin 128) (n : Fin 10240), asAgg d (aggA d) (ix2 r n) = ∑ e : Fin 327680, if dmP (eiOf m d) e = n.val
      then asHt d (W3 m cntA d ht') (ix2 r (⟨(sP (eiOf m d) e).toNat % 10240, Nat.mod_lt _ (by omega)⟩ : Fin 10240)) else 0)

include hei CF0 in
/-- The degree factor of a node is the reference's. -/
theorem rW_node (n : Fin 10000) : rW (VofW (W2 m cntA d) d main_v15) (n40 n) = rdegS (eiOf m d) n := by
  unfold rW
  have h1 : (∑ p : Fin 32, as15 d (VofW (W2 m cntA d) d main_v15) (ix3 p (n40 n) (0 : Fin 1))) = cntS (eiOf m d) n := by
    rw [show (∑ p : Fin 32, as15 d (VofW (W2 m cntA d) d main_v15) (ix3 p (n40 n) (0 : Fin 1))) = ∑ p : Fin 32, asCnt d (cntA d) (ix2 p (n56 (n40 n)))
      from Finset.sum_congr rfl fun p _ => W2_cnt_apply m cntA d p (n40 n)]
    rw [CF0 (n40 n), sum_positions' (eiOf m d) hei n (fun _ => (1 : EReal))]
    rfl
  rw [h1, cntS_eq]
  unfold rdegS
  rw [EReal.coe_add, EReal.coe_one]

include hei hx hw CF0 in
/-- The scaled linear map at a node is the reference's. -/
theorem h_node (i : Fin 10000) (q : Fin 128) :
    hW (VofW (W2 m cntA d) d main_v9) (VofW (W2 m cntA d) d main_v11) (VofW (W2 m cntA d) d main_v15) (n40 i) q
      = hS (xOf m d) (eiOf m d) (wOf m d) i q := by
  unfold hW
  rw [rW_node m cntA d hei CF0 i, hS_eq (xOf m d) (eiOf m d) (wOf m d) hx hw i q]
  congr 1
  refine Finset.sum_congr rfl fun k _ => ?_
  rw [show VofW (W2 m cntA d) d main_v9 (ix2 (n40 i) k) = xOf m d (ix2 i k) from (congrFun (W2_x m cntA d) _).trans (x9_apply m d i k),
    show VofW (W2 m cntA d) d main_v11 (ix2 k q) = wOf m d (ix2 q k) from (congrFun (W2_wt m cntA d) _).trans (wt_apply m d k q)]

include hei hx hw CF0 in
theorem hArr_node (i : Fin 10000) (q : Fin 128) : W3 m cntA d v160' (ix2 (n40 i) q) = hS (xOf m d) (eiOf m d) (wOf m d) i q := by
  rw [W3_h, arr3_apply]; exact h_node m cntA d hei hx hw CF0 i q

include hei hx hw CF0 in
theorem htArr_node (q : Fin 128) (i : Fin 10000) : W3 m cntA d ht' (ix2 q (n40 i)) = hS (xOf m d) (eiOf m d) (wOf m d) i q := by
  rw [W3_ht, arr4_apply]; exact h_node m cntA d hei hx hw CF0 i q

include hei CF0 in
theorem rArr_node (n : Fin 10000) : W3 m cntA d v162' (ix2 (n40 n) (0 : Fin 1)) = rdegS (eiOf m d) n := by
  rw [W3_r, arr5_apply]; exact rW_node m cntA d hei CF0 n

/-- A source word in range is its node. -/
theorem src_node (hei : InRange (eiOf m d)) (e : Fin 320000) :
    (⟨(srcW (eiOf m d) e).toNat % 10240, Nat.mod_lt _ (by omega)⟩ : Fin 10240) = n40 (nodeOf (srcW (eiOf m d) e)) := by
  have h0 := (hei 0 e).1
  have h9 := (hei 0 e).2
  apply Fin.ext
  show (srcW (eiOf m d) e).toNat % 10240 = min (srcW (eiOf m d) e).toInt.toNat 9999
  change 0 ≤ (srcW (eiOf m d) e).toInt at h0
  change (srcW (eiOf m d) e).toInt ≤ 9999 at h9
  rw [BitVec.toInt_eq_toNat_cond] at h0 h9 ⊢
  split at h0 <;> omega

include hei hx hw CF0 CF1 in
/-- The accumulated rows at a node are the reference's messages summed over the edges into it. -/
theorem agg_node (j : Fin 128) (n : Fin 10000) :
    asAgg d (aggA d) (ix2 j (n40 n)) = ∑ e ∈ inEdges (eiOf m d) n, msgS (xOf m d) (eiOf m d) (wOf m d) e j := by
  rw [CF1 j (n40 n), sum_positions' (eiOf m d) hei n
    (fun e => asHt d (W3 m cntA d ht') (ix2 j (⟨(sP (eiOf m d) e).toNat % 10240, Nat.mod_lt _ (by omega)⟩ : Fin 10240)))]
  refine Finset.sum_congr rfl fun e _ => ?_
  unfold msgS
  by_cases h : srcW (eiOf m d) e ≠ dstW (eiOf m d) e
  · rw [if_pos h, if_pos h]
    have hidx : (⟨(sP (eiOf m d) ⟨e.val, by have := e.isLt; omega⟩).toNat % 10240, Nat.mod_lt _ (by omega)⟩ : Fin 10240)
        = n40 (nodeOf (srcW (eiOf m d) e)) := by
      rw [show sP (eiOf m d) ⟨e.val, by have := e.isLt; omega⟩ = srcW (eiOf m d) e from sP_edge (eiOf m d) e]
      exact src_node m d hei e
    rw [hidx]
    exact htArr_node m cntA d hei hx hw CF0 j (nodeOf (srcW (eiOf m d) e))
  · rw [if_neg h, if_neg h]

/-- The bias row at column q is the bias at q. -/
theorem bias_apply (q : Fin 128) : V1 m d v12' (ix2 (0 : Fin 1) q) = bOf m d (ix1 q) := by
  unfold V1
  after_results
  exact shapeCast_apply _ _ (ix2 (0 : Fin 1) q) (ix1 q) (by simp [Shape.rowMajor_val_one, Shape.rowMajor_val_two])

include hei hx hw CF0 CF1 in
/-- The kernel program's result at a node and column is the reference's. -/
theorem final_apply (n : Fin 10000) (j : Fin 128) :
    W6 m cntA aggA d v19' (ix2 n j) = result (xOf m d) (eiOf m d) (wOf m d) (bOf m d) (ix2 n j) := by
  rw [W6_apply m cntA aggA d n j, W5_v18, arrOut_apply, result_apply_alg (xOf m d) (eiOf m d) (wOf m d) hx hw hei (bOf m d) n j]
  unfold oW aggS
  rw [show VofW (W4 m cntA aggA d) d main_v17 (ix2 j (n40 n)) = asAgg d (aggA d) (ix2 j (n40 n)) from congrFun (W4_agg m cntA aggA d) _,
    agg_node m cntA aggA d hei hx hw CF0 CF1 j n,
    show VofW (W4 m cntA aggA d) d main_v16_0 (ix2 (n40 n) j) = hS (xOf m d) (eiOf m d) (wOf m d) n j
      from (congrFun (W4_h m cntA aggA d) _).trans (hArr_node m cntA d hei hx hw CF0 n j),
    show VofW (W4 m cntA aggA d) d main_v16_2 (ix2 (n40 n) (0 : Fin 1)) = rdegS (eiOf m d) n
      from (congrFun (W4_r m cntA aggA d) _).trans (rArr_node m cntA d hei CF0 n),
    show VofW (W4 m cntA aggA d) d main_v12 (ix2 (0 : Fin 1) j) = bOf m d (ix1 j)
      from (congrFun (W4_bias m cntA aggA d) _).trans (bias_apply m d j)]

include hei hx hw CF0 CF1 in
/-- The kernel program's result array is the reference's result function of the arguments. -/
theorem final_eq : W6 m cntA aggA d v19' = result (xOf m d) (eiOf m d) (wOf m d) (bOf m d) := by
  refine funext fun (idx : S10000x128.Idx) => ?_
  rw [eq_ix2 idx]
  exact final_apply m cntA aggA d hei hx hw CF0 CF1 (idx 0) (idx 1)

end Final

end Cert.KernelIdeal.Run

end
-- ==== Proof.VTopPre.lean ====
/-
  What the precondition gives the final equation, at the extended reals: the edge list in range, the features and the weights
  real at every entry; and the zero vector is zero.
-/
import proofs.«207969_g80633716015134_cont_9to1_m_1245_11_alg».proof.Proof.VFinal
import proofs.«207969_g80633716015134_cont_9to1_m_1245_11_alg».proof.Proof.KRange
import Idealize.ShloMosaic.Lib.IdealHost

noncomputable section

namespace Cert.KernelIdeal.Run

open Cert.KernelIdeal Cert.KernelIdeal.Gen
open Idealize.ShloMosaic Idealize.ShloMosaic.ValueIdx Idealize.SL.Sem
open Idealize.ShloMosaic.StableHlo (after)
open Cert.ReferenceIdeal.RefRun (InRange inRange_of_domain real_of_domain)

variable (m : (ℓ : Loc nD τ sig) → Buf (Elt Ideal) ℓ)

theorem inRange_of_preOK (hpre : PreOK (F := Ideal) m) (d : Dev nD) : InRange (eiOf m d) :=
  inRange_of_domain _ _ _ _ (hpre d)

theorem realX_of_preOK (hpre : PreOK (F := Ideal) m) (d : Dev nD) : ∀ i, ∃ r : ℝ, xOf m d i = ((r : ℝ) : EReal) :=
  (real_of_domain _ _ _ _ (hpre d)).1

theorem realW_of_preOK (hpre : PreOK (F := Ideal) m) (d : Dev nD) : ∀ i, ∃ r : ℝ, wOf m d i = ((r : ℝ) : EReal) :=
  (real_of_domain _ _ _ _ (hpre d)).2.1

/-- The zero vector as a function to the extended reals. -/
abbrev asZero (d : Dev nD) (f : Buf (Elt Ideal) (zeroLoc d)) : S10256.Idx → EReal := f

/-- The zero vector is zero at every entry. -/
theorem fz_zero (d : Dev nD) (i : S10256.Idx) : asZero d (fz m d) i = 0 := by
  unfold fz V1
  after_results
  show Ideal.ofBits .f32 0x00000000#32 = 0
  exact Ideal.ofBits_zero_f32

end Cert.KernelIdeal.Run

end
-- ==== Proof.VTile1Def.lean ====
import proofs.«207969_g80633716015134_cont_9to1_m_1245_11_alg».proof.Proof.KTile1Proc
import Idealize.ShloMosaic.Lib.ValueIdx

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx
open T1

variable {F : FTy → Type}

local notation "𝕄" => MT nD τ sig (HIx 2) (Elt F) ℕ UU ℕ

namespace VT1

section Defs

variable [FloatOps F]

/-- The edge arrays' index at a number (taken modulo their length). -/
def eIx (m : Nat) : S327680.Idx := ix1 ⟨m % 327680, Nat.mod_lt _ (by decide)⟩

/-- The g-th group of sixteen consecutive words of an edge array. -/
def grp (A : S327680.Idx → BitVec 32) (g : Nat) : IVec S16 32 := fun x => A (eIx (16 * g + (x 0).val))

/-- Where a group's lanes are accumulated: the destination index, or 10240 where source and destination agree. -/
def dmOf (s v : IVec S16 32) : IVec S16 32 := select (cmpi .eq s v) (broadcast S16 10240#32) v

open Classical in
/-- One group's round on one feature row: the row's entries at the source indices, added into the accumulator at the
    destination indices (the accumulator unchanged where an index is out of range). -/
def stepAcc (hcol : Vec F S10240 .f32) (s v : IVec S16 32) (acc : Vec F S10256 .f32) : Vec F S10256 .f32 :=
  if h : (∀ (a : Fin 1) (x : S16.Idx), ((![s] : Fin 1 → IVec S16 32) a x).toNat < S10240.size a)
      ∧ (∀ (a : Fin 1) (x : S16.Idx), ((![dmOf s v] : Fin 1 → IVec S16 32) a x).toNat < S10256.size a) then
    storeIdx acc ![dmOf s v] (loadIdx hcol ![s] h.1) (fun _ => 1#1) true h.2
  else acc

/-- The accumulator after the first n groups, from z. -/
def accAfter (S D : Nat → IVec S16 32) (hcol : Vec F S10240 .f32) (z : Vec F S10256 .f32) : Nat → Vec F S10256 .f32
  | 0 => z
  | n + 1 => stepAcc hcol (S n) (D n) (accAfter S D hcol z n)

theorem accAfter_succ (S D : Nat → IVec S16 32) (hcol : Vec F S10240 .f32) (z : Vec F S10256 .f32) (n : Nat) :
    accAfter S D hcol z (n + 1) = stepAcc hcol (S n) (D n) (accAfter S D hcol z n) := rfl

/-- A round of the program on group n is the recursion's step. -/
theorem acc_step (S D : Nat → IVec S16 32) (hcol : Vec F S10240 .f32) (z : Vec F S10256 .f32) (n : Nat) (s v : IVec S16 32)
    (hs : s = S n) (hv : v = D n)
    (h1 : ∀ (a : Fin 1) (x : S16.Idx), ((![s] : Fin 1 → IVec S16 32) a x).toNat < S10240.size a)
    (h2 : ∀ (a : Fin 1) (x : S16.Idx), ((![dmOf s v] : Fin 1 → IVec S16 32) a x).toNat < S10256.size a) :
    storeIdx (accAfter S D hcol z n) ![dmOf s v] (loadIdx hcol ![s] h1) (fun _ => 1#1) true h2 = accAfter S D hcol z (n + 1) := by
  subst hs hv
  rw [accAfter_succ]
  unfold stepAcc
  rw [dif_pos ⟨h1, h2⟩]

/-- An index buffer holds chunk n of an edge array. -/
def IsChunk (c : S1024.Idx → BitVec 32) (A : S327680.Idx → BitVec 32) (n : Nat) : Prop :=
  ∀ i : S1024.Idx, c i = A (eIx (1024 * n + (i 0).val))

/-- Row 4w+k of a 128-row array, as a vector. -/
def hrow (h : S128x10240.Idx → F .f32) (r : Fin 128) : Vec F S10240 .f32 := fun x => h (ix2 r (x 0))

end Defs

section Invs

variable [FloatOps F]
variable (fs : (d : Dev nD) → Buf (Elt F) (srcLoc d)) (fd : (d : Dev nD) → Buf (Elt F) (dstLoc d))
variable (d : Dev nD) (L : grid2.Coords)

/-- What a round of a slot's processing starts and ends with, contents named: the slot's two index buffers, the four
    feature rows, and the four accumulators after the groups done so far (base groups before this chunk, k in it). -/
def procInvV (mS mD : Memref sig .scVector .vmem S1024 .i32)
    (fS : Buf (Elt F) (mS.view.loc (V d (cV L) (jV L)))) (fD : Buf (Elt F) (mD.view.loc (V d (cV L) (jV L))))
    (h4 h5 h6 h7 : Vec F S10240 .f32) (z : Vec F S10256 .f32) (base : Nat) (k : Nat) (_ : Unit) : sProp 𝕄 :=
  iprop((mS.view.loc (V d (cV L) (jV L)) ↦{fullShare} fS) ∗ (mD.view.loc (V d (cV L) (jV L)) ↦{fullShare} fD)
    ∗ ((b4 : Memref sig .scVector .vmem S10240 .f32).view.loc (V d (cV L) (jV L)) ↦{fullShare} h4) ∗ ((b5 : Memref sig .scVector .vmem S10240 .f32).view.loc (V d (cV L) (jV L)) ↦{fullShare} h5)
    ∗ ((b6 : Memref sig .scVector .vmem S10240 .f32).view.loc (V d (cV L) (jV L)) ↦{fullShare} h6) ∗ ((b7 : Memref sig .scVector .vmem S10240 .f32).view.loc (V d (cV L) (jV L)) ↦{fullShare} h7)
    ∗ ((b8 : Memref sig .scVector .vmem S10256 .f32).view.loc (V d (cV L) (jV L)) ↦{fullShare} accAfter (grp (fs d)) (grp (fd d)) h4 z (base + k)) ∗ ((b9 : Memref sig .scVector .vmem S10256 .f32).view.loc (V d (cV L) (jV L)) ↦{fullShare} accAfter (grp (fs d)) (grp (fd d)) h5 z (base + k))
    ∗ ((b10 : Memref sig .scVector .vmem S10256 .f32).view.loc (V d (cV L) (jV L)) ↦{fullShare} accAfter (grp (fs d)) (grp (fd d)) h6 z (base + k)) ∗ ((b11 : Memref sig .scVector .vmem S10256 .f32).view.loc (V d (cV L) (jV L)) ↦{fullShare} accAfter (grp (fs d)) (grp (fd d)) h7 z (base + k)))

/-- What a trip of the pipeline starts and ends with, contents named: per slot the two index copies in flight, each to
    deliver its chunk (slot 0: chunk 2g, slot 1: chunk 2g+1) and the half of the read token it borrowed; the four feature
    rows; the four accumulators after the first 128 g groups; the subcore's debts. -/
def mainInvV (O : CellTallies nD τ sig (HIx 2)) (W : Waits sig (HIx 2))
    (h4 h5 h6 h7 : Vec F S10240 .f32) (z : Vec F S10256 .f32) (g : Nat) (_ : Unit) : sProp 𝕄 :=
  iprop(Transfers.MayWaits (V d (cV L) (jV L)) (none : HIx 2) O
    ∗ (∃ c : Buf (Elt F) ((b0 : Memref sig .scVector .vmem S1024 .i32).view.loc (V d (cV L) (jV L))), ⌜IsChunk c (fs d) (2 * g)⌝
        ∗ Flight (countersEmb : UEmb Counters 𝕄) (V d (cV L) (jV L)) (.dma cc2_scratch12.sem) default 32768
            iprop(((b0 : Memref sig .scVector .vmem S1024 .i32).view.loc (V d (cV L) (jV L)) ↦{fullShare} c) ∗ ((aS : Memref sig .scVector .hbm S327680 .i32).view.loc (V d (cV L) (jV L)) ↦{(qW L).left} fs d)))
    ∗ (∃ c : Buf (Elt F) ((b2 : Memref sig .scVector .vmem S1024 .i32).view.loc (V d (cV L) (jV L))), ⌜IsChunk c (fd d) (2 * g)⌝
        ∗ Flight (countersEmb : UEmb Counters 𝕄) (V d (cV L) (jV L)) (.dma cc2_scratch14.sem) default 32768
            iprop(((b2 : Memref sig .scVector .vmem S1024 .i32).view.loc (V d (cV L) (jV L)) ↦{fullShare} c) ∗ ((aD : Memref sig .scVector .hbm S327680 .i32).view.loc (V d (cV L) (jV L)) ↦{(qW L).left} fd d)))
    ∗ (∃ c : Buf (Elt F) ((b1 : Memref sig .scVector .vmem S1024 .i32).view.loc (V d (cV L) (jV L))), ⌜IsChunk c (fs d) (2 * g + 1)⌝
        ∗ Flight (countersEmb : UEmb Counters 𝕄) (V d (cV L) (jV L)) (.dma cc2_scratch13.sem) default 32768
            iprop(((b1 : Memref sig .scVector .vmem S1024 .i32).view.loc (V d (cV L) (jV L)) ↦{fullShare} c) ∗ ((aS : Memref sig .scVector .hbm S327680 .i32).view.loc (V d (cV L) (jV L)) ↦{(qW L).right} fs d)))
    ∗ (∃ c : Buf (Elt F) ((b3 : Memref sig .scVector .vmem S1024 .i32).view.loc (V d (cV L) (jV L))), ⌜IsChunk c (fd d) (2 * g + 1)⌝
        ∗ Flight (countersEmb : UEmb Counters 𝕄) (V d (cV L) (jV L)) (.dma cc2_scratch15.sem) default 32768
            iprop(((b3 : Memref sig .scVector .vmem S1024 .i32).view.loc (V d (cV L) (jV L)) ↦{fullShare} c) ∗ ((aD : Memref sig .scVector .hbm S327680 .i32).view.loc (V d (cV L) (jV L)) ↦{(qW L).right} fd d)))
    ∗ ((b4 : Memref sig .scVector .vmem S10240 .f32).view.loc (V d (cV L) (jV L)) ↦{fullShare} h4) ∗ ((b5 : Memref sig .scVector .vmem S10240 .f32).view.loc (V d (cV L) (jV L)) ↦{fullShare} h5)
    ∗ ((b6 : Memref sig .scVector .vmem S10240 .f32).view.loc (V d (cV L) (jV L)) ↦{fullShare} h6) ∗ ((b7 : Memref sig .scVector .vmem S10240 .f32).view.loc (V d (cV L) (jV L)) ↦{fullShare} h7)
    ∗ ((b8 : Memref sig .scVector .vmem S10256 .f32).view.loc (V d (cV L) (jV L)) ↦{fullShare} accAfter (grp (fs d)) (grp (fd d)) h4 z (128 * g)) ∗ ((b9 : Memref sig .scVector .vmem S10256 .f32).view.loc (V d (cV L) (jV L)) ↦{fullShare} accAfter (grp (fs d)) (grp (fd d)) h5 z (128 * g))
    ∗ ((b10 : Memref sig .scVector .vmem S10256 .f32).view.loc (V d (cV L) (jV L)) ↦{fullShare} accAfter (grp (fs d)) (grp (fd d)) h6 z (128 * g)) ∗ ((b11 : Memref sig .scVector .vmem S10256 .f32).view.loc (V d (cV L) (jV L)) ↦{fullShare} accAfter (grp (fs d)) (grp (fd d)) h7 z (128 * g))
    ∗ ∃ W', ⌜∀ p ∈ W', p ∈ W ∨ p.2 = none⌝ ∗ owes (V d (cV L) (jV L)) O W')

end Invs
end VT1
end Cert.KernelIdeal.Run
-- ==== Proof.LibScatterSum.lean ====
import Mathlib.Algebra.BigOperators.Fin
import Idealize.ShloMosaic.PureOps.ShapeOps
import Idealize.ShloMosaic.PureOps.Ideal

/-!
# An accumulating indexed store, and an indexed load, read at an element, on the extended reals

An accumulating indexed store of a vector of lanes into an array adds each lane's value onto the element its indices name,
lowest lane first. On the extended reals addition is commutative and associative, so the element at index i ends at what
it held plus the sum, over the lanes whose indices name i, of the lanes' values — whatever the order. An indexed load reads,
at lane x, the element the lane's indices name.
-/

noncomputable section

namespace Cert.Lib.ScatterSum

open Idealize.ShloMosaic
open scoped BigOperators

variable {s t : Shape} {d : Fin 1 → ℕ}

/-- An indexed load at lane x is the base's element at the index the lane names. -/
theorem loadIdx_apply {e : EltTy} (f : Vec Ideal s e) (idxs : Fin s.rank → IVec t 32) (h : ∀ a x, (idxs a x).toNat < s.size a)
    (x : t.Idx) : loadIdx f idxs h x = f (idxAt idxs h x) := rfl

/-- Lane k of the index vectors names element i: on every axis the lane's index, read unsigned, is i's coordinate. -/
def Names (idxs : Fin s.rank → IVec ⟨1, d⟩ 32) (h : ∀ a x, (idxs a x).toNat < s.size a) (i : s.Idx) (k : Fin (d 0)) : Prop :=
  ∀ a, (i a).val = (idxAt idxs h (Shape.ofLane k) a).val

instance (idxs : Fin s.rank → IVec ⟨1, d⟩ 32) (h : ∀ a x, (idxs a x).toNat < s.size a) (i : s.Idx) (k : Fin (d 0)) :
    Decidable (Names idxs h i k) := by unfold Names; infer_instance

/-- The lanes of a list stored one after the other, each added onto the element it names: element i ends at what it held
    plus the values of the lanes of the list that name it. -/
theorem foldl_add_apply (idxs : Fin s.rank → IVec ⟨1, d⟩ 32) (v : Vec Ideal ⟨1, d⟩ .f32) (h : ∀ a x, (idxs a x).toNat < s.size a)
    (i : s.Idx) : ∀ (l : List (Fin (d 0))) (g : Vec Ideal s .f32),
    (l.foldl (fun g k =>
        let x := Shape.ofLane k
        if (fun _ => (1#1 : BitVec 1)) x = 1 then
          let i := idxAt idxs h x
          let y := if true then Elt.idxAdd (F := Ideal) .f32 (g i) (v x) else v x
          fun j => if (∀ a, (j a).val = (i a).val) then y else g j
        else g) g) i
      = g i + (l.map fun k => if Names idxs h i k then v (Shape.ofLane k) else 0).sum
  | [], g => by rw [List.foldl_nil, List.map_nil, List.sum_nil, add_zero]
  | k :: l, g => by
    rw [List.foldl_cons, foldl_add_apply idxs v h i l, List.map_cons, List.sum_cons, ← add_assoc]
    refine congrArg (· + _) ?_
    show (if (1#1 : BitVec 1) = 1 then
        (fun j => if (∀ a, (j a).val = (idxAt idxs h (Shape.ofLane k) a).val) then
            (if true = true then Elt.idxAdd (F := Ideal) .f32 (g (idxAt idxs h (Shape.ofLane k))) (v (Shape.ofLane k)) else v (Shape.ofLane k))
          else g j)
      else g) i = g i + if Names idxs h i k then v (Shape.ofLane k) else 0
    rw [if_pos rfl]
    show (if (∀ a, (i a).val = (idxAt idxs h (Shape.ofLane k) a).val) then
        (if true = true then Elt.idxAdd (F := Ideal) .f32 (g (idxAt idxs h (Shape.ofLane k))) (v (Shape.ofLane k)) else v (Shape.ofLane k))
      else g i) = _
    by_cases hP : ∀ a, (i a).val = (idxAt idxs h (Shape.ofLane k) a).val
    · have hi : idxAt idxs h (Shape.ofLane k) = i := funext fun a => Fin.ext (hP a).symm
      rw [if_pos hP, if_pos rfl, if_pos (show Names idxs h i k from hP), hi]
      rfl
    · rw [if_neg hP, if_neg (show ¬Names idxs h i k from hP), add_zero]

/-- The accumulating indexed store of every lane, at element i: what the element held plus the sum, over the lanes that name
    i, of the lanes' values. -/
theorem storeIdx_add_apply (f : Vec Ideal s .f32) (idxs : Fin s.rank → IVec ⟨1, d⟩ 32) (v : Vec Ideal ⟨1, d⟩ .f32)
    (h : ∀ a x, (idxs a x).toNat < s.size a) (i : s.Idx) :
    storeIdx f idxs v (fun _ => 1#1) true h i
      = f i + ∑ k : Fin (d 0), if (∀ a, (i a).val = (idxAt idxs h (Shape.ofLane k) a).val) then v (Shape.ofLane k) else 0 := by
  unfold storeIdx
  rw [foldl_add_apply idxs v h i (List.finRange (d 0)) f, Fin.sum_univ_def]
  rfl

/-- Into a rank-one array, through one index vector: lane k names element i when its index, read unsigned, is i's one
    coordinate. -/
theorem storeIdx_add_apply_one {N : ℕ} (f : Vec Ideal ⟨1, ![N]⟩ .f32) (idx : IVec ⟨1, d⟩ 32) (v : Vec Ideal ⟨1, d⟩ .f32)
    (h : ∀ a x, ((![idx] : Fin 1 → IVec ⟨1, d⟩ 32) a x).toNat < (⟨1, ![N]⟩ : Shape).size a) (i : (⟨1, ![N]⟩ : Shape).Idx) :
    storeIdx f ![idx] v (fun _ => 1#1) true h i
      = f i + ∑ k : Fin (d 0), if (idx (Shape.ofLane k)).toNat = (i 0).val then v (Shape.ofLane k) else 0 := by
  rw [storeIdx_add_apply]
  refine congrArg (f i + ·) (Finset.sum_congr rfl fun k _ => ?_)
  have hiff : (∀ a : Fin 1, (i a).val = (idxAt (s := ⟨1, ![N]⟩) ![idx] h (Shape.ofLane k) a).val) ↔ (idx (Shape.ofLane k)).toNat = (i 0).val :=
    ⟨fun hh => (hh 0).symm, fun hh a => by rw [Fin.eq_zero a]; exact hh.symm⟩
  by_cases hc : (idx (Shape.ofLane k)).toNat = (i 0).val
  · rw [if_pos hc, if_pos (hiff.mpr hc)]
  · rw [if_neg hc, if_neg (fun hh => hc (hiff.mp hh))]

/-- An indexed load out of a rank-one array through one index vector: lane x reads the element at its index. -/
theorem loadIdx_apply_one {e : EltTy} {N : ℕ} (f : Vec Ideal ⟨1, ![N]⟩ e) (idx : IVec t 32)
    (h : ∀ a x, ((![idx] : Fin 1 → IVec t 32) a x).toNat < (⟨1, ![N]⟩ : Shape).size a) (x : t.Idx) :
    loadIdx f ![idx] h x = f (fun a => ⟨(idx x).toNat, by rw [Fin.eq_zero a]; exact h 0 x⟩) := by
  rw [loadIdx_apply]
  refine congrArg f (funext fun a => Fin.ext ?_)
  rw [Fin.eq_zero a]
  rfl

end Cert.Lib.ScatterSum

end
-- ==== Proof.VClosed1.lean ====
/-
  The second task's accumulator in closed form, on the extended reals. The accumulator starts at z; group g of sixteen
  consecutive edges adds, for each of its edges e, the feature row's entry at the edge's source onto the accumulator's
  entry at the edge's destination — or onto entry 10240 when source and destination agree. With every source and
  destination word below 10000, after G groups the entry n holds z's entry plus the sum, over the first 16 G edges whose
  target is n, of the row's entries at their sources.
-/
import proofs.«207969_g80633716015134_cont_9to1_m_1245_11_alg».proof.Proof.VTile1Def
import proofs.«207969_g80633716015134_cont_9to1_m_1245_11_alg».proof.Proof.LibScatterSum

noncomputable section

namespace Cert.KernelIdeal.Run

open Cert.KernelIdeal Cert.KernelIdeal.Gen Idealize.ShloMosaic Idealize.ShloMosaic.ValueIdx
open scoped BigOperators

namespace VT1

/-- Where edge e's contribution goes: its destination, or 10240 when its source and destination agree. -/
def dm (S D : S327680.Idx → BitVec 32) (e : ℕ) : ℕ := if S (eIx e) = D (eIx e) then 10240 else (D (eIx e)).toNat

/-- Lane k of group g is edge 16 g + k. -/
theorem grp_lane (A : S327680.Idx → BitVec 32) (g : ℕ) (k : Fin 16) :
    grp A g (Shape.ofLane (d := ![16]) k) = A (eIx (16 * g + k.val)) := rfl

/-- A group's target vector at lane k is that edge's target. -/
theorem dmOf_lane (S D : S327680.Idx → BitVec 32) (g : ℕ) (k : Fin 16) :
    (dmOf (grp S g) (grp D g) (Shape.ofLane (d := ![16]) k)).toNat = dm S D (16 * g + k.val) := by
  have hx : dmOf (grp S g) (grp D g) (Shape.ofLane (d := ![16]) k)
      = Scalar.select (IntOp.cmpi .eq (S (eIx (16 * g + k.val))) (D (eIx (16 * g + k.val)))) 10240#32 (D (eIx (16 * g + k.val))) := rfl
  rw [hx]
  unfold dm
  by_cases h : S (eIx (16 * g + k.val)) = D (eIx (16 * g + k.val))
  · rw [IntOp.cmpi_eq.mpr h, select_one, if_pos h]; rfl
  · rw [eq_zero_of_ne_one fun h1 => h (IntOp.cmpi_eq.mp h1), select_zero, if_neg h]

section Closed

variable (S D : S327680.Idx → BitVec 32) (hRs : ∀ i, (S i).toNat < 10000) (hRd : ∀ i, (D i).toNat < 10000)

include hRs in
theorem src_inb (g : ℕ) : ∀ (a : Fin 1) (x : S16.Idx), ((![grp S g] : Fin 1 → IVec S16 32) a x).toNat < S10240.size a := by
  intro a x
  rw [Fin.eq_zero a]
  show (S _).toNat < 10240
  have := hRs (eIx (16 * g + (x 0).val)); omega

include hRd in
theorem dst_inb (g : ℕ) : ∀ (a : Fin 1) (x : S16.Idx), ((![dmOf (grp S g) (grp D g)] : Fin 1 → IVec S16 32) a x).toNat < S10256.size a := by
  intro a x
  rw [Fin.eq_zero a]
  show (dmOf (grp S g) (grp D g) x).toNat < 10256
  obtain ⟨k, rfl⟩ : ∃ k : Fin 16, x = Shape.ofLane (d := ![16]) k := ⟨x 0, funext fun a => by rw [Fin.eq_zero a]; rfl⟩
  rw [dmOf_lane]
  unfold dm
  split
  · omega
  · have := hRd (eIx (16 * g + k.val)); omega

include hRs hRd in
/-- The accumulator after G groups, at entry n. -/
theorem accAfter_closed (hcol : Vec Ideal S10240 .f32) (z : Vec Ideal S10256 .f32) (n : Fin 10256) : ∀ G : ℕ,
    accAfter (F := Ideal) (grp S) (grp D) hcol z G (ix1 n)
      = z (ix1 n) + ∑ e ∈ Finset.range (16 * G),
          if dm S D e = n.val then hcol (ix1 ⟨(S (eIx e)).toNat, by have := hRs (eIx e); omega⟩) else 0
  | 0 => by rw [Nat.mul_zero, Finset.range_zero, Finset.sum_empty, add_zero]; rfl
  | G + 1 => by
    rw [accAfter_succ]
    unfold stepAcc
    rw [dif_pos ⟨src_inb S hRs G, dst_inb S D hRd G⟩]
    refine (Cert.Lib.ScatterSum.storeIdx_add_apply_one _ _ _ _ (ix1 n)).trans ?_
    rw [accAfter_closed hcol z n G, add_assoc, show 16 * (G + 1) = 16 * G + 16 by ring, Finset.sum_range_add]
    refine congrArg (z (ix1 n) + ·) (congrArg₂ (· + ·) rfl ?_)
    rw [Finset.sum_range]
    refine Finset.sum_congr rfl fun (k : Fin 16) _ => ?_
    refine if_congr (Iff.of_eq (congrArg (· = n.val) (dmOf_lane S D G k))) ?_ rfl
    refine (Cert.Lib.ScatterSum.loadIdx_apply_one hcol (grp S G) (src_inb S hRs G) (Shape.ofLane (d := ![16]) k)).trans ?_
    refine congrArg hcol (funext fun a => Fin.ext ?_)
    rw [Fin.eq_zero a]
    rfl

end Closed

end VT1

end Cert.KernelIdeal.Run

end
-- ==== Proof.VGlue.lean ====
/-
  The second task's accumulator after all 20480 groups of sixteen edges, restated over the 327680 edge positions as a finite
  index type: entry n below 10240 holds z's entry plus the sum, over the positions e whose target is n, of the feature
  row's entry at the source of e (taken modulo 10240, which changes nothing for a source below 10000).
-/
import proofs.«207969_g80633716015134_cont_9to1_m_1245_11_alg».proof.Proof.VClosed1

noncomputable section

namespace Cert.KernelIdeal.Run

open Cert.KernelIdeal Cert.KernelIdeal.Gen Idealize.ShloMosaic Idealize.ShloMosaic.ValueIdx
open scoped BigOperators

namespace VT1

/-- A position below the arrays' length is read where it is. -/
theorem eIx_of_lt (e : Fin 327680) : eIx e.val = ix1 e := by
  unfold eIx
  refine congrArg ix1 (Fin.ext ?_)
  exact Nat.mod_eq_of_lt e.isLt

theorem accAfter_all (S D : S327680.Idx → BitVec 32) (hRs : ∀ i, (S i).toNat < 10000) (hRd : ∀ i, (D i).toNat < 10000)
    (hcol : Vec Ideal S10240 .f32) (z : Vec Ideal S10256 .f32) (n : Fin 10240) :
    accAfter (F := Ideal) (grp S) (grp D) hcol z 20480 (ix1 (⟨n.val, by have := n.isLt; omega⟩ : Fin 10256))
      = z (ix1 (⟨n.val, by have := n.isLt; omega⟩ : Fin 10256))
        + ∑ e : Fin 327680, if (if S (ix1 e) = D (ix1 e) then 10240 else (D (ix1 e)).toNat) = n.val then
            hcol (ix1 ⟨(S (ix1 e)).toNat % 10240, Nat.mod_lt _ (by decide)⟩) else 0 := by
  rw [accAfter_closed S D hRs hRd hcol z ⟨n.val, by have := n.isLt; omega⟩ 20480, show 16 * 20480 = 327680 from rfl, Finset.sum_range]
  refine congrArg (z _ + ·) (Finset.sum_congr rfl fun e _ => ?_)
  unfold dm
  have he := eIx_of_lt e
  refine if_congr (by rw [he]) (congrArg hcol (congrArg ix1 (Fin.ext ?_))) rfl
  show (S (eIx e.val)).toNat = (S (ix1 e)).toNat % 10240
  rw [he]
  exact (Nat.mod_eq_of_lt (by have := hRs (ix1 e); omega)).symm

end VT1

end Cert.KernelIdeal.Run

end
-- ==== Proof.VCF.lean ====
/-
  The second call's accumulated rows in the form the final equation takes: the recursion's closed form over all padded
  positions, the padded words read off the edge list, the zero vector zero.
-/
import proofs.«207969_g80633716015134_cont_9to1_m_1245_11_alg».proof.Proof.VTopPre
import proofs.«207969_g80633716015134_cont_9to1_m_1245_11_alg».proof.Proof.VGlue

noncomputable section

namespace Cert.KernelIdeal.Run

open Cert.KernelIdeal Cert.KernelIdeal.Gen
open Idealize.ShloMosaic Idealize.ShloMosaic.ValueIdx Idealize.SL.Sem
open scoped BigOperators

variable (m : (ℓ : Loc nD τ sig) → Buf (Elt Ideal) ℓ)
  (htA : (d : Dev nD) → Buf (Elt Ideal) (htLoc d)) (aggA : (d : Dev nD) → Buf (Elt Ideal) (aggLoc d)) (d : Dev nD)

/-- The padded source and destination words at a position, off the arrays the calls read. -/
theorem fs_sP (e : Fin 327680) : (fs m d : S327680.Idx → BitVec 32) (ix1 e) = sP (eiOf m d) e := by
  rw [fs_apply]; rfl
theorem fd_dP (e : Fin 327680) : (fd m d : S327680.Idx → BitVec 32) (ix1 e) = dP (eiOf m d) e := by
  rw [fd_apply]; rfl

/-- From the accumulated rows as the recursion's value after all 20480 groups, the form the final equation takes. -/
theorem CF1_of (hRs : ∀ i, ((fs m d : S327680.Idx → BitVec 32) i).toNat < 10000) (hRd : ∀ i, ((fd m d : S327680.Idx → BitVec 32) i).toNat < 10000)
    (hagg : ∀ (r : Fin 128) (n : Fin 10240), asAgg d (aggA d) (ix2 r n)
      = VT1.accAfter (F := Ideal) (VT1.grp (fs m d)) (VT1.grp (fd m d)) (VT1.hrow (htA d) r) (fz m d) 20480 (ix1 (n56 n)))
    (r : Fin 128) (n : Fin 10240) :
    asAgg d (aggA d) (ix2 r n) = ∑ e : Fin 327680, if dmP (eiOf m d) e = n.val
      then asHt d (htA d) (ix2 r (⟨(sP (eiOf m d) e).toNat % 10240, Nat.mod_lt _ (by omega)⟩ : Fin 10240)) else 0 := by
  rw [hagg r n, VT1.accAfter_all (fs m d) (fd m d) hRs hRd (VT1.hrow (htA d) r) (fz m d) n]
  refine (congrArg₂ (fun a b : EReal => a + b) (fz_zero m d _) (Finset.sum_congr rfl fun e _ => ?_)).trans (zero_add _)
  rw [fs_sP m d e, fd_dP m d e]
  rfl

end Cert.KernelIdeal.Run

end
-- ==== Proof.VTile0Trip.lean ====
/-
  The first call's task with its value: the worker's accumulator as a function of the index arrays and the zero vector
  (the rounds of the ten trips, each adding one at sixteen destination indices, or at 10240 where source and destination
  agree), the loop invariant that holds the accumulator at that function, and one trip of the loop.
-/
import proofs.«207969_g80633716015134_cont_9to1_m_1245_11_alg».proof.Proof.KTile0Trip
import proofs.«207969_g80633716015134_cont_9to1_m_1245_11_alg».proof.Proof.VSetup

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 2) (Elt F) ℕ UU ℕ

namespace VT0

open Tile0

section Pure

variable [FloatOps F]

/-- One round: one is added into the accumulator at each lane's destination index, or at 10240 where the lane's source
    and destination indices agree. -/
def stepAcc (acc : Vec F S10256 .f32) (s dd : IVec S16 32) (hd : ∀ x, (dd x).toNat < 10000) : Vec F S10256 .f32 :=
  storeIdx acc ![select (cmpi .eq s dd) (broadcast S16 10240#32) dd] (k0_pay1 (F := F)) (fun _ => 1#1) true (dm_lt s dd hd)

theorem stepAcc_congr {acc acc' : Vec F S10256 .f32} {s s' dd dd' : IVec S16 32} {hd : ∀ x, (dd x).toNat < 10000} {hd' : ∀ x, (dd' x).toNat < 10000}
    (ha : acc = acc') (hs : s = s') (hdd : dd = dd') : stepAcc acc s dd hd = stepAcc acc' s' dd' hd' := by
  subst ha; subst hs; subst hdd; rfl

/-- Lanes 16 n … 16 n + 15 of a chunk of 1024 (n taken below 64) are inside it. -/
theorem grp_inb (n : Nat) : ∀ a, (![16 * (n % 64)] : Fin 1 → Nat) a + S16.size a ≤ S1024.size a := by
  intro a
  obtain rfl : a = 0 := Subsingleton.elim _ _
  show 16 * (n % 64) + 16 ≤ 1024
  have := Nat.mod_lt n (show 64 > 0 by decide)
  omega

/-- Those sixteen words of a chunk. -/
def grpP (w : S1024.Idx → BitVec 32) (n : Nat) : IVec S16 32 :=
  fun x => w ((Rect.unit (s := S1024) ![16 * (n % 64)] S16.size (grp_inb n)).toLoadRect.idx x)

/-- The rounds of one trip over a source chunk and a destination chunk, the destination's words below 10000. -/
def roundsP (ws wd : S1024.Idx → BitVec 32) (hw : ∀ y, (wd y).toNat < 10000) (acc0 : Vec F S10256 .f32) : Nat → Vec F S10256 .f32
  | 0 => acc0
  | n + 1 => stepAcc (roundsP ws wd hw acc0 n) (grpP ws n) (grpP wd n) (fun x => hw _)

end Pure

section Raw

variable [FloatOps F]
variable (d : Dev nD) (L : grid0.Coords)

/-- The same sixteen words as a load of the scratch reads them. -/
def g6 (c6 : Buf (Elt F) ((b6 : Memref sig .scVector .vmem S1024 .i32).view.loc (V d (cV L) (jV L)))) (n : Nat) : IVec S16 32 :=
  View.readAt (Elt F) (b6 : Memref sig .scVector .vmem S1024 .i32).view (Rect.unit (s := S1024) ![16 * (n % 64)] S16.size (grp_inb n)).toLoadRect c6
def g7 (c7 : Buf (Elt F) ((b7 : Memref sig .scVector .vmem S1024 .i32).view.loc (V d (cV L) (jV L)))) (n : Nat) : IVec S16 32 :=
  View.readAt (Elt F) (b7 : Memref sig .scVector .vmem S1024 .i32).view (Rect.unit (s := S1024) ![16 * (n % 64)] S16.size (grp_inb n)).toLoadRect c7

/-- The rounds of one trip as the program runs them over what the two scratches hold. -/
def rounds (c6 : Buf (Elt F) ((b6 : Memref sig .scVector .vmem S1024 .i32).view.loc (V d (cV L) (jV L))))
    (c7 : Buf (Elt F) ((b7 : Memref sig .scVector .vmem S1024 .i32).view.loc (V d (cV L) (jV L)))) (hb : ∀ j, (c7 j).toNat < 10000)
    (acc0 : Vec F S10256 .f32) : Nat → Vec F S10256 .f32
  | 0 => acc0
  | n + 1 => stepAcc (rounds c6 c7 hb acc0 n) (g6 d L c6 n) (g7 d L c7 n) (fun x => hb _)

theorem write6_univ (f6 : Buf (Elt F) ((b6 : Memref sig .scVector .vmem S1024 .i32).view.loc (V d (cV L) (jV L)))) (w : S1024.Idx → Elt F .i32) (j : S1024.Idx) :
    (View.write (Elt F) (b6 : Memref sig .scVector .vmem S1024 .i32).view f6 w Finset.univ) j = w j := by
  have e := View.write_emb_of_mem (Val := Elt F) (v := (b6 : Memref sig .scVector .vmem S1024 .i32).view) f6 w (M := Finset.univ) (x := j) (Finset.mem_univ _)
  have e' : (b6 : Memref sig .scVector .vmem S1024 .i32).view.emb j = j := rfl
  rw [e'] at e
  exact e
theorem write7_univ (f7 : Buf (Elt F) ((b7 : Memref sig .scVector .vmem S1024 .i32).view.loc (V d (cV L) (jV L)))) (w : S1024.Idx → Elt F .i32) (j : S1024.Idx) :
    (View.write (Elt F) (b7 : Memref sig .scVector .vmem S1024 .i32).view f7 w Finset.univ) j = w j := by
  have e := View.write_emb_of_mem (Val := Elt F) (v := (b7 : Memref sig .scVector .vmem S1024 .i32).view) f7 w (M := Finset.univ) (x := j) (Finset.mem_univ _)
  have e' : (b7 : Memref sig .scVector .vmem S1024 .i32).view.emb j = j := rfl
  rw [e'] at e
  exact e

theorem g6_write (f6 : Buf (Elt F) ((b6 : Memref sig .scVector .vmem S1024 .i32).view.loc (V d (cV L) (jV L)))) (w : S1024.Idx → Elt F .i32) (n : Nat) :
    g6 d L (View.write (Elt F) (b6 : Memref sig .scVector .vmem S1024 .i32).view f6 w Finset.univ) n = grpP w n := by
  funext x
  exact write6_univ (F := F) d L f6 w _
theorem g7_write (f7 : Buf (Elt F) ((b7 : Memref sig .scVector .vmem S1024 .i32).view.loc (V d (cV L) (jV L)))) (w : S1024.Idx → Elt F .i32) (n : Nat) :
    g7 d L (View.write (Elt F) (b7 : Memref sig .scVector .vmem S1024 .i32).view f7 w Finset.univ) n = grpP w n := by
  funext x
  exact write7_univ (F := F) d L f7 w _

/-- What the program's rounds compute depends on the two scratches only through the chunks copied over them. -/
theorem rounds_pure (f6 : Buf (Elt F) ((b6 : Memref sig .scVector .vmem S1024 .i32).view.loc (V d (cV L) (jV L))))
    (f7 : Buf (Elt F) ((b7 : Memref sig .scVector .vmem S1024 .i32).view.loc (V d (cV L) (jV L)))) (ws wd : S1024.Idx → Elt F .i32)
    (hb : ∀ j, ((View.write (Elt F) (b7 : Memref sig .scVector .vmem S1024 .i32).view f7 wd Finset.univ) j).toNat < 10000) (hw : ∀ y, (wd y).toNat < 10000)
    (acc0 : Vec F S10256 .f32) (n : Nat) :
    rounds d L (View.write (Elt F) (b6 : Memref sig .scVector .vmem S1024 .i32).view f6 ws Finset.univ)
      (View.write (Elt F) (b7 : Memref sig .scVector .vmem S1024 .i32).view f7 wd Finset.univ) hb acc0 n = roundsP ws wd hw acc0 n := by
  induction n with
  | zero => rfl
  | succ n ih => exact stepAcc_congr ih (g6_write (F := F) d L f6 ws n) (g7_write (F := F) d L f7 wd n)

end Raw

section Deg

variable [FloatOps F]
variable (fs : (d : Dev nD) → Buf (Elt F) (srcLoc d)) (fd : (d : Dev nD) → Buf (Elt F) (dstLoc d)) (fz : (d : Dev nD) → Buf (Elt F) (zeroLoc d))
variable (d : Dev nD) (L : grid0.Coords)

/-- Chunk k of the worker's slice of the source (destination) index array, as the copy delivers it. -/
def chunkS (k : Fin k0_t1_loop.trips) : S1024.Idx → Elt F .i32 :=
  ReadAs.same.apply (View.read (Elt F) ((aS : Memref sig .scVector .hbm S327680 .i32).slice (Rect.unit (s := S327680) (k0_off1 L k) S1024.size (k0_off1_inb L k)) (fun _ => rfl)).view (fs d))
def chunkD (k : Fin k0_t1_loop.trips) : S1024.Idx → Elt F .i32 :=
  ReadAs.same.apply (View.read (Elt F) ((aD : Memref sig .scVector .hbm S327680 .i32).slice (Rect.unit (s := S327680) (k0_off1 L k) S1024.size (k0_off1_inb L k)) (fun _ => rfl)).view (fd d))

theorem chunkD_lt (hR : ∀ (d : Dev nD) (j : (dstLoc d).ty.Idx), (fd d j).toNat < 10000) (k : Fin k0_t1_loop.trips) :
    ∀ y, (chunkD fd d L k y).toNat < 10000 := fun y => hR d _

theorem trips_eq : k0_t1_loop.trips = 10 := by decide

/-- Trip n of the loop (n taken below 10). -/
def kOf (n : Nat) : Fin k0_t1_loop.trips :=
  ⟨n % 10, by have h := trips_eq; have := Nat.mod_lt n (show 10 > 0 by decide); omega⟩
theorem kOf_val (k : Fin k0_t1_loop.trips) : kOf k.val = k :=
  Fin.ext (Nat.mod_eq_of_lt (by have h := trips_eq; have := k.isLt; omega))

/-- The zero vector as the first copy delivers it. -/
def acc0 : Vec F S10256 .f32 :=
  ReadAs.same.apply (View.read (Elt F) (aZ : Memref sig .scVector .hbm S10256 .f32).view (fz d))

/-- The worker's accumulator before trip n: the zero vector, then the rounds of each earlier trip over its two chunks. -/
def degAcc (hR : ∀ (d : Dev nD) (j : (dstLoc d).ty.Idx), (fd d j).toNat < 10000) : Nat → Vec F S10256 .f32
  | 0 => acc0 fz d
  | n + 1 => roundsP (chunkS fs d L (kOf n)) (chunkD fd d L (kOf n)) (chunkD_lt fd d L hR (kOf n)) (degAcc hR n) 64

/-- The worker's row of the count array: its accumulator after the ten trips. -/
def degRow (hR : ∀ (d : Dev nD) (j : (dstLoc d).ty.Idx), (fd d j).toNat < 10000) : Vec F S10256 .f32 :=
  degAcc fs fd fz d L hR 10

/-- What a trip of the loop starts and ends with, the accumulator now at its value. -/
def invV (hR : ∀ (d : Dev nD) (j : (dstLoc d).ty.Idx), (fd d j).toNat < 10000) (O : CellTallies nD τ sig (HIx 2)) (W : Waits sig (HIx 2)) (n : Nat) (_ : PUnit) : sProp 𝕄 :=
  iprop(Transfers.MayWaits (V d (cV L) (jV L)) (none : HIx 2) O
    ∗ ((aS : Memref sig .scVector .hbm S327680 .i32).view.loc (V d (cV L) (jV L)) ↦{qW L} fs d)
    ∗ ((aD : Memref sig .scVector .hbm S327680 .i32).view.loc (V d (cV L) (jV L)) ↦{qW L} fd d)
    ∗ (∃ f, (b6 : Memref sig .scVector .vmem S1024 .i32).view.loc (V d (cV L) (jV L)) ↦{fullShare} f)
    ∗ (∃ f, (b7 : Memref sig .scVector .vmem S1024 .i32).view.loc (V d (cV L) (jV L)) ↦{fullShare} f)
    ∗ ((b8 : Memref sig .scVector .vmem S10256 .f32).view.loc (V d (cV L) (jV L)) ↦{fullShare} degAcc fs fd fz d L hR n)
    ∗ semVal (g1 d (cV L) (jV L)) 0 ∗ semVal (g2 d (cV L) (jV L)) 0
    ∗ ∃ W', ⌜∀ p ∈ W', p ∈ W ∨ p.2 = none⌝ ∗ owes (V d (cV L) (jV L)) O W')

/-- The indexed store into the accumulator scratch: it then holds the scatter of what it held. -/
theorem wp_store8v {α : Type} {Q : α → sProp 𝕄} (idxs : Fin S10256.rank → IVec S16 32) (v : Vec F S16 .f32) (mask : IVec S16 1) (add : Bool)
    (h : ∀ a x, (idxs a x).toNat < S10256.size a) (hs : ((b8 : Memref sig .scVector .vmem S10256 .f32).access (.whole S10256)).Stores Finset.univ)
    (k : PUnit → Prog (TpuEff nD τ sig (Elt F) Λ₀ (.scVector (cV L) (jV L))) α)
    (f : Buf (Elt F) ((b8 : Memref sig .scVector .vmem S10256 .f32).view.loc (V d (cV L) (jV L)))) :
    ((b8 : Memref sig .scVector .vmem S10256 .f32).view.loc (V d (cV L) (jV L)) ↦{fullShare} f)
      ⊢ iprop((((b8 : Memref sig .scVector .vmem S10256 .f32).view.loc (V d (cV L) (jV L)) ↦{fullShare} (storeIdx (s := S10256) (e := .f32) f idxs v mask add h))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (b8 : Memref sig .scVector .vmem S10256 .f32) idxs v mask add h hs >>= k) Q) := by
  iintro H Hk
  have e : (((b8 : Memref sig .scVector .vmem S10256 .f32).access (.whole S10256)).set) = Finset.univ := Memref.set_access_whole _
  have hE : ((b8 : Memref sig .scVector .vmem S10256 .f32).access (.whole S10256)).write (Elt F) f
      (storeIdx (((b8 : Memref sig .scVector .vmem S10256 .f32).access (.whole S10256)).read (Elt F) f) idxs v mask add h) Finset.univ
      = storeIdx (s := S10256) (e := .f32) f idxs v mask add h :=
    (Memref.write_access_whole_univ (Elt F) (cc0_scratch2 : Ref sig .scVector) f _).trans
      (congrArg (fun g => storeIdx (s := S10256) (e := .f32) g idxs v mask add h) (Memref.read_access_whole (Elt F) (cc0_scratch2 : Ref sig .scVector) f))
  iapply (SparseCore.wp_vectorStoreIdx (defs := defs₀ (F := F)) 𝒱₀ (V d (cV L) (jV L)) none Set.univ (base := (b8 : Memref sig .scVector .vmem S10256 .f32))
    (idxs := idxs) (v := v) (mask := mask) (add := add) (h := h) (hs := hs) (k := k) (f := f) (Q := Q)) $$ [H]
  · rw [e]; iexact H
  iintro H
  iapply Hk
  rw [e, hE]; iexact H

/-- The accumulator scratch held at a value is held at any equal value. -/
theorem respell8 {X Y : Buf (Elt F) ((b8 : Memref sig .scVector .vmem S10256 .f32).view.loc (V d (cV L) (jV L)))} (h : X = Y) :
    ((b8 : Memref sig .scVector .vmem S10256 .f32).view.loc (V d (cV L) (jV L)) ↦{fullShare} X : sProp 𝕄)
      ⊢ ((b8 : Memref sig .scVector .vmem S10256 .f32).view.loc (V d (cV L) (jV L)) ↦{fullShare} Y) := by
  subst h; exact Entails.of_eq rfl

/-- The accumulator before the next trip is the program's rounds of this trip over what the accumulator held. -/
theorem degAcc_succ (hR : ∀ (d : Dev nD) (j : (dstLoc d).ty.Idx), (fd d j).toNat < 10000) (k : Fin k0_t1_loop.trips)
    (f6 : Buf (Elt F) ((b6 : Memref sig .scVector .vmem S1024 .i32).view.loc (V d (cV L) (jV L))))
    (f7 : Buf (Elt F) ((b7 : Memref sig .scVector .vmem S1024 .i32).view.loc (V d (cV L) (jV L))))
    (hb : ∀ j, ((View.write (Elt F) (b7 : Memref sig .scVector .vmem S1024 .i32).view f7 (chunkD fd d L k) Finset.univ) j).toNat < 10000) :
    degAcc fs fd fz d L hR (k.val + 1)
      = rounds d L (View.write (Elt F) (b6 : Memref sig .scVector .vmem S1024 .i32).view f6 (chunkS fs d L k) Finset.univ)
          (View.write (Elt F) (b7 : Memref sig .scVector .vmem S1024 .i32).view f7 (chunkD fd d L k) Finset.univ) hb (degAcc fs fd fz d L hR k.val) 64 := by
  have h1 : degAcc fs fd fz d L hR (k.val + 1)
      = roundsP (chunkS fs d L (kOf k.val)) (chunkD fd d L (kOf k.val)) (chunkD_lt fd d L hR (kOf k.val)) (degAcc fs fd fz d L hR k.val) 64 := rfl
  have h2 : ∀ (k' : Fin k0_t1_loop.trips), k' = k →
      roundsP (chunkS fs d L k') (chunkD fd d L k') (chunkD_lt fd d L hR k') (degAcc fs fd fz d L hR k.val) 64
        = roundsP (chunkS fs d L k) (chunkD fd d L k) (chunkD_lt fd d L hR k) (degAcc fs fd fz d L hR k.val) 64 := by
    intro k' hk; subst hk; rfl
  rw [h1, h2 _ (kOf_val k)]
  exact (rounds_pure (F := F) d L f6 f7 (chunkS fs d L k) (chunkD fd d L k) hb (chunkD_lt fd d L hR k) (degAcc fs fd fz d L hR k.val) 64).symm

/-- What the accumulator scratch holds can be given a name. -/
theorem name8 {X : Buf (Elt F) ((b8 : Memref sig .scVector .vmem S10256 .f32).view.loc (V d (cV L) (jV L)))} :
    ((b8 : Memref sig .scVector .vmem S10256 .f32).view.loc (V d (cV L) (jV L)) ↦{fullShare} X : sProp 𝕄)
      ⊢ iprop(∃ g, ⌜g = X⌝ ∗ ((b8 : Memref sig .scVector .vmem S10256 .f32).view.loc (V d (cV L) (jV L)) ↦{fullShare} g)) := by
  iintro H; iexists X; isplitr
  · ipureintro; rfl
  · iexact H

set_option hygiene false in
/-- Round n of the unrolled inner loop (m = n + 1): up to the check (discharged from the bound on the scratch's words), the indexed
    store by its rule, and the accumulator respelt as the rounds so far. -/
local macro "store_stepV " n:num m:num : tactic => `(tactic| (
  sl_exec (disch := exact chk_ok (F := F) d L _ _ hb _ _)
  iapply (wp_store8v (F := F) d L _ _ _ _ _ _ _ _) $$ [H8]
  · iexact H8
  iintro H8
  ihave H8e := (name8 (F := F) d L) $$ H8
  icases H8e with ⟨%gA, %hgA', H8⟩
  have hgA : gA = rounds d L (View.write (Elt F) (b6 : Memref sig .scVector .vmem S1024 .i32).view f6 (chunkS fs d L k) Finset.univ)
      (View.write (Elt F) (b7 : Memref sig .scVector .vmem S1024 .i32).view f7 (chunkD fd d L k) Finset.univ) hb (degAcc fs fd fz d L hR k.val) $m := hgA'
  clear hgA'
  subst hgA))

set_option sl_exec.dischHeartbeats 200000 in
set_option maxHeartbeats 4000000 in
/-- One trip of the loop with its value: both index chunks fetched, then the sixty-four rounds of the unrolled inner loop. -/
theorem tile_tripV (hR : ∀ (d : Dev nD) (j : (dstLoc d).ty.Idx), (fd d j).toNat < 10000)
    (O : CellTallies nD τ sig (HIx 2)) (W : Waits sig (HIx 2)) (v1 : BitVec 32) (k : Fin k0_t1_loop.trips) (acc : PUnit) :
    invV fs fd fz d L hR O W k.val acc
      ⊢ wp frame (wpE (defs₀ (F := F)) 𝒱₀ (V d (cV L) (jV L)) none) Set.univ
          (k0_t1_body L aS (Memref.isWhole_whole _) aD (Memref.isWhole_whole _) aZ (Memref.isWhole_whole _) aC (Memref.isWhole_whole _)
            b6 (Memref.isWhole_whole _) b7 (Memref.isWhole_whole _) b8 (Memref.isWhole_whole _) cc0_scoped0 cc0_scoped1 cc0_scoped2 cc0_scoped3 v1 k acc)
          (invV fs fd fz d L hR O W (k.val + 1)) := by
  unfold invV
  iintro ⟨#Hmw, HS, HD, ⟨%f6, H6⟩, ⟨%f7, H7⟩, H8, Hs1, Hs2, %W', %hW', HO⟩
  sl_exec
  have hb : ∀ j, ((View.write (Elt F) (b7 : Memref sig .scVector .vmem S1024 .i32).view f7 (chunkD fd d L k) Finset.univ) j).toNat < 10000 :=
    chunk_lt (F := F) fd d L hR k f7
  store_stepV 0 1
  store_stepV 1 2
  store_stepV 2 3
  store_stepV 3 4
  store_stepV 4 5
  store_stepV 5 6
  store_stepV 6 7
  store_stepV 7 8
  store_stepV 8 9
  store_stepV 9 10
  store_stepV 10 11
  store_stepV 11 12
  store_stepV 12 13
  store_stepV 13 14
  store_stepV 14 15
  store_stepV 15 16
  store_stepV 16 17
  store_stepV 17 18
  store_stepV 18 19
  store_stepV 19 20
  store_stepV 20 21
  store_stepV 21 22
  store_stepV 22 23
  store_stepV 23 24
  store_stepV 24 25
  store_stepV 25 26
  store_stepV 26 27
  store_stepV 27 28
  store_stepV 28 29
  store_stepV 29 30
  store_stepV 30 31
  store_stepV 31 32
  store_stepV 32 33
  store_stepV 33 34
  store_stepV 34 35
  store_stepV 35 36
  store_stepV 36 37
  store_stepV 37 38
  store_stepV 38 39
  store_stepV 39 40
  store_stepV 40 41
  store_stepV 41 42
  store_stepV 42 43
  store_stepV 43 44
  store_stepV 44 45
  store_stepV 45 46
  store_stepV 46 47
  store_stepV 47 48
  store_stepV 48 49
  store_stepV 49 50
  store_stepV 50 51
  store_stepV 51 52
  store_stepV 52 53
  store_stepV 53 54
  store_stepV 54 55
  store_stepV 55 56
  store_stepV 56 57
  store_stepV 57 58
  store_stepV 58 59
  store_stepV 59 60
  store_stepV 60 61
  store_stepV 61 62
  store_stepV 62 63
  store_stepV 63 64
  sl_exec
  sl_step
  isplitr; · iexact Hmw
  isplitl [HS]; · iexact HS
  isplitl [HD]; · iexact HD
  isplitl [H6]; · iexists _; iexact H6
  isplitl [H7]; · iexists _; iexact H7
  isplitl [H8]
  · rw [degAcc_succ (F := F) fs fd fz d L hR k f6 f7 hb]; iexact H8
  isplitl [Hs1]; · iexact Hs1
  isplitl [Hs2]; · iexact Hs2
  iexists _; isplitr
  swap
  · iexact HO
  · ipureintro; intro p hp
    rcases Finset.mem_insert.mp hp with rfl | hp
    · exact .inr rfl
    rcases Finset.mem_insert.mp hp with rfl | hp
    · exact .inr rfl
    · exact hW' p hp

end Deg

end VT0

end Cert.KernelIdeal.Run
-- ==== Proof.VTile0.lean ====
/-
  The first call's task with its value: the accumulator is zeroed, the loop runs at the invariant that holds it at the
  rounds so far, its final value is copied to the worker's row of the count array, and the row is handed back at the count
  array. The count array is then given outright, row p being worker p's accumulator after its ten trips.
-/
import proofs.«207969_g80633716015134_cont_9to1_m_1245_11_alg».proof.Proof.VTile0Trip
import proofs.«207969_g80633716015134_cont_9to1_m_1245_11_alg».proof.Proof.KTile0
import Idealize.ShloMosaic.Lib.ValueIdx

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 2) (Elt F) ℕ UU ℕ

open Idealize.ShloMosaic.ValueIdx

namespace VT0

open Tile0

section BodyV

variable [FloatOps F]
variable (fs : (d : Dev nD) → Buf (Elt F) (srcLoc d)) (fd : (d : Dev nD) → Buf (Elt F) (dstLoc d)) (fz : (d : Dev nD) → Buf (Elt F) (zeroLoc d))
  (cntA : (d : Dev nD) → Buf (Elt F) (cntLoc d)) (htA : (d : Dev nD) → Buf (Elt F) (htLoc d)) (aggA : (d : Dev nD) → Buf (Elt F) (aggLoc d))
variable (d : Dev nD) (L : grid0.Coords)

/-- A vector written over the whole accumulator scratch is what it then holds. -/
theorem write8_univ (f8 : Buf (Elt F) ((b8 : Memref sig .scVector .vmem S10256 .f32).view.loc (V d (cV L) (jV L)))) (w : S10256.Idx → Elt F .f32) :
    View.write (Elt F) (b8 : Memref sig .scVector .vmem S10256 .f32).view f8 w Finset.univ = w := by
  funext j
  have e := View.write_emb_of_mem (Val := Elt F) (v := (b8 : Memref sig .scVector .vmem S10256 .f32).view) f8 w (M := Finset.univ) (x := j) (Finset.mem_univ _)
  have e' : (b8 : Memref sig .scVector .vmem S10256 .f32).view.emb j = j := rfl
  rw [e'] at e
  exact e

/-- The worker's row of the count array, written whole with a vector, agrees on that row with any count array that holds
    that vector there. -/
theorem row_writes (g : Buf (Elt F) (cntLoc d)) (w : S10256.Idx → Elt F .f32) (hw : ∀ x, w x = cntA d ((cRowK L).view.emb x)) :
    ∀ i ∈ (cRowK L).view.set, ((cRowK L).view.writes (Elt F) g [⟨Rect.whole S10256, w⟩]) i = cntA d i := by
  intro i hi
  obtain ⟨x, -, rfl⟩ := Finset.mem_map.mp hi
  rw [← hw x]
  have h1 := View.write_emb_of_mem (Val := Elt F) (v := (cRowK L).view.slice (Rect.whole S10256)) g w (M := Finset.univ) (x := x) (Finset.mem_univ _)
  have e : ((cRowK L).view.slice (Rect.whole S10256)).emb x = (cRowK L).view.emb x := by
    show (cRowK L).view.emb ((Rect.whole S10256).emb x) = _
    rw [Rect.emb_whole_apply]
  rw [e] at h1
  exact h1

theorem degAcc_zero (hR : ∀ (d : Dev nD) (j : (dstLoc d).ty.Idx), (fd d j).toNat < 10000) : degAcc fs fd fz d L hR 0 = acc0 fz d := rfl

attribute [local irreducible] degAcc

set_option sl_exec.dischHeartbeats 200000 in
/-- The task's body at a symbolic worker, with its value: it runs to its read tokens and its row of the count array at the
    count array, given that the count array holds the worker's accumulator's final value on that row. -/
theorem tile_bodyV (hF : (K (F := F)).Facts) (hR : ∀ (d : Dev nD) (j : (dstLoc d).ty.Idx), (fd d j).toNat < 10000)
    (hcnt : ∀ (d : Dev nD) (L : grid0.Coords) (x : S10256.Idx), cntA d ((cRowK L).view.emb x) = degRow fs fd fz d L hR x)
    (O : CellTallies nD τ sig (HIx 2)) (W : Waits sig (HIx 2)) (hO : ∀ g, O g none = 0) :
    iprop(levAts (K (F := F)).L (K (F := F)).lev ∗ emp ∗ go0v fs fd fz d (cL L) (iL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__deg_sc L aS (Memref.isWhole_whole _) aD (Memref.isWhole_whole _) aZ (Memref.isWhole_whole _) aC (Memref.isWhole_whole _)
            b6 (Memref.isWhole_whole _) b7 (Memref.isWhole_whole _) b8 (Memref.isWhole_whole _) cc0_scoped0 cc0_scoped1 cc0_scoped2 cc0_scoped3)
          fun _ => iprop(td0v fs fd fz cntA d (cL L) (iL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__deg_sc_eq_skeleton]; unfold cc0__deg_sc_skel
  rw [(K (F := F)).scopedBufs_V hF d (cV L) (jV L), SparseCore.Cfg.scopedSems0_V (Val := Elt F) d (cV L) (jV L), ownSems0_V, ownBufs_V]
  unfold go0v td0v reads
  rw [show e32 (cL L, iL L) = wL L from rfl]
  iintro ⟨#Hlv, -, ⟨⟨HS, HD, HZ⟩, %g, HC⟩, ⟨⟨%f6, H6⟩, ⟨%f7, H7⟩, ⟨%f8, H8⟩, Hbufs⟩, ⟨Hs0, Hs1, Hs2, Hs3, Hsems⟩, HO⟩
  ihave Hmw := ((K (F := F)).mayWaits_none (thr := V d (cV L) (jV L)) hO) $$ Hlv
  ihave HS' := (Entails.of_eq (pts_aS (F := F) d L _ _).symm) $$ HS
  ihave HD' := (Entails.of_eq (pts_aD (F := F) d L _ _).symm) $$ HD
  ihave HZ' := (Entails.of_eq (pts_aZ (F := F) d L _ _).symm) $$ HZ
  ihave HC' := (Entails.of_eq (pts_cRowK (F := F) d L _).symm) $$ HC
  ihave H6' := (Entails.of_eq (pts_b6 (F := F) d L _).symm) $$ H6
  ihave H7' := (Entails.of_eq (pts_b7 (F := F) d L _).symm) $$ H7
  ihave H8' := (Entails.of_eq (pts_b8 (F := F) d L _).symm) $$ H8
  sl_exec
  sl_for (invV fs fd fz d L hR O W) $$ [Hmw HS' HD' H6' H7' H8' Hs1 Hs2 HO]
  case region =>
    intro k acc
    exact tile_tripV fs fd fz d L hR O W _ k acc
  · unfold invV
    isplitr; · iexact Hmw
    isplitl [HS']; · iexact HS'
    isplitl [HD']; · iexact HD'
    isplitl [H6']; · iexists _; iexact H6'
    isplitl [H7']; · iexists _; iexact H7'
    isplitl [H8']
    · rw [degAcc_zero, ← write8_univ (F := F) d L f8 (acc0 fz d)]
      iexact H8'
    isplitl [Hs1]; · iexact Hs1
    isplitl [Hs2]; · iexact Hs2
    iexists _; isplitr
    swap
    · iexact HO
    · ipureintro; intro p hp
      rcases Finset.mem_insert.mp hp with rfl | hp
      · exact .inr rfl
      · exact .inl hp
  iintro %_ HI
  unfold invV
  icases HI with ⟨-, HS, HD, ⟨%f6', H6⟩, ⟨%f7', H7⟩, H8, Hs1, Hs2, %W', %hW', HO⟩
  sl_exec
  sl_step
  have t10 : Scf.trips k0_t1_loop.lb k0_t1_loop.ub k0_t1_loop.st = 10 := trips_eq
  have hw : ∀ x, (tile_bodyV.sl.dma0_1 fs fd fz d L hR) x = cntA d ((cRowK L).view.emb x) := by
    intro x
    rw [hcnt d L x]
    show degAcc fs fd fz d L hR (Scf.trips k0_t1_loop.lb k0_t1_loop.ub k0_t1_loop.st) x = degAcc fs fd fz d L hR 10 x
    rw [t10]
  ihave HC'' := (Entails.of_eq (pointsTo_congr (ℓ := (cRowK L).view.loc (V d (cV L) (jV L))) (q := fullShare)
    (row_writes cntA d L g _ hw))) $$ HC'
  isplitl [HS HD HZ' HC'']
  · isplitl [HS HD HZ']
    · isplitl [HS]; · iexact HS
      isplitl [HD]; · iexact HD
      iexact HZ'
    · iapply (Entails.of_eq (pts_cRowK (F := F) d L _)); iexact HC''
  isplitl [H6 H7 H8 Hbufs]
  · isplitl [H6]; · iexists _; iexact H6
    isplitl [H7]; · iexists _; iexact H7
    isplitl [H8]; · iexists _; iexact H8
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  swap
  · iexact HO
  · ipureintro; intro p hp
    rcases Finset.mem_insert.mp hp with rfl | hp
    · exact .inr rfl
    · exact hW' p hp

end BodyV

section OblV

variable [FloatOps F]
variable (fs : (d : Dev nD) → Buf (Elt F) (srcLoc d)) (fd : (d : Dev nD) → Buf (Elt F) (dstLoc d)) (fz : (d : Dev nD) → Buf (Elt F) (zeroLoc d))
  (cntA : (d : Dev nD) → Buf (Elt F) (cntLoc d)) (htA : (d : Dev nD) → Buf (Elt F) (htLoc d)) (aggA : (d : Dev nD) → Buf (Elt F) (aggLoc d))

omit [FloatOps F] in
theorem obl_postV {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The first call's task obligation with its value, for any count array that holds each worker's accumulator's final
    value on the worker's row. -/
theorem tileObl0v_of (hR : ∀ (d : Dev nD) (j : (dstLoc d).ty.Idx), (fd d j).toNat < 10000)
    (hcnt : ∀ (d : Dev nD) (L : grid0.Coords) (x : S10256.Idx), cntA d ((cRowK L).view.emb x) = degRow fs fd fz d L hR x) :
    (K (F := F)).TileObl (D (F := F)) 𝒱 (PV fs fd fz cntA htA aggA) v₀ 0 := by
  intro d c i O W hO _ _
  simp only [show (PV fs fd fz cntA htA aggA).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_bodyV fs fd fz cntA d (coordsV ⟨_, hc.1⟩ ⟨_, hc.2⟩) facts hR hcnt O W hO).trans (wp_mono frame _ _ fun _ => obl_postV)

end OblV

section Cnt

variable [FloatOps F]
variable (fs : (d : Dev nD) → Buf (Elt F) (srcLoc d)) (fd : (d : Dev nD) → Buf (Elt F) (dstLoc d)) (fz : (d : Dev nD) → Buf (Elt F) (zeroLoc d))
  (htA : (d : Dev nD) → Buf (Elt F) (htLoc d)) (aggA : (d : Dev nD) → Buf (Elt F) (aggLoc d))

/-- The grid point of worker p: core p mod 2, subcore p div 2. -/
def Lof (p : Fin 32) : grid0.Coords :=
  coordsV ⟨p.val % 2, Nat.mod_lt _ (by decide)⟩ ⟨p.val / 2, by have := p.isLt; show p.val / 2 < 16; omega⟩

theorem Lof_wL (L : grid0.Coords) : Lof (wL L) = L := by
  funext a
  have h0 : (L 0).val < 2 := (L 0).isLt
  have h1 : (L 1).val < 16 := (L 1).isLt
  match a with
  | 0 => apply Fin.ext; show (wid (L 0).val (L 1).val) % 2 = (L 0).val; unfold wid; omega
  | 1 => apply Fin.ext; show (wid (L 0).val (L 1).val) / 2 = (L 1).val; unfold wid; omega

/-- The count array after the first call: row p is worker p's accumulator after its ten trips. -/
def cntAof (hR : ∀ (d : Dev nD) (j : (dstLoc d).ty.Idx), (fd d j).toNat < 10000) (d : Dev nD) : Buf (Elt F) (cntLoc d) :=
  fun j => degRow fs fd fz d (Lof (j 0)) hR (ix1 (j 1))

theorem cntAof_row (hR : ∀ (d : Dev nD) (j : (dstLoc d).ty.Idx), (fd d j).toNat < 10000) (d : Dev nD) (L : grid0.Coords) (x : S10256.Idx) :
    cntAof fs fd fz hR d ((cRowK L).view.emb x) = degRow fs fd fz d L hR x := by
  have e0 : ((cRowK L).view.emb x) 0 = wL L := by
    apply Fin.ext
    show (k0_off2 L) 0 + 1 * ((Shape.reshapeEquiv squeezes_S1x10256_S10256.numel_eq x) 0).val = wid (L 0).val (L 1).val
    have hz : ((Shape.reshapeEquiv squeezes_S1x10256_S10256.numel_eq x) 0).val = 0 :=
      Nat.lt_one_iff.mp (show ((Shape.reshapeEquiv squeezes_S1x10256_S10256.numel_eq x) 0).val < 1 from ((Shape.reshapeEquiv squeezes_S1x10256_S10256.numel_eq x) 0).isLt)
    rw [hz, k0_off2_eq]
    show 2 * (L 1).val + (L 0).val + 1 * 0 = wid (L 0).val (L 1).val
    unfold wid; omega
  have e1 : ((cRowK L).view.emb x) 1 = x 0 := by
    apply Fin.ext
    show (k0_off2 L) 1 + 1 * ((Shape.reshapeEquiv squeezes_S1x10256_S10256.numel_eq x) 1).val = (x 0).val
    rw [Shape.reshapeEquiv_cons_one, k0_off2_eq]
    show 0 + 1 * (x 0).val = (x 0).val
    omega
  unfold cntAof
  rw [e0, e1, Lof_wL]
  exact congrArg _ (eq_ix1 x).symm

/-- The first call's task obligation with its value: worker p's row of the count array ends at its accumulator after the
    ten trips. -/
theorem tileObl0v (hR : ∀ (d : Dev nD) (j : (dstLoc d).ty.Idx), (fd d j).toNat < 10000) :
    (K (F := F)).TileObl (D (F := F)) 𝒱 (PV fs fd fz (cntAof fs fd fz hR) htA aggA) v₀ 0 :=
  tileObl0v_of fs fd fz (cntAof fs fd fz hR) htA aggA hR (cntAof_row fs fd fz hR)

end Cnt

end VT0

end Cert.KernelIdeal.Run
-- ==== Proof.VClosed0.lean ====
/-
  The first task's accumulator in closed form, on the extended reals. One round adds one onto the accumulator's entry at
  each of sixteen edges' targets — an edge's destination, or 10240 when its source and destination agree. After R rounds
  over a chunk of 1024 edges, entry n holds what it held plus the number of the chunk's first 16 R edges whose target is n.
-/
import proofs.«207969_g80633716015134_cont_9to1_m_1245_11_alg».proof.Proof.VTile0Trip
import proofs.«207969_g80633716015134_cont_9to1_m_1245_11_alg».proof.Proof.LibScatterSum
import Idealize.ShloMosaic.Lib.ValueIdx
import Idealize.ShloMosaic.Lib.IdealHost
import Idealize.ShloMosaic.Lib.Affine

noncomputable section

namespace Cert.KernelIdeal.Run

open Cert.KernelIdeal Cert.KernelIdeal.Gen Idealize.ShloMosaic Idealize.ShloMosaic.ValueIdx
open scoped BigOperators

namespace VT0

/-- An edge's target from its two words: the destination, or 10240 when source and destination agree. -/
def tgtW (s v : BitVec 32) : ℕ := if s = v then 10240 else v.toNat

/-- The target vector of a round at lane x. -/
theorem tgt_lane (s dd : IVec S16 32) (x : S16.Idx) :
    (select (cmpi .eq s dd) (broadcast S16 10240#32) dd x).toNat = tgtW (s x) (dd x) := by
  have hx : select (cmpi .eq s dd) (broadcast S16 10240#32) dd x = Scalar.select (IntOp.cmpi .eq (s x) (dd x)) 10240#32 (dd x) := rfl
  rw [hx]
  unfold tgtW
  by_cases h : s x = dd x
  · rw [IntOp.cmpi_eq.mpr h, select_one, if_pos h]; rfl
  · rw [eq_zero_of_ne_one fun h1 => h (IntOp.cmpi_eq.mp h1), select_zero, if_neg h]

/-- The stored vector is one at every lane. -/
theorem pay1_lane (x : S16.Idx) : k0_pay1 (F := Ideal) x = 1 := by
  show Ideal.ofBits .f32 0x3F800000#32 = 1
  exact Ideal.ofBits_one_f32

/-- One round at entry n: what it held plus the number of the round's lanes whose target is n. -/
theorem stepAcc_apply (acc : Vec Ideal S10256 .f32) (s dd : IVec S16 32) (hd : ∀ x, (dd x).toNat < 10000) (n : Fin 10256) :
    stepAcc (F := Ideal) acc s dd hd (ix1 n)
      = acc (ix1 n) + ∑ k : Fin 16, if tgtW (s (Shape.ofLane (d := ![16]) k)) (dd (Shape.ofLane (d := ![16]) k)) = n.val then (1 : EReal) else 0 := by
  unfold stepAcc
  refine (Cert.Lib.ScatterSum.storeIdx_add_apply_one _ _ _ _ (ix1 n)).trans ?_
  refine congrArg (acc (ix1 n) + ·) (Finset.sum_congr rfl fun (k : Fin 16) _ => ?_)
  exact if_congr (Iff.of_eq (congrArg (· = n.val) (tgt_lane s dd (Shape.ofLane (d := ![16]) k)))) (pay1_lane _) rfl

/-- Word y of a chunk (y taken below 1024). -/
def cIx (y : ℕ) : S1024.Idx := ix1 ⟨y % 1024, Nat.mod_lt _ (by decide)⟩

/-- Lane k of round r of a chunk is its word 16 r + k, for r below 64. -/
theorem grpP_lane (w : S1024.Idx → BitVec 32) (r : ℕ) (hr : r < 64) (k : Fin 16) :
    grpP w r (Shape.ofLane (d := ![16]) k) = w (cIx (16 * r + k.val)) := by
  unfold grpP cIx
  refine congrArg w (funext fun a => Fin.ext ?_)
  rw [Fin.eq_zero a]
  show 16 * (r % 64) + 1 * k.val = (16 * r + k.val) % 1024
  have := k.isLt
  rw [Nat.mod_eq_of_lt hr, Nat.mod_eq_of_lt (by omega)]; omega

/-- After R rounds (R at most 64) over a chunk: entry n holds what it held plus the number of the chunk's first 16 R edges
    whose target is n. -/
theorem roundsP_closed (ws wd : S1024.Idx → BitVec 32) (hw : ∀ y, (wd y).toNat < 10000) (acc0 : Vec Ideal S10256 .f32) (n : Fin 10256) :
    ∀ R : ℕ, R ≤ 64 → roundsP (F := Ideal) ws wd hw acc0 R (ix1 n)
      = acc0 (ix1 n) + ∑ y ∈ Finset.range (16 * R), if tgtW (ws (cIx y)) (wd (cIx y)) = n.val then (1 : EReal) else 0
  | 0, _ => by rw [Nat.mul_zero, Finset.range_zero, Finset.sum_empty, add_zero]; rfl
  | R + 1, hR => by
    refine (stepAcc_apply (roundsP ws wd hw acc0 R) (grpP ws R) (grpP wd R) (fun x => hw _) n).trans ?_
    rw [roundsP_closed ws wd hw acc0 n R (by omega), add_assoc, show 16 * (R + 1) = 16 * R + 16 by ring,
      Finset.sum_range_add]
    refine congrArg (acc0 (ix1 n) + ·) (congrArg₂ (· + ·) rfl ?_)
    rw [Finset.sum_range]
    refine Finset.sum_congr rfl fun (k : Fin 16) _ => ?_
    rw [grpP_lane ws R (by omega) k, grpP_lane wd R (by omega) k]

/-! ## The ten trips of a worker -/

/-- Position m of the two edge arrays (m taken below their length). -/
def pIx (m : ℕ) : S327680.Idx := ix1 ⟨m % 327680, Nat.mod_lt _ (by decide)⟩

section Deg

variable (fs : (d : Dev nD) → Buf (Elt Ideal) (srcLoc d)) (fd : (d : Dev nD) → Buf (Elt Ideal) (dstLoc d)) (fz : (d : Dev nD) → Buf (Elt Ideal) (zeroLoc d))
variable (d : Dev nD) (L : grid0.Coords)

/-- The worker's number: twice its subcore plus its core. -/
def widL (L : grid0.Coords) : ℕ := 2 * (L 1).val + (L 0).val

theorem widL_lt (L : grid0.Coords) : widL L < 32 := by
  unfold widL
  have h0 : (L 0).val < 2 := (L 0).isLt
  have h1 : (L 1).val < 16 := (L 1).isLt
  omega

/-- Word y of the worker's chunk k is position 10240 w + 1024 k + y of the array, for y below 1024. -/
theorem chunkS_apply (k : Fin k0_t1_loop.trips) (y : ℕ) (hy : y < 1024) :
    chunkS fs d L k (cIx y) = fs d (pIx (10240 * widL L + 1024 * k.val + y)) := by
  have hk : k.val < 10 := by have h := trips_eq; have := k.isLt; omega
  have hw := widL_lt L
  unfold chunkS cIx pIx
  show fs d _ = fs d _
  refine congrArg (fs d) (funext fun a => Fin.ext ?_)
  rw [Fin.eq_zero a]
  show k0_off1 L k 0 + 1 * (y % 1024) = (10240 * widL L + 1024 * k.val + y) % 327680
  rw [Gen.k0_off1_eq L k, Nat.mod_eq_of_lt hy, Nat.mod_eq_of_lt (by omega)]
  show 20480 * (L 1).val + 10240 * (L 0).val + 1024 * k.val + 1 * y = 10240 * widL L + 1024 * k.val + y
  unfold widL; omega

theorem chunkD_apply (k : Fin k0_t1_loop.trips) (y : ℕ) (hy : y < 1024) :
    chunkD fd d L k (cIx y) = fd d (pIx (10240 * widL L + 1024 * k.val + y)) := by
  have hk : k.val < 10 := by have h := trips_eq; have := k.isLt; omega
  have hw := widL_lt L
  unfold chunkD cIx pIx
  show fd d _ = fd d _
  refine congrArg (fd d) (funext fun a => Fin.ext ?_)
  rw [Fin.eq_zero a]
  show k0_off1 L k 0 + 1 * (y % 1024) = (10240 * widL L + 1024 * k.val + y) % 327680
  rw [Gen.k0_off1_eq L k, Nat.mod_eq_of_lt hy, Nat.mod_eq_of_lt (by omega)]
  show 20480 * (L 1).val + 10240 * (L 0).val + 1024 * k.val + 1 * y = 10240 * widL L + 1024 * k.val + y
  unfold widL; omega

variable (hR : ∀ (d : Dev nD) (j : (dstLoc d).ty.Idx), (fd d j).toNat < 10000)

/-- Before trip n (n at most 10): entry m holds the zero vector's entry plus the number of the first 1024 n edges of the
    worker's slice whose target is m. -/
theorem degAcc_closed (m : Fin 10256) : ∀ n : ℕ, n ≤ 10 →
    degAcc (F := Ideal) fs fd fz d L hR n (ix1 m)
      = acc0 fz d (ix1 m) + ∑ y ∈ Finset.range (1024 * n),
          if tgtW (fs d (pIx (10240 * widL L + y))) (fd d (pIx (10240 * widL L + y))) = m.val then (1 : EReal) else 0
  | 0, _ => by rw [Nat.mul_zero, Finset.range_zero, Finset.sum_empty, add_zero]; rfl
  | n + 1, hn => by
    have hk : (kOf n).val = n := Nat.mod_eq_of_lt (by omega)
    refine (roundsP_closed (chunkS fs d L (kOf n)) (chunkD fd d L (kOf n)) (chunkD_lt fd d L hR (kOf n)) (degAcc fs fd fz d L hR n) m 64 le_rfl).trans ?_
    rw [degAcc_closed m n (by omega), add_assoc, show 1024 * (n + 1) = 1024 * n + 1024 by ring, Finset.sum_range_add,
      show 16 * 64 = 1024 from rfl]
    refine congrArg (acc0 fz d (ix1 m) + ·) (congrArg₂ (· + ·) rfl (Finset.sum_congr rfl fun y hy => ?_))
    have hy' : y < 1024 := Finset.mem_range.mp hy
    rw [chunkS_apply fs d L (kOf n) y hy', chunkD_apply fd d L (kOf n) y hy', hk, Nat.add_assoc]

/-- The zero vector as the first copy delivers it is the zero vector's array. -/
theorem acc0_apply (x : S10256.Idx) : acc0 (F := Ideal) fz d x = (show Vec Ideal S10256 .f32 from fz d) x := rfl

/-- The worker's row of the count array at entry m: the zero vector's entry plus the number of the 10240 edges of the
    worker's slice whose target is m. -/
theorem degRow_closed (m : Fin 10256) :
    degRow (F := Ideal) fs fd fz d L hR (ix1 m)
      = acc0 (F := Ideal) fz d (ix1 m) + ∑ y : Fin 10240,
          if tgtW (fs d (ix1 ⟨10240 * widL L + y.val, by have := widL_lt L; have := y.isLt; omega⟩))
              (fd d (ix1 ⟨10240 * widL L + y.val, by have := widL_lt L; have := y.isLt; omega⟩)) = m.val then (1 : EReal) else 0 := by
  unfold degRow
  rw [degAcc_closed fs fd fz d L hR m 10 le_rfl, show 1024 * 10 = 10240 from rfl, Finset.sum_range]
  refine congrArg₂ (· + ·) rfl (Finset.sum_congr rfl fun y _ => ?_)
  have hp : pIx (10240 * widL L + y.val) = ix1 ⟨10240 * widL L + y.val, by have := widL_lt L; have := y.isLt; omega⟩ := by
    unfold pIx
    refine congrArg ix1 (Fin.ext ?_)
    exact Nat.mod_eq_of_lt (by have := widL_lt L; have := y.isLt; omega)
  rw [hp]

end Deg

end VT0

end Cert.KernelIdeal.Run

end
-- ==== Proof.VGlue2.lean ====
/-
  A sum over 327680 positions taken worker by worker: 32 workers, each with 10240 consecutive positions.
-/
import Mathlib.Algebra.BigOperators.Fin
import Mathlib.Data.Fintype.BigOperators
import Mathlib.Logic.Equiv.Fin.Basic

namespace Cert.Lib.SumWorkers

open scoped BigOperators

/-- The sum over all positions is the sum, over the workers p, of the sums over p's positions 10240 p + y. -/
theorem sum_workers {M : Type*} [AddCommMonoid M] (f : Fin 327680 → M) :
    ∑ p : Fin 32, ∑ y : Fin 10240, f ⟨10240 * p.val + y.val, by have := p.isLt; have := y.isLt; omega⟩ = ∑ e : Fin 327680, f e := by
  rw [← Fintype.sum_prod_type']
  refine Fintype.sum_equiv ((finProdFinEquiv (m := 32) (n := 10240)).trans (finCongr (show 32 * 10240 = 327680 from rfl))) _ _ fun x => ?_
  refine congrArg f (Fin.ext ?_)
  simp [finProdFinEquiv]
  omega

end Cert.Lib.SumWorkers
-- ==== Proof.VCF0.lean ====
/-
  The first call's counts summed over the 32 workers, in the form the final equation takes: each worker's row is the
  recursion's closed form over its 10240 positions from the zero vector, the workers' slices tile the 327680 positions, and a
  position's target is its padded destination word — or 10240 when its padded source and destination words agree.
-/
import proofs.«207969_g80633716015134_cont_9to1_m_1245_11_alg».proof.Proof.VCF
import proofs.«207969_g80633716015134_cont_9to1_m_1245_11_alg».proof.Proof.VClosed0
import proofs.«207969_g80633716015134_cont_9to1_m_1245_11_alg».proof.Proof.VGlue2
import proofs.«207969_g80633716015134_cont_9to1_m_1245_11_alg».proof.Proof.KTile0

noncomputable section

namespace Cert.KernelIdeal.Run

open Cert.KernelIdeal Cert.KernelIdeal.Gen
open Idealize.ShloMosaic Idealize.ShloMosaic.ValueIdx Idealize.SL.Sem
open scoped BigOperators

variable (m : (ℓ : Loc nD τ sig) → Buf (Elt Ideal) ℓ)
  (cntA : (d : Dev nD) → Buf (Elt Ideal) (cntLoc d)) (d : Dev nD)

/-- Worker p's grid point: core p mod 2, subcore p div 2. -/
def Lof (p : Fin 32) : grid0.Coords :=
  Tile0.coordsV ⟨p.val % 2, by show p.val % 2 < 2; omega⟩ ⟨p.val / 2, by show p.val / 2 < 16; have := p.isLt; omega⟩

theorem widL_Lof (p : Fin 32) : VT0.widL (Lof p) = p.val := by
  show 2 * (p.val / 2) + p.val % 2 = p.val
  omega

/-- A position's target from the arrays the calls read is its target from the edge list. -/
theorem tgtW_dmP (e' e : Fin 327680) (he : e' = e) :
    VT0.tgtW ((fs m d : S327680.Idx → BitVec 32) (ix1 e')) ((fd m d : S327680.Idx → BitVec 32) (ix1 e')) = dmP (eiOf m d) e := by
  subst he
  rw [fs_sP m d e', fd_dP m d e']
  rfl

/-- From the workers' rows as the recursion's value after the ten trips, the form the final equation takes. -/
theorem CF0_of (hR : ∀ (d : Dev nD) (j : (dstLoc d).ty.Idx), (fd m d j).toNat < 10000)
    (L32 : Fin 32 → grid0.Coords) (hL32 : ∀ p, VT0.widL (L32 p) = p.val)
    (hcnt : ∀ (p : Fin 32) (n : Fin 10256), asCnt d (cntA d) (ix2 p n)
      = VT0.degRow (F := Ideal) (fs m) (fd m) (fz m) d (L32 p) hR (ix1 n))
    (n : Fin 10240) :
    (∑ p : Fin 32, asCnt d (cntA d) (ix2 p (n56 n))) = ∑ e : Fin 327680, if dmP (eiOf m d) e = n.val then (1 : EReal) else 0 := by
  rw [← Cert.Lib.SumWorkers.sum_workers (fun e => if dmP (eiOf m d) e = n.val then (1 : EReal) else 0)]
  refine Finset.sum_congr rfl fun p _ => ?_
  rw [hcnt p (n56 n), VT0.degRow_closed (fs m) (fd m) (fz m) d (L32 p) hR (n56 n)]
  refine (congrArg₂ (fun a b : EReal => a + b) (fz_zero m d _) (Finset.sum_congr rfl fun y _ => ?_)).trans (zero_add _)
  exact if_congr (Iff.of_eq (congrArg (· = n.val) (tgtW_dmP m d _ _
    (Fin.ext (by show 10240 * VT0.widL (L32 p) + y.val = 10240 * p.val + y.val; rw [hL32 p]))))) rfl rfl

/-- The same at the concrete grid points. -/
theorem CF0_of_Lof (hR : ∀ (d : Dev nD) (j : (dstLoc d).ty.Idx), (fd m d j).toNat < 10000)
    (hcnt : ∀ (p : Fin 32) (n : Fin 10256), asCnt d (cntA d) (ix2 p n)
      = VT0.degRow (F := Ideal) (fs m) (fd m) (fz m) d (Lof p) hR (ix1 n))
    (n : Fin 10240) :
    (∑ p : Fin 32, asCnt d (cntA d) (ix2 p (n56 n))) = ∑ e : Fin 327680, if dmP (eiOf m d) e = n.val then (1 : EReal) else 0 :=
  CF0_of m cntA d hR Lof widL_Lof hcnt n

end Cert.KernelIdeal.Run

end
-- ==== Proof.VCF0b.lean ====
/-
  The first call's counts summed over the workers, at the count array the first call's tasks leave: row p is worker p's
  accumulator, worker p's grid point has worker number p.
-/
import proofs.«207969_g80633716015134_cont_9to1_m_1245_11_alg».proof.Proof.VTile0
import proofs.«207969_g80633716015134_cont_9to1_m_1245_11_alg».proof.Proof.VCF0

noncomputable section

namespace Cert.KernelIdeal.Run

open Cert.KernelIdeal Cert.KernelIdeal.Gen
open Idealize.ShloMosaic Idealize.ShloMosaic.ValueIdx Idealize.SL.Sem
open scoped BigOperators

variable (m : (ℓ : Loc nD τ sig) → Buf (Elt Ideal) ℓ) (d : Dev nD)

/-- Worker p's grid point has worker number p. -/
theorem widL_LofT0 (p : Fin 32) : VT0.widL (VT0.Lof p) = p.val := by
  show 2 * (p.val / 2) + p.val % 2 = p.val
  omega

/-- Entry (p, n) of the count array the tasks leave is worker p's accumulator's entry n. -/
theorem cntAofT0_apply (hR : ∀ (d : Dev nD) (j : (dstLoc d).ty.Idx), (fd m d j).toNat < 10000) (p : Fin 32) (n : Fin 10256) :
    asCnt d (VT0.cntAof (F := Ideal) (fs m) (fd m) (fz m) hR d) (ix2 p n)
      = VT0.degRow (F := Ideal) (fs m) (fd m) (fz m) d (VT0.Lof p) hR (ix1 n) := rfl

/-- The counts summed over the workers: the positions landing on the slot. -/
theorem CF0_T0 (hR : ∀ (d : Dev nD) (j : (dstLoc d).ty.Idx), (fd m d j).toNat < 10000) (n : Fin 10240) :
    (∑ p : Fin 32, asCnt d (VT0.cntAof (F := Ideal) (fs m) (fd m) (fz m) hR d) (ix2 p (n56 n)))
      = ∑ e : Fin 327680, if dmP (eiOf m d) e = n.val then (1 : EReal) else 0 :=
  CF0_of m (VT0.cntAof (F := Ideal) (fs m) (fd m) (fz m) hR) d hR VT0.Lof widL_LofT0 (cntAofT0_apply m d hR) n

end Cert.KernelIdeal.Run

end
-- ==== Proof.VTile1Proc.lean ====
import proofs.«207969_g80633716015134_cont_9to1_m_1245_11_alg».proof.Proof.VTile1Def

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx
open T1

variable {F : FTy → Type}

local notation "𝕄" => MT nD τ sig (HIx 2) (Elt F) ℕ UU ℕ

namespace VT1

section ProcV

variable [FloatOps F]
variable (fs : (d : Dev nD) → Buf (Elt F) (srcLoc d)) (fd : (d : Dev nD) → Buf (Elt F) (dstLoc d))
variable (d : Dev nD) (L : grid2.Coords)

omit [FloatOps F] in
/-- A buffer held at a value is held at any equal one. -/
theorem pt_cast {ℓ : Loc nD τ sig} {q : PosShare TreeShare} {x y : Buf (Elt F) ℓ} (e : x = y) : (ℓ ↦{q} x : sProp 𝕄) ⊢ ℓ ↦{q} y := by
  subst e; iintro H; iexact H

/-- A round of the program on group n is the recursion's step, the next count spelt as wanted. -/
theorem acc_step' (S D : Nat → IVec S16 32) (hcol : Vec F S10240 .f32) (z : Vec F S10256 .f32) (n m : Nat) (hm : m = n + 1) (s v : IVec S16 32)
    (hs : s = S n) (hv : v = D n)
    (h1 : ∀ (a : Fin 1) (x : S16.Idx), ((![s] : Fin 1 → IVec S16 32) a x).toNat < S10240.size a)
    (h2 : ∀ (a : Fin 1) (x : S16.Idx), ((![dmOf s v] : Fin 1 → IVec S16 32) a x).toNat < S10256.size a) :
    storeIdx (accAfter S D hcol z n) ![dmOf s v] (loadIdx hcol ![s] h1) (fun _ => 1#1) true h2 = accAfter S D hcol z m := by
  subst hm; exact acc_step S D hcol z n s v hs hv h1 h2

theorem wp_ldv_b4 {α : Type} {Q : α → sProp 𝕄} (idxs : Fin S10240.rank → IVec S16 32)
    (h : ∀ a x, (idxs a x).toNat < S10240.size a) (hl : (b4 : Memref sig .scVector .vmem S10240 .f32).view.Loads)
    (k : Vec F S16 .f32 → Prog (TpuEff nD τ sig (Elt F) Λ₀ (.scVector (cV L) (jV L))) α) (f : Vec F S10240 .f32) :
    ((b4 : Memref sig .scVector .vmem S10240 .f32).view.loc (V d (cV L) (jV L)) ↦{fullShare} f)
      ⊢ iprop((((b4 : Memref sig .scVector .vmem S10240 .f32).view.loc (V d (cV L) (jV L)) ↦{fullShare} f)
          -∗ wp frame (wpE (defs₀ (F := F)) 𝒱₀ (V d (cV L) (jV L)) none) Set.univ (k (loadIdx f idxs h)) Q)
        -∗ wp frame (wpE (defs₀ (F := F)) 𝒱₀ (V d (cV L) (jV L)) none) Set.univ (SparseCore.vectorLoadIdx (b4 : Memref sig .scVector .vmem S10240 .f32) idxs h hl >>= k) Q) := by
  have eR : (((b4 : Memref sig .scVector .vmem S10240 .f32).access (.whole S10240)).read (Elt F) f) = f := Memref.read_access_whole (Elt F) cc2_scratch4 f
  have h0 := wp_ld_b4 (F := F) d L (Q := Q) idxs h hl k f
  rw [eR] at h0
  exact h0

theorem wp_ldv_b5 {α : Type} {Q : α → sProp 𝕄} (idxs : Fin S10240.rank → IVec S16 32)
    (h : ∀ a x, (idxs a x).toNat < S10240.size a) (hl : (b5 : Memref sig .scVector .vmem S10240 .f32).view.Loads)
    (k : Vec F S16 .f32 → Prog (TpuEff nD τ sig (Elt F) Λ₀ (.scVector (cV L) (jV L))) α) (f : Vec F S10240 .f32) :
    ((b5 : Memref sig .scVector .vmem S10240 .f32).view.loc (V d (cV L) (jV L)) ↦{fullShare} f)
      ⊢ iprop((((b5 : Memref sig .scVector .vmem S10240 .f32).view.loc (V d (cV L) (jV L)) ↦{fullShare} f)
          -∗ wp frame (wpE (defs₀ (F := F)) 𝒱₀ (V d (cV L) (jV L)) none) Set.univ (k (loadIdx f idxs h)) Q)
        -∗ wp frame (wpE (defs₀ (F := F)) 𝒱₀ (V d (cV L) (jV L)) none) Set.univ (SparseCore.vectorLoadIdx (b5 : Memref sig .scVector .vmem S10240 .f32) idxs h hl >>= k) Q) := by
  have eR : (((b5 : Memref sig .scVector .vmem S10240 .f32).access (.whole S10240)).read (Elt F) f) = f := Memref.read_access_whole (Elt F) cc2_scratch5 f
  have h0 := wp_ld_b5 (F := F) d L (Q := Q) idxs h hl k f
  rw [eR] at h0
  exact h0

theorem wp_ldv_b6 {α : Type} {Q : α → sProp 𝕄} (idxs : Fin S10240.rank → IVec S16 32)
    (h : ∀ a x, (idxs a x).toNat < S10240.size a) (hl : (b6 : Memref sig .scVector .vmem S10240 .f32).view.Loads)
    (k : Vec F S16 .f32 → Prog (TpuEff nD τ sig (Elt F) Λ₀ (.scVector (cV L) (jV L))) α) (f : Vec F S10240 .f32) :
    ((b6 : Memref sig .scVector .vmem S10240 .f32).view.loc (V d (cV L) (jV L)) ↦{fullShare} f)
      ⊢ iprop((((b6 : Memref sig .scVector .vmem S10240 .f32).view.loc (V d (cV L) (jV L)) ↦{fullShare} f)
          -∗ wp frame (wpE (defs₀ (F := F)) 𝒱₀ (V d (cV L) (jV L)) none) Set.univ (k (loadIdx f idxs h)) Q)
        -∗ wp frame (wpE (defs₀ (F := F)) 𝒱₀ (V d (cV L) (jV L)) none) Set.univ (SparseCore.vectorLoadIdx (b6 : Memref sig .scVector .vmem S10240 .f32) idxs h hl >>= k) Q) := by
  have eR : (((b6 : Memref sig .scVector .vmem S10240 .f32).access (.whole S10240)).read (Elt F) f) = f := Memref.read_access_whole (Elt F) cc2_scratch6 f
  have h0 := wp_ld_b6 (F := F) d L (Q := Q) idxs h hl k f
  rw [eR] at h0
  exact h0

theorem wp_ldv_b7 {α : Type} {Q : α → sProp 𝕄} (idxs : Fin S10240.rank → IVec S16 32)
    (h : ∀ a x, (idxs a x).toNat < S10240.size a) (hl : (b7 : Memref sig .scVector .vmem S10240 .f32).view.Loads)
    (k : Vec F S16 .f32 → Prog (TpuEff nD τ sig (Elt F) Λ₀ (.scVector (cV L) (jV L))) α) (f : Vec F S10240 .f32) :
    ((b7 : Memref sig .scVector .vmem S10240 .f32).view.loc (V d (cV L) (jV L)) ↦{fullShare} f)
      ⊢ iprop((((b7 : Memref sig .scVector .vmem S10240 .f32).view.loc (V d (cV L) (jV L)) ↦{fullShare} f)
          -∗ wp frame (wpE (defs₀ (F := F)) 𝒱₀ (V d (cV L) (jV L)) none) Set.univ (k (loadIdx f idxs h)) Q)
        -∗ wp frame (wpE (defs₀ (F := F)) 𝒱₀ (V d (cV L) (jV L)) none) Set.univ (SparseCore.vectorLoadIdx (b7 : Memref sig .scVector .vmem S10240 .f32) idxs h hl >>= k) Q) := by
  have eR : (((b7 : Memref sig .scVector .vmem S10240 .f32).access (.whole S10240)).read (Elt F) f) = f := Memref.read_access_whole (Elt F) cc2_scratch7 f
  have h0 := wp_ld_b7 (F := F) d L (Q := Q) idxs h hl k f
  rw [eR] at h0
  exact h0

theorem wp_stv_b8 {α : Type} {Q : α → sProp 𝕄} (idxs : Fin S10256.rank → IVec S16 32) (v : Vec F S16 .f32) (mask : IVec S16 1) (add : Bool)
    (h : ∀ a x, (idxs a x).toNat < S10256.size a) (hs : ((b8 : Memref sig .scVector .vmem S10256 .f32).access (.whole S10256)).Stores Finset.univ)
    (k : PUnit → Prog (TpuEff nD τ sig (Elt F) Λ₀ (.scVector (cV L) (jV L))) α) (f : Vec F S10256 .f32) :
    ((b8 : Memref sig .scVector .vmem S10256 .f32).view.loc (V d (cV L) (jV L)) ↦{fullShare} f)
      ⊢ iprop((((b8 : Memref sig .scVector .vmem S10256 .f32).view.loc (V d (cV L) (jV L)) ↦{fullShare} storeIdx f idxs v mask add h)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (b8 : Memref sig .scVector .vmem S10256 .f32) idxs v mask add h hs >>= k) Q) := by
  have eS : (((b8 : Memref sig .scVector .vmem S10256 .f32).access (.whole S10256)).set) = Finset.univ := Memref.set_access_whole _
  have eR : (((b8 : Memref sig .scVector .vmem S10256 .f32).access (.whole S10256)).read (Elt F) f) = f := Memref.read_access_whole (Elt F) cc2_scratch8 f
  have eW : ∀ w, (((b8 : Memref sig .scVector .vmem S10256 .f32).access (.whole S10256)).write (Elt F) f w Finset.univ) = w :=
    fun w => Memref.write_access_whole_univ (Elt F) cc2_scratch8 f w
  have h0 := SparseCore.wp_vectorStoreIdx (defs := defs₀ (F := F)) 𝒱₀ (V d (cV L) (jV L)) none Set.univ (base := (b8 : Memref sig .scVector .vmem S10256 .f32))
    (idxs := idxs) (v := v) (mask := mask) (add := add) (h := h) (hs := hs) (k := k) (f := f) (Q := Q)
  rw [eR, eW, eS] at h0
  exact h0

theorem wp_stv_b9 {α : Type} {Q : α → sProp 𝕄} (idxs : Fin S10256.rank → IVec S16 32) (v : Vec F S16 .f32) (mask : IVec S16 1) (add : Bool)
    (h : ∀ a x, (idxs a x).toNat < S10256.size a) (hs : ((b9 : Memref sig .scVector .vmem S10256 .f32).access (.whole S10256)).Stores Finset.univ)
    (k : PUnit → Prog (TpuEff nD τ sig (Elt F) Λ₀ (.scVector (cV L) (jV L))) α) (f : Vec F S10256 .f32) :
    ((b9 : Memref sig .scVector .vmem S10256 .f32).view.loc (V d (cV L) (jV L)) ↦{fullShare} f)
      ⊢ iprop((((b9 : Memref sig .scVector .vmem S10256 .f32).view.loc (V d (cV L) (jV L)) ↦{fullShare} storeIdx f idxs v mask add h)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (b9 : Memref sig .scVector .vmem S10256 .f32) idxs v mask add h hs >>= k) Q) := by
  have eS : (((b9 : Memref sig .scVector .vmem S10256 .f32).access (.whole S10256)).set) = Finset.univ := Memref.set_access_whole _
  have eR : (((b9 : Memref sig .scVector .vmem S10256 .f32).access (.whole S10256)).read (Elt F) f) = f := Memref.read_access_whole (Elt F) cc2_scratch9 f
  have eW : ∀ w, (((b9 : Memref sig .scVector .vmem S10256 .f32).access (.whole S10256)).write (Elt F) f w Finset.univ) = w :=
    fun w => Memref.write_access_whole_univ (Elt F) cc2_scratch9 f w
  have h0 := SparseCore.wp_vectorStoreIdx (defs := defs₀ (F := F)) 𝒱₀ (V d (cV L) (jV L)) none Set.univ (base := (b9 : Memref sig .scVector .vmem S10256 .f32))
    (idxs := idxs) (v := v) (mask := mask) (add := add) (h := h) (hs := hs) (k := k) (f := f) (Q := Q)
  rw [eR, eW, eS] at h0
  exact h0

theorem wp_stv_b10 {α : Type} {Q : α → sProp 𝕄} (idxs : Fin S10256.rank → IVec S16 32) (v : Vec F S16 .f32) (mask : IVec S16 1) (add : Bool)
    (h : ∀ a x, (idxs a x).toNat < S10256.size a) (hs : ((b10 : Memref sig .scVector .vmem S10256 .f32).access (.whole S10256)).Stores Finset.univ)
    (k : PUnit → Prog (TpuEff nD τ sig (Elt F) Λ₀ (.scVector (cV L) (jV L))) α) (f : Vec F S10256 .f32) :
    ((b10 : Memref sig .scVector .vmem S10256 .f32).view.loc (V d (cV L) (jV L)) ↦{fullShare} f)
      ⊢ iprop((((b10 : Memref sig .scVector .vmem S10256 .f32).view.loc (V d (cV L) (jV L)) ↦{fullShare} storeIdx f idxs v mask add h)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (b10 : Memref sig .scVector .vmem S10256 .f32) idxs v mask add h hs >>= k) Q) := by
  have eS : (((b10 : Memref sig .scVector .vmem S10256 .f32).access (.whole S10256)).set) = Finset.univ := Memref.set_access_whole _
  have eR : (((b10 : Memref sig .scVector .vmem S10256 .f32).access (.whole S10256)).read (Elt F) f) = f := Memref.read_access_whole (Elt F) cc2_scratch10 f
  have eW : ∀ w, (((b10 : Memref sig .scVector .vmem S10256 .f32).access (.whole S10256)).write (Elt F) f w Finset.univ) = w :=
    fun w => Memref.write_access_whole_univ (Elt F) cc2_scratch10 f w
  have h0 := SparseCore.wp_vectorStoreIdx (defs := defs₀ (F := F)) 𝒱₀ (V d (cV L) (jV L)) none Set.univ (base := (b10 : Memref sig .scVector .vmem S10256 .f32))
    (idxs := idxs) (v := v) (mask := mask) (add := add) (h := h) (hs := hs) (k := k) (f := f) (Q := Q)
  rw [eR, eW, eS] at h0
  exact h0

theorem wp_stv_b11 {α : Type} {Q : α → sProp 𝕄} (idxs : Fin S10256.rank → IVec S16 32) (v : Vec F S16 .f32) (mask : IVec S16 1) (add : Bool)
    (h : ∀ a x, (idxs a x).toNat < S10256.size a) (hs : ((b11 : Memref sig .scVector .vmem S10256 .f32).access (.whole S10256)).Stores Finset.univ)
    (k : PUnit → Prog (TpuEff nD τ sig (Elt F) Λ₀ (.scVector (cV L) (jV L))) α) (f : Vec F S10256 .f32) :
    ((b11 : Memref sig .scVector .vmem S10256 .f32).view.loc (V d (cV L) (jV L)) ↦{fullShare} f)
      ⊢ iprop((((b11 : Memref sig .scVector .vmem S10256 .f32).view.loc (V d (cV L) (jV L)) ↦{fullShare} storeIdx f idxs v mask add h)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx (b11 : Memref sig .scVector .vmem S10256 .f32) idxs v mask add h hs >>= k) Q) := by
  have eS : (((b11 : Memref sig .scVector .vmem S10256 .f32).access (.whole S10256)).set) = Finset.univ := Memref.set_access_whole _
  have eR : (((b11 : Memref sig .scVector .vmem S10256 .f32).access (.whole S10256)).read (Elt F) f) = f := Memref.read_access_whole (Elt F) cc2_scratch11 f
  have eW : ∀ w, (((b11 : Memref sig .scVector .vmem S10256 .f32).access (.whole S10256)).write (Elt F) f w Finset.univ) = w :=
    fun w => Memref.write_access_whole_univ (Elt F) cc2_scratch11 f w
  have h0 := SparseCore.wp_vectorStoreIdx (defs := defs₀ (F := F)) 𝒱₀ (V d (cV L) (jV L)) none Set.univ (base := (b11 : Memref sig .scVector .vmem S10256 .f32))
    (idxs := idxs) (v := v) (mask := mask) (add := add) (h := h) (hs := hs) (k := k) (f := f) (Q := Q)
  rw [eR, eW, eS] at h0
  exact h0

theorem rd_chunk_b0 (fS : Buf (Elt F) ((b0 : Memref sig .scVector .vmem S1024 .i32).view.loc (V d (cV L) (jV L)))) (A : S327680.Idx → BitVec 32) (c : Nat) (hS : IsChunk fS A c)
    (j : Nat) (o : Fin 1 → Nat) (h : ∀ a, o a + S16.size a ≤ S1024.size a) (ho : o 0 = 16 * j) :
    View.readAt (Elt F) (b0 : Memref sig .scVector .vmem S1024 .i32).view (Rect.unit (s := S1024) o S16.size h).toLoadRect fS = grp A (64 * c + j) := by
  funext x
  show fS _ = _
  rw [hS]
  unfold grp
  have e0 : (((b0 : Memref sig .scVector .vmem S1024 .i32).view.emb ((Rect.unit (s := S1024) o S16.size h).idx x) 0).val) = o 0 + (x 0).val := by
    first
      | (show o 0 + 1 * (x 0).val = _; omega)
      | simp [Rect.idx, Rect.unit]
  rw [e0]
  have e : 1024 * c + (o 0 + (x 0).val) = 16 * (64 * c + j) + (x 0).val := by omega
  rw [e]

theorem rd_chunk_b1 (fS : Buf (Elt F) ((b1 : Memref sig .scVector .vmem S1024 .i32).view.loc (V d (cV L) (jV L)))) (A : S327680.Idx → BitVec 32) (c : Nat) (hS : IsChunk fS A c)
    (j : Nat) (o : Fin 1 → Nat) (h : ∀ a, o a + S16.size a ≤ S1024.size a) (ho : o 0 = 16 * j) :
    View.readAt (Elt F) (b1 : Memref sig .scVector .vmem S1024 .i32).view (Rect.unit (s := S1024) o S16.size h).toLoadRect fS = grp A (64 * c + j) := by
  funext x
  show fS _ = _
  rw [hS]
  unfold grp
  have e0 : (((b1 : Memref sig .scVector .vmem S1024 .i32).view.emb ((Rect.unit (s := S1024) o S16.size h).idx x) 0).val) = o 0 + (x 0).val := by
    first
      | (show o 0 + 1 * (x 0).val = _; omega)
      | simp [Rect.idx, Rect.unit]
  rw [e0]
  have e : 1024 * c + (o 0 + (x 0).val) = 16 * (64 * c + j) + (x 0).val := by omega
  rw [e]

theorem rd_chunk_b2 (fS : Buf (Elt F) ((b2 : Memref sig .scVector .vmem S1024 .i32).view.loc (V d (cV L) (jV L)))) (A : S327680.Idx → BitVec 32) (c : Nat) (hS : IsChunk fS A c)
    (j : Nat) (o : Fin 1 → Nat) (h : ∀ a, o a + S16.size a ≤ S1024.size a) (ho : o 0 = 16 * j) :
    View.readAt (Elt F) (b2 : Memref sig .scVector .vmem S1024 .i32).view (Rect.unit (s := S1024) o S16.size h).toLoadRect fS = grp A (64 * c + j) := by
  funext x
  show fS _ = _
  rw [hS]
  unfold grp
  have e0 : (((b2 : Memref sig .scVector .vmem S1024 .i32).view.emb ((Rect.unit (s := S1024) o S16.size h).idx x) 0).val) = o 0 + (x 0).val := by
    first
      | (show o 0 + 1 * (x 0).val = _; omega)
      | simp [Rect.idx, Rect.unit]
  rw [e0]
  have e : 1024 * c + (o 0 + (x 0).val) = 16 * (64 * c + j) + (x 0).val := by omega
  rw [e]

theorem rd_chunk_b3 (fS : Buf (Elt F) ((b3 : Memref sig .scVector .vmem S1024 .i32).view.loc (V d (cV L) (jV L)))) (A : S327680.Idx → BitVec 32) (c : Nat) (hS : IsChunk fS A c)
    (j : Nat) (o : Fin 1 → Nat) (h : ∀ a, o a + S16.size a ≤ S1024.size a) (ho : o 0 = 16 * j) :
    View.readAt (Elt F) (b3 : Memref sig .scVector .vmem S1024 .i32).view (Rect.unit (s := S1024) o S16.size h).toLoadRect fS = grp A (64 * c + j) := by
  funext x
  show fS _ = _
  rw [hS]
  unfold grp
  have e0 : (((b3 : Memref sig .scVector .vmem S1024 .i32).view.emb ((Rect.unit (s := S1024) o S16.size h).idx x) 0).val) = o 0 + (x 0).val := by
    first
      | (show o 0 + 1 * (x 0).val = _; omega)
      | simp [Rect.idx, Rect.unit]
  rw [e0]
  have e : 1024 * c + (o 0 + (x 0).val) = 16 * (64 * c + j) + (x 0).val := by omega
  rw [e]

theorem isChunk_write_b0 (c0 : Buf (Elt F) ((b0 : Memref sig .scVector .vmem S1024 .i32).view.loc (V d (cV L) (jV L)))) (A : Buf (Elt F) ((aS : Memref sig .scVector .hbm S327680 .i32).view.loc (V d (cV L) (jV L))))
    (o : Fin 1 → Nat) (h : ∀ a, o a + S1024.size a ≤ S327680.size a) (m : Nat) (ho : o 0 = 1024 * m) :
    IsChunk (View.write (Elt F) (b0 : Memref sig .scVector .vmem S1024 .i32).view c0
      (ReadAs.same.apply (View.read (Elt F) ((aS : Memref sig .scVector .hbm S327680 .i32).slice (Rect.unit (s := S327680) o S1024.size h) (fun _ => rfl)).view A)) Finset.univ) A m := by
  intro i
  have e := View.write_emb_of_mem (Val := Elt F) (v := (b0 : Memref sig .scVector .vmem S1024 .i32).view) c0
    (ReadAs.same.apply (View.read (Elt F) ((aS : Memref sig .scVector .hbm S327680 .i32).slice (Rect.unit (s := S327680) o S1024.size h) (fun _ => rfl)).view A)) (M := Finset.univ) (x := i) (Finset.mem_univ _)
  have e' : (b0 : Memref sig .scVector .vmem S1024 .i32).view.emb i = i := rfl
  rw [e'] at e
  rw [e]
  have hi : (i 0).val < 1024 := (i 0).isLt
  have h0 : o 0 + 1024 ≤ 327680 := h 0
  show A _ = A _
  congr 1
  refine funext fun (a : Fin 1) => ?_
  obtain rfl : a = 0 := Subsingleton.elim _ _
  apply Fin.ext
  first
    | (show o 0 + 1 * (i 0).val = (1024 * m + (i 0).val) % 327680; omega)
    | (simp [Rect.idx, Rect.unit, eIx]; omega)

theorem isChunk_write_b1 (c0 : Buf (Elt F) ((b1 : Memref sig .scVector .vmem S1024 .i32).view.loc (V d (cV L) (jV L)))) (A : Buf (Elt F) ((aS : Memref sig .scVector .hbm S327680 .i32).view.loc (V d (cV L) (jV L))))
    (o : Fin 1 → Nat) (h : ∀ a, o a + S1024.size a ≤ S327680.size a) (m : Nat) (ho : o 0 = 1024 * m) :
    IsChunk (View.write (Elt F) (b1 : Memref sig .scVector .vmem S1024 .i32).view c0
      (ReadAs.same.apply (View.read (Elt F) ((aS : Memref sig .scVector .hbm S327680 .i32).slice (Rect.unit (s := S327680) o S1024.size h) (fun _ => rfl)).view A)) Finset.univ) A m := by
  intro i
  have e := View.write_emb_of_mem (Val := Elt F) (v := (b1 : Memref sig .scVector .vmem S1024 .i32).view) c0
    (ReadAs.same.apply (View.read (Elt F) ((aS : Memref sig .scVector .hbm S327680 .i32).slice (Rect.unit (s := S327680) o S1024.size h) (fun _ => rfl)).view A)) (M := Finset.univ) (x := i) (Finset.mem_univ _)
  have e' : (b1 : Memref sig .scVector .vmem S1024 .i32).view.emb i = i := rfl
  rw [e'] at e
  rw [e]
  have hi : (i 0).val < 1024 := (i 0).isLt
  have h0 : o 0 + 1024 ≤ 327680 := h 0
  show A _ = A _
  congr 1
  refine funext fun (a : Fin 1) => ?_
  obtain rfl : a = 0 := Subsingleton.elim _ _
  apply Fin.ext
  first
    | (show o 0 + 1 * (i 0).val = (1024 * m + (i 0).val) % 327680; omega)
    | (simp [Rect.idx, Rect.unit, eIx]; omega)

theorem isChunk_write_b2 (c0 : Buf (Elt F) ((b2 : Memref sig .scVector .vmem S1024 .i32).view.loc (V d (cV L) (jV L)))) (A : Buf (Elt F) ((aD : Memref sig .scVector .hbm S327680 .i32).view.loc (V d (cV L) (jV L))))
    (o : Fin 1 → Nat) (h : ∀ a, o a + S1024.size a ≤ S327680.size a) (m : Nat) (ho : o 0 = 1024 * m) :
    IsChunk (View.write (Elt F) (b2 : Memref sig .scVector .vmem S1024 .i32).view c0
      (ReadAs.same.apply (View.read (Elt F) ((aD : Memref sig .scVector .hbm S327680 .i32).slice (Rect.unit (s := S327680) o S1024.size h) (fun _ => rfl)).view A)) Finset.univ) A m := by
  intro i
  have e := View.write_emb_of_mem (Val := Elt F) (v := (b2 : Memref sig .scVector .vmem S1024 .i32).view) c0
    (ReadAs.same.apply (View.read (Elt F) ((aD : Memref sig .scVector .hbm S327680 .i32).slice (Rect.unit (s := S327680) o S1024.size h) (fun _ => rfl)).view A)) (M := Finset.univ) (x := i) (Finset.mem_univ _)
  have e' : (b2 : Memref sig .scVector .vmem S1024 .i32).view.emb i = i := rfl
  rw [e'] at e
  rw [e]
  have hi : (i 0).val < 1024 := (i 0).isLt
  have h0 : o 0 + 1024 ≤ 327680 := h 0
  show A _ = A _
  congr 1
  refine funext fun (a : Fin 1) => ?_
  obtain rfl : a = 0 := Subsingleton.elim _ _
  apply Fin.ext
  first
    | (show o 0 + 1 * (i 0).val = (1024 * m + (i 0).val) % 327680; omega)
    | (simp [Rect.idx, Rect.unit, eIx]; omega)

theorem isChunk_write_b3 (c0 : Buf (Elt F) ((b3 : Memref sig .scVector .vmem S1024 .i32).view.loc (V d (cV L) (jV L)))) (A : Buf (Elt F) ((aD : Memref sig .scVector .hbm S327680 .i32).view.loc (V d (cV L) (jV L))))
    (o : Fin 1 → Nat) (h : ∀ a, o a + S1024.size a ≤ S327680.size a) (m : Nat) (ho : o 0 = 1024 * m) :
    IsChunk (View.write (Elt F) (b3 : Memref sig .scVector .vmem S1024 .i32).view c0
      (ReadAs.same.apply (View.read (Elt F) ((aD : Memref sig .scVector .hbm S327680 .i32).slice (Rect.unit (s := S327680) o S1024.size h) (fun _ => rfl)).view A)) Finset.univ) A m := by
  intro i
  have e := View.write_emb_of_mem (Val := Elt F) (v := (b3 : Memref sig .scVector .vmem S1024 .i32).view) c0
    (ReadAs.same.apply (View.read (Elt F) ((aD : Memref sig .scVector .hbm S327680 .i32).slice (Rect.unit (s := S327680) o S1024.size h) (fun _ => rfl)).view A)) (M := Finset.univ) (x := i) (Finset.mem_univ _)
  have e' : (b3 : Memref sig .scVector .vmem S1024 .i32).view.emb i = i := rfl
  rw [e'] at e
  rw [e]
  have hi : (i 0).val < 1024 := (i 0).isLt
  have h0 : o 0 + 1024 ≤ 327680 := h 0
  show A _ = A _
  congr 1
  refine funext fun (a : Fin 1) => ?_
  obtain rfl : a = 0 := Subsingleton.elim _ _
  apply Fin.ext
  first
    | (show o 0 + 1 * (i 0).val = (1024 * m + (i 0).val) % 327680; omega)
    | (simp [Rect.idx, Rect.unit, eIx]; omega)

set_option sl_exec.dischHeartbeats 200000 in
set_option maxHeartbeats 1000000 in
/-- One round of a slot's processing with contents named: group 64 c + k of the edges read off the slot's buffers, and each
    accumulator taken one step of its recursion. -/
theorem proc_trip_t2v (hRs : ∀ (d : Dev nD) (j : (srcLoc d).ty.Idx), (fs d j).toNat < 10000)
    (hRd : ∀ (d : Dev nD) (j : (dstLoc d).ty.Idx), (fd d j).toNat < 10000)
    (fS : Buf (Elt F) ((b0 : Memref sig .scVector .vmem S1024 .i32).view.loc (V d (cV L) (jV L)))) (fD : Buf (Elt F) ((b2 : Memref sig .scVector .vmem S1024 .i32).view.loc (V d (cV L) (jV L))))
    (c : Nat) (hS : IsChunk fS (fs d) c) (hD : IsChunk fD (fd d) c)
    (h4 h5 h6 h7 : Vec F S10240 .f32) (z : Vec F S10256 .f32)
    (c0 c1 : BitVec 32) (g : Fin k2_t1_loop.trips) (k : Fin k2_t2_loop.trips) (acc : Unit) :
    procInvV (F := F) fs fd d L b0 b2 fS fD h4 h5 h6 h7 z (64 * c) k.val acc
      ⊢ wp frame (wpE (defs₀ (F := F)) 𝒱₀ (V d (cV L) (jV L)) none) Set.univ
          (k2_t2_body L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 c0 c1 g k acc)
          (procInvV (F := F) fs fd d L b0 b2 fS fD h4 h5 h6 h7 z (64 * c) (k.val + 1)) := by
  have ho : (k2_off3 k) 0 = 16 * k.val := by rw [k2_off3_eq k]; rfl
  have hs := rd_chunk_b0 (F := F) d L fS (fs d) c hS k.val (k2_off3 k) (k2_off3_inb k) ho
  have hv := rd_chunk_b2 (F := F) d L fD (fd d) c hD k.val (k2_off3 k) (k2_off3_inb k) ho
  have hgS : ∀ x, (grp (fs d) (64 * c + k.val) x).toNat < 10000 := fun _ => hRs d _
  have hgD : ∀ x, (grp (fd d) (64 * c + k.val) x).toNat < 10000 := fun _ => hRd d _
  have cS : k2_chk1 (grp (fs d) (64 * c + k.val)) := ⟨src_ok _ hgS, src_ok _ hgS, src_ok _ hgS, src_ok _ hgS⟩
  have cD : k2_chk2 (k2_pay1 (F := F) (grp (fs d) (64 * c + k.val)) (grp (fd d) (64 * c + k.val))) :=
    ⟨dst_ok _ _ hgD, dst_ok _ _ hgD, dst_ok _ _ hgD, dst_ok _ _ hgD⟩
  have e8 := acc_step' (grp (fs d)) (grp (fd d)) h4 z (64 * c + k.val) (64 * c + (k.val + 1)) rfl _ _ rfl rfl (src_ok _ hgS) (dst_ok _ _ hgD)
  have e9 := acc_step' (grp (fs d)) (grp (fd d)) h5 z (64 * c + k.val) (64 * c + (k.val + 1)) rfl _ _ rfl rfl (src_ok _ hgS) (dst_ok _ _ hgD)
  have e10 := acc_step' (grp (fs d)) (grp (fd d)) h6 z (64 * c + k.val) (64 * c + (k.val + 1)) rfl _ _ rfl rfl (src_ok _ hgS) (dst_ok _ _ hgD)
  have e11 := acc_step' (grp (fs d)) (grp (fd d)) h7 z (64 * c + k.val) (64 * c + (k.val + 1)) rfl _ _ rfl rfl (src_ok _ hgS) (dst_ok _ _ hgD)
  unfold procInvV k2_t2_body
  iintro ⟨HmS, HmD, H4, H5, H6, H7, H8, H9, H10, H11⟩
  sl_exec (disch := first | sl_exact cS | sl_exact cD)
  iapply (wp_ldv_b4 (F := F) d L _ _ _ _ _) $$ [H4]
  · iexact H4
  iintro H4
  iapply (wp_stv_b8 (F := F) d L _ _ _ _ _ _ _ _) $$ [H8]
  · iexact H8
  iintro H8
  iapply (wp_ldv_b5 (F := F) d L _ _ _ _ _) $$ [H5]
  · iexact H5
  iintro H5
  iapply (wp_stv_b9 (F := F) d L _ _ _ _ _ _ _ _) $$ [H9]
  · iexact H9
  iintro H9
  iapply (wp_ldv_b6 (F := F) d L _ _ _ _ _) $$ [H6]
  · iexact H6
  iintro H6
  iapply (wp_stv_b10 (F := F) d L _ _ _ _ _ _ _ _) $$ [H10]
  · iexact H10
  iintro H10
  iapply (wp_ldv_b7 (F := F) d L _ _ _ _ _) $$ [H7]
  · iexact H7
  iintro H7
  iapply (wp_stv_b11 (F := F) d L _ _ _ _ _ _ _ _) $$ [H11]
  · iexact H11
  iintro H11
  sl_exec
  sl_step
  isplitl [HmS]; · iexact HmS
  isplitl [HmD]; · iexact HmD
  isplitl [H4]; · iexact H4
  isplitl [H5]; · iexact H5
  isplitl [H6]; · iexact H6
  isplitl [H7]; · iexact H7
  isplitl [H8]
  · iapply (pt_cast (F := F) e8) $$ [H8]
    iexact H8
  isplitl [H9]
  · iapply (pt_cast (F := F) e9) $$ [H9]
    iexact H9
  isplitl [H10]
  · iapply (pt_cast (F := F) e10) $$ [H10]
    iexact H10
  iapply (pt_cast (F := F) e11) $$ [H11]
  iexact H11

set_option sl_exec.dischHeartbeats 200000 in
set_option maxHeartbeats 1000000 in
/-- One round of a slot's processing with contents named: group 64 c + k of the edges read off the slot's buffers, and each
    accumulator taken one step of its recursion. -/
theorem proc_trip_t3v (hRs : ∀ (d : Dev nD) (j : (srcLoc d).ty.Idx), (fs d j).toNat < 10000)
    (hRd : ∀ (d : Dev nD) (j : (dstLoc d).ty.Idx), (fd d j).toNat < 10000)
    (fS : Buf (Elt F) ((b1 : Memref sig .scVector .vmem S1024 .i32).view.loc (V d (cV L) (jV L)))) (fD : Buf (Elt F) ((b3 : Memref sig .scVector .vmem S1024 .i32).view.loc (V d (cV L) (jV L))))
    (c : Nat) (hS : IsChunk fS (fs d) c) (hD : IsChunk fD (fd d) c)
    (h4 h5 h6 h7 : Vec F S10240 .f32) (z : Vec F S10256 .f32)
    (c0 c1 : BitVec 32) (g : Fin k2_t1_loop.trips) (k : Fin k2_t3_loop.trips) (acc : Unit) :
    procInvV (F := F) fs fd d L b1 b3 fS fD h4 h5 h6 h7 z (64 * c) k.val acc
      ⊢ wp frame (wpE (defs₀ (F := F)) 𝒱₀ (V d (cV L) (jV L)) none) Set.univ
          (k2_t3_body L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 c0 c1 g k acc)
          (procInvV (F := F) fs fd d L b1 b3 fS fD h4 h5 h6 h7 z (64 * c) (k.val + 1)) := by
  have ho : (k2_off5 k) 0 = 16 * k.val := by rw [k2_off5_eq k]; rfl
  have hs := rd_chunk_b1 (F := F) d L fS (fs d) c hS k.val (k2_off5 k) (k2_off5_inb k) ho
  have hv := rd_chunk_b3 (F := F) d L fD (fd d) c hD k.val (k2_off5 k) (k2_off5_inb k) ho
  have hgS : ∀ x, (grp (fs d) (64 * c + k.val) x).toNat < 10000 := fun _ => hRs d _
  have hgD : ∀ x, (grp (fd d) (64 * c + k.val) x).toNat < 10000 := fun _ => hRd d _
  have cS : k2_chk3 (grp (fs d) (64 * c + k.val)) := ⟨src_ok _ hgS, src_ok _ hgS, src_ok _ hgS, src_ok _ hgS⟩
  have cD : k2_chk4 (k2_pay2 (F := F) (grp (fs d) (64 * c + k.val)) (grp (fd d) (64 * c + k.val))) :=
    ⟨dst_ok _ _ hgD, dst_ok _ _ hgD, dst_ok _ _ hgD, dst_ok _ _ hgD⟩
  have e8 := acc_step' (grp (fs d)) (grp (fd d)) h4 z (64 * c + k.val) (64 * c + (k.val + 1)) rfl _ _ rfl rfl (src_ok _ hgS) (dst_ok _ _ hgD)
  have e9 := acc_step' (grp (fs d)) (grp (fd d)) h5 z (64 * c + k.val) (64 * c + (k.val + 1)) rfl _ _ rfl rfl (src_ok _ hgS) (dst_ok _ _ hgD)
  have e10 := acc_step' (grp (fs d)) (grp (fd d)) h6 z (64 * c + k.val) (64 * c + (k.val + 1)) rfl _ _ rfl rfl (src_ok _ hgS) (dst_ok _ _ hgD)
  have e11 := acc_step' (grp (fs d)) (grp (fd d)) h7 z (64 * c + k.val) (64 * c + (k.val + 1)) rfl _ _ rfl rfl (src_ok _ hgS) (dst_ok _ _ hgD)
  unfold procInvV k2_t3_body
  iintro ⟨HmS, HmD, H4, H5, H6, H7, H8, H9, H10, H11⟩
  sl_exec (disch := first | sl_exact cS | sl_exact cD)
  iapply (wp_ldv_b4 (F := F) d L _ _ _ _ _) $$ [H4]
  · iexact H4
  iintro H4
  iapply (wp_stv_b8 (F := F) d L _ _ _ _ _ _ _ _) $$ [H8]
  · iexact H8
  iintro H8
  iapply (wp_ldv_b5 (F := F) d L _ _ _ _ _) $$ [H5]
  · iexact H5
  iintro H5
  iapply (wp_stv_b9 (F := F) d L _ _ _ _ _ _ _ _) $$ [H9]
  · iexact H9
  iintro H9
  iapply (wp_ldv_b6 (F := F) d L _ _ _ _ _) $$ [H6]
  · iexact H6
  iintro H6
  iapply (wp_stv_b10 (F := F) d L _ _ _ _ _ _ _ _) $$ [H10]
  · iexact H10
  iintro H10
  iapply (wp_ldv_b7 (F := F) d L _ _ _ _ _) $$ [H7]
  · iexact H7
  iintro H7
  iapply (wp_stv_b11 (F := F) d L _ _ _ _ _ _ _ _) $$ [H11]
  · iexact H11
  iintro H11
  sl_exec
  sl_step
  isplitl [HmS]; · iexact HmS
  isplitl [HmD]; · iexact HmD
  isplitl [H4]; · iexact H4
  isplitl [H5]; · iexact H5
  isplitl [H6]; · iexact H6
  isplitl [H7]; · iexact H7
  isplitl [H8]
  · iapply (pt_cast (F := F) e8) $$ [H8]
    iexact H8
  isplitl [H9]
  · iapply (pt_cast (F := F) e9) $$ [H9]
    iexact H9
  isplitl [H10]
  · iapply (pt_cast (F := F) e10) $$ [H10]
    iexact H10
  iapply (pt_cast (F := F) e11) $$ [H11]
  iexact H11

set_option sl_exec.dischHeartbeats 200000 in
set_option maxHeartbeats 1000000 in
/-- One round of a slot's processing with contents named: group 64 c + k of the edges read off the slot's buffers, and each
    accumulator taken one step of its recursion. -/
theorem proc_trip_t4v (hRs : ∀ (d : Dev nD) (j : (srcLoc d).ty.Idx), (fs d j).toNat < 10000)
    (hRd : ∀ (d : Dev nD) (j : (dstLoc d).ty.Idx), (fd d j).toNat < 10000)
    (fS : Buf (Elt F) ((b0 : Memref sig .scVector .vmem S1024 .i32).view.loc (V d (cV L) (jV L)))) (fD : Buf (Elt F) ((b2 : Memref sig .scVector .vmem S1024 .i32).view.loc (V d (cV L) (jV L))))
    (c : Nat) (hS : IsChunk fS (fs d) c) (hD : IsChunk fD (fd d) c)
    (h4 h5 h6 h7 : Vec F S10240 .f32) (z : Vec F S10256 .f32)
    (v1 : BitVec 32) (k : Fin k2_t4_loop.trips) (acc : Unit) :
    procInvV (F := F) fs fd d L b0 b2 fS fD h4 h5 h6 h7 z (64 * c) k.val acc
      ⊢ wp frame (wpE (defs₀ (F := F)) 𝒱₀ (V d (cV L) (jV L)) none) Set.univ
          (k2_t4_body L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 v1 k acc)
          (procInvV (F := F) fs fd d L b0 b2 fS fD h4 h5 h6 h7 z (64 * c) (k.val + 1)) := by
  have ho : (k2_off6 k) 0 = 16 * k.val := by rw [k2_off6_eq k]; rfl
  have hs := rd_chunk_b0 (F := F) d L fS (fs d) c hS k.val (k2_off6 k) (k2_off6_inb k) ho
  have hv := rd_chunk_b2 (F := F) d L fD (fd d) c hD k.val (k2_off6 k) (k2_off6_inb k) ho
  have hgS : ∀ x, (grp (fs d) (64 * c + k.val) x).toNat < 10000 := fun _ => hRs d _
  have hgD : ∀ x, (grp (fd d) (64 * c + k.val) x).toNat < 10000 := fun _ => hRd d _
  have cS : k2_chk5 (grp (fs d) (64 * c + k.val)) := ⟨src_ok _ hgS, src_ok _ hgS, src_ok _ hgS, src_ok _ hgS⟩
  have cD : k2_chk6 (k2_pay3 (F := F) (grp (fs d) (64 * c + k.val)) (grp (fd d) (64 * c + k.val))) :=
    ⟨dst_ok _ _ hgD, dst_ok _ _ hgD, dst_ok _ _ hgD, dst_ok _ _ hgD⟩
  have e8 := acc_step' (grp (fs d)) (grp (fd d)) h4 z (64 * c + k.val) (64 * c + (k.val + 1)) rfl _ _ rfl rfl (src_ok _ hgS) (dst_ok _ _ hgD)
  have e9 := acc_step' (grp (fs d)) (grp (fd d)) h5 z (64 * c + k.val) (64 * c + (k.val + 1)) rfl _ _ rfl rfl (src_ok _ hgS) (dst_ok _ _ hgD)
  have e10 := acc_step' (grp (fs d)) (grp (fd d)) h6 z (64 * c + k.val) (64 * c + (k.val + 1)) rfl _ _ rfl rfl (src_ok _ hgS) (dst_ok _ _ hgD)
  have e11 := acc_step' (grp (fs d)) (grp (fd d)) h7 z (64 * c + k.val) (64 * c + (k.val + 1)) rfl _ _ rfl rfl (src_ok _ hgS) (dst_ok _ _ hgD)
  unfold procInvV k2_t4_body
  iintro ⟨HmS, HmD, H4, H5, H6, H7, H8, H9, H10, H11⟩
  sl_exec (disch := first | sl_exact cS | sl_exact cD)
  iapply (wp_ldv_b4 (F := F) d L _ _ _ _ _) $$ [H4]
  · iexact H4
  iintro H4
  iapply (wp_stv_b8 (F := F) d L _ _ _ _ _ _ _ _) $$ [H8]
  · iexact H8
  iintro H8
  iapply (wp_ldv_b5 (F := F) d L _ _ _ _ _) $$ [H5]
  · iexact H5
  iintro H5
  iapply (wp_stv_b9 (F := F) d L _ _ _ _ _ _ _ _) $$ [H9]
  · iexact H9
  iintro H9
  iapply (wp_ldv_b6 (F := F) d L _ _ _ _ _) $$ [H6]
  · iexact H6
  iintro H6
  iapply (wp_stv_b10 (F := F) d L _ _ _ _ _ _ _ _) $$ [H10]
  · iexact H10
  iintro H10
  iapply (wp_ldv_b7 (F := F) d L _ _ _ _ _) $$ [H7]
  · iexact H7
  iintro H7
  iapply (wp_stv_b11 (F := F) d L _ _ _ _ _ _ _ _) $$ [H11]
  · iexact H11
  iintro H11
  sl_exec
  sl_step
  isplitl [HmS]; · iexact HmS
  isplitl [HmD]; · iexact HmD
  isplitl [H4]; · iexact H4
  isplitl [H5]; · iexact H5
  isplitl [H6]; · iexact H6
  isplitl [H7]; · iexact H7
  isplitl [H8]
  · iapply (pt_cast (F := F) e8) $$ [H8]
    iexact H8
  isplitl [H9]
  · iapply (pt_cast (F := F) e9) $$ [H9]
    iexact H9
  isplitl [H10]
  · iapply (pt_cast (F := F) e10) $$ [H10]
    iexact H10
  iapply (pt_cast (F := F) e11) $$ [H11]
  iexact H11

set_option sl_exec.dischHeartbeats 200000 in
set_option maxHeartbeats 1000000 in
/-- One round of a slot's processing with contents named: group 64 c + k of the edges read off the slot's buffers, and each
    accumulator taken one step of its recursion. -/
theorem proc_trip_t5v (hRs : ∀ (d : Dev nD) (j : (srcLoc d).ty.Idx), (fs d j).toNat < 10000)
    (hRd : ∀ (d : Dev nD) (j : (dstLoc d).ty.Idx), (fd d j).toNat < 10000)
    (fS : Buf (Elt F) ((b1 : Memref sig .scVector .vmem S1024 .i32).view.loc (V d (cV L) (jV L)))) (fD : Buf (Elt F) ((b3 : Memref sig .scVector .vmem S1024 .i32).view.loc (V d (cV L) (jV L))))
    (c : Nat) (hS : IsChunk fS (fs d) c) (hD : IsChunk fD (fd d) c)
    (h4 h5 h6 h7 : Vec F S10240 .f32) (z : Vec F S10256 .f32)
    (v1 : BitVec 32) (k : Fin k2_t5_loop.trips) (acc : Unit) :
    procInvV (F := F) fs fd d L b1 b3 fS fD h4 h5 h6 h7 z (64 * c) k.val acc
      ⊢ wp frame (wpE (defs₀ (F := F)) 𝒱₀ (V d (cV L) (jV L)) none) Set.univ
          (k2_t5_body L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 v1 k acc)
          (procInvV (F := F) fs fd d L b1 b3 fS fD h4 h5 h6 h7 z (64 * c) (k.val + 1)) := by
  have ho : (k2_off7 k) 0 = 16 * k.val := by rw [k2_off7_eq k]; rfl
  have hs := rd_chunk_b1 (F := F) d L fS (fs d) c hS k.val (k2_off7 k) (k2_off7_inb k) ho
  have hv := rd_chunk_b3 (F := F) d L fD (fd d) c hD k.val (k2_off7 k) (k2_off7_inb k) ho
  have hgS : ∀ x, (grp (fs d) (64 * c + k.val) x).toNat < 10000 := fun _ => hRs d _
  have hgD : ∀ x, (grp (fd d) (64 * c + k.val) x).toNat < 10000 := fun _ => hRd d _
  have cS : k2_chk7 (grp (fs d) (64 * c + k.val)) := ⟨src_ok _ hgS, src_ok _ hgS, src_ok _ hgS, src_ok _ hgS⟩
  have cD : k2_chk8 (k2_pay4 (F := F) (grp (fs d) (64 * c + k.val)) (grp (fd d) (64 * c + k.val))) :=
    ⟨dst_ok _ _ hgD, dst_ok _ _ hgD, dst_ok _ _ hgD, dst_ok _ _ hgD⟩
  have e8 := acc_step' (grp (fs d)) (grp (fd d)) h4 z (64 * c + k.val) (64 * c + (k.val + 1)) rfl _ _ rfl rfl (src_ok _ hgS) (dst_ok _ _ hgD)
  have e9 := acc_step' (grp (fs d)) (grp (fd d)) h5 z (64 * c + k.val) (64 * c + (k.val + 1)) rfl _ _ rfl rfl (src_ok _ hgS) (dst_ok _ _ hgD)
  have e10 := acc_step' (grp (fs d)) (grp (fd d)) h6 z (64 * c + k.val) (64 * c + (k.val + 1)) rfl _ _ rfl rfl (src_ok _ hgS) (dst_ok _ _ hgD)
  have e11 := acc_step' (grp (fs d)) (grp (fd d)) h7 z (64 * c + k.val) (64 * c + (k.val + 1)) rfl _ _ rfl rfl (src_ok _ hgS) (dst_ok _ _ hgD)
  unfold procInvV k2_t5_body
  iintro ⟨HmS, HmD, H4, H5, H6, H7, H8, H9, H10, H11⟩
  sl_exec (disch := first | sl_exact cS | sl_exact cD)
  iapply (wp_ldv_b4 (F := F) d L _ _ _ _ _) $$ [H4]
  · iexact H4
  iintro H4
  iapply (wp_stv_b8 (F := F) d L _ _ _ _ _ _ _ _) $$ [H8]
  · iexact H8
  iintro H8
  iapply (wp_ldv_b5 (F := F) d L _ _ _ _ _) $$ [H5]
  · iexact H5
  iintro H5
  iapply (wp_stv_b9 (F := F) d L _ _ _ _ _ _ _ _) $$ [H9]
  · iexact H9
  iintro H9
  iapply (wp_ldv_b6 (F := F) d L _ _ _ _ _) $$ [H6]
  · iexact H6
  iintro H6
  iapply (wp_stv_b10 (F := F) d L _ _ _ _ _ _ _ _) $$ [H10]
  · iexact H10
  iintro H10
  iapply (wp_ldv_b7 (F := F) d L _ _ _ _ _) $$ [H7]
  · iexact H7
  iintro H7
  iapply (wp_stv_b11 (F := F) d L _ _ _ _ _ _ _ _) $$ [H11]
  · iexact H11
  iintro H11
  sl_exec
  sl_step
  isplitl [HmS]; · iexact HmS
  isplitl [HmD]; · iexact HmD
  isplitl [H4]; · iexact H4
  isplitl [H5]; · iexact H5
  isplitl [H6]; · iexact H6
  isplitl [H7]; · iexact H7
  isplitl [H8]
  · iapply (pt_cast (F := F) e8) $$ [H8]
    iexact H8
  isplitl [H9]
  · iapply (pt_cast (F := F) e9) $$ [H9]
    iexact H9
  isplitl [H10]
  · iapply (pt_cast (F := F) e10) $$ [H10]
    iexact H10
  iapply (pt_cast (F := F) e11) $$ [H11]
  iexact H11

end ProcV
end VT1
end Cert.KernelIdeal.Run
-- ==== Proof.VTile1Main.lean ====
import proofs.«207969_g80633716015134_cont_9to1_m_1245_11_alg».proof.Proof.VTile1Proc

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx
open T1

variable {F : FTy → Type}

local notation "𝕄" => MT nD τ sig (HIx 2) (Elt F) ℕ UU ℕ

namespace VT1

section MainV

variable [FloatOps F]
variable (fs : (d : Dev nD) → Buf (Elt F) (srcLoc d)) (fd : (d : Dev nD) → Buf (Elt F) (dstLoc d))
variable (d : Dev nD) (L : grid2.Coords)

set_option maxHeartbeats 2000000 in
/-- One trip of the pipeline with contents named: slot 0's chunk 2g awaited and processed and chunk 2g+2 started, then slot
    1's chunk 2g+1 and chunk 2g+3; the accumulators go from 128 g groups to 128 (g+1). -/
theorem main_trip_v (hRs : ∀ (d : Dev nD) (j : (srcLoc d).ty.Idx), (fs d j).toNat < 10000)
    (hRd : ∀ (d : Dev nD) (j : (dstLoc d).ty.Idx), (fd d j).toNat < 10000)
    (O : CellTallies nD τ sig (HIx 2)) (W : Waits sig (HIx 2))
    (h4 h5 h6 h7 : Vec F S10240 .f32) (z : Vec F S10256 .f32)
    (v1 : BitVec 32) (k : Fin k2_t1_loop.trips) (acc : Unit) :
    mainInvV (F := F) fs fd d L O W h4 h5 h6 h7 z k.val acc
      ⊢ wp frame (wpE (defs₀ (F := F)) 𝒱₀ (V d (cV L) (jV L)) none) Set.univ
          (k2_t1_body L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 v1 k acc)
          (mainInvV (F := F) fs fd d L O W h4 h5 h6 h7 z (k.val + 1)) := by
  have ht2 : Scf.trips k2_t2_loop.lb k2_t2_loop.ub k2_t2_loop.st = 64 := by decide
  have ht3 : Scf.trips k2_t3_loop.lb k2_t3_loop.ub k2_t3_loop.st = 64 := by decide
  have eA : ∀ h : Vec F S10240 .f32, accAfter (grp (fs d)) (grp (fd d)) h z (128 * k.val) = accAfter (grp (fs d)) (grp (fd d)) h z (64 * (2 * k.val) + 0) :=
    fun h => congrArg (accAfter (grp (fs d)) (grp (fd d)) h z) (by omega)
  have eB : ∀ h : Vec F S10240 .f32, accAfter (grp (fs d)) (grp (fd d)) h z (64 * (2 * k.val) + Scf.trips k2_t2_loop.lb k2_t2_loop.ub k2_t2_loop.st)
      = accAfter (grp (fs d)) (grp (fd d)) h z (64 * (2 * k.val + 1) + 0) :=
    fun h => congrArg (accAfter (grp (fs d)) (grp (fd d)) h z) (by omega)
  have eC : ∀ h : Vec F S10240 .f32, accAfter (grp (fs d)) (grp (fd d)) h z (64 * (2 * k.val + 1) + Scf.trips k2_t3_loop.lb k2_t3_loop.ub k2_t3_loop.st)
      = accAfter (grp (fs d)) (grp (fd d)) h z (128 * (k.val + 1)) :=
    fun h => congrArg (accAfter (grp (fs d)) (grp (fd d)) h z) (by omega)
  have o2 : k2_off4 k 2#32 = ![2048 * k.val + 1024 * 1 + 1024] := k2_off4_eq k ⟨1, by decide⟩
  have o3 : k2_off4 k 3#32 = ![2048 * k.val + 1024 * 2 + 1024] := k2_off4_eq k ⟨2, by decide⟩
  have ho2 : (k2_off4 k 2#32) 0 = 1024 * (2 * (k.val + 1)) := by
    rw [o2]; show 2048 * k.val + 1024 * 1 + 1024 = _; omega
  have ho3 : (k2_off4 k 3#32) 0 = 1024 * (2 * (k.val + 1) + 1) := by
    rw [o3]; show 2048 * k.val + 1024 * 2 + 1024 = _; omega
  unfold mainInvV
  iintro ⟨#Hmw, ⟨%c0, %hc0, Hf0⟩, ⟨%c2, %hc2, Hf2⟩, ⟨%c1, %hc1, Hf1⟩, ⟨%c3, %hc3, Hf3⟩, H4, H5, H6, H7, H8, H9, H10, H11, %W', %hW', HO⟩
  sl_exec
  ihave H8a := (pt_cast (F := F) (eA h4)) $$ H8
  ihave H9a := (pt_cast (F := F) (eA h5)) $$ H9
  ihave H10a := (pt_cast (F := F) (eA h6)) $$ H10
  ihave H11a := (pt_cast (F := F) (eA h7)) $$ H11
  sl_for (procInvV (F := F) fs fd d L b0 b2 c0 c2 h4 h5 h6 h7 z (64 * (2 * k.val))) $$ [Hf0_dst Hf2_dst H4 H5 H6 H7 H8a H9a H10a H11a]
  case region =>
    intro k' acc'
    exact proc_trip_t2v (F := F) fs fd d L hRs hRd c0 c2 (2 * k.val) hc0 hc2 h4 h5 h6 h7 z _ _ _ k' acc'
  · unfold procInvV
    isplitl [Hf0_dst]; · iexact Hf0_dst
    isplitl [Hf2_dst]; · iexact Hf2_dst
    isplitl [H4]; · iexact H4
    isplitl [H5]; · iexact H5
    isplitl [H6]; · iexact H6
    isplitl [H7]; · iexact H7
    isplitl [H8a]; · iexact H8a
    isplitl [H9a]; · iexact H9a
    isplitl [H10a]; · iexact H10a
    iexact H11a
  unfold procInvV
  iintro %acc1 ⟨Hb0, Hb2, H4, H5, H6, H7, H8, H9, H10, H11⟩
  ihave H8b := (pt_cast (F := F) (eB h4)) $$ H8
  ihave H9b := (pt_cast (F := F) (eB h5)) $$ H9
  ihave H10b := (pt_cast (F := F) (eB h6)) $$ H10
  ihave H11b := (pt_cast (F := F) (eB h7)) $$ H11
  sl_exec
  ihave Hg0 := (Flight_absorb (F := F)) $$ [Hf0 Hf0_src]
  · isplitl [Hf0]; · iexact Hf0
    iexact Hf0_src
  ihave Hg2 := (Flight_absorb (F := F)) $$ [Hf2 Hf2_src]
  · isplitl [Hf2]; · iexact Hf2
    iexact Hf2_src
  sl_for (procInvV (F := F) fs fd d L b1 b3 c1 c3 h4 h5 h6 h7 z (64 * (2 * k.val + 1))) $$ [Hf1_dst Hf3_dst H4 H5 H6 H7 H8b H9b H10b H11b]
  case region =>
    intro k' acc'
    exact proc_trip_t3v (F := F) fs fd d L hRs hRd c1 c3 (2 * k.val + 1) hc1 hc3 h4 h5 h6 h7 z _ _ _ k' acc'
  · unfold procInvV
    isplitl [Hf1_dst]; · iexact Hf1_dst
    isplitl [Hf3_dst]; · iexact Hf3_dst
    isplitl [H4]; · iexact H4
    isplitl [H5]; · iexact H5
    isplitl [H6]; · iexact H6
    isplitl [H7]; · iexact H7
    isplitl [H8b]; · iexact H8b
    isplitl [H9b]; · iexact H9b
    isplitl [H10b]; · iexact H10b
    iexact H11b
  unfold procInvV
  iintro %acc2 ⟨Hb1, Hb3, H4, H5, H6, H7, H8, H9, H10, H11⟩
  ihave H8c := (pt_cast (F := F) (eC h4)) $$ H8
  ihave H9c := (pt_cast (F := F) (eC h5)) $$ H9
  ihave H10c := (pt_cast (F := F) (eC h6)) $$ H10
  ihave H11c := (pt_cast (F := F) (eC h7)) $$ H11
  sl_exec
  ihave Hg1 := (Flight_absorb (F := F)) $$ [Hf1 Hf1_src]
  · isplitl [Hf1]; · iexact Hf1
    iexact Hf1_src
  ihave Hg3 := (Flight_absorb (F := F)) $$ [Hf3 Hf3_src]
  · isplitl [Hf3]; · iexact Hf3
    iexact Hf3_src
  sl_step
  isplitr
  · iexact Hmw
  isplitl [Hg0]
  · iexists _
    isplitr
    rotate_left
    · iexact Hg0
    · ipureintro
      exact isChunk_write_b0 (F := F) d L _ (fs d) _ _ (2 * (k.val + 1)) ho2
  isplitl [Hg2]
  · iexists _
    isplitr
    rotate_left
    · iexact Hg2
    · ipureintro
      exact isChunk_write_b2 (F := F) d L _ (fd d) _ _ (2 * (k.val + 1)) ho2
  isplitl [Hg1]
  · iexists _
    isplitr
    rotate_left
    · iexact Hg1
    · ipureintro
      exact isChunk_write_b1 (F := F) d L _ (fs d) _ _ (2 * (k.val + 1) + 1) ho3
  isplitl [Hg3]
  · iexists _
    isplitr
    rotate_left
    · iexact Hg3
    · ipureintro
      exact isChunk_write_b3 (F := F) d L _ (fd d) _ _ (2 * (k.val + 1) + 1) ho3
  isplitl [H4]; · iexact H4
  isplitl [H5]; · iexact H5
  isplitl [H6]; · iexact H6
  isplitl [H7]; · iexact H7
  isplitl [H8c]; · iexact H8c
  isplitl [H9c]; · iexact H9c
  isplitl [H10c]; · iexact H10c
  isplitl [H11c]; · iexact H11c
  iexists _
  isplitr
  rotate_left
  · iexact HO
  · ipureintro
    intro p hp
    rcases Finset.mem_insert.mp hp with hp | hp
    · exact .inr (by rw [hp]; rfl)
    rcases Finset.mem_insert.mp hp with hp | hp
    · exact .inr (by rw [hp]; rfl)
    rcases Finset.mem_insert.mp hp with hp | hp
    · exact .inr (by rw [hp]; rfl)
    rcases Finset.mem_insert.mp hp with hp | hp
    · exact .inr (by rw [hp]; rfl)
    · exact hW' p hp

end MainV
end VT1
end Cert.KernelIdeal.Run
-- ==== Proof.VTile1Wrap.lean ====
/-
  The second call's task obligation for the payloads with contents, from the task's body at a symbolic worker.
-/
import proofs.«207969_g80633716015134_cont_9to1_m_1245_11_alg».proof.Proof.VSetup
import proofs.«207969_g80633716015134_cont_9to1_m_1245_11_alg».proof.Proof.KTile1Setup

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 2) (Elt F) ℕ UU ℕ

namespace VT1

open T1

section BodyV

variable [FloatOps F]
variable (fs : (d : Dev nD) → Buf (Elt F) (srcLoc d)) (fd : (d : Dev nD) → Buf (Elt F) (dstLoc d)) (fz : (d : Dev nD) → Buf (Elt F) (zeroLoc d))
  (htA : (d : Dev nD) → Buf (Elt F) (htLoc d)) (aggA : (d : Dev nD) → Buf (Elt F) (aggLoc d))

/-- The task's body at a symbolic worker, with contents: from its read tokens, its four rows of the features at htA, its four
    rows of the aggregate at whatever they hold and the subcore's scoped storage, it runs to the same with the aggregate's
    rows at aggA, having recorded only waits at the kernels' index. -/
def TileBodyV : Prop :=
  ∀ (d : Dev nD) (L : grid2.Coords) (O : CellTallies nD τ sig (HIx 2)) (W : Waits sig (HIx 2)), (∀ g, O g none = 0) →
    iprop(levAts (K (F := F)).L (K (F := F)).lev ∗ emp ∗ go1v fs fd fz htA d (cL L) (iL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__agg_sc L aS (Memref.isWhole_whole _) aD (Memref.isWhole_whole _) aZ (Memref.isWhole_whole _) aH (Memref.isWhole_whole _) aG (Memref.isWhole_whole _)
            b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _) b10 (Memref.isWhole_whole _) b11 (Memref.isWhole_whole _)
            cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11)
          fun _ => iprop(td1v fs fd fz htA aggA d (cL L) (iL L) ∗ scopedBufs (V d (cV L) (jV L)) ∗ scopedSems0 (V d (cV L) (jV L))
            ∗ ∃ W', ⌜∀ p ∈ W', p ∈ W ∨ p.2 = none⌝ ∗ owes (V d (cV L) (jV L)) O W')

end BodyV

end VT1

section OblV

variable [FloatOps F]
variable (fs : (d : Dev nD) → Buf (Elt F) (srcLoc d)) (fd : (d : Dev nD) → Buf (Elt F) (dstLoc d)) (fz : (d : Dev nD) → Buf (Elt F) (zeroLoc d))
  (cntA : (d : Dev nD) → Buf (Elt F) (cntLoc d)) (htA : (d : Dev nD) → Buf (Elt F) (htLoc d)) (aggA : (d : Dev nD) → Buf (Elt F) (aggLoc d))

open T1 in
/-- The second call's task obligation with contents, given its body at a symbolic worker. -/
theorem tileObl1v_of_body (hb : VT1.TileBodyV (F := F) fs fd fz htA aggA) :
    (K (F := F)).TileObl (D (F := F)) 𝒱 (PV fs fd fz cntA htA aggA) v₀ 1 := by
  intro d c i O W hO _ _
  simp only [show (PV fs fd fz cntA htA aggA).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [T1.defs₀_vector]; simp only [SparseCore.onTile, hc, and_self, ↓reduceDIte]
  exact (hb d (T1.coordsV ⟨_, hc.1⟩ ⟨_, hc.2⟩) O W hO).trans (wp_mono frame _ _ fun _ => T1.obl_post)

end OblV

end Cert.KernelIdeal.Run

end
-- ==== Proof.VTile1Outer.lean ====
import proofs.«207969_g80633716015134_cont_9to1_m_1245_11_alg».proof.Proof.VTile1Main
import proofs.«207969_g80633716015134_cont_9to1_m_1245_11_alg».proof.Proof.VTile1Wrap
import proofs.«207969_g80633716015134_cont_9to1_m_1245_11_alg».proof.Proof.KTile1Outer

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx
open T1

variable {F : FTy → Type}

local notation "𝕄" => MT nD τ sig (HIx 2) (Elt F) ℕ UU ℕ

namespace VT1

section OuterV

variable [FloatOps F]
variable (fs : (d : Dev nD) → Buf (Elt F) (srcLoc d)) (fd : (d : Dev nD) → Buf (Elt F) (dstLoc d)) (fz : (d : Dev nD) → Buf (Elt F) (zeroLoc d))
  (htA : (d : Dev nD) → Buf (Elt F) (htLoc d)) (aggA : (d : Dev nD) → Buf (Elt F) (aggLoc d))

/-- The rows as the payloads index them. -/
theorem pts_hRowE (d : Dev nD) (L : grid2.Coords) (r : Fin 4) (f : Buf (Elt F) (htLoc d)) :
    ((hRowK L r).view.loc (V d (cV L) (jV L)) ↦[(hRowK L r).view.set]{fullShare} f : sProp 𝕄)
      = htLoc d ↦[(colRow (e128 ((cL L, iL L), r))).set]{fullShare} f := pts_hRow (F := F) d L r f
theorem pts_gRowE (d : Dev nD) (L : grid2.Coords) (r : Fin 4) (f : Buf (Elt F) (aggLoc d)) :
    ((gRowK L r).view.loc (V d (cV L) (jV L)) ↦[(gRowK L r).view.set]{fullShare} f : sProp 𝕄)
      = aggLoc d ↦[(colRow (e128 ((cL L, iL L), r))).set]{fullShare} f := pts_gRow (F := F) d L r f

set_option maxHeartbeats 8000000 in
/-- The task's body with contents named, from one trip of its main loop and the geometry of its copies: what the prologue
    leaves in the feature rows' and the accumulators' buffers, and what the epilogue writes on the aggregate's rows. -/
theorem tileBodyV_of (hRs : ∀ (d : Dev nD) (j : (srcLoc d).ty.Idx), (fs d j).toNat < 10000)
    (hRd : ∀ (d : Dev nD) (j : (dstLoc d).ty.Idx), (fd d j).toNat < 10000)
    (hH0 : ∀ (d : Dev nD) (L : grid2.Coords) (f : Buf (Elt F) ((b4 : Memref sig .scVector .vmem S10240 .f32).view.loc (V d (cV L) (jV L)))),
      View.write (Elt F) (b4 : Memref sig .scVector .vmem S10240 .f32).view f (ReadAs.same.apply (View.read (Elt F) (hRowK L 0).view (htA d))) Finset.univ = hrow (htA d) (e128 ((cL L, iL L), 0)))
    (hH1 : ∀ (d : Dev nD) (L : grid2.Coords) (f : Buf (Elt F) ((b5 : Memref sig .scVector .vmem S10240 .f32).view.loc (V d (cV L) (jV L)))),
      View.write (Elt F) (b5 : Memref sig .scVector .vmem S10240 .f32).view f (ReadAs.same.apply (View.read (Elt F) (hRowK L 1).view (htA d))) Finset.univ = hrow (htA d) (e128 ((cL L, iL L), 1)))
    (hH2 : ∀ (d : Dev nD) (L : grid2.Coords) (f : Buf (Elt F) ((b6 : Memref sig .scVector .vmem S10240 .f32).view.loc (V d (cV L) (jV L)))),
      View.write (Elt F) (b6 : Memref sig .scVector .vmem S10240 .f32).view f (ReadAs.same.apply (View.read (Elt F) (hRowK L 2).view (htA d))) Finset.univ = hrow (htA d) (e128 ((cL L, iL L), 2)))
    (hH3 : ∀ (d : Dev nD) (L : grid2.Coords) (f : Buf (Elt F) ((b7 : Memref sig .scVector .vmem S10240 .f32).view.loc (V d (cV L) (jV L)))),
      View.write (Elt F) (b7 : Memref sig .scVector .vmem S10240 .f32).view f (ReadAs.same.apply (View.read (Elt F) (hRowK L 3).view (htA d))) Finset.univ = hrow (htA d) (e128 ((cL L, iL L), 3)))
    (hZ0 : ∀ (d : Dev nD) (L : grid2.Coords) (f : Buf (Elt F) ((b8 : Memref sig .scVector .vmem S10256 .f32).view.loc (V d (cV L) (jV L)))),
      View.write (Elt F) (b8 : Memref sig .scVector .vmem S10256 .f32).view f (ReadAs.same.apply (View.read (Elt F) (aZ : Memref sig .scVector .hbm S10256 .f32).view (fz d))) Finset.univ = fz d)
    (hZ1 : ∀ (d : Dev nD) (L : grid2.Coords) (f : Buf (Elt F) ((b9 : Memref sig .scVector .vmem S10256 .f32).view.loc (V d (cV L) (jV L)))),
      View.write (Elt F) (b9 : Memref sig .scVector .vmem S10256 .f32).view f (ReadAs.same.apply (View.read (Elt F) (aZ : Memref sig .scVector .hbm S10256 .f32).view (fz d))) Finset.univ = fz d)
    (hZ2 : ∀ (d : Dev nD) (L : grid2.Coords) (f : Buf (Elt F) ((b10 : Memref sig .scVector .vmem S10256 .f32).view.loc (V d (cV L) (jV L)))),
      View.write (Elt F) (b10 : Memref sig .scVector .vmem S10256 .f32).view f (ReadAs.same.apply (View.read (Elt F) (aZ : Memref sig .scVector .hbm S10256 .f32).view (fz d))) Finset.univ = fz d)
    (hZ3 : ∀ (d : Dev nD) (L : grid2.Coords) (f : Buf (Elt F) ((b11 : Memref sig .scVector .vmem S10256 .f32).view.loc (V d (cV L) (jV L)))),
      View.write (Elt F) (b11 : Memref sig .scVector .vmem S10256 .f32).view f (ReadAs.same.apply (View.read (Elt F) (aZ : Memref sig .scVector .hbm S10256 .f32).view (fz d))) Finset.univ = fz d)
    (hG0 : ∀ (d : Dev nD) (L : grid2.Coords) (a : Buf (Elt F) (aggLoc d)), ∀ i ∈ (gRowK L 0).view.set,
      (gRowK L 0).view.writes (Elt F) a [⟨Rect.whole S10240, ReadAs.same.apply (View.read (Elt F)
        ((b8 : Memref sig .scVector .vmem S10256 .f32).slice (Rect.unit (s := S10256) ![0] S10240.size inb_S10256_S10240_0) (fun _ => rfl)).view (accAfter (grp (fs d)) (grp (fd d)) (hrow (htA d) (e128 ((cL L, iL L), 0))) (fz d) (20480)))⟩] i = aggA d i)
    (hG1 : ∀ (d : Dev nD) (L : grid2.Coords) (a : Buf (Elt F) (aggLoc d)), ∀ i ∈ (gRowK L 1).view.set,
      (gRowK L 1).view.writes (Elt F) a [⟨Rect.whole S10240, ReadAs.same.apply (View.read (Elt F)
        ((b9 : Memref sig .scVector .vmem S10256 .f32).slice (Rect.unit (s := S10256) ![0] S10240.size inb_S10256_S10240_0) (fun _ => rfl)).view (accAfter (grp (fs d)) (grp (fd d)) (hrow (htA d) (e128 ((cL L, iL L), 1))) (fz d) (20480)))⟩] i = aggA d i)
    (hG2 : ∀ (d : Dev nD) (L : grid2.Coords) (a : Buf (Elt F) (aggLoc d)), ∀ i ∈ (gRowK L 2).view.set,
      (gRowK L 2).view.writes (Elt F) a [⟨Rect.whole S10240, ReadAs.same.apply (View.read (Elt F)
        ((b10 : Memref sig .scVector .vmem S10256 .f32).slice (Rect.unit (s := S10256) ![0] S10240.size inb_S10256_S10240_0) (fun _ => rfl)).view (accAfter (grp (fs d)) (grp (fd d)) (hrow (htA d) (e128 ((cL L, iL L), 2))) (fz d) (20480)))⟩] i = aggA d i)
    (hG3 : ∀ (d : Dev nD) (L : grid2.Coords) (a : Buf (Elt F) (aggLoc d)), ∀ i ∈ (gRowK L 3).view.set,
      (gRowK L 3).view.writes (Elt F) a [⟨Rect.whole S10240, ReadAs.same.apply (View.read (Elt F)
        ((b11 : Memref sig .scVector .vmem S10256 .f32).slice (Rect.unit (s := S10256) ![0] S10240.size inb_S10256_S10240_0) (fun _ => rfl)).view (accAfter (grp (fs d)) (grp (fd d)) (hrow (htA d) (e128 ((cL L, iL L), 3))) (fz d) (20480)))⟩] i = aggA d i)
    : TileBodyV (F := F) fs fd fz htA aggA := by
  intro d L O W hO
  have ht1 : Scf.trips k2_t1_loop.lb k2_t1_loop.ub k2_t1_loop.st = 159 := by decide
  have ht4 : Scf.trips k2_t4_loop.lb k2_t4_loop.ub k2_t4_loop.st = 64 := by decide
  have ht5 : Scf.trips k2_t5_loop.lb k2_t5_loop.ub k2_t5_loop.st = 64 := by decide
  have eA : ∀ k : Fin 4, accAfter (grp (fs d)) (grp (fd d)) (hrow (htA d) (e128 ((cL L, iL L), k))) (fz d) (128 * Scf.trips k2_t1_loop.lb k2_t1_loop.ub k2_t1_loop.st) = accAfter (grp (fs d)) (grp (fd d)) (hrow (htA d) (e128 ((cL L, iL L), k))) (fz d) (64 * 318 + 0) :=
    fun k => congrArg (accAfter (grp (fs d)) (grp (fd d)) (hrow (htA d) (e128 ((cL L, iL L), k))) (fz d)) (by omega)
  have eB : ∀ k : Fin 4, accAfter (grp (fs d)) (grp (fd d)) (hrow (htA d) (e128 ((cL L, iL L), k))) (fz d) (64 * 318 + Scf.trips k2_t4_loop.lb k2_t4_loop.ub k2_t4_loop.st) = accAfter (grp (fs d)) (grp (fd d)) (hrow (htA d) (e128 ((cL L, iL L), k))) (fz d) (64 * 319 + 0) :=
    fun k => congrArg (accAfter (grp (fs d)) (grp (fd d)) (hrow (htA d) (e128 ((cL L, iL L), k))) (fz d)) (by omega)
  have eC : ∀ k : Fin 4, accAfter (grp (fs d)) (grp (fd d)) (hrow (htA d) (e128 ((cL L, iL L), k))) (fz d) (64 * 319 + Scf.trips k2_t5_loop.lb k2_t5_loop.ub k2_t5_loop.st) = accAfter (grp (fs d)) (grp (fd d)) (hrow (htA d) (e128 ((cL L, iL L), k))) (fz d) (20480) :=
    fun k => congrArg (accAfter (grp (fs d)) (grp (fd d)) (hrow (htA d) (e128 ((cL L, iL L), k))) (fz d)) (by omega)
  simp only [cc2__agg_sc_eq_skeleton]; unfold cc2__agg_sc_skel
  rw [(K (F := F)).scopedBufs_V facts d (cV L) (jV L), SparseCore.Cfg.scopedSems0_V (Val := Elt F) d (cV L) (jV L), ownSems0_V, ownBufs_V]
  unfold go1v td1v reads
  rw [bigSep_fin4, bigSep_fin4, bigSep_fin4]
  iintro ⟨#Hlv, -, ⟨⟨HS, HD, HZ⟩, ⟨HH0, HH1, HH2, HH3⟩, ⟨⟨%a0, HG0⟩, ⟨%a1, HG1⟩, ⟨%a2, HG2⟩, ⟨%a3, HG3⟩⟩⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, Hbufs⟩, ⟨Hs0, Hs1, Hs2, Hs3, Hs4, Hs5, Hs6, Hs7, Hs8, Hs9, Hs10, Hs11, Hs12, Hs13, Hs14, Hs15, Hsems⟩, HO⟩
  ihave Hmw := ((K (F := F)).mayWaits_none (thr := (V d (cV L) (jV L))) hO) $$ Hlv
  ihave HSs := ((pointsTo_share (PosShare.mem_left_op_right (qW L))).1) $$ HS
  icases HSs with ⟨HSl, HSr⟩
  ihave HDs := ((pointsTo_share (PosShare.mem_left_op_right (qW L))).1) $$ HD
  icases HDs with ⟨HDl, HDr⟩
  ihave HH0' := (Entails.of_eq (pts_hRowE (F := F) d L 0 _).symm) $$ HH0
  ihave HH1' := (Entails.of_eq (pts_hRowE (F := F) d L 1 _).symm) $$ HH1
  ihave HH2' := (Entails.of_eq (pts_hRowE (F := F) d L 2 _).symm) $$ HH2
  ihave HH3' := (Entails.of_eq (pts_hRowE (F := F) d L 3 _).symm) $$ HH3
  ihave HG0' := (Entails.of_eq (pts_gRowE (F := F) d L 0 _).symm) $$ HG0
  ihave HG1' := (Entails.of_eq (pts_gRowE (F := F) d L 1 _).symm) $$ HG1
  ihave HG2' := (Entails.of_eq (pts_gRowE (F := F) d L 2 _).symm) $$ HG2
  ihave HG3' := (Entails.of_eq (pts_gRowE (F := F) d L 3 _).symm) $$ HG3
  ihave H0' := (Entails.of_eq (pts_b0 (F := F) d L _).symm) $$ H0
  ihave H1' := (Entails.of_eq (pts_b1 (F := F) d L _).symm) $$ H1
  ihave H2' := (Entails.of_eq (pts_b2 (F := F) d L _).symm) $$ H2
  ihave H3' := (Entails.of_eq (pts_b3 (F := F) d L _).symm) $$ H3
  ihave H4' := (Entails.of_eq (pts_b4 (F := F) d L _).symm) $$ H4
  ihave H5' := (Entails.of_eq (pts_b5 (F := F) d L _).symm) $$ H5
  ihave H6' := (Entails.of_eq (pts_b6 (F := F) d L _).symm) $$ H6
  ihave H7' := (Entails.of_eq (pts_b7 (F := F) d L _).symm) $$ H7
  ihave H8' := (Entails.of_eq (pts_b8 (F := F) d L _).symm) $$ H8
  ihave H9' := (Entails.of_eq (pts_b9 (F := F) d L _).symm) $$ H9
  ihave H10' := (Entails.of_eq (pts_b10 (F := F) d L _).symm) $$ H10
  ihave H11' := (Entails.of_eq (pts_b11 (F := F) d L _).symm) $$ H11
  ihave HZ' := (Entails.of_eq (pts_aZ (F := F) d L _ _).symm) $$ HZ
  ihave HSl' := (Entails.of_eq (pts_aS (F := F) d L _ _).symm) $$ HSl
  ihave HSr' := (Entails.of_eq (pts_aS (F := F) d L _ _).symm) $$ HSr
  ihave HDl' := (Entails.of_eq (pts_aD (F := F) d L _ _).symm) $$ HDl
  ihave HDr' := (Entails.of_eq (pts_aD (F := F) d L _ _).symm) $$ HDr
  sl_exec
  ihave Hf0 := (Flight_absorb (F := F)) $$ [Hs0 HSl']
  · isplitl [Hs0]; · iexact Hs0
    iexact HSl'
  ihave Hf2 := (Flight_absorb (F := F)) $$ [Hs2 HDl']
  · isplitl [Hs2]; · iexact Hs2
    iexact HDl'
  ihave Hf1 := (Flight_absorb (F := F)) $$ [Hs1 HSr']
  · isplitl [Hs1]; · iexact Hs1
    iexact HSr'
  ihave Hf3 := (Flight_absorb (F := F)) $$ [Hs3 HDr']
  · isplitl [Hs3]; · iexact Hs3
    iexact HDr'
  ihave H4 := (pt_cast (F := F) (hH0 d L _)) $$ H4'
  ihave H5 := (pt_cast (F := F) (hH1 d L _)) $$ H5'
  ihave H6 := (pt_cast (F := F) (hH2 d L _)) $$ H6'
  ihave H7 := (pt_cast (F := F) (hH3 d L _)) $$ H7'
  ihave H8 := (pt_cast (F := F) (hZ0 d L _)) $$ H8'
  ihave H9 := (pt_cast (F := F) (hZ1 d L _)) $$ H9'
  ihave H10 := (pt_cast (F := F) (hZ2 d L _)) $$ H10'
  ihave H11 := (pt_cast (F := F) (hZ3 d L _)) $$ H11'
  sl_for (mainInvV (F := F) fs fd d L O W (hrow (htA d) (e128 ((cL L, iL L), 0))) (hrow (htA d) (e128 ((cL L, iL L), 1))) (hrow (htA d) (e128 ((cL L, iL L), 2))) (hrow (htA d) (e128 ((cL L, iL L), 3))) (fz d)) $$ [Hmw Hf0 Hf2 Hf1 Hf3 H4 H5 H6 H7 H8 H9 H10 H11 HO]
  case region =>
    intro k acc
    exact main_trip_v (F := F) fs fd d L hRs hRd O W _ _ _ _ _ _ k acc
  · unfold mainInvV
    isplitr; · iexact Hmw
    isplitl [Hf0]
    · iexists _; isplitr
      swap
      · iexact Hf0
      · ipureintro; exact isChunk_write_b0 (F := F) d L _ (fs d) _ _ (2 * 0) rfl
    isplitl [Hf2]
    · iexists _; isplitr
      swap
      · iexact Hf2
      · ipureintro; exact isChunk_write_b2 (F := F) d L _ (fd d) _ _ (2 * 0) rfl
    isplitl [Hf1]
    · iexists _; isplitr
      swap
      · iexact Hf1
      · ipureintro; exact isChunk_write_b1 (F := F) d L _ (fs d) _ _ (2 * 0 + 1) rfl
    isplitl [Hf3]
    · iexists _; isplitr
      swap
      · iexact Hf3
      · ipureintro; exact isChunk_write_b3 (F := F) d L _ (fd d) _ _ (2 * 0 + 1) rfl
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; isplitr
    swap
    · iexact HO
    · ipureintro; intro p hp
      repeat (rcases Finset.mem_insert.mp hp with rfl | hp; · exact .inr rfl)
      exact .inl hp
  iintro %_ HI
  unfold mainInvV
  icases HI with ⟨-, ⟨%c0, %hc0, Hf0⟩, ⟨%c2, %hc2, Hf2⟩, ⟨%c1, %hc1, Hf1⟩, ⟨%c3, %hc3, Hf3⟩, H4, H5, H6, H7, H8, H9, H10, H11, %W', %hW', HO⟩
  rw [ht1] at hc0 hc2 hc1 hc3
  sl_exec
  ihave H8a := (pt_cast (F := F) (eA 0)) $$ H8
  ihave H9a := (pt_cast (F := F) (eA 1)) $$ H9
  ihave H10a := (pt_cast (F := F) (eA 2)) $$ H10
  ihave H11a := (pt_cast (F := F) (eA 3)) $$ H11
  sl_for (procInvV (F := F) fs fd d L b0 b2 c0 c2 (hrow (htA d) (e128 ((cL L, iL L), 0))) (hrow (htA d) (e128 ((cL L, iL L), 1))) (hrow (htA d) (e128 ((cL L, iL L), 2))) (hrow (htA d) (e128 ((cL L, iL L), 3))) (fz d) (64 * 318)) $$ [Hf0_dst Hf2_dst H4 H5 H6 H7 H8a H9a H10a H11a]
  case region =>
    intro k acc
    exact proc_trip_t4v (F := F) fs fd d L hRs hRd c0 c2 318 hc0 hc2 _ _ _ _ _ _ k acc
  · unfold procInvV
    isplitl [Hf0_dst]; · iexact Hf0_dst
    isplitl [Hf2_dst]; · iexact Hf2_dst
    isplitl [H4]; · iexact H4
    isplitl [H5]; · iexact H5
    isplitl [H6]; · iexact H6
    isplitl [H7]; · iexact H7
    isplitl [H8a]; · iexact H8a
    isplitl [H9a]; · iexact H9a
    isplitl [H10a]; · iexact H10a
    iexact H11a
  iintro %_ HI
  unfold procInvV
  icases HI with ⟨H0, H2, H4, H5, H6, H7, H8, H9, H10, H11⟩
  ihave H8b := (pt_cast (F := F) (eB 0)) $$ H8
  ihave H9b := (pt_cast (F := F) (eB 1)) $$ H9
  ihave H10b := (pt_cast (F := F) (eB 2)) $$ H10
  ihave H11b := (pt_cast (F := F) (eB 3)) $$ H11
  sl_exec
  sl_for (procInvV (F := F) fs fd d L b1 b3 c1 c3 (hrow (htA d) (e128 ((cL L, iL L), 0))) (hrow (htA d) (e128 ((cL L, iL L), 1))) (hrow (htA d) (e128 ((cL L, iL L), 2))) (hrow (htA d) (e128 ((cL L, iL L), 3))) (fz d) (64 * 319)) $$ [Hf1_dst Hf3_dst H4 H5 H6 H7 H8b H9b H10b H11b]
  case region =>
    intro k acc
    exact proc_trip_t5v (F := F) fs fd d L hRs hRd c1 c3 319 hc1 hc3 _ _ _ _ _ _ k acc
  · unfold procInvV
    isplitl [Hf1_dst]; · iexact Hf1_dst
    isplitl [Hf3_dst]; · iexact Hf3_dst
    isplitl [H4]; · iexact H4
    isplitl [H5]; · iexact H5
    isplitl [H6]; · iexact H6
    isplitl [H7]; · iexact H7
    isplitl [H8b]; · iexact H8b
    isplitl [H9b]; · iexact H9b
    isplitl [H10b]; · iexact H10b
    iexact H11b
  iintro %_ HI
  unfold procInvV
  icases HI with ⟨H1, H3, H4, H5, H6, H7, H8, H9, H10, H11⟩
  ihave H8c := (pt_cast (F := F) (eC 0)) $$ H8
  ihave H9c := (pt_cast (F := F) (eC 1)) $$ H9
  ihave H10c := (pt_cast (F := F) (eC 2)) $$ H10
  ihave H11c := (pt_cast (F := F) (eC 3)) $$ H11
  sl_exec
  sl_step
  ihave HSj := ((pointsTo_share (PosShare.mem_left_op_right (qW L))).2) $$ [Hf0_src Hf1_src]
  · isplitl [Hf0_src]; · iexact Hf0_src
    iexact Hf1_src
  ihave HDj := ((pointsTo_share (PosShare.mem_left_op_right (qW L))).2) $$ [Hf2_src Hf3_src]
  · isplitl [Hf2_src]; · iexact Hf2_src
    iexact Hf3_src
  isplitl [HSj HDj HZ' HH0' HH1' HH2' HH3' HG0' HG1' HG2' HG3']
  · isplitl [HSj HDj HZ']
    · isplitl [HSj]; · iexact HSj
      isplitl [HDj]; · iexact HDj
      iexact HZ'
    isplitl [HH0' HH1' HH2' HH3']
    · isplitl [HH0']; · iapply (Entails.of_eq (pts_hRowE (F := F) d L 0 _)); iexact HH0'
      isplitl [HH1']; · iapply (Entails.of_eq (pts_hRowE (F := F) d L 1 _)); iexact HH1'
      isplitl [HH2']; · iapply (Entails.of_eq (pts_hRowE (F := F) d L 2 _)); iexact HH2'
      iapply (Entails.of_eq (pts_hRowE (F := F) d L 3 _)); iexact HH3'
    · isplitl [HG0']
      · iapply (Entails.of_eq (pts_gRowE (F := F) d L 0 _))
        iapply (Entails.of_eq (pointsTo_congr (hG0 d L a0)))
        iexact HG0'
      isplitl [HG1']
      · iapply (Entails.of_eq (pts_gRowE (F := F) d L 1 _))
        iapply (Entails.of_eq (pointsTo_congr (hG1 d L a1)))
        iexact HG1'
      isplitl [HG2']
      · iapply (Entails.of_eq (pts_gRowE (F := F) d L 2 _))
        iapply (Entails.of_eq (pointsTo_congr (hG2 d L a2)))
        iexact HG2'
      iapply (Entails.of_eq (pts_gRowE (F := F) d L 3 _))
      iapply (Entails.of_eq (pointsTo_congr (hG3 d L a3)))
      iexact HG3'
  isplitl [H0 H1 H2 H3 H4 H5 H6 H7 H8c H9c H10c H11c Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8c]; · iexists _; iexact H8c
    isplitl [H9c]; · iexists _; iexact H9c
    isplitl [H10c]; · iexists _; iexact H10c
    isplitl [H11c]; · iexists _; iexact H11c
    iexact Hbufs
  isplitl [Hf0 Hf1 Hf2 Hf3 Hs4 Hs5 Hs6 Hs7 Hs8 Hs9 Hs10 Hs11 Hs12 Hs13 Hs14 Hs15 Hsems]
  · isplitl [Hf0]; · iexact Hf0
    isplitl [Hf1]; · iexact Hf1
    isplitl [Hf2]; · iexact Hf2
    isplitl [Hf3]; · iexact Hf3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    iexact Hsems
  iexists _; isplitr
  swap
  · iexact HO
  · ipureintro; intro p hp
    repeat (rcases Finset.mem_insert.mp hp with rfl | hp; · exact .inr rfl)
    exact hW' p hp

end OuterV
end VT1
end Cert.KernelIdeal.Run
-- ==== Proof.VT1Geom.lean ====
/-
  Where the second task's row slices land: the r-th of a worker's four squeezed row slices of a 128-row array, read at
  position x, is the array's entry (4·(worker number) + r, x).
-/
import proofs.«207969_g80633716015134_cont_9to1_m_1245_11_alg».proof.Proof.KTile1Setup
import proofs.«207969_g80633716015134_cont_9to1_m_1245_11_alg».proof.Proof.KSplit
import Idealize.ShloMosaic.Lib.ValueIdx

noncomputable section

namespace Cert.KernelIdeal.Run

open Cert.KernelIdeal Cert.KernelIdeal.Gen
open Idealize.ShloMosaic Idealize.ShloMosaic.ValueIdx Idealize.SL.Sem

namespace VT1

open T1

/-- The kernel's r-th row rectangle at a squeezed position: row 4·(2·subcore + core) + r, column the position. -/
theorem rowK_emb (L : grid2.Coords) (r : Fin 4) (x : S10240.Idx) :
    (rowK L r).emb (Shape.reshapeEquiv squeezes_S1x10240_S10240.numel_eq x) = ix2 (e128 ((cL L, iL L), r)) (x 0) := by
  have hx : Shape.reshapeEquiv squeezes_S1x10240_S10240.numel_eq x = Fin.cons ⟨0, Nat.one_pos⟩ x :=
    Shape.reshapeEquiv_cons_one (n := 1) (d := ![10240]) _ x
  rw [hx]
  have hr := r.isLt
  funext a
  apply Fin.ext
  rw [Rect.emb_apply]
  match a with
  | ⟨0, _⟩ =>
    show (k2_off1 L (BitVec.ofNat 32 r.val)) 0 + 1 * 0 = 4 * wid (cL L).val (iL L).val + r.val
    rw [k2_off1_eq]
    simp [wid]; omega
  | ⟨1, _⟩ =>
    show (k2_off1 L (BitVec.ofNat 32 r.val)) 1 + 1 * (x 0).val = (x 0).val
    rw [k2_off1_eq]
    simp

theorem emb_hRow (L : grid2.Coords) (r : Fin 4) (x : S10240.Idx) :
    (hRowK L r).view.emb x = ix2 (e128 ((cL L, iL L), r)) (x 0) := by
  show (((aH : Memref sig .scVector .hbm S128x10240 .f32).view.slice (rowK L r)).reshape S10240 squeezes_S1x10240_S10240.numel_eq).emb x = _
  rw [View.emb_reshape, View.emb_slice]
  exact rowK_emb L r x

theorem emb_gRow (L : grid2.Coords) (r : Fin 4) (x : S10240.Idx) :
    (gRowK L r).view.emb x = ix2 (e128 ((cL L, iL L), r)) (x 0) := by
  show (((aG : Memref sig .scVector .hbm S128x10240 .f32).view.slice (rowK L r)).reshape S10240 squeezes_S1x10240_S10240.numel_eq).emb x = _
  rw [View.emb_reshape, View.emb_slice]
  exact rowK_emb L r x

end VT1

end Cert.KernelIdeal.Run

end
-- ==== Proof.VTile1Final.lean ====
import proofs.«207969_g80633716015134_cont_9to1_m_1245_11_alg».proof.Proof.VTile1Outer
import proofs.«207969_g80633716015134_cont_9to1_m_1245_11_alg».proof.Proof.VT1Geom

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx
open T1

variable {F : FTy → Type}

local notation "𝕄" => MT nD τ sig (HIx 2) (Elt F) ℕ UU ℕ

namespace VT1

section GeomV

variable [FloatOps F]
variable (fs : (d : Dev nD) → Buf (Elt F) (srcLoc d)) (fd : (d : Dev nD) → Buf (Elt F) (dstLoc d)) (fz : (d : Dev nD) → Buf (Elt F) (zeroLoc d))
  (htA : (d : Dev nD) → Buf (Elt F) (htLoc d))

/-- The aggregate the second call leaves: entry (r, n) is entry n of the accumulator of row r after all 20480 groups. -/
def aggAofT (d : Dev nD) : Buf (Elt F) (aggLoc d) :=
  fun (j : S128x10240.Idx) => accAfter (grp (fs d)) (grp (fd d)) (hrow (htA d) (j 0)) (fz d) 20480
    (ix1 ⟨(j 1).val, Nat.lt_of_lt_of_le (j 1).isLt (show S128x10240.size 1 ≤ 10256 by decide)⟩)

/-- The same, taking the two range facts of the index arrays (the recursion's steps are total, so they are not used). -/
def aggAof (_hRs : ∀ (d : Dev nD) (j : (srcLoc d).ty.Idx), (fs d j).toNat < 10000)
    (_hRd : ∀ (d : Dev nD) (j : (dstLoc d).ty.Idx), (fd d j).toNat < 10000) (d : Dev nD) : Buf (Elt F) (aggLoc d) :=
  aggAofT fs fd fz htA d

theorem aggAof_apply (hRs : ∀ (d : Dev nD) (j : (srcLoc d).ty.Idx), (fs d j).toNat < 10000)
    (hRd : ∀ (d : Dev nD) (j : (dstLoc d).ty.Idx), (fd d j).toNat < 10000) (d : Dev nD) (r : Fin 128) (n : Fin 10240) :
    aggAof fs fd fz htA hRs hRd d (ix2 r n)
      = accAfter (grp (fs d)) (grp (fd d)) (hrow (htA d) r) (fz d) 20480 (ix1 (⟨n.val, Nat.lt_of_lt_of_le n.isLt (by decide)⟩ : Fin 10256)) := rfl

variable (d : Dev nD) (L : grid2.Coords)

theorem wrH0 (f : Buf (Elt F) ((b4 : Memref sig .scVector .vmem S10240 .f32).view.loc (V d (cV L) (jV L)))) :
    View.write (Elt F) (b4 : Memref sig .scVector .vmem S10240 .f32).view f (ReadAs.same.apply (View.read (Elt F) (hRowK L 0).view (htA d))) Finset.univ
      = hrow (htA d) (e128 ((cL L, iL L), 0)) := by
  funext x
  have e := View.write_emb_of_mem (Val := Elt F) (v := (b4 : Memref sig .scVector .vmem S10240 .f32).view) f
    (ReadAs.same.apply (View.read (Elt F) (hRowK L 0).view (htA d))) (M := Finset.univ) (x := x) (Finset.mem_univ _)
  have e' : (b4 : Memref sig .scVector .vmem S10240 .f32).view.emb x = x := rfl
  rw [e'] at e
  rw [e]
  show htA d ((hRowK L 0).view.emb x) = _
  rw [emb_hRow]
  rfl

theorem wrH1 (f : Buf (Elt F) ((b5 : Memref sig .scVector .vmem S10240 .f32).view.loc (V d (cV L) (jV L)))) :
    View.write (Elt F) (b5 : Memref sig .scVector .vmem S10240 .f32).view f (ReadAs.same.apply (View.read (Elt F) (hRowK L 1).view (htA d))) Finset.univ
      = hrow (htA d) (e128 ((cL L, iL L), 1)) := by
  funext x
  have e := View.write_emb_of_mem (Val := Elt F) (v := (b5 : Memref sig .scVector .vmem S10240 .f32).view) f
    (ReadAs.same.apply (View.read (Elt F) (hRowK L 1).view (htA d))) (M := Finset.univ) (x := x) (Finset.mem_univ _)
  have e' : (b5 : Memref sig .scVector .vmem S10240 .f32).view.emb x = x := rfl
  rw [e'] at e
  rw [e]
  show htA d ((hRowK L 1).view.emb x) = _
  rw [emb_hRow]
  rfl

theorem wrH2 (f : Buf (Elt F) ((b6 : Memref sig .scVector .vmem S10240 .f32).view.loc (V d (cV L) (jV L)))) :
    View.write (Elt F) (b6 : Memref sig .scVector .vmem S10240 .f32).view f (ReadAs.same.apply (View.read (Elt F) (hRowK L 2).view (htA d))) Finset.univ
      = hrow (htA d) (e128 ((cL L, iL L), 2)) := by
  funext x
  have e := View.write_emb_of_mem (Val := Elt F) (v := (b6 : Memref sig .scVector .vmem S10240 .f32).view) f
    (ReadAs.same.apply (View.read (Elt F) (hRowK L 2).view (htA d))) (M := Finset.univ) (x := x) (Finset.mem_univ _)
  have e' : (b6 : Memref sig .scVector .vmem S10240 .f32).view.emb x = x := rfl
  rw [e'] at e
  rw [e]
  show htA d ((hRowK L 2).view.emb x) = _
  rw [emb_hRow]
  rfl

theorem wrH3 (f : Buf (Elt F) ((b7 : Memref sig .scVector .vmem S10240 .f32).view.loc (V d (cV L) (jV L)))) :
    View.write (Elt F) (b7 : Memref sig .scVector .vmem S10240 .f32).view f (ReadAs.same.apply (View.read (Elt F) (hRowK L 3).view (htA d))) Finset.univ
      = hrow (htA d) (e128 ((cL L, iL L), 3)) := by
  funext x
  have e := View.write_emb_of_mem (Val := Elt F) (v := (b7 : Memref sig .scVector .vmem S10240 .f32).view) f
    (ReadAs.same.apply (View.read (Elt F) (hRowK L 3).view (htA d))) (M := Finset.univ) (x := x) (Finset.mem_univ _)
  have e' : (b7 : Memref sig .scVector .vmem S10240 .f32).view.emb x = x := rfl
  rw [e'] at e
  rw [e]
  show htA d ((hRowK L 3).view.emb x) = _
  rw [emb_hRow]
  rfl

theorem wrZ0 (f : Buf (Elt F) ((b8 : Memref sig .scVector .vmem S10256 .f32).view.loc (V d (cV L) (jV L)))) :
    View.write (Elt F) (b8 : Memref sig .scVector .vmem S10256 .f32).view f (ReadAs.same.apply (View.read (Elt F) (aZ : Memref sig .scVector .hbm S10256 .f32).view (fz d))) Finset.univ = fz d := by
  funext x
  have e := View.write_emb_of_mem (Val := Elt F) (v := (b8 : Memref sig .scVector .vmem S10256 .f32).view) f
    (ReadAs.same.apply (View.read (Elt F) (aZ : Memref sig .scVector .hbm S10256 .f32).view (fz d))) (M := Finset.univ) (x := x) (Finset.mem_univ _)
  have e' : (b8 : Memref sig .scVector .vmem S10256 .f32).view.emb x = x := rfl
  rw [e'] at e
  rw [e]
  rfl

theorem wrZ1 (f : Buf (Elt F) ((b9 : Memref sig .scVector .vmem S10256 .f32).view.loc (V d (cV L) (jV L)))) :
    View.write (Elt F) (b9 : Memref sig .scVector .vmem S10256 .f32).view f (ReadAs.same.apply (View.read (Elt F) (aZ : Memref sig .scVector .hbm S10256 .f32).view (fz d))) Finset.univ = fz d := by
  funext x
  have e := View.write_emb_of_mem (Val := Elt F) (v := (b9 : Memref sig .scVector .vmem S10256 .f32).view) f
    (ReadAs.same.apply (View.read (Elt F) (aZ : Memref sig .scVector .hbm S10256 .f32).view (fz d))) (M := Finset.univ) (x := x) (Finset.mem_univ _)
  have e' : (b9 : Memref sig .scVector .vmem S10256 .f32).view.emb x = x := rfl
  rw [e'] at e
  rw [e]
  rfl

theorem wrZ2 (f : Buf (Elt F) ((b10 : Memref sig .scVector .vmem S10256 .f32).view.loc (V d (cV L) (jV L)))) :
    View.write (Elt F) (b10 : Memref sig .scVector .vmem S10256 .f32).view f (ReadAs.same.apply (View.read (Elt F) (aZ : Memref sig .scVector .hbm S10256 .f32).view (fz d))) Finset.univ = fz d := by
  funext x
  have e := View.write_emb_of_mem (Val := Elt F) (v := (b10 : Memref sig .scVector .vmem S10256 .f32).view) f
    (ReadAs.same.apply (View.read (Elt F) (aZ : Memref sig .scVector .hbm S10256 .f32).view (fz d))) (M := Finset.univ) (x := x) (Finset.mem_univ _)
  have e' : (b10 : Memref sig .scVector .vmem S10256 .f32).view.emb x = x := rfl
  rw [e'] at e
  rw [e]
  rfl

theorem wrZ3 (f : Buf (Elt F) ((b11 : Memref sig .scVector .vmem S10256 .f32).view.loc (V d (cV L) (jV L)))) :
    View.write (Elt F) (b11 : Memref sig .scVector .vmem S10256 .f32).view f (ReadAs.same.apply (View.read (Elt F) (aZ : Memref sig .scVector .hbm S10256 .f32).view (fz d))) Finset.univ = fz d := by
  funext x
  have e := View.write_emb_of_mem (Val := Elt F) (v := (b11 : Memref sig .scVector .vmem S10256 .f32).view) f
    (ReadAs.same.apply (View.read (Elt F) (aZ : Memref sig .scVector .hbm S10256 .f32).view (fz d))) (M := Finset.univ) (x := x) (Finset.mem_univ _)
  have e' : (b11 : Memref sig .scVector .vmem S10256 .f32).view.emb x = x := rfl
  rw [e'] at e
  rw [e]
  rfl

theorem wrG0 (a : Buf (Elt F) (aggLoc d)) :
    ∀ i ∈ (gRowK L 0).view.set,
      (gRowK L 0).view.writes (Elt F) a [⟨Rect.whole S10240, ReadAs.same.apply (View.read (Elt F)
        ((b8 : Memref sig .scVector .vmem S10256 .f32).slice (Rect.unit (s := S10256) ![0] S10240.size inb_S10256_S10240_0) (fun _ => rfl)).view
          (accAfter (grp (fs d)) (grp (fd d)) (hrow (htA d) (e128 ((cL L, iL L), 0))) (fz d) 20480))⟩] i
        = aggAofT fs fd fz htA d i := by
  intro i hi
  obtain ⟨x, -, rfl⟩ := Finset.mem_map.mp hi
  rw [View.writes_singleton]
  have e1 : ((gRowK L 0).view.slice (Rect.whole S10240)).emb x = (gRowK L 0).view.emb x := by
    show (gRowK L 0).view.emb ((Rect.whole S10240).emb x) = _
    rw [Rect.emb_whole_apply]
  have e2 := View.write_emb_of_mem (Val := Elt F) (v := (gRowK L 0).view.slice (Rect.whole S10240)) a
    (ReadAs.same.apply (View.read (Elt F)
        ((b8 : Memref sig .scVector .vmem S10256 .f32).slice (Rect.unit (s := S10256) ![0] S10240.size inb_S10256_S10240_0) (fun _ => rfl)).view
          (accAfter (grp (fs d)) (grp (fd d)) (hrow (htA d) (e128 ((cL L, iL L), 0))) (fz d) 20480)))
    (M := Finset.univ) (x := x) (Finset.mem_univ _)
  rw [e1] at e2
  rw [e2, emb_gRow]
  show accAfter (grp (fs d)) (grp (fd d)) (hrow (htA d) (e128 ((cL L, iL L), 0))) (fz d) 20480 _ = _
  congr 1
  refine funext fun (a : Fin 1) => ?_
  obtain rfl : a = 0 := Subsingleton.elim _ _
  apply Fin.ext
  first
    | (show 0 + 1 * (x 0).val = (x 0).val; omega)
    | (simp [Rect.idx, Rect.unit])

theorem wrG1 (a : Buf (Elt F) (aggLoc d)) :
    ∀ i ∈ (gRowK L 1).view.set,
      (gRowK L 1).view.writes (Elt F) a [⟨Rect.whole S10240, ReadAs.same.apply (View.read (Elt F)
        ((b9 : Memref sig .scVector .vmem S10256 .f32).slice (Rect.unit (s := S10256) ![0] S10240.size inb_S10256_S10240_0) (fun _ => rfl)).view
          (accAfter (grp (fs d)) (grp (fd d)) (hrow (htA d) (e128 ((cL L, iL L), 1))) (fz d) 20480))⟩] i
        = aggAofT fs fd fz htA d i := by
  intro i hi
  obtain ⟨x, -, rfl⟩ := Finset.mem_map.mp hi
  rw [View.writes_singleton]
  have e1 : ((gRowK L 1).view.slice (Rect.whole S10240)).emb x = (gRowK L 1).view.emb x := by
    show (gRowK L 1).view.emb ((Rect.whole S10240).emb x) = _
    rw [Rect.emb_whole_apply]
  have e2 := View.write_emb_of_mem (Val := Elt F) (v := (gRowK L 1).view.slice (Rect.whole S10240)) a
    (ReadAs.same.apply (View.read (Elt F)
        ((b9 : Memref sig .scVector .vmem S10256 .f32).slice (Rect.unit (s := S10256) ![0] S10240.size inb_S10256_S10240_0) (fun _ => rfl)).view
          (accAfter (grp (fs d)) (grp (fd d)) (hrow (htA d) (e128 ((cL L, iL L), 1))) (fz d) 20480)))
    (M := Finset.univ) (x := x) (Finset.mem_univ _)
  rw [e1] at e2
  rw [e2, emb_gRow]
  show accAfter (grp (fs d)) (grp (fd d)) (hrow (htA d) (e128 ((cL L, iL L), 1))) (fz d) 20480 _ = _
  congr 1
  refine funext fun (a : Fin 1) => ?_
  obtain rfl : a = 0 := Subsingleton.elim _ _
  apply Fin.ext
  first
    | (show 0 + 1 * (x 0).val = (x 0).val; omega)
    | (simp [Rect.idx, Rect.unit])

theorem wrG2 (a : Buf (Elt F) (aggLoc d)) :
    ∀ i ∈ (gRowK L 2).view.set,
      (gRowK L 2).view.writes (Elt F) a [⟨Rect.whole S10240, ReadAs.same.apply (View.read (Elt F)
        ((b10 : Memref sig .scVector .vmem S10256 .f32).slice (Rect.unit (s := S10256) ![0] S10240.size inb_S10256_S10240_0) (fun _ => rfl)).view
          (accAfter (grp (fs d)) (grp (fd d)) (hrow (htA d) (e128 ((cL L, iL L), 2))) (fz d) 20480))⟩] i
        = aggAofT fs fd fz htA d i := by
  intro i hi
  obtain ⟨x, -, rfl⟩ := Finset.mem_map.mp hi
  rw [View.writes_singleton]
  have e1 : ((gRowK L 2).view.slice (Rect.whole S10240)).emb x = (gRowK L 2).view.emb x := by
    show (gRowK L 2).view.emb ((Rect.whole S10240).emb x) = _
    rw [Rect.emb_whole_apply]
  have e2 := View.write_emb_of_mem (Val := Elt F) (v := (gRowK L 2).view.slice (Rect.whole S10240)) a
    (ReadAs.same.apply (View.read (Elt F)
        ((b10 : Memref sig .scVector .vmem S10256 .f32).slice (Rect.unit (s := S10256) ![0] S10240.size inb_S10256_S10240_0) (fun _ => rfl)).view
          (accAfter (grp (fs d)) (grp (fd d)) (hrow (htA d) (e128 ((cL L, iL L), 2))) (fz d) 20480)))
    (M := Finset.univ) (x := x) (Finset.mem_univ _)
  rw [e1] at e2
  rw [e2, emb_gRow]
  show accAfter (grp (fs d)) (grp (fd d)) (hrow (htA d) (e128 ((cL L, iL L), 2))) (fz d) 20480 _ = _
  congr 1
  refine funext fun (a : Fin 1) => ?_
  obtain rfl : a = 0 := Subsingleton.elim _ _
  apply Fin.ext
  first
    | (show 0 + 1 * (x 0).val = (x 0).val; omega)
    | (simp [Rect.idx, Rect.unit])

theorem wrG3 (a : Buf (Elt F) (aggLoc d)) :
    ∀ i ∈ (gRowK L 3).view.set,
      (gRowK L 3).view.writes (Elt F) a [⟨Rect.whole S10240, ReadAs.same.apply (View.read (Elt F)
        ((b11 : Memref sig .scVector .vmem S10256 .f32).slice (Rect.unit (s := S10256) ![0] S10240.size inb_S10256_S10240_0) (fun _ => rfl)).view
          (accAfter (grp (fs d)) (grp (fd d)) (hrow (htA d) (e128 ((cL L, iL L), 3))) (fz d) 20480))⟩] i
        = aggAofT fs fd fz htA d i := by
  intro i hi
  obtain ⟨x, -, rfl⟩ := Finset.mem_map.mp hi
  rw [View.writes_singleton]
  have e1 : ((gRowK L 3).view.slice (Rect.whole S10240)).emb x = (gRowK L 3).view.emb x := by
    show (gRowK L 3).view.emb ((Rect.whole S10240).emb x) = _
    rw [Rect.emb_whole_apply]
  have e2 := View.write_emb_of_mem (Val := Elt F) (v := (gRowK L 3).view.slice (Rect.whole S10240)) a
    (ReadAs.same.apply (View.read (Elt F)
        ((b11 : Memref sig .scVector .vmem S10256 .f32).slice (Rect.unit (s := S10256) ![0] S10240.size inb_S10256_S10240_0) (fun _ => rfl)).view
          (accAfter (grp (fs d)) (grp (fd d)) (hrow (htA d) (e128 ((cL L, iL L), 3))) (fz d) 20480)))
    (M := Finset.univ) (x := x) (Finset.mem_univ _)
  rw [e1] at e2
  rw [e2, emb_gRow]
  show accAfter (grp (fs d)) (grp (fd d)) (hrow (htA d) (e128 ((cL L, iL L), 3))) (fz d) 20480 _ = _
  congr 1
  refine funext fun (a : Fin 1) => ?_
  obtain rfl : a = 0 := Subsingleton.elim _ _
  apply Fin.ext
  first
    | (show 0 + 1 * (x 0).val = (x 0).val; omega)
    | (simp [Rect.idx, Rect.unit])

end GeomV
end VT1

/-! ## The second call's task obligation with contents named -/

section OblV

variable [FloatOps F]
variable (fs : (d : Dev nD) → Buf (Elt F) (srcLoc d)) (fd : (d : Dev nD) → Buf (Elt F) (dstLoc d)) (fz : (d : Dev nD) → Buf (Elt F) (zeroLoc d))
  (cntA : (d : Dev nD) → Buf (Elt F) (cntLoc d)) (htA : (d : Dev nD) → Buf (Elt F) (htLoc d))

/-- The second call's task obligation with contents named: handed its four rows of the transposed features at htA, every
    worker's task terminates without fault and hands back its four rows of the transposed aggregate at the accumulators'
    recursion over all the edge groups. -/
theorem tileObl1v' (hRs : ∀ (d : Dev nD) (j : (srcLoc d).ty.Idx), (fs d j).toNat < 10000)
    (hRd : ∀ (d : Dev nD) (j : (dstLoc d).ty.Idx), (fd d j).toNat < 10000) :
    (K (F := F)).TileObl (D (F := F)) 𝒱 (PV fs fd fz cntA htA (VT1.aggAof fs fd fz htA hRs hRd)) v₀ 1 :=
  tileObl1v_of_body fs fd fz cntA htA (VT1.aggAof fs fd fz htA hRs hRd)
    (VT1.tileBodyV_of (F := F) fs fd fz htA (VT1.aggAof fs fd fz htA hRs hRd) hRs hRd
      (fun d L f => VT1.wrH0 (F := F) htA d L f) (fun d L f => VT1.wrH1 (F := F) htA d L f)
      (fun d L f => VT1.wrH2 (F := F) htA d L f) (fun d L f => VT1.wrH3 (F := F) htA d L f)
      (fun d L f => VT1.wrZ0 (F := F) fz d L f) (fun d L f => VT1.wrZ1 (F := F) fz d L f)
      (fun d L f => VT1.wrZ2 (F := F) fz d L f) (fun d L f => VT1.wrZ3 (F := F) fz d L f)
      (fun d L a => VT1.wrG0 (F := F) fs fd fz htA d L a) (fun d L a => VT1.wrG1 (F := F) fs fd fz htA d L a)
      (fun d L a => VT1.wrG2 (F := F) fs fd fz htA d L a) (fun d L a => VT1.wrG3 (F := F) fs fd fz htA d L a))

end OblV

end Cert.KernelIdeal.Run
-- ==== Proof.VTop.lean ====
/-
  The kernel program's run names its result as the reference's result function of the arguments: the launch with contents,
  the two tasks with contents (the count array and the transposed aggregate being the tasks' own recursions), the transposed
  features being what the first region leaves, and the final equation from the two recursions' closed forms.
-/
import proofs.«207969_g80633716015134_cont_9to1_m_1245_11_alg».proof.Proof.VFrame
import proofs.«207969_g80633716015134_cont_9to1_m_1245_11_alg».proof.Proof.VFinal
import proofs.«207969_g80633716015134_cont_9to1_m_1245_11_alg».proof.Proof.VCF
import proofs.«207969_g80633716015134_cont_9to1_m_1245_11_alg».proof.Proof.VCF0b
import proofs.«207969_g80633716015134_cont_9to1_m_1245_11_alg».proof.Proof.VTile0
import proofs.«207969_g80633716015134_cont_9to1_m_1245_11_alg».proof.Proof.VTile1Final
import proofs.«207969_g80633716015134_cont_9to1_m_1245_11_alg».proof.Proof.AlgReduce

set_option maxRecDepth 16384

noncomputable section

namespace Cert.KernelIdeal.Run

open Cert.KernelIdeal Cert.KernelIdeal.Gen
open Idealize.ShloMosaic Idealize.ShloMosaic.ValueIdx Idealize.SL.Sem

section Top

variable (m : (ℓ : Loc nD τ sig) → Buf (Elt Ideal) ℓ)
  (hRs : ∀ (d : Dev nD) (j : (srcLoc d).ty.Idx), (fs m d j).toNat < 10000)
  (hRd : ∀ (d : Dev nD) (j : (dstLoc d).ty.Idx), (fd m d j).toNat < 10000)

/-- The count array after the first call: the first task's recursion, worker by worker. -/
def cntI : (d : Dev nD) → Buf (Elt Ideal) (cntLoc d) := VT0.cntAof (F := Ideal) (fs m) (fd m) (fz m) hRd
/-- The transposed features the second call reads: what the first region leaves. -/
def htI : (d : Dev nD) → Buf (Elt Ideal) (htLoc d) := fun d => W3 m (cntI m hRd) d ht'
/-- The transposed aggregate after the second call: the second task's recursion, row by row. -/
def aggI : (d : Dev nD) → Buf (Elt Ideal) (aggLoc d) := VT1.aggAof (F := Ideal) (fs m) (fd m) (fz m) (htI m hRd) hRs hRd

theorem htI_eq (d : Dev nD) : W3 m (cntI m hRd) d ht' = htI m hRd d := rfl

theorem tile0I : (K (F := Ideal)).TileObl (D (F := Ideal)) 𝒱 (PV (fs m) (fd m) (fz m) (cntI m hRd) (htI m hRd) (aggI m hRs hRd)) v₀ 0 :=
  VT0.tileObl0v (fs m) (fd m) (fz m) (htI m hRd) (aggI m hRs hRd) hRd

theorem tile1I : (K (F := Ideal)).TileObl (D (F := Ideal)) 𝒱 (PV (fs m) (fd m) (fz m) (cntI m hRd) (htI m hRd) (aggI m hRs hRd)) v₀ 1 :=
  tileObl1v' (fs m) (fd m) (fz m) (cntI m hRd) (htI m hRd) hRs hRd

theorem cf0I (d : Dev nD) (n : Fin 10240) :
    (∑ p : Fin 32, asCnt d (cntI m hRd d) (ix2 p (n56 n))) = ∑ e : Fin 327680, if dmP (eiOf m d) e = n.val then (1 : EReal) else 0 :=
  CF0_T0 m d hRd n

theorem cf1I (d : Dev nD) (r : Fin 128) (n : Fin 10240) :
    asAgg d (aggI m hRs hRd d) (ix2 r n) = ∑ e : Fin 327680, if dmP (eiOf m d) e = n.val
      then asHt d (W3 m (cntI m hRd) d ht') (ix2 r (⟨(sP (eiOf m d) e).toNat % 10240, Nat.mod_lt _ (by omega)⟩ : Fin 10240)) else 0 :=
  CF1_of m (htI m hRd) (aggI m hRs hRd) d (hRs d) (hRd d)
    (fun r n => VT1.aggAof_apply (fs m) (fd m) (fz m) (htI m hRd) hRs hRd d r n) r n

end Top

/-- The kernel program, from the input domain, runs, ends with its result array at the reference's result function of its
    arguments, and leaves the arguments unchanged. -/
theorem kernelValue : Cert.Proof.KernelValue := by
  intro m g hpre
  have hP : PreOK (F := Ideal) m := hpre
  have hRs : ∀ (d : Dev nD) (j : (srcLoc d).ty.Idx), (fs m d j).toNat < 10000 := fun d j => fs_range m hP d j
  have hRd : ∀ (d : Dev nD) (j : (dstLoc d).ty.Idx), (fd m d j).toNat < 10000 := fun d j => fd_range m hP d j
  have hrun := run_value (F := Ideal) m g (cntI m hRd) (htI m hRd) (aggI m hRs hRd) (tile0I m hRs hRd) (tile1I m hRs hRd) (htI_eq m hRd)
  refine (θ_run _ _ _).mono (fun r h c => ⟨(h c).1.trans ?_, (h c).2⟩) hrun
  exact final_eq m (cntI m hRd) (aggI m hRs hRd) c (inRange_of_preOK m hP c) (realX_of_preOK m hP c) (realW_of_preOK m hP c)
    (cf0I m hRd c) (cf1I m hRs hRd c)

end Cert.KernelIdeal.Run

end
-- ==== Proof.lean ====
/-
  The certificate of a graph-convolution layer: a kernel program of thirty-five threads (the TensorCore's main program with
  two gridded regions, two sequencers, thirty-two vector subcores that count in-degrees and then aggregate neighbours'
  features) against a host reference.

  Each of the three programs runs to its end from the input domain, faults nowhere and leaves its four arguments unchanged —
  the kernel program at the word level and at the extended reals by one argument written once at any float instance (the
  launch of the two vector-subcore calls; the main program's host operations and its two regions; each vector subcore's
  task at a symbolic worker; each region's body at a symbolic grid point), the reference from its run as a straight line of
  host operations. The idealization rewrote nothing. The two results are equal as extended reals: the kernel program's run,
  repeated with every array's contents named (each task's accumulator as the program's own recursion over groups of
  sixteen edges, each region's arrays as functions of the arrays it finds), ends with its result array at the reference's
  result function of the arguments — the per-worker counts sum to the number of edges into a node that are no self-loops
  (padding positions are self-loops and land on a dummy slot), so the degree factors and the scaled linear map are the
  reference's; the accumulated rows are the reference's messages summed over the edges into the node; and for real features
  and weights the reference's result has exactly the kernel's form, scaling after the product.
-/
import proofs.«207969_g80633716015134_cont_9to1_m_1245_11_alg».proof.Defs
import proofs.«207969_g80633716015134_cont_9to1_m_1245_11_alg».proof.Proof.Gen.Kernel
import proofs.«207969_g80633716015134_cont_9to1_m_1245_11_alg».proof.Proof.Gen.KernelIdeal
import proofs.«207969_g80633716015134_cont_9to1_m_1245_11_alg».proof.Proof.Gen.ReferenceIdeal
import proofs.«207969_g80633716015134_cont_9to1_m_1245_11_alg».proof.Proof.Gen.Pre_input_domain
import proofs.«207969_g80633716015134_cont_9to1_m_1245_11_alg».proof.Proof.KClaims
import proofs.«207969_g80633716015134_cont_9to1_m_1245_11_alg».proof.Proof.BClaims
import proofs.«207969_g80633716015134_cont_9to1_m_1245_11_alg».proof.Proof.RefFrame
import proofs.«207969_g80633716015134_cont_9to1_m_1245_11_alg».proof.Proof.AlgReduce
import proofs.«207969_g80633716015134_cont_9to1_m_1245_11_alg».proof.Proof.VTop
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel (hKernel := Cert.Kernel.Gen.facts) (hPre_input_domain := Cert.Pre_input_domain.Gen.facts) :=
  fun m ρ hpre => (θ_run _ _ _).mono (fun _ h c => h c) (Cert.Kernel.Run.run_args_of_pre (F := Bits) m ρ hpre)

/-- The idealized kernel program runs and leaves its arguments unchanged. -/
theorem frame_ki : Cert.frame_KernelIdeal (hKernelIdeal := Cert.KernelIdeal.Gen.facts) (hPre_input_domain := Cert.Pre_input_domain.Gen.facts) :=
  fun m ρ hpre => (θ_run _ _ _).mono (fun _ h c => h c) (Cert.KernelIdeal.Run.run_args_of_pre (F := Ideal) m ρ hpre)

theorem claim : Cert.Claim := ⟨Cert.Kernel.Gen.facts, Cert.KernelIdeal.Gen.facts, Cert.ReferenceIdeal.Gen.facts, Cert.Pre_input_domain.Gen.facts,
  frame_k, frame_ki, Cert.ReferenceIdeal.RefRun.frame_ri, trivial, algebraic_of_kernelValue Cert.KernelIdeal.Run.kernelValue⟩

end Cert.Proof

end
